-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x2x4x64x64 : Shape := ⟨5, ![2, 2, 4, 64, 64]⟩
abbrev S800000 : Shape := ⟨1, ![800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x2x4x64x64 : S_.BroadcastsInDim S2x2x4x64x64 (![] : Fin 0 → Fin S2x2x4x64x64.rank)
  reducesTo_S2x2x4x64x64_S_d0_1_2_3_4 : S2x2x4x64x64.ReducesTo [0, 1, 2, 3, 4] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg18 : FVec F S64x2 .f32) (main_arg19 : FVec F S2 .f32) (main_v63 : IVec S_ 1) (main_v67 : IVec S_ 1) : IVec S_ 1 :=
  let main_v68 : IVec S_ 1 := andi main_v63 main_v67
  let main_v69 : FVec F S64x2 .f32 := Host.absf main_arg18
  let main_cst_26 : FVec F S_ .f32 := constant S_ .f32 0x7F800000#32
  let main_v70 : FVec F S64x2 .f32 := broadcastInDim S64x2 ![] bcast_S_S64x2 main_cst_26
  let main_v71 : IVec S64x2 1 := cmpf .olt main_v69 main_v70
  let main_c_27 : IVec S_ 1 := constantI S_ 1 1#1
  let main_v72 : IVec S_ 1 := (fun x v => Host.reduce IntOp.andi x v reducesTo_S64x2_S_d0_1 h_S_) main_v71 main_c_27
  let main_v73 : IVec S_ 1 := andi main_v68 main_v72
  let main_v74 : FVec F S2 .f32 := Host.absf main_arg19
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg15 : FVec F S64 .f32) (main_arg16 : FVec F S64 .f32) (main_arg17 : FVec F S64 .f32) (main_arg18 : FVec F S64x2 .f32) (main_arg19 : FVec F S2 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg18 main_arg19 main_v63 main_v67

def fn_part2 {F : FTy → Type} [FloatOps F] (main_arg11 : FVec F S64 .f32) (main_arg12 : FVec F S64 .f32) (main_arg13 : FVec F S64 .f32) (main_arg14 : FVec F S64x64 .f32) (main_arg15 : FVec F S64 .f32) (main_arg16 : FVec F S64 .f32) (main_arg17 : FVec F S64 .f32) (main_arg18 : FVec F S64x2 .f32) (main_arg19 : FVec F S2 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_arg18 main_arg19 main_v48 main_v49 main_v50

def fn_part1 {F : FTy → Type} [FloatOps F] (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64 .f32) (main_arg17 : FVec F S64 .f32) (main_arg18 : FVec F S64x2 .f32) (main_arg19 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_arg13 main_arg14 main_arg15 main_arg16 main_arg17 main_arg18 main_arg19 main_v33

def fn {F : FTy → Type} [FloatOps F] (main_arg0 : FVec F S50000x128 .f32) (main_arg1 : FVec F S2x2x4x64x64 .f32) (main_arg2 : IVec S800000 32) (main_arg3 : IVec S800000 32) (main_arg4 : IVec S50000 32) (main_arg5 : IVec S800000 32) (main_arg6 : FVec F S128x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64 .f32) (main_arg17 : FVec F S64 .f32) (main_arg18 : FVec F S64x2 .f32) (main_arg19 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x2x4x64x64 .f32 := Host.absf main_arg1
  let main_cst_0 : FVec F S_ .f32 := constant S_ .f32 0x7F800000#32
  let main_v5 : FVec F S2x2x4x64x64 .f32 := broadcastInDim S2x2x4x64x64 ![] bcast_S_S2x2x4x64x64 main_cst_0
  let main_v6 : IVec S2x2x4x64x64 1 := cmpf .olt main_v4 main_v5
  let main_c_1 : IVec S_ 1 := constantI S_ 1 1#1
  let main_v7 : IVec S_ 1 := (fun x v => Host.reduce IntOp.andi x v reducesTo_S2x2x4x64x64_S_d0_1_2_3_4 h_S_) main_v6 main_c_1
  let main_v8 : IVec S_ 1 := andi main_v3 main_v7
  let main_v9 : FVec F S128x64 .f32 := Host.absf main_arg6
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x2x4x64x64 : Shape := ⟨5, ![2, 2, 4, 64, 64]⟩
abbrev S800000 : Shape := ⟨1, ![800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S16x64x64 : Shape := ⟨3, ![16, 64, 64]⟩
abbrev S1024x64 : Shape := ⟨2, ![1024, 64]⟩
abbrev S64x1024 : Shape := ⟨2, ![64, 1024]⟩
abbrev S_ : Shape := ⟨0, ![]⟩
abbrev S800000x1 : Shape := ⟨2, ![800000, 1]⟩
abbrev S1x64 : Shape := ⟨2, ![1, 64]⟩
abbrev S50000x64 : Shape := ⟨2, ![50000, 64]⟩
abbrev S50000x1024 : Shape := ⟨2, ![50000, 1024]⟩
abbrev S2000x128 : Shape := ⟨2, ![2000, 128]⟩
abbrev S2000x64 : Shape := ⟨2, ![2000, 64]⟩
abbrev S2000x1024 : Shape := ⟨2, ![2000, 1024]⟩
abbrev S50000x16x64 : Shape := ⟨3, ![50000, 16, 64]⟩
abbrev S800000x2 : Shape := ⟨2, ![800000, 2]⟩
abbrev S800000x64 : Shape := ⟨2, ![800000, 64]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 180
  | .vmem => 87
  | .smem => 0
  | _ => 0

abbrev hbmTy0_0 (i : Nat) : BufTy := match i % 128 with
  | 0 => ⟨S50000x128, .f32⟩
  | 1 => ⟨S2x2x4x64x64, .f32⟩
  | 2 => ⟨S800000, .i32⟩
  | 3 => ⟨S800000, .i32⟩
  | 4 => ⟨S50000, .i32⟩
  | 5 => ⟨S800000, .i32⟩
  | 6 => ⟨S128x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64, .f32⟩
  | 17 => ⟨S64, .f32⟩
  | 18 => ⟨S64x2, .f32⟩
  | 19 => ⟨S2, .f32⟩
  | 20 => ⟨S16x64x64, .f32⟩
  | 21 => ⟨S1024x64, .f32⟩
  | 22 => ⟨S64x1024, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .i32⟩
  | 32 => ⟨S_, .i32⟩
  | 33 => ⟨S800000, .i32⟩
  | 34 => ⟨S800000, .i32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .i32⟩
  | 44 => ⟨S800000, .i32⟩
  | 45 => ⟨S_, .i32⟩
  | 46 => ⟨S800000, .i32⟩
  | 47 => ⟨S800000, .i32⟩
  | 48 => ⟨S800000, .i32⟩
  | 49 => ⟨S1x64, .f32⟩
  | 50 => ⟨S1x64, .f32⟩
  | 51 => ⟨S1x64, .f32⟩
  | 52 => ⟨S50000x64, .f32⟩
  | 53 => ⟨S50000x1024, .f32⟩
  | 54 => ⟨S50000x16x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x1, .i32⟩
  | 71 => ⟨S800000x2, .i32⟩
  | 72 => ⟨S800000x64, .f32⟩
  | 73 => ⟨S_, .f32⟩
  | 74 => ⟨S50000x64, .f32⟩
  | 75 => ⟨S800000x1, .i32⟩
  | 76 => ⟨S50000x64, .f32⟩
  | 77 => ⟨S50000x64, .f32⟩
  | 78 => ⟨S1x64, .f32⟩
  | 79 => ⟨S1x64, .f32⟩
  | 80 => ⟨S_, .f32⟩
  | 81 => ⟨S1x64, .f32⟩
  | 82 => ⟨S1x64, .f32⟩
  | 83 => ⟨S_, .f32⟩
  | 84 => ⟨S1x64, .f32⟩
  | 85 => ⟨S1x64, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S50000x64, .f32⟩
  | 92 => ⟨S1x64, .f32⟩
  | 93 => ⟨S1x64, .f32⟩
  | 94 => ⟨S1x64, .f32⟩
  | 95 => ⟨S50000x64, .f32⟩
  | 96 => ⟨S50000x1024, .f32⟩
  | 97 => ⟨S50000x16x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x1, .i32⟩
  | 114 => ⟨S800000x2, .i32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S50000x64, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S_, .f32⟩
  | 127 => ⟨S1x64, .f32⟩
  | _ => ⟨S50000x128, .f32⟩

abbrev hbmTy0_1 (i : Nat) : BufTy := match i % 128 with
  | 0 => ⟨S1x64, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S50000x64, .f32⟩
  | 7 => ⟨S1x64, .f32⟩
  | 8 => ⟨S1x64, .f32⟩
  | 9 => ⟨S1x64, .f32⟩
  | 10 => ⟨S50000x64, .f32⟩
  | 11 => ⟨S50000x1024, .f32⟩
  | 12 => ⟨S50000x16x64, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x1, .i32⟩
  | 29 => ⟨S800000x2, .i32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S50000x64, .f32⟩
  | 36 => ⟨S1x64, .f32⟩
  | 37 => ⟨S1x64, .f32⟩
  | 38 => ⟨S_, .f32⟩
  | 39 => ⟨S1x64, .f32⟩
  | 40 => ⟨S1x64, .f32⟩
  | 41 => ⟨S_, .f32⟩
  | 42 => ⟨S1x64, .f32⟩
  | 43 => ⟨S1x64, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S50000x64, .f32⟩
  | 50 => ⟨S1x2, .f32⟩
  | 51 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S64x1024, .f32⟩
  | .local _ .vmem, ⟨5, _⟩ => ⟨S2000x64, .f32⟩
  | .local _ .vmem, ⟨6, _⟩ => ⟨S2000x64, .f32⟩
  | .local _ .vmem, ⟨7, _⟩ => ⟨S2000x1024, .f32⟩
  | .local _ .vmem, ⟨8, _⟩ => ⟨S2000x1024, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S2000x64, .f32⟩
  | .local _ .vmem, ⟨20, _⟩ => ⟨S2000x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S64x64, .f32⟩
  | .local _ .vmem, ⟨30, _⟩ => ⟨S1x64, .f32⟩
  | .local _ .vmem, ⟨31, _⟩ => ⟨S64x1024, .f32⟩
  | .local _ .vmem, ⟨32, _⟩ => ⟨S2000x64, .f32⟩
  | .local _ .vmem, ⟨33, _⟩ => ⟨S2000x64, .f32⟩
  | .local _ .vmem, ⟨34, _⟩ => ⟨S2000x1024, .f32⟩
  | .local _ .vmem, ⟨35, _⟩ => ⟨S2000x1024, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S2000x64, .f32⟩
  | .local _ .vmem, ⟨47, _⟩ => ⟨S2000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S64x64, .f32⟩
  | .local _ .vmem, ⟨57, _⟩ => ⟨S1x64, .f32⟩
  | .local _ .vmem, ⟨58, _⟩ => ⟨S64x1024, .f32⟩
  | .local _ .vmem, ⟨59, _⟩ => ⟨S2000x64, .f32⟩
  | .local _ .vmem, ⟨60, _⟩ => ⟨S2000x64, .f32⟩
  | .local _ .vmem, ⟨61, _⟩ => ⟨S2000x1024, .f32⟩
  | .local _ .vmem, ⟨62, _⟩ => ⟨S2000x1024, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S2000x64, .f32⟩
  | .local _ .vmem, ⟨67, _⟩ => ⟨S2000x64, .f32⟩
  | .local _ .vmem, ⟨68, _⟩ => ⟨S2000x64, .f32⟩
  | .local _ .vmem, ⟨69, _⟩ => ⟨S1x64, .f32⟩
  | .local _ .vmem, ⟨70, _⟩ => ⟨S1x64, .f32⟩
  | .local _ .vmem, ⟨71, _⟩ => ⟨S1x64, .f32⟩
  | .local _ .vmem, ⟨72, _⟩ => ⟨S1x64, .f32⟩
  | .local _ .vmem, ⟨73, _⟩ => ⟨S2000x64, .f32⟩
  | .local _ .vmem, ⟨74, _⟩ => ⟨S2000x64, .f32⟩
  | .local _ .vmem, ⟨75, _⟩ => ⟨S1x64, .f32⟩
  | .local _ .vmem, ⟨76, _⟩ => ⟨S1x64, .f32⟩
  | .local _ .vmem, ⟨77, _⟩ => ⟨S1x64, .f32⟩
  | .local _ .vmem, ⟨78, _⟩ => ⟨S1x64, .f32⟩
  | .local _ .vmem, ⟨79, _⟩ => ⟨S2000x64, .f32⟩
  | .local _ .vmem, ⟨80, _⟩ => ⟨S2000x64, .f32⟩
  | .local _ .vmem, ⟨81, _⟩ => ⟨S2000x64, .f32⟩
  | .local _ .vmem, ⟨82, _⟩ => ⟨S2000x64, .f32⟩
  | .local _ .vmem, ⟨83, _⟩ => ⟨S64x2, .f32⟩
  | .local _ .vmem, ⟨84, _⟩ => ⟨S1x2, .f32⟩
  | .local _ .vmem, ⟨85, _⟩ => ⟨S2000x2, .f32⟩
  | .local _ .vmem, ⟨86, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_c_2 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26_0 : Ref sig .tc := ⟨.hbm, 52, rfl⟩
abbrev main_v26_1 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_c_8 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45_0 : Ref sig .tc := ⟨.hbm, 77, rfl⟩
abbrev main_v45_1 : Ref sig .tc := ⟨.hbm, 78, rfl⟩
abbrev main_v45_2 : Ref sig .tc := ⟨.hbm, 79, rfl⟩
abbrev main_cst_9 : Ref sig .tc := ⟨.hbm, 80, rfl⟩
abbrev main_v46 : Ref sig .tc := ⟨.hbm, 81, rfl⟩
abbrev main_v47 : Ref sig .tc := ⟨.hbm, 82, rfl⟩
abbrev main_cst_10 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_11 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58_0 : Ref sig .tc := ⟨.hbm, 95, rfl⟩
abbrev main_v58_1 : Ref sig .tc := ⟨.hbm, 96, rfl⟩
abbrev main_v59 : Ref sig .tc := ⟨.hbm, 97, rfl⟩
abbrev main_c_12 : Ref sig .tc := ⟨.hbm, 98, rfl⟩
abbrev main_v60 : Ref sig .tc := ⟨.hbm, 99, rfl⟩
abbrev main_v61 : Ref sig .tc := ⟨.hbm, 100, rfl⟩
abbrev main_c_13 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_14 : Ref sig .tc := ⟨.hbm, 105, rfl⟩
abbrev main_v65 : Ref sig .tc := ⟨.hbm, 106, rfl⟩
abbrev main_v66 : Ref sig .tc := ⟨.hbm, 107, rfl⟩
abbrev main_c_15 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_16 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77_0 : Ref sig .tc := ⟨.hbm, 120, rfl⟩
abbrev main_v77_1 : Ref sig .tc := ⟨.hbm, 121, rfl⟩
abbrev main_v77_2 : Ref sig .tc := ⟨.hbm, 122, rfl⟩
abbrev main_cst_17 : Ref sig .tc := ⟨.hbm, 123, rfl⟩
abbrev main_v78 : Ref sig .tc := ⟨.hbm, 124, rfl⟩
abbrev main_v79 : Ref sig .tc := ⟨.hbm, 125, rfl⟩
abbrev main_cst_18 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_19 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90_0 : Ref sig .tc := ⟨.hbm, 138, rfl⟩
abbrev main_v90_1 : Ref sig .tc := ⟨.hbm, 139, rfl⟩
abbrev main_v91 : Ref sig .tc := ⟨.hbm, 140, rfl⟩
abbrev main_c_20 : Ref sig .tc := ⟨.hbm, 141, rfl⟩
abbrev main_v92 : Ref sig .tc := ⟨.hbm, 142, rfl⟩
abbrev main_v93 : Ref sig .tc := ⟨.hbm, 143, rfl⟩
abbrev main_c_21 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_c_22 : Ref sig .tc := ⟨.hbm, 148, rfl⟩
abbrev main_v97 : Ref sig .tc := ⟨.hbm, 149, rfl⟩
abbrev main_v98 : Ref sig .tc := ⟨.hbm, 150, rfl⟩
abbrev main_c_23 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_24 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109_0 : Ref sig .tc := ⟨.hbm, 163, rfl⟩
abbrev main_v109_1 : Ref sig .tc := ⟨.hbm, 164, rfl⟩
abbrev main_v109_2 : Ref sig .tc := ⟨.hbm, 165, rfl⟩
abbrev main_cst_25 : Ref sig .tc := ⟨.hbm, 166, rfl⟩
abbrev main_v110 : Ref sig .tc := ⟨.hbm, 167, rfl⟩
abbrev main_v111 : Ref sig .tc := ⟨.hbm, 168, rfl⟩
abbrev main_cst_26 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_cst_27 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_scratch0 : Ref sig .tc := ⟨.vmem, 44, rfl⟩
abbrev cc4_scratch1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg4_1 : Ref sig .tc := ⟨.vmem, 60, rfl⟩
abbrev cc6_stg5_0 : Ref sig .tc := ⟨.vmem, 61, rfl⟩
abbrev cc6_stg5_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg2_1 : Ref sig .tc := ⟨.vmem, 68, rfl⟩
abbrev cc7_stg3_0 : Ref sig .tc := ⟨.vmem, 69, rfl⟩
abbrev cc7_stg4_0 : Ref sig .tc := ⟨.vmem, 70, rfl⟩
abbrev cc7_scratch0 : Ref sig .tc := ⟨.vmem, 71, rfl⟩
abbrev cc7_scratch1 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg5_0 : Ref sig .tc := ⟨.vmem, 79, rfl⟩
abbrev cc8_stg5_1 : Ref sig .tc := ⟨.vmem, 80, rfl⟩
abbrev cc9_stg0_0 : Ref sig .tc := ⟨.vmem, 81, rfl⟩
abbrev cc9_stg0_1 : Ref sig .tc := ⟨.vmem, 82, rfl⟩
abbrev cc9_stg1_0 : Ref sig .tc := ⟨.vmem, 83, rfl⟩
abbrev cc9_stg2_0 : Ref sig .tc := ⟨.vmem, 84, rfl⟩
abbrev cc9_stg3_0 : Ref sig .tc := ⟨.vmem, 85, rfl⟩
abbrev cc9_stg3_1 : Ref sig .tc := ⟨.vmem, 86, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem4_1 : DmaSem sig := 56
abbrev cc6_sem5_0 : DmaSem sig := 57
abbrev cc6_sem5_1 : DmaSem sig := 58
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem2_1 : DmaSem sig := 64
abbrev cc7_sem3_0 : DmaSem sig := 65
abbrev cc7_sem4_0 : DmaSem sig := 66
abbrev cc8_sem0_0 : DmaSem sig := 67
abbrev cc8_sem0_1 : DmaSem sig := 68
abbrev cc8_sem1_0 : DmaSem sig := 69
abbrev cc8_sem2_0 : DmaSem sig := 70
abbrev cc8_sem3_0 : DmaSem sig := 71
abbrev cc8_sem4_0 : DmaSem sig := 72
abbrev cc8_sem5_0 : DmaSem sig := 73
abbrev cc8_sem5_1 : DmaSem sig := 74
abbrev cc9_sem0_0 : DmaSem sig := 75
abbrev cc9_sem0_1 : DmaSem sig := 76
abbrev cc9_sem1_0 : DmaSem sig := 77
abbrev cc9_sem2_0 : DmaSem sig := 78
abbrev cc9_sem3_0 : DmaSem sig := 79
abbrev cc9_sem3_1 : DmaSem sig := 80

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_15 : BitVec 32 := 0#32
  let v26 : BitVec 1 := Scalar.cmpi .ne v25 c0_i32_15
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_15 : BitVec 32 := 0#32
  let v26 : BitVec 1 := Scalar.cmpi .ne v25 c0_i32_15
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2000x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def k7_cond2 (i : grid7.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_15 : BitVec 32 := 0#32
  let v26 : BitVec 1 := Scalar.cmpi .ne v25 c0_i32_15
  v26

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x2 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x2 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x2 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  shapeCasts_S2x2x4x64x64_S16x64x64 : S2x2x4x64x64.ShapeCasts S16x64x64
  shapeCasts_S16x64x64_S1024x64 : S16x64x64.ShapeCasts S1024x64
  transposes_S1024x64_S64x1024_1_0 : S1024x64.Transposes [1, 0] S64x1024
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S2000x1024_S2000x1024_0_0 : ∀ a, (![0, 0] : Fin 2 → Nat) a + S2000x1024.size a ≤ S2000x1024.size a
  h_S2000x1024 : 0 < S2000x1024.numel
  shapeCasts_S50000x1024_S50000x16x64 : S50000x1024.ShapeCasts S50000x16x64
  concatenates_S800000x1_S800000x1_S800000x2_d1 : Shape.Concatenates [S800000x1, S800000x1] S800000x2 1
  bcast_S_S50000x64 : S_.BroadcastsInDim S50000x64 (![] : Fin 0 → Fin S50000x64.rank)
  shapeCasts_S2000x64_S2000x64 : S2000x64.ShapeCasts S2000x64
  reduces_S2000x64_S64 : S2000x64.Reduces [0] S64
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S50000_S800000x1_S800000_n_0_n_n_0_1_1_wf : GatherDims.WF S50000 S800000x1 S800000 [] [0] [] [0] [] 1 ![1]
  dot_S2000x128_S128x64_S2000x64_1_0_0_1_n_n_wf : DotDims.WF S2000x128 S128x64 S2000x64 [1] [0] [0] [1] [] []
  dot_S2000x64_S64x1024_S2000x1024_1_0_0_1_n_n_wf : DotDims.WF S2000x64 S64x1024 S2000x1024 [1] [0] [0] [1] [] []
  gather_S50000x16x64_S800000x2_S800000x64_1_01_n_n_01_1_1164_wf : GatherDims.WF S50000x16x64 S800000x2 S800000x64 [1] [0, 1] [] [0, 1] [] 1 ![1, 1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1024.size a ≤ S50000x1024.size a
  hwx0_5 : ∀ i : grid0.Coords, EltTy.bits .f32 = 32 ∨ (Rect.block (s := S50000x1024) S2000x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1024.size a ≤ S64x1024.size a
  hwx3_3 : ∀ i : grid3.Coords, EltTy.bits .f32 = 32 ∨ (Rect.block (s := S64x1024) S64x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1024.size a ≤ S50000x1024.size a
  hwx3_5 : ∀ i : grid3.Coords, EltTy.bits .f32 = 32 ∨ (Rect.block (s := S50000x1024) S2000x1024.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S50000x64.size a
  hwx5_5 : ∀ i : grid5.Coords, EltTy.bits .f32 = 32 ∨ (Rect.block (s := S50000x64) S2000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1024.size a ≤ S64x1024.size a
  hwx6_3 : ∀ i : grid6.Coords, EltTy.bits .f32 = 32 ∨ (Rect.block (s := S64x1024) S64x1024.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S50000x64.size a
  hwx6_4 : ∀ i : grid6.Coords, EltTy.bits .f32 = 32 ∨ (Rect.block (s := S50000x64) S2000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x1024.size a ≤ S50000x1024.size a
  hwx6_5 : ∀ i : grid6.Coords, EltTy.bits .f32 = 32 ∨ (Rect.block (s := S50000x1024) S2000x1024.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S50000x64.size a
  hwx7_1 : ∀ i : grid7.Coords, EltTy.bits .f32 = 32 ∨ (Rect.block (s := S50000x64) S2000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S50000x64.size a
  hwx7_2 : ∀ i : grid7.Coords, EltTy.bits .f32 = 32 ∨ (Rect.block (s := S50000x64) S2000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x64.size a ≤ S50000x64.size a
  hwx8_5 : ∀ i : grid8.Coords, EltTy.bits .f32 = 32 ∨ (Rect.block (s := S50000x64) S2000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S50000x64.size a
  hwx9_0 : ∀ i : grid9.Coords, EltTy.bits .f32 = 32 ∨ (Rect.block (s := S50000x64) S2000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x2.size a ≤ S64x2.size a
  hwx9_1 : ∀ i : grid9.Coords, EltTy.bits .f32 = 32 ∨ (Rect.block (s := S64x2) S64x2.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x2.size a ≤ S1x2.size a
  hwx9_2 : ∀ i : grid9.Coords, EltTy.bits .f32 = 32 ∨ (Rect.block (s := S1x2) S1x2.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x2.size a ≤ S50000x2.size a
  hwx9_3 : ∀ i : grid9.Coords, EltTy.bits .f32 = 32 ∨ (Rect.block (s := S50000x2) S2000x2.size (cc9_transform_3 i) (hinb9_3 i)).WholeWords (EltTy.packing .f32)

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1024_S2000x1024_1_0_0_1_n_n : DotDims S2000x64 S64x1024 S2000x1024 where
  lhsContracting := [1]
  rhsContracting := [0]
  lhsNonContracting := [0]
  rhsNonContracting := [1]
  lhsBatch := []
  rhsBatch := []
  wf := dot_S2000x64_S64x1024_S2000x1024_1_0_0_1_n_n_wf
def gather_S50000x16x64_S800000x2_S800000x64_1_01_n_n_01_1_1164 : GatherDims S50000x16x64 S800000x2 S800000x64 where
  offsetDims := [1]
  collapsedSliceDims := [0, 1]
  operandBatchingDims := []
  startIndicesBatchingDims := []
  startIndexMap := [0, 1]
  indexVectorDim := 1
  sliceSizes := ![1, 1, 64]
  wf := gather_S50000x16x64_S800000x2_S800000x64_1_01_n_n_01_1_1164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S2000x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S2000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45_2) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v45_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v2) S64x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58_0) S2000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v58_1) S2000x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v58_0) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v77_0) S2000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v77_1) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77_2) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v77_0) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S2000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v86) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v2) S64x1024.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90_0) S2000x64.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v90_1) S2000x1024.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v90_0) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v109_0) S2000x64.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v109_1) S1x64.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v109_2) S1x64.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun _ => false | 3 => fun i => !(k7_cond2 i == 1#1) | 4 => fun i => !(k7_cond2 i == 1#1) | ⟨_ + 5, h⟩ => absurd h (Nat.not_lt.2 (Nat.le_add_left _ _))

abbrev win8_0 : Pipeline.Window sig grid8 :=
  Pipeline.Window.ofSpec (Memref.whole main_v109_0) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v111) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v117) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v88) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v89) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v118) S2000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v118) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg18) S64x2.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v119) S1x2.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v120) S2000x2.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x2x4x64x64 : Shape := ⟨5, ![2, 2, 4, 64, 64]⟩
abbrev S800000 : Shape := ⟨1, ![800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S16x64x64 : Shape := ⟨3, ![16, 64, 64]⟩
abbrev S_ : Shape := ⟨0, ![]⟩
abbrev S800000x1 : Shape := ⟨2, ![800000, 1]⟩
abbrev S50000x64 : Shape := ⟨2, ![50000, 64]⟩
abbrev S1x64 : Shape := ⟨2, ![1, 64]⟩
abbrev S50000x16x64 : Shape := ⟨3, ![50000, 16, 64]⟩
abbrev S800000x2 : Shape := ⟨2, ![800000, 2]⟩
abbrev S800000x64 : Shape := ⟨2, ![800000, 64]⟩
abbrev S50000x2 : Shape := ⟨2, ![50000, 2]⟩
abbrev S1x2 : Shape := ⟨2, ![1, 2]⟩

abbrev nBuf : Space → Nat
  | .hbm => 276
  | .vmem => 0
  | .smem => 0
  | _ => 0

abbrev hbmTy0_0 (i : Nat) : BufTy := match i % 128 with
  | 0 => ⟨S50000x128, .f32⟩
  | 1 => ⟨S2x2x4x64x64, .f32⟩
  | 2 => ⟨S800000, .i32⟩
  | 3 => ⟨S800000, .i32⟩
  | 4 => ⟨S50000, .i32⟩
  | 5 => ⟨S800000, .i32⟩
  | 6 => ⟨S128x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64, .f32⟩
  | 17 => ⟨S64, .f32⟩
  | 18 => ⟨S64x2, .f32⟩
  | 19 => ⟨S2, .f32⟩
  | 20 => ⟨S16x64x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .i32⟩
  | 30 => ⟨S_, .i32⟩
  | 31 => ⟨S800000, .i32⟩
  | 32 => ⟨S800000, .i32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .i32⟩
  | 42 => ⟨S800000, .i32⟩
  | 43 => ⟨S_, .i32⟩
  | 44 => ⟨S800000, .i32⟩
  | 45 => ⟨S800000, .i32⟩
  | 46 => ⟨S800000, .i32⟩
  | 47 => ⟨S50000x64, .f32⟩
  | 48 => ⟨S1x64, .f32⟩
  | 49 => ⟨S50000x64, .f32⟩
  | 50 => ⟨S50000x64, .f32⟩
  | 51 => ⟨S50000x16x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x1, .i32⟩
  | 68 => ⟨S800000x2, .i32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S50000x64, .f32⟩
  | 75 => ⟨S_, .f32⟩
  | 76 => ⟨S64, .f32⟩
  | 77 => ⟨S_, .f32⟩
  | 78 => ⟨S64, .f32⟩
  | 79 => ⟨S64, .f32⟩
  | 80 => ⟨S_, .i32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S50000x64, .f32⟩
  | 88 => ⟨S50000x64, .f32⟩
  | 89 => ⟨S50000x64, .f32⟩
  | 90 => ⟨S_, .f32⟩
  | 91 => ⟨S_, .f32⟩
  | 92 => ⟨S_, .f32⟩
  | 93 => ⟨S_, .f32⟩
  | 94 => ⟨S64, .f32⟩
  | 95 => ⟨S64, .f32⟩
  | 96 => ⟨S64, .f32⟩
  | 97 => ⟨S_, .f32⟩
  | 98 => ⟨S_, .i1⟩
  | 99 => ⟨S_, .f32⟩
  | 100 => ⟨S_, .f32⟩
  | 101 => ⟨S64, .f32⟩
  | 102 => ⟨S64, .f32⟩
  | 103 => ⟨S1x64, .f32⟩
  | 104 => ⟨S50000x64, .f32⟩
  | 105 => ⟨S50000x64, .f32⟩
  | 106 => ⟨S_, .f32⟩
  | 107 => ⟨S64, .f32⟩
  | 108 => ⟨S64, .f32⟩
  | 109 => ⟨S64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S50000x64, .f32⟩
  | 123 => ⟨S1x64, .f32⟩
  | 124 => ⟨S50000x64, .f32⟩
  | 125 => ⟨S50000x64, .f32⟩
  | 126 => ⟨S50000x16x64, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x1, .i32⟩
  | 15 => ⟨S800000x2, .i32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S50000x64, .f32⟩
  | 22 => ⟨S_, .f32⟩
  | 23 => ⟨S64, .f32⟩
  | 24 => ⟨S_, .f32⟩
  | 25 => ⟨S64, .f32⟩
  | 26 => ⟨S64, .f32⟩
  | 27 => ⟨S_, .i32⟩
  | 28 => ⟨S_, .f32⟩
  | 29 => ⟨S64, .f32⟩
  | 30 => ⟨S1x64, .f32⟩
  | 31 => ⟨S_, .f32⟩
  | 32 => ⟨S1x64, .f32⟩
  | 33 => ⟨S1x64, .f32⟩
  | 34 => ⟨S50000x64, .f32⟩
  | 35 => ⟨S50000x64, .f32⟩
  | 36 => ⟨S50000x64, .f32⟩
  | 37 => ⟨S_, .f32⟩
  | 38 => ⟨S_, .f32⟩
  | 39 => ⟨S_, .f32⟩
  | 40 => ⟨S_, .f32⟩
  | 41 => ⟨S64, .f32⟩
  | 42 => ⟨S64, .f32⟩
  | 43 => ⟨S64, .f32⟩
  | 44 => ⟨S_, .f32⟩
  | 45 => ⟨S_, .i1⟩
  | 46 => ⟨S_, .f32⟩
  | 47 => ⟨S_, .f32⟩
  | 48 => ⟨S64, .f32⟩
  | 49 => ⟨S64, .f32⟩
  | 50 => ⟨S1x64, .f32⟩
  | 51 => ⟨S50000x64, .f32⟩
  | 52 => ⟨S50000x64, .f32⟩
  | 53 => ⟨S_, .f32⟩
  | 54 => ⟨S64, .f32⟩
  | 55 => ⟨S64, .f32⟩
  | 56 => ⟨S64, .f32⟩
  | 57 => ⟨S1x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S50000x16x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x1, .i32⟩
  | 90 => ⟨S800000x2, .i32⟩
  | 91 => ⟨S800000x64, .f32⟩
  | 92 => ⟨S_, .f32⟩
  | 93 => ⟨S50000x64, .f32⟩
  | 94 => ⟨S800000x1, .i32⟩
  | 95 => ⟨S50000x64, .f32⟩
  | 96 => ⟨S50000x64, .f32⟩
  | 97 => ⟨S_, .f32⟩
  | 98 => ⟨S64, .f32⟩
  | 99 => ⟨S_, .f32⟩
  | 100 => ⟨S64, .f32⟩
  | 101 => ⟨S64, .f32⟩
  | 102 => ⟨S_, .i32⟩
  | 103 => ⟨S_, .f32⟩
  | 104 => ⟨S64, .f32⟩
  | 105 => ⟨S1x64, .f32⟩
  | 106 => ⟨S_, .f32⟩
  | 107 => ⟨S1x64, .f32⟩
  | 108 => ⟨S1x64, .f32⟩
  | 109 => ⟨S50000x64, .f32⟩
  | 110 => ⟨S50000x64, .f32⟩
  | 111 => ⟨S50000x64, .f32⟩
  | 112 => ⟨S_, .f32⟩
  | 113 => ⟨S_, .f32⟩
  | 114 => ⟨S_, .f32⟩
  | 115 => ⟨S_, .f32⟩
  | 116 => ⟨S64, .f32⟩
  | 117 => ⟨S64, .f32⟩
  | 118 => ⟨S64, .f32⟩
  | 119 => ⟨S_, .f32⟩
  | 120 => ⟨S_, .i1⟩
  | 121 => ⟨S_, .f32⟩
  | 122 => ⟨S_, .f32⟩
  | 123 => ⟨S64, .f32⟩
  | 124 => ⟨S64, .f32⟩
  | 125 => ⟨S1x64, .f32⟩
  | 126 => ⟨S50000x64, .f32⟩
  | 127 => ⟨S50000x64, .f32⟩
  | _ => ⟨S50000x128, .f32⟩

abbrev hbmTy0_2 (i : Nat) : BufTy := match i % 128 with
  | 0 => ⟨S_, .f32⟩
  | 1 => ⟨S64, .f32⟩
  | 2 => ⟨S64, .f32⟩
  | 3 => ⟨S64, .f32⟩
  | 4 => ⟨S1x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S50000x2, .f32⟩
  | 17 => ⟨S1x2, .f32⟩
  | 18 => ⟨S50000x2, .f32⟩
  | 19 => ⟨S50000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_1 : Ref sig .tc := ⟨.hbm, 30, rfl⟩
abbrev main_v8 : Ref sig .tc := ⟨.hbm, 31, rfl⟩
abbrev main_v9 : Ref sig .tc := ⟨.hbm, 32, rfl⟩
abbrev main_c_2 : Ref sig .tc := ⟨.hbm, 33, rfl⟩
abbrev main_v10 : Ref sig .tc := ⟨.hbm, 34, rfl⟩
abbrev main_v11 : Ref sig .tc := ⟨.hbm, 35, rfl⟩
abbrev main_c_3 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_4 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_cst_10 : Ref sig .tc := ⟨.hbm, 77, rfl⟩
abbrev main_v45 : Ref sig .tc := ⟨.hbm, 78, rfl⟩
abbrev main_v46 : Ref sig .tc := ⟨.hbm, 79, rfl⟩
abbrev main_c_11 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_cst_2 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_cst_3 : Ref sig .tc := ⟨.hbm, 97, rfl⟩
abbrev main_call0_v12 : Ref sig .tc := ⟨.hbm, 98, rfl⟩
abbrev main_call0_cst_4 : Ref sig .tc := ⟨.hbm, 99, rfl⟩
abbrev main_call0_call0_v0 : Ref sig .tc := ⟨.hbm, 100, rfl⟩
abbrev main_call0_call0_v1 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_12 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_call1_cst : Ref sig .tc := ⟨.hbm, 119, rfl⟩
abbrev main_call1_v0 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_c_13 : Ref sig .tc := ⟨.hbm, 127, rfl⟩
abbrev main_v69 : Ref sig .tc := ⟨.hbm, 128, rfl⟩
abbrev main_v70 : Ref sig .tc := ⟨.hbm, 129, rfl⟩
abbrev main_c_14 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_c_15 : Ref sig .tc := ⟨.hbm, 134, rfl⟩
abbrev main_v74 : Ref sig .tc := ⟨.hbm, 135, rfl⟩
abbrev main_v75 : Ref sig .tc := ⟨.hbm, 136, rfl⟩
abbrev main_c_16 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_17 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_cst_18 : Ref sig .tc := ⟨.hbm, 150, rfl⟩
abbrev main_v87 : Ref sig .tc := ⟨.hbm, 151, rfl⟩
abbrev main_cst_19 : Ref sig .tc := ⟨.hbm, 152, rfl⟩
abbrev main_v88 : Ref sig .tc := ⟨.hbm, 153, rfl⟩
abbrev main_v89 : Ref sig .tc := ⟨.hbm, 154, rfl⟩
abbrev main_c_20 : Ref sig .tc := ⟨.hbm, 155, rfl⟩
abbrev main_call2_cst : Ref sig .tc := ⟨.hbm, 156, rfl⟩
abbrev main_call2_v0 : Ref sig .tc := ⟨.hbm, 157, rfl⟩
abbrev main_call2_v1 : Ref sig .tc := ⟨.hbm, 158, rfl⟩
abbrev main_call2_cst_0 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_cst_1 : Ref sig .tc := ⟨.hbm, 166, rfl⟩
abbrev main_call2_v8 : Ref sig .tc := ⟨.hbm, 167, rfl⟩
abbrev main_call2_cst_2 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_call2_cst_3 : Ref sig .tc := ⟨.hbm, 172, rfl⟩
abbrev main_call2_v12 : Ref sig .tc := ⟨.hbm, 173, rfl⟩
abbrev main_call2_cst_4 : Ref sig .tc := ⟨.hbm, 174, rfl⟩
abbrev main_call2_call0_v0 : Ref sig .tc := ⟨.hbm, 175, rfl⟩
abbrev main_call2_call0_v1 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_21 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_call3_cst : Ref sig .tc := ⟨.hbm, 194, rfl⟩
abbrev main_call3_v0 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_c_22 : Ref sig .tc := ⟨.hbm, 202, rfl⟩
abbrev main_v112 : Ref sig .tc := ⟨.hbm, 203, rfl⟩
abbrev main_v113 : Ref sig .tc := ⟨.hbm, 204, rfl⟩
abbrev main_c_23 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_c_24 : Ref sig .tc := ⟨.hbm, 209, rfl⟩
abbrev main_v117 : Ref sig .tc := ⟨.hbm, 210, rfl⟩
abbrev main_v118 : Ref sig .tc := ⟨.hbm, 211, rfl⟩
abbrev main_c_25 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_cst_26 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_cst_27 : Ref sig .tc := ⟨.hbm, 225, rfl⟩
abbrev main_v130 : Ref sig .tc := ⟨.hbm, 226, rfl⟩
abbrev main_cst_28 : Ref sig .tc := ⟨.hbm, 227, rfl⟩
abbrev main_v131 : Ref sig .tc := ⟨.hbm, 228, rfl⟩
abbrev main_v132 : Ref sig .tc := ⟨.hbm, 229, rfl⟩
abbrev main_c_29 : Ref sig .tc := ⟨.hbm, 230, rfl⟩
abbrev main_call4_cst : Ref sig .tc := ⟨.hbm, 231, rfl⟩
abbrev main_call4_v0 : Ref sig .tc := ⟨.hbm, 232, rfl⟩
abbrev main_call4_v1 : Ref sig .tc := ⟨.hbm, 233, rfl⟩
abbrev main_call4_cst_0 : Ref sig .tc := ⟨.hbm, 234, rfl⟩
abbrev main_call4_v2 : Ref sig .tc := ⟨.hbm, 235, rfl⟩
abbrev main_call4_v3 : Ref sig .tc := ⟨.hbm, 236, rfl⟩
abbrev main_call4_v4 : Ref sig .tc := ⟨.hbm, 237, rfl⟩
abbrev main_call4_v5 : Ref sig .tc := ⟨.hbm, 238, rfl⟩
abbrev main_call4_v6 : Ref sig .tc := ⟨.hbm, 239, rfl⟩
abbrev main_call4_v7 : Ref sig .tc := ⟨.hbm, 240, rfl⟩
abbrev main_call4_cst_1 : Ref sig .tc := ⟨.hbm, 241, rfl⟩
abbrev main_call4_v8 : Ref sig .tc := ⟨.hbm, 242, rfl⟩
abbrev main_call4_cst_2 : Ref sig .tc := ⟨.hbm, 243, rfl⟩
abbrev main_call4_v9 : Ref sig .tc := ⟨.hbm, 244, rfl⟩
abbrev main_call4_v10 : Ref sig .tc := ⟨.hbm, 245, rfl⟩
abbrev main_call4_v11 : Ref sig .tc := ⟨.hbm, 246, rfl⟩
abbrev main_call4_cst_3 : Ref sig .tc := ⟨.hbm, 247, rfl⟩
abbrev main_call4_v12 : Ref sig .tc := ⟨.hbm, 248, rfl⟩
abbrev main_call4_cst_4 : Ref sig .tc := ⟨.hbm, 249, rfl⟩
abbrev main_call4_call0_v0 : Ref sig .tc := ⟨.hbm, 250, rfl⟩
abbrev main_call4_call0_v1 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_v136 : Ref sig .tc := ⟨.hbm, 255, rfl⟩
abbrev main_cst_30 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_call5_cst : Ref sig .tc := ⟨.hbm, 269, rfl⟩
abbrev main_call5_v0 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_v152 : Ref sig .tc := ⟨.hbm, 274, rfl⟩
abbrev main_v153 : Ref sig .tc := ⟨.hbm, 275, rfl⟩

abbrev nD : Nat := 1
abbrev τ : Topo := Topo.v7x

variable {F : FTy → Type} [FloatOps F]

class Facts₀ : Prop where
  shapeCasts_S2x2x4x64x64_S16x64x64 : S2x2x4x64x64.ShapeCasts S16x64x64
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S800000x1_S800000x1_S800000x2_d1 : Shape.Concatenates [S800000x1, S800000x1] S800000x2 1
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000_S800000x1_S800000_n_0_n_n_0_1_1_wf : GatherDims.WF S50000 S800000x1 S800000 [] [0] [] [0] [] 1 ![1]
  dot_S50000x128_S128x64_S50000x64_1_0_0_1_n_n_wf : DotDims.WF S50000x128 S128x64 S50000x64 [1] [0] [0] [1] [] []
  dot_S50000x64_S16x64x64_S50000x16x64_1_2_0_01_n_n_wf : DotDims.WF S50000x64 S16x64x64 S50000x16x64 [1] [2] [0] [0, 1] [] []
  gather_S50000x16x64_S800000x2_S800000x64_1_01_n_n_01_1_1164_wf : GatherDims.WF S50000x16x64 S800000x2 S800000x64 [1] [0, 1] [] [0, 1] [] 1 ![1, 1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x2_S50000x2_1_0_0_1_n_n_wf : DotDims.WF S50000x64 S64x2 S50000x2 [1] [0] [0] [1] [] []

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S16x64x64_S50000x16x64_1_2_0_01_n_n : DotDims S50000x64 S16x64x64 S50000x16x64 where
  lhsContracting := [1]
  rhsContracting := [2]
  lhsNonContracting := [0]
  rhsNonContracting := [0, 1]
  lhsBatch := []
  rhsBatch := []
  wf := dot_S50000x64_S16x64x64_S50000x16x64_1_2_0_01_n_n_wf
def gather_S50000x16x64_S800000x2_S800000x64_1_01_n_n_01_1_1164 : GatherDims S50000x16x64 S800000x2 S800000x64 where
  offsetDims := [1]
  collapsedSliceDims := [0, 1]
  operandBatchingDims := []
  startIndicesBatchingDims := []
  startIndexMap := [0, 1]
  indexVectorDim := 1
  sliceSizes := ![1, 1, 64]
  wf := gather_S50000x16x64_S800000x2_S800000x64_1_01_n_n_01_1_1164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KB.Reg0.lean ====
import proofs.«177069_j18983755448416_1_alg».proof.Proof.Gen.Kernel.Launch
import proofs.«177069_j18983755448416_1_alg».proof.Proof.Gen.Kernel.Skeleton
import proofs.«177069_j18983755448416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the node transform of layer 1): the body half of its frame

The kernel reads a block of 2000 rows of the layer's input, the whole weight, the bias row and the whole
cross basis, and stores two blocks: h = x · W + b (2000 × 64) and T = h · Mt (2000 × 1024). It keeps
nothing between grid points. Everything here is stated at a parameter V, the buffer contents when the
region is entered, and at any float instance F. -/

-- membership in a rectangle of 2000 × 1024 entries recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether it was fetched there or not
    (not fetched means its block index has not moved), for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether it was fetched there or not
    (not fetched means its block index has not moved), for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether it was fetched there or not
    (not fetched means its block index has not moved), for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether it was fetched there or not
    (not fetched means its block index has not moved), for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer is read and written whole -/

abbrev r0_0 : Rect S2000x128 := Rect.unit (s := S2000x128) ![0, 0] S2000x128.size inb_S2000x128_S2000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S64x1024 := Rect.unit (s := S64x1024) ![0, 0] S64x1024.size inb_S64x1024_S64x1024_0_0
abbrev r0_4 : Rect S2000x64 := Rect.unit (s := S2000x64) ![0, 0] S2000x64.size inb_S2000x64_S2000x64_0_0
abbrev r0_5 : Rect S2000x1024 := Rect.unit (s := S2000x1024) ![0, 0] S2000x1024.size inb_S2000x1024_S2000x1024_0_0

/-! ## What the body leaves in each output window's buffer -/

/-- Window 4's staging buffer after the body, from the input windows' blocks: the block of h. -/
def out0_4 (x0 : Vec F S2000x128 .f32) (x1 : Vec F S128x64 .f32) (x2 : Vec F S1x64 .f32) (x3 : Vec F S64x1024 .f32) : Vec F S2000x64 .f32 :=
  View.canon [⟨r0_4, k0_pay1 (View.ld x0 r0_0) (View.ld x1 r0_1) (View.ld x2 r0_2)⟩]

/-- Its one store covers the buffer. -/
theorem cover0_4 (p0 : Vec F S2000x64 .f32) (y : S2000x64.Idx) :
    ∃ pc ∈ ([⟨r0_4, p0⟩] : List (View.Piece (Elt F) S2000x64 .f32)), y ∈ pc.1.set :=
  View.cover_of_tiled [⟨r0_4, p0⟩] S2000x64.size (by rfl) y

/-- Window 5's staging buffer after the body, from the input windows' blocks: the block of T. -/
def out0_5 (x0 : Vec F S2000x128 .f32) (x1 : Vec F S128x64 .f32) (x2 : Vec F S1x64 .f32) (x3 : Vec F S64x1024 .f32) : Vec F S2000x1024 .f32 :=
  View.canon [⟨r0_5, k0_pay2 (View.ld x0 r0_0) (View.ld x1 r0_1) (View.ld x2 r0_2) (View.ld x3 r0_3)⟩]

/-- Its one store covers the buffer. -/
theorem cover0_5 (p0 : Vec F S2000x1024 .f32) (y : S2000x1024.Idx) :
    ∃ pc ∈ ([⟨r0_5, p0⟩] : List (View.Piece (Elt F) S2000x1024 .f32)), y ∈ pc.1.set :=
  View.cover_of_tiled [⟨r0_5, p0⟩] S2000x1024.size (by rfl) y

/-! ## The body's triple -/

set_option maxHeartbeats 1000000 in
/-- The kernel body on whole staging memrefs, the inputs' at read contents `xW` and the outputs' at anything, runs to
    the continuation holding the inputs' as they were and each output's at `out0_W` of the inputs'. The grid
    coordinate is not read. -/
theorem sound_kernel0 (c : Dev nD) (E : Set ℕ) (i : grid0.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S64x1024 .f32) (harg4 : arg4.IsWhole)
    (arg5 : Memref sig .tc .vmem S2000x64 .f32) (harg5 : arg5.IsWhole) (arg6 : Memref sig .tc .vmem S2000x1024 .f32) (harg6 : arg6.IsWhole)
    (x0 : Vec F S2000x128 .f32) (x1 : Vec F S128x64 .f32) (x2 : Vec F S1x64 .f32) (x3 : Vec F S64x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__node_transform_kernel i arg1 harg1 arg2 harg2 arg3 harg3 arg4 harg4 arg5 harg5 arg6 harg6) K := by
  simp only [cc0__node_transform_kernel_eq_skeleton]; unfold cc0__node_transform_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1Runs.lean ====
import proofs.«177069_j18983755448416_1_alg».proof.Proof.Gen.Kernel.Launch
import proofs.«177069_j18983755448416_1_alg».proof.Proof.Gen.Kernel.Skeleton
import proofs.«177069_j18983755448416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 (the add-and-statistics kernel): what its three control cases share — the blocks of its windows at
the contents `V` the region is entered with, the two branch conditions in closed form over the grid (the first
point zeroes the two accumulators, the last point copies them out), where the two statistics windows are idle, and
the staging and scratch memrefs the case runs are stated over. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The first branch's condition (the point is the grid's first), from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The second branch's condition (the point is the grid's last). -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-- Windows 0, 1, 2 are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- Away from the last point window 3 is idle and is not written back; at the last point it is live. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- Away from the last point window 4 is idle and is not written back; at the last point it is live. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-- One staging buffer of each output window, through which its contents are stated. -/
abbrev VO1_2 : View sig .tc .vmem S2000x64 .f32 := (Memref.whole cc1_stg2_0 : Memref sig .tc .vmem S2000x64 .f32).view
abbrev VO1_3 : View sig .tc .vmem S1x64 .f32 := (Memref.whole cc1_stg3_0 : Memref sig .tc .vmem S1x64 .f32).view
abbrev VO1_4 : View sig .tc .vmem S1x64 .f32 := (Memref.whole cc1_stg4_0 : Memref sig .tc .vmem S1x64 .f32).view
abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
/-- The two accumulators: whole scoped buffers of the kernel's own, carried from point to point. -/
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view

/-- The scoped buffers this region never opens. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The region's invariant with the two accumulators split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

end Cert.Kernel.Hand

end
-- ==== Proof.KB.Reg1RunA.lean ====
import proofs.«177069_j18983755448416_1_alg».proof.Proof.KB.Reg1Runs

/-! Region 1: the whole body of the add-and-statistics kernel run at the grid's first point (the accumulators are zeroed, then added to), on whole staging memrefs.
The pieces each buffer ends with are what the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's first point (the accumulators are zeroed, then added to): from the inputs' memrefs at their blocks, the sum window's at anything, the idle statistics windows' at contents handed back untouched, the accumulators at anything, it runs to the continuation holding the
    inputs' as they were and every buffer it stored into with its pieces written. -/
noncomputable def kernelRun1_A (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__add_stats_kernel i arg1 harg1 arg2 harg2 arg3 harg3 arg4 harg4 arg5 harg5 arg6 harg6 arg7 harg7) K } := by
  refine ⟨?_, ?_, ?_, fun xi3 xi4 E K => ?run⟩
  case run =>
    simp only [cc1__add_stats_kernel_eq_skeleton]; unfold cc1__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, HS0⟩, ⟨%d6, %f6, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.KB.Reg1RunB.lean ====
import proofs.«177069_j18983755448416_1_alg».proof.Proof.KB.Reg1RunA

/-! Region 1: the whole body of the add-and-statistics kernel run at a middle point (the accumulators are added to), on whole staging memrefs.
The pieces each buffer ends with are what the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a middle point (the accumulators are added to): from the inputs' memrefs at their blocks, the sum window's at anything, the idle statistics windows' at contents handed back untouched, the accumulators at what the point before left, it runs to the continuation holding the
    inputs' as they were and every buffer it stored into with its pieces written. -/
noncomputable def kernelRun1_B (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__add_stats_kernel i arg1 harg1 arg2 harg2 arg3 harg3 arg4 harg4 arg5 harg5 arg6 harg6 arg7 harg7) K } := by
  refine ⟨?_, ?_, ?_, fun xi3 xi4 E K => ?run⟩
  case run =>
    simp only [cc1__add_stats_kernel_eq_skeleton]; unfold cc1__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, HS0⟩, ⟨%f6, %hf6, HS1⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.KB.Reg1RunC.lean ====
import proofs.«177069_j18983755448416_1_alg».proof.Proof.KB.Reg1RunB

/-! Region 1: the whole body of the add-and-statistics kernel run at the grid's last point (the accumulators are added to, then copied to the two statistics windows), on whole staging memrefs.
The pieces each buffer ends with are what the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's last point (the accumulators are added to, then copied to the two statistics windows): from the inputs' memrefs at their blocks, the sum window's at anything, the statistics windows' at anything, the accumulators at what the point before left, it runs to the continuation holding the
    inputs' as they were and every buffer it stored into with its pieces written. -/
noncomputable def kernelRun1_C (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) :
    Σ' (L2 : List (View.Piece (Elt F) S2000x64 .f32)) (L3 : List (View.Piece (Elt F) S1x64 .f32)) (L4 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__add_stats_kernel i arg1 harg1 arg2 harg2 arg3 harg3 arg4 harg4 arg5 harg5 arg6 harg6 arg7 harg7) K } := by
  refine ⟨?_, ?_, ?_, ?_, ?_, fun E K => ?run⟩
  case run =>
    simp only [cc1__add_stats_kernel_eq_skeleton]; unfold cc1__add_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, HS0⟩, ⟨%f6, %hf6, HS1⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.KB.Reg1.lean ====
import proofs.«177069_j18983755448416_1_alg».proof.Proof.KB.Reg1RunC

/-! Region 1 (the add-and-statistics kernel), the frame half: what each control case leaves in the output windows'
staging buffers and in the two accumulators, these contents point by point (the accumulators are carried: a point
starts from what the point before left), the proof data of the pipeline at the entry contents `V`, the body
obligation, and the invariant's two ends. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Case A -/

/-- Case A's pieces for the sum window cover its block. -/
theorem cover1_A_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) (y : S2000x64.Idx) :
    ∃ pc ∈ (kernelRun1_A c i arg1 harg1 arg2 harg2 arg3 harg3 arg4 harg4 arg5 harg5 arg6 harg6 arg7 harg7 hc0 hc1 x0 x1).1, y ∈ pc.1.set :=
  View.cover_of_tiledL (kernelRun1_A c i arg1 harg1 arg2 harg2 arg3 harg3 arg4 harg4 arg5 harg5 arg6 harg6 arg7 harg7 hc0 hc1 x0 x1).1 S2000x64.size (by sl_kernel_rfl) y

/-- What case A leaves in the sum window's staging buffer. -/
def out1_A_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) : Vec F S2000x64 .f32 :=
  VO1_2.read (Elt F) (VO1_2.writes (Elt F) VO1_2.junk (kernelRun1_A c i arg1 harg1 arg2 harg2 arg3 harg3 arg4 harg4 arg5 harg5 arg6 harg6 arg7 harg7 hc0 hc1 x0 x1).1)

/-- Case A's pieces for the first accumulator cover it. -/
theorem scover1_A_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) (y : S1x64.Idx) :
    ∃ pc ∈ (kernelRun1_A c i arg1 harg1 arg2 harg2 arg3 harg3 arg4 harg4 arg5 harg5 arg6 harg6 arg7 harg7 hc0 hc1 x0 x1).2.1, y ∈ pc.1.set :=
  View.cover_of_tiledL (kernelRun1_A c i arg1 harg1 arg2 harg2 arg3 harg3 arg4 harg4 arg5 harg5 arg6 harg6 arg7 harg7 hc0 hc1 x0 x1).2.1 S1x64.size (by sl_kernel_rfl) y

/-- What case A leaves in the first accumulator. -/
def sout1_A_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) : Vec F S1x64 .f32 :=
  VS1_0.read (Elt F) (VS1_0.writes (Elt F) VS1_0.junk (kernelRun1_A c i arg1 harg1 arg2 harg2 arg3 harg3 arg4 harg4 arg5 harg5 arg6 harg6 arg7 harg7 hc0 hc1 x0 x1).2.1)

/-- Case A's pieces for the second accumulator cover it. -/
theorem scover1_A_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) (y : S1x64.Idx) :
    ∃ pc ∈ (kernelRun1_A c i arg1 harg1 arg2 harg2 arg3 harg3 arg4 harg4 arg5 harg5 arg6 harg6 arg7 harg7 hc0 hc1 x0 x1).2.2.1, y ∈ pc.1.set :=
  View.cover_of_tiledL (kernelRun1_A c i arg1 harg1 arg2 harg2 arg3 harg3 arg4 harg4 arg5 harg5 arg6 harg6 arg7 harg7 hc0 hc1 x0 x1).2.2.1 S1x64.size (by sl_kernel_rfl) y

/-- What case A leaves in the second accumulator. -/
def sout1_A_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) : Vec F S1x64 .f32 :=
  VS1_1.read (Elt F) (VS1_1.writes (Elt F) VS1_1.junk (kernelRun1_A c i arg1 harg1 arg2 harg2 arg3 harg3 arg4 harg4 arg5 harg5 arg6 harg6 arg7 harg7 hc0 hc1 x0 x1).2.2.1)

/-! ## Case B -/

/-- Case B's pieces for the sum window cover its block. -/
theorem cover1_B_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) (y : S2000x64.Idx) :
    ∃ pc ∈ (kernelRun1_B c i arg1 harg1 arg2 harg2 arg3 harg3 arg4 harg4 arg5 harg5 arg6 harg6 arg7 harg7 hc0 hc1 x0 x1 xs0 xs1).1, y ∈ pc.1.set :=
  View.cover_of_tiledL (kernelRun1_B c i arg1 harg1 arg2 harg2 arg3 harg3 arg4 harg4 arg5 harg5 arg6 harg6 arg7 harg7 hc0 hc1 x0 x1 xs0 xs1).1 S2000x64.size (by sl_kernel_rfl) y

/-- What case B leaves in the sum window's staging buffer. -/
def out1_B_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) : Vec F S2000x64 .f32 :=
  VO1_2.read (Elt F) (VO1_2.writes (Elt F) VO1_2.junk (kernelRun1_B c i arg1 harg1 arg2 harg2 arg3 harg3 arg4 harg4 arg5 harg5 arg6 harg6 arg7 harg7 hc0 hc1 x0 x1 xs0 xs1).1)

/-- Case B's pieces for the first accumulator cover it. -/
theorem scover1_B_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 hc0 hc1 x0 x1 xs0 xs1).2.1, y ∈ pc.1.set :=
  View.cover_of_tiledL (kernelRun1_B c i arg1 harg1 arg2 harg2 arg3 harg3 arg4 harg4 arg5 harg5 arg6 harg6 arg7 harg7 hc0 hc1 x0 x1 xs0 xs1).2.1 S1x64.size (by sl_kernel_rfl) y

/-- What case B leaves in the first accumulator. -/
def sout1_B_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) : Vec F S1x64 .f32 :=
  VS1_0.read (Elt F) (VS1_0.writes (Elt F) VS1_0.junk (kernelRun1_B c i arg1 harg1 arg2 harg2 arg3 harg3 arg4 harg4 arg5 harg5 arg6 harg6 arg7 harg7 hc0 hc1 x0 x1 xs0 xs1).2.1)

/-- Case B's pieces for the second accumulator cover it. -/
theorem scover1_B_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 hc0 hc1 x0 x1 xs0 xs1).2.2.1, y ∈ pc.1.set :=
  View.cover_of_tiledL (kernelRun1_B c i arg1 harg1 arg2 harg2 arg3 harg3 arg4 harg4 arg5 harg5 arg6 harg6 arg7 harg7 hc0 hc1 x0 x1 xs0 xs1).2.2.1 S1x64.size (by sl_kernel_rfl) y

/-- What case B leaves in the second accumulator. -/
def sout1_B_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) : Vec F S1x64 .f32 :=
  VS1_1.read (Elt F) (VS1_1.writes (Elt F) VS1_1.junk (kernelRun1_B c i arg1 harg1 arg2 harg2 arg3 harg3 arg4 harg4 arg5 harg5 arg6 harg6 arg7 harg7 hc0 hc1 x0 x1 xs0 xs1).2.2.1)

/-! ## Case C -/

/-- Case C's pieces for the sum window cover its block. -/
theorem cover1_C_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) (y : S2000x64.Idx) :
    ∃ pc ∈ (kernelRun1_C c i arg1 harg1 arg2 harg2 arg3 harg3 arg4 harg4 arg5 harg5 arg6 harg6 arg7 harg7 hc0 hc1 x0 x1 xs0 xs1).1, y ∈ pc.1.set :=
  View.cover_of_tiledL (kernelRun1_C c i arg1 harg1 arg2 harg2 arg3 harg3 arg4 harg4 arg5 harg5 arg6 harg6 arg7 harg7 hc0 hc1 x0 x1 xs0 xs1).1 S2000x64.size (by sl_kernel_rfl) y

/-- What case C leaves in the sum window's staging buffer. -/
def out1_C_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) : Vec F S2000x64 .f32 :=
  VO1_2.read (Elt F) (VO1_2.writes (Elt F) VO1_2.junk (kernelRun1_C c i arg1 harg1 arg2 harg2 arg3 harg3 arg4 harg4 arg5 harg5 arg6 harg6 arg7 harg7 hc0 hc1 x0 x1 xs0 xs1).1)

/-- Case C's pieces for statistics window 3 cover its block. -/
theorem cover1_C_3 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 arg7 harg7 hc0 hc1 x0 x1 xs0 xs1).2.1, y ∈ pc.1.set :=
  View.cover_of_tiledL (kernelRun1_C c i arg1 harg1 arg2 harg2 arg3 harg3 arg4 harg4 arg5 harg5 arg6 harg6 arg7 harg7 hc0 hc1 x0 x1 xs0 xs1).2.1 S1x64.size (by sl_kernel_rfl) y

/-- What case C leaves in statistics window 3's staging buffer. -/
def out1_C_3 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) : Vec F S1x64 .f32 :=
  VO1_3.read (Elt F) (VO1_3.writes (Elt F) VO1_3.junk (kernelRun1_C c i arg1 harg1 arg2 harg2 arg3 harg3 arg4 harg4 arg5 harg5 arg6 harg6 arg7 harg7 hc0 hc1 x0 x1 xs0 xs1).2.1)

/-- Case C's pieces for statistics window 4 cover its block. -/
theorem cover1_C_4 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 arg7 harg7 hc0 hc1 x0 x1 xs0 xs1).2.2.1, y ∈ pc.1.set :=
  View.cover_of_tiledL (kernelRun1_C c i arg1 harg1 arg2 harg2 arg3 harg3 arg4 harg4 arg5 harg5 arg6 harg6 arg7 harg7 hc0 hc1 x0 x1 xs0 xs1).2.2.1 S1x64.size (by sl_kernel_rfl) y

/-- What case C leaves in statistics window 4's staging buffer. -/
def out1_C_4 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) : Vec F S1x64 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 xs0 xs1).2.2.1)

/-- Case C's pieces for the first accumulator cover it. -/
theorem scover1_C_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 arg7 harg7 hc0 hc1 x0 x1 xs0 xs1).2.2.2.1, y ∈ pc.1.set :=
  View.cover_of_tiledL (kernelRun1_C c i arg1 harg1 arg2 harg2 arg3 harg3 arg4 harg4 arg5 harg5 arg6 harg6 arg7 harg7 hc0 hc1 x0 x1 xs0 xs1).2.2.2.1 S1x64.size (by sl_kernel_rfl) y

/-- What case C leaves in the first accumulator. -/
def sout1_C_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) : Vec F S1x64 .f32 :=
  VS1_0.read (Elt F) (VS1_0.writes (Elt F) VS1_0.junk (kernelRun1_C c i arg1 harg1 arg2 harg2 arg3 harg3 arg4 harg4 arg5 harg5 arg6 harg6 arg7 harg7 hc0 hc1 x0 x1 xs0 xs1).2.2.2.1)

/-- Case C's pieces for the second accumulator cover it. -/
theorem scover1_C_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 arg7 harg7 hc0 hc1 x0 x1 xs0 xs1).2.2.2.2.1, y ∈ pc.1.set :=
  View.cover_of_tiledL (kernelRun1_C c i arg1 harg1 arg2 harg2 arg3 harg3 arg4 harg4 arg5 harg5 arg6 harg6 arg7 harg7 hc0 hc1 x0 x1 xs0 xs1).2.2.2.2.1 S1x64.size (by sl_kernel_rfl) y

/-- What case C leaves in the second accumulator. -/
def sout1_C_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) : Vec F S1x64 .f32 :=
  VS1_1.read (Elt F) (VS1_1.writes (Elt F) VS1_1.junk (kernelRun1_C c i arg1 harg1 arg2 harg2 arg3 harg3 arg4 harg4 arg5 harg5 arg6 harg6 arg7 harg7 hc0 hc1 x0 x1 xs0 xs1).2.2.2.2.1)

/-- Where a statistics window is idle nothing is stored into it: a placeholder that nothing consults. -/
def idleOut1_3 : Vec F S1x64 .f32 := VO1_3.read (Elt F) (VO1_3.writes (Elt F) VO1_3.junk [])
def idleOut1_4 : Vec F S1x64 .f32 := VO1_4.read (Elt F) (VO1_4.writes (Elt F) VO1_4.junk [])

/-! ## What the outputs and the accumulators hold after each point -/

/-- After the body at position `n`: the sum window's staging buffer, the two statistics windows', and the two
    accumulators — the case the closed forms select at `n`, run at the point's memrefs and input blocks, the
    accumulators starting from what position `n - 1` left. -/
def outsAt1 (c : Dev nD) : (n : ℕ) → n < cfg1.N → Vec F S2000x64 .f32 × Vec F S1x64 .f32 × Vec F S1x64 .f32 × Vec F S1x64 .f32 × Vec F S1x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), idleOut1_3, idleOut1_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 25 = 0 then
      if h1 : (n + 1) % 25 = 24 then
        False.elim (by have hN : n + 1 < 25 := lt_of_lt_of_eq hn (show cfg1.N = 25 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), idleOut1_3, idleOut1_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 25 = 24 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.2.1 (outsAt1 c n (Nat.lt_of_succ_lt hn)).2.2.2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, idleOut1_3, idleOut1_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.2.1 (outsAt1 c n (Nat.lt_of_succ_lt hn)).2.2.2.2)

/-- `outsAt1` at a point of case A. -/
theorem outsAt1_A (c : Dev nD) (t : Fin cfg1.N) (h0 : t.val % 25 = 0) (h1 : ¬t.val % 25 = 24) :
    outsAt1 V c t.val t.isLt = (out1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t), idleOut1_3, idleOut1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 25 = 0) (h1 : ¬t.val % 25 = 24) :
    outsAt1 V c t.val t.isLt = (out1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, idleOut1_3, idleOut1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 25 = 0) (h1 : t.val % 25 = 24) :
    outsAt1 V c t.val t.isLt = (out1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards each accumulator at what the point before left in it, the other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.2.1 ∗ owns (c : Thread nD τ) scM1_1 fullShare (outsAt1 V c n hn).2.2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.2.1 ∗ owns (c : Thread nD τ) scM1_1 fullShare (outsAt1 V c n hn).2.2.2.2) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.2.1 ∗ owns (c : Thread nD τ) scM1_1 fullShare (outsAt1 V c (n - 1) (by omega)).2.2.2.2) ∗ rest1 c) ∗ (∃ r, prngReg c r)) := by
  cases n with
  | zero => exact absurd rfl hz
  | succ n => rfl

/-! ## The pipeline's proof data -/

/-- The proof data of pipeline 1 on core `c`: the arrays as the region finds them; after the body at point `t`
    each input's buffer at its block and the outputs' at `outsAt1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
    | ⟨4, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem after1_4 (c : Dev nD) (t : Fin cfg1.N) : (dat1 V c).after 4 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in;
    the invariant hands the body the accumulators at what the point before left (at anything at the first point)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 25 = 0
  · by_cases h1 : t.val % 25 = 24
    · exfalso; omega
    ·
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold out1_A_2 sout1_A_0 sout1_A_1; (try dsimp only)
      have hz : t.val = 0 := by omega
      rw [PhiS1_castSucc V c t, PhiS1_zero V c _ _ hz, PhiA1_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_A_2 c _ _ _ _ _ _ _ _ _ _ _ _ _ _ _ _ _ _ _)
      isplitl [H3]; · iexists _; iexact H3
      iexists _; iexact H4

  · by_cases h1 : t.val % 25 = 24
    ·
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_2 out1_C_3 out1_C_4 sout1_C_0 sout1_C_1; (try dsimp only)
      have hz : t.val ≠ 0 := by omega
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _ _ _)
      isplitl [H3]
      · unfold owns; iexists _; isplitr
        swap; · iexact H3
        ipureintro; exact View.read_writes_of_cover _ _ _ _ _ (cover1_C_3 c _ _ _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _ _ _)

    ·
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold out1_B_2 sout1_B_0 sout1_B_1; (try dsimp only)
      have hz : t.val ≠ 0 := by omega
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_B_2 c _ _ _ _ _ _ _ _ _ _ _ _ _ _ _ _ _ _ _ _ _)
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Cert.Kernel.Hand

end
-- ==== Proof.KB.Reg2.lean ====
import proofs.«177069_j18983755448416_1_alg».proof.Proof.Gen.Kernel.Launch
import proofs.«177069_j18983755448416_1_alg».proof.Proof.Gen.Kernel.Skeleton
import proofs.«177069_j18983755448416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (normalize by the batch statistics, scale, shift, clamp below at zero; layer 1): the frame half, at any float instance

At a parameter `V` — the buffer contents when the region is entered — this module states what each
window's block is at a grid point, what the body leaves in the output window's buffer as a function of
the input blocks, the body's triple, the proof data of the pipeline and its body obligation. Every input
window's buffer holds its block at every point, whether the point fetches it or not: a window that is
fetched at the first point only keeps the same block index, so the block it was left with is still its
block. The body stores the whole output block once, so the buffer after the body is that one stored
value. -/

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not, for any proof data
    whose array is `V`'s and whose body leaves the block in place: where the window is not fetched its block
    index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for any proof data
    whose array is `V`'s and whose body leaves the block in place: where the window is not fetched its block
    index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for any proof data
    whose array is `V`'s and whose body leaves the block in place: where the window is not fetched its block
    index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not, for any proof data
    whose array is `V`'s and whose body leaves the block in place: where the window is not fetched its block
    index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not, for any proof data
    whose array is `V`'s and whose body leaves the block in place: where the window is not fetched its block
    index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_0 : Rect S2000x64 := Rect.unit (s := S2000x64) ![0, 0] S2000x64.size inb_S2000x64_S2000x64_0_0
abbrev r2_1 : Rect S1x64 := Rect.unit (s := S1x64) ![0, 0] S1x64.size inb_S1x64_S1x64_0_0

/-! ## What the body leaves in the output window's buffer -/

/-- Window 5's buffer after the body, from the input windows' blocks: the one stored value. -/
def out2_5 (x0 : Vec F S2000x64 .f32) (x1 : Vec F S1x64 .f32) (x2 : Vec F S1x64 .f32) (x3 : Vec F S1x64 .f32) (x4 : Vec F S1x64 .f32) : Vec F S2000x64 .f32 :=
  View.canon [⟨r2_0, k2_pay1 (View.ld x1 r2_1) (View.ld x2 r2_1) (View.ld x0 r2_0) (View.ld x3 r2_1) (View.ld x4 r2_1)⟩]

/-- The one store covers the buffer. -/
theorem cover2_5 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The kernel body on whole buffers, the inputs' at contents `xW` and the output's at anything, runs to the
    continuation holding the inputs' as they were and the output's at `out2_5` of the inputs'. -/
theorem sound_kernel2 (c : Dev nD) (E : Set ℕ) (i : grid2.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t`
    each input's buffer at its block and the output's at `out2_5` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
import proofs.«177069_j18983755448416_1_alg».proof.Proof.Gen.Kernel.Launch
import proofs.«177069_j18983755448416_1_alg».proof.Proof.Gen.Kernel.Skeleton
import proofs.«177069_j18983755448416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main (the node transform of layer 2): the body half of its frame

The kernel reads a block of 2000 rows of the layer's input, the whole weight, the bias row and the whole
cross basis, and stores two blocks: h = x · W + b (2000 × 64) and T = h · Mt (2000 × 1024). It keeps
nothing between grid points. Everything here is stated at a parameter V, the buffer contents when the
region is entered, and at any float instance F. -/

-- membership in a rectangle of 2000 × 1024 entries recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether it was fetched there or not
    (not fetched means its block index has not moved), for any proof data whose array is `V`'s and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether it was fetched there or not
    (not fetched means its block index has not moved), for any proof data whose array is `V`'s and whose body
    leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether it was fetched there or not
    (not fetched means its block index has not moved), for any proof data whose array is `V`'s and whose body
    leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether it was fetched there or not
    (not fetched means its block index has not moved), for any proof data whose array is `V`'s and whose body
    leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging buffer is read and written whole -/

abbrev r3_0 : Rect S2000x64 := Rect.unit (s := S2000x64) ![0, 0] S2000x64.size inb_S2000x64_S2000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0
abbrev r3_3 : Rect S64x1024 := Rect.unit (s := S64x1024) ![0, 0] S64x1024.size inb_S64x1024_S64x1024_0_0
abbrev r3_4 : Rect S2000x64 := Rect.unit (s := S2000x64) ![0, 0] S2000x64.size inb_S2000x64_S2000x64_0_0
abbrev r3_5 : Rect S2000x1024 := Rect.unit (s := S2000x1024) ![0, 0] S2000x1024.size inb_S2000x1024_S2000x1024_0_0

/-! ## What the body leaves in each output window's buffer -/

/-- Window 4's staging buffer after the body, from the input windows' blocks: the block of h. -/
def out3_4 (x0 : Vec F S2000x64 .f32) (x1 : Vec F S64x64 .f32) (x2 : Vec F S1x64 .f32) (x3 : Vec F S64x1024 .f32) : Vec F S2000x64 .f32 :=
  View.canon [⟨r3_4, k3_pay1 (View.ld x0 r3_0) (View.ld x1 r3_1) (View.ld x2 r3_2)⟩]

/-- Its one store covers the buffer. -/
theorem cover3_4 (p0 : Vec F S2000x64 .f32) (y : S2000x64.Idx) :
    ∃ pc ∈ ([⟨r3_4, p0⟩] : List (View.Piece (Elt F) S2000x64 .f32)), y ∈ pc.1.set :=
  View.cover_of_tiled [⟨r3_4, p0⟩] S2000x64.size (by rfl) y

/-- Window 5's staging buffer after the body, from the input windows' blocks: the block of T. -/
def out3_5 (x0 : Vec F S2000x64 .f32) (x1 : Vec F S64x64 .f32) (x2 : Vec F S1x64 .f32) (x3 : Vec F S64x1024 .f32) : Vec F S2000x1024 .f32 :=
  View.canon [⟨r3_5, k3_pay2 (View.ld x0 r3_0) (View.ld x1 r3_1) (View.ld x2 r3_2) (View.ld x3 r3_3)⟩]

/-- Its one store covers the buffer. -/
theorem cover3_5 (p0 : Vec F S2000x1024 .f32) (y : S2000x1024.Idx) :
    ∃ pc ∈ ([⟨r3_5, p0⟩] : List (View.Piece (Elt F) S2000x1024 .f32)), y ∈ pc.1.set :=
  View.cover_of_tiled [⟨r3_5, p0⟩] S2000x1024.size (by rfl) y

/-! ## The body's triple -/

set_option maxHeartbeats 1000000 in
/-- The kernel body on whole staging memrefs, the inputs' at read contents `xW` and the outputs' at anything, runs to
    the continuation holding the inputs' as they were and each output's at `out3_W` of the inputs'. The grid
    coordinate is not read. -/
theorem sound_kernel3 (c : Dev nD) (E : Set ℕ) (i : grid3.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x1024 .f32) (harg4 : arg4.IsWhole)
    (arg5 : Memref sig .tc .vmem S2000x64 .f32) (harg5 : arg5.IsWhole) (arg6 : Memref sig .tc .vmem S2000x1024 .f32) (harg6 : arg6.IsWhole)
    (x0 : Vec F S2000x64 .f32) (x1 : Vec F S64x64 .f32) (x2 : Vec F S1x64 .f32) (x3 : Vec F S64x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__node_transform_kernel i arg1 harg1 arg2 harg2 arg3 harg3 arg4 harg4 arg5 harg5 arg6 harg6) K := by
  simp only [cc3__node_transform_kernel_eq_skeleton]; unfold cc3__node_transform_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and each output's at `out3_W` of the input blocks; the invariant
    is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4Runs.lean ====
import proofs.«177069_j18983755448416_1_alg».proof.Proof.Gen.Kernel.Launch
import proofs.«177069_j18983755448416_1_alg».proof.Proof.Gen.Kernel.Skeleton
import proofs.«177069_j18983755448416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 (the add-and-statistics kernel): what its three control cases share — the blocks of its windows at
the contents `V` the region is entered with, the two branch conditions in closed form over the grid (the first
point zeroes the two accumulators, the last point copies them out), where the two statistics windows are idle, and
the staging and scratch memrefs the case runs are stated over. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The first branch's condition (the point is the grid's first), from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 25 = 0 :=
  (by decide +kernel : ∀ t : Fin grid4.N, cond4_0 (grid4.coords t) ↔ t.val % 25 = 0)

/-- The second branch's condition (the point is the grid's last). -/
abbrev cond4_1 (i : grid4.Coords) : Prop := k4_cond2 i = 1#1
theorem hcond4_1 : ∀ t : Fin cfg4.N, cond4_1 (grid4.coords t) ↔ t.val % 25 = 24 :=
  (by decide +kernel : ∀ t : Fin grid4.N, cond4_1 (grid4.coords t) ↔ t.val % 25 = 24)

/-- Windows 0, 1, 2 are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

/-- Away from the last point window 3 is idle and is not written back; at the last point it is live. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
theorem liveAt4_3_C : ∀ t : Fin cfg4.N, ¬cond4_0 (grid4.coords t) → cond4_1 (grid4.coords t) → cfg4.idle 3 (grid4.coords t) = false := by decide +kernel

/-- Away from the last point window 4 is idle and is not written back; at the last point it is live. -/
theorem idleAt4_4_A : ∀ t : Fin cfg4.N, cond4_0 (grid4.coords t) → ¬cond4_1 (grid4.coords t) → cfg4.idle 4 (grid4.coords t) = true := by decide +kernel
theorem noFlush4_4_A : ∀ t : Fin cfg4.N, cond4_0 (grid4.coords t) → ¬cond4_1 (grid4.coords t) → (cfg4.win 4).flush t = false := by decide +kernel
theorem idleAt4_4_B : ∀ t : Fin cfg4.N, ¬cond4_0 (grid4.coords t) → ¬cond4_1 (grid4.coords t) → cfg4.idle 4 (grid4.coords t) = true := by decide +kernel
theorem noFlush4_4_B : ∀ t : Fin cfg4.N, ¬cond4_0 (grid4.coords t) → ¬cond4_1 (grid4.coords t) → (cfg4.win 4).flush t = false := by decide +kernel
theorem liveAt4_4_C : ∀ t : Fin cfg4.N, ¬cond4_0 (grid4.coords t) → cond4_1 (grid4.coords t) → cfg4.idle 4 (grid4.coords t) = false := by decide +kernel

/-- One staging buffer of each output window, through which its contents are stated. -/
abbrev VO4_2 : View sig .tc .vmem S2000x64 .f32 := (Memref.whole cc4_stg2_0 : Memref sig .tc .vmem S2000x64 .f32).view
abbrev VO4_3 : View sig .tc .vmem S1x64 .f32 := (Memref.whole cc4_stg3_0 : Memref sig .tc .vmem S1x64 .f32).view
abbrev VO4_4 : View sig .tc .vmem S1x64 .f32 := (Memref.whole cc4_stg4_0 : Memref sig .tc .vmem S1x64 .f32).view
abbrev ms4_0 (t : Fin cfg4.N) : Memref sig .tc .vmem S2000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
/-- The two accumulators: whole scoped buffers of the kernel's own, carried from point to point. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view

/-- The scoped buffers this region never opens. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The region's invariant with the two accumulators split out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

end Cert.Kernel.Hand

end
-- ==== Proof.KB.Reg4RunA.lean ====
import proofs.«177069_j18983755448416_1_alg».proof.Proof.KB.Reg4Runs

/-! Region 4: the whole body of the add-and-statistics kernel run at the grid's first point (the accumulators are zeroed, then added to), on whole staging memrefs.
The pieces each buffer ends with are what the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's first point (the accumulators are zeroed, then added to): from the inputs' memrefs at their blocks, the sum window's at anything, the idle statistics windows' at contents handed back untouched, the accumulators at anything, it runs to the continuation holding the
    inputs' as they were and every buffer it stored into with its pieces written. -/
noncomputable def kernelRun4_A (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__add_stats_kernel i arg1 harg1 arg2 harg2 arg3 harg3 arg4 harg4 arg5 harg5 arg6 harg6 arg7 harg7) K } := by
  refine ⟨?_, ?_, ?_, fun xi3 xi4 E K => ?run⟩
  case run =>
    simp only [cc4__add_stats_kernel_eq_skeleton]; unfold cc4__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, HS0⟩, ⟨%d6, %f6, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.KB.Reg4RunB.lean ====
import proofs.«177069_j18983755448416_1_alg».proof.Proof.KB.Reg4RunA

/-! Region 4: the whole body of the add-and-statistics kernel run at a middle point (the accumulators are added to), on whole staging memrefs.
The pieces each buffer ends with are what the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a middle point (the accumulators are added to): from the inputs' memrefs at their blocks, the sum window's at anything, the idle statistics windows' at contents handed back untouched, the accumulators at what the point before left, it runs to the continuation holding the
    inputs' as they were and every buffer it stored into with its pieces written. -/
noncomputable def kernelRun4_B (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__add_stats_kernel i arg1 harg1 arg2 harg2 arg3 harg3 arg4 harg4 arg5 harg5 arg6 harg6 arg7 harg7) K } := by
  refine ⟨?_, ?_, ?_, fun xi3 xi4 E K => ?run⟩
  case run =>
    simp only [cc4__add_stats_kernel_eq_skeleton]; unfold cc4__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, HS0⟩, ⟨%f6, %hf6, HS1⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.KB.Reg4RunC.lean ====
import proofs.«177069_j18983755448416_1_alg».proof.Proof.KB.Reg4RunB

/-! Region 4: the whole body of the add-and-statistics kernel run at the grid's last point (the accumulators are added to, then copied to the two statistics windows), on whole staging memrefs.
The pieces each buffer ends with are what the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's last point (the accumulators are added to, then copied to the two statistics windows): from the inputs' memrefs at their blocks, the sum window's at anything, the statistics windows' at anything, the accumulators at what the point before left, it runs to the continuation holding the
    inputs' as they were and every buffer it stored into with its pieces written. -/
noncomputable def kernelRun4_C (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) :
    Σ' (L2 : List (View.Piece (Elt F) S2000x64 .f32)) (L3 : List (View.Piece (Elt F) S1x64 .f32)) (L4 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__add_stats_kernel i arg1 harg1 arg2 harg2 arg3 harg3 arg4 harg4 arg5 harg5 arg6 harg6 arg7 harg7) K } := by
  refine ⟨?_, ?_, ?_, ?_, ?_, fun E K => ?run⟩
  case run =>
    simp only [cc4__add_stats_kernel_eq_skeleton]; unfold cc4__add_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, HS0⟩, ⟨%f6, %hf6, HS1⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.KB.Reg4.lean ====
import proofs.«177069_j18983755448416_1_alg».proof.Proof.KB.Reg4RunC

/-! Region 4 (the add-and-statistics kernel), the frame half: what each control case leaves in the output windows'
staging buffers and in the two accumulators, these contents point by point (the accumulators are carried: a point
starts from what the point before left), the proof data of the pipeline at the entry contents `V`, the body
obligation, and the invariant's two ends. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Case A -/

/-- Case A's pieces for the sum window cover its block. -/
theorem cover4_A_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) (y : S2000x64.Idx) :
    ∃ pc ∈ (kernelRun4_A c i arg1 harg1 arg2 harg2 arg3 harg3 arg4 harg4 arg5 harg5 arg6 harg6 arg7 harg7 hc0 hc1 x0 x1).1, y ∈ pc.1.set :=
  View.cover_of_tiledL (kernelRun4_A c i arg1 harg1 arg2 harg2 arg3 harg3 arg4 harg4 arg5 harg5 arg6 harg6 arg7 harg7 hc0 hc1 x0 x1).1 S2000x64.size (by sl_kernel_rfl) y

/-- What case A leaves in the sum window's staging buffer. -/
def out4_A_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) : Vec F S2000x64 .f32 :=
  VO4_2.read (Elt F) (VO4_2.writes (Elt F) VO4_2.junk (kernelRun4_A c i arg1 harg1 arg2 harg2 arg3 harg3 arg4 harg4 arg5 harg5 arg6 harg6 arg7 harg7 hc0 hc1 x0 x1).1)

/-- Case A's pieces for the first accumulator cover it. -/
theorem scover4_A_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) (y : S1x64.Idx) :
    ∃ pc ∈ (kernelRun4_A c i arg1 harg1 arg2 harg2 arg3 harg3 arg4 harg4 arg5 harg5 arg6 harg6 arg7 harg7 hc0 hc1 x0 x1).2.1, y ∈ pc.1.set :=
  View.cover_of_tiledL (kernelRun4_A c i arg1 harg1 arg2 harg2 arg3 harg3 arg4 harg4 arg5 harg5 arg6 harg6 arg7 harg7 hc0 hc1 x0 x1).2.1 S1x64.size (by sl_kernel_rfl) y

/-- What case A leaves in the first accumulator. -/
def sout4_A_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 hc0 hc1 x0 x1).2.1)

/-- Case A's pieces for the second accumulator cover it. -/
theorem scover4_A_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) (y : S1x64.Idx) :
    ∃ pc ∈ (kernelRun4_A c i arg1 harg1 arg2 harg2 arg3 harg3 arg4 harg4 arg5 harg5 arg6 harg6 arg7 harg7 hc0 hc1 x0 x1).2.2.1, y ∈ pc.1.set :=
  View.cover_of_tiledL (kernelRun4_A c i arg1 harg1 arg2 harg2 arg3 harg3 arg4 harg4 arg5 harg5 arg6 harg6 arg7 harg7 hc0 hc1 x0 x1).2.2.1 S1x64.size (by sl_kernel_rfl) y

/-- What case A leaves in the second accumulator. -/
def sout4_A_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) : Vec F S1x64 .f32 :=
  VS4_1.read (Elt F) (VS4_1.writes (Elt F) VS4_1.junk (kernelRun4_A c i arg1 harg1 arg2 harg2 arg3 harg3 arg4 harg4 arg5 harg5 arg6 harg6 arg7 harg7 hc0 hc1 x0 x1).2.2.1)

/-! ## Case B -/

/-- Case B's pieces for the sum window cover its block. -/
theorem cover4_B_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) (y : S2000x64.Idx) :
    ∃ pc ∈ (kernelRun4_B c i arg1 harg1 arg2 harg2 arg3 harg3 arg4 harg4 arg5 harg5 arg6 harg6 arg7 harg7 hc0 hc1 x0 x1 xs0 xs1).1, y ∈ pc.1.set :=
  View.cover_of_tiledL (kernelRun4_B c i arg1 harg1 arg2 harg2 arg3 harg3 arg4 harg4 arg5 harg5 arg6 harg6 arg7 harg7 hc0 hc1 x0 x1 xs0 xs1).1 S2000x64.size (by sl_kernel_rfl) y

/-- What case B leaves in the sum window's staging buffer. -/
def out4_B_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) : Vec F S2000x64 .f32 :=
  VO4_2.read (Elt F) (VO4_2.writes (Elt F) VO4_2.junk (kernelRun4_B c i arg1 harg1 arg2 harg2 arg3 harg3 arg4 harg4 arg5 harg5 arg6 harg6 arg7 harg7 hc0 hc1 x0 x1 xs0 xs1).1)

/-- Case B's pieces for the first accumulator cover it. -/
theorem scover4_B_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 hc0 hc1 x0 x1 xs0 xs1).2.1, y ∈ pc.1.set :=
  View.cover_of_tiledL (kernelRun4_B c i arg1 harg1 arg2 harg2 arg3 harg3 arg4 harg4 arg5 harg5 arg6 harg6 arg7 harg7 hc0 hc1 x0 x1 xs0 xs1).2.1 S1x64.size (by sl_kernel_rfl) y

/-- What case B leaves in the first accumulator. -/
def sout4_B_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 hc0 hc1 x0 x1 xs0 xs1).2.1)

/-- Case B's pieces for the second accumulator cover it. -/
theorem scover4_B_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 hc0 hc1 x0 x1 xs0 xs1).2.2.1, y ∈ pc.1.set :=
  View.cover_of_tiledL (kernelRun4_B c i arg1 harg1 arg2 harg2 arg3 harg3 arg4 harg4 arg5 harg5 arg6 harg6 arg7 harg7 hc0 hc1 x0 x1 xs0 xs1).2.2.1 S1x64.size (by sl_kernel_rfl) y

/-- What case B leaves in the second accumulator. -/
def sout4_B_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) : Vec F S1x64 .f32 :=
  VS4_1.read (Elt F) (VS4_1.writes (Elt F) VS4_1.junk (kernelRun4_B c i arg1 harg1 arg2 harg2 arg3 harg3 arg4 harg4 arg5 harg5 arg6 harg6 arg7 harg7 hc0 hc1 x0 x1 xs0 xs1).2.2.1)

/-! ## Case C -/

/-- Case C's pieces for the sum window cover its block. -/
theorem cover4_C_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) (y : S2000x64.Idx) :
    ∃ pc ∈ (kernelRun4_C c i arg1 harg1 arg2 harg2 arg3 harg3 arg4 harg4 arg5 harg5 arg6 harg6 arg7 harg7 hc0 hc1 x0 x1 xs0 xs1).1, y ∈ pc.1.set :=
  View.cover_of_tiledL (kernelRun4_C c i arg1 harg1 arg2 harg2 arg3 harg3 arg4 harg4 arg5 harg5 arg6 harg6 arg7 harg7 hc0 hc1 x0 x1 xs0 xs1).1 S2000x64.size (by sl_kernel_rfl) y

/-- What case C leaves in the sum window's staging buffer. -/
def out4_C_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) : Vec F S2000x64 .f32 :=
  VO4_2.read (Elt F) (VO4_2.writes (Elt F) VO4_2.junk (kernelRun4_C c i arg1 harg1 arg2 harg2 arg3 harg3 arg4 harg4 arg5 harg5 arg6 harg6 arg7 harg7 hc0 hc1 x0 x1 xs0 xs1).1)

/-- Case C's pieces for statistics window 3 cover its block. -/
theorem cover4_C_3 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 hc0 hc1 x0 x1 xs0 xs1).2.1, y ∈ pc.1.set :=
  View.cover_of_tiledL (kernelRun4_C c i arg1 harg1 arg2 harg2 arg3 harg3 arg4 harg4 arg5 harg5 arg6 harg6 arg7 harg7 hc0 hc1 x0 x1 xs0 xs1).2.1 S1x64.size (by sl_kernel_rfl) y

/-- What case C leaves in statistics window 3's staging buffer. -/
def out4_C_3 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) : Vec F S1x64 .f32 :=
  VO4_3.read (Elt F) (VO4_3.writes (Elt F) VO4_3.junk (kernelRun4_C c i arg1 harg1 arg2 harg2 arg3 harg3 arg4 harg4 arg5 harg5 arg6 harg6 arg7 harg7 hc0 hc1 x0 x1 xs0 xs1).2.1)

/-- Case C's pieces for statistics window 4 cover its block. -/
theorem cover4_C_4 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 hc0 hc1 x0 x1 xs0 xs1).2.2.1, y ∈ pc.1.set :=
  View.cover_of_tiledL (kernelRun4_C c i arg1 harg1 arg2 harg2 arg3 harg3 arg4 harg4 arg5 harg5 arg6 harg6 arg7 harg7 hc0 hc1 x0 x1 xs0 xs1).2.2.1 S1x64.size (by sl_kernel_rfl) y

/-- What case C leaves in statistics window 4's staging buffer. -/
def out4_C_4 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) : Vec F S1x64 .f32 :=
  VO4_4.read (Elt F) (VO4_4.writes (Elt F) VO4_4.junk (kernelRun4_C c i arg1 harg1 arg2 harg2 arg3 harg3 arg4 harg4 arg5 harg5 arg6 harg6 arg7 harg7 hc0 hc1 x0 x1 xs0 xs1).2.2.1)

/-- Case C's pieces for the first accumulator cover it. -/
theorem scover4_C_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 hc0 hc1 x0 x1 xs0 xs1).2.2.2.1, y ∈ pc.1.set :=
  View.cover_of_tiledL (kernelRun4_C c i arg1 harg1 arg2 harg2 arg3 harg3 arg4 harg4 arg5 harg5 arg6 harg6 arg7 harg7 hc0 hc1 x0 x1 xs0 xs1).2.2.2.1 S1x64.size (by sl_kernel_rfl) y

/-- What case C leaves in the first accumulator. -/
def sout4_C_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 hc0 hc1 x0 x1 xs0 xs1).2.2.2.1)

/-- Case C's pieces for the second accumulator cover it. -/
theorem scover4_C_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 hc0 hc1 x0 x1 xs0 xs1).2.2.2.2.1, y ∈ pc.1.set :=
  View.cover_of_tiledL (kernelRun4_C c i arg1 harg1 arg2 harg2 arg3 harg3 arg4 harg4 arg5 harg5 arg6 harg6 arg7 harg7 hc0 hc1 x0 x1 xs0 xs1).2.2.2.2.1 S1x64.size (by sl_kernel_rfl) y

/-- What case C leaves in the second accumulator. -/
def sout4_C_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) : Vec F S1x64 .f32 :=
  VS4_1.read (Elt F) (VS4_1.writes (Elt F) VS4_1.junk (kernelRun4_C c i arg1 harg1 arg2 harg2 arg3 harg3 arg4 harg4 arg5 harg5 arg6 harg6 arg7 harg7 hc0 hc1 x0 x1 xs0 xs1).2.2.2.2.1)

/-- Where a statistics window is idle nothing is stored into it: a placeholder that nothing consults. -/
def idleOut4_3 : Vec F S1x64 .f32 := VO4_3.read (Elt F) (VO4_3.writes (Elt F) VO4_3.junk [])
def idleOut4_4 : Vec F S1x64 .f32 := VO4_4.read (Elt F) (VO4_4.writes (Elt F) VO4_4.junk [])

/-! ## What the outputs and the accumulators hold after each point -/

/-- After the body at position `n`: the sum window's staging buffer, the two statistics windows', and the two
    accumulators — the case the closed forms select at `n`, run at the point's memrefs and input blocks, the
    accumulators starting from what position `n - 1` left. -/
def outsAt4 (c : Dev nD) : (n : ℕ) → n < cfg4.N → Vec F S2000x64 .f32 × Vec F S1x64 .f32 × Vec F S1x64 .f32 × Vec F S1x64 .f32 × Vec F S1x64 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), idleOut4_3, idleOut4_4, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 25 = 0 then
      if h1 : (n + 1) % 25 = 24 then
        False.elim (by have hN : n + 1 < 25 := lt_of_lt_of_eq hn (show cfg4.N = 25 from N_4); omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), idleOut4_3, idleOut4_4, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 25 = 24 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.2.1 (outsAt4 c n (Nat.lt_of_succ_lt hn)).2.2.2.2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, idleOut4_3, idleOut4_4, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.2.1 (outsAt4 c n (Nat.lt_of_succ_lt hn)).2.2.2.2)

/-- `outsAt4` at a point of case A. -/
theorem outsAt4_A (c : Dev nD) (t : Fin cfg4.N) (h0 : t.val % 25 = 0) (h1 : ¬t.val % 25 = 24) :
    outsAt4 V c t.val t.isLt = (out4_A_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t), idleOut4_3, idleOut4_4, sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t), sout4_A_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a point of case B: over what the point before left. -/
theorem outsAt4_B (c : Dev nD) (t : Fin cfg4.N) (h0 : ¬t.val % 25 = 0) (h1 : ¬t.val % 25 = 24) :
    outsAt4 V c t.val t.isLt = (out4_B_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, idleOut4_3, idleOut4_4, sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: over what the point before left. -/
theorem outsAt4_C (c : Dev nD) (t : Fin cfg4.N) (h0 : ¬t.val % 25 = 0) (h1 : t.val % 25 = 24) :
    outsAt4 V c t.val t.isLt = (out4_C_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards each accumulator at what the point before left in it, the other scoped buffers unopened, and the
    generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2) ∗ rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2) ∗ rest4 c) ∗ (∃ r, prngReg c r)) := by
  cases n with
  | zero => exact absurd rfl hz
  | succ n => rfl

/-! ## The pipeline's proof data -/

/-- The proof data of pipeline 4 on core `c`: the arrays as the region finds them; after the body at point `t`
    each input's buffer at its block and the outputs' at `outsAt4`; the invariant `PhiS4`; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
    | ⟨4, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]
theorem after4_4 (c : Dev nD) (t : Fin cfg4.N) : (dat4 V c).after 4 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point: the inputs' memrefs hold their blocks; the closed forms say which case the point is in;
    the invariant hands the body the accumulators at what the point before left (at anything at the first point)
    and takes them back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 25 = 0
  · by_cases h1 : t.val % 25 = 24
    · exfalso; omega
    ·
      rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [Dat.leavesExact_idle (dat4 V c) 4 t (idleAt4_4_A t ((hcond4_0 t).mpr h0) (fun h => h1 ((hcond4_1 t).mp h))) (noFlush4_4_A t ((hcond4_0 t).mpr h0) (fun h => h1 ((hcond4_1 t).mp h)))]
      rw [outsAt4_A V c t h0 h1]
      unfold out4_A_2 sout4_A_0 sout4_A_1; (try dsimp only)
      have hz : t.val = 0 := by omega
      rw [PhiS4_castSucc V c t, PhiS4_zero V c _ _ hz, PhiA4_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ _ _ ((hcond4_0 t).mpr h0) (fun h => h1 ((hcond4_1 t).mp h)) (iblk4 V c 0 t) (iblk4 V c 1 t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_A_2 c _ _ _ _ _ _ _ _ _ _ _ _ _ _ _ _ _ _ _)
      isplitl [H3]; · iexists _; iexact H3
      iexists _; iexact H4

  · by_cases h1 : t.val % 25 = 24
    ·
      rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [show (dat4 V c).leavesExact 4 t = owns (c : Thread nD τ) (ms4_4 t) fullShare ((dat4 V c).after 4 t) from by
        unfold Dat.leavesExact; rw [liveAt4_4_C t (fun h => h0 ((hcond4_0 t).mp h)) ((hcond4_1 t).mpr h1)], after4_4]
      rw [outsAt4_C V c t h0 h1]
      unfold out4_C_2 out4_C_3 out4_C_4 sout4_C_0 sout4_C_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun4_C c (grid4.coords t) _ _ _ _ _ _ _ _ _ _ _ _ _ _ (fun h => h0 ((hcond4_0 t).mp h)) ((hcond4_1 t).mpr h1) (iblk4 V c 0 t) (iblk4 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_C_2 c _ _ _ _ _ _ _ _ _ _ _ _ _ _ _ _ _ _ _ _ _)
      isplitl [H3]
      · unfold owns; iexists _; isplitr
        swap; · iexact H3
        ipureintro; exact View.read_writes_of_cover _ _ _ _ _ (cover4_C_3 c _ _ _ _ _ _ _ _ _ _ _ _ _ _ _ _ _ _ _ _ _)
      unfold owns; iexists _; isplitr
      swap; · iexact H4
      ipureintro; exact View.read_writes_of_cover _ _ _ _ _ (cover4_C_4 c _ _ _ _ _ _ _ _ _ _ _ _ _ _ _ _ _ _ _ _ _)

    ·
      rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [Dat.leavesExact_idle (dat4 V c) 4 t (idleAt4_4_B t (fun h => h0 ((hcond4_0 t).mp h)) (fun h => h1 ((hcond4_1 t).mp h))) (noFlush4_4_B t (fun h => h0 ((hcond4_0 t).mp h)) (fun h => h1 ((hcond4_1 t).mp h)))]
      rw [outsAt4_B V c t h0 h1]
      unfold out4_B_2 sout4_B_0 sout4_B_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_B_2 c _ _ _ _ _ _ _ _ _ _ _ _ _ _ _ _ _ _ _ _ _)
      isplitl [H3]; · iexists _; iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 25 := N_4; omega)

end Cert.Kernel.Hand

end
-- ==== Proof.KB.Reg5.lean ====
import proofs.«177069_j18983755448416_1_alg».proof.Proof.Gen.Kernel.Launch
import proofs.«177069_j18983755448416_1_alg».proof.Proof.Gen.Kernel.Skeleton
import proofs.«177069_j18983755448416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5 of @main (normalize by the batch statistics, scale, shift, clamp below at zero; layer 2): the frame half, at any float instance

At a parameter `V` — the buffer contents when the region is entered — this module states what each
window's block is at a grid point, what the body leaves in the output window's buffer as a function of
the input blocks, the body's triple, the proof data of the pipeline and its body obligation. Every input
window's buffer holds its block at every point, whether the point fetches it or not: a window that is
fetched at the first point only keeps the same block index, so the block it was left with is still its
block. The body stores the whole output block once, so the buffer after the body is that one stored
value. -/

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point, fetched there or not, for any proof data
    whose array is `V`'s and whose body leaves the block in place: where the window is not fetched its block
    index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current buffer holds its block at every point, fetched there or not, for any proof data
    whose array is `V`'s and whose body leaves the block in place: where the window is not fetched its block
    index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current buffer holds its block at every point, fetched there or not, for any proof data
    whose array is `V`'s and whose body leaves the block in place: where the window is not fetched its block
    index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current buffer holds its block at every point, fetched there or not, for any proof data
    whose array is `V`'s and whose body leaves the block in place: where the window is not fetched its block
    index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current buffer holds its block at every point, fetched there or not, for any proof data
    whose array is `V`'s and whose body leaves the block in place: where the window is not fetched its block
    index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read or written whole -/

abbrev r5_0 : Rect S2000x64 := Rect.unit (s := S2000x64) ![0, 0] S2000x64.size inb_S2000x64_S2000x64_0_0
abbrev r5_1 : Rect S1x64 := Rect.unit (s := S1x64) ![0, 0] S1x64.size inb_S1x64_S1x64_0_0

/-! ## What the body leaves in the output window's buffer -/

/-- Window 5's buffer after the body, from the input windows' blocks: the one stored value. -/
def out5_5 (x0 : Vec F S2000x64 .f32) (x1 : Vec F S1x64 .f32) (x2 : Vec F S1x64 .f32) (x3 : Vec F S1x64 .f32) (x4 : Vec F S1x64 .f32) : Vec F S2000x64 .f32 :=
  View.canon [⟨r5_0, k5_pay1 (View.ld x1 r5_1) (View.ld x2 r5_1) (View.ld x0 r5_0) (View.ld x3 r5_1) (View.ld x4 r5_1)⟩]

/-- The one store covers the buffer. -/
theorem cover5_5 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

/-! ## The body's triple -/

set_option maxHeartbeats 1000000 in
/-- The kernel body on whole buffers, the inputs' at contents `xW` and the output's at anything, runs to the
    continuation holding the inputs' as they were and the output's at `out5_5` of the inputs'. -/
theorem sound_kernel5 (c : Dev nD) (E : Set ℕ) (i : grid5.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them; after the body at point `t`
    each input's buffer at its block and the output's at `out5_5` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg6.lean ====
import proofs.«177069_j18983755448416_1_alg».proof.Proof.Gen.Kernel.Launch
import proofs.«177069_j18983755448416_1_alg».proof.Proof.Gen.Kernel.Skeleton
import proofs.«177069_j18983755448416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6 of @main (the node transform of layer 3): the body half of its frame

The kernel reads a block of 2000 rows of the layer's input, the whole weight, the bias row and the whole
cross basis, and stores two blocks: h = x · W + b (2000 × 64) and T = h · Mt (2000 × 1024). It keeps
nothing between grid points. Everything here is stated at a parameter V, the buffer contents when the
region is entered, and at any float instance F. -/

-- membership in a rectangle of 2000 × 1024 entries recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether it was fetched there or not
    (not fetched means its block index has not moved), for any proof data whose array is `V`'s and whose body
    leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, whether it was fetched there or not
    (not fetched means its block index has not moved), for any proof data whose array is `V`'s and whose body
    leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, whether it was fetched there or not
    (not fetched means its block index has not moved), for any proof data whose array is `V`'s and whose body
    leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, whether it was fetched there or not
    (not fetched means its block index has not moved), for any proof data whose array is `V`'s and whose body
    leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each staging buffer is read and written whole -/

abbrev r6_0 : Rect S2000x64 := Rect.unit (s := S2000x64) ![0, 0] S2000x64.size inb_S2000x64_S2000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0
abbrev r6_3 : Rect S64x1024 := Rect.unit (s := S64x1024) ![0, 0] S64x1024.size inb_S64x1024_S64x1024_0_0
abbrev r6_4 : Rect S2000x64 := Rect.unit (s := S2000x64) ![0, 0] S2000x64.size inb_S2000x64_S2000x64_0_0
abbrev r6_5 : Rect S2000x1024 := Rect.unit (s := S2000x1024) ![0, 0] S2000x1024.size inb_S2000x1024_S2000x1024_0_0

/-! ## What the body leaves in each output window's buffer -/

/-- Window 4's staging buffer after the body, from the input windows' blocks: the block of h. -/
def out6_4 (x0 : Vec F S2000x64 .f32) (x1 : Vec F S64x64 .f32) (x2 : Vec F S1x64 .f32) (x3 : Vec F S64x1024 .f32) : Vec F S2000x64 .f32 :=
  View.canon [⟨r6_4, k6_pay1 (View.ld x0 r6_0) (View.ld x1 r6_1) (View.ld x2 r6_2)⟩]

/-- Its one store covers the buffer. -/
theorem cover6_4 (p0 : Vec F S2000x64 .f32) (y : S2000x64.Idx) :
    ∃ pc ∈ ([⟨r6_4, p0⟩] : List (View.Piece (Elt F) S2000x64 .f32)), y ∈ pc.1.set :=
  View.cover_of_tiled [⟨r6_4, p0⟩] S2000x64.size (by rfl) y

/-- Window 5's staging buffer after the body, from the input windows' blocks: the block of T. -/
def out6_5 (x0 : Vec F S2000x64 .f32) (x1 : Vec F S64x64 .f32) (x2 : Vec F S1x64 .f32) (x3 : Vec F S64x1024 .f32) : Vec F S2000x1024 .f32 :=
  View.canon [⟨r6_5, k6_pay2 (View.ld x0 r6_0) (View.ld x1 r6_1) (View.ld x2 r6_2) (View.ld x3 r6_3)⟩]

/-- Its one store covers the buffer. -/
theorem cover6_5 (p0 : Vec F S2000x1024 .f32) (y : S2000x1024.Idx) :
    ∃ pc ∈ ([⟨r6_5, p0⟩] : List (View.Piece (Elt F) S2000x1024 .f32)), y ∈ pc.1.set :=
  View.cover_of_tiled [⟨r6_5, p0⟩] S2000x1024.size (by rfl) y

/-! ## The body's triple -/

set_option maxHeartbeats 1000000 in
/-- The kernel body on whole staging memrefs, the inputs' at read contents `xW` and the outputs' at anything, runs to
    the continuation holding the inputs' as they were and each output's at `out6_W` of the inputs'. The grid
    coordinate is not read. -/
theorem sound_kernel6 (c : Dev nD) (E : Set ℕ) (i : grid6.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x1024 .f32) (harg4 : arg4.IsWhole)
    (arg5 : Memref sig .tc .vmem S2000x64 .f32) (harg5 : arg5.IsWhole) (arg6 : Memref sig .tc .vmem S2000x1024 .f32) (harg6 : arg6.IsWhole)
    (x0 : Vec F S2000x64 .f32) (x1 : Vec F S64x64 .f32) (x2 : Vec F S1x64 .f32) (x3 : Vec F S64x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3) ∗ owns (c : Thread nD τ) arg6 fullShare (out6_5 x0 x1 x2 x3)) -∗ K ⟨⟩))
      ⊢ wp frame (wpE (defs₀ (F := F)) Variants.none c none) E (cc6__node_transform_kernel i arg1 harg1 arg2 harg2 arg3 harg3 arg4 harg4 arg5 harg5 arg6 harg6) K := by
  simp only [cc6__node_transform_kernel_eq_skeleton]; unfold cc6__node_transform_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover6_4 _)
  iexists _; isplitr
  swap; · iexact H5
  ipureintro
  exact View.read_writes_eq_canon _ _ _ (cover6_5 _)

/-! ## The pipeline's proof data -/

/-- The proof data of pipeline 6 on core `c`: the arrays as the region finds them (`V`); after the body at
    point `t` each input's buffer at its block and each output's at `out6_W` of the input blocks; the invariant
    is the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
    | ⟨5, _⟩ => out6_5 (iblk6 V c 0 t) (iblk6 V c 1 t) (iblk6 V c 2 t) (iblk6 V c 3 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Reg7Runs.lean ====
import proofs.«177069_j18983755448416_1_alg».proof.Proof.Gen.Kernel.Launch
import proofs.«177069_j18983755448416_1_alg».proof.Proof.Gen.Kernel.Skeleton
import proofs.«177069_j18983755448416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7 (the add-and-statistics kernel): what its three control cases share — the blocks of its windows at
the contents `V` the region is entered with, the two branch conditions in closed form over the grid (the first
point zeroes the two accumulators, the last point copies them out), where the two statistics windows are idle, and
the staging and scratch memrefs the case runs are stated over. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The first branch's condition (the point is the grid's first), from the grid coordinate. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 25 = 0 :=
  (by decide +kernel : ∀ t : Fin grid7.N, cond7_0 (grid7.coords t) ↔ t.val % 25 = 0)

/-- The second branch's condition (the point is the grid's last). -/
abbrev cond7_1 (i : grid7.Coords) : Prop := k7_cond2 i = 1#1
theorem hcond7_1 : ∀ t : Fin cfg7.N, cond7_1 (grid7.coords t) ↔ t.val % 25 = 24 :=
  (by decide +kernel : ∀ t : Fin grid7.N, cond7_1 (grid7.coords t) ↔ t.val % 25 = 24)

/-- Windows 0, 1, 2 are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel

/-- Away from the last point window 3 is idle and is not written back; at the last point it is live. -/
theorem idleAt7_3_A : ∀ t : Fin cfg7.N, cond7_0 (grid7.coords t) → ¬cond7_1 (grid7.coords t) → cfg7.idle 3 (grid7.coords t) = true := by decide +kernel
theorem noFlush7_3_A : ∀ t : Fin cfg7.N, cond7_0 (grid7.coords t) → ¬cond7_1 (grid7.coords t) → (cfg7.win 3).flush t = false := by decide +kernel
theorem idleAt7_3_B : ∀ t : Fin cfg7.N, ¬cond7_0 (grid7.coords t) → ¬cond7_1 (grid7.coords t) → cfg7.idle 3 (grid7.coords t) = true := by decide +kernel
theorem noFlush7_3_B : ∀ t : Fin cfg7.N, ¬cond7_0 (grid7.coords t) → ¬cond7_1 (grid7.coords t) → (cfg7.win 3).flush t = false := by decide +kernel
theorem liveAt7_3_C : ∀ t : Fin cfg7.N, ¬cond7_0 (grid7.coords t) → cond7_1 (grid7.coords t) → cfg7.idle 3 (grid7.coords t) = false := by decide +kernel

/-- Away from the last point window 4 is idle and is not written back; at the last point it is live. -/
theorem idleAt7_4_A : ∀ t : Fin cfg7.N, cond7_0 (grid7.coords t) → ¬cond7_1 (grid7.coords t) → cfg7.idle 4 (grid7.coords t) = true := by decide +kernel
theorem noFlush7_4_A : ∀ t : Fin cfg7.N, cond7_0 (grid7.coords t) → ¬cond7_1 (grid7.coords t) → (cfg7.win 4).flush t = false := by decide +kernel
theorem idleAt7_4_B : ∀ t : Fin cfg7.N, ¬cond7_0 (grid7.coords t) → ¬cond7_1 (grid7.coords t) → cfg7.idle 4 (grid7.coords t) = true := by decide +kernel
theorem noFlush7_4_B : ∀ t : Fin cfg7.N, ¬cond7_0 (grid7.coords t) → ¬cond7_1 (grid7.coords t) → (cfg7.win 4).flush t = false := by decide +kernel
theorem liveAt7_4_C : ∀ t : Fin cfg7.N, ¬cond7_0 (grid7.coords t) → cond7_1 (grid7.coords t) → cfg7.idle 4 (grid7.coords t) = false := by decide +kernel

/-- One staging buffer of each output window, through which its contents are stated. -/
abbrev VO7_2 : View sig .tc .vmem S2000x64 .f32 := (Memref.whole cc7_stg2_0 : Memref sig .tc .vmem S2000x64 .f32).view
abbrev VO7_3 : View sig .tc .vmem S1x64 .f32 := (Memref.whole cc7_stg3_0 : Memref sig .tc .vmem S1x64 .f32).view
abbrev VO7_4 : View sig .tc .vmem S1x64 .f32 := (Memref.whole cc7_stg4_0 : Memref sig .tc .vmem S1x64 .f32).view
abbrev ms7_0 (t : Fin cfg7.N) : Memref sig .tc .vmem S2000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2000x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2000x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)
/-- The two accumulators: whole scoped buffers of the kernel's own, carried from point to point. -/
abbrev scM7_0 : Memref sig .tc .vmem S1x64 .f32 := Memref.whole cc7_scratch0
abbrev scM7_1 : Memref sig .tc .vmem S1x64 .f32 := Memref.whole cc7_scratch1
abbrev VS7_0 : View sig .tc .vmem S1x64 .f32 := scM7_0.view
abbrev VS7_1 : View sig .tc .vmem S1x64 .f32 := scM7_1.view

/-- The scoped buffers this region never opens. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The region's invariant with the two accumulators split out as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d)) ∗ rest7 c) ∗ (∃ r, prngReg c r)) := by
  unfold Pipeline.ΦA; rw [scopedRest7_split]; simp only [scM7_0, scM7_1, owns_whole]; try rfl

end Cert.Kernel.Hand

end
-- ==== Proof.KB.Reg7RunA.lean ====
import proofs.«177069_j18983755448416_1_alg».proof.Proof.KB.Reg7Runs

/-! Region 7: the whole body of the add-and-statistics kernel run at the grid's first point (the accumulators are zeroed, then added to), on whole staging memrefs.
The pieces each buffer ends with are what the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's first point (the accumulators are zeroed, then added to): from the inputs' memrefs at their blocks, the sum window's at anything, the idle statistics windows' at contents handed back untouched, the accumulators at anything, it runs to the continuation holding the
    inputs' as they were and every buffer it stored into with its pieces written. -/
noncomputable def kernelRun7_A (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc7__add_stats_kernel i arg1 harg1 arg2 harg2 arg3 harg3 arg4 harg4 arg5 harg5 arg6 harg6 arg7 harg7) K } := by
  refine ⟨?_, ?_, ?_, fun xi3 xi4 E K => ?run⟩
  case run =>
    simp only [cc7__add_stats_kernel_eq_skeleton]; unfold cc7__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, HS0⟩, ⟨%d6, %f6, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.KB.Reg7RunB.lean ====
import proofs.«177069_j18983755448416_1_alg».proof.Proof.KB.Reg7RunA

/-! Region 7: the whole body of the add-and-statistics kernel run at a middle point (the accumulators are added to), on whole staging memrefs.
The pieces each buffer ends with are what the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a middle point (the accumulators are added to): from the inputs' memrefs at their blocks, the sum window's at anything, the idle statistics windows' at contents handed back untouched, the accumulators at what the point before left, it runs to the continuation holding the
    inputs' as they were and every buffer it stored into with its pieces written. -/
noncomputable def kernelRun7_B (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc7__add_stats_kernel i arg1 harg1 arg2 harg2 arg3 harg3 arg4 harg4 arg5 harg5 arg6 harg6 arg7 harg7) K } := by
  refine ⟨?_, ?_, ?_, fun xi3 xi4 E K => ?run⟩
  case run =>
    simp only [cc7__add_stats_kernel_eq_skeleton]; unfold cc7__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, HS0⟩, ⟨%f6, %hf6, HS1⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.KB.Reg7RunC.lean ====
import proofs.«177069_j18983755448416_1_alg».proof.Proof.KB.Reg7RunB

/-! Region 7: the whole body of the add-and-statistics kernel run at the grid's last point (the accumulators are added to, then copied to the two statistics windows), on whole staging memrefs.
The pieces each buffer ends with are what the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's last point (the accumulators are added to, then copied to the two statistics windows): from the inputs' memrefs at their blocks, the sum window's at anything, the statistics windows' at anything, the accumulators at what the point before left, it runs to the continuation holding the
    inputs' as they were and every buffer it stored into with its pieces written. -/
noncomputable def kernelRun7_C (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) :
    Σ' (L2 : List (View.Piece (Elt F) S2000x64 .f32)) (L3 : List (View.Piece (Elt F) S1x64 .f32)) (L4 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc7__add_stats_kernel i arg1 harg1 arg2 harg2 arg3 harg3 arg4 harg4 arg5 harg5 arg6 harg6 arg7 harg7) K } := by
  refine ⟨?_, ?_, ?_, ?_, ?_, fun E K => ?run⟩
  case run =>
    simp only [cc7__add_stats_kernel_eq_skeleton]; unfold cc7__add_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, HS0⟩, ⟨%f6, %hf6, HS1⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.KB.Reg7.lean ====
import proofs.«177069_j18983755448416_1_alg».proof.Proof.KB.Reg7RunC

/-! Region 7 (the add-and-statistics kernel), the frame half: what each control case leaves in the output windows'
staging buffers and in the two accumulators, these contents point by point (the accumulators are carried: a point
starts from what the point before left), the proof data of the pipeline at the entry contents `V`, the body
obligation, and the invariant's two ends. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Case A -/

/-- Case A's pieces for the sum window cover its block. -/
theorem cover7_A_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) (y : S2000x64.Idx) :
    ∃ pc ∈ (kernelRun7_A c i arg1 harg1 arg2 harg2 arg3 harg3 arg4 harg4 arg5 harg5 arg6 harg6 arg7 harg7 hc0 hc1 x0 x1).1, y ∈ pc.1.set :=
  View.cover_of_tiledL (kernelRun7_A c i arg1 harg1 arg2 harg2 arg3 harg3 arg4 harg4 arg5 harg5 arg6 harg6 arg7 harg7 hc0 hc1 x0 x1).1 S2000x64.size (by sl_kernel_rfl) y

/-- What case A leaves in the sum window's staging buffer. -/
def out7_A_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) : Vec F S2000x64 .f32 :=
  VO7_2.read (Elt F) (VO7_2.writes (Elt F) VO7_2.junk (kernelRun7_A c i arg1 harg1 arg2 harg2 arg3 harg3 arg4 harg4 arg5 harg5 arg6 harg6 arg7 harg7 hc0 hc1 x0 x1).1)

/-- Case A's pieces for the first accumulator cover it. -/
theorem scover7_A_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) (y : S1x64.Idx) :
    ∃ pc ∈ (kernelRun7_A c i arg1 harg1 arg2 harg2 arg3 harg3 arg4 harg4 arg5 harg5 arg6 harg6 arg7 harg7 hc0 hc1 x0 x1).2.1, y ∈ pc.1.set :=
  View.cover_of_tiledL (kernelRun7_A c i arg1 harg1 arg2 harg2 arg3 harg3 arg4 harg4 arg5 harg5 arg6 harg6 arg7 harg7 hc0 hc1 x0 x1).2.1 S1x64.size (by sl_kernel_rfl) y

/-- What case A leaves in the first accumulator. -/
def sout7_A_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 hc0 hc1 x0 x1).2.1)

/-- Case A's pieces for the second accumulator cover it. -/
theorem scover7_A_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) (y : S1x64.Idx) :
    ∃ pc ∈ (kernelRun7_A c i arg1 harg1 arg2 harg2 arg3 harg3 arg4 harg4 arg5 harg5 arg6 harg6 arg7 harg7 hc0 hc1 x0 x1).2.2.1, y ∈ pc.1.set :=
  View.cover_of_tiledL (kernelRun7_A c i arg1 harg1 arg2 harg2 arg3 harg3 arg4 harg4 arg5 harg5 arg6 harg6 arg7 harg7 hc0 hc1 x0 x1).2.2.1 S1x64.size (by sl_kernel_rfl) y

/-- What case A leaves in the second accumulator. -/
def sout7_A_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) : Vec F S1x64 .f32 :=
  VS7_1.read (Elt F) (VS7_1.writes (Elt F) VS7_1.junk (kernelRun7_A c i arg1 harg1 arg2 harg2 arg3 harg3 arg4 harg4 arg5 harg5 arg6 harg6 arg7 harg7 hc0 hc1 x0 x1).2.2.1)

/-! ## Case B -/

/-- Case B's pieces for the sum window cover its block. -/
theorem cover7_B_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) (y : S2000x64.Idx) :
    ∃ pc ∈ (kernelRun7_B c i arg1 harg1 arg2 harg2 arg3 harg3 arg4 harg4 arg5 harg5 arg6 harg6 arg7 harg7 hc0 hc1 x0 x1 xs0 xs1).1, y ∈ pc.1.set :=
  View.cover_of_tiledL (kernelRun7_B c i arg1 harg1 arg2 harg2 arg3 harg3 arg4 harg4 arg5 harg5 arg6 harg6 arg7 harg7 hc0 hc1 x0 x1 xs0 xs1).1 S2000x64.size (by sl_kernel_rfl) y

/-- What case B leaves in the sum window's staging buffer. -/
def out7_B_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) : Vec F S2000x64 .f32 :=
  VO7_2.read (Elt F) (VO7_2.writes (Elt F) VO7_2.junk (kernelRun7_B c i arg1 harg1 arg2 harg2 arg3 harg3 arg4 harg4 arg5 harg5 arg6 harg6 arg7 harg7 hc0 hc1 x0 x1 xs0 xs1).1)

/-- Case B's pieces for the first accumulator cover it. -/
theorem scover7_B_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 hc0 hc1 x0 x1 xs0 xs1).2.1, y ∈ pc.1.set :=
  View.cover_of_tiledL (kernelRun7_B c i arg1 harg1 arg2 harg2 arg3 harg3 arg4 harg4 arg5 harg5 arg6 harg6 arg7 harg7 hc0 hc1 x0 x1 xs0 xs1).2.1 S1x64.size (by sl_kernel_rfl) y

/-- What case B leaves in the first accumulator. -/
def sout7_B_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 hc0 hc1 x0 x1 xs0 xs1).2.1)

/-- Case B's pieces for the second accumulator cover it. -/
theorem scover7_B_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 hc0 hc1 x0 x1 xs0 xs1).2.2.1, y ∈ pc.1.set :=
  View.cover_of_tiledL (kernelRun7_B c i arg1 harg1 arg2 harg2 arg3 harg3 arg4 harg4 arg5 harg5 arg6 harg6 arg7 harg7 hc0 hc1 x0 x1 xs0 xs1).2.2.1 S1x64.size (by sl_kernel_rfl) y

/-- What case B leaves in the second accumulator. -/
def sout7_B_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) : Vec F S1x64 .f32 :=
  VS7_1.read (Elt F) (VS7_1.writes (Elt F) VS7_1.junk (kernelRun7_B c i arg1 harg1 arg2 harg2 arg3 harg3 arg4 harg4 arg5 harg5 arg6 harg6 arg7 harg7 hc0 hc1 x0 x1 xs0 xs1).2.2.1)

/-! ## Case C -/

/-- Case C's pieces for the sum window cover its block. -/
theorem cover7_C_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) (y : S2000x64.Idx) :
    ∃ pc ∈ (kernelRun7_C c i arg1 harg1 arg2 harg2 arg3 harg3 arg4 harg4 arg5 harg5 arg6 harg6 arg7 harg7 hc0 hc1 x0 x1 xs0 xs1).1, y ∈ pc.1.set :=
  View.cover_of_tiledL (kernelRun7_C c i arg1 harg1 arg2 harg2 arg3 harg3 arg4 harg4 arg5 harg5 arg6 harg6 arg7 harg7 hc0 hc1 x0 x1 xs0 xs1).1 S2000x64.size (by sl_kernel_rfl) y

/-- What case C leaves in the sum window's staging buffer. -/
def out7_C_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) : Vec F S2000x64 .f32 :=
  VO7_2.read (Elt F) (VO7_2.writes (Elt F) VO7_2.junk (kernelRun7_C c i arg1 harg1 arg2 harg2 arg3 harg3 arg4 harg4 arg5 harg5 arg6 harg6 arg7 harg7 hc0 hc1 x0 x1 xs0 xs1).1)

/-- Case C's pieces for statistics window 3 cover its block. -/
theorem cover7_C_3 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 hc0 hc1 x0 x1 xs0 xs1).2.1, y ∈ pc.1.set :=
  View.cover_of_tiledL (kernelRun7_C c i arg1 harg1 arg2 harg2 arg3 harg3 arg4 harg4 arg5 harg5 arg6 harg6 arg7 harg7 hc0 hc1 x0 x1 xs0 xs1).2.1 S1x64.size (by sl_kernel_rfl) y

/-- What case C leaves in statistics window 3's staging buffer. -/
def out7_C_3 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) : Vec F S1x64 .f32 :=
  VO7_3.read (Elt F) (VO7_3.writes (Elt F) VO7_3.junk (kernelRun7_C c i arg1 harg1 arg2 harg2 arg3 harg3 arg4 harg4 arg5 harg5 arg6 harg6 arg7 harg7 hc0 hc1 x0 x1 xs0 xs1).2.1)

/-- Case C's pieces for statistics window 4 cover its block. -/
theorem cover7_C_4 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 hc0 hc1 x0 x1 xs0 xs1).2.2.1, y ∈ pc.1.set :=
  View.cover_of_tiledL (kernelRun7_C c i arg1 harg1 arg2 harg2 arg3 harg3 arg4 harg4 arg5 harg5 arg6 harg6 arg7 harg7 hc0 hc1 x0 x1 xs0 xs1).2.2.1 S1x64.size (by sl_kernel_rfl) y

/-- What case C leaves in statistics window 4's staging buffer. -/
def out7_C_4 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) : Vec F S1x64 .f32 :=
  VO7_4.read (Elt F) (VO7_4.writes (Elt F) VO7_4.junk (kernelRun7_C c i arg1 harg1 arg2 harg2 arg3 harg3 arg4 harg4 arg5 harg5 arg6 harg6 arg7 harg7 hc0 hc1 x0 x1 xs0 xs1).2.2.1)

/-- Case C's pieces for the first accumulator cover it. -/
theorem scover7_C_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 hc0 hc1 x0 x1 xs0 xs1).2.2.2.1, y ∈ pc.1.set :=
  View.cover_of_tiledL (kernelRun7_C c i arg1 harg1 arg2 harg2 arg3 harg3 arg4 harg4 arg5 harg5 arg6 harg6 arg7 harg7 hc0 hc1 x0 x1 xs0 xs1).2.2.2.1 S1x64.size (by sl_kernel_rfl) y

/-- What case C leaves in the first accumulator. -/
def sout7_C_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) : Vec F S1x64 .f32 :=
  VS7_0.read (Elt F) (VS7_0.writes (Elt F) VS7_0.junk (kernelRun7_C c i arg1 harg1 arg2 harg2 arg3 harg3 arg4 harg4 arg5 harg5 arg6 harg6 arg7 harg7 hc0 hc1 x0 x1 xs0 xs1).2.2.2.1)

/-- Case C's pieces for the second accumulator cover it. -/
theorem scover7_C_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 hc0 hc1 x0 x1 xs0 xs1).2.2.2.2.1, y ∈ pc.1.set :=
  View.cover_of_tiledL (kernelRun7_C c i arg1 harg1 arg2 harg2 arg3 harg3 arg4 harg4 arg5 harg5 arg6 harg6 arg7 harg7 hc0 hc1 x0 x1 xs0 xs1).2.2.2.2.1 S1x64.size (by sl_kernel_rfl) y

/-- What case C leaves in the second accumulator. -/
def sout7_C_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) : Vec F S1x64 .f32 :=
  VS7_1.read (Elt F) (VS7_1.writes (Elt F) VS7_1.junk (kernelRun7_C c i arg1 harg1 arg2 harg2 arg3 harg3 arg4 harg4 arg5 harg5 arg6 harg6 arg7 harg7 hc0 hc1 x0 x1 xs0 xs1).2.2.2.2.1)

/-- Where a statistics window is idle nothing is stored into it: a placeholder that nothing consults. -/
def idleOut7_3 : Vec F S1x64 .f32 := VO7_3.read (Elt F) (VO7_3.writes (Elt F) VO7_3.junk [])
def idleOut7_4 : Vec F S1x64 .f32 := VO7_4.read (Elt F) (VO7_4.writes (Elt F) VO7_4.junk [])

/-! ## What the outputs and the accumulators hold after each point -/

/-- After the body at position `n`: the sum window's staging buffer, the two statistics windows', and the two
    accumulators — the case the closed forms select at `n`, run at the point's memrefs and input blocks, the
    accumulators starting from what position `n - 1` left. -/
def outsAt7 (c : Dev nD) : (n : ℕ) → n < cfg7.N → Vec F S2000x64 .f32 × Vec F S1x64 .f32 × Vec F S1x64 .f32 × Vec F S1x64 .f32 × Vec F S1x64 .f32
  | 0, hn => (out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩), idleOut7_3, idleOut7_4, sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩))
  | n + 1, hn =>
    if h0 : (n + 1) % 25 = 0 then
      if h1 : (n + 1) % 25 = 24 then
        False.elim (by have hN : n + 1 < 25 := lt_of_lt_of_eq hn (show cfg7.N = 25 from N_7); omega)
      else
        (out7_A_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩), idleOut7_3, idleOut7_4, sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩), sout7_A_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩))
    else
      if h1 : (n + 1) % 25 = 24 then
        (out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2.2.1 (outsAt7 c n (Nat.lt_of_succ_lt hn)).2.2.2.2)
      else
        (out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, idleOut7_3, idleOut7_4, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.2.2.1 (outsAt7 c n (Nat.lt_of_succ_lt hn)).2.2.2.2)

/-- `outsAt7` at a point of case A. -/
theorem outsAt7_A (c : Dev nD) (t : Fin cfg7.N) (h0 : t.val % 25 = 0) (h1 : ¬t.val % 25 = 24) :
    outsAt7 V c t.val t.isLt = (out7_A_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) ((hcond7_0 t).mpr h0) (fun h => h1 ((hcond7_1 t).mp h)) (iblk7 V c 0 t) (iblk7 V c 1 t), idleOut7_3, idleOut7_4, sout7_A_0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) ((hcond7_0 t).mpr h0) (fun h => h1 ((hcond7_1 t).mp h)) (iblk7 V c 0 t) (iblk7 V c 1 t), sout7_A_1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) ((hcond7_0 t).mpr h0) (fun h => h1 ((hcond7_1 t).mp h)) (iblk7 V c 0 t) (iblk7 V c 1 t)) := by
  obtain ⟨n, hn⟩ := t
  cases n with
  | zero => exact rfl
  | succ n => exact (dif_pos h0).trans ((dif_neg h1).trans rfl)

/-- `outsAt7` at a point of case B: over what the point before left. -/
theorem outsAt7_B (c : Dev nD) (t : Fin cfg7.N) (h0 : ¬t.val % 25 = 0) (h1 : ¬t.val % 25 = 24) :
    outsAt7 V c t.val t.isLt = (out7_B_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, idleOut7_3, idleOut7_4, sout7_B_0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt7` at a point of case C: over what the point before left. -/
theorem outsAt7_C (c : Dev nD) (t : Fin cfg7.N) (h0 : ¬t.val % 25 = 0) (h1 : t.val % 25 = 24) :
    outsAt7 V c t.val t.isLt = (out7_C_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_3 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_4 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards each accumulator at what the point before left in it, the other scoped buffers unopened, and the
    generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare (outsAt7 V c n hn).2.2.2.1 ∗ owns (c : Thread nD τ) scM7_1 fullShare (outsAt7 V c n hn).2.2.2.2) ∗ rest7 c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (outsAt7 V c n hn).2.2.2.1 ∗ owns (c : Thread nD τ) scM7_1 fullShare (outsAt7 V c n hn).2.2.2.2) ∗ rest7 c) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (outsAt7 V c (n - 1) (by omega)).2.2.2.1 ∗ owns (c : Thread nD τ) scM7_1 fullShare (outsAt7 V c (n - 1) (by omega)).2.2.2.2) ∗ rest7 c) ∗ (∃ r, prngReg c r)) := by
  cases n with
  | zero => exact absurd rfl hz
  | succ n => rfl

/-! ## The pipeline's proof data -/

/-- The proof data of pipeline 7 on core `c`: the arrays as the region finds them; after the body at point `t`
    each input's buffer at its block and the outputs' at `outsAt7`; the invariant `PhiS7`; nothing owed;
    full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
    | ⟨3, _⟩ => (outsAt7 V c t.val t.isLt).2.1
    | ⟨4, _⟩ => (outsAt7 V c t.val t.isLt).2.2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]
theorem after7_3 (c : Dev nD) (t : Fin cfg7.N) : (dat7 V c).after 3 t = (outsAt7 V c t.val t.isLt).2.1 := by dsimp only [dat7]
theorem after7_4 (c : Dev nD) (t : Fin cfg7.N) : (dat7 V c).after 4 t = (outsAt7 V c t.val t.isLt).2.2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 4800000 in
/-- The body at any point: the inputs' memrefs hold their blocks; the closed forms say which case the point is in;
    the invariant hands the body the accumulators at what the point before left (at anything at the first point)
    and takes them back at this point's contents; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 25 := lt_of_lt_of_eq t.isLt (show cfg7.N = 25 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  by_cases h0 : t.val % 25 = 0
  · by_cases h1 : t.val % 25 = 24
    · exfalso; omega
    ·
      rw [Dat.leavesExact_idle (dat7 V c) 3 t (idleAt7_3_A t ((hcond7_0 t).mpr h0) (fun h => h1 ((hcond7_1 t).mp h))) (noFlush7_3_A t ((hcond7_0 t).mpr h0) (fun h => h1 ((hcond7_1 t).mp h)))]
      rw [Dat.leavesExact_idle (dat7 V c) 4 t (idleAt7_4_A t ((hcond7_0 t).mpr h0) (fun h => h1 ((hcond7_1 t).mp h))) (noFlush7_4_A t ((hcond7_0 t).mpr h0) (fun h => h1 ((hcond7_1 t).mp h)))]
      rw [outsAt7_A V c t h0 h1]
      unfold out7_A_2 sout7_A_0 sout7_A_1; (try dsimp only)
      have hz : t.val = 0 := by omega
      rw [PhiS7_castSucc V c t, PhiS7_zero V c _ _ hz, PhiA7_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun7_A c (grid7.coords t) _ _ _ _ _ _ _ _ _ _ _ _ _ _ ((hcond7_0 t).mpr h0) (fun h => h1 ((hcond7_1 t).mp h)) (iblk7 V c 0 t) (iblk7 V c 1 t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_A_0 c _ _ _ _ _ _ _ _ _ _ _ _ _ _ _ _ _ _ _)
            · unfold owns; iexists _; isplitr
              swap; · iexact HS1
              ipureintro; exact View.read_writes_of_cover _ _ _ _ _ (scover7_A_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover7_A_2 c _ _ _ _ _ _ _ _ _ _ _ _ _ _ _ _ _ _ _)
      isplitl [H3]; · iexists _; iexact H3
      iexists _; iexact H4

  · by_cases h1 : t.val % 25 = 24
    ·
      rw [show (dat7 V c).leavesExact 3 t = owns (c : Thread nD τ) (ms7_3 t) fullShare ((dat7 V c).after 3 t) from by
        unfold Dat.leavesExact; rw [liveAt7_3_C t (fun h => h0 ((hcond7_0 t).mp h)) ((hcond7_1 t).mpr h1)], after7_3]
      rw [show (dat7 V c).leavesExact 4 t = owns (c : Thread nD τ) (ms7_4 t) fullShare ((dat7 V c).after 4 t) from by
        unfold Dat.leavesExact; rw [liveAt7_4_C t (fun h => h0 ((hcond7_0 t).mp h)) ((hcond7_1 t).mpr h1)], after7_4]
      rw [outsAt7_C V c t h0 h1]
      unfold out7_C_2 out7_C_3 out7_C_4 sout7_C_0 sout7_C_1; (try dsimp only)
      have hz : t.val ≠ 0 := by omega
      rw [PhiS7_castSucc V c t, PhiS7_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun7_C c (grid7.coords t) _ _ _ _ _ _ _ _ _ _ _ _ _ _ (fun h => h0 ((hcond7_0 t).mp h)) ((hcond7_1 t).mpr h1) (iblk7 V c 0 t) (iblk7 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_C_0 c _ _ _ _ _ _ _ _ _ _ _ _ _ _ _ _ _ _ _ _ _)
            · unfold owns; iexists _; isplitr
              swap; · iexact HS1
              ipureintro; exact View.read_writes_of_cover _ _ _ _ _ (scover7_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover7_C_2 c _ _ _ _ _ _ _ _ _ _ _ _ _ _ _ _ _ _ _ _ _)
      isplitl [H3]
      · unfold owns; iexists _; isplitr
        swap; · iexact H3
        ipureintro; exact View.read_writes_of_cover _ _ _ _ _ (cover7_C_3 c _ _ _ _ _ _ _ _ _ _ _ _ _ _ _ _ _ _ _ _ _)
      unfold owns; iexists _; isplitr
      swap; · iexact H4
      ipureintro; exact View.read_writes_of_cover _ _ _ _ _ (cover7_C_4 c _ _ _ _ _ _ _ _ _ _ _ _ _ _ _ _ _ _ _ _ _)

    ·
      rw [Dat.leavesExact_idle (dat7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [Dat.leavesExact_idle (dat7 V c) 4 t (idleAt7_4_B t (fun h => h0 ((hcond7_0 t).mp h)) (fun h => h1 ((hcond7_1 t).mp h))) (noFlush7_4_B t (fun h => h0 ((hcond7_0 t).mp h)) (fun h => h1 ((hcond7_1 t).mp h)))]
      rw [outsAt7_B V c t h0 h1]
      unfold out7_B_2 sout7_B_0 sout7_B_1; (try dsimp only)
      have hz : t.val ≠ 0 := by omega
      rw [PhiS7_castSucc V c t, PhiS7_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun7_B c (grid7.coords t) _ _ _ _ _ _ _ _ _ _ _ _ _ _ (fun h => h0 ((hcond7_0 t).mp h)) (fun h => h1 ((hcond7_1 t).mp h)) (iblk7 V c 0 t) (iblk7 V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_B_0 c _ _ _ _ _ _ _ _ _ _ _ _ _ _ _ _ _ _ _ _ _)
            · unfold owns; iexists _; isplitr
              swap; · iexact HS1
              ipureintro; exact View.read_writes_of_cover _ _ _ _ _ (scover7_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover7_B_2 c _ _ _ _ _ _ _ _ _ _ _ _ _ _ _ _ _ _ _ _ _)
      isplitl [H3]; · iexists _; iexact H3
      iexists _; iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point the invariant gives the class's back: the accumulators' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 25 := N_7; omega)

end Cert.Kernel.Hand

end
-- ==== Proof.KB.Reg8.lean ====
import proofs.«177069_j18983755448416_1_alg».proof.Proof.Gen.Kernel.Launch
import proofs.«177069_j18983755448416_1_alg».proof.Proof.Gen.Kernel.Skeleton
import proofs.«177069_j18983755448416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8 of @main (normalize by the batch statistics, scale, shift, clamp below at zero; layer 3): the frame half, at any float instance

At a parameter `V` — the buffer contents when the region is entered — this module states what each
window's block is at a grid point, what the body leaves in the output window's buffer as a function of
the input blocks, the body's triple, the proof data of the pipeline and its body obligation. Every input
window's buffer holds its block at every point, whether the point fetches it or not: a window that is
fetched at the first point only keeps the same block index, so the block it was left with is still its
block. The body stores the whole output block once, so the buffer after the body is that one stored
value. -/

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current buffer holds its block at every point, fetched there or not, for any proof data
    whose array is `V`'s and whose body leaves the block in place: where the window is not fetched its block
    index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current buffer holds its block at every point, fetched there or not, for any proof data
    whose array is `V`'s and whose body leaves the block in place: where the window is not fetched its block
    index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current buffer holds its block at every point, fetched there or not, for any proof data
    whose array is `V`'s and whose body leaves the block in place: where the window is not fetched its block
    index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current buffer holds its block at every point, fetched there or not, for any proof data
    whose array is `V`'s and whose body leaves the block in place: where the window is not fetched its block
    index has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current buffer holds its block at every point, fetched there or not, for any proof data
    whose array is `V`'s and whose body leaves the block in place: where the window is not fetched its block
    index has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read or written whole -/

abbrev r8_0 : Rect S2000x64 := Rect.unit (s := S2000x64) ![0, 0] S2000x64.size inb_S2000x64_S2000x64_0_0
abbrev r8_1 : Rect S1x64 := Rect.unit (s := S1x64) ![0, 0] S1x64.size inb_S1x64_S1x64_0_0

/-! ## What the body leaves in the output window's buffer -/

/-- Window 5's buffer after the body, from the input windows' blocks: the one stored value. -/
def out8_5 (x0 : Vec F S2000x64 .f32) (x1 : Vec F S1x64 .f32) (x2 : Vec F S1x64 .f32) (x3 : Vec F S1x64 .f32) (x4 : Vec F S1x64 .f32) : Vec F S2000x64 .f32 :=
  View.canon [⟨r8_0, k8_pay1 (View.ld x1 r8_1) (View.ld x2 r8_1) (View.ld x0 r8_0) (View.ld x3 r8_1) (View.ld x4 r8_1)⟩]

/-- The one store covers the buffer. -/
theorem cover8_5 (p0 : Vec F S2000x64 .f32) (y : S2000x64.Idx) :
    ∃ pc ∈ ([⟨r8_0, p0⟩] : List (View.Piece (Elt F) S2000x64 .f32)), y ∈ pc.1.set :=
  View.cover_of_tiled [⟨r8_0, p0⟩] S2000x64.size (by rfl) y

/-! ## The body's triple -/

set_option maxHeartbeats 1000000 in
/-- The kernel body on whole buffers, the inputs' at contents `xW` and the output's at anything, runs to the
    continuation holding the inputs' as they were and the output's at `out8_5` of the inputs'. -/
theorem sound_kernel8 (c : Dev nD) (E : Set ℕ) (i : grid8.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them; after the body at point `t`
    each input's buffer at its block and the output's at `out8_5` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KB.Reg9.lean ====
import proofs.«177069_j18983755448416_1_alg».proof.Proof.Gen.Kernel.Launch
import proofs.«177069_j18983755448416_1_alg».proof.Proof.Gen.Kernel.Skeleton
import proofs.«177069_j18983755448416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9 of @main (the final linear map to two outputs per node): the frame half, at any float instance

At a parameter `V` — the buffer contents when the region is entered — this module states what each
window's block is at a grid point, what the body leaves in the output window's buffer as a function of
the input blocks, the body's triple, the proof data of the pipeline and its body obligation. Every input
window's buffer holds its block at every point, whether the point fetches it or not: a window that is
fetched at the first point only keeps the same block index, so the block it was left with is still its
block. The body stores the whole output block once, so the buffer after the body is that one stored
value. -/

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current buffer holds its block at every point, fetched there or not, for any proof data
    whose array is `V`'s and whose body leaves the block in place: where the window is not fetched its block
    index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current buffer holds its block at every point, fetched there or not, for any proof data
    whose array is `V`'s and whose body leaves the block in place: where the window is not fetched its block
    index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current buffer holds its block at every point, fetched there or not, for any proof data
    whose array is `V`'s and whose body leaves the block in place: where the window is not fetched its block
    index has not moved. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer is read or written whole -/

abbrev r9_0 : Rect S2000x64 := Rect.unit (s := S2000x64) ![0, 0] S2000x64.size inb_S2000x64_S2000x64_0_0
abbrev r9_1 : Rect S64x2 := Rect.unit (s := S64x2) ![0, 0] S64x2.size inb_S64x2_S64x2_0_0
abbrev r9_2 : Rect S1x2 := Rect.unit (s := S1x2) ![0, 0] S1x2.size inb_S1x2_S1x2_0_0
abbrev r9_3 : Rect S2000x2 := Rect.unit (s := S2000x2) ![0, 0] S2000x2.size inb_S2000x2_S2000x2_0_0

/-! ## What the body leaves in the output window's buffer -/

/-- Window 3's buffer after the body, from the input windows' blocks: the one stored value. -/
def out9_3 (x0 : Vec F S2000x64 .f32) (x1 : Vec F S64x2 .f32) (x2 : Vec F S1x2 .f32) : Vec F S2000x2 .f32 :=
  View.canon [⟨r9_3, k9_pay1 (View.ld x0 r9_0) (View.ld x1 r9_1) (View.ld x2 r9_2)⟩]

/-- The one store covers the buffer. -/
theorem cover9_3 (p0 : Vec F S2000x2 .f32) (y : S2000x2.Idx) :
    ∃ pc ∈ ([⟨r9_3, p0⟩] : List (View.Piece (Elt F) S2000x2 .f32)), y ∈ pc.1.set :=
  View.cover_of_tiled [⟨r9_3, p0⟩] S2000x2.size (by rfl) y

/-! ## The body's triple -/

set_option maxHeartbeats 1000000 in
/-- The kernel body on whole buffers, the inputs' at contents `xW` and the output's at anything, runs to the
    continuation holding the inputs' as they were and the output's at `out9_3` of the inputs'. -/
theorem sound_kernel9 (c : Dev nD) (E : Set ℕ) (i : grid9.Coords) (arg1 : Memref sig .tc .vmem S2000x64 .f32) (harg1 : arg1.IsWhole) (arg2 : Memref sig .tc .vmem S64x2 .f32) (harg2 : arg2.IsWhole) (arg3 : Memref sig .tc .vmem S1x2 .f32) (harg3 : arg3.IsWhole) (arg4 : Memref sig .tc .vmem S2000x2 .f32) (harg4 : arg4.IsWhole)
    (x0 : Vec F S2000x64 .f32) (x1 : Vec F S64x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__final_linear_kernel i arg1 harg1 arg2 harg2 arg3 harg3 arg4 harg4) K := by
  simp only [cc9__final_linear_kernel_eq_skeleton]; unfold cc9__final_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them; after the body at point `t`
    each input's buffer at its block and the output's at `out9_3` of the input blocks; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.KB.Chain.lean ====
/-
  The buffer contents between the items of @main, as a fold from the launch memory: a host stretch
  applies its operations; a kernel region leaves its input arrays as entered and each output array at
  what its write-backs leave. Then every region's proof data at its entry contents, and what rides
  beside the buffers through every item.
-/
import proofs.«177069_j18983755448416_1_alg».proof.Proof.KB.Reg0
import proofs.«177069_j18983755448416_1_alg».proof.Proof.KB.Reg1
import proofs.«177069_j18983755448416_1_alg».proof.Proof.KB.Reg2
import proofs.«177069_j18983755448416_1_alg».proof.Proof.KB.Reg3
import proofs.«177069_j18983755448416_1_alg».proof.Proof.KB.Reg4
import proofs.«177069_j18983755448416_1_alg».proof.Proof.KB.Reg5
import proofs.«177069_j18983755448416_1_alg».proof.Proof.KB.Reg6
import proofs.«177069_j18983755448416_1_alg».proof.Proof.KB.Reg7
import proofs.«177069_j18983755448416_1_alg».proof.Proof.KB.Reg8
import proofs.«177069_j18983755448416_1_alg».proof.Proof.KB.Reg9
import proofs.«177069_j18983755448416_1_alg».proof.Proof.Gen.Kernel.Regions
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- Before region 0: after the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Before region 1: after the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Before region 2: after the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Before region 3: after the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After region 3: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Before region 4: after the host stretch `hostOps4`. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- After region 4: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- Before region 5: after the host stretch `hostOps5`. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After region 5: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- Before region 6: after the host stretch `hostOps6`. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- After region 6: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- Before region 7: after the host stretch `hostOps7`. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- After region 7: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- Before region 8: after the host stretch `hostOps8`. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- After region 8: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- Before region 9: after the host stretch `hostOps9`. -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- After region 9: its arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-! ## The proof data family and what rides beside the buffers -/

/-- Every pipeline's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W20 m ρ c) ∗ ∃ r, prngReg c r)

end Cert.Kernel.Hand

end
-- ==== Proof.KB.Seg0.lean ====
/-
  Region 0 of @main as a segment over the thread state "every unscoped buffer at the boundary's contents,
  the generator register at some state, nothing owed": its arrays split out of the unscoped buffers at
  entry and put back at their final contents at exit.
-/
import proofs.«177069_j18983755448416_1_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg1.lean ====
/-
  Region 1 of @main as a segment over the thread state "every unscoped buffer at the boundary's contents,
  the generator register at some state, nothing owed": its arrays split out of the unscoped buffers at
  entry and put back at their final contents at exit.
-/
import proofs.«177069_j18983755448416_1_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg2.lean ====
/-
  Region 2 of @main as a segment over the thread state "every unscoped buffer at the boundary's contents,
  the generator register at some state, nothing owed": its arrays split out of the unscoped buffers at
  entry and put back at their final contents at exit.
-/
import proofs.«177069_j18983755448416_1_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg3.lean ====
/-
  Region 3 of @main as a segment over the thread state "every unscoped buffer at the boundary's contents,
  the generator register at some state, nothing owed": its arrays split out of the unscoped buffers at
  entry and put back at their final contents at exit.
-/
import proofs.«177069_j18983755448416_1_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg4.lean ====
/-
  Region 4 of @main as a segment over the thread state "every unscoped buffer at the boundary's contents,
  the generator register at some state, nothing owed": its arrays split out of the unscoped buffers at
  entry and put back at their final contents at exit.
-/
import proofs.«177069_j18983755448416_1_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 4: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec4 c ⊢ (pdats m ρ 4 c).Φ 0 from hin4 (V9 m ρ) c)
    unfold Pipeline.ΦA
    iintro ⟨Hp, -, Hr⟩
    isplitl [Hr]; · iexact Hr
    iexact Hp
  hout c := by
    rw [Pipeline.ownSems0_none]
    refine BIBase.Entails.trans (show (pdats m ρ 4 c).Φ (Fin.last _) ⊢ Pipeline.ΦA spec4 c from hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg5.lean ====
/-
  Region 5 of @main as a segment over the thread state "every unscoped buffer at the boundary's contents,
  the generator register at some state, nothing owed": its arrays split out of the unscoped buffers at
  entry and put back at their final contents at exit.
-/
import proofs.«177069_j18983755448416_1_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 5: entered from every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg6.lean ====
/-
  Region 6 of @main as a segment over the thread state "every unscoped buffer at the boundary's contents,
  the generator register at some state, nothing owed": its arrays split out of the unscoped buffers at
  entry and put back at their final contents at exit.
-/
import proofs.«177069_j18983755448416_1_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 6: entered from every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg7.lean ====
/-
  Region 7 of @main as a segment over the thread state "every unscoped buffer at the boundary's contents,
  the generator register at some state, nothing owed": its arrays split out of the unscoped buffers at
  entry and put back at their final contents at exit.
-/
import proofs.«177069_j18983755448416_1_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 7: entered from every unscoped buffer at `W15`, left at `W16`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec7 c ⊢ (pdats m ρ 7 c).Φ 0 from hin7 (V15 m ρ) c)
    unfold Pipeline.ΦA
    iintro ⟨Hp, -, Hr⟩
    isplitl [Hr]; · iexact Hr
    iexact Hp
  hout c := by
    rw [Pipeline.ownSems0_none]
    refine BIBase.Entails.trans (show (pdats m ρ 7 c).Φ (Fin.last _) ⊢ Pipeline.ΦA spec7 c from hout7 (V15 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg8.lean ====
/-
  Region 8 of @main as a segment over the thread state "every unscoped buffer at the boundary's contents,
  the generator register at some state, nothing owed": its arrays split out of the unscoped buffers at
  entry and put back at their final contents at exit.
-/
import proofs.«177069_j18983755448416_1_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 8: entered from every unscoped buffer at `W17`, left at `W18`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg9.lean ====
/-
  Region 9 of @main as a segment over the thread state "every unscoped buffer at the boundary's contents,
  the generator register at some state, nothing owed": its arrays split out of the unscoped buffers at
  entry and put back at their final contents at exit.
-/
import proofs.«177069_j18983755448416_1_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 9: entered from every unscoped buffer at `W19`, left at `W20`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.KB.Args.lean ====
/-
  The arguments end as launched: no host operation writes an argument, and a region reads one through an
  input window or bypasses it, so the fold of the buffer contents at an argument walks back to the launch memory.
-/
import proofs.«177069_j18983755448416_1_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem W20_main_arg0 (c : Dev nD) : W20 m ρ c (Proc.devRef .tc main_arg0) = m ((c : Thread nD τ).loc main_arg0) :=
  calc W20 m ρ c (Proc.devRef .tc main_arg0)
    _ = W19 m ρ c (Proc.devRef .tc main_arg0) := W20_of_ne m ρ c main_arg0 (by decide)
    _ = W18 m ρ c (Proc.devRef .tc main_arg0) := StableHlo.after_of_writes_sub hostOps9 _ hostOps9_writes (by decide)
    _ = W17 m ρ c (Proc.devRef .tc main_arg0) := W18_of_ne m ρ c main_arg0 (by decide)
    _ = W16 m ρ c (Proc.devRef .tc main_arg0) := StableHlo.after_of_writes_sub hostOps8 _ hostOps8_writes (by decide)
    _ = W15 m ρ c (Proc.devRef .tc main_arg0) := W16_of_ne m ρ c main_arg0 (by decide)
    _ = W14 m ρ c (Proc.devRef .tc main_arg0) := StableHlo.after_of_writes_sub hostOps7 _ hostOps7_writes (by decide)
    _ = W13 m ρ c (Proc.devRef .tc main_arg0) := W14_of_ne m ρ c main_arg0 (by decide)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W20_main_arg1 (c : Dev nD) : W20 m ρ c (Proc.devRef .tc main_arg1) = m ((c : Thread nD τ).loc main_arg1) :=
  calc W20 m ρ c (Proc.devRef .tc main_arg1)
    _ = W19 m ρ c (Proc.devRef .tc main_arg1) := W20_of_ne m ρ c main_arg1 (by decide)
    _ = W18 m ρ c (Proc.devRef .tc main_arg1) := StableHlo.after_of_writes_sub hostOps9 _ hostOps9_writes (by decide)
    _ = W17 m ρ c (Proc.devRef .tc main_arg1) := W18_of_ne m ρ c main_arg1 (by decide)
    _ = W16 m ρ c (Proc.devRef .tc main_arg1) := StableHlo.after_of_writes_sub hostOps8 _ hostOps8_writes (by decide)
    _ = W15 m ρ c (Proc.devRef .tc main_arg1) := W16_of_ne m ρ c main_arg1 (by decide)
    _ = W14 m ρ c (Proc.devRef .tc main_arg1) := StableHlo.after_of_writes_sub hostOps7 _ hostOps7_writes (by decide)
    _ = W13 m ρ c (Proc.devRef .tc main_arg1) := W14_of_ne m ρ c main_arg1 (by decide)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W20_main_arg2 (c : Dev nD) : W20 m ρ c (Proc.devRef .tc main_arg2) = m ((c : Thread nD τ).loc main_arg2) :=
  calc W20 m ρ c (Proc.devRef .tc main_arg2)
    _ = W19 m ρ c (Proc.devRef .tc main_arg2) := W20_of_ne m ρ c main_arg2 (by decide)
    _ = W18 m ρ c (Proc.devRef .tc main_arg2) := StableHlo.after_of_writes_sub hostOps9 _ hostOps9_writes (by decide)
    _ = W17 m ρ c (Proc.devRef .tc main_arg2) := W18_of_ne m ρ c main_arg2 (by decide)
    _ = W16 m ρ c (Proc.devRef .tc main_arg2) := StableHlo.after_of_writes_sub hostOps8 _ hostOps8_writes (by decide)
    _ = W15 m ρ c (Proc.devRef .tc main_arg2) := W16_of_ne m ρ c main_arg2 (by decide)
    _ = W14 m ρ c (Proc.devRef .tc main_arg2) := StableHlo.after_of_writes_sub hostOps7 _ hostOps7_writes (by decide)
    _ = W13 m ρ c (Proc.devRef .tc main_arg2) := W14_of_ne m ρ c main_arg2 (by decide)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W20_main_arg3 (c : Dev nD) : W20 m ρ c (Proc.devRef .tc main_arg3) = m ((c : Thread nD τ).loc main_arg3) :=
  calc W20 m ρ c (Proc.devRef .tc main_arg3)
    _ = W19 m ρ c (Proc.devRef .tc main_arg3) := W20_of_ne m ρ c main_arg3 (by decide)
    _ = W18 m ρ c (Proc.devRef .tc main_arg3) := StableHlo.after_of_writes_sub hostOps9 _ hostOps9_writes (by decide)
    _ = W17 m ρ c (Proc.devRef .tc main_arg3) := W18_of_ne m ρ c main_arg3 (by decide)
    _ = W16 m ρ c (Proc.devRef .tc main_arg3) := StableHlo.after_of_writes_sub hostOps8 _ hostOps8_writes (by decide)
    _ = W15 m ρ c (Proc.devRef .tc main_arg3) := W16_of_ne m ρ c main_arg3 (by decide)
    _ = W14 m ρ c (Proc.devRef .tc main_arg3) := StableHlo.after_of_writes_sub hostOps7 _ hostOps7_writes (by decide)
    _ = W13 m ρ c (Proc.devRef .tc main_arg3) := W14_of_ne m ρ c main_arg3 (by decide)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W20_main_arg4 (c : Dev nD) : W20 m ρ c (Proc.devRef .tc main_arg4) = m ((c : Thread nD τ).loc main_arg4) :=
  calc W20 m ρ c (Proc.devRef .tc main_arg4)
    _ = W19 m ρ c (Proc.devRef .tc main_arg4) := W20_of_ne m ρ c main_arg4 (by decide)
    _ = W18 m ρ c (Proc.devRef .tc main_arg4) := StableHlo.after_of_writes_sub hostOps9 _ hostOps9_writes (by decide)
    _ = W17 m ρ c (Proc.devRef .tc main_arg4) := W18_of_ne m ρ c main_arg4 (by decide)
    _ = W16 m ρ c (Proc.devRef .tc main_arg4) := StableHlo.after_of_writes_sub hostOps8 _ hostOps8_writes (by decide)
    _ = W15 m ρ c (Proc.devRef .tc main_arg4) := W16_of_ne m ρ c main_arg4 (by decide)
    _ = W14 m ρ c (Proc.devRef .tc main_arg4) := StableHlo.after_of_writes_sub hostOps7 _ hostOps7_writes (by decide)
    _ = W13 m ρ c (Proc.devRef .tc main_arg4) := W14_of_ne m ρ c main_arg4 (by decide)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W20_main_arg5 (c : Dev nD) : W20 m ρ c (Proc.devRef .tc main_arg5) = m ((c : Thread nD τ).loc main_arg5) :=
  calc W20 m ρ c (Proc.devRef .tc main_arg5)
    _ = W19 m ρ c (Proc.devRef .tc main_arg5) := W20_of_ne m ρ c main_arg5 (by decide)
    _ = W18 m ρ c (Proc.devRef .tc main_arg5) := StableHlo.after_of_writes_sub hostOps9 _ hostOps9_writes (by decide)
    _ = W17 m ρ c (Proc.devRef .tc main_arg5) := W18_of_ne m ρ c main_arg5 (by decide)
    _ = W16 m ρ c (Proc.devRef .tc main_arg5) := StableHlo.after_of_writes_sub hostOps8 _ hostOps8_writes (by decide)
    _ = W15 m ρ c (Proc.devRef .tc main_arg5) := W16_of_ne m ρ c main_arg5 (by decide)
    _ = W14 m ρ c (Proc.devRef .tc main_arg5) := StableHlo.after_of_writes_sub hostOps7 _ hostOps7_writes (by decide)
    _ = W13 m ρ c (Proc.devRef .tc main_arg5) := W14_of_ne m ρ c main_arg5 (by decide)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W20_main_arg6 (c : Dev nD) : W20 m ρ c (Proc.devRef .tc main_arg6) = m ((c : Thread nD τ).loc main_arg6) :=
  calc W20 m ρ c (Proc.devRef .tc main_arg6)
    _ = W19 m ρ c (Proc.devRef .tc main_arg6) := W20_of_ne m ρ c main_arg6 (by decide)
    _ = W18 m ρ c (Proc.devRef .tc main_arg6) := StableHlo.after_of_writes_sub hostOps9 _ hostOps9_writes (by decide)
    _ = W17 m ρ c (Proc.devRef .tc main_arg6) := W18_of_ne m ρ c main_arg6 (by decide)
    _ = W16 m ρ c (Proc.devRef .tc main_arg6) := StableHlo.after_of_writes_sub hostOps8 _ hostOps8_writes (by decide)
    _ = W15 m ρ c (Proc.devRef .tc main_arg6) := W16_of_ne m ρ c main_arg6 (by decide)
    _ = W14 m ρ c (Proc.devRef .tc main_arg6) := StableHlo.after_of_writes_sub hostOps7 _ hostOps7_writes (by decide)
    _ = W13 m ρ c (Proc.devRef .tc main_arg6) := W14_of_ne m ρ c main_arg6 (by decide)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 1).trans (((dat0 (V1 m ρ) c).arrAt_in 1 rfl _).trans (A_eq0 (V1 m ρ) c 1))
    _ = W0 m ρ c (Proc.devRef .tc main_arg6) := StableHlo.after_of_writes_sub hostOps0 _ hostOps0_writes (by decide)
    _ = m ((c : Thread nD τ).loc main_arg6) := rfl

theorem W20_main_arg7 (c : Dev nD) : W20 m ρ c (Proc.devRef .tc main_arg7) = m ((c : Thread nD τ).loc main_arg7) :=
  calc W20 m ρ c (Proc.devRef .tc main_arg7)
    _ = W19 m ρ c (Proc.devRef .tc main_arg7) := W20_of_ne m ρ c main_arg7 (by decide)
    _ = W18 m ρ c (Proc.devRef .tc main_arg7) := StableHlo.after_of_writes_sub hostOps9 _ hostOps9_writes (by decide)
    _ = W17 m ρ c (Proc.devRef .tc main_arg7) := W18_of_ne m ρ c main_arg7 (by decide)
    _ = W16 m ρ c (Proc.devRef .tc main_arg7) := StableHlo.after_of_writes_sub hostOps8 _ hostOps8_writes (by decide)
    _ = W15 m ρ c (Proc.devRef .tc main_arg7) := W16_of_ne m ρ c main_arg7 (by decide)
    _ = W14 m ρ c (Proc.devRef .tc main_arg7) := StableHlo.after_of_writes_sub hostOps7 _ hostOps7_writes (by decide)
    _ = W13 m ρ c (Proc.devRef .tc main_arg7) := W14_of_ne m ρ c main_arg7 (by decide)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W20_main_arg8 (c : Dev nD) : W20 m ρ c (Proc.devRef .tc main_arg8) = m ((c : Thread nD τ).loc main_arg8) :=
  calc W20 m ρ c (Proc.devRef .tc main_arg8)
    _ = W19 m ρ c (Proc.devRef .tc main_arg8) := W20_of_ne m ρ c main_arg8 (by decide)
    _ = W18 m ρ c (Proc.devRef .tc main_arg8) := StableHlo.after_of_writes_sub hostOps9 _ hostOps9_writes (by decide)
    _ = W17 m ρ c (Proc.devRef .tc main_arg8) := W18_of_ne m ρ c main_arg8 (by decide)
    _ = W16 m ρ c (Proc.devRef .tc main_arg8) := StableHlo.after_of_writes_sub hostOps8 _ hostOps8_writes (by decide)
    _ = W15 m ρ c (Proc.devRef .tc main_arg8) := W16_of_ne m ρ c main_arg8 (by decide)
    _ = W14 m ρ c (Proc.devRef .tc main_arg8) := StableHlo.after_of_writes_sub hostOps7 _ hostOps7_writes (by decide)
    _ = W13 m ρ c (Proc.devRef .tc main_arg8) := W14_of_ne m ρ c main_arg8 (by decide)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W20_main_arg9 (c : Dev nD) : W20 m ρ c (Proc.devRef .tc main_arg9) = m ((c : Thread nD τ).loc main_arg9) :=
  calc W20 m ρ c (Proc.devRef .tc main_arg9)
    _ = W19 m ρ c (Proc.devRef .tc main_arg9) := W20_of_ne m ρ c main_arg9 (by decide)
    _ = W18 m ρ c (Proc.devRef .tc main_arg9) := StableHlo.after_of_writes_sub hostOps9 _ hostOps9_writes (by decide)
    _ = W17 m ρ c (Proc.devRef .tc main_arg9) := W18_of_ne m ρ c main_arg9 (by decide)
    _ = W16 m ρ c (Proc.devRef .tc main_arg9) := StableHlo.after_of_writes_sub hostOps8 _ hostOps8_writes (by decide)
    _ = W15 m ρ c (Proc.devRef .tc main_arg9) := W16_of_ne m ρ c main_arg9 (by decide)
    _ = W14 m ρ c (Proc.devRef .tc main_arg9) := StableHlo.after_of_writes_sub hostOps7 _ hostOps7_writes (by decide)
    _ = W13 m ρ c (Proc.devRef .tc main_arg9) := W14_of_ne m ρ c main_arg9 (by decide)
    _ = W12 m ρ c (Proc.devRef .tc main_arg9) := StableHlo.after_of_writes_sub hostOps6 _ hostOps6_writes (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W20_main_arg10 (c : Dev nD) : W20 m ρ c (Proc.devRef .tc main_arg10) = m ((c : Thread nD τ).loc main_arg10) :=
  calc W20 m ρ c (Proc.devRef .tc main_arg10)
    _ = W19 m ρ c (Proc.devRef .tc main_arg10) := W20_of_ne m ρ c main_arg10 (by decide)
    _ = W18 m ρ c (Proc.devRef .tc main_arg10) := StableHlo.after_of_writes_sub hostOps9 _ hostOps9_writes (by decide)
    _ = W17 m ρ c (Proc.devRef .tc main_arg10) := W18_of_ne m ρ c main_arg10 (by decide)
    _ = W16 m ρ c (Proc.devRef .tc main_arg10) := StableHlo.after_of_writes_sub hostOps8 _ hostOps8_writes (by decide)
    _ = W15 m ρ c (Proc.devRef .tc main_arg10) := W16_of_ne m ρ c main_arg10 (by decide)
    _ = W14 m ρ c (Proc.devRef .tc main_arg10) := StableHlo.after_of_writes_sub hostOps7 _ hostOps7_writes (by decide)
    _ = W13 m ρ c (Proc.devRef .tc main_arg10) := W14_of_ne m ρ c main_arg10 (by decide)
    _ = W12 m ρ c (Proc.devRef .tc main_arg10) := StableHlo.after_of_writes_sub hostOps6 _ hostOps6_writes (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := (W8_arr m ρ c 1).trans (((dat3 (V7 m ρ) c).arrAt_in 1 rfl _).trans (A_eq3 (V7 m ρ) c 1))
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W20_main_arg11 (c : Dev nD) : W20 m ρ c (Proc.devRef .tc main_arg11) = m ((c : Thread nD τ).loc main_arg11) :=
  calc W20 m ρ c (Proc.devRef .tc main_arg11)
    _ = W19 m ρ c (Proc.devRef .tc main_arg11) := W20_of_ne m ρ c main_arg11 (by decide)
    _ = W18 m ρ c (Proc.devRef .tc main_arg11) := StableHlo.after_of_writes_sub hostOps9 _ hostOps9_writes (by decide)
    _ = W17 m ρ c (Proc.devRef .tc main_arg11) := W18_of_ne m ρ c main_arg11 (by decide)
    _ = W16 m ρ c (Proc.devRef .tc main_arg11) := StableHlo.after_of_writes_sub hostOps8 _ hostOps8_writes (by decide)
    _ = W15 m ρ c (Proc.devRef .tc main_arg11) := W16_of_ne m ρ c main_arg11 (by decide)
    _ = W14 m ρ c (Proc.devRef .tc main_arg11) := StableHlo.after_of_writes_sub hostOps7 _ hostOps7_writes (by decide)
    _ = W13 m ρ c (Proc.devRef .tc main_arg11) := W14_of_ne m ρ c main_arg11 (by decide)
    _ = W12 m ρ c (Proc.devRef .tc main_arg11) := StableHlo.after_of_writes_sub hostOps6 _ hostOps6_writes (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W20_main_arg12 (c : Dev nD) : W20 m ρ c (Proc.devRef .tc main_arg12) = m ((c : Thread nD τ).loc main_arg12) :=
  calc W20 m ρ c (Proc.devRef .tc main_arg12)
    _ = W19 m ρ c (Proc.devRef .tc main_arg12) := W20_of_ne m ρ c main_arg12 (by decide)
    _ = W18 m ρ c (Proc.devRef .tc main_arg12) := StableHlo.after_of_writes_sub hostOps9 _ hostOps9_writes (by decide)
    _ = W17 m ρ c (Proc.devRef .tc main_arg12) := W18_of_ne m ρ c main_arg12 (by decide)
    _ = W16 m ρ c (Proc.devRef .tc main_arg12) := StableHlo.after_of_writes_sub hostOps8 _ hostOps8_writes (by decide)
    _ = W15 m ρ c (Proc.devRef .tc main_arg12) := W16_of_ne m ρ c main_arg12 (by decide)
    _ = W14 m ρ c (Proc.devRef .tc main_arg12) := StableHlo.after_of_writes_sub hostOps7 _ hostOps7_writes (by decide)
    _ = W13 m ρ c (Proc.devRef .tc main_arg12) := W14_of_ne m ρ c main_arg12 (by decide)
    _ = W12 m ρ c (Proc.devRef .tc main_arg12) := StableHlo.after_of_writes_sub hostOps6 _ hostOps6_writes (by decide)
    _ = W11 m ρ c (Proc.devRef .tc main_arg12) := W12_of_ne m ρ c main_arg12 (by decide)
    _ = W10 m ρ c (Proc.devRef .tc main_arg12) := StableHlo.after_of_writes_sub hostOps5 _ hostOps5_writes (by decide)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W20_main_arg13 (c : Dev nD) : W20 m ρ c (Proc.devRef .tc main_arg13) = m ((c : Thread nD τ).loc main_arg13) :=
  calc W20 m ρ c (Proc.devRef .tc main_arg13)
    _ = W19 m ρ c (Proc.devRef .tc main_arg13) := W20_of_ne m ρ c main_arg13 (by decide)
    _ = W18 m ρ c (Proc.devRef .tc main_arg13) := StableHlo.after_of_writes_sub hostOps9 _ hostOps9_writes (by decide)
    _ = W17 m ρ c (Proc.devRef .tc main_arg13) := W18_of_ne m ρ c main_arg13 (by decide)
    _ = W16 m ρ c (Proc.devRef .tc main_arg13) := StableHlo.after_of_writes_sub hostOps8 _ hostOps8_writes (by decide)
    _ = W15 m ρ c (Proc.devRef .tc main_arg13) := W16_of_ne m ρ c main_arg13 (by decide)
    _ = W14 m ρ c (Proc.devRef .tc main_arg13) := StableHlo.after_of_writes_sub hostOps7 _ hostOps7_writes (by decide)
    _ = W13 m ρ c (Proc.devRef .tc main_arg13) := W14_of_ne m ρ c main_arg13 (by decide)
    _ = W12 m ρ c (Proc.devRef .tc main_arg13) := StableHlo.after_of_writes_sub hostOps6 _ hostOps6_writes (by decide)
    _ = W11 m ρ c (Proc.devRef .tc main_arg13) := W12_of_ne m ρ c main_arg13 (by decide)
    _ = W10 m ρ c (Proc.devRef .tc main_arg13) := StableHlo.after_of_writes_sub hostOps5 _ hostOps5_writes (by decide)
    _ = W9 m ρ c (Proc.devRef .tc main_arg13) := W10_of_ne m ρ c main_arg13 (by decide)
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W20_main_arg14 (c : Dev nD) : W20 m ρ c (Proc.devRef .tc main_arg14) = m ((c : Thread nD τ).loc main_arg14) :=
  calc W20 m ρ c (Proc.devRef .tc main_arg14)
    _ = W19 m ρ c (Proc.devRef .tc main_arg14) := W20_of_ne m ρ c main_arg14 (by decide)
    _ = W18 m ρ c (Proc.devRef .tc main_arg14) := StableHlo.after_of_writes_sub hostOps9 _ hostOps9_writes (by decide)
    _ = W17 m ρ c (Proc.devRef .tc main_arg14) := W18_of_ne m ρ c main_arg14 (by decide)
    _ = W16 m ρ c (Proc.devRef .tc main_arg14) := StableHlo.after_of_writes_sub hostOps8 _ hostOps8_writes (by decide)
    _ = W15 m ρ c (Proc.devRef .tc main_arg14) := W16_of_ne m ρ c main_arg14 (by decide)
    _ = W14 m ρ c (Proc.devRef .tc main_arg14) := StableHlo.after_of_writes_sub hostOps7 _ hostOps7_writes (by decide)
    _ = W13 m ρ c (Proc.devRef .tc main_arg14) := (W14_arr m ρ c 1).trans (((dat6 (V13 m ρ) c).arrAt_in 1 rfl _).trans (A_eq6 (V13 m ρ) c 1))
    _ = W12 m ρ c (Proc.devRef .tc main_arg14) := StableHlo.after_of_writes_sub hostOps6 _ hostOps6_writes (by decide)
    _ = W11 m ρ c (Proc.devRef .tc main_arg14) := W12_of_ne m ρ c main_arg14 (by decide)
    _ = W10 m ρ c (Proc.devRef .tc main_arg14) := StableHlo.after_of_writes_sub hostOps5 _ hostOps5_writes (by decide)
    _ = W9 m ρ c (Proc.devRef .tc main_arg14) := W10_of_ne m ρ c main_arg14 (by decide)
    _ = W8 m ρ c (Proc.devRef .tc main_arg14) := StableHlo.after_of_writes_sub hostOps4 _ hostOps4_writes (by decide)
    _ = W7 m ρ c (Proc.devRef .tc main_arg14) := W8_of_ne m ρ c main_arg14 (by decide)
    _ = W6 m ρ c (Proc.devRef .tc main_arg14) := StableHlo.after_of_writes_sub hostOps3 _ hostOps3_writes (by decide)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W20_main_arg15 (c : Dev nD) : W20 m ρ c (Proc.devRef .tc main_arg15) = m ((c : Thread nD τ).loc main_arg15) :=
  calc W20 m ρ c (Proc.devRef .tc main_arg15)
    _ = W19 m ρ c (Proc.devRef .tc main_arg15) := W20_of_ne m ρ c main_arg15 (by decide)
    _ = W18 m ρ c (Proc.devRef .tc main_arg15) := StableHlo.after_of_writes_sub hostOps9 _ hostOps9_writes (by decide)
    _ = W17 m ρ c (Proc.devRef .tc main_arg15) := W18_of_ne m ρ c main_arg15 (by decide)
    _ = W16 m ρ c (Proc.devRef .tc main_arg15) := StableHlo.after_of_writes_sub hostOps8 _ hostOps8_writes (by decide)
    _ = W15 m ρ c (Proc.devRef .tc main_arg15) := W16_of_ne m ρ c main_arg15 (by decide)
    _ = W14 m ρ c (Proc.devRef .tc main_arg15) := StableHlo.after_of_writes_sub hostOps7 _ hostOps7_writes (by decide)
    _ = W13 m ρ c (Proc.devRef .tc main_arg15) := W14_of_ne m ρ c main_arg15 (by decide)
    _ = W12 m ρ c (Proc.devRef .tc main_arg15) := StableHlo.after_of_writes_sub hostOps6 _ hostOps6_writes (by decide)
    _ = W11 m ρ c (Proc.devRef .tc main_arg15) := W12_of_ne m ρ c main_arg15 (by decide)
    _ = W10 m ρ c (Proc.devRef .tc main_arg15) := StableHlo.after_of_writes_sub hostOps5 _ hostOps5_writes (by decide)
    _ = W9 m ρ c (Proc.devRef .tc main_arg15) := W10_of_ne m ρ c main_arg15 (by decide)
    _ = W8 m ρ c (Proc.devRef .tc main_arg15) := StableHlo.after_of_writes_sub hostOps4 _ hostOps4_writes (by decide)
    _ = W7 m ρ c (Proc.devRef .tc main_arg15) := W8_of_ne m ρ c main_arg15 (by decide)
    _ = W6 m ρ c (Proc.devRef .tc main_arg15) := StableHlo.after_of_writes_sub hostOps3 _ hostOps3_writes (by decide)
    _ = W5 m ρ c (Proc.devRef .tc main_arg15) := W6_of_ne m ρ c main_arg15 (by decide)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

theorem W20_main_arg16 (c : Dev nD) : W20 m ρ c (Proc.devRef .tc main_arg16) = m ((c : Thread nD τ).loc main_arg16) :=
  calc W20 m ρ c (Proc.devRef .tc main_arg16)
    _ = W19 m ρ c (Proc.devRef .tc main_arg16) := W20_of_ne m ρ c main_arg16 (by decide)
    _ = W18 m ρ c (Proc.devRef .tc main_arg16) := StableHlo.after_of_writes_sub hostOps9 _ hostOps9_writes (by decide)
    _ = W17 m ρ c (Proc.devRef .tc main_arg16) := W18_of_ne m ρ c main_arg16 (by decide)
    _ = W16 m ρ c (Proc.devRef .tc main_arg16) := StableHlo.after_of_writes_sub hostOps8 _ hostOps8_writes (by decide)
    _ = W15 m ρ c (Proc.devRef .tc main_arg16) := W16_of_ne m ρ c main_arg16 (by decide)
    _ = W14 m ρ c (Proc.devRef .tc main_arg16) := StableHlo.after_of_writes_sub hostOps7 _ hostOps7_writes (by decide)
    _ = W13 m ρ c (Proc.devRef .tc main_arg16) := W14_of_ne m ρ c main_arg16 (by decide)
    _ = W12 m ρ c (Proc.devRef .tc main_arg16) := StableHlo.after_of_writes_sub hostOps6 _ hostOps6_writes (by decide)
    _ = W11 m ρ c (Proc.devRef .tc main_arg16) := W12_of_ne m ρ c main_arg16 (by decide)
    _ = W10 m ρ c (Proc.devRef .tc main_arg16) := StableHlo.after_of_writes_sub hostOps5 _ hostOps5_writes (by decide)
    _ = W9 m ρ c (Proc.devRef .tc main_arg16) := W10_of_ne m ρ c main_arg16 (by decide)
    _ = W8 m ρ c (Proc.devRef .tc main_arg16) := StableHlo.after_of_writes_sub hostOps4 _ hostOps4_writes (by decide)
    _ = W7 m ρ c (Proc.devRef .tc main_arg16) := W8_of_ne m ρ c main_arg16 (by decide)
    _ = W6 m ρ c (Proc.devRef .tc main_arg16) := StableHlo.after_of_writes_sub hostOps3 _ hostOps3_writes (by decide)
    _ = W5 m ρ c (Proc.devRef .tc main_arg16) := W6_of_ne m ρ c main_arg16 (by decide)
    _ = W4 m ρ c (Proc.devRef .tc main_arg16) := StableHlo.after_of_writes_sub hostOps2 _ hostOps2_writes (by decide)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

theorem W20_main_arg17 (c : Dev nD) : W20 m ρ c (Proc.devRef .tc main_arg17) = m ((c : Thread nD τ).loc main_arg17) :=
  calc W20 m ρ c (Proc.devRef .tc main_arg17)
    _ = W19 m ρ c (Proc.devRef .tc main_arg17) := W20_of_ne m ρ c main_arg17 (by decide)
    _ = W18 m ρ c (Proc.devRef .tc main_arg17) := StableHlo.after_of_writes_sub hostOps9 _ hostOps9_writes (by decide)
    _ = W17 m ρ c (Proc.devRef .tc main_arg17) := W18_of_ne m ρ c main_arg17 (by decide)
    _ = W16 m ρ c (Proc.devRef .tc main_arg17) := StableHlo.after_of_writes_sub hostOps8 _ hostOps8_writes (by decide)
    _ = W15 m ρ c (Proc.devRef .tc main_arg17) := W16_of_ne m ρ c main_arg17 (by decide)
    _ = W14 m ρ c (Proc.devRef .tc main_arg17) := StableHlo.after_of_writes_sub hostOps7 _ hostOps7_writes (by decide)
    _ = W13 m ρ c (Proc.devRef .tc main_arg17) := W14_of_ne m ρ c main_arg17 (by decide)
    _ = W12 m ρ c (Proc.devRef .tc main_arg17) := StableHlo.after_of_writes_sub hostOps6 _ hostOps6_writes (by decide)
    _ = W11 m ρ c (Proc.devRef .tc main_arg17) := W12_of_ne m ρ c main_arg17 (by decide)
    _ = W10 m ρ c (Proc.devRef .tc main_arg17) := StableHlo.after_of_writes_sub hostOps5 _ hostOps5_writes (by decide)
    _ = W9 m ρ c (Proc.devRef .tc main_arg17) := W10_of_ne m ρ c main_arg17 (by decide)
    _ = W8 m ρ c (Proc.devRef .tc main_arg17) := StableHlo.after_of_writes_sub hostOps4 _ hostOps4_writes (by decide)
    _ = W7 m ρ c (Proc.devRef .tc main_arg17) := W8_of_ne m ρ c main_arg17 (by decide)
    _ = W6 m ρ c (Proc.devRef .tc main_arg17) := StableHlo.after_of_writes_sub hostOps3 _ hostOps3_writes (by decide)
    _ = W5 m ρ c (Proc.devRef .tc main_arg17) := W6_of_ne m ρ c main_arg17 (by decide)
    _ = W4 m ρ c (Proc.devRef .tc main_arg17) := StableHlo.after_of_writes_sub hostOps2 _ hostOps2_writes (by decide)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

theorem W20_main_arg18 (c : Dev nD) : W20 m ρ c (Proc.devRef .tc main_arg18) = m ((c : Thread nD τ).loc main_arg18) :=
  calc W20 m ρ c (Proc.devRef .tc main_arg18)
    _ = W19 m ρ c (Proc.devRef .tc main_arg18) := (W20_arr m ρ c 1).trans (((dat9 (V19 m ρ) c).arrAt_in 1 rfl _).trans (A_eq9 (V19 m ρ) c 1))
    _ = W18 m ρ c (Proc.devRef .tc main_arg18) := StableHlo.after_of_writes_sub hostOps9 _ hostOps9_writes (by decide)
    _ = W17 m ρ c (Proc.devRef .tc main_arg18) := W18_of_ne m ρ c main_arg18 (by decide)
    _ = W16 m ρ c (Proc.devRef .tc main_arg18) := StableHlo.after_of_writes_sub hostOps8 _ hostOps8_writes (by decide)
    _ = W15 m ρ c (Proc.devRef .tc main_arg18) := W16_of_ne m ρ c main_arg18 (by decide)
    _ = W14 m ρ c (Proc.devRef .tc main_arg18) := StableHlo.after_of_writes_sub hostOps7 _ hostOps7_writes (by decide)
    _ = W13 m ρ c (Proc.devRef .tc main_arg18) := W14_of_ne m ρ c main_arg18 (by decide)
    _ = W12 m ρ c (Proc.devRef .tc main_arg18) := StableHlo.after_of_writes_sub hostOps6 _ hostOps6_writes (by decide)
    _ = W11 m ρ c (Proc.devRef .tc main_arg18) := W12_of_ne m ρ c main_arg18 (by decide)
    _ = W10 m ρ c (Proc.devRef .tc main_arg18) := StableHlo.after_of_writes_sub hostOps5 _ hostOps5_writes (by decide)
    _ = W9 m ρ c (Proc.devRef .tc main_arg18) := W10_of_ne m ρ c main_arg18 (by decide)
    _ = W8 m ρ c (Proc.devRef .tc main_arg18) := StableHlo.after_of_writes_sub hostOps4 _ hostOps4_writes (by decide)
    _ = W7 m ρ c (Proc.devRef .tc main_arg18) := W8_of_ne m ρ c main_arg18 (by decide)
    _ = W6 m ρ c (Proc.devRef .tc main_arg18) := StableHlo.after_of_writes_sub hostOps3 _ hostOps3_writes (by decide)
    _ = W5 m ρ c (Proc.devRef .tc main_arg18) := W6_of_ne m ρ c main_arg18 (by decide)
    _ = W4 m ρ c (Proc.devRef .tc main_arg18) := StableHlo.after_of_writes_sub hostOps2 _ hostOps2_writes (by decide)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

theorem W20_main_arg19 (c : Dev nD) : W20 m ρ c (Proc.devRef .tc main_arg19) = m ((c : Thread nD τ).loc main_arg19) :=
  calc W20 m ρ c (Proc.devRef .tc main_arg19)
    _ = W19 m ρ c (Proc.devRef .tc main_arg19) := W20_of_ne m ρ c main_arg19 (by decide)
    _ = W18 m ρ c (Proc.devRef .tc main_arg19) := StableHlo.after_of_writes_sub hostOps9 _ hostOps9_writes (by decide)
    _ = W17 m ρ c (Proc.devRef .tc main_arg19) := W18_of_ne m ρ c main_arg19 (by decide)
    _ = W16 m ρ c (Proc.devRef .tc main_arg19) := StableHlo.after_of_writes_sub hostOps8 _ hostOps8_writes (by decide)
    _ = W15 m ρ c (Proc.devRef .tc main_arg19) := W16_of_ne m ρ c main_arg19 (by decide)
    _ = W14 m ρ c (Proc.devRef .tc main_arg19) := StableHlo.after_of_writes_sub hostOps7 _ hostOps7_writes (by decide)
    _ = W13 m ρ c (Proc.devRef .tc main_arg19) := W14_of_ne m ρ c main_arg19 (by decide)
    _ = W12 m ρ c (Proc.devRef .tc main_arg19) := StableHlo.after_of_writes_sub hostOps6 _ hostOps6_writes (by decide)
    _ = W11 m ρ c (Proc.devRef .tc main_arg19) := W12_of_ne m ρ c main_arg19 (by decide)
    _ = W10 m ρ c (Proc.devRef .tc main_arg19) := StableHlo.after_of_writes_sub hostOps5 _ hostOps5_writes (by decide)
    _ = W9 m ρ c (Proc.devRef .tc main_arg19) := W10_of_ne m ρ c main_arg19 (by decide)
    _ = W8 m ρ c (Proc.devRef .tc main_arg19) := StableHlo.after_of_writes_sub hostOps4 _ hostOps4_writes (by decide)
    _ = W7 m ρ c (Proc.devRef .tc main_arg19) := W8_of_ne m ρ c main_arg19 (by decide)
    _ = W6 m ρ c (Proc.devRef .tc main_arg19) := StableHlo.after_of_writes_sub hostOps3 _ hostOps3_writes (by decide)
    _ = W5 m ρ c (Proc.devRef .tc main_arg19) := W6_of_ne m ρ c main_arg19 (by decide)
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl

end Cert.Kernel.Hand

end
-- ==== Proof.KB.Run.lean ====
/-
  The run of @main: its twenty items in order — a host stretch, then a kernel region, ten times — composed
  by the launch theorem for programs of several regions. Every weakly fair execution terminates, nothing
  faulting, and every unscoped buffer ends at the last boundary's contents.
-/
import proofs.«177069_j18983755448416_1_alg».proof.Proof.KB.Seg0
import proofs.«177069_j18983755448416_1_alg».proof.Proof.KB.Seg1
import proofs.«177069_j18983755448416_1_alg».proof.Proof.KB.Seg2
import proofs.«177069_j18983755448416_1_alg».proof.Proof.KB.Seg3
import proofs.«177069_j18983755448416_1_alg».proof.Proof.KB.Seg4
import proofs.«177069_j18983755448416_1_alg».proof.Proof.KB.Seg5
import proofs.«177069_j18983755448416_1_alg».proof.Proof.KB.Seg6
import proofs.«177069_j18983755448416_1_alg».proof.Proof.KB.Seg7
import proofs.«177069_j18983755448416_1_alg».proof.Proof.KB.Seg8
import proofs.«177069_j18983755448416_1_alg».proof.Proof.KB.Seg9
import proofs.«177069_j18983755448416_1_alg».proof.Proof.KB.Args

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's twenty segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c),
    (h c _ (mem_uc main_arg6 (by decide))).trans (W20_main_arg6 m ρ c),
    (h c _ (mem_uc main_arg7 (by decide))).trans (W20_main_arg7 m ρ c),
    (h c _ (mem_uc main_arg8 (by decide))).trans (W20_main_arg8 m ρ c),
    (h c _ (mem_uc main_arg9 (by decide))).trans (W20_main_arg9 m ρ c),
    (h c _ (mem_uc main_arg10 (by decide))).trans (W20_main_arg10 m ρ c),
    (h c _ (mem_uc main_arg11 (by decide))).trans (W20_main_arg11 m ρ c),
    (h c _ (mem_uc main_arg12 (by decide))).trans (W20_main_arg12 m ρ c),
    (h c _ (mem_uc main_arg13 (by decide))).trans (W20_main_arg13 m ρ c),
    (h c _ (mem_uc main_arg14 (by decide))).trans (W20_main_arg14 m ρ c),
    (h c _ (mem_uc main_arg15 (by decide))).trans (W20_main_arg15 m ρ c),
    (h c _ (mem_uc main_arg16 (by decide))).trans (W20_main_arg16 m ρ c),
    (h c _ (mem_uc main_arg17 (by decide))).trans (W20_main_arg17 m ρ c),
    (h c _ (mem_uc main_arg18 (by decide))).trans (W20_main_arg18 m ρ c),
    (h c _ (mem_uc main_arg19 (by decide))).trans (W20_main_arg19 m ρ c)⟩) (run_all m ρ)

end Cert.Kernel.Hand

end
-- ==== Proof.KI.Reg0.lean ====
import proofs.«177069_j18983755448416_1_alg».proof.Proof.Gen.KernelIdeal.Launch
import proofs.«177069_j18983755448416_1_alg».proof.Proof.Gen.KernelIdeal.Skeleton
import proofs.«177069_j18983755448416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the node transform of layer 1): the body half of its frame

The kernel reads a block of 2000 rows of the layer's input, the whole weight, the bias row and the whole
cross basis, and stores two blocks: h = x · W + b (2000 × 64) and T = h · Mt (2000 × 1024). It keeps
nothing between grid points. Everything here is stated at a parameter V, the buffer contents when the
region is entered, and at any float instance F. -/

-- membership in a rectangle of 2000 × 1024 entries recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether it was fetched there or not
    (not fetched means its block index has not moved), for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether it was fetched there or not
    (not fetched means its block index has not moved), for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether it was fetched there or not
    (not fetched means its block index has not moved), for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether it was fetched there or not
    (not fetched means its block index has not moved), for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer is read and written whole -/

abbrev r0_0 : Rect S2000x128 := Rect.unit (s := S2000x128) ![0, 0] S2000x128.size inb_S2000x128_S2000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S64x1024 := Rect.unit (s := S64x1024) ![0, 0] S64x1024.size inb_S64x1024_S64x1024_0_0
abbrev r0_4 : Rect S2000x64 := Rect.unit (s := S2000x64) ![0, 0] S2000x64.size inb_S2000x64_S2000x64_0_0
abbrev r0_5 : Rect S2000x1024 := Rect.unit (s := S2000x1024) ![0, 0] S2000x1024.size inb_S2000x1024_S2000x1024_0_0

/-! ## What the body leaves in each output window's buffer -/

/-- Window 4's staging buffer after the body, from the input windows' blocks: the block of h. -/
def out0_4 (x0 : Vec F S2000x128 .f32) (x1 : Vec F S128x64 .f32) (x2 : Vec F S1x64 .f32) (x3 : Vec F S64x1024 .f32) : Vec F S2000x64 .f32 :=
  View.canon [⟨r0_4, k0_pay1 (View.ld x0 r0_0) (View.ld x1 r0_1) (View.ld x2 r0_2)⟩]

/-- Its one store covers the buffer. -/
theorem cover0_4 (p0 : Vec F S2000x64 .f32) (y : S2000x64.Idx) :
    ∃ pc ∈ ([⟨r0_4, p0⟩] : List (View.Piece (Elt F) S2000x64 .f32)), y ∈ pc.1.set :=
  View.cover_of_tiled [⟨r0_4, p0⟩] S2000x64.size (by rfl) y

/-- Window 5's staging buffer after the body, from the input windows' blocks: the block of T. -/
def out0_5 (x0 : Vec F S2000x128 .f32) (x1 : Vec F S128x64 .f32) (x2 : Vec F S1x64 .f32) (x3 : Vec F S64x1024 .f32) : Vec F S2000x1024 .f32 :=
  View.canon [⟨r0_5, k0_pay2 (View.ld x0 r0_0) (View.ld x1 r0_1) (View.ld x2 r0_2) (View.ld x3 r0_3)⟩]

/-- Its one store covers the buffer. -/
theorem cover0_5 (p0 : Vec F S2000x1024 .f32) (y : S2000x1024.Idx) :
    ∃ pc ∈ ([⟨r0_5, p0⟩] : List (View.Piece (Elt F) S2000x1024 .f32)), y ∈ pc.1.set :=
  View.cover_of_tiled [⟨r0_5, p0⟩] S2000x1024.size (by rfl) y

/-! ## The body's triple -/

set_option maxHeartbeats 1000000 in
/-- The kernel body on whole staging memrefs, the inputs' at read contents `xW` and the outputs' at anything, runs to
    the continuation holding the inputs' as they were and each output's at `out0_W` of the inputs'. The grid
    coordinate is not read. -/
theorem sound_kernel0 (c : Dev nD) (E : Set ℕ) (i : grid0.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S64x1024 .f32) (harg4 : arg4.IsWhole)
    (arg5 : Memref sig .tc .vmem S2000x64 .f32) (harg5 : arg5.IsWhole) (arg6 : Memref sig .tc .vmem S2000x1024 .f32) (harg6 : arg6.IsWhole)
    (x0 : Vec F S2000x128 .f32) (x1 : Vec F S128x64 .f32) (x2 : Vec F S1x64 .f32) (x3 : Vec F S64x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__node_transform_kernel i arg1 harg1 arg2 harg2 arg3 harg3 arg4 harg4 arg5 harg5 arg6 harg6) K := by
  simp only [cc0__node_transform_kernel_eq_skeleton]; unfold cc0__node_transform_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Runs.lean ====
import proofs.«177069_j18983755448416_1_alg».proof.Proof.Gen.KernelIdeal.Launch
import proofs.«177069_j18983755448416_1_alg».proof.Proof.Gen.KernelIdeal.Skeleton
import proofs.«177069_j18983755448416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 (the add-and-statistics kernel): what its three control cases share — the blocks of its windows at
the contents `V` the region is entered with, the two branch conditions in closed form over the grid (the first
point zeroes the two accumulators, the last point copies them out), where the two statistics windows are idle, and
the staging and scratch memrefs the case runs are stated over. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The first branch's condition (the point is the grid's first), from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The second branch's condition (the point is the grid's last). -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-- Windows 0, 1, 2 are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- Away from the last point window 3 is idle and is not written back; at the last point it is live. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- Away from the last point window 4 is idle and is not written back; at the last point it is live. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-- One staging buffer of each output window, through which its contents are stated. -/
abbrev VO1_2 : View sig .tc .vmem S2000x64 .f32 := (Memref.whole cc1_stg2_0 : Memref sig .tc .vmem S2000x64 .f32).view
abbrev VO1_3 : View sig .tc .vmem S1x64 .f32 := (Memref.whole cc1_stg3_0 : Memref sig .tc .vmem S1x64 .f32).view
abbrev VO1_4 : View sig .tc .vmem S1x64 .f32 := (Memref.whole cc1_stg4_0 : Memref sig .tc .vmem S1x64 .f32).view
abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
/-- The two accumulators: whole scoped buffers of the kernel's own, carried from point to point. -/
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view

/-- The scoped buffers this region never opens. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The region's invariant with the two accumulators split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

end Cert.KernelIdeal.Hand

end
-- ==== Proof.KI.Reg1RunA.lean ====
import proofs.«177069_j18983755448416_1_alg».proof.Proof.KI.Reg1Runs

/-! Region 1: the whole body of the add-and-statistics kernel run at the grid's first point (the accumulators are zeroed, then added to), on whole staging memrefs.
The pieces each buffer ends with are what the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's first point (the accumulators are zeroed, then added to): from the inputs' memrefs at their blocks, the sum window's at anything, the idle statistics windows' at contents handed back untouched, the accumulators at anything, it runs to the continuation holding the
    inputs' as they were and every buffer it stored into with its pieces written. -/
noncomputable def kernelRun1_A (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__add_stats_kernel i arg1 harg1 arg2 harg2 arg3 harg3 arg4 harg4 arg5 harg5 arg6 harg6 arg7 harg7) K } := by
  refine ⟨?_, ?_, ?_, fun xi3 xi4 E K => ?run⟩
  case run =>
    simp only [cc1__add_stats_kernel_eq_skeleton]; unfold cc1__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, HS0⟩, ⟨%d6, %f6, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.Reg1RunB.lean ====
import proofs.«177069_j18983755448416_1_alg».proof.Proof.KI.Reg1RunA

/-! Region 1: the whole body of the add-and-statistics kernel run at a middle point (the accumulators are added to), on whole staging memrefs.
The pieces each buffer ends with are what the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a middle point (the accumulators are added to): from the inputs' memrefs at their blocks, the sum window's at anything, the idle statistics windows' at contents handed back untouched, the accumulators at what the point before left, it runs to the continuation holding the
    inputs' as they were and every buffer it stored into with its pieces written. -/
noncomputable def kernelRun1_B (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__add_stats_kernel i arg1 harg1 arg2 harg2 arg3 harg3 arg4 harg4 arg5 harg5 arg6 harg6 arg7 harg7) K } := by
  refine ⟨?_, ?_, ?_, fun xi3 xi4 E K => ?run⟩
  case run =>
    simp only [cc1__add_stats_kernel_eq_skeleton]; unfold cc1__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, HS0⟩, ⟨%f6, %hf6, HS1⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.Reg1RunC.lean ====
import proofs.«177069_j18983755448416_1_alg».proof.Proof.KI.Reg1RunB

/-! Region 1: the whole body of the add-and-statistics kernel run at the grid's last point (the accumulators are added to, then copied to the two statistics windows), on whole staging memrefs.
The pieces each buffer ends with are what the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's last point (the accumulators are added to, then copied to the two statistics windows): from the inputs' memrefs at their blocks, the sum window's at anything, the statistics windows' at anything, the accumulators at what the point before left, it runs to the continuation holding the
    inputs' as they were and every buffer it stored into with its pieces written. -/
noncomputable def kernelRun1_C (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) :
    Σ' (L2 : List (View.Piece (Elt F) S2000x64 .f32)) (L3 : List (View.Piece (Elt F) S1x64 .f32)) (L4 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__add_stats_kernel i arg1 harg1 arg2 harg2 arg3 harg3 arg4 harg4 arg5 harg5 arg6 harg6 arg7 harg7) K } := by
  refine ⟨?_, ?_, ?_, ?_, ?_, fun E K => ?run⟩
  case run =>
    simp only [cc1__add_stats_kernel_eq_skeleton]; unfold cc1__add_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, HS0⟩, ⟨%f6, %hf6, HS1⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.KI.Reg1.lean ====
import proofs.«177069_j18983755448416_1_alg».proof.Proof.KI.Reg1RunC

/-! Region 1 (the add-and-statistics kernel), the frame half: what each control case leaves in the output windows'
staging buffers and in the two accumulators, these contents point by point (the accumulators are carried: a point
starts from what the point before left), the proof data of the pipeline at the entry contents `V`, the body
obligation, and the invariant's two ends. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Case A -/

/-- Case A's pieces for the sum window cover its block. -/
theorem cover1_A_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) (y : S2000x64.Idx) :
    ∃ pc ∈ (kernelRun1_A c i arg1 harg1 arg2 harg2 arg3 harg3 arg4 harg4 arg5 harg5 arg6 harg6 arg7 harg7 hc0 hc1 x0 x1).1, y ∈ pc.1.set :=
  View.cover_of_tiledL (kernelRun1_A c i arg1 harg1 arg2 harg2 arg3 harg3 arg4 harg4 arg5 harg5 arg6 harg6 arg7 harg7 hc0 hc1 x0 x1).1 S2000x64.size (by sl_kernel_rfl) y

/-- What case A leaves in the sum window's staging buffer. -/
def out1_A_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) : Vec F S2000x64 .f32 :=
  VO1_2.read (Elt F) (VO1_2.writes (Elt F) VO1_2.junk (kernelRun1_A c i arg1 harg1 arg2 harg2 arg3 harg3 arg4 harg4 arg5 harg5 arg6 harg6 arg7 harg7 hc0 hc1 x0 x1).1)

/-- Case A's pieces for the first accumulator cover it. -/
theorem scover1_A_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) (y : S1x64.Idx) :
    ∃ pc ∈ (kernelRun1_A c i arg1 harg1 arg2 harg2 arg3 harg3 arg4 harg4 arg5 harg5 arg6 harg6 arg7 harg7 hc0 hc1 x0 x1).2.1, y ∈ pc.1.set :=
  View.cover_of_tiledL (kernelRun1_A c i arg1 harg1 arg2 harg2 arg3 harg3 arg4 harg4 arg5 harg5 arg6 harg6 arg7 harg7 hc0 hc1 x0 x1).2.1 S1x64.size (by sl_kernel_rfl) y

/-- What case A leaves in the first accumulator. -/
def sout1_A_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) : Vec F S1x64 .f32 :=
  VS1_0.read (Elt F) (VS1_0.writes (Elt F) VS1_0.junk (kernelRun1_A c i arg1 harg1 arg2 harg2 arg3 harg3 arg4 harg4 arg5 harg5 arg6 harg6 arg7 harg7 hc0 hc1 x0 x1).2.1)

/-- Case A's pieces for the second accumulator cover it. -/
theorem scover1_A_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) (y : S1x64.Idx) :
    ∃ pc ∈ (kernelRun1_A c i arg1 harg1 arg2 harg2 arg3 harg3 arg4 harg4 arg5 harg5 arg6 harg6 arg7 harg7 hc0 hc1 x0 x1).2.2.1, y ∈ pc.1.set :=
  View.cover_of_tiledL (kernelRun1_A c i arg1 harg1 arg2 harg2 arg3 harg3 arg4 harg4 arg5 harg5 arg6 harg6 arg7 harg7 hc0 hc1 x0 x1).2.2.1 S1x64.size (by sl_kernel_rfl) y

/-- What case A leaves in the second accumulator. -/
def sout1_A_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 : Vec F S2000x64 .f32) (x1 : Vec F S2000x64 .f32) : Vec F S1x64 .f32 :=
  VS1_1.read (Elt F) (VS1_1.writes (Elt F) VS1_1.junk (kernelRun1_A c i arg1 harg1 arg2 harg2 arg3 harg3 arg4 harg4 arg5 harg5 arg6 harg6 arg7 harg7 hc0 hc1 x0 x1).2.2.1)

/-! ## Case B -/

/-- Case B's pieces for the sum window cover its block. -/
theorem cover1_B_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) (y : S2000x64.Idx) :
    ∃ pc ∈ (kernelRun1_B c i arg1 harg1 arg2 harg2 arg3 harg3 arg4 harg4 arg5 harg5 arg6 harg6 arg7 harg7 hc0 hc1 x0 x1 xs0 xs1).1, y ∈ pc.1.set :=
  View.cover_of_tiledL (kernelRun1_B c i arg1 harg1 arg2 harg2 arg3 harg3 arg4 harg4 arg5 harg5 arg6 harg6 arg7 harg7 hc0 hc1 x0 x1 xs0 xs1).1 S2000x64.size (by sl_kernel_rfl) y

/-- What case B leaves in the sum window's staging buffer. -/
def out1_B_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) : Vec F S2000x64 .f32 :=
  VO1_2.read (Elt F) (VO1_2.writes (Elt F) VO1_2.junk (kernelRun1_B c i arg1 harg1 arg2 harg2 arg3 harg3 arg4 harg4 arg5 harg5 arg6 harg6 arg7 harg7 hc0 hc1 x0 x1 xs0 xs1).1)

/-- Case B's pieces for the first accumulator cover it. -/
theorem scover1_B_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 hc0 hc1 x0 x1 xs0 xs1).2.1, y ∈ pc.1.set :=
  View.cover_of_tiledL (kernelRun1_B c i arg1 harg1 arg2 harg2 arg3 harg3 arg4 harg4 arg5 harg5 arg6 harg6 arg7 harg7 hc0 hc1 x0 x1 xs0 xs1).2.1 S1x64.size (by sl_kernel_rfl) y

/-- What case B leaves in the first accumulator. -/
def sout1_B_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) : Vec F S1x64 .f32 :=
  VS1_0.read (Elt F) (VS1_0.writes (Elt F) VS1_0.junk (kernelRun1_B c i arg1 harg1 arg2 harg2 arg3 harg3 arg4 harg4 arg5 harg5 arg6 harg6 arg7 harg7 hc0 hc1 x0 x1 xs0 xs1).2.1)

/-- Case B's pieces for the second accumulator cover it. -/
theorem scover1_B_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 arg7 harg7 hc0 hc1 x0 x1 xs0 xs1).2.2.1, y ∈ pc.1.set :=
  View.cover_of_tiledL (kernelRun1_B c i arg1 harg1 arg2 harg2 arg3 harg3 arg4 harg4 arg5 harg5 arg6 harg6 arg7 harg7 hc0 hc1 x0 x1 xs0 xs1).2.2.1 S1x64.size (by sl_kernel_rfl) y

/-- What case B leaves in the second accumulator. -/
def sout1_B_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 : Vec F S2000x64 .f32) (x1 : Vec F S2000x64 .f32) (xs0 : Vec F S1x64 .f32) (xs1 : Vec F S1x64 .f32) : Vec F S1x64 .f32 :=
  VS1_1.read (Elt F) (VS1_1.writes (Elt F) VS1_1.junk (kernelRun1_B c i arg1 harg1 arg2 harg2 arg3 harg3 arg4 harg4 arg5 harg5 arg6 harg6 arg7 harg7 hc0 hc1 x0 x1 xs0 xs1).2.2.1)

/-! ## Case C -/

/-- Case C's pieces for the sum window cover its block. -/
theorem cover1_C_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) (y : S2000x64.Idx) :
    ∃ pc ∈ (kernelRun1_C c i arg1 harg1 arg2 harg2 arg3 harg3 arg4 harg4 arg5 harg5 arg6 harg6 arg7 harg7 hc0 hc1 x0 x1 xs0 xs1).1, y ∈ pc.1.set :=
  View.cover_of_tiledL (kernelRun1_C c i arg1 harg1 arg2 harg2 arg3 harg3 arg4 harg4 arg5 harg5 arg6 harg6 arg7 harg7 hc0 hc1 x0 x1 xs0 xs1).1 S2000x64.size (by sl_kernel_rfl) y

/-- What case C leaves in the sum window's staging buffer. -/
def out1_C_2 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) : Vec F S2000x64 .f32 :=
  VO1_2.read (Elt F) (VO1_2.writes (Elt F) VO1_2.junk (kernelRun1_C c i arg1 harg1 arg2 harg2 arg3 harg3 arg4 harg4 arg5 harg5 arg6 harg6 arg7 harg7 hc0 hc1 x0 x1 xs0 xs1).1)

/-- Case C's pieces for statistics window 3 cover its block. -/
theorem cover1_C_3 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 arg7 harg7 hc0 hc1 x0 x1 xs0 xs1).2.1, y ∈ pc.1.set :=
  View.cover_of_tiledL (kernelRun1_C c i arg1 harg1 arg2 harg2 arg3 harg3 arg4 harg4 arg5 harg5 arg6 harg6 arg7 harg7 hc0 hc1 x0 x1 xs0 xs1).2.1 S1x64.size (by sl_kernel_rfl) y

/-- What case C leaves in statistics window 3's staging buffer. -/
def out1_C_3 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) : Vec F S1x64 .f32 :=
  VO1_3.read (Elt F) (VO1_3.writes (Elt F) VO1_3.junk (kernelRun1_C c i arg1 harg1 arg2 harg2 arg3 harg3 arg4 harg4 arg5 harg5 arg6 harg6 arg7 harg7 hc0 hc1 x0 x1 xs0 xs1).2.1)

/-- Case C's pieces for statistics window 4 cover its block. -/
theorem cover1_C_4 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 arg7 harg7 hc0 hc1 x0 x1 xs0 xs1).2.2.1, y ∈ pc.1.set :=
  View.cover_of_tiledL (kernelRun1_C c i arg1 harg1 arg2 harg2 arg3 harg3 arg4 harg4 arg5 harg5 arg6 harg6 arg7 harg7 hc0 hc1 x0 x1 xs0 xs1).2.2.1 S1x64.size (by sl_kernel_rfl) y

/-- What case C leaves in statistics window 4's staging buffer. -/
def out1_C_4 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) : Vec F S1x64 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 xs0 xs1).2.2.1)

/-- Case C's pieces for the first accumulator cover it. -/
theorem scover1_C_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 arg7 harg7 hc0 hc1 x0 x1 xs0 xs1).2.2.2.1, y ∈ pc.1.set :=
  View.cover_of_tiledL (kernelRun1_C c i arg1 harg1 arg2 harg2 arg3 harg3 arg4 harg4 arg5 harg5 arg6 harg6 arg7 harg7 hc0 hc1 x0 x1 xs0 xs1).2.2.2.1 S1x64.size (by sl_kernel_rfl) y

/-- What case C leaves in the first accumulator. -/
def sout1_C_0 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) : Vec F S1x64 .f32 :=
  VS1_0.read (Elt F) (VS1_0.writes (Elt F) VS1_0.junk (kernelRun1_C c i arg1 harg1 arg2 harg2 arg3 harg3 arg4 harg4 arg5 harg5 arg6 harg6 arg7 harg7 hc0 hc1 x0 x1 xs0 xs1).2.2.2.1)

/-- Case C's pieces for the second accumulator cover it. -/
theorem scover1_C_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 arg7 harg7 hc0 hc1 x0 x1 xs0 xs1).2.2.2.2.1, y ∈ pc.1.set :=
  View.cover_of_tiledL (kernelRun1_C c i arg1 harg1 arg2 harg2 arg3 harg3 arg4 harg4 arg5 harg5 arg6 harg6 arg7 harg7 hc0 hc1 x0 x1 xs0 xs1).2.2.2.2.1 S1x64.size (by sl_kernel_rfl) y

/-- What case C leaves in the second accumulator. -/
def sout1_C_1 (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 : Vec F S2000x64 .f32) (x1 : Vec F S2000x64 .f32) (xs0 : Vec F S1x64 .f32) (xs1 : Vec F S1x64 .f32) : Vec F S1x64 .f32 :=
  VS1_1.read (Elt F) (VS1_1.writes (Elt F) VS1_1.junk (kernelRun1_C c i arg1 harg1 arg2 harg2 arg3 harg3 arg4 harg4 arg5 harg5 arg6 harg6 arg7 harg7 hc0 hc1 x0 x1 xs0 xs1).2.2.2.2.1)

/-- Where a statistics window is idle nothing is stored into it: a placeholder that nothing consults. -/
def idleOut1_3 : Vec F S1x64 .f32 := VO1_3.read (Elt F) (VO1_3.writes (Elt F) VO1_3.junk [])
def idleOut1_4 : Vec F S1x64 .f32 := VO1_4.read (Elt F) (VO1_4.writes (Elt F) VO1_4.junk [])

/-! ## What the outputs and the accumulators hold after each point -/

/-- After the body at position `n`: the sum window's staging buffer, the two statistics windows', and the two
    accumulators — the case the closed forms select at `n`, run at the point's memrefs and input blocks, the
    accumulators starting from what position `n - 1` left. -/
def outsAt1 (c : Dev nD) : (n : ℕ) → n < cfg1.N → Vec F S2000x64 .f32 × Vec F S1x64 .f32 × Vec F S1x64 .f32 × Vec F S1x64 .f32 × Vec F S1x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), idleOut1_3, idleOut1_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 25 = 0 then
      if h1 : (n + 1) % 25 = 24 then
        False.elim (by have hN : n + 1 < 25 := lt_of_lt_of_eq hn (show cfg1.N = 25 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), idleOut1_3, idleOut1_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 25 = 24 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.2.1 (outsAt1 c n (Nat.lt_of_succ_lt hn)).2.2.2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, idleOut1_3, idleOut1_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.2.1 (outsAt1 c n (Nat.lt_of_succ_lt hn)).2.2.2.2)

/-- `outsAt1` at a point of case A. -/
theorem outsAt1_A (c : Dev nD) (t : Fin cfg1.N) (h0 : t.val % 25 = 0) (h1 : ¬t.val % 25 = 24) :
    outsAt1 V c t.val t.isLt = (out1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t), idleOut1_3, idleOut1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 25 = 0) (h1 : ¬t.val % 25 = 24) :
    outsAt1 V c t.val t.isLt = (out1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, idleOut1_3, idleOut1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 25 = 0) (h1 : t.val % 25 = 24) :
    outsAt1 V c t.val t.isLt = (out1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards each accumulator at what the point before left in it, the other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.2.1 ∗ owns (c : Thread nD τ) scM1_1 fullShare (outsAt1 V c n hn).2.2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.2.1 ∗ owns (c : Thread nD τ) scM1_1 fullShare (outsAt1 V c n hn).2.2.2.2) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.2.1 ∗ owns (c : Thread nD τ) scM1_1 fullShare (outsAt1 V c (n - 1) (by omega)).2.2.2.2) ∗ rest1 c) ∗ (∃ r, prngReg c r)) := by
  cases n with
  | zero => exact absurd rfl hz
  | succ n => rfl

/-! ## The pipeline's proof data -/

/-- The proof data of pipeline 1 on core `c`: the arrays as the region finds them; after the body at point `t`
    each input's buffer at its block and the outputs' at `outsAt1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
    | ⟨4, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem after1_4 (c : Dev nD) (t : Fin cfg1.N) : (dat1 V c).after 4 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in;
    the invariant hands the body the accumulators at what the point before left (at anything at the first point)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 25 = 0
  · by_cases h1 : t.val % 25 = 24
    · exfalso; omega
    ·
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold out1_A_2 sout1_A_0 sout1_A_1; (try dsimp only)
      have hz : t.val = 0 := by omega
      rw [PhiS1_castSucc V c t, PhiS1_zero V c _ _ hz, PhiA1_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_A_2 c _ _ _ _ _ _ _ _ _ _ _ _ _ _ _ _ _ _ _)
      isplitl [H3]; · iexists _; iexact H3
      iexists _; iexact H4

  · by_cases h1 : t.val % 25 = 24
    ·
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_2 out1_C_3 out1_C_4 sout1_C_0 sout1_C_1; (try dsimp only)
      have hz : t.val ≠ 0 := by omega
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _ _ _)
      isplitl [H3]
      · unfold owns; iexists _; isplitr
        swap; · iexact H3
        ipureintro; exact View.read_writes_of_cover _ _ _ _ _ (cover1_C_3 c _ _ _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _ _ _)

    ·
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold out1_B_2 sout1_B_0 sout1_B_1; (try dsimp only)
      have hz : t.val ≠ 0 := by omega
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_B_2 c _ _ _ _ _ _ _ _ _ _ _ _ _ _ _ _ _ _ _ _ _)
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Cert.KernelIdeal.Hand

end
-- ==== Proof.KI.Reg2.lean ====
import proofs.«177069_j18983755448416_1_alg».proof.Proof.Gen.KernelIdeal.Launch
import proofs.«177069_j18983755448416_1_alg».proof.Proof.Gen.KernelIdeal.Skeleton
import proofs.«177069_j18983755448416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (normalize by the batch statistics, scale, shift, clamp below at zero; layer 1): the frame half, at any float instance

At a parameter `V` — the buffer contents when the region is entered — this module states what each
window's block is at a grid point, what the body leaves in the output window's buffer as a function of
the input blocks, the body's triple, the proof data of the pipeline and its body obligation. Every input
window's buffer holds its block at every point, whether the point fetches it or not: a window that is
fetched at the first point only keeps the same block index, so the block it was left with is still its
block. The body stores the whole output block once, so the buffer after the body is that one stored
value. -/

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not, for any proof data
    whose array is `V`'s and whose body leaves the block in place: where the window is not fetched its block
    index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for any proof data
    whose array is `V`'s and whose body leaves the block in place: where the window is not fetched its block
    index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for any proof data
    whose array is `V`'s and whose body leaves the block in place: where the window is not fetched its block
    index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not, for any proof data
    whose array is `V`'s and whose body leaves the block in place: where the window is not fetched its block
    index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not, for any proof data
    whose array is `V`'s and whose body leaves the block in place: where the window is not fetched its block
    index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_0 : Rect S2000x64 := Rect.unit (s := S2000x64) ![0, 0] S2000x64.size inb_S2000x64_S2000x64_0_0
abbrev r2_1 : Rect S1x64 := Rect.unit (s := S1x64) ![0, 0] S1x64.size inb_S1x64_S1x64_0_0

/-! ## What the body leaves in the output window's buffer -/

/-- Window 5's buffer after the body, from the input windows' blocks: the one stored value. -/
def out2_5 (x0 : Vec F S2000x64 .f32) (x1 : Vec F S1x64 .f32) (x2 : Vec F S1x64 .f32) (x3 : Vec F S1x64 .f32) (x4 : Vec F S1x64 .f32) : Vec F S2000x64 .f32 :=
  View.canon [⟨r2_0, k2_pay1 (View.ld x1 r2_1) (View.ld x2 r2_1) (View.ld x0 r2_0) (View.ld x3 r2_1) (View.ld x4 r2_1)⟩]

/-- The one store covers the buffer. -/
theorem cover2_5 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The kernel body on whole buffers, the inputs' at contents `xW` and the output's at anything, runs to the
    continuation holding the inputs' as they were and the output's at `out2_5` of the inputs'. -/
theorem sound_kernel2 (c : Dev nD) (E : Set ℕ) (i : grid2.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t`
    each input's buffer at its block and the output's at `out2_5` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«177069_j18983755448416_1_alg».proof.Proof.Gen.KernelIdeal.Launch
import proofs.«177069_j18983755448416_1_alg».proof.Proof.Gen.KernelIdeal.Skeleton
import proofs.«177069_j18983755448416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main (the node transform of layer 2): the body half of its frame

The kernel reads a block of 2000 rows of the layer's input, the whole weight, the bias row and the whole
cross basis, and stores two blocks: h = x · W + b (2000 × 64) and T = h · Mt (2000 × 1024). It keeps
nothing between grid points. Everything here is stated at a parameter V, the buffer contents when the
region is entered, and at any float instance F. -/

-- membership in a rectangle of 2000 × 1024 entries recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether it was fetched there or not
    (not fetched means its block index has not moved), for any proof data whose array is `V`'s and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether it was fetched there or not
    (not fetched means its block index has not moved), for any proof data whose array is `V`'s and whose body
    leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether it was fetched there or not
    (not fetched means its block index has not moved), for any proof data whose array is `V`'s and whose body
    leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether it was fetched there or not
    (not fetched means its block index has not moved), for any proof data whose array is `V`'s and whose body
    leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging buffer is read and written whole -/

abbrev r3_0 : Rect S2000x64 := Rect.unit (s := S2000x64) ![0, 0] S2000x64.size inb_S2000x64_S2000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0
abbrev r3_3 : Rect S64x1024 := Rect.unit (s := S64x1024) ![0, 0] S64x1024.size inb_S64x1024_S64x1024_0_0
abbrev r3_4 : Rect S2000x64 := Rect.unit (s := S2000x64) ![0, 0] S2000x64.size inb_S2000x64_S2000x64_0_0
abbrev r3_5 : Rect S2000x1024 := Rect.unit (s := S2000x1024) ![0, 0] S2000x1024.size inb_S2000x1024_S2000x1024_0_0

/-! ## What the body leaves in each output window's buffer -/

/-- Window 4's staging buffer after the body, from the input windows' blocks: the block of h. -/
def out3_4 (x0 : Vec F S2000x64 .f32) (x1 : Vec F S64x64 .f32) (x2 : Vec F S1x64 .f32) (x3 : Vec F S64x1024 .f32) : Vec F S2000x64 .f32 :=
  View.canon [⟨r3_4, k3_pay1 (View.ld x0 r3_0) (View.ld x1 r3_1) (View.ld x2 r3_2)⟩]

/-- Its one store covers the buffer. -/
theorem cover3_4 (p0 : Vec F S2000x64 .f32) (y : S2000x64.Idx) :
    ∃ pc ∈ ([⟨r3_4, p0⟩] : List (View.Piece (Elt F) S2000x64 .f32)), y ∈ pc.1.set :=
  View.cover_of_tiled [⟨r3_4, p0⟩] S2000x64.size (by rfl) y

/-- Window 5's staging buffer after the body, from the input windows' blocks: the block of T. -/
def out3_5 (x0 : Vec F S2000x64 .f32) (x1 : Vec F S64x64 .f32) (x2 : Vec F S1x64 .f32) (x3 : Vec F S64x1024 .f32) : Vec F S2000x1024 .f32 :=
  View.canon [⟨r3_5, k3_pay2 (View.ld x0 r3_0) (View.ld x1 r3_1) (View.ld x2 r3_2) (View.ld x3 r3_3)⟩]

/-- Its one store covers the buffer. -/
theorem cover3_5 (p0 : Vec F S2000x1024 .f32) (y : S2000x1024.Idx) :
    ∃ pc ∈ ([⟨r3_5, p0⟩] : List (View.Piece (Elt F) S2000x1024 .f32)), y ∈ pc.1.set :=
  View.cover_of_tiled [⟨r3_5, p0⟩] S2000x1024.size (by rfl) y

/-! ## The body's triple -/

set_option maxHeartbeats 1000000 in
/-- The kernel body on whole staging memrefs, the inputs' at read contents `xW` and the outputs' at anything, runs to
    the continuation holding the inputs' as they were and each output's at `out3_W` of the inputs'. The grid
    coordinate is not read. -/
theorem sound_kernel3 (c : Dev nD) (E : Set ℕ) (i : grid3.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x1024 .f32) (harg4 : arg4.IsWhole)
    (arg5 : Memref sig .tc .vmem S2000x64 .f32) (harg5 : arg5.IsWhole) (arg6 : Memref sig .tc .vmem S2000x1024 .f32) (harg6 : arg6.IsWhole)
    (x0 : Vec F S2000x64 .f32) (x1 : Vec F S64x64 .f32) (x2 : Vec F S1x64 .f32) (x3 : Vec F S64x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__node_transform_kernel i arg1 harg1 arg2 harg2 arg3 harg3 arg4 harg4 arg5 harg5 arg6 harg6) K := by
  simp only [cc3__node_transform_kernel_eq_skeleton]; unfold cc3__node_transform_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and each output's at `out3_W` of the input blocks; the invariant
    is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4Runs.lean ====
import proofs.«177069_j18983755448416_1_alg».proof.Proof.Gen.KernelIdeal.Launch
import proofs.«177069_j18983755448416_1_alg».proof.Proof.Gen.KernelIdeal.Skeleton
import proofs.«177069_j18983755448416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 (the add-and-statistics kernel): what its three control cases share — the blocks of its windows at
the contents `V` the region is entered with, the two branch conditions in closed form over the grid (the first
point zeroes the two accumulators, the last point copies them out), where the two statistics windows are idle, and
the staging and scratch memrefs the case runs are stated over. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The first branch's condition (the point is the grid's first), from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 25 = 0 :=
  (by decide +kernel : ∀ t : Fin grid4.N, cond4_0 (grid4.coords t) ↔ t.val % 25 = 0)

/-- The second branch's condition (the point is the grid's last). -/
abbrev cond4_1 (i : grid4.Coords) : Prop := k4_cond2 i = 1#1
theorem hcond4_1 : ∀ t : Fin cfg4.N, cond4_1 (grid4.coords t) ↔ t.val % 25 = 24 :=
  (by decide +kernel : ∀ t : Fin grid4.N, cond4_1 (grid4.coords t) ↔ t.val % 25 = 24)

/-- Windows 0, 1, 2 are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

/-- Away from the last point window 3 is idle and is not written back; at the last point it is live. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
theorem liveAt4_3_C : ∀ t : Fin cfg4.N, ¬cond4_0 (grid4.coords t) → cond4_1 (grid4.coords t) → cfg4.idle 3 (grid4.coords t) = false := by decide +kernel

/-- Away from the last point window 4 is idle and is not written back; at the last point it is live. -/
theorem idleAt4_4_A : ∀ t : Fin cfg4.N, cond4_0 (grid4.coords t) → ¬cond4_1 (grid4.coords t) → cfg4.idle 4 (grid4.coords t) = true := by decide +kernel
theorem noFlush4_4_A : ∀ t : Fin cfg4.N, cond4_0 (grid4.coords t) → ¬cond4_1 (grid4.coords t) → (cfg4.win 4).flush t = false := by decide +kernel
theorem idleAt4_4_B : ∀ t : Fin cfg4.N, ¬cond4_0 (grid4.coords t) → ¬cond4_1 (grid4.coords t) → cfg4.idle 4 (grid4.coords t) = true := by decide +kernel
theorem noFlush4_4_B : ∀ t : Fin cfg4.N, ¬cond4_0 (grid4.coords t) → ¬cond4_1 (grid4.coords t) → (cfg4.win 4).flush t = false := by decide +kernel
theorem liveAt4_4_C : ∀ t : Fin cfg4.N, ¬cond4_0 (grid4.coords t) → cond4_1 (grid4.coords t) → cfg4.idle 4 (grid4.coords t) = false := by decide +kernel

/-- One staging buffer of each output window, through which its contents are stated. -/
abbrev VO4_2 : View sig .tc .vmem S2000x64 .f32 := (Memref.whole cc4_stg2_0 : Memref sig .tc .vmem S2000x64 .f32).view
abbrev VO4_3 : View sig .tc .vmem S1x64 .f32 := (Memref.whole cc4_stg3_0 : Memref sig .tc .vmem S1x64 .f32).view
abbrev VO4_4 : View sig .tc .vmem S1x64 .f32 := (Memref.whole cc4_stg4_0 : Memref sig .tc .vmem S1x64 .f32).view
abbrev ms4_0 (t : Fin cfg4.N) : Memref sig .tc .vmem S2000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
/-- The two accumulators: whole scoped buffers of the kernel's own, carried from point to point. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view

/-- The scoped buffers this region never opens. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The region's invariant with the two accumulators split out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

end Cert.KernelIdeal.Hand

end
-- ==== Proof.KI.Reg4RunA.lean ====
import proofs.«177069_j18983755448416_1_alg».proof.Proof.KI.Reg4Runs

/-! Region 4: the whole body of the add-and-statistics kernel run at the grid's first point (the accumulators are zeroed, then added to), on whole staging memrefs.
The pieces each buffer ends with are what the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's first point (the accumulators are zeroed, then added to): from the inputs' memrefs at their blocks, the sum window's at anything, the idle statistics windows' at contents handed back untouched, the accumulators at anything, it runs to the continuation holding the
    inputs' as they were and every buffer it stored into with its pieces written. -/
noncomputable def kernelRun4_A (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__add_stats_kernel i arg1 harg1 arg2 harg2 arg3 harg3 arg4 harg4 arg5 harg5 arg6 harg6 arg7 harg7) K } := by
  refine ⟨?_, ?_, ?_, fun xi3 xi4 E K => ?run⟩
  case run =>
    simp only [cc4__add_stats_kernel_eq_skeleton]; unfold cc4__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, HS0⟩, ⟨%d6, %f6, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.Reg4RunB.lean ====
import proofs.«177069_j18983755448416_1_alg».proof.Proof.KI.Reg4RunA

/-! Region 4: the whole body of the add-and-statistics kernel run at a middle point (the accumulators are added to), on whole staging memrefs.
The pieces each buffer ends with are what the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a middle point (the accumulators are added to): from the inputs' memrefs at their blocks, the sum window's at anything, the idle statistics windows' at contents handed back untouched, the accumulators at what the point before left, it runs to the continuation holding the
    inputs' as they were and every buffer it stored into with its pieces written. -/
noncomputable def kernelRun4_B (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__add_stats_kernel i arg1 harg1 arg2 harg2 arg3 harg3 arg4 harg4 arg5 harg5 arg6 harg6 arg7 harg7) K } := by
  refine ⟨?_, ?_, ?_, fun xi3 xi4 E K => ?run⟩
  case run =>
    simp only [cc4__add_stats_kernel_eq_skeleton]; unfold cc4__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, HS0⟩, ⟨%f6, %hf6, HS1⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.Reg4RunC.lean ====
import proofs.«177069_j18983755448416_1_alg».proof.Proof.KI.Reg4RunB

/-! Region 4: the whole body of the add-and-statistics kernel run at the grid's last point (the accumulators are added to, then copied to the two statistics windows), on whole staging memrefs.
The pieces each buffer ends with are what the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's last point (the accumulators are added to, then copied to the two statistics windows): from the inputs' memrefs at their blocks, the sum window's at anything, the statistics windows' at anything, the accumulators at what the point before left, it runs to the continuation holding the
    inputs' as they were and every buffer it stored into with its pieces written. -/
noncomputable def kernelRun4_C (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) :
    Σ' (L2 : List (View.Piece (Elt F) S2000x64 .f32)) (L3 : List (View.Piece (Elt F) S1x64 .f32)) (L4 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__add_stats_kernel i arg1 harg1 arg2 harg2 arg3 harg3 arg4 harg4 arg5 harg5 arg6 harg6 arg7 harg7) K } := by
  refine ⟨?_, ?_, ?_, ?_, ?_, fun E K => ?run⟩
  case run =>
    simp only [cc4__add_stats_kernel_eq_skeleton]; unfold cc4__add_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, HS0⟩, ⟨%f6, %hf6, HS1⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.KI.Reg4.lean ====
import proofs.«177069_j18983755448416_1_alg».proof.Proof.KI.Reg4RunC

/-! Region 4 (the add-and-statistics kernel), the frame half: what each control case leaves in the output windows'
staging buffers and in the two accumulators, these contents point by point (the accumulators are carried: a point
starts from what the point before left), the proof data of the pipeline at the entry contents `V`, the body
obligation, and the invariant's two ends. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Case A -/

/-- Case A's pieces for the sum window cover its block. -/
theorem cover4_A_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) (y : S2000x64.Idx) :
    ∃ pc ∈ (kernelRun4_A c i arg1 harg1 arg2 harg2 arg3 harg3 arg4 harg4 arg5 harg5 arg6 harg6 arg7 harg7 hc0 hc1 x0 x1).1, y ∈ pc.1.set :=
  View.cover_of_tiledL (kernelRun4_A c i arg1 harg1 arg2 harg2 arg3 harg3 arg4 harg4 arg5 harg5 arg6 harg6 arg7 harg7 hc0 hc1 x0 x1).1 S2000x64.size (by sl_kernel_rfl) y

/-- What case A leaves in the sum window's staging buffer. -/
def out4_A_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) : Vec F S2000x64 .f32 :=
  VO4_2.read (Elt F) (VO4_2.writes (Elt F) VO4_2.junk (kernelRun4_A c i arg1 harg1 arg2 harg2 arg3 harg3 arg4 harg4 arg5 harg5 arg6 harg6 arg7 harg7 hc0 hc1 x0 x1).1)

/-- Case A's pieces for the first accumulator cover it. -/
theorem scover4_A_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) (y : S1x64.Idx) :
    ∃ pc ∈ (kernelRun4_A c i arg1 harg1 arg2 harg2 arg3 harg3 arg4 harg4 arg5 harg5 arg6 harg6 arg7 harg7 hc0 hc1 x0 x1).2.1, y ∈ pc.1.set :=
  View.cover_of_tiledL (kernelRun4_A c i arg1 harg1 arg2 harg2 arg3 harg3 arg4 harg4 arg5 harg5 arg6 harg6 arg7 harg7 hc0 hc1 x0 x1).2.1 S1x64.size (by sl_kernel_rfl) y

/-- What case A leaves in the first accumulator. -/
def sout4_A_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 hc0 hc1 x0 x1).2.1)

/-- Case A's pieces for the second accumulator cover it. -/
theorem scover4_A_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) (y : S1x64.Idx) :
    ∃ pc ∈ (kernelRun4_A c i arg1 harg1 arg2 harg2 arg3 harg3 arg4 harg4 arg5 harg5 arg6 harg6 arg7 harg7 hc0 hc1 x0 x1).2.2.1, y ∈ pc.1.set :=
  View.cover_of_tiledL (kernelRun4_A c i arg1 harg1 arg2 harg2 arg3 harg3 arg4 harg4 arg5 harg5 arg6 harg6 arg7 harg7 hc0 hc1 x0 x1).2.2.1 S1x64.size (by sl_kernel_rfl) y

/-- What case A leaves in the second accumulator. -/
def sout4_A_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x64 .f32) (x1 : Vec F S2000x64 .f32) : Vec F S1x64 .f32 :=
  VS4_1.read (Elt F) (VS4_1.writes (Elt F) VS4_1.junk (kernelRun4_A c i arg1 harg1 arg2 harg2 arg3 harg3 arg4 harg4 arg5 harg5 arg6 harg6 arg7 harg7 hc0 hc1 x0 x1).2.2.1)

/-! ## Case B -/

/-- Case B's pieces for the sum window cover its block. -/
theorem cover4_B_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) (y : S2000x64.Idx) :
    ∃ pc ∈ (kernelRun4_B c i arg1 harg1 arg2 harg2 arg3 harg3 arg4 harg4 arg5 harg5 arg6 harg6 arg7 harg7 hc0 hc1 x0 x1 xs0 xs1).1, y ∈ pc.1.set :=
  View.cover_of_tiledL (kernelRun4_B c i arg1 harg1 arg2 harg2 arg3 harg3 arg4 harg4 arg5 harg5 arg6 harg6 arg7 harg7 hc0 hc1 x0 x1 xs0 xs1).1 S2000x64.size (by sl_kernel_rfl) y

/-- What case B leaves in the sum window's staging buffer. -/
def out4_B_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) : Vec F S2000x64 .f32 :=
  VO4_2.read (Elt F) (VO4_2.writes (Elt F) VO4_2.junk (kernelRun4_B c i arg1 harg1 arg2 harg2 arg3 harg3 arg4 harg4 arg5 harg5 arg6 harg6 arg7 harg7 hc0 hc1 x0 x1 xs0 xs1).1)

/-- Case B's pieces for the first accumulator cover it. -/
theorem scover4_B_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 hc0 hc1 x0 x1 xs0 xs1).2.1, y ∈ pc.1.set :=
  View.cover_of_tiledL (kernelRun4_B c i arg1 harg1 arg2 harg2 arg3 harg3 arg4 harg4 arg5 harg5 arg6 harg6 arg7 harg7 hc0 hc1 x0 x1 xs0 xs1).2.1 S1x64.size (by sl_kernel_rfl) y

/-- What case B leaves in the first accumulator. -/
def sout4_B_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 hc0 hc1 x0 x1 xs0 xs1).2.1)

/-- Case B's pieces for the second accumulator cover it. -/
theorem scover4_B_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 hc0 hc1 x0 x1 xs0 xs1).2.2.1, y ∈ pc.1.set :=
  View.cover_of_tiledL (kernelRun4_B c i arg1 harg1 arg2 harg2 arg3 harg3 arg4 harg4 arg5 harg5 arg6 harg6 arg7 harg7 hc0 hc1 x0 x1 xs0 xs1).2.2.1 S1x64.size (by sl_kernel_rfl) y

/-- What case B leaves in the second accumulator. -/
def sout4_B_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x64 .f32) (x1 : Vec F S2000x64 .f32) (xs0 : Vec F S1x64 .f32) (xs1 : Vec F S1x64 .f32) : Vec F S1x64 .f32 :=
  VS4_1.read (Elt F) (VS4_1.writes (Elt F) VS4_1.junk (kernelRun4_B c i arg1 harg1 arg2 harg2 arg3 harg3 arg4 harg4 arg5 harg5 arg6 harg6 arg7 harg7 hc0 hc1 x0 x1 xs0 xs1).2.2.1)

/-! ## Case C -/

/-- Case C's pieces for the sum window cover its block. -/
theorem cover4_C_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) (y : S2000x64.Idx) :
    ∃ pc ∈ (kernelRun4_C c i arg1 harg1 arg2 harg2 arg3 harg3 arg4 harg4 arg5 harg5 arg6 harg6 arg7 harg7 hc0 hc1 x0 x1 xs0 xs1).1, y ∈ pc.1.set :=
  View.cover_of_tiledL (kernelRun4_C c i arg1 harg1 arg2 harg2 arg3 harg3 arg4 harg4 arg5 harg5 arg6 harg6 arg7 harg7 hc0 hc1 x0 x1 xs0 xs1).1 S2000x64.size (by sl_kernel_rfl) y

/-- What case C leaves in the sum window's staging buffer. -/
def out4_C_2 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) : Vec F S2000x64 .f32 :=
  VO4_2.read (Elt F) (VO4_2.writes (Elt F) VO4_2.junk (kernelRun4_C c i arg1 harg1 arg2 harg2 arg3 harg3 arg4 harg4 arg5 harg5 arg6 harg6 arg7 harg7 hc0 hc1 x0 x1 xs0 xs1).1)

/-- Case C's pieces for statistics window 3 cover its block. -/
theorem cover4_C_3 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 hc0 hc1 x0 x1 xs0 xs1).2.1, y ∈ pc.1.set :=
  View.cover_of_tiledL (kernelRun4_C c i arg1 harg1 arg2 harg2 arg3 harg3 arg4 harg4 arg5 harg5 arg6 harg6 arg7 harg7 hc0 hc1 x0 x1 xs0 xs1).2.1 S1x64.size (by sl_kernel_rfl) y

/-- What case C leaves in statistics window 3's staging buffer. -/
def out4_C_3 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) : Vec F S1x64 .f32 :=
  VO4_3.read (Elt F) (VO4_3.writes (Elt F) VO4_3.junk (kernelRun4_C c i arg1 harg1 arg2 harg2 arg3 harg3 arg4 harg4 arg5 harg5 arg6 harg6 arg7 harg7 hc0 hc1 x0 x1 xs0 xs1).2.1)

/-- Case C's pieces for statistics window 4 cover its block. -/
theorem cover4_C_4 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 hc0 hc1 x0 x1 xs0 xs1).2.2.1, y ∈ pc.1.set :=
  View.cover_of_tiledL (kernelRun4_C c i arg1 harg1 arg2 harg2 arg3 harg3 arg4 harg4 arg5 harg5 arg6 harg6 arg7 harg7 hc0 hc1 x0 x1 xs0 xs1).2.2.1 S1x64.size (by sl_kernel_rfl) y

/-- What case C leaves in statistics window 4's staging buffer. -/
def out4_C_4 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) : Vec F S1x64 .f32 :=
  VO4_4.read (Elt F) (VO4_4.writes (Elt F) VO4_4.junk (kernelRun4_C c i arg1 harg1 arg2 harg2 arg3 harg3 arg4 harg4 arg5 harg5 arg6 harg6 arg7 harg7 hc0 hc1 x0 x1 xs0 xs1).2.2.1)

/-- Case C's pieces for the first accumulator cover it. -/
theorem scover4_C_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 hc0 hc1 x0 x1 xs0 xs1).2.2.2.1, y ∈ pc.1.set :=
  View.cover_of_tiledL (kernelRun4_C c i arg1 harg1 arg2 harg2 arg3 harg3 arg4 harg4 arg5 harg5 arg6 harg6 arg7 harg7 hc0 hc1 x0 x1 xs0 xs1).2.2.2.1 S1x64.size (by sl_kernel_rfl) y

/-- What case C leaves in the first accumulator. -/
def sout4_C_0 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 hc0 hc1 x0 x1 xs0 xs1).2.2.2.1)

/-- Case C's pieces for the second accumulator cover it. -/
theorem scover4_C_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 hc0 hc1 x0 x1 xs0 xs1).2.2.2.2.1, y ∈ pc.1.set :=
  View.cover_of_tiledL (kernelRun4_C c i arg1 harg1 arg2 harg2 arg3 harg3 arg4 harg4 arg5 harg5 arg6 harg6 arg7 harg7 hc0 hc1 x0 x1 xs0 xs1).2.2.2.2.1 S1x64.size (by sl_kernel_rfl) y

/-- What case C leaves in the second accumulator. -/
def sout4_C_1 (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x64 .f32) (x1 : Vec F S2000x64 .f32) (xs0 : Vec F S1x64 .f32) (xs1 : Vec F S1x64 .f32) : Vec F S1x64 .f32 :=
  VS4_1.read (Elt F) (VS4_1.writes (Elt F) VS4_1.junk (kernelRun4_C c i arg1 harg1 arg2 harg2 arg3 harg3 arg4 harg4 arg5 harg5 arg6 harg6 arg7 harg7 hc0 hc1 x0 x1 xs0 xs1).2.2.2.2.1)

/-- Where a statistics window is idle nothing is stored into it: a placeholder that nothing consults. -/
def idleOut4_3 : Vec F S1x64 .f32 := VO4_3.read (Elt F) (VO4_3.writes (Elt F) VO4_3.junk [])
def idleOut4_4 : Vec F S1x64 .f32 := VO4_4.read (Elt F) (VO4_4.writes (Elt F) VO4_4.junk [])

/-! ## What the outputs and the accumulators hold after each point -/

/-- After the body at position `n`: the sum window's staging buffer, the two statistics windows', and the two
    accumulators — the case the closed forms select at `n`, run at the point's memrefs and input blocks, the
    accumulators starting from what position `n - 1` left. -/
def outsAt4 (c : Dev nD) : (n : ℕ) → n < cfg4.N → Vec F S2000x64 .f32 × Vec F S1x64 .f32 × Vec F S1x64 .f32 × Vec F S1x64 .f32 × Vec F S1x64 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), idleOut4_3, idleOut4_4, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 25 = 0 then
      if h1 : (n + 1) % 25 = 24 then
        False.elim (by have hN : n + 1 < 25 := lt_of_lt_of_eq hn (show cfg4.N = 25 from N_4); omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), idleOut4_3, idleOut4_4, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 25 = 24 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.2.1 (outsAt4 c n (Nat.lt_of_succ_lt hn)).2.2.2.2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, idleOut4_3, idleOut4_4, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.2.1 (outsAt4 c n (Nat.lt_of_succ_lt hn)).2.2.2.2)

/-- `outsAt4` at a point of case A. -/
theorem outsAt4_A (c : Dev nD) (t : Fin cfg4.N) (h0 : t.val % 25 = 0) (h1 : ¬t.val % 25 = 24) :
    outsAt4 V c t.val t.isLt = (out4_A_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t), idleOut4_3, idleOut4_4, sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t), sout4_A_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a point of case B: over what the point before left. -/
theorem outsAt4_B (c : Dev nD) (t : Fin cfg4.N) (h0 : ¬t.val % 25 = 0) (h1 : ¬t.val % 25 = 24) :
    outsAt4 V c t.val t.isLt = (out4_B_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, idleOut4_3, idleOut4_4, sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: over what the point before left. -/
theorem outsAt4_C (c : Dev nD) (t : Fin cfg4.N) (h0 : ¬t.val % 25 = 0) (h1 : t.val % 25 = 24) :
    outsAt4 V c t.val t.isLt = (out4_C_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards each accumulator at what the point before left in it, the other scoped buffers unopened, and the
    generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2) ∗ rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2) ∗ rest4 c) ∗ (∃ r, prngReg c r)) := by
  cases n with
  | zero => exact absurd rfl hz
  | succ n => rfl

/-! ## The pipeline's proof data -/

/-- The proof data of pipeline 4 on core `c`: the arrays as the region finds them; after the body at point `t`
    each input's buffer at its block and the outputs' at `outsAt4`; the invariant `PhiS4`; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
    | ⟨4, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]
theorem after4_4 (c : Dev nD) (t : Fin cfg4.N) : (dat4 V c).after 4 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point: the inputs' memrefs hold their blocks; the closed forms say which case the point is in;
    the invariant hands the body the accumulators at what the point before left (at anything at the first point)
    and takes them back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 25 = 0
  · by_cases h1 : t.val % 25 = 24
    · exfalso; omega
    ·
      rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [Dat.leavesExact_idle (dat4 V c) 4 t (idleAt4_4_A t ((hcond4_0 t).mpr h0) (fun h => h1 ((hcond4_1 t).mp h))) (noFlush4_4_A t ((hcond4_0 t).mpr h0) (fun h => h1 ((hcond4_1 t).mp h)))]
      rw [outsAt4_A V c t h0 h1]
      unfold out4_A_2 sout4_A_0 sout4_A_1; (try dsimp only)
      have hz : t.val = 0 := by omega
      rw [PhiS4_castSucc V c t, PhiS4_zero V c _ _ hz, PhiA4_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ _ _ ((hcond4_0 t).mpr h0) (fun h => h1 ((hcond4_1 t).mp h)) (iblk4 V c 0 t) (iblk4 V c 1 t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_A_2 c _ _ _ _ _ _ _ _ _ _ _ _ _ _ _ _ _ _ _)
      isplitl [H3]; · iexists _; iexact H3
      iexists _; iexact H4

  · by_cases h1 : t.val % 25 = 24
    ·
      rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [show (dat4 V c).leavesExact 4 t = owns (c : Thread nD τ) (ms4_4 t) fullShare ((dat4 V c).after 4 t) from by
        unfold Dat.leavesExact; rw [liveAt4_4_C t (fun h => h0 ((hcond4_0 t).mp h)) ((hcond4_1 t).mpr h1)], after4_4]
      rw [outsAt4_C V c t h0 h1]
      unfold out4_C_2 out4_C_3 out4_C_4 sout4_C_0 sout4_C_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun4_C c (grid4.coords t) _ _ _ _ _ _ _ _ _ _ _ _ _ _ (fun h => h0 ((hcond4_0 t).mp h)) ((hcond4_1 t).mpr h1) (iblk4 V c 0 t) (iblk4 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_C_2 c _ _ _ _ _ _ _ _ _ _ _ _ _ _ _ _ _ _ _ _ _)
      isplitl [H3]
      · unfold owns; iexists _; isplitr
        swap; · iexact H3
        ipureintro; exact View.read_writes_of_cover _ _ _ _ _ (cover4_C_3 c _ _ _ _ _ _ _ _ _ _ _ _ _ _ _ _ _ _ _ _ _)
      unfold owns; iexists _; isplitr
      swap; · iexact H4
      ipureintro; exact View.read_writes_of_cover _ _ _ _ _ (cover4_C_4 c _ _ _ _ _ _ _ _ _ _ _ _ _ _ _ _ _ _ _ _ _)

    ·
      rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [Dat.leavesExact_idle (dat4 V c) 4 t (idleAt4_4_B t (fun h => h0 ((hcond4_0 t).mp h)) (fun h => h1 ((hcond4_1 t).mp h))) (noFlush4_4_B t (fun h => h0 ((hcond4_0 t).mp h)) (fun h => h1 ((hcond4_1 t).mp h)))]
      rw [outsAt4_B V c t h0 h1]
      unfold out4_B_2 sout4_B_0 sout4_B_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_B_2 c _ _ _ _ _ _ _ _ _ _ _ _ _ _ _ _ _ _ _ _ _)
      isplitl [H3]; · iexists _; iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 25 := N_4; omega)

end Cert.KernelIdeal.Hand

end
-- ==== Proof.KI.Reg5.lean ====
import proofs.«177069_j18983755448416_1_alg».proof.Proof.Gen.KernelIdeal.Launch
import proofs.«177069_j18983755448416_1_alg».proof.Proof.Gen.KernelIdeal.Skeleton
import proofs.«177069_j18983755448416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5 of @main (normalize by the batch statistics, scale, shift, clamp below at zero; layer 2): the frame half, at any float instance

At a parameter `V` — the buffer contents when the region is entered — this module states what each
window's block is at a grid point, what the body leaves in the output window's buffer as a function of
the input blocks, the body's triple, the proof data of the pipeline and its body obligation. Every input
window's buffer holds its block at every point, whether the point fetches it or not: a window that is
fetched at the first point only keeps the same block index, so the block it was left with is still its
block. The body stores the whole output block once, so the buffer after the body is that one stored
value. -/

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point, fetched there or not, for any proof data
    whose array is `V`'s and whose body leaves the block in place: where the window is not fetched its block
    index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current buffer holds its block at every point, fetched there or not, for any proof data
    whose array is `V`'s and whose body leaves the block in place: where the window is not fetched its block
    index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current buffer holds its block at every point, fetched there or not, for any proof data
    whose array is `V`'s and whose body leaves the block in place: where the window is not fetched its block
    index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current buffer holds its block at every point, fetched there or not, for any proof data
    whose array is `V`'s and whose body leaves the block in place: where the window is not fetched its block
    index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current buffer holds its block at every point, fetched there or not, for any proof data
    whose array is `V`'s and whose body leaves the block in place: where the window is not fetched its block
    index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read or written whole -/

abbrev r5_0 : Rect S2000x64 := Rect.unit (s := S2000x64) ![0, 0] S2000x64.size inb_S2000x64_S2000x64_0_0
abbrev r5_1 : Rect S1x64 := Rect.unit (s := S1x64) ![0, 0] S1x64.size inb_S1x64_S1x64_0_0

/-! ## What the body leaves in the output window's buffer -/

/-- Window 5's buffer after the body, from the input windows' blocks: the one stored value. -/
def out5_5 (x0 : Vec F S2000x64 .f32) (x1 : Vec F S1x64 .f32) (x2 : Vec F S1x64 .f32) (x3 : Vec F S1x64 .f32) (x4 : Vec F S1x64 .f32) : Vec F S2000x64 .f32 :=
  View.canon [⟨r5_0, k5_pay1 (View.ld x1 r5_1) (View.ld x2 r5_1) (View.ld x0 r5_0) (View.ld x3 r5_1) (View.ld x4 r5_1)⟩]

/-- The one store covers the buffer. -/
theorem cover5_5 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

/-! ## The body's triple -/

set_option maxHeartbeats 1000000 in
/-- The kernel body on whole buffers, the inputs' at contents `xW` and the output's at anything, runs to the
    continuation holding the inputs' as they were and the output's at `out5_5` of the inputs'. -/
theorem sound_kernel5 (c : Dev nD) (E : Set ℕ) (i : grid5.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them; after the body at point `t`
    each input's buffer at its block and the output's at `out5_5` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«177069_j18983755448416_1_alg».proof.Proof.Gen.KernelIdeal.Launch
import proofs.«177069_j18983755448416_1_alg».proof.Proof.Gen.KernelIdeal.Skeleton
import proofs.«177069_j18983755448416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6 of @main (the node transform of layer 3): the body half of its frame

The kernel reads a block of 2000 rows of the layer's input, the whole weight, the bias row and the whole
cross basis, and stores two blocks: h = x · W + b (2000 × 64) and T = h · Mt (2000 × 1024). It keeps
nothing between grid points. Everything here is stated at a parameter V, the buffer contents when the
region is entered, and at any float instance F. -/

-- membership in a rectangle of 2000 × 1024 entries recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether it was fetched there or not
    (not fetched means its block index has not moved), for any proof data whose array is `V`'s and whose body
    leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, whether it was fetched there or not
    (not fetched means its block index has not moved), for any proof data whose array is `V`'s and whose body
    leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, whether it was fetched there or not
    (not fetched means its block index has not moved), for any proof data whose array is `V`'s and whose body
    leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, whether it was fetched there or not
    (not fetched means its block index has not moved), for any proof data whose array is `V`'s and whose body
    leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each staging buffer is read and written whole -/

abbrev r6_0 : Rect S2000x64 := Rect.unit (s := S2000x64) ![0, 0] S2000x64.size inb_S2000x64_S2000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0
abbrev r6_3 : Rect S64x1024 := Rect.unit (s := S64x1024) ![0, 0] S64x1024.size inb_S64x1024_S64x1024_0_0
abbrev r6_4 : Rect S2000x64 := Rect.unit (s := S2000x64) ![0, 0] S2000x64.size inb_S2000x64_S2000x64_0_0
abbrev r6_5 : Rect S2000x1024 := Rect.unit (s := S2000x1024) ![0, 0] S2000x1024.size inb_S2000x1024_S2000x1024_0_0

/-! ## What the body leaves in each output window's buffer -/

/-- Window 4's staging buffer after the body, from the input windows' blocks: the block of h. -/
def out6_4 (x0 : Vec F S2000x64 .f32) (x1 : Vec F S64x64 .f32) (x2 : Vec F S1x64 .f32) (x3 : Vec F S64x1024 .f32) : Vec F S2000x64 .f32 :=
  View.canon [⟨r6_4, k6_pay1 (View.ld x0 r6_0) (View.ld x1 r6_1) (View.ld x2 r6_2)⟩]

/-- Its one store covers the buffer. -/
theorem cover6_4 (p0 : Vec F S2000x64 .f32) (y : S2000x64.Idx) :
    ∃ pc ∈ ([⟨r6_4, p0⟩] : List (View.Piece (Elt F) S2000x64 .f32)), y ∈ pc.1.set :=
  View.cover_of_tiled [⟨r6_4, p0⟩] S2000x64.size (by rfl) y

/-- Window 5's staging buffer after the body, from the input windows' blocks: the block of T. -/
def out6_5 (x0 : Vec F S2000x64 .f32) (x1 : Vec F S64x64 .f32) (x2 : Vec F S1x64 .f32) (x3 : Vec F S64x1024 .f32) : Vec F S2000x1024 .f32 :=
  View.canon [⟨r6_5, k6_pay2 (View.ld x0 r6_0) (View.ld x1 r6_1) (View.ld x2 r6_2) (View.ld x3 r6_3)⟩]

/-- Its one store covers the buffer. -/
theorem cover6_5 (p0 : Vec F S2000x1024 .f32) (y : S2000x1024.Idx) :
    ∃ pc ∈ ([⟨r6_5, p0⟩] : List (View.Piece (Elt F) S2000x1024 .f32)), y ∈ pc.1.set :=
  View.cover_of_tiled [⟨r6_5, p0⟩] S2000x1024.size (by rfl) y

/-! ## The body's triple -/

set_option maxHeartbeats 1000000 in
/-- The kernel body on whole staging memrefs, the inputs' at read contents `xW` and the outputs' at anything, runs to
    the continuation holding the inputs' as they were and each output's at `out6_W` of the inputs'. The grid
    coordinate is not read. -/
theorem sound_kernel6 (c : Dev nD) (E : Set ℕ) (i : grid6.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x1024 .f32) (harg4 : arg4.IsWhole)
    (arg5 : Memref sig .tc .vmem S2000x64 .f32) (harg5 : arg5.IsWhole) (arg6 : Memref sig .tc .vmem S2000x1024 .f32) (harg6 : arg6.IsWhole)
    (x0 : Vec F S2000x64 .f32) (x1 : Vec F S64x64 .f32) (x2 : Vec F S1x64 .f32) (x3 : Vec F S64x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3) ∗ owns (c : Thread nD τ) arg6 fullShare (out6_5 x0 x1 x2 x3)) -∗ K ⟨⟩))
      ⊢ wp frame (wpE (defs₀ (F := F)) Variants.none c none) E (cc6__node_transform_kernel i arg1 harg1 arg2 harg2 arg3 harg3 arg4 harg4 arg5 harg5 arg6 harg6) K := by
  simp only [cc6__node_transform_kernel_eq_skeleton]; unfold cc6__node_transform_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover6_4 _)
  iexists _; isplitr
  swap; · iexact H5
  ipureintro
  exact View.read_writes_eq_canon _ _ _ (cover6_5 _)

/-! ## The pipeline's proof data -/

/-- The proof data of pipeline 6 on core `c`: the arrays as the region finds them (`V`); after the body at
    point `t` each input's buffer at its block and each output's at `out6_W` of the input blocks; the invariant
    is the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
    | ⟨5, _⟩ => out6_5 (iblk6 V c 0 t) (iblk6 V c 1 t) (iblk6 V c 2 t) (iblk6 V c 3 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7Runs.lean ====
import proofs.«177069_j18983755448416_1_alg».proof.Proof.Gen.KernelIdeal.Launch
import proofs.«177069_j18983755448416_1_alg».proof.Proof.Gen.KernelIdeal.Skeleton
import proofs.«177069_j18983755448416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7 (the add-and-statistics kernel): what its three control cases share — the blocks of its windows at
the contents `V` the region is entered with, the two branch conditions in closed form over the grid (the first
point zeroes the two accumulators, the last point copies them out), where the two statistics windows are idle, and
the staging and scratch memrefs the case runs are stated over. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The first branch's condition (the point is the grid's first), from the grid coordinate. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 25 = 0 :=
  (by decide +kernel : ∀ t : Fin grid7.N, cond7_0 (grid7.coords t) ↔ t.val % 25 = 0)

/-- The second branch's condition (the point is the grid's last). -/
abbrev cond7_1 (i : grid7.Coords) : Prop := k7_cond2 i = 1#1
theorem hcond7_1 : ∀ t : Fin cfg7.N, cond7_1 (grid7.coords t) ↔ t.val % 25 = 24 :=
  (by decide +kernel : ∀ t : Fin grid7.N, cond7_1 (grid7.coords t) ↔ t.val % 25 = 24)

/-- Windows 0, 1, 2 are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel

/-- Away from the last point window 3 is idle and is not written back; at the last point it is live. -/
theorem idleAt7_3_A : ∀ t : Fin cfg7.N, cond7_0 (grid7.coords t) → ¬cond7_1 (grid7.coords t) → cfg7.idle 3 (grid7.coords t) = true := by decide +kernel
theorem noFlush7_3_A : ∀ t : Fin cfg7.N, cond7_0 (grid7.coords t) → ¬cond7_1 (grid7.coords t) → (cfg7.win 3).flush t = false := by decide +kernel
theorem idleAt7_3_B : ∀ t : Fin cfg7.N, ¬cond7_0 (grid7.coords t) → ¬cond7_1 (grid7.coords t) → cfg7.idle 3 (grid7.coords t) = true := by decide +kernel
theorem noFlush7_3_B : ∀ t : Fin cfg7.N, ¬cond7_0 (grid7.coords t) → ¬cond7_1 (grid7.coords t) → (cfg7.win 3).flush t = false := by decide +kernel
theorem liveAt7_3_C : ∀ t : Fin cfg7.N, ¬cond7_0 (grid7.coords t) → cond7_1 (grid7.coords t) → cfg7.idle 3 (grid7.coords t) = false := by decide +kernel

/-- Away from the last point window 4 is idle and is not written back; at the last point it is live. -/
theorem idleAt7_4_A : ∀ t : Fin cfg7.N, cond7_0 (grid7.coords t) → ¬cond7_1 (grid7.coords t) → cfg7.idle 4 (grid7.coords t) = true := by decide +kernel
theorem noFlush7_4_A : ∀ t : Fin cfg7.N, cond7_0 (grid7.coords t) → ¬cond7_1 (grid7.coords t) → (cfg7.win 4).flush t = false := by decide +kernel
theorem idleAt7_4_B : ∀ t : Fin cfg7.N, ¬cond7_0 (grid7.coords t) → ¬cond7_1 (grid7.coords t) → cfg7.idle 4 (grid7.coords t) = true := by decide +kernel
theorem noFlush7_4_B : ∀ t : Fin cfg7.N, ¬cond7_0 (grid7.coords t) → ¬cond7_1 (grid7.coords t) → (cfg7.win 4).flush t = false := by decide +kernel
theorem liveAt7_4_C : ∀ t : Fin cfg7.N, ¬cond7_0 (grid7.coords t) → cond7_1 (grid7.coords t) → cfg7.idle 4 (grid7.coords t) = false := by decide +kernel

/-- One staging buffer of each output window, through which its contents are stated. -/
abbrev VO7_2 : View sig .tc .vmem S2000x64 .f32 := (Memref.whole cc7_stg2_0 : Memref sig .tc .vmem S2000x64 .f32).view
abbrev VO7_3 : View sig .tc .vmem S1x64 .f32 := (Memref.whole cc7_stg3_0 : Memref sig .tc .vmem S1x64 .f32).view
abbrev VO7_4 : View sig .tc .vmem S1x64 .f32 := (Memref.whole cc7_stg4_0 : Memref sig .tc .vmem S1x64 .f32).view
abbrev ms7_0 (t : Fin cfg7.N) : Memref sig .tc .vmem S2000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2000x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2000x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)
/-- The two accumulators: whole scoped buffers of the kernel's own, carried from point to point. -/
abbrev scM7_0 : Memref sig .tc .vmem S1x64 .f32 := Memref.whole cc7_scratch0
abbrev scM7_1 : Memref sig .tc .vmem S1x64 .f32 := Memref.whole cc7_scratch1
abbrev VS7_0 : View sig .tc .vmem S1x64 .f32 := scM7_0.view
abbrev VS7_1 : View sig .tc .vmem S1x64 .f32 := scM7_1.view

/-- The scoped buffers this region never opens. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The region's invariant with the two accumulators split out as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d)) ∗ rest7 c) ∗ (∃ r, prngReg c r)) := by
  unfold Pipeline.ΦA; rw [scopedRest7_split]; simp only [scM7_0, scM7_1, owns_whole]; try rfl

end Cert.KernelIdeal.Hand

end
-- ==== Proof.KI.Reg7RunA.lean ====
import proofs.«177069_j18983755448416_1_alg».proof.Proof.KI.Reg7Runs

/-! Region 7: the whole body of the add-and-statistics kernel run at the grid's first point (the accumulators are zeroed, then added to), on whole staging memrefs.
The pieces each buffer ends with are what the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's first point (the accumulators are zeroed, then added to): from the inputs' memrefs at their blocks, the sum window's at anything, the idle statistics windows' at contents handed back untouched, the accumulators at anything, it runs to the continuation holding the
    inputs' as they were and every buffer it stored into with its pieces written. -/
noncomputable def kernelRun7_A (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc7__add_stats_kernel i arg1 harg1 arg2 harg2 arg3 harg3 arg4 harg4 arg5 harg5 arg6 harg6 arg7 harg7) K } := by
  refine ⟨?_, ?_, ?_, fun xi3 xi4 E K => ?run⟩
  case run =>
    simp only [cc7__add_stats_kernel_eq_skeleton]; unfold cc7__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, HS0⟩, ⟨%d6, %f6, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.Reg7RunB.lean ====
import proofs.«177069_j18983755448416_1_alg».proof.Proof.KI.Reg7RunA

/-! Region 7: the whole body of the add-and-statistics kernel run at a middle point (the accumulators are added to), on whole staging memrefs.
The pieces each buffer ends with are what the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a middle point (the accumulators are added to): from the inputs' memrefs at their blocks, the sum window's at anything, the idle statistics windows' at contents handed back untouched, the accumulators at what the point before left, it runs to the continuation holding the
    inputs' as they were and every buffer it stored into with its pieces written. -/
noncomputable def kernelRun7_B (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) :
    Σ' (L2 : List (View.Piece (Elt F) S2000x64 .f32)) (LS0 : List (View.Piece (Elt F) S1x64 .f32)), { LS1 : List (View.Piece (Elt F) S1x64 .f32) //
      ∀ (xi3 : Vec F S1x64 .f32) (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc7__add_stats_kernel i arg1 harg1 arg2 harg2 arg3 harg3 arg4 harg4 arg5 harg5 arg6 harg6 arg7 harg7) K } := by
  refine ⟨?_, ?_, ?_, fun xi3 xi4 E K => ?run⟩
  case run =>
    simp only [cc7__add_stats_kernel_eq_skeleton]; unfold cc7__add_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, HS0⟩, ⟨%f6, %hf6, HS1⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.Reg7RunC.lean ====
import proofs.«177069_j18983755448416_1_alg».proof.Proof.KI.Reg7RunB

/-! Region 7: the whole body of the add-and-statistics kernel run at the grid's last point (the accumulators are added to, then copied to the two statistics windows), on whole staging memrefs.
The pieces each buffer ends with are what the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's last point (the accumulators are added to, then copied to the two statistics windows): from the inputs' memrefs at their blocks, the sum window's at anything, the statistics windows' at anything, the accumulators at what the point before left, it runs to the continuation holding the
    inputs' as they were and every buffer it stored into with its pieces written. -/
noncomputable def kernelRun7_C (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) :
    Σ' (L2 : List (View.Piece (Elt F) S2000x64 .f32)) (L3 : List (View.Piece (Elt F) S1x64 .f32)) (L4 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc7__add_stats_kernel i arg1 harg1 arg2 harg2 arg3 harg3 arg4 harg4 arg5 harg5 arg6 harg6 arg7 harg7) K } := by
  refine ⟨?_, ?_, ?_, ?_, ?_, fun E K => ?run⟩
  case run =>
    simp only [cc7__add_stats_kernel_eq_skeleton]; unfold cc7__add_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, HS0⟩, ⟨%f6, %hf6, HS1⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.KI.Reg7.lean ====
import proofs.«177069_j18983755448416_1_alg».proof.Proof.KI.Reg7RunC

/-! Region 7 (the add-and-statistics kernel), the frame half: what each control case leaves in the output windows'
staging buffers and in the two accumulators, these contents point by point (the accumulators are carried: a point
starts from what the point before left), the proof data of the pipeline at the entry contents `V`, the body
obligation, and the invariant's two ends. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Case A -/

/-- Case A's pieces for the sum window cover its block. -/
theorem cover7_A_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) (y : S2000x64.Idx) :
    ∃ pc ∈ (kernelRun7_A c i arg1 harg1 arg2 harg2 arg3 harg3 arg4 harg4 arg5 harg5 arg6 harg6 arg7 harg7 hc0 hc1 x0 x1).1, y ∈ pc.1.set :=
  View.cover_of_tiledL (kernelRun7_A c i arg1 harg1 arg2 harg2 arg3 harg3 arg4 harg4 arg5 harg5 arg6 harg6 arg7 harg7 hc0 hc1 x0 x1).1 S2000x64.size (by sl_kernel_rfl) y

/-- What case A leaves in the sum window's staging buffer. -/
def out7_A_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) : Vec F S2000x64 .f32 :=
  VO7_2.read (Elt F) (VO7_2.writes (Elt F) VO7_2.junk (kernelRun7_A c i arg1 harg1 arg2 harg2 arg3 harg3 arg4 harg4 arg5 harg5 arg6 harg6 arg7 harg7 hc0 hc1 x0 x1).1)

/-- Case A's pieces for the first accumulator cover it. -/
theorem scover7_A_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) (y : S1x64.Idx) :
    ∃ pc ∈ (kernelRun7_A c i arg1 harg1 arg2 harg2 arg3 harg3 arg4 harg4 arg5 harg5 arg6 harg6 arg7 harg7 hc0 hc1 x0 x1).2.1, y ∈ pc.1.set :=
  View.cover_of_tiledL (kernelRun7_A c i arg1 harg1 arg2 harg2 arg3 harg3 arg4 harg4 arg5 harg5 arg6 harg6 arg7 harg7 hc0 hc1 x0 x1).2.1 S1x64.size (by sl_kernel_rfl) y

/-- What case A leaves in the first accumulator. -/
def sout7_A_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 hc0 hc1 x0 x1).2.1)

/-- Case A's pieces for the second accumulator cover it. -/
theorem scover7_A_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) (y : S1x64.Idx) :
    ∃ pc ∈ (kernelRun7_A c i arg1 harg1 arg2 harg2 arg3 harg3 arg4 harg4 arg5 harg5 arg6 harg6 arg7 harg7 hc0 hc1 x0 x1).2.2.1, y ∈ pc.1.set :=
  View.cover_of_tiledL (kernelRun7_A c i arg1 harg1 arg2 harg2 arg3 harg3 arg4 harg4 arg5 harg5 arg6 harg6 arg7 harg7 hc0 hc1 x0 x1).2.2.1 S1x64.size (by sl_kernel_rfl) y

/-- What case A leaves in the second accumulator. -/
def sout7_A_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 : Vec F S2000x64 .f32) (x1 : Vec F S2000x64 .f32) : Vec F S1x64 .f32 :=
  VS7_1.read (Elt F) (VS7_1.writes (Elt F) VS7_1.junk (kernelRun7_A c i arg1 harg1 arg2 harg2 arg3 harg3 arg4 harg4 arg5 harg5 arg6 harg6 arg7 harg7 hc0 hc1 x0 x1).2.2.1)

/-! ## Case B -/

/-- Case B's pieces for the sum window cover its block. -/
theorem cover7_B_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) (y : S2000x64.Idx) :
    ∃ pc ∈ (kernelRun7_B c i arg1 harg1 arg2 harg2 arg3 harg3 arg4 harg4 arg5 harg5 arg6 harg6 arg7 harg7 hc0 hc1 x0 x1 xs0 xs1).1, y ∈ pc.1.set :=
  View.cover_of_tiledL (kernelRun7_B c i arg1 harg1 arg2 harg2 arg3 harg3 arg4 harg4 arg5 harg5 arg6 harg6 arg7 harg7 hc0 hc1 x0 x1 xs0 xs1).1 S2000x64.size (by sl_kernel_rfl) y

/-- What case B leaves in the sum window's staging buffer. -/
def out7_B_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) : Vec F S2000x64 .f32 :=
  VO7_2.read (Elt F) (VO7_2.writes (Elt F) VO7_2.junk (kernelRun7_B c i arg1 harg1 arg2 harg2 arg3 harg3 arg4 harg4 arg5 harg5 arg6 harg6 arg7 harg7 hc0 hc1 x0 x1 xs0 xs1).1)

/-- Case B's pieces for the first accumulator cover it. -/
theorem scover7_B_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 hc0 hc1 x0 x1 xs0 xs1).2.1, y ∈ pc.1.set :=
  View.cover_of_tiledL (kernelRun7_B c i arg1 harg1 arg2 harg2 arg3 harg3 arg4 harg4 arg5 harg5 arg6 harg6 arg7 harg7 hc0 hc1 x0 x1 xs0 xs1).2.1 S1x64.size (by sl_kernel_rfl) y

/-- What case B leaves in the first accumulator. -/
def sout7_B_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 hc0 hc1 x0 x1 xs0 xs1).2.1)

/-- Case B's pieces for the second accumulator cover it. -/
theorem scover7_B_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 hc0 hc1 x0 x1 xs0 xs1).2.2.1, y ∈ pc.1.set :=
  View.cover_of_tiledL (kernelRun7_B c i arg1 harg1 arg2 harg2 arg3 harg3 arg4 harg4 arg5 harg5 arg6 harg6 arg7 harg7 hc0 hc1 x0 x1 xs0 xs1).2.2.1 S1x64.size (by sl_kernel_rfl) y

/-- What case B leaves in the second accumulator. -/
def sout7_B_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 : Vec F S2000x64 .f32) (x1 : Vec F S2000x64 .f32) (xs0 : Vec F S1x64 .f32) (xs1 : Vec F S1x64 .f32) : Vec F S1x64 .f32 :=
  VS7_1.read (Elt F) (VS7_1.writes (Elt F) VS7_1.junk (kernelRun7_B c i arg1 harg1 arg2 harg2 arg3 harg3 arg4 harg4 arg5 harg5 arg6 harg6 arg7 harg7 hc0 hc1 x0 x1 xs0 xs1).2.2.1)

/-! ## Case C -/

/-- Case C's pieces for the sum window cover its block. -/
theorem cover7_C_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) (y : S2000x64.Idx) :
    ∃ pc ∈ (kernelRun7_C c i arg1 harg1 arg2 harg2 arg3 harg3 arg4 harg4 arg5 harg5 arg6 harg6 arg7 harg7 hc0 hc1 x0 x1 xs0 xs1).1, y ∈ pc.1.set :=
  View.cover_of_tiledL (kernelRun7_C c i arg1 harg1 arg2 harg2 arg3 harg3 arg4 harg4 arg5 harg5 arg6 harg6 arg7 harg7 hc0 hc1 x0 x1 xs0 xs1).1 S2000x64.size (by sl_kernel_rfl) y

/-- What case C leaves in the sum window's staging buffer. -/
def out7_C_2 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) : Vec F S2000x64 .f32 :=
  VO7_2.read (Elt F) (VO7_2.writes (Elt F) VO7_2.junk (kernelRun7_C c i arg1 harg1 arg2 harg2 arg3 harg3 arg4 harg4 arg5 harg5 arg6 harg6 arg7 harg7 hc0 hc1 x0 x1 xs0 xs1).1)

/-- Case C's pieces for statistics window 3 cover its block. -/
theorem cover7_C_3 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 hc0 hc1 x0 x1 xs0 xs1).2.1, y ∈ pc.1.set :=
  View.cover_of_tiledL (kernelRun7_C c i arg1 harg1 arg2 harg2 arg3 harg3 arg4 harg4 arg5 harg5 arg6 harg6 arg7 harg7 hc0 hc1 x0 x1 xs0 xs1).2.1 S1x64.size (by sl_kernel_rfl) y

/-- What case C leaves in statistics window 3's staging buffer. -/
def out7_C_3 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) : Vec F S1x64 .f32 :=
  VO7_3.read (Elt F) (VO7_3.writes (Elt F) VO7_3.junk (kernelRun7_C c i arg1 harg1 arg2 harg2 arg3 harg3 arg4 harg4 arg5 harg5 arg6 harg6 arg7 harg7 hc0 hc1 x0 x1 xs0 xs1).2.1)

/-- Case C's pieces for statistics window 4 cover its block. -/
theorem cover7_C_4 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 hc0 hc1 x0 x1 xs0 xs1).2.2.1, y ∈ pc.1.set :=
  View.cover_of_tiledL (kernelRun7_C c i arg1 harg1 arg2 harg2 arg3 harg3 arg4 harg4 arg5 harg5 arg6 harg6 arg7 harg7 hc0 hc1 x0 x1 xs0 xs1).2.2.1 S1x64.size (by sl_kernel_rfl) y

/-- What case C leaves in statistics window 4's staging buffer. -/
def out7_C_4 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) : Vec F S1x64 .f32 :=
  VO7_4.read (Elt F) (VO7_4.writes (Elt F) VO7_4.junk (kernelRun7_C c i arg1 harg1 arg2 harg2 arg3 harg3 arg4 harg4 arg5 harg5 arg6 harg6 arg7 harg7 hc0 hc1 x0 x1 xs0 xs1).2.2.1)

/-- Case C's pieces for the first accumulator cover it. -/
theorem scover7_C_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 hc0 hc1 x0 x1 xs0 xs1).2.2.2.1, y ∈ pc.1.set :=
  View.cover_of_tiledL (kernelRun7_C c i arg1 harg1 arg2 harg2 arg3 harg3 arg4 harg4 arg5 harg5 arg6 harg6 arg7 harg7 hc0 hc1 x0 x1 xs0 xs1).2.2.2.1 S1x64.size (by sl_kernel_rfl) y

/-- What case C leaves in the first accumulator. -/
def sout7_C_0 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) : Vec F S1x64 .f32 :=
  VS7_0.read (Elt F) (VS7_0.writes (Elt F) VS7_0.junk (kernelRun7_C c i arg1 harg1 arg2 harg2 arg3 harg3 arg4 harg4 arg5 harg5 arg6 harg6 arg7 harg7 hc0 hc1 x0 x1 xs0 xs1).2.2.2.1)

/-- Case C's pieces for the second accumulator cover it. -/
theorem scover7_C_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 hc0 hc1 x0 x1 xs0 xs1).2.2.2.2.1, y ∈ pc.1.set :=
  View.cover_of_tiledL (kernelRun7_C c i arg1 harg1 arg2 harg2 arg3 harg3 arg4 harg4 arg5 harg5 arg6 harg6 arg7 harg7 hc0 hc1 x0 x1 xs0 xs1).2.2.2.2.1 S1x64.size (by sl_kernel_rfl) y

/-- What case C leaves in the second accumulator. -/
def sout7_C_1 (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 : Vec F S2000x64 .f32) (x1 : Vec F S2000x64 .f32) (xs0 : Vec F S1x64 .f32) (xs1 : Vec F S1x64 .f32) : Vec F S1x64 .f32 :=
  VS7_1.read (Elt F) (VS7_1.writes (Elt F) VS7_1.junk (kernelRun7_C c i arg1 harg1 arg2 harg2 arg3 harg3 arg4 harg4 arg5 harg5 arg6 harg6 arg7 harg7 hc0 hc1 x0 x1 xs0 xs1).2.2.2.2.1)

/-- Where a statistics window is idle nothing is stored into it: a placeholder that nothing consults. -/
def idleOut7_3 : Vec F S1x64 .f32 := VO7_3.read (Elt F) (VO7_3.writes (Elt F) VO7_3.junk [])
def idleOut7_4 : Vec F S1x64 .f32 := VO7_4.read (Elt F) (VO7_4.writes (Elt F) VO7_4.junk [])

/-! ## What the outputs and the accumulators hold after each point -/

/-- After the body at position `n`: the sum window's staging buffer, the two statistics windows', and the two
    accumulators — the case the closed forms select at `n`, run at the point's memrefs and input blocks, the
    accumulators starting from what position `n - 1` left. -/
def outsAt7 (c : Dev nD) : (n : ℕ) → n < cfg7.N → Vec F S2000x64 .f32 × Vec F S1x64 .f32 × Vec F S1x64 .f32 × Vec F S1x64 .f32 × Vec F S1x64 .f32
  | 0, hn => (out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩), idleOut7_3, idleOut7_4, sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩))
  | n + 1, hn =>
    if h0 : (n + 1) % 25 = 0 then
      if h1 : (n + 1) % 25 = 24 then
        False.elim (by have hN : n + 1 < 25 := lt_of_lt_of_eq hn (show cfg7.N = 25 from N_7); omega)
      else
        (out7_A_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩), idleOut7_3, idleOut7_4, sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩), sout7_A_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩))
    else
      if h1 : (n + 1) % 25 = 24 then
        (out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2.2.1 (outsAt7 c n (Nat.lt_of_succ_lt hn)).2.2.2.2)
      else
        (out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, idleOut7_3, idleOut7_4, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.2.2.1 (outsAt7 c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.2.2.1 (outsAt7 c n (Nat.lt_of_succ_lt hn)).2.2.2.2)

/-- `outsAt7` at a point of case A. -/
theorem outsAt7_A (c : Dev nD) (t : Fin cfg7.N) (h0 : t.val % 25 = 0) (h1 : ¬t.val % 25 = 24) :
    outsAt7 V c t.val t.isLt = (out7_A_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) ((hcond7_0 t).mpr h0) (fun h => h1 ((hcond7_1 t).mp h)) (iblk7 V c 0 t) (iblk7 V c 1 t), idleOut7_3, idleOut7_4, sout7_A_0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) ((hcond7_0 t).mpr h0) (fun h => h1 ((hcond7_1 t).mp h)) (iblk7 V c 0 t) (iblk7 V c 1 t), sout7_A_1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) ((hcond7_0 t).mpr h0) (fun h => h1 ((hcond7_1 t).mp h)) (iblk7 V c 0 t) (iblk7 V c 1 t)) := by
  obtain ⟨n, hn⟩ := t
  cases n with
  | zero => exact rfl
  | succ n => exact (dif_pos h0).trans ((dif_neg h1).trans rfl)

/-- `outsAt7` at a point of case B: over what the point before left. -/
theorem outsAt7_B (c : Dev nD) (t : Fin cfg7.N) (h0 : ¬t.val % 25 = 0) (h1 : ¬t.val % 25 = 24) :
    outsAt7 V c t.val t.isLt = (out7_B_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, idleOut7_3, idleOut7_4, sout7_B_0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt7` at a point of case C: over what the point before left. -/
theorem outsAt7_C (c : Dev nD) (t : Fin cfg7.N) (h0 : ¬t.val % 25 = 0) (h1 : t.val % 25 = 24) :
    outsAt7 V c t.val t.isLt = (out7_C_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_3 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_4 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards each accumulator at what the point before left in it, the other scoped buffers unopened, and the
    generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare (outsAt7 V c n hn).2.2.2.1 ∗ owns (c : Thread nD τ) scM7_1 fullShare (outsAt7 V c n hn).2.2.2.2) ∗ rest7 c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (outsAt7 V c n hn).2.2.2.1 ∗ owns (c : Thread nD τ) scM7_1 fullShare (outsAt7 V c n hn).2.2.2.2) ∗ rest7 c) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (outsAt7 V c (n - 1) (by omega)).2.2.2.1 ∗ owns (c : Thread nD τ) scM7_1 fullShare (outsAt7 V c (n - 1) (by omega)).2.2.2.2) ∗ rest7 c) ∗ (∃ r, prngReg c r)) := by
  cases n with
  | zero => exact absurd rfl hz
  | succ n => rfl

/-! ## The pipeline's proof data -/

/-- The proof data of pipeline 7 on core `c`: the arrays as the region finds them; after the body at point `t`
    each input's buffer at its block and the outputs' at `outsAt7`; the invariant `PhiS7`; nothing owed;
    full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
    | ⟨3, _⟩ => (outsAt7 V c t.val t.isLt).2.1
    | ⟨4, _⟩ => (outsAt7 V c t.val t.isLt).2.2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]
theorem after7_3 (c : Dev nD) (t : Fin cfg7.N) : (dat7 V c).after 3 t = (outsAt7 V c t.val t.isLt).2.1 := by dsimp only [dat7]
theorem after7_4 (c : Dev nD) (t : Fin cfg7.N) : (dat7 V c).after 4 t = (outsAt7 V c t.val t.isLt).2.2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 4800000 in
/-- The body at any point: the inputs' memrefs hold their blocks; the closed forms say which case the point is in;
    the invariant hands the body the accumulators at what the point before left (at anything at the first point)
    and takes them back at this point's contents; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 25 := lt_of_lt_of_eq t.isLt (show cfg7.N = 25 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  by_cases h0 : t.val % 25 = 0
  · by_cases h1 : t.val % 25 = 24
    · exfalso; omega
    ·
      rw [Dat.leavesExact_idle (dat7 V c) 3 t (idleAt7_3_A t ((hcond7_0 t).mpr h0) (fun h => h1 ((hcond7_1 t).mp h))) (noFlush7_3_A t ((hcond7_0 t).mpr h0) (fun h => h1 ((hcond7_1 t).mp h)))]
      rw [Dat.leavesExact_idle (dat7 V c) 4 t (idleAt7_4_A t ((hcond7_0 t).mpr h0) (fun h => h1 ((hcond7_1 t).mp h))) (noFlush7_4_A t ((hcond7_0 t).mpr h0) (fun h => h1 ((hcond7_1 t).mp h)))]
      rw [outsAt7_A V c t h0 h1]
      unfold out7_A_2 sout7_A_0 sout7_A_1; (try dsimp only)
      have hz : t.val = 0 := by omega
      rw [PhiS7_castSucc V c t, PhiS7_zero V c _ _ hz, PhiA7_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun7_A c (grid7.coords t) _ _ _ _ _ _ _ _ _ _ _ _ _ _ ((hcond7_0 t).mpr h0) (fun h => h1 ((hcond7_1 t).mp h)) (iblk7 V c 0 t) (iblk7 V c 1 t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_A_0 c _ _ _ _ _ _ _ _ _ _ _ _ _ _ _ _ _ _ _)
            · unfold owns; iexists _; isplitr
              swap; · iexact HS1
              ipureintro; exact View.read_writes_of_cover _ _ _ _ _ (scover7_A_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover7_A_2 c _ _ _ _ _ _ _ _ _ _ _ _ _ _ _ _ _ _ _)
      isplitl [H3]; · iexists _; iexact H3
      iexists _; iexact H4

  · by_cases h1 : t.val % 25 = 24
    ·
      rw [show (dat7 V c).leavesExact 3 t = owns (c : Thread nD τ) (ms7_3 t) fullShare ((dat7 V c).after 3 t) from by
        unfold Dat.leavesExact; rw [liveAt7_3_C t (fun h => h0 ((hcond7_0 t).mp h)) ((hcond7_1 t).mpr h1)], after7_3]
      rw [show (dat7 V c).leavesExact 4 t = owns (c : Thread nD τ) (ms7_4 t) fullShare ((dat7 V c).after 4 t) from by
        unfold Dat.leavesExact; rw [liveAt7_4_C t (fun h => h0 ((hcond7_0 t).mp h)) ((hcond7_1 t).mpr h1)], after7_4]
      rw [outsAt7_C V c t h0 h1]
      unfold out7_C_2 out7_C_3 out7_C_4 sout7_C_0 sout7_C_1; (try dsimp only)
      have hz : t.val ≠ 0 := by omega
      rw [PhiS7_castSucc V c t, PhiS7_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun7_C c (grid7.coords t) _ _ _ _ _ _ _ _ _ _ _ _ _ _ (fun h => h0 ((hcond7_0 t).mp h)) ((hcond7_1 t).mpr h1) (iblk7 V c 0 t) (iblk7 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_C_0 c _ _ _ _ _ _ _ _ _ _ _ _ _ _ _ _ _ _ _ _ _)
            · unfold owns; iexists _; isplitr
              swap; · iexact HS1
              ipureintro; exact View.read_writes_of_cover _ _ _ _ _ (scover7_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover7_C_2 c _ _ _ _ _ _ _ _ _ _ _ _ _ _ _ _ _ _ _ _ _)
      isplitl [H3]
      · unfold owns; iexists _; isplitr
        swap; · iexact H3
        ipureintro; exact View.read_writes_of_cover _ _ _ _ _ (cover7_C_3 c _ _ _ _ _ _ _ _ _ _ _ _ _ _ _ _ _ _ _ _ _)
      unfold owns; iexists _; isplitr
      swap; · iexact H4
      ipureintro; exact View.read_writes_of_cover _ _ _ _ _ (cover7_C_4 c _ _ _ _ _ _ _ _ _ _ _ _ _ _ _ _ _ _ _ _ _)

    ·
      rw [Dat.leavesExact_idle (dat7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [Dat.leavesExact_idle (dat7 V c) 4 t (idleAt7_4_B t (fun h => h0 ((hcond7_0 t).mp h)) (fun h => h1 ((hcond7_1 t).mp h))) (noFlush7_4_B t (fun h => h0 ((hcond7_0 t).mp h)) (fun h => h1 ((hcond7_1 t).mp h)))]
      rw [outsAt7_B V c t h0 h1]
      unfold out7_B_2 sout7_B_0 sout7_B_1; (try dsimp only)
      have hz : t.val ≠ 0 := by omega
      rw [PhiS7_castSucc V c t, PhiS7_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun7_B c (grid7.coords t) _ _ _ _ _ _ _ _ _ _ _ _ _ _ (fun h => h0 ((hcond7_0 t).mp h)) (fun h => h1 ((hcond7_1 t).mp h)) (iblk7 V c 0 t) (iblk7 V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_B_0 c _ _ _ _ _ _ _ _ _ _ _ _ _ _ _ _ _ _ _ _ _)
            · unfold owns; iexists _; isplitr
              swap; · iexact HS1
              ipureintro; exact View.read_writes_of_cover _ _ _ _ _ (scover7_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover7_B_2 c _ _ _ _ _ _ _ _ _ _ _ _ _ _ _ _ _ _ _ _ _)
      isplitl [H3]; · iexists _; iexact H3
      iexists _; iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point the invariant gives the class's back: the accumulators' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 25 := N_7; omega)

end Cert.KernelIdeal.Hand

end
-- ==== Proof.KI.Reg8.lean ====
import proofs.«177069_j18983755448416_1_alg».proof.Proof.Gen.KernelIdeal.Launch
import proofs.«177069_j18983755448416_1_alg».proof.Proof.Gen.KernelIdeal.Skeleton
import proofs.«177069_j18983755448416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8 of @main (normalize by the batch statistics, scale, shift, clamp below at zero; layer 3): the frame half, at any float instance

At a parameter `V` — the buffer contents when the region is entered — this module states what each
window's block is at a grid point, what the body leaves in the output window's buffer as a function of
the input blocks, the body's triple, the proof data of the pipeline and its body obligation. Every input
window's buffer holds its block at every point, whether the point fetches it or not: a window that is
fetched at the first point only keeps the same block index, so the block it was left with is still its
block. The body stores the whole output block once, so the buffer after the body is that one stored
value. -/

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current buffer holds its block at every point, fetched there or not, for any proof data
    whose array is `V`'s and whose body leaves the block in place: where the window is not fetched its block
    index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current buffer holds its block at every point, fetched there or not, for any proof data
    whose array is `V`'s and whose body leaves the block in place: where the window is not fetched its block
    index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current buffer holds its block at every point, fetched there or not, for any proof data
    whose array is `V`'s and whose body leaves the block in place: where the window is not fetched its block
    index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current buffer holds its block at every point, fetched there or not, for any proof data
    whose array is `V`'s and whose body leaves the block in place: where the window is not fetched its block
    index has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current buffer holds its block at every point, fetched there or not, for any proof data
    whose array is `V`'s and whose body leaves the block in place: where the window is not fetched its block
    index has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read or written whole -/

abbrev r8_0 : Rect S2000x64 := Rect.unit (s := S2000x64) ![0, 0] S2000x64.size inb_S2000x64_S2000x64_0_0
abbrev r8_1 : Rect S1x64 := Rect.unit (s := S1x64) ![0, 0] S1x64.size inb_S1x64_S1x64_0_0

/-! ## What the body leaves in the output window's buffer -/

/-- Window 5's buffer after the body, from the input windows' blocks: the one stored value. -/
def out8_5 (x0 : Vec F S2000x64 .f32) (x1 : Vec F S1x64 .f32) (x2 : Vec F S1x64 .f32) (x3 : Vec F S1x64 .f32) (x4 : Vec F S1x64 .f32) : Vec F S2000x64 .f32 :=
  View.canon [⟨r8_0, k8_pay1 (View.ld x1 r8_1) (View.ld x2 r8_1) (View.ld x0 r8_0) (View.ld x3 r8_1) (View.ld x4 r8_1)⟩]

/-- The one store covers the buffer. -/
theorem cover8_5 (p0 : Vec F S2000x64 .f32) (y : S2000x64.Idx) :
    ∃ pc ∈ ([⟨r8_0, p0⟩] : List (View.Piece (Elt F) S2000x64 .f32)), y ∈ pc.1.set :=
  View.cover_of_tiled [⟨r8_0, p0⟩] S2000x64.size (by rfl) y

/-! ## The body's triple -/

set_option maxHeartbeats 1000000 in
/-- The kernel body on whole buffers, the inputs' at contents `xW` and the output's at anything, runs to the
    continuation holding the inputs' as they were and the output's at `out8_5` of the inputs'. -/
theorem sound_kernel8 (c : Dev nD) (E : Set ℕ) (i : grid8.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them; after the body at point `t`
    each input's buffer at its block and the output's at `out8_5` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
import proofs.«177069_j18983755448416_1_alg».proof.Proof.Gen.KernelIdeal.Launch
import proofs.«177069_j18983755448416_1_alg».proof.Proof.Gen.KernelIdeal.Skeleton
import proofs.«177069_j18983755448416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9 of @main (the final linear map to two outputs per node): the frame half, at any float instance

At a parameter `V` — the buffer contents when the region is entered — this module states what each
window's block is at a grid point, what the body leaves in the output window's buffer as a function of
the input blocks, the body's triple, the proof data of the pipeline and its body obligation. Every input
window's buffer holds its block at every point, whether the point fetches it or not: a window that is
fetched at the first point only keeps the same block index, so the block it was left with is still its
block. The body stores the whole output block once, so the buffer after the body is that one stored
value. -/

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current buffer holds its block at every point, fetched there or not, for any proof data
    whose array is `V`'s and whose body leaves the block in place: where the window is not fetched its block
    index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current buffer holds its block at every point, fetched there or not, for any proof data
    whose array is `V`'s and whose body leaves the block in place: where the window is not fetched its block
    index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current buffer holds its block at every point, fetched there or not, for any proof data
    whose array is `V`'s and whose body leaves the block in place: where the window is not fetched its block
    index has not moved. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer is read or written whole -/

abbrev r9_0 : Rect S2000x64 := Rect.unit (s := S2000x64) ![0, 0] S2000x64.size inb_S2000x64_S2000x64_0_0
abbrev r9_1 : Rect S64x2 := Rect.unit (s := S64x2) ![0, 0] S64x2.size inb_S64x2_S64x2_0_0
abbrev r9_2 : Rect S1x2 := Rect.unit (s := S1x2) ![0, 0] S1x2.size inb_S1x2_S1x2_0_0
abbrev r9_3 : Rect S2000x2 := Rect.unit (s := S2000x2) ![0, 0] S2000x2.size inb_S2000x2_S2000x2_0_0

/-! ## What the body leaves in the output window's buffer -/

/-- Window 3's buffer after the body, from the input windows' blocks: the one stored value. -/
def out9_3 (x0 : Vec F S2000x64 .f32) (x1 : Vec F S64x2 .f32) (x2 : Vec F S1x2 .f32) : Vec F S2000x2 .f32 :=
  View.canon [⟨r9_3, k9_pay1 (View.ld x0 r9_0) (View.ld x1 r9_1) (View.ld x2 r9_2)⟩]

/-- The one store covers the buffer. -/
theorem cover9_3 (p0 : Vec F S2000x2 .f32) (y : S2000x2.Idx) :
    ∃ pc ∈ ([⟨r9_3, p0⟩] : List (View.Piece (Elt F) S2000x2 .f32)), y ∈ pc.1.set :=
  View.cover_of_tiled [⟨r9_3, p0⟩] S2000x2.size (by rfl) y

/-! ## The body's triple -/

set_option maxHeartbeats 1000000 in
/-- The kernel body on whole buffers, the inputs' at contents `xW` and the output's at anything, runs to the
    continuation holding the inputs' as they were and the output's at `out9_3` of the inputs'. -/
theorem sound_kernel9 (c : Dev nD) (E : Set ℕ) (i : grid9.Coords) (arg1 : Memref sig .tc .vmem S2000x64 .f32) (harg1 : arg1.IsWhole) (arg2 : Memref sig .tc .vmem S64x2 .f32) (harg2 : arg2.IsWhole) (arg3 : Memref sig .tc .vmem S1x2 .f32) (harg3 : arg3.IsWhole) (arg4 : Memref sig .tc .vmem S2000x2 .f32) (harg4 : arg4.IsWhole)
    (x0 : Vec F S2000x64 .f32) (x1 : Vec F S64x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__final_linear_kernel i arg1 harg1 arg2 harg2 arg3 harg3 arg4 harg4) K := by
  simp only [cc9__final_linear_kernel_eq_skeleton]; unfold cc9__final_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them; after the body at point `t`
    each input's buffer at its block and the output's at `out9_3` of the input blocks; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Chain.lean ====
/-
  The buffer contents between the items of @main, as a fold from the launch memory: a host stretch
  applies its operations; a kernel region leaves its input arrays as entered and each output array at
  what its write-backs leave. Then every region's proof data at its entry contents, and what rides
  beside the buffers through every item.
-/
import proofs.«177069_j18983755448416_1_alg».proof.Proof.KI.Reg0
import proofs.«177069_j18983755448416_1_alg».proof.Proof.KI.Reg1
import proofs.«177069_j18983755448416_1_alg».proof.Proof.KI.Reg2
import proofs.«177069_j18983755448416_1_alg».proof.Proof.KI.Reg3
import proofs.«177069_j18983755448416_1_alg».proof.Proof.KI.Reg4
import proofs.«177069_j18983755448416_1_alg».proof.Proof.KI.Reg5
import proofs.«177069_j18983755448416_1_alg».proof.Proof.KI.Reg6
import proofs.«177069_j18983755448416_1_alg».proof.Proof.KI.Reg7
import proofs.«177069_j18983755448416_1_alg».proof.Proof.KI.Reg8
import proofs.«177069_j18983755448416_1_alg».proof.Proof.KI.Reg9
import proofs.«177069_j18983755448416_1_alg».proof.Proof.Gen.KernelIdeal.Regions
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- Before region 0: after the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Before region 1: after the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Before region 2: after the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Before region 3: after the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After region 3: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Before region 4: after the host stretch `hostOps4`. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- After region 4: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- Before region 5: after the host stretch `hostOps5`. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After region 5: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- Before region 6: after the host stretch `hostOps6`. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- After region 6: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- Before region 7: after the host stretch `hostOps7`. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- After region 7: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- Before region 8: after the host stretch `hostOps8`. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- After region 8: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- Before region 9: after the host stretch `hostOps9`. -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- After region 9: its arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-! ## The proof data family and what rides beside the buffers -/

/-- Every pipeline's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W20 m ρ c) ∗ ∃ r, prngReg c r)

end Cert.KernelIdeal.Hand

end
-- ==== Proof.KI.Seg0.lean ====
/-
  Region 0 of @main as a segment over the thread state "every unscoped buffer at the boundary's contents,
  the generator register at some state, nothing owed": its arrays split out of the unscoped buffers at
  entry and put back at their final contents at exit.
-/
import proofs.«177069_j18983755448416_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 of @main as a segment over the thread state "every unscoped buffer at the boundary's contents,
  the generator register at some state, nothing owed": its arrays split out of the unscoped buffers at
  entry and put back at their final contents at exit.
-/
import proofs.«177069_j18983755448416_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 of @main as a segment over the thread state "every unscoped buffer at the boundary's contents,
  the generator register at some state, nothing owed": its arrays split out of the unscoped buffers at
  entry and put back at their final contents at exit.
-/
import proofs.«177069_j18983755448416_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 3 of @main as a segment over the thread state "every unscoped buffer at the boundary's contents,
  the generator register at some state, nothing owed": its arrays split out of the unscoped buffers at
  entry and put back at their final contents at exit.
-/
import proofs.«177069_j18983755448416_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 4 of @main as a segment over the thread state "every unscoped buffer at the boundary's contents,
  the generator register at some state, nothing owed": its arrays split out of the unscoped buffers at
  entry and put back at their final contents at exit.
-/
import proofs.«177069_j18983755448416_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 4: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec4 c ⊢ (pdats m ρ 4 c).Φ 0 from hin4 (V9 m ρ) c)
    unfold Pipeline.ΦA
    iintro ⟨Hp, -, Hr⟩
    isplitl [Hr]; · iexact Hr
    iexact Hp
  hout c := by
    rw [Pipeline.ownSems0_none]
    refine BIBase.Entails.trans (show (pdats m ρ 4 c).Φ (Fin.last _) ⊢ Pipeline.ΦA spec4 c from hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/-
  Region 5 of @main as a segment over the thread state "every unscoped buffer at the boundary's contents,
  the generator register at some state, nothing owed": its arrays split out of the unscoped buffers at
  entry and put back at their final contents at exit.
-/
import proofs.«177069_j18983755448416_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 5: entered from every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
/-
  Region 6 of @main as a segment over the thread state "every unscoped buffer at the boundary's contents,
  the generator register at some state, nothing owed": its arrays split out of the unscoped buffers at
  entry and put back at their final contents at exit.
-/
import proofs.«177069_j18983755448416_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 6: entered from every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg7.lean ====
/-
  Region 7 of @main as a segment over the thread state "every unscoped buffer at the boundary's contents,
  the generator register at some state, nothing owed": its arrays split out of the unscoped buffers at
  entry and put back at their final contents at exit.
-/
import proofs.«177069_j18983755448416_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 7: entered from every unscoped buffer at `W15`, left at `W16`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec7 c ⊢ (pdats m ρ 7 c).Φ 0 from hin7 (V15 m ρ) c)
    unfold Pipeline.ΦA
    iintro ⟨Hp, -, Hr⟩
    isplitl [Hr]; · iexact Hr
    iexact Hp
  hout c := by
    rw [Pipeline.ownSems0_none]
    refine BIBase.Entails.trans (show (pdats m ρ 7 c).Φ (Fin.last _) ⊢ Pipeline.ΦA spec7 c from hout7 (V15 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg8.lean ====
/-
  Region 8 of @main as a segment over the thread state "every unscoped buffer at the boundary's contents,
  the generator register at some state, nothing owed": its arrays split out of the unscoped buffers at
  entry and put back at their final contents at exit.
-/
import proofs.«177069_j18983755448416_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 8: entered from every unscoped buffer at `W17`, left at `W18`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg9.lean ====
/-
  Region 9 of @main as a segment over the thread state "every unscoped buffer at the boundary's contents,
  the generator register at some state, nothing owed": its arrays split out of the unscoped buffers at
  entry and put back at their final contents at exit.
-/
import proofs.«177069_j18983755448416_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may
-- unfold plain definitions in a metavariable's type
set_option backward.isDefEq.respectTransparency.types false in
/-- Region 9: entered from every unscoped buffer at `W19`, left at `W20`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Args.lean ====
/-
  The arguments end as launched: no host operation writes an argument, and a region reads one through an
  input window or bypasses it, so the fold of the buffer contents at an argument walks back to the launch memory.
-/
import proofs.«177069_j18983755448416_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem W20_main_arg0 (c : Dev nD) : W20 m ρ c (Proc.devRef .tc main_arg0) = m ((c : Thread nD τ).loc main_arg0) :=
  calc W20 m ρ c (Proc.devRef .tc main_arg0)
    _ = W19 m ρ c (Proc.devRef .tc main_arg0) := W20_of_ne m ρ c main_arg0 (by decide)
    _ = W18 m ρ c (Proc.devRef .tc main_arg0) := StableHlo.after_of_writes_sub hostOps9 _ hostOps9_writes (by decide)
    _ = W17 m ρ c (Proc.devRef .tc main_arg0) := W18_of_ne m ρ c main_arg0 (by decide)
    _ = W16 m ρ c (Proc.devRef .tc main_arg0) := StableHlo.after_of_writes_sub hostOps8 _ hostOps8_writes (by decide)
    _ = W15 m ρ c (Proc.devRef .tc main_arg0) := W16_of_ne m ρ c main_arg0 (by decide)
    _ = W14 m ρ c (Proc.devRef .tc main_arg0) := StableHlo.after_of_writes_sub hostOps7 _ hostOps7_writes (by decide)
    _ = W13 m ρ c (Proc.devRef .tc main_arg0) := W14_of_ne m ρ c main_arg0 (by decide)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W20_main_arg1 (c : Dev nD) : W20 m ρ c (Proc.devRef .tc main_arg1) = m ((c : Thread nD τ).loc main_arg1) :=
  calc W20 m ρ c (Proc.devRef .tc main_arg1)
    _ = W19 m ρ c (Proc.devRef .tc main_arg1) := W20_of_ne m ρ c main_arg1 (by decide)
    _ = W18 m ρ c (Proc.devRef .tc main_arg1) := StableHlo.after_of_writes_sub hostOps9 _ hostOps9_writes (by decide)
    _ = W17 m ρ c (Proc.devRef .tc main_arg1) := W18_of_ne m ρ c main_arg1 (by decide)
    _ = W16 m ρ c (Proc.devRef .tc main_arg1) := StableHlo.after_of_writes_sub hostOps8 _ hostOps8_writes (by decide)
    _ = W15 m ρ c (Proc.devRef .tc main_arg1) := W16_of_ne m ρ c main_arg1 (by decide)
    _ = W14 m ρ c (Proc.devRef .tc main_arg1) := StableHlo.after_of_writes_sub hostOps7 _ hostOps7_writes (by decide)
    _ = W13 m ρ c (Proc.devRef .tc main_arg1) := W14_of_ne m ρ c main_arg1 (by decide)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W20_main_arg2 (c : Dev nD) : W20 m ρ c (Proc.devRef .tc main_arg2) = m ((c : Thread nD τ).loc main_arg2) :=
  calc W20 m ρ c (Proc.devRef .tc main_arg2)
    _ = W19 m ρ c (Proc.devRef .tc main_arg2) := W20_of_ne m ρ c main_arg2 (by decide)
    _ = W18 m ρ c (Proc.devRef .tc main_arg2) := StableHlo.after_of_writes_sub hostOps9 _ hostOps9_writes (by decide)
    _ = W17 m ρ c (Proc.devRef .tc main_arg2) := W18_of_ne m ρ c main_arg2 (by decide)
    _ = W16 m ρ c (Proc.devRef .tc main_arg2) := StableHlo.after_of_writes_sub hostOps8 _ hostOps8_writes (by decide)
    _ = W15 m ρ c (Proc.devRef .tc main_arg2) := W16_of_ne m ρ c main_arg2 (by decide)
    _ = W14 m ρ c (Proc.devRef .tc main_arg2) := StableHlo.after_of_writes_sub hostOps7 _ hostOps7_writes (by decide)
    _ = W13 m ρ c (Proc.devRef .tc main_arg2) := W14_of_ne m ρ c main_arg2 (by decide)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W20_main_arg3 (c : Dev nD) : W20 m ρ c (Proc.devRef .tc main_arg3) = m ((c : Thread nD τ).loc main_arg3) :=
  calc W20 m ρ c (Proc.devRef .tc main_arg3)
    _ = W19 m ρ c (Proc.devRef .tc main_arg3) := W20_of_ne m ρ c main_arg3 (by decide)
    _ = W18 m ρ c (Proc.devRef .tc main_arg3) := StableHlo.after_of_writes_sub hostOps9 _ hostOps9_writes (by decide)
    _ = W17 m ρ c (Proc.devRef .tc main_arg3) := W18_of_ne m ρ c main_arg3 (by decide)
    _ = W16 m ρ c (Proc.devRef .tc main_arg3) := StableHlo.after_of_writes_sub hostOps8 _ hostOps8_writes (by decide)
    _ = W15 m ρ c (Proc.devRef .tc main_arg3) := W16_of_ne m ρ c main_arg3 (by decide)
    _ = W14 m ρ c (Proc.devRef .tc main_arg3) := StableHlo.after_of_writes_sub hostOps7 _ hostOps7_writes (by decide)
    _ = W13 m ρ c (Proc.devRef .tc main_arg3) := W14_of_ne m ρ c main_arg3 (by decide)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W20_main_arg4 (c : Dev nD) : W20 m ρ c (Proc.devRef .tc main_arg4) = m ((c : Thread nD τ).loc main_arg4) :=
  calc W20 m ρ c (Proc.devRef .tc main_arg4)
    _ = W19 m ρ c (Proc.devRef .tc main_arg4) := W20_of_ne m ρ c main_arg4 (by decide)
    _ = W18 m ρ c (Proc.devRef .tc main_arg4) := StableHlo.after_of_writes_sub hostOps9 _ hostOps9_writes (by decide)
    _ = W17 m ρ c (Proc.devRef .tc main_arg4) := W18_of_ne m ρ c main_arg4 (by decide)
    _ = W16 m ρ c (Proc.devRef .tc main_arg4) := StableHlo.after_of_writes_sub hostOps8 _ hostOps8_writes (by decide)
    _ = W15 m ρ c (Proc.devRef .tc main_arg4) := W16_of_ne m ρ c main_arg4 (by decide)
    _ = W14 m ρ c (Proc.devRef .tc main_arg4) := StableHlo.after_of_writes_sub hostOps7 _ hostOps7_writes (by decide)
    _ = W13 m ρ c (Proc.devRef .tc main_arg4) := W14_of_ne m ρ c main_arg4 (by decide)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W20_main_arg5 (c : Dev nD) : W20 m ρ c (Proc.devRef .tc main_arg5) = m ((c : Thread nD τ).loc main_arg5) :=
  calc W20 m ρ c (Proc.devRef .tc main_arg5)
    _ = W19 m ρ c (Proc.devRef .tc main_arg5) := W20_of_ne m ρ c main_arg5 (by decide)
    _ = W18 m ρ c (Proc.devRef .tc main_arg5) := StableHlo.after_of_writes_sub hostOps9 _ hostOps9_writes (by decide)
    _ = W17 m ρ c (Proc.devRef .tc main_arg5) := W18_of_ne m ρ c main_arg5 (by decide)
    _ = W16 m ρ c (Proc.devRef .tc main_arg5) := StableHlo.after_of_writes_sub hostOps8 _ hostOps8_writes (by decide)
    _ = W15 m ρ c (Proc.devRef .tc main_arg5) := W16_of_ne m ρ c main_arg5 (by decide)
    _ = W14 m ρ c (Proc.devRef .tc main_arg5) := StableHlo.after_of_writes_sub hostOps7 _ hostOps7_writes (by decide)
    _ = W13 m ρ c (Proc.devRef .tc main_arg5) := W14_of_ne m ρ c main_arg5 (by decide)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W20_main_arg6 (c : Dev nD) : W20 m ρ c (Proc.devRef .tc main_arg6) = m ((c : Thread nD τ).loc main_arg6) :=
  calc W20 m ρ c (Proc.devRef .tc main_arg6)
    _ = W19 m ρ c (Proc.devRef .tc main_arg6) := W20_of_ne m ρ c main_arg6 (by decide)
    _ = W18 m ρ c (Proc.devRef .tc main_arg6) := StableHlo.after_of_writes_sub hostOps9 _ hostOps9_writes (by decide)
    _ = W17 m ρ c (Proc.devRef .tc main_arg6) := W18_of_ne m ρ c main_arg6 (by decide)
    _ = W16 m ρ c (Proc.devRef .tc main_arg6) := StableHlo.after_of_writes_sub hostOps8 _ hostOps8_writes (by decide)
    _ = W15 m ρ c (Proc.devRef .tc main_arg6) := W16_of_ne m ρ c main_arg6 (by decide)
    _ = W14 m ρ c (Proc.devRef .tc main_arg6) := StableHlo.after_of_writes_sub hostOps7 _ hostOps7_writes (by decide)
    _ = W13 m ρ c (Proc.devRef .tc main_arg6) := W14_of_ne m ρ c main_arg6 (by decide)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 1).trans (((dat0 (V1 m ρ) c).arrAt_in 1 rfl _).trans (A_eq0 (V1 m ρ) c 1))
    _ = W0 m ρ c (Proc.devRef .tc main_arg6) := StableHlo.after_of_writes_sub hostOps0 _ hostOps0_writes (by decide)
    _ = m ((c : Thread nD τ).loc main_arg6) := rfl

theorem W20_main_arg7 (c : Dev nD) : W20 m ρ c (Proc.devRef .tc main_arg7) = m ((c : Thread nD τ).loc main_arg7) :=
  calc W20 m ρ c (Proc.devRef .tc main_arg7)
    _ = W19 m ρ c (Proc.devRef .tc main_arg7) := W20_of_ne m ρ c main_arg7 (by decide)
    _ = W18 m ρ c (Proc.devRef .tc main_arg7) := StableHlo.after_of_writes_sub hostOps9 _ hostOps9_writes (by decide)
    _ = W17 m ρ c (Proc.devRef .tc main_arg7) := W18_of_ne m ρ c main_arg7 (by decide)
    _ = W16 m ρ c (Proc.devRef .tc main_arg7) := StableHlo.after_of_writes_sub hostOps8 _ hostOps8_writes (by decide)
    _ = W15 m ρ c (Proc.devRef .tc main_arg7) := W16_of_ne m ρ c main_arg7 (by decide)
    _ = W14 m ρ c (Proc.devRef .tc main_arg7) := StableHlo.after_of_writes_sub hostOps7 _ hostOps7_writes (by decide)
    _ = W13 m ρ c (Proc.devRef .tc main_arg7) := W14_of_ne m ρ c main_arg7 (by decide)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W20_main_arg8 (c : Dev nD) : W20 m ρ c (Proc.devRef .tc main_arg8) = m ((c : Thread nD τ).loc main_arg8) :=
  calc W20 m ρ c (Proc.devRef .tc main_arg8)
    _ = W19 m ρ c (Proc.devRef .tc main_arg8) := W20_of_ne m ρ c main_arg8 (by decide)
    _ = W18 m ρ c (Proc.devRef .tc main_arg8) := StableHlo.after_of_writes_sub hostOps9 _ hostOps9_writes (by decide)
    _ = W17 m ρ c (Proc.devRef .tc main_arg8) := W18_of_ne m ρ c main_arg8 (by decide)
    _ = W16 m ρ c (Proc.devRef .tc main_arg8) := StableHlo.after_of_writes_sub hostOps8 _ hostOps8_writes (by decide)
    _ = W15 m ρ c (Proc.devRef .tc main_arg8) := W16_of_ne m ρ c main_arg8 (by decide)
    _ = W14 m ρ c (Proc.devRef .tc main_arg8) := StableHlo.after_of_writes_sub hostOps7 _ hostOps7_writes (by decide)
    _ = W13 m ρ c (Proc.devRef .tc main_arg8) := W14_of_ne m ρ c main_arg8 (by decide)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W20_main_arg9 (c : Dev nD) : W20 m ρ c (Proc.devRef .tc main_arg9) = m ((c : Thread nD τ).loc main_arg9) :=
  calc W20 m ρ c (Proc.devRef .tc main_arg9)
    _ = W19 m ρ c (Proc.devRef .tc main_arg9) := W20_of_ne m ρ c main_arg9 (by decide)
    _ = W18 m ρ c (Proc.devRef .tc main_arg9) := StableHlo.after_of_writes_sub hostOps9 _ hostOps9_writes (by decide)
    _ = W17 m ρ c (Proc.devRef .tc main_arg9) := W18_of_ne m ρ c main_arg9 (by decide)
    _ = W16 m ρ c (Proc.devRef .tc main_arg9) := StableHlo.after_of_writes_sub hostOps8 _ hostOps8_writes (by decide)
    _ = W15 m ρ c (Proc.devRef .tc main_arg9) := W16_of_ne m ρ c main_arg9 (by decide)
    _ = W14 m ρ c (Proc.devRef .tc main_arg9) := StableHlo.after_of_writes_sub hostOps7 _ hostOps7_writes (by decide)
    _ = W13 m ρ c (Proc.devRef .tc main_arg9) := W14_of_ne m ρ c main_arg9 (by decide)
    _ = W12 m ρ c (Proc.devRef .tc main_arg9) := StableHlo.after_of_writes_sub hostOps6 _ hostOps6_writes (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W20_main_arg10 (c : Dev nD) : W20 m ρ c (Proc.devRef .tc main_arg10) = m ((c : Thread nD τ).loc main_arg10) :=
  calc W20 m ρ c (Proc.devRef .tc main_arg10)
    _ = W19 m ρ c (Proc.devRef .tc main_arg10) := W20_of_ne m ρ c main_arg10 (by decide)
    _ = W18 m ρ c (Proc.devRef .tc main_arg10) := StableHlo.after_of_writes_sub hostOps9 _ hostOps9_writes (by decide)
    _ = W17 m ρ c (Proc.devRef .tc main_arg10) := W18_of_ne m ρ c main_arg10 (by decide)
    _ = W16 m ρ c (Proc.devRef .tc main_arg10) := StableHlo.after_of_writes_sub hostOps8 _ hostOps8_writes (by decide)
    _ = W15 m ρ c (Proc.devRef .tc main_arg10) := W16_of_ne m ρ c main_arg10 (by decide)
    _ = W14 m ρ c (Proc.devRef .tc main_arg10) := StableHlo.after_of_writes_sub hostOps7 _ hostOps7_writes (by decide)
    _ = W13 m ρ c (Proc.devRef .tc main_arg10) := W14_of_ne m ρ c main_arg10 (by decide)
    _ = W12 m ρ c (Proc.devRef .tc main_arg10) := StableHlo.after_of_writes_sub hostOps6 _ hostOps6_writes (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := (W8_arr m ρ c 1).trans (((dat3 (V7 m ρ) c).arrAt_in 1 rfl _).trans (A_eq3 (V7 m ρ) c 1))
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W20_main_arg11 (c : Dev nD) : W20 m ρ c (Proc.devRef .tc main_arg11) = m ((c : Thread nD τ).loc main_arg11) :=
  calc W20 m ρ c (Proc.devRef .tc main_arg11)
    _ = W19 m ρ c (Proc.devRef .tc main_arg11) := W20_of_ne m ρ c main_arg11 (by decide)
    _ = W18 m ρ c (Proc.devRef .tc main_arg11) := StableHlo.after_of_writes_sub hostOps9 _ hostOps9_writes (by decide)
    _ = W17 m ρ c (Proc.devRef .tc main_arg11) := W18_of_ne m ρ c main_arg11 (by decide)
    _ = W16 m ρ c (Proc.devRef .tc main_arg11) := StableHlo.after_of_writes_sub hostOps8 _ hostOps8_writes (by decide)
    _ = W15 m ρ c (Proc.devRef .tc main_arg11) := W16_of_ne m ρ c main_arg11 (by decide)
    _ = W14 m ρ c (Proc.devRef .tc main_arg11) := StableHlo.after_of_writes_sub hostOps7 _ hostOps7_writes (by decide)
    _ = W13 m ρ c (Proc.devRef .tc main_arg11) := W14_of_ne m ρ c main_arg11 (by decide)
    _ = W12 m ρ c (Proc.devRef .tc main_arg11) := StableHlo.after_of_writes_sub hostOps6 _ hostOps6_writes (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W20_main_arg12 (c : Dev nD) : W20 m ρ c (Proc.devRef .tc main_arg12) = m ((c : Thread nD τ).loc main_arg12) :=
  calc W20 m ρ c (Proc.devRef .tc main_arg12)
    _ = W19 m ρ c (Proc.devRef .tc main_arg12) := W20_of_ne m ρ c main_arg12 (by decide)
    _ = W18 m ρ c (Proc.devRef .tc main_arg12) := StableHlo.after_of_writes_sub hostOps9 _ hostOps9_writes (by decide)
    _ = W17 m ρ c (Proc.devRef .tc main_arg12) := W18_of_ne m ρ c main_arg12 (by decide)
    _ = W16 m ρ c (Proc.devRef .tc main_arg12) := StableHlo.after_of_writes_sub hostOps8 _ hostOps8_writes (by decide)
    _ = W15 m ρ c (Proc.devRef .tc main_arg12) := W16_of_ne m ρ c main_arg12 (by decide)
    _ = W14 m ρ c (Proc.devRef .tc main_arg12) := StableHlo.after_of_writes_sub hostOps7 _ hostOps7_writes (by decide)
    _ = W13 m ρ c (Proc.devRef .tc main_arg12) := W14_of_ne m ρ c main_arg12 (by decide)
    _ = W12 m ρ c (Proc.devRef .tc main_arg12) := StableHlo.after_of_writes_sub hostOps6 _ hostOps6_writes (by decide)
    _ = W11 m ρ c (Proc.devRef .tc main_arg12) := W12_of_ne m ρ c main_arg12 (by decide)
    _ = W10 m ρ c (Proc.devRef .tc main_arg12) := StableHlo.after_of_writes_sub hostOps5 _ hostOps5_writes (by decide)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W20_main_arg13 (c : Dev nD) : W20 m ρ c (Proc.devRef .tc main_arg13) = m ((c : Thread nD τ).loc main_arg13) :=
  calc W20 m ρ c (Proc.devRef .tc main_arg13)
    _ = W19 m ρ c (Proc.devRef .tc main_arg13) := W20_of_ne m ρ c main_arg13 (by decide)
    _ = W18 m ρ c (Proc.devRef .tc main_arg13) := StableHlo.after_of_writes_sub hostOps9 _ hostOps9_writes (by decide)
    _ = W17 m ρ c (Proc.devRef .tc main_arg13) := W18_of_ne m ρ c main_arg13 (by decide)
    _ = W16 m ρ c (Proc.devRef .tc main_arg13) := StableHlo.after_of_writes_sub hostOps8 _ hostOps8_writes (by decide)
    _ = W15 m ρ c (Proc.devRef .tc main_arg13) := W16_of_ne m ρ c main_arg13 (by decide)
    _ = W14 m ρ c (Proc.devRef .tc main_arg13) := StableHlo.after_of_writes_sub hostOps7 _ hostOps7_writes (by decide)
    _ = W13 m ρ c (Proc.devRef .tc main_arg13) := W14_of_ne m ρ c main_arg13 (by decide)
    _ = W12 m ρ c (Proc.devRef .tc main_arg13) := StableHlo.after_of_writes_sub hostOps6 _ hostOps6_writes (by decide)
    _ = W11 m ρ c (Proc.devRef .tc main_arg13) := W12_of_ne m ρ c main_arg13 (by decide)
    _ = W10 m ρ c (Proc.devRef .tc main_arg13) := StableHlo.after_of_writes_sub hostOps5 _ hostOps5_writes (by decide)
    _ = W9 m ρ c (Proc.devRef .tc main_arg13) := W10_of_ne m ρ c main_arg13 (by decide)
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W20_main_arg14 (c : Dev nD) : W20 m ρ c (Proc.devRef .tc main_arg14) = m ((c : Thread nD τ).loc main_arg14) :=
  calc W20 m ρ c (Proc.devRef .tc main_arg14)
    _ = W19 m ρ c (Proc.devRef .tc main_arg14) := W20_of_ne m ρ c main_arg14 (by decide)
    _ = W18 m ρ c (Proc.devRef .tc main_arg14) := StableHlo.after_of_writes_sub hostOps9 _ hostOps9_writes (by decide)
    _ = W17 m ρ c (Proc.devRef .tc main_arg14) := W18_of_ne m ρ c main_arg14 (by decide)
    _ = W16 m ρ c (Proc.devRef .tc main_arg14) := StableHlo.after_of_writes_sub hostOps8 _ hostOps8_writes (by decide)
    _ = W15 m ρ c (Proc.devRef .tc main_arg14) := W16_of_ne m ρ c main_arg14 (by decide)
    _ = W14 m ρ c (Proc.devRef .tc main_arg14) := StableHlo.after_of_writes_sub hostOps7 _ hostOps7_writes (by decide)
    _ = W13 m ρ c (Proc.devRef .tc main_arg14) := (W14_arr m ρ c 1).trans (((dat6 (V13 m ρ) c).arrAt_in 1 rfl _).trans (A_eq6 (V13 m ρ) c 1))
    _ = W12 m ρ c (Proc.devRef .tc main_arg14) := StableHlo.after_of_writes_sub hostOps6 _ hostOps6_writes (by decide)
    _ = W11 m ρ c (Proc.devRef .tc main_arg14) := W12_of_ne m ρ c main_arg14 (by decide)
    _ = W10 m ρ c (Proc.devRef .tc main_arg14) := StableHlo.after_of_writes_sub hostOps5 _ hostOps5_writes (by decide)
    _ = W9 m ρ c (Proc.devRef .tc main_arg14) := W10_of_ne m ρ c main_arg14 (by decide)
    _ = W8 m ρ c (Proc.devRef .tc main_arg14) := StableHlo.after_of_writes_sub hostOps4 _ hostOps4_writes (by decide)
    _ = W7 m ρ c (Proc.devRef .tc main_arg14) := W8_of_ne m ρ c main_arg14 (by decide)
    _ = W6 m ρ c (Proc.devRef .tc main_arg14) := StableHlo.after_of_writes_sub hostOps3 _ hostOps3_writes (by decide)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W20_main_arg15 (c : Dev nD) : W20 m ρ c (Proc.devRef .tc main_arg15) = m ((c : Thread nD τ).loc main_arg15) :=
  calc W20 m ρ c (Proc.devRef .tc main_arg15)
    _ = W19 m ρ c (Proc.devRef .tc main_arg15) := W20_of_ne m ρ c main_arg15 (by decide)
    _ = W18 m ρ c (Proc.devRef .tc main_arg15) := StableHlo.after_of_writes_sub hostOps9 _ hostOps9_writes (by decide)
    _ = W17 m ρ c (Proc.devRef .tc main_arg15) := W18_of_ne m ρ c main_arg15 (by decide)
    _ = W16 m ρ c (Proc.devRef .tc main_arg15) := StableHlo.after_of_writes_sub hostOps8 _ hostOps8_writes (by decide)
    _ = W15 m ρ c (Proc.devRef .tc main_arg15) := W16_of_ne m ρ c main_arg15 (by decide)
    _ = W14 m ρ c (Proc.devRef .tc main_arg15) := StableHlo.after_of_writes_sub hostOps7 _ hostOps7_writes (by decide)
    _ = W13 m ρ c (Proc.devRef .tc main_arg15) := W14_of_ne m ρ c main_arg15 (by decide)
    _ = W12 m ρ c (Proc.devRef .tc main_arg15) := StableHlo.after_of_writes_sub hostOps6 _ hostOps6_writes (by decide)
    _ = W11 m ρ c (Proc.devRef .tc main_arg15) := W12_of_ne m ρ c main_arg15 (by decide)
    _ = W10 m ρ c (Proc.devRef .tc main_arg15) := StableHlo.after_of_writes_sub hostOps5 _ hostOps5_writes (by decide)
    _ = W9 m ρ c (Proc.devRef .tc main_arg15) := W10_of_ne m ρ c main_arg15 (by decide)
    _ = W8 m ρ c (Proc.devRef .tc main_arg15) := StableHlo.after_of_writes_sub hostOps4 _ hostOps4_writes (by decide)
    _ = W7 m ρ c (Proc.devRef .tc main_arg15) := W8_of_ne m ρ c main_arg15 (by decide)
    _ = W6 m ρ c (Proc.devRef .tc main_arg15) := StableHlo.after_of_writes_sub hostOps3 _ hostOps3_writes (by decide)
    _ = W5 m ρ c (Proc.devRef .tc main_arg15) := W6_of_ne m ρ c main_arg15 (by decide)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

theorem W20_main_arg16 (c : Dev nD) : W20 m ρ c (Proc.devRef .tc main_arg16) = m ((c : Thread nD τ).loc main_arg16) :=
  calc W20 m ρ c (Proc.devRef .tc main_arg16)
    _ = W19 m ρ c (Proc.devRef .tc main_arg16) := W20_of_ne m ρ c main_arg16 (by decide)
    _ = W18 m ρ c (Proc.devRef .tc main_arg16) := StableHlo.after_of_writes_sub hostOps9 _ hostOps9_writes (by decide)
    _ = W17 m ρ c (Proc.devRef .tc main_arg16) := W18_of_ne m ρ c main_arg16 (by decide)
    _ = W16 m ρ c (Proc.devRef .tc main_arg16) := StableHlo.after_of_writes_sub hostOps8 _ hostOps8_writes (by decide)
    _ = W15 m ρ c (Proc.devRef .tc main_arg16) := W16_of_ne m ρ c main_arg16 (by decide)
    _ = W14 m ρ c (Proc.devRef .tc main_arg16) := StableHlo.after_of_writes_sub hostOps7 _ hostOps7_writes (by decide)
    _ = W13 m ρ c (Proc.devRef .tc main_arg16) := W14_of_ne m ρ c main_arg16 (by decide)
    _ = W12 m ρ c (Proc.devRef .tc main_arg16) := StableHlo.after_of_writes_sub hostOps6 _ hostOps6_writes (by decide)
    _ = W11 m ρ c (Proc.devRef .tc main_arg16) := W12_of_ne m ρ c main_arg16 (by decide)
    _ = W10 m ρ c (Proc.devRef .tc main_arg16) := StableHlo.after_of_writes_sub hostOps5 _ hostOps5_writes (by decide)
    _ = W9 m ρ c (Proc.devRef .tc main_arg16) := W10_of_ne m ρ c main_arg16 (by decide)
    _ = W8 m ρ c (Proc.devRef .tc main_arg16) := StableHlo.after_of_writes_sub hostOps4 _ hostOps4_writes (by decide)
    _ = W7 m ρ c (Proc.devRef .tc main_arg16) := W8_of_ne m ρ c main_arg16 (by decide)
    _ = W6 m ρ c (Proc.devRef .tc main_arg16) := StableHlo.after_of_writes_sub hostOps3 _ hostOps3_writes (by decide)
    _ = W5 m ρ c (Proc.devRef .tc main_arg16) := W6_of_ne m ρ c main_arg16 (by decide)
    _ = W4 m ρ c (Proc.devRef .tc main_arg16) := StableHlo.after_of_writes_sub hostOps2 _ hostOps2_writes (by decide)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

theorem W20_main_arg17 (c : Dev nD) : W20 m ρ c (Proc.devRef .tc main_arg17) = m ((c : Thread nD τ).loc main_arg17) :=
  calc W20 m ρ c (Proc.devRef .tc main_arg17)
    _ = W19 m ρ c (Proc.devRef .tc main_arg17) := W20_of_ne m ρ c main_arg17 (by decide)
    _ = W18 m ρ c (Proc.devRef .tc main_arg17) := StableHlo.after_of_writes_sub hostOps9 _ hostOps9_writes (by decide)
    _ = W17 m ρ c (Proc.devRef .tc main_arg17) := W18_of_ne m ρ c main_arg17 (by decide)
    _ = W16 m ρ c (Proc.devRef .tc main_arg17) := StableHlo.after_of_writes_sub hostOps8 _ hostOps8_writes (by decide)
    _ = W15 m ρ c (Proc.devRef .tc main_arg17) := W16_of_ne m ρ c main_arg17 (by decide)
    _ = W14 m ρ c (Proc.devRef .tc main_arg17) := StableHlo.after_of_writes_sub hostOps7 _ hostOps7_writes (by decide)
    _ = W13 m ρ c (Proc.devRef .tc main_arg17) := W14_of_ne m ρ c main_arg17 (by decide)
    _ = W12 m ρ c (Proc.devRef .tc main_arg17) := StableHlo.after_of_writes_sub hostOps6 _ hostOps6_writes (by decide)
    _ = W11 m ρ c (Proc.devRef .tc main_arg17) := W12_of_ne m ρ c main_arg17 (by decide)
    _ = W10 m ρ c (Proc.devRef .tc main_arg17) := StableHlo.after_of_writes_sub hostOps5 _ hostOps5_writes (by decide)
    _ = W9 m ρ c (Proc.devRef .tc main_arg17) := W10_of_ne m ρ c main_arg17 (by decide)
    _ = W8 m ρ c (Proc.devRef .tc main_arg17) := StableHlo.after_of_writes_sub hostOps4 _ hostOps4_writes (by decide)
    _ = W7 m ρ c (Proc.devRef .tc main_arg17) := W8_of_ne m ρ c main_arg17 (by decide)
    _ = W6 m ρ c (Proc.devRef .tc main_arg17) := StableHlo.after_of_writes_sub hostOps3 _ hostOps3_writes (by decide)
    _ = W5 m ρ c (Proc.devRef .tc main_arg17) := W6_of_ne m ρ c main_arg17 (by decide)
    _ = W4 m ρ c (Proc.devRef .tc main_arg17) := StableHlo.after_of_writes_sub hostOps2 _ hostOps2_writes (by decide)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

theorem W20_main_arg18 (c : Dev nD) : W20 m ρ c (Proc.devRef .tc main_arg18) = m ((c : Thread nD τ).loc main_arg18) :=
  calc W20 m ρ c (Proc.devRef .tc main_arg18)
    _ = W19 m ρ c (Proc.devRef .tc main_arg18) := (W20_arr m ρ c 1).trans (((dat9 (V19 m ρ) c).arrAt_in 1 rfl _).trans (A_eq9 (V19 m ρ) c 1))
    _ = W18 m ρ c (Proc.devRef .tc main_arg18) := StableHlo.after_of_writes_sub hostOps9 _ hostOps9_writes (by decide)
    _ = W17 m ρ c (Proc.devRef .tc main_arg18) := W18_of_ne m ρ c main_arg18 (by decide)
    _ = W16 m ρ c (Proc.devRef .tc main_arg18) := StableHlo.after_of_writes_sub hostOps8 _ hostOps8_writes (by decide)
    _ = W15 m ρ c (Proc.devRef .tc main_arg18) := W16_of_ne m ρ c main_arg18 (by decide)
    _ = W14 m ρ c (Proc.devRef .tc main_arg18) := StableHlo.after_of_writes_sub hostOps7 _ hostOps7_writes (by decide)
    _ = W13 m ρ c (Proc.devRef .tc main_arg18) := W14_of_ne m ρ c main_arg18 (by decide)
    _ = W12 m ρ c (Proc.devRef .tc main_arg18) := StableHlo.after_of_writes_sub hostOps6 _ hostOps6_writes (by decide)
    _ = W11 m ρ c (Proc.devRef .tc main_arg18) := W12_of_ne m ρ c main_arg18 (by decide)
    _ = W10 m ρ c (Proc.devRef .tc main_arg18) := StableHlo.after_of_writes_sub hostOps5 _ hostOps5_writes (by decide)
    _ = W9 m ρ c (Proc.devRef .tc main_arg18) := W10_of_ne m ρ c main_arg18 (by decide)
    _ = W8 m ρ c (Proc.devRef .tc main_arg18) := StableHlo.after_of_writes_sub hostOps4 _ hostOps4_writes (by decide)
    _ = W7 m ρ c (Proc.devRef .tc main_arg18) := W8_of_ne m ρ c main_arg18 (by decide)
    _ = W6 m ρ c (Proc.devRef .tc main_arg18) := StableHlo.after_of_writes_sub hostOps3 _ hostOps3_writes (by decide)
    _ = W5 m ρ c (Proc.devRef .tc main_arg18) := W6_of_ne m ρ c main_arg18 (by decide)
    _ = W4 m ρ c (Proc.devRef .tc main_arg18) := StableHlo.after_of_writes_sub hostOps2 _ hostOps2_writes (by decide)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

theorem W20_main_arg19 (c : Dev nD) : W20 m ρ c (Proc.devRef .tc main_arg19) = m ((c : Thread nD τ).loc main_arg19) :=
  calc W20 m ρ c (Proc.devRef .tc main_arg19)
    _ = W19 m ρ c (Proc.devRef .tc main_arg19) := W20_of_ne m ρ c main_arg19 (by decide)
    _ = W18 m ρ c (Proc.devRef .tc main_arg19) := StableHlo.after_of_writes_sub hostOps9 _ hostOps9_writes (by decide)
    _ = W17 m ρ c (Proc.devRef .tc main_arg19) := W18_of_ne m ρ c main_arg19 (by decide)
    _ = W16 m ρ c (Proc.devRef .tc main_arg19) := StableHlo.after_of_writes_sub hostOps8 _ hostOps8_writes (by decide)
    _ = W15 m ρ c (Proc.devRef .tc main_arg19) := W16_of_ne m ρ c main_arg19 (by decide)
    _ = W14 m ρ c (Proc.devRef .tc main_arg19) := StableHlo.after_of_writes_sub hostOps7 _ hostOps7_writes (by decide)
    _ = W13 m ρ c (Proc.devRef .tc main_arg19) := W14_of_ne m ρ c main_arg19 (by decide)
    _ = W12 m ρ c (Proc.devRef .tc main_arg19) := StableHlo.after_of_writes_sub hostOps6 _ hostOps6_writes (by decide)
    _ = W11 m ρ c (Proc.devRef .tc main_arg19) := W12_of_ne m ρ c main_arg19 (by decide)
    _ = W10 m ρ c (Proc.devRef .tc main_arg19) := StableHlo.after_of_writes_sub hostOps5 _ hostOps5_writes (by decide)
    _ = W9 m ρ c (Proc.devRef .tc main_arg19) := W10_of_ne m ρ c main_arg19 (by decide)
    _ = W8 m ρ c (Proc.devRef .tc main_arg19) := StableHlo.after_of_writes_sub hostOps4 _ hostOps4_writes (by decide)
    _ = W7 m ρ c (Proc.devRef .tc main_arg19) := W8_of_ne m ρ c main_arg19 (by decide)
    _ = W6 m ρ c (Proc.devRef .tc main_arg19) := StableHlo.after_of_writes_sub hostOps3 _ hostOps3_writes (by decide)
    _ = W5 m ρ c (Proc.devRef .tc main_arg19) := W6_of_ne m ρ c main_arg19 (by decide)
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl

end Cert.KernelIdeal.Hand

end
-- ==== Proof.KI.Run.lean ====
/-
  The run of @main: its twenty items in order — a host stretch, then a kernel region, ten times — composed
  by the launch theorem for programs of several regions. Every weakly fair execution terminates, nothing
  faulting, and every unscoped buffer ends at the last boundary's contents.
-/
import proofs.«177069_j18983755448416_1_alg».proof.Proof.KI.Seg0
import proofs.«177069_j18983755448416_1_alg».proof.Proof.KI.Seg1
import proofs.«177069_j18983755448416_1_alg».proof.Proof.KI.Seg2
import proofs.«177069_j18983755448416_1_alg».proof.Proof.KI.Seg3
import proofs.«177069_j18983755448416_1_alg».proof.Proof.KI.Seg4
import proofs.«177069_j18983755448416_1_alg».proof.Proof.KI.Seg5
import proofs.«177069_j18983755448416_1_alg».proof.Proof.KI.Seg6
import proofs.«177069_j18983755448416_1_alg».proof.Proof.KI.Seg7
import proofs.«177069_j18983755448416_1_alg».proof.Proof.KI.Seg8
import proofs.«177069_j18983755448416_1_alg».proof.Proof.KI.Seg9
import proofs.«177069_j18983755448416_1_alg».proof.Proof.KI.Args

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's twenty segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c),
    (h c _ (mem_uc main_arg6 (by decide))).trans (W20_main_arg6 m ρ c),
    (h c _ (mem_uc main_arg7 (by decide))).trans (W20_main_arg7 m ρ c),
    (h c _ (mem_uc main_arg8 (by decide))).trans (W20_main_arg8 m ρ c),
    (h c _ (mem_uc main_arg9 (by decide))).trans (W20_main_arg9 m ρ c),
    (h c _ (mem_uc main_arg10 (by decide))).trans (W20_main_arg10 m ρ c),
    (h c _ (mem_uc main_arg11 (by decide))).trans (W20_main_arg11 m ρ c),
    (h c _ (mem_uc main_arg12 (by decide))).trans (W20_main_arg12 m ρ c),
    (h c _ (mem_uc main_arg13 (by decide))).trans (W20_main_arg13 m ρ c),
    (h c _ (mem_uc main_arg14 (by decide))).trans (W20_main_arg14 m ρ c),
    (h c _ (mem_uc main_arg15 (by decide))).trans (W20_main_arg15 m ρ c),
    (h c _ (mem_uc main_arg16 (by decide))).trans (W20_main_arg16 m ρ c),
    (h c _ (mem_uc main_arg17 (by decide))).trans (W20_main_arg17 m ρ c),
    (h c _ (mem_uc main_arg18 (by decide))).trans (W20_main_arg18 m ρ c),
    (h c _ (mem_uc main_arg19 (by decide))).trans (W20_main_arg19 m ρ c)⟩) (run_all m ρ)

end Cert.KernelIdeal.Hand

end
-- ==== Proof.Ref.Ops0.lean ====
import proofs.«177069_j18983755448416_1_alg».proof.Proof.Gen.ReferenceIdeal
import Idealize.ShloMosaic.Lib.StableHlo.Run

/-! The host operations of the first stretch of the reference program, listed in order (a called function's operations stand in its call's place, over that call's buffers), cut into consecutive pieces by what they compute; the stretch is the straight line of its list; every operation touches only TensorCore buffers, writes only the listed buffers and allocates none. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The basis re-laid as sixteen 64×64 blocks, and the combined block index of every edge: twice the label of the edge's target plus the label of its source, times four, plus the edge's own index (a negative node index is first moved up by the node count). -/
abbrev c0a : List (HloOp τ sig (Elt F)) :=
  [ reshape main_arg1 main_v0 rfl shapeCasts_S2x2x4x64x64_S16x64x64,
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg3 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v3 (broadcastInDim S800000 ![] bcast_S_S800000 : (⟨S_, .i32⟩ : BufTy).Contents (Elt F) → (⟨S800000, .i32⟩ : BufTy).Contents (Elt F)),
    binary main_arg3 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg3 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_arg4 main_v6 main_v7 ((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)),
    nullary main_c_1 (constantI S_ 32 2#32),
    unary main_c_1 main_v8 (broadcastInDim S800000 ![] bcast_S_S800000 : (⟨S_, .i32⟩ : BufTy).Contents (Elt F) → (⟨S800000, .i32⟩ : BufTy).Contents (Elt F)),
    binary main_v7 main_v8 main_v9 (muli : (⟨S800000, .i32⟩ : BufTy).Contents (Elt F) → (⟨S800000, .i32⟩ : BufTy).Contents (Elt F) → (⟨S800000, .i32⟩ : BufTy).Contents (Elt F)),
    nullary main_c_2 (constantI S_ 32 0#32),
    unary main_c_2 main_v10 (broadcastInDim S800000 ![] bcast_S_S800000 : (⟨S_, .i32⟩ : BufTy).Contents (Elt F) → (⟨S800000, .i32⟩ : BufTy).Contents (Elt F)),
    binary main_arg2 main_v10 main_v11 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v12 (broadcastInDim S800000 ![] bcast_S_S800000 : (⟨S_, .i32⟩ : BufTy).Contents (Elt F) → (⟨S800000, .i32⟩ : BufTy).Contents (Elt F)),
    binary main_arg2 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_arg2 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_arg4 main_v15 main_v16 ((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)),
    binary main_v9 main_v16 main_v17 (addi : (⟨S800000, .i32⟩ : BufTy).Contents (Elt F) → (⟨S800000, .i32⟩ : BufTy).Contents (Elt F) → (⟨S800000, .i32⟩ : BufTy).Contents (Elt F)),
    nullary main_c_4 (constantI S_ 32 4#32),
    unary main_c_4 main_v18 (broadcastInDim S800000 ![] bcast_S_S800000 : (⟨S_, .i32⟩ : BufTy).Contents (Elt F) → (⟨S800000, .i32⟩ : BufTy).Contents (Elt F)),
    binary main_v17 main_v18 main_v19 (muli : (⟨S800000, .i32⟩ : BufTy).Contents (Elt F) → (⟨S800000, .i32⟩ : BufTy).Contents (Elt F) → (⟨S800000, .i32⟩ : BufTy).Contents (Elt F)),
    binary main_v19 main_arg5 main_v20 (addi : (⟨S800000, .i32⟩ : BufTy).Contents (Elt F) → (⟨S800000, .i32⟩ : BufTy).Contents (Elt F) → (⟨S800000, .i32⟩ : BufTy).Contents (Elt F)) ]

/-- First layer up to its statistics: the affine map of the 128 input features, its products against the sixteen blocks, the rows gathered at (source, block index) of every edge, their sums scattered to the edges' targets, the sum of the two, and its column means. -/
abbrev c0b : List (HloOp τ sig (Elt F)) :=
  [ binary main_arg0 main_arg6 main_v21 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v22 (broadcastInDim S1x64 ![1] bcast_S64_S1x64_1 : (⟨S64, .f32⟩ : BufTy).Contents (Elt F) → (⟨S1x64, .f32⟩ : BufTy).Contents (Elt F)),
    unary main_v22 main_v23 (broadcastInDim S50000x64 ![0, 1] bcast_S1x64_S50000x64_0_1 : (⟨S1x64, .f32⟩ : BufTy).Contents (Elt F) → (⟨S50000x64, .f32⟩ : BufTy).Contents (Elt F)),
    binary main_v21 main_v23 main_v24 (addf : (⟨S50000x64, .f32⟩ : BufTy).Contents (Elt F) → (⟨S50000x64, .f32⟩ : BufTy).Contents (Elt F) → (⟨S50000x64, .f32⟩ : BufTy).Contents (Elt F)),
    binary main_v24 main_v0 main_v25 ((fun l r => Host.dotGeneral dot_S50000x64_S16x64x64_S50000x16x64_1_2_0_01_n_n none l r) : (⟨S50000x64, .f32⟩ : BufTy).Contents (Elt F) → (⟨S16x64x64, .f32⟩ : BufTy).Contents (Elt F) → (⟨S50000x16x64, .f32⟩ : BufTy).Contents (Elt F)),
    nullary main_c_5 (constantI S_ 32 0#32),
    unary main_c_5 main_v26 (broadcastInDim S800000 ![] bcast_S_S800000 : (⟨S_, .i32⟩ : BufTy).Contents (Elt F) → (⟨S800000, .i32⟩ : BufTy).Contents (Elt F)),
    binary main_arg2 main_v26 main_v27 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v28 (broadcastInDim S800000 ![] bcast_S_S800000 : (⟨S_, .i32⟩ : BufTy).Contents (Elt F) → (⟨S800000, .i32⟩ : BufTy).Contents (Elt F)),
    binary main_arg2 main_v28 main_v29 (addi : (⟨S800000, .i32⟩ : BufTy).Contents (Elt F) → (⟨S800000, .i32⟩ : BufTy).Contents (Elt F) → (⟨S800000, .i32⟩ : BufTy).Contents (Elt F)),
    ternary main_v27 main_v29 main_arg2 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    nullary main_c_7 (constantI S_ 32 0#32),
    unary main_c_7 main_v31 (broadcastInDim S800000 ![] bcast_S_S800000 : (⟨S_, .i32⟩ : BufTy).Contents (Elt F) → (⟨S800000, .i32⟩ : BufTy).Contents (Elt F)),
    binary main_v20 main_v31 main_v32 (cmpi .slt : (⟨S800000, .i32⟩ : BufTy).Contents (Elt F) → (⟨S800000, .i32⟩ : BufTy).Contents (Elt F) → (⟨S800000, .i1⟩ : BufTy).Contents (Elt F)),
    nullary main_c_8 (constantI S_ 32 16#32),
    unary main_c_8 main_v33 (broadcastInDim S800000 ![] bcast_S_S800000 : (⟨S_, .i32⟩ : BufTy).Contents (Elt F) → (⟨S800000, .i32⟩ : BufTy).Contents (Elt F)),
    binary main_v20 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v20 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v30 main_v36 (broadcastInDim S800000x1 ![0] bcast_S800000_S800000x1_0 : (⟨S800000, .i32⟩ : BufTy).Contents (Elt F) → (⟨S800000x1, .i32⟩ : BufTy).Contents (Elt F)),
    unary main_v35 main_v37 (broadcastInDim S800000x1 ![0] bcast_S800000_S800000x1_0 : (⟨S800000, .i32⟩ : BufTy).Contents (Elt F) → (⟨S800000x1, .i32⟩ : BufTy).Contents (Elt F)),
    binary main_v36 main_v37 main_v38 ((fun a b => concatenate S800000x2 1 [⟨S800000x1, a⟩, ⟨S800000x1, b⟩] concatenates_S800000x1_S800000x1_S800000x2_d1) : (⟨S800000x1, .i32⟩ : BufTy).Contents (Elt F) → (⟨S800000x1, .i32⟩ : BufTy).Contents (Elt F) → (⟨S800000x2, .i32⟩ : BufTy).Contents (Elt F)),
    binary main_v25 main_v38 main_v39 ((fun x i => Host.gather gather_S50000x16x64_S800000x2_S800000x64_1_01_n_n_01_1_1164 x i) : (⟨S50000x16x64, .f32⟩ : BufTy).Contents (Elt F) → (⟨S800000x2, .i32⟩ : BufTy).Contents (Elt F) → (⟨S800000x64, .f32⟩ : BufTy).Contents (Elt F)),
    nullary main_cst (constant S_ .f32 0x00000000#32),
    unary main_cst main_v40 (broadcastInDim S50000x64 ![] bcast_S_S50000x64 : (⟨S_, .f32⟩ : BufTy).Contents (Elt F) → (⟨S50000x64, .f32⟩ : BufTy).Contents (Elt F)),
    unary main_arg3 main_v41 (broadcastInDim S800000x1 ![0] bcast_S800000_S800000x1_0 : (⟨S800000, .i32⟩ : BufTy).Contents (Elt F) → (⟨S800000x1, .i32⟩ : BufTy).Contents (Elt F)),
    ternary main_v40 main_v41 main_v39 main_v42 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v24 main_v42 main_v43 (addf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x00000000#32),
    binary main_v43 main_cst_9 main_v44 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_10 (constant S_ .f32 0x47435000#32),
    unary main_cst_10 main_v45 (broadcastInDim S64 ![] bcast_S_S64 : (⟨S_, .f32⟩ : BufTy).Contents (Elt F) → (⟨S64, .f32⟩ : BufTy).Contents (Elt F)),
    binary main_v44 main_v45 main_v46 (Host.divf : (⟨S64, .f32⟩ : BufTy).Contents (Elt F) → (⟨S64, .f32⟩ : BufTy).Contents (Elt F) → (⟨S64, .f32⟩ : BufTy).Contents (Elt F)) ]

/-- The whole stretch: its pieces in order. -/
abbrev ops_part0 : List (HloOp τ sig (Elt F)) :=
  c0a ++ (c0b)

set_option maxRecDepth 8192 in
set_option maxHeartbeats 4000000 in
/-- The stretch is the straight line of its operations: the called functions unfolded at their calls and the sequencing re-associated, the two sides are one chain of steps. -/
theorem main_part0_eq (c : Dev nD) : main_part0 (F := F) c = seq ops_part0 := by
  simp only [main_part0, ops_part0, c0a, c0b, List.cons_append, List.nil_append, seq, bind_assoc, pure_bind]
  rfl

set_option maxRecDepth 8192 in
theorem c0a_sub : (c0a : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., binary_bufs_sub ..⟩

/-- The buffers the piece writes. -/
abbrev c0a_W : List (Ref sig .tc) := [main_v0, main_c, main_v1, main_v2, main_c_0, main_v3, main_v4, main_v5, main_v6, main_v7, main_c_1, main_v8, main_v9, main_c_2, main_v10, main_v11, main_c_3, main_v12, main_v13, main_v14, main_v15, main_v16, main_v17, main_c_4, main_v18, main_v19, main_v20]
set_option maxRecDepth 8192 in
theorem c0a_writes : (c0a : List (HloOp τ sig (Elt F))).Forall fun op => op.writes ⊆ (c0a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c0a_fresh : ∀ op ∈ (c0a : List (HloOp τ sig (Elt F))), op.fresh = ∅ := by
  intro _ h; (repeat (cases h with | head => rfl | tail _ h => ?_)); exact nomatch h

set_option maxRecDepth 8192 in
theorem c0b_sub : (c0b : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub ..⟩

/-- The buffers the piece writes. -/
abbrev c0b_W : List (Ref sig .tc) := [main_v21, main_v22, main_v23, main_v24, main_v25, main_c_5, main_v26, main_v27, main_c_6, main_v28, main_v29, main_v30, main_c_7, main_v31, main_v32, main_c_8, main_v33, main_v34, main_v35, main_v36, main_v37, main_v38, main_v39, main_cst, main_v40, main_v41, main_v42, main_v43, main_cst_9, main_v44, main_cst_10, main_v45, main_v46]
set_option maxRecDepth 8192 in
theorem c0b_writes : (c0b : List (HloOp τ sig (Elt F))).Forall fun op => op.writes ⊆ (c0b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c0b_fresh : ∀ op ∈ (c0b : List (HloOp τ sig (Elt F))), op.fresh = ∅ := by
  intro _ h; (repeat (cases h with | head => rfl | tail _ h => ?_)); exact nomatch h

end Cert.ReferenceIdeal.Hand

end
-- ==== Proof.Ref.Stages.lean ====
import proofs.«177069_j18983755448416_1_alg».proof.Proof.Gen.ReferenceIdeal
import Idealize.ShloMosaic.PureOps

/-! The stages of the reference computation as functions of whole arrays, each the composition of the library operations the program applies, in the program's own order and association: the shared index arithmetic, one layer's affine map, products against the blocks, gather, scatter-add and sum, the column statistics, the normalisation, and the final affine map; then the network as the three layers composed over the twenty argument arrays. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The basis array re-laid as sixteen 64×64 blocks. -/
def basis (M : (⟨S2x2x4x64x64, .f32⟩ : BufTy).Contents (Elt F)) : (⟨S16x64x64, .f32⟩ : BufTy).Contents (Elt F) :=
  (shapeCast S16x64x64 M shapeCasts_S2x2x4x64x64_S16x64x64)

/-- A node index with a negative value moved up by the node count (the indexing convention for negative indices). -/
def nodeIdx (i : (⟨S800000, .i32⟩ : BufTy).Contents (Elt F)) : (⟨S800000, .i32⟩ : BufTy).Contents (Elt F) :=
  (select (cmpi .slt i (broadcastInDim S800000 ![] bcast_S_S800000 (constantI S_ 32 0#32))) (addi i (broadcastInDim S800000 ![] bcast_S_S800000 (constantI S_ 32 50000#32))) i)

/-- The labels of the nodes an index vector names. -/
def labelAt (labels : (⟨S50000, .i32⟩ : BufTy).Contents (Elt F)) (i : (⟨S800000, .i32⟩ : BufTy).Contents (Elt F)) : (⟨S800000, .i32⟩ : BufTy).Contents (Elt F) :=
  (Host.gather gather_S50000_S800000x1_S800000_n_0_n_n_0_1_1 labels (broadcastInDim S800000x1 ![0] bcast_S800000_S800000x1_0 i))

/-- The block index of every edge: (2·label(target) + label(source))·4 + the edge's own index. -/
def combo (labels : (⟨S50000, .i32⟩ : BufTy).Contents (Elt F)) (src : (⟨S800000, .i32⟩ : BufTy).Contents (Elt F)) (dst : (⟨S800000, .i32⟩ : BufTy).Contents (Elt F)) (bidx : (⟨S800000, .i32⟩ : BufTy).Contents (Elt F)) : (⟨S800000, .i32⟩ : BufTy).Contents (Elt F) :=
  (addi (muli (addi (muli (labelAt labels (nodeIdx dst)) (broadcastInDim S800000 ![] bcast_S_S800000 (constantI S_ 32 2#32))) (labelAt labels (nodeIdx src))) (broadcastInDim S800000 ![] bcast_S_S800000 (constantI S_ 32 4#32))) bidx)

/-- A vector of 64 entries as a one-row array. -/
def row (v : (⟨S64, .f32⟩ : BufTy).Contents (Elt F)) : (⟨S1x64, .f32⟩ : BufTy).Contents (Elt F) :=
  (broadcastInDim S1x64 ![1] bcast_S64_S1x64_1 v)

/-- A one-row array repeated down all 50000 rows. -/
def rows (r : (⟨S1x64, .f32⟩ : BufTy).Contents (Elt F)) : (⟨S50000x64, .f32⟩ : BufTy).Contents (Elt F) :=
  (broadcastInDim S50000x64 ![0, 1] bcast_S1x64_S50000x64_0_1 r)

/-- The affine map of the 128 input features: x·W plus the bias row in every row. -/
def lin128 (x : (⟨S50000x128, .f32⟩ : BufTy).Contents (Elt F)) (W : (⟨S128x64, .f32⟩ : BufTy).Contents (Elt F)) (b : (⟨S64, .f32⟩ : BufTy).Contents (Elt F)) : (⟨S50000x64, .f32⟩ : BufTy).Contents (Elt F) :=
  (addf (Host.dotGeneral dot_S50000x128_S128x64_S50000x64_1_0_0_1_n_n none x W) (rows (row b)))

/-- The products of every row of h against each of the sixteen blocks, contracting the blocks' last axis. -/
def proj (h : (⟨S50000x64, .f32⟩ : BufTy).Contents (Elt F)) (B : (⟨S16x64x64, .f32⟩ : BufTy).Contents (Elt F)) : (⟨S50000x16x64, .f32⟩ : BufTy).Contents (Elt F) :=
  (Host.dotGeneral dot_S50000x64_S16x64x64_S50000x16x64_1_2_0_01_n_n none h B)

/-- A block index with a negative value moved up by sixteen. -/
def blockIdx (c : (⟨S800000, .i32⟩ : BufTy).Contents (Elt F)) : (⟨S800000, .i32⟩ : BufTy).Contents (Elt F) :=
  (select (cmpi .slt c (broadcastInDim S800000 ![] bcast_S_S800000 (constantI S_ 32 0#32))) (addi c (broadcastInDim S800000 ![] bcast_S_S800000 (constantI S_ 32 16#32))) c)

/-- The pair (source node, block index) of every edge, side by side. -/
def gidx (src : (⟨S800000, .i32⟩ : BufTy).Contents (Elt F)) (c : (⟨S800000, .i32⟩ : BufTy).Contents (Elt F)) : (⟨S800000x2, .i32⟩ : BufTy).Contents (Elt F) :=
  (concatenate S800000x2 1 [⟨S800000x1, (broadcastInDim S800000x1 ![0] bcast_S800000_S800000x1_0 (nodeIdx src))⟩, ⟨S800000x1, (broadcastInDim S800000x1 ![0] bcast_S800000_S800000x1_0 (blockIdx c))⟩] concatenates_S800000x1_S800000x1_S800000x2_d1)

/-- For every edge, the 64-entry row of T at its (source node, block index) pair. -/
def msg (T : (⟨S50000x16x64, .f32⟩ : BufTy).Contents (Elt F)) (gi : (⟨S800000x2, .i32⟩ : BufTy).Contents (Elt F)) : (⟨S800000x64, .f32⟩ : BufTy).Contents (Elt F) :=
  (Host.gather gather_S50000x16x64_S800000x2_S800000x64_1_01_n_n_01_1_1164 T gi)

/-- The rows of u added into a zero array at the rows the edges' targets name. -/
def agg (dst : (⟨S800000, .i32⟩ : BufTy).Contents (Elt F)) (u : (⟨S800000x64, .f32⟩ : BufTy).Contents (Elt F)) : (⟨S50000x64, .f32⟩ : BufTy).Contents (Elt F) :=
  (Host.scatterAdd scatter_S50000x64_S800000x1_S800000x64_1_0_0_1 (broadcastInDim S50000x64 ![] bcast_S_S50000x64 (constant S_ .f32 0x00000000#32)) (broadcastInDim S800000x1 ![0] bcast_S800000_S800000x1_0 dst) u)

/-- A layer before normalisation: h plus the sums, at every target node, of its incoming edges' rows of h's products against the blocks. -/
def pre (h : (⟨S50000x64, .f32⟩ : BufTy).Contents (Elt F)) (B : (⟨S16x64x64, .f32⟩ : BufTy).Contents (Elt F)) (src : (⟨S800000, .i32⟩ : BufTy).Contents (Elt F)) (c : (⟨S800000, .i32⟩ : BufTy).Contents (Elt F)) (dst : (⟨S800000, .i32⟩ : BufTy).Contents (Elt F)) : (⟨S50000x64, .f32⟩ : BufTy).Contents (Elt F) :=
  (addf h (agg dst (msg (proj h B) (gidx src c))))

/-- Column means: the column sums divided by 50000. -/
def colmean (o : (⟨S50000x64, .f32⟩ : BufTy).Contents (Elt F)) : (⟨S64, .f32⟩ : BufTy).Contents (Elt F) :=
  (Host.divf (Host.reduceAdd o (constant S_ .f32 0x00000000#32) reducesTo_S50000x64_S64_d0 h_S_) (broadcastInDim S64 ![] bcast_S_S64 (constant S_ .f32 0x47435000#32)))

/-- The column means as a one-row array (the column sums over 50000). -/
def varMean (o : (⟨S50000x64, .f32⟩ : BufTy).Contents (Elt F)) : (⟨S1x64, .f32⟩ : BufTy).Contents (Elt F) :=
  (Host.divf (row (Host.reduceAdd o (constant S_ .f32 0x00000000#32) reducesTo_S50000x64_S64_d0 h_S_)) (broadcastInDim S1x64 ![] bcast_S_S1x64 (constant S_ .f32 0x47435000#32)))

/-- The squared deviations of every entry from its column's mean. -/
def devsq (o : (⟨S50000x64, .f32⟩ : BufTy).Contents (Elt F)) : (⟨S50000x64, .f32⟩ : BufTy).Contents (Elt F) :=
  (mulf (subf o (rows (varMean o))) (subf o (rows (varMean o))))

/-- The divisor of the variance: 50000 less a correction of zero. -/
def nEff : (⟨S_, .f32⟩ : BufTy).Contents (Elt F) :=
  (subf (constant S_ .f32 0x47435000#32) (sitofp .f32 (constantI S_ 32 0#32)))

/-- Column variances: the column sums of squared deviations over the divisor, kept where the divisor is positive. -/
def colvar (o : (⟨S50000x64, .f32⟩ : BufTy).Contents (Elt F)) : (⟨S64, .f32⟩ : BufTy).Contents (Elt F) :=
  (select (broadcastInDim S64 ![] bcast_S_S64 (cmpf .ogt (nEff (F := F)) (constant S_ .f32 0x00000000#32))) (Host.divf (Host.reduceAdd (devsq o) (constant S_ .f32 0x00000000#32) reducesTo_S50000x64_S64_d0 h_S_) (broadcastInDim S64 ![] bcast_S_S64 (nEff (F := F)))) (broadcastInDim S64 ![] bcast_S_S64 (id (constant S_ .f32 0x7FC00000#32))))

/-- Every row less the row of means. -/
def centred (o : (⟨S50000x64, .f32⟩ : BufTy).Contents (Elt F)) (mu : (⟨S64, .f32⟩ : BufTy).Contents (Elt F)) : (⟨S50000x64, .f32⟩ : BufTy).Contents (Elt F) :=
  (subf o (rows (row mu)))

/-- The variances plus the small constant. -/
def vareps (va : (⟨S64, .f32⟩ : BufTy).Contents (Elt F)) : (⟨S64, .f32⟩ : BufTy).Contents (Elt F) :=
  (addf va (broadcastInDim S64 ![] bcast_S_S64 (constant S_ .f32 0x3727C5AC#32)))

/-- The centred array times the inverse square roots, times the first parameter row. -/
def scaled (cen : (⟨S50000x64, .f32⟩ : BufTy).Contents (Elt F)) (ve : (⟨S64, .f32⟩ : BufTy).Contents (Elt F)) (g : (⟨S64, .f32⟩ : BufTy).Contents (Elt F)) : (⟨S50000x64, .f32⟩ : BufTy).Contents (Elt F) :=
  (mulf (mulf cen (rows (row (Host.rsqrt ve)))) (rows (row g)))

/-- Plus the second parameter row, given as a one-row array. -/
def shifted (sc : (⟨S50000x64, .f32⟩ : BufTy).Contents (Elt F)) (r : (⟨S1x64, .f32⟩ : BufTy).Contents (Elt F)) : (⟨S50000x64, .f32⟩ : BufTy).Contents (Elt F) :=
  (addf sc (rows r))

/-- The maximum with zero. -/
def relu (y : (⟨S50000x64, .f32⟩ : BufTy).Contents (Elt F)) : (⟨S50000x64, .f32⟩ : BufTy).Contents (Elt F) :=
  (maximumf y (broadcastInDim S50000x64 ![] bcast_S_S50000x64 (constant S_ .f32 0x00000000#32)))

/-- Normalisation of the columns by their own means and variances, the affine map by the two parameter rows, and the maximum with zero. -/
def bn (o : (⟨S50000x64, .f32⟩ : BufTy).Contents (Elt F)) (g : (⟨S64, .f32⟩ : BufTy).Contents (Elt F)) (be : (⟨S64, .f32⟩ : BufTy).Contents (Elt F)) : (⟨S50000x64, .f32⟩ : BufTy).Contents (Elt F) :=
  (relu (shifted (scaled (centred o (colmean o)) (vareps (colvar o)) g) (row be)))

/-- The affine map of 64 features. -/
def lin64 (h : (⟨S50000x64, .f32⟩ : BufTy).Contents (Elt F)) (W : (⟨S64x64, .f32⟩ : BufTy).Contents (Elt F)) (b : (⟨S64, .f32⟩ : BufTy).Contents (Elt F)) : (⟨S50000x64, .f32⟩ : BufTy).Contents (Elt F) :=
  (addf (Host.dotGeneral dot_S50000x64_S64x64_S50000x64_1_0_0_1_n_n none h W) (rows (row b)))

/-- The final affine map onto two columns. -/
def lin2 (h : (⟨S50000x64, .f32⟩ : BufTy).Contents (Elt F)) (W : (⟨S64x2, .f32⟩ : BufTy).Contents (Elt F)) (b : (⟨S2, .f32⟩ : BufTy).Contents (Elt F)) : (⟨S50000x2, .f32⟩ : BufTy).Contents (Elt F) :=
  (addf (Host.dotGeneral dot_S50000x64_S64x2_S50000x2_1_0_0_1_n_n none h W) (broadcastInDim S50000x2 ![0, 1] bcast_S1x2_S50000x2_0_1 (broadcastInDim S1x2 ![1] bcast_S2_S1x2_1 b)))

/-- The twenty argument arrays of the network. -/
structure Inputs (F : FTy → Type) [FloatOps F] where
  x : (⟨S50000x128, .f32⟩ : BufTy).Contents (Elt F)
  M : (⟨S2x2x4x64x64, .f32⟩ : BufTy).Contents (Elt F)
  src : (⟨S800000, .i32⟩ : BufTy).Contents (Elt F)
  dst : (⟨S800000, .i32⟩ : BufTy).Contents (Elt F)
  labels : (⟨S50000, .i32⟩ : BufTy).Contents (Elt F)
  bidx : (⟨S800000, .i32⟩ : BufTy).Contents (Elt F)
  W1 : (⟨S128x64, .f32⟩ : BufTy).Contents (Elt F)
  b1 : (⟨S64, .f32⟩ : BufTy).Contents (Elt F)
  g1 : (⟨S64, .f32⟩ : BufTy).Contents (Elt F)
  be1 : (⟨S64, .f32⟩ : BufTy).Contents (Elt F)
  W2 : (⟨S64x64, .f32⟩ : BufTy).Contents (Elt F)
  b2 : (⟨S64, .f32⟩ : BufTy).Contents (Elt F)
  g2 : (⟨S64, .f32⟩ : BufTy).Contents (Elt F)
  be2 : (⟨S64, .f32⟩ : BufTy).Contents (Elt F)
  W3 : (⟨S64x64, .f32⟩ : BufTy).Contents (Elt F)
  b3 : (⟨S64, .f32⟩ : BufTy).Contents (Elt F)
  g3 : (⟨S64, .f32⟩ : BufTy).Contents (Elt F)
  be3 : (⟨S64, .f32⟩ : BufTy).Contents (Elt F)
  rW : (⟨S64x2, .f32⟩ : BufTy).Contents (Elt F)
  rb : (⟨S2, .f32⟩ : BufTy).Contents (Elt F)

/-- The first layer before normalisation. -/
def pre1 (a : Inputs F) : (⟨S50000x64, .f32⟩ : BufTy).Contents (Elt F) :=
  (pre (lin128 a.x a.W1 a.b1) (basis a.M) a.src (combo a.labels a.src a.dst a.bidx) a.dst)

/-- The first layer's output. -/
def h1 (a : Inputs F) : (⟨S50000x64, .f32⟩ : BufTy).Contents (Elt F) :=
  (bn (pre1 a) a.g1 a.be1)

/-- The second layer before normalisation. -/
def pre2 (a : Inputs F) : (⟨S50000x64, .f32⟩ : BufTy).Contents (Elt F) :=
  (pre (lin64 (h1 a) a.W2 a.b2) (basis a.M) a.src (combo a.labels a.src a.dst a.bidx) a.dst)

/-- The second layer's output. -/
def h2 (a : Inputs F) : (⟨S50000x64, .f32⟩ : BufTy).Contents (Elt F) :=
  (bn (pre2 a) a.g2 a.be2)

/-- The third layer before normalisation. -/
def pre3 (a : Inputs F) : (⟨S50000x64, .f32⟩ : BufTy).Contents (Elt F) :=
  (pre (lin64 (h2 a) a.W3 a.b3) (basis a.M) a.src (combo a.labels a.src a.dst a.bidx) a.dst)

/-- The third layer's output. -/
def h3 (a : Inputs F) : (⟨S50000x64, .f32⟩ : BufTy).Contents (Elt F) :=
  (bn (pre3 a) a.g3 a.be3)

/-- The network's result: the final affine map of the third layer's output. -/
def result (a : Inputs F) : (⟨S50000x2, .f32⟩ : BufTy).Contents (Elt F) :=
  (lin2 (h3 a) a.rW a.rb)

end Cert.ReferenceIdeal.Hand

end
-- ==== Proof.Ref.Win0.lean ====
import proofs.«177069_j18983755448416_1_alg».proof.Proof.Ref.Ops0
import proofs.«177069_j18983755448416_1_alg».proof.Proof.Ref.Stages

/-! What the pieces of the first stretch of the reference program compute, from ANY buffer contents: each buffer a later piece reads is the named stage of the contents the piece itself reads, and a buffer the piece does not write keeps its contents. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer the piece does not write keeps its contents through it. -/
theorem c0a_keep (W : Valuation τ sig (Elt F)) (r : Ref sig .tc) (h : r ∉ c0a_W) :
    after c0a W (Proc.devRef .tc r) = W (Proc.devRef .tc r) :=
  after_of_writes_sub c0a W c0a_writes h

set_option maxRecDepth 8192 in
set_option maxHeartbeats 4000000 in
theorem c0a_main_v0 (W : Valuation τ sig (Elt F)) :
    after c0a W (Proc.devRef .tc main_v0) = (basis (W (Proc.devRef .tc main_arg1))) := by
  simp only [c0a]
  after_results_simp
  all_goals rfl

set_option maxRecDepth 8192 in
set_option maxHeartbeats 4000000 in
theorem c0a_main_v20 (W : Valuation τ sig (Elt F)) :
    after c0a W (Proc.devRef .tc main_v20) = (combo (W (Proc.devRef .tc main_arg4)) (W (Proc.devRef .tc main_arg2)) (W (Proc.devRef .tc main_arg3)) (W (Proc.devRef .tc main_arg5))) := by
  simp only [c0a]
  after_results_simp
  all_goals rfl

/-- A buffer the piece does not write keeps its contents through it. -/
theorem c0b_keep (W : Valuation τ sig (Elt F)) (r : Ref sig .tc) (h : r ∉ c0b_W) :
    after c0b W (Proc.devRef .tc r) = W (Proc.devRef .tc r) :=
  after_of_writes_sub c0b W c0b_writes h

set_option maxRecDepth 8192 in
set_option maxHeartbeats 4000000 in
theorem c0b_main_v43 (W : Valuation τ sig (Elt F)) :
    after c0b W (Proc.devRef .tc main_v43) = (pre (lin128 (W (Proc.devRef .tc main_arg0)) (W (Proc.devRef .tc main_arg6)) (W (Proc.devRef .tc main_arg7))) (W (Proc.devRef .tc main_v0)) (W (Proc.devRef .tc main_arg2)) (W (Proc.devRef .tc main_v20)) (W (Proc.devRef .tc main_arg3))) := by
  simp only [c0b]
  after_results_simp
  all_goals rfl

set_option maxRecDepth 8192 in
set_option maxHeartbeats 4000000 in
theorem c0b_main_v46 (W : Valuation τ sig (Elt F)) :
    after c0b W (Proc.devRef .tc main_v46) = (colmean (pre (lin128 (W (Proc.devRef .tc main_arg0)) (W (Proc.devRef .tc main_arg6)) (W (Proc.devRef .tc main_arg7))) (W (Proc.devRef .tc main_v0)) (W (Proc.devRef .tc main_arg2)) (W (Proc.devRef .tc main_v20)) (W (Proc.devRef .tc main_arg3)))) := by
  simp only [c0b]
  after_results_simp
  all_goals rfl

end Cert.ReferenceIdeal.Hand

end
-- ==== Proof.Ref.Ops1.lean ====
import proofs.«177069_j18983755448416_1_alg».proof.Proof.Gen.ReferenceIdeal
import Idealize.ShloMosaic.Lib.StableHlo.Run

/-! The host operations of the second stretch of the reference program, listed in order (a called function's operations stand in its call's place, over that call's buffers), cut into consecutive pieces by what they compute; the stretch is the straight line of its list; every operation touches only TensorCore buffers, writes only the listed buffers and allocates none. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- First layer: the column variances as the mean of squared deviations from the column means. -/
abbrev c1a : List (HloOp τ sig (Elt F)) :=
  [ nullary main_c_11 (constantI S_ 32 0#32),
    nullary main_call0_cst (constant S_ .f32 0x00000000#32),
    binary main_v43 main_call0_cst main_call0_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call0_v0 main_call0_v1 ((broadcastInDim S1x64 ![1] bcast_S64_S1x64_1) : (⟨S64, .f32⟩ : BufTy).Contents (Elt F) → (⟨S1x64, .f32⟩ : BufTy).Contents (Elt F)),
    nullary main_call0_cst_0 (constant S_ .f32 0x47435000#32),
    unary main_call0_cst_0 main_call0_v2 ((broadcastInDim S1x64 ![] bcast_S_S1x64) : (⟨S_, .f32⟩ : BufTy).Contents (Elt F) → (⟨S1x64, .f32⟩ : BufTy).Contents (Elt F)),
    binary main_call0_v1 main_call0_v2 main_call0_v3 (Host.divf : (⟨S1x64, .f32⟩ : BufTy).Contents (Elt F) → (⟨S1x64, .f32⟩ : BufTy).Contents (Elt F) → (⟨S1x64, .f32⟩ : BufTy).Contents (Elt F)),
    unary main_call0_v3 main_call0_v4 ((broadcastInDim S50000x64 ![0, 1] bcast_S1x64_S50000x64_0_1) : (⟨S1x64, .f32⟩ : BufTy).Contents (Elt F) → (⟨S50000x64, .f32⟩ : BufTy).Contents (Elt F)),
    binary main_v43 main_call0_v4 main_call0_v5 (subf : (⟨S50000x64, .f32⟩ : BufTy).Contents (Elt F) → (⟨S50000x64, .f32⟩ : BufTy).Contents (Elt F) → (⟨S50000x64, .f32⟩ : BufTy).Contents (Elt F)),
    binary main_call0_v5 main_call0_v5 main_call0_v6 (mulf : (⟨S50000x64, .f32⟩ : BufTy).Contents (Elt F) → (⟨S50000x64, .f32⟩ : BufTy).Contents (Elt F) → (⟨S50000x64, .f32⟩ : BufTy).Contents (Elt F)),
    unary main_c_11 main_call0_v7 ((sitofp .f32) : (⟨S_, .i32⟩ : BufTy).Contents (Elt F) → (⟨S_, .f32⟩ : BufTy).Contents (Elt F)),
    nullary main_call0_cst_1 (constant S_ .f32 0x47435000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call0_v8 main_call0_v10 ((broadcastInDim S64 ![] bcast_S_S64) : (⟨S_, .f32⟩ : BufTy).Contents (Elt F) → (⟨S64, .f32⟩ : BufTy).Contents (Elt F)),
    binary main_call0_v9 main_call0_v10 main_call0_v11 (Host.divf : (⟨S64, .f32⟩ : BufTy).Contents (Elt F) → (⟨S64, .f32⟩ : BufTy).Contents (Elt F) → (⟨S64, .f32⟩ : BufTy).Contents (Elt F)),
    nullary main_call0_cst_3 (constant S_ .f32 0x00000000#32),
    binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 ((broadcastInDim S64 ![] bcast_S_S64) : (⟨S_, .f32⟩ : BufTy).Contents (Elt F) → (⟨S64, .f32⟩ : BufTy).Contents (Elt F)),
    ternary main_call0_v12 main_call0_v11 main_call0_call0_v1 main_v47 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

/-- First layer: centring, scaling by the inverse square root of the variance plus the small constant, the affine map by the two parameter rows, and the maximum with zero. -/
abbrev c1b : List (HloOp τ sig (Elt F)) :=
  [ unary main_v46 main_v48 (broadcastInDim S1x64 ![1] bcast_S64_S1x64_1 : (⟨S64, .f32⟩ : BufTy).Contents (Elt F) → (⟨S1x64, .f32⟩ : BufTy).Contents (Elt F)),
    unary main_v48 main_v49 (broadcastInDim S50000x64 ![0, 1] bcast_S1x64_S50000x64_0_1 : (⟨S1x64, .f32⟩ : BufTy).Contents (Elt F) → (⟨S50000x64, .f32⟩ : BufTy).Contents (Elt F)),
    binary main_v43 main_v49 main_v50 (subf : (⟨S50000x64, .f32⟩ : BufTy).Contents (Elt F) → (⟨S50000x64, .f32⟩ : BufTy).Contents (Elt F) → (⟨S50000x64, .f32⟩ : BufTy).Contents (Elt F)),
    nullary main_cst_12 (constant S_ .f32 0x3727C5AC#32),
    unary main_cst_12 main_v51 (broadcastInDim S64 ![] bcast_S_S64 : (⟨S_, .f32⟩ : BufTy).Contents (Elt F) → (⟨S64, .f32⟩ : BufTy).Contents (Elt F)),
    binary main_v47 main_v51 main_v52 (addf : (⟨S64, .f32⟩ : BufTy).Contents (Elt F) → (⟨S64, .f32⟩ : BufTy).Contents (Elt F) → (⟨S64, .f32⟩ : BufTy).Contents (Elt F)),
    unary main_v52 main_v53 (Host.rsqrt : (⟨S64, .f32⟩ : BufTy).Contents (Elt F) → (⟨S64, .f32⟩ : BufTy).Contents (Elt F)),
    unary main_v53 main_v54 (broadcastInDim S1x64 ![1] bcast_S64_S1x64_1 : (⟨S64, .f32⟩ : BufTy).Contents (Elt F) → (⟨S1x64, .f32⟩ : BufTy).Contents (Elt F)),
    unary main_v54 main_v55 (broadcastInDim S50000x64 ![0, 1] bcast_S1x64_S50000x64_0_1 : (⟨S1x64, .f32⟩ : BufTy).Contents (Elt F) → (⟨S50000x64, .f32⟩ : BufTy).Contents (Elt F)),
    binary main_v50 main_v55 main_v56 (mulf : (⟨S50000x64, .f32⟩ : BufTy).Contents (Elt F) → (⟨S50000x64, .f32⟩ : BufTy).Contents (Elt F) → (⟨S50000x64, .f32⟩ : BufTy).Contents (Elt F)),
    unary main_arg8 main_v57 (broadcastInDim S1x64 ![1] bcast_S64_S1x64_1 : (⟨S64, .f32⟩ : BufTy).Contents (Elt F) → (⟨S1x64, .f32⟩ : BufTy).Contents (Elt F)),
    unary main_v57 main_v58 (broadcastInDim S50000x64 ![0, 1] bcast_S1x64_S50000x64_0_1 : (⟨S1x64, .f32⟩ : BufTy).Contents (Elt F) → (⟨S50000x64, .f32⟩ : BufTy).Contents (Elt F)),
    binary main_v56 main_v58 main_v59 (mulf : (⟨S50000x64, .f32⟩ : BufTy).Contents (Elt F) → (⟨S50000x64, .f32⟩ : BufTy).Contents (Elt F) → (⟨S50000x64, .f32⟩ : BufTy).Contents (Elt F)),
    unary main_arg9 main_v60 (broadcastInDim S1x64 ![1] bcast_S64_S1x64_1 : (⟨S64, .f32⟩ : BufTy).Contents (Elt F) → (⟨S1x64, .f32⟩ : BufTy).Contents (Elt F)),
    unary main_v60 main_v61 (broadcastInDim S50000x64 ![0, 1] bcast_S1x64_S50000x64_0_1 : (⟨S1x64, .f32⟩ : BufTy).Contents (Elt F) → (⟨S50000x64, .f32⟩ : BufTy).Contents (Elt F)),
    binary main_v59 main_v61 main_v62 (addf : (⟨S50000x64, .f32⟩ : BufTy).Contents (Elt F) → (⟨S50000x64, .f32⟩ : BufTy).Contents (Elt F) → (⟨S50000x64, .f32⟩ : BufTy).Contents (Elt F)),
    nullary main_call1_cst (constant S_ .f32 0x00000000#32),
    unary main_call1_cst main_call1_v0 ((broadcastInDim S50000x64 ![] bcast_S_S50000x64) : (⟨S_, .f32⟩ : BufTy).Contents (Elt F) → (⟨S50000x64, .f32⟩ : BufTy).Contents (Elt F)),
    binary main_v62 main_call1_v0 main_v63 (maximumf : (⟨S50000x64, .f32⟩ : BufTy).Contents (Elt F) → (⟨S50000x64, .f32⟩ : BufTy).Contents (Elt F) → (⟨S50000x64, .f32⟩ : BufTy).Contents (Elt F)) ]

/-- Second layer up to its statistics: the affine map, the products against the blocks, gather, scatter-add, sum, column means. -/
abbrev c1c : List (HloOp τ sig (Elt F)) :=
  [ binary main_v63 main_arg10 main_v64 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg11 main_v65 (broadcastInDim S1x64 ![1] bcast_S64_S1x64_1 : (⟨S64, .f32⟩ : BufTy).Contents (Elt F) → (⟨S1x64, .f32⟩ : BufTy).Contents (Elt F)),
    unary main_v65 main_v66 (broadcastInDim S50000x64 ![0, 1] bcast_S1x64_S50000x64_0_1 : (⟨S1x64, .f32⟩ : BufTy).Contents (Elt F) → (⟨S50000x64, .f32⟩ : BufTy).Contents (Elt F)),
    binary main_v64 main_v66 main_v67 (addf : (⟨S50000x64, .f32⟩ : BufTy).Contents (Elt F) → (⟨S50000x64, .f32⟩ : BufTy).Contents (Elt F) → (⟨S50000x64, .f32⟩ : BufTy).Contents (Elt F)),
    binary main_v67 main_v0 main_v68 ((fun l r => Host.dotGeneral dot_S50000x64_S16x64x64_S50000x16x64_1_2_0_01_n_n none l r) : (⟨S50000x64, .f32⟩ : BufTy).Contents (Elt F) → (⟨S16x64x64, .f32⟩ : BufTy).Contents (Elt F) → (⟨S50000x16x64, .f32⟩ : BufTy).Contents (Elt F)),
    nullary main_c_13 (constantI S_ 32 0#32),
    unary main_c_13 main_v69 (broadcastInDim S800000 ![] bcast_S_S800000 : (⟨S_, .i32⟩ : BufTy).Contents (Elt F) → (⟨S800000, .i32⟩ : BufTy).Contents (Elt F)),
    binary main_arg2 main_v69 main_v70 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v71 (broadcastInDim S800000 ![] bcast_S_S800000 : (⟨S_, .i32⟩ : BufTy).Contents (Elt F) → (⟨S800000, .i32⟩ : BufTy).Contents (Elt F)),
    binary main_arg2 main_v71 main_v72 (addi : (⟨S800000, .i32⟩ : BufTy).Contents (Elt F) → (⟨S800000, .i32⟩ : BufTy).Contents (Elt F) → (⟨S800000, .i32⟩ : BufTy).Contents (Elt F)),
    ternary main_v70 main_v72 main_arg2 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    nullary main_c_15 (constantI S_ 32 0#32),
    unary main_c_15 main_v74 (broadcastInDim S800000 ![] bcast_S_S800000 : (⟨S_, .i32⟩ : BufTy).Contents (Elt F) → (⟨S800000, .i32⟩ : BufTy).Contents (Elt F)),
    binary main_v20 main_v74 main_v75 (cmpi .slt : (⟨S800000, .i32⟩ : BufTy).Contents (Elt F) → (⟨S800000, .i32⟩ : BufTy).Contents (Elt F) → (⟨S800000, .i1⟩ : BufTy).Contents (Elt F)),
    nullary main_c_16 (constantI S_ 32 16#32),
    unary main_c_16 main_v76 (broadcastInDim S800000 ![] bcast_S_S800000 : (⟨S_, .i32⟩ : BufTy).Contents (Elt F) → (⟨S800000, .i32⟩ : BufTy).Contents (Elt F)),
    binary main_v20 main_v76 main_v77 (addi : (⟨S800000, .i32⟩ : BufTy).Contents (Elt F) → (⟨S800000, .i32⟩ : BufTy).Contents (Elt F) → (⟨S800000, .i32⟩ : BufTy).Contents (Elt F)),
    ternary main_v75 main_v77 main_v20 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v73 main_v79 (broadcastInDim S800000x1 ![0] bcast_S800000_S800000x1_0 : (⟨S800000, .i32⟩ : BufTy).Contents (Elt F) → (⟨S800000x1, .i32⟩ : BufTy).Contents (Elt F)),
    unary main_v78 main_v80 (broadcastInDim S800000x1 ![0] bcast_S800000_S800000x1_0 : (⟨S800000, .i32⟩ : BufTy).Contents (Elt F) → (⟨S800000x1, .i32⟩ : BufTy).Contents (Elt F)),
    binary main_v79 main_v80 main_v81 ((fun a b => concatenate S800000x2 1 [⟨S800000x1, a⟩, ⟨S800000x1, b⟩] concatenates_S800000x1_S800000x1_S800000x2_d1) : (⟨S800000x1, .i32⟩ : BufTy).Contents (Elt F) → (⟨S800000x1, .i32⟩ : BufTy).Contents (Elt F) → (⟨S800000x2, .i32⟩ : BufTy).Contents (Elt F)),
    binary main_v68 main_v81 main_v82 ((fun x i => Host.gather gather_S50000x16x64_S800000x2_S800000x64_1_01_n_n_01_1_1164 x i) : (⟨S50000x16x64, .f32⟩ : BufTy).Contents (Elt F) → (⟨S800000x2, .i32⟩ : BufTy).Contents (Elt F) → (⟨S800000x64, .f32⟩ : BufTy).Contents (Elt F)),
    nullary main_cst_17 (constant S_ .f32 0x00000000#32),
    unary main_cst_17 main_v83 (broadcastInDim S50000x64 ![] bcast_S_S50000x64 : (⟨S_, .f32⟩ : BufTy).Contents (Elt F) → (⟨S50000x64, .f32⟩ : BufTy).Contents (Elt F)),
    unary main_arg3 main_v84 (broadcastInDim S800000x1 ![0] bcast_S800000_S800000x1_0 : (⟨S800000, .i32⟩ : BufTy).Contents (Elt F) → (⟨S800000x1, .i32⟩ : BufTy).Contents (Elt F)),
    ternary main_v83 main_v84 main_v82 main_v85 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v67 main_v85 main_v86 (addf : (⟨S50000x64, .f32⟩ : BufTy).Contents (Elt F) → (⟨S50000x64, .f32⟩ : BufTy).Contents (Elt F) → (⟨S50000x64, .f32⟩ : BufTy).Contents (Elt F)),
    nullary main_cst_18 (constant S_ .f32 0x00000000#32),
    binary main_v86 main_cst_18 main_v87 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_19 (constant S_ .f32 0x47435000#32),
    unary main_cst_19 main_v88 (broadcastInDim S64 ![] bcast_S_S64 : (⟨S_, .f32⟩ : BufTy).Contents (Elt F) → (⟨S64, .f32⟩ : BufTy).Contents (Elt F)),
    binary main_v87 main_v88 main_v89 (Host.divf : (⟨S64, .f32⟩ : BufTy).Contents (Elt F) → (⟨S64, .f32⟩ : BufTy).Contents (Elt F) → (⟨S64, .f32⟩ : BufTy).Contents (Elt F)) ]

/-- Second layer: the column variances. -/
abbrev c1d : List (HloOp τ sig (Elt F)) :=
  [ nullary main_c_20 (constantI S_ 32 0#32),
    nullary main_call2_cst (constant S_ .f32 0x00000000#32),
    binary main_v86 main_call2_cst main_call2_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call2_v0 main_call2_v1 ((broadcastInDim S1x64 ![1] bcast_S64_S1x64_1) : (⟨S64, .f32⟩ : BufTy).Contents (Elt F) → (⟨S1x64, .f32⟩ : BufTy).Contents (Elt F)),
    nullary main_call2_cst_0 (constant S_ .f32 0x47435000#32),
    unary main_call2_cst_0 main_call2_v2 ((broadcastInDim S1x64 ![] bcast_S_S1x64) : (⟨S_, .f32⟩ : BufTy).Contents (Elt F) → (⟨S1x64, .f32⟩ : BufTy).Contents (Elt F)),
    binary main_call2_v1 main_call2_v2 main_call2_v3 (Host.divf : (⟨S1x64, .f32⟩ : BufTy).Contents (Elt F) → (⟨S1x64, .f32⟩ : BufTy).Contents (Elt F) → (⟨S1x64, .f32⟩ : BufTy).Contents (Elt F)),
    unary main_call2_v3 main_call2_v4 ((broadcastInDim S50000x64 ![0, 1] bcast_S1x64_S50000x64_0_1) : (⟨S1x64, .f32⟩ : BufTy).Contents (Elt F) → (⟨S50000x64, .f32⟩ : BufTy).Contents (Elt F)),
    binary main_v86 main_call2_v4 main_call2_v5 (subf : (⟨S50000x64, .f32⟩ : BufTy).Contents (Elt F) → (⟨S50000x64, .f32⟩ : BufTy).Contents (Elt F) → (⟨S50000x64, .f32⟩ : BufTy).Contents (Elt F)),
    binary main_call2_v5 main_call2_v5 main_call2_v6 (mulf : (⟨S50000x64, .f32⟩ : BufTy).Contents (Elt F) → (⟨S50000x64, .f32⟩ : BufTy).Contents (Elt F) → (⟨S50000x64, .f32⟩ : BufTy).Contents (Elt F)),
    unary main_c_20 main_call2_v7 ((sitofp .f32) : (⟨S_, .i32⟩ : BufTy).Contents (Elt F) → (⟨S_, .f32⟩ : BufTy).Contents (Elt F)),
    nullary main_call2_cst_1 (constant S_ .f32 0x47435000#32),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call2_v8 main_call2_v10 ((broadcastInDim S64 ![] bcast_S_S64) : (⟨S_, .f32⟩ : BufTy).Contents (Elt F) → (⟨S64, .f32⟩ : BufTy).Contents (Elt F)),
    binary main_call2_v9 main_call2_v10 main_call2_v11 (Host.divf : (⟨S64, .f32⟩ : BufTy).Contents (Elt F) → (⟨S64, .f32⟩ : BufTy).Contents (Elt F) → (⟨S64, .f32⟩ : BufTy).Contents (Elt F)),
    nullary main_call2_cst_3 (constant S_ .f32 0x00000000#32),
    binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 (id : (⟨S_, .f32⟩ : BufTy).Contents (Elt F) → (⟨S_, .f32⟩ : BufTy).Contents (Elt F)),
    unary main_call2_call0_v0 main_call2_call0_v1 ((broadcastInDim S64 ![] bcast_S_S64) : (⟨S_, .f32⟩ : BufTy).Contents (Elt F) → (⟨S64, .f32⟩ : BufTy).Contents (Elt F)),
    ternary main_call2_v12 main_call2_v11 main_call2_call0_v1 main_v90 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

/-- Second layer: the centred array and the variances plus the small constant. -/
abbrev c1e : List (HloOp τ sig (Elt F)) :=
  [ unary main_v89 main_v91 (broadcastInDim S1x64 ![1] bcast_S64_S1x64_1 : (⟨S64, .f32⟩ : BufTy).Contents (Elt F) → (⟨S1x64, .f32⟩ : BufTy).Contents (Elt F)),
    unary main_v91 main_v92 (broadcastInDim S50000x64 ![0, 1] bcast_S1x64_S50000x64_0_1 : (⟨S1x64, .f32⟩ : BufTy).Contents (Elt F) → (⟨S50000x64, .f32⟩ : BufTy).Contents (Elt F)),
    binary main_v86 main_v92 main_v93 (subf : (⟨S50000x64, .f32⟩ : BufTy).Contents (Elt F) → (⟨S50000x64, .f32⟩ : BufTy).Contents (Elt F) → (⟨S50000x64, .f32⟩ : BufTy).Contents (Elt F)),
    nullary main_cst_21 (constant S_ .f32 0x3727C5AC#32),
    unary main_cst_21 main_v94 (broadcastInDim S64 ![] bcast_S_S64 : (⟨S_, .f32⟩ : BufTy).Contents (Elt F) → (⟨S64, .f32⟩ : BufTy).Contents (Elt F)),
    binary main_v90 main_v94 main_v95 (addf : (⟨S64, .f32⟩ : BufTy).Contents (Elt F) → (⟨S64, .f32⟩ : BufTy).Contents (Elt F) → (⟨S64, .f32⟩ : BufTy).Contents (Elt F)) ]

/-- The whole stretch: its pieces in order. -/
abbrev ops_part1 : List (HloOp τ sig (Elt F)) :=
  c1a ++ (c1b ++ (c1c ++ (c1d ++ (c1e))))

set_option maxRecDepth 8192 in
set_option maxHeartbeats 4000000 in
/-- The stretch is the straight line of its operations: the called functions unfolded at their calls and the sequencing re-associated, the two sides are one chain of steps. -/
theorem main_part1_eq (c : Dev nD) : main_part1 (F := F) c = seq ops_part1 := by
  simp only [main_part1, fn_var.body, fn_where.body, fn_relu.body, ops_part1, c1a, c1b, c1c, c1d, c1e, List.cons_append, List.nil_append, seq, bind_assoc, pure_bind]
  rfl

set_option maxRecDepth 8192 in
theorem c1a_sub : (c1a : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers the piece writes. -/
abbrev c1a_W : List (Ref sig .tc) := [main_c_11, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47]
set_option maxRecDepth 8192 in
theorem c1a_writes : (c1a : List (HloOp τ sig (Elt F))).Forall fun op => op.writes ⊆ (c1a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c1a_fresh : ∀ op ∈ (c1a : List (HloOp τ sig (Elt F))), op.fresh = ∅ := by
  intro _ h; (repeat (cases h with | head => rfl | tail _ h => ?_)); exact nomatch h

set_option maxRecDepth 8192 in
theorem c1b_sub : (c1b : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers the piece writes. -/
abbrev c1b_W : List (Ref sig .tc) := [main_v48, main_v49, main_v50, main_cst_12, main_v51, main_v52, main_v53, main_v54, main_v55, main_v56, main_v57, main_v58, main_v59, main_v60, main_v61, main_v62, main_call1_cst, main_call1_v0, main_v63]
set_option maxRecDepth 8192 in
theorem c1b_writes : (c1b : List (HloOp τ sig (Elt F))).Forall fun op => op.writes ⊆ (c1b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c1b_fresh : ∀ op ∈ (c1b : List (HloOp τ sig (Elt F))), op.fresh = ∅ := by
  intro _ h; (repeat (cases h with | head => rfl | tail _ h => ?_)); exact nomatch h

set_option maxRecDepth 8192 in
theorem c1c_sub : (c1c : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub ..⟩

/-- The buffers the piece writes. -/
abbrev c1c_W : List (Ref sig .tc) := [main_v64, main_v65, main_v66, main_v67, main_v68, main_c_13, main_v69, main_v70, main_c_14, main_v71, main_v72, main_v73, main_c_15, main_v74, main_v75, main_c_16, main_v76, main_v77, main_v78, main_v79, main_v80, main_v81, main_v82, main_cst_17, main_v83, main_v84, main_v85, main_v86, main_cst_18, main_v87, main_cst_19, main_v88, main_v89]
set_option maxRecDepth 8192 in
theorem c1c_writes : (c1c : List (HloOp τ sig (Elt F))).Forall fun op => op.writes ⊆ (c1c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c1c_fresh : ∀ op ∈ (c1c : List (HloOp τ sig (Elt F))), op.fresh = ∅ := by
  intro _ h; (repeat (cases h with | head => rfl | tail _ h => ?_)); exact nomatch h

set_option maxRecDepth 8192 in
theorem c1d_sub : (c1d : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers the piece writes. -/
abbrev c1d_W : List (Ref sig .tc) := [main_c_20, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v90]
set_option maxRecDepth 8192 in
theorem c1d_writes : (c1d : List (HloOp τ sig (Elt F))).Forall fun op => op.writes ⊆ (c1d_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c1d_fresh : ∀ op ∈ (c1d : List (HloOp τ sig (Elt F))), op.fresh = ∅ := by
  intro _ h; (repeat (cases h with | head => rfl | tail _ h => ?_)); exact nomatch h

set_option maxRecDepth 8192 in
theorem c1e_sub : (c1e : List (HloOp τ sig (Elt F))).Forall fun op => op.bufs ⊆ tcRefs τ sig :=
  ⟨unary_bufs_sub .., unary_bufs_sub .., binary_bufs_sub .., nullary_bufs_sub .., unary_bufs_sub .., binary_bufs_sub ..⟩

/-- The buffers the piece writes. -/
abbrev c1e_W : List (Ref sig .tc) := [main_v91, main_v92, main_v93, main_cst_21, main_v94, main_v95]
set_option maxRecDepth 8192 in
theorem c1e_writes : (c1e : List (HloOp τ sig (Elt F))).Forall fun op => op.writes ⊆ (c1e_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c1e_fresh : ∀ op ∈ (c1e : List (HloOp τ sig (Elt F))), op.fresh = ∅ := by
  intro _ h; (repeat (cases h with | head => rfl | tail _ h => ?_)); exact nomatch h

end Cert.ReferenceIdeal.Hand

end
-- ==== Proof.Ref.Win1.lean ====
import proofs.«177069_j18983755448416_1_alg».proof.Proof.Ref.Ops1
import proofs.«177069_j18983755448416_1_alg».proof.Proof.Ref.Stages

/-! What the pieces of the second stretch of the reference program compute, from ANY buffer contents: each buffer a later piece reads is the named stage of the contents the piece itself reads, and a buffer the piece does not write keeps its contents. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer the piece does not write keeps its contents through it. -/
theorem c1a_keep (W : Valuation τ sig (Elt F)) (r : Ref sig .tc) (h : r ∉ c1a_W) :
    after c1a W (Proc.devRef .tc r) = W (Proc.devRef .tc r) :=
  after_of_writes_sub c1a W c1a_writes h

set_option maxRecDepth 8192 in
set_option maxHeartbeats 4000000 in
theorem c1a_main_v47 (W : Valuation τ sig (Elt F)) :
    after c1a W (Proc.devRef .tc main_v47) = (colvar (W (Proc.devRef .tc main_v43))) := by
  simp only [c1a]
  after_results_simp
  all_goals rfl

/-- A buffer the piece does not write keeps its contents through it. -/
theorem c1b_keep (W : Valuation τ sig (Elt F)) (r : Ref sig .tc) (h : r ∉ c1b_W) :
    after c1b W (Proc.devRef .tc r) = W (Proc.devRef .tc r) :=
  after_of_writes_sub c1b W c1b_writes h

set_option maxRecDepth 8192 in
set_option maxHeartbeats 4000000 in
theorem c1b_main_v63 (W : Valuation τ sig (Elt F)) :
    after c1b W (Proc.devRef .tc main_v63) = (relu (shifted (scaled (centred (W (Proc.devRef .tc main_v43)) (W (Proc.devRef .tc main_v46))) (vareps (W (Proc.devRef .tc main_v47))) (W (Proc.devRef .tc main_arg8))) (row (W (Proc.devRef .tc main_arg9))))) := by
  simp only [c1b]
  after_results_simp
  all_goals rfl

/-- A buffer the piece does not write keeps its contents through it. -/
theorem c1c_keep (W : Valuation τ sig (Elt F)) (r : Ref sig .tc) (h : r ∉ c1c_W) :
    after c1c W (Proc.devRef .tc r) = W (Proc.devRef .tc r) :=
  after_of_writes_sub c1c W c1c_writes h

set_option maxRecDepth 8192 in
set_option maxHeartbeats 4000000 in
theorem c1c_main_v86 (W : Valuation τ sig (Elt F)) :
    after c1c W (Proc.devRef .tc main_v86) = (pre (lin64 (W (Proc.devRef .tc main_v63)) (W (Proc.devRef .tc main_arg10)) (W (Proc.devRef .tc main_arg11))) (W (Proc.devRef .tc main_v0)) (W (Proc.devRef .tc main_arg2)) (W (Proc.devRef .tc main_v20)) (W (Proc.devRef .tc main_arg3))) := by
  simp only [c1c]
  after_results_simp
  all_goals rfl

set_option maxRecDepth 8192 in
set_option maxHeartbeats 4000000 in
theorem c1c_main_v89 (W : Valuation τ sig (Elt F)) :
    after c1c W (Proc.devRef .tc main_v89) = (colmean (pre (lin64 (W (Proc.devRef .tc main_v63)) (W (Proc.devRef .tc main_arg10)) (W (Proc.devRef .tc main_arg11))) (W (Proc.devRef .tc main_v0)) (W (Proc.devRef .tc main_arg2)) (W (Proc.devRef .tc main_v20)) (W (Proc.devRef .tc main_arg3)))) := by
  simp only [c1c]
  after_results_simp
  all_goals rfl

/-- A buffer the piece does not write keeps its contents through it. -/
theorem c1d_keep (W : Valuation τ sig (Elt F)) (r : Ref sig .tc) (h : r ∉ c1d_W) :
    after c1d W (Proc.devRef .tc r) = W (Proc.devRef .tc r) :=
  after_of_writes_sub c1d W c1d_writes h

set_option maxRecDepth 8192 in
set_option maxHeartbeats 4000000 in
theorem c1d_main_v90 (W : Valuation τ sig (Elt F)) :
    after c1d W (Proc.devRef .tc main_v90) = (colvar (W (Proc.devRef .tc main_v86))) := by
  simp only [c1d]
  after_results_simp
  all_goals rfl

/-- A buffer the piece does not write keeps its contents through it. -/
theorem c1e_keep (W : Valuation τ sig (Elt F)) (r : Ref sig .tc) (h : r ∉ c1e_W) :
    after c1e W (Proc.devRef .tc r) = W (Proc.devRef .tc r) :=
  after_of_writes_sub c1e W c1e_writes h

set_option maxRecDepth 8192 in
set_option maxHeartbeats 4000000 in
theorem c1e_main_v93 (W : Valuation τ sig (Elt F)) :
    after c1e W (Proc.devRef .tc main_v93) = (centred (W (Proc.devRef .tc main_v86)) (W (Proc.devRef .tc main_v89))) := by
  simp only [c1e]
  after_results_simp
  all_goals rfl

set_option maxRecDepth 8192 in
set_option maxHeartbeats 4000000 in
theorem c1e_main_v95 (W : Valuation τ sig (Elt F)) :
    after c1e W (Proc.devRef .tc main_v95) = (vareps (W (Proc.devRef .tc main_v90))) := by
  simp only [c1e]
  after_results_simp
  all_goals rfl

end Cert.ReferenceIdeal.Hand

end
-- ==== Proof.Ref.Ops2.lean ====
import proofs.«177069_j18983755448416_1_alg».proof.Proof.Gen.ReferenceIdeal
import Idealize.ShloMosaic.Lib.StableHlo.Run

/-! The host operations of the third stretch of the reference program, listed in order (a called function's operations stand in its call's place, over that call's buffers), cut into consecutive pieces by what they compute; the stretch is the straight line of its list; every operation touches only TensorCore buffers, writes only the listed buffers and allocates none. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Second layer: scaling by the inverse square root, the affine map by the two parameter rows, and the maximum with zero. -/
abbrev c2a : List (HloOp τ sig (Elt F)) :=
  [ unary main_v95 main_v96 (Host.rsqrt : (⟨S64, .f32⟩ : BufTy).Contents (Elt F) → (⟨S64, .f32⟩ : BufTy).Contents (Elt F)),
    unary main_v96 main_v97 (broadcastInDim S1x64 ![1] bcast_S64_S1x64_1 : (⟨S64, .f32⟩ : BufTy).Contents (Elt F) → (⟨S1x64, .f32⟩ : BufTy).Contents (Elt F)),
    unary main_v97 main_v98 (broadcastInDim S50000x64 ![0, 1] bcast_S1x64_S50000x64_0_1 : (⟨S1x64, .f32⟩ : BufTy).Contents (Elt F) → (⟨S50000x64, .f32⟩ : BufTy).Contents (Elt F)),
    binary main_v93 main_v98 main_v99 (mulf : (⟨S50000x64, .f32⟩ : BufTy).Contents (Elt F) → (⟨S50000x64, .f32⟩ : BufTy).Contents (Elt F) → (⟨S50000x64, .f32⟩ : BufTy).Contents (Elt F)),
    unary main_arg12 main_v100 (broadcastInDim S1x64 ![1] bcast_S64_S1x64_1 : (⟨S64, .f32⟩ : BufTy).Contents (Elt F) → (⟨S1x64, .f32⟩ : BufTy).Contents (Elt F)),
    unary main_v100 main_v101 (broadcastInDim S50000x64 ![0, 1] bcast_S1x64_S50000x64_0_1 : (⟨S1x64, .f32⟩ : BufTy).Contents (Elt F) → (⟨S50000x64, .f32⟩ : BufTy).Contents (Elt F)),
    binary main_v99 main_v101 main_v102 (mulf : (⟨S50000x64, .f32⟩ : BufTy).Contents (Elt F) → (⟨S50000x64, .f32⟩ : BufTy).Contents (Elt F) → (⟨S50000x64, .f32⟩ : BufTy).Contents (Elt F)),
    unary main_arg13 main_v103 (broadcastInDim S1x64 ![1] bcast_S64_S1x64_1 : (⟨S64, .f32⟩ : BufTy).Contents (Elt F) → (⟨S1x64, .f32⟩ : BufTy).Contents (Elt F)),
    unary main_v103 main_v104 (broadcastInDim S50000x64 ![0, 1] bcast_S1x64_S50000x64_0_1 : (⟨S1x64, .f32⟩ : BufTy).Contents (Elt F) → (⟨S50000x64, .f32⟩ : BufTy).Contents (Elt F)),
    binary main_v102 main_v104 main_v105 (addf : (⟨S50000x64, .f32⟩ : BufTy).Contents (Elt F) → (⟨S50000x64, .f32⟩ : BufTy).Contents (Elt F) → (⟨S50000x64, .f32⟩ : BufTy).Contents (Elt F)),
    nullary main_call3_cst (constant S_ .f32 0x00000000#32),
    unary main_call3_cst main_call3_v0 ((broadcastInDim S50000x64 ![] bcast_S_S50000x64) : (⟨S_, .f32⟩ : BufTy).Contents (Elt F) → (⟨S50000x64, .f32⟩ : BufTy).Contents (Elt F)),
    binary main_v105 main_call3_v0 main_v106 (maximumf : (⟨S50000x64, .f32⟩ : BufTy).Contents (Elt F) → (⟨S50000x64, .f32⟩ : BufTy).Contents (Elt F) → (⟨S50000x64, .f32⟩ : BufTy).Contents (Elt F)) ]

/-- Third layer up to its statistics: the affine map, the products against the blocks, gather, scatter-add, sum, column means. -/
abbrev c2b : List (HloOp τ sig (Elt F)) :=
  [ binary main_v106 main_arg14 main_v107 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg15 main_v108 (broadcastInDim S1x64 ![1] bcast_S64_S1x64_1 : (⟨S64, .f32⟩ : BufTy).Contents (Elt F) → (⟨S1x64, .f32⟩ : BufTy).Contents (Elt F)),
    unary main_v108 main_v109 (broadcastInDim S50000x64 ![0, 1] bcast_S1x64_S50000x64_0_1 : (⟨S1x64, .f32⟩ : BufTy).Contents (Elt F) → (⟨S50000x64, .f32⟩ : BufTy).Contents (Elt F)),
    binary main_v107 main_v109 main_v110 (addf : (⟨S50000x64, .f32⟩ : BufTy).Contents (Elt F) → (⟨S50000x64, .f32⟩ : BufTy).Contents (Elt F) → (⟨S50000x64, .f32⟩ : BufTy).Contents (Elt F)),
    binary main_v110 main_v0 main_v111 ((fun l r => Host.dotGeneral dot_S50000x64_S16x64x64_S50000x16x64_1_2_0_01_n_n none l r) : (⟨S50000x64, .f32⟩ : BufTy).Contents (Elt F) → (⟨S16x64x64, .f32⟩ : BufTy).Contents (Elt F) → (⟨S50000x16x64, .f32⟩ : BufTy).Contents (Elt F)),
    nullary main_c_22 (constantI S_ 32 0#32),
    unary main_c_22 main_v112 (broadcastInDim S800000 ![] bcast_S_S800000 : (⟨S_, .i32⟩ : BufTy).Contents (Elt F) → (⟨S800000, .i32⟩ : BufTy).Contents (Elt F)),
    binary main_arg2 main_v112 main_v113 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v114 (broadcastInDim S800000 ![] bcast_S_S800000 : (⟨S_, .i32⟩ : BufTy).Contents (Elt F) → (⟨S800000, .i32⟩ : BufTy).Contents (Elt F)),
    binary main_arg2 main_v114 main_v115 (addi : (⟨S800000, .i32⟩ : BufTy).Contents (Elt F) → (⟨S800000, .i32⟩ : BufTy).Contents (Elt F) → (⟨S800000, .i32⟩ : BufTy).Contents (Elt F)),
    ternary main_v113 main_v115 main_arg2 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    nullary main_c_24 (constantI S_ 32 0#32),
    unary main_c_24 main_v117 (broadcastInDim S800000 ![] bcast_S_S800000 : (⟨S_, .i32⟩ : BufTy).Contents (Elt F) → (⟨S800000, .i32⟩ : BufTy).Contents (Elt F)),
    binary main_v20 main_v117 main_v118 (cmpi .slt : (⟨S800000, .i32⟩ : BufTy).Contents (Elt F) → (⟨S800000, .i32⟩ : BufTy).Contents (Elt F) → (⟨S800000, .i1⟩ : BufTy).Contents (Elt F)),
    nullary main_c_25 (constantI S_ 32 16#32),
    unary main_c_25 main_v119 (broadcastInDim S800000 ![] bcast_S_S800000 : (⟨S_, .i32⟩ : BufTy).Contents (Elt F) → (⟨S800000, .i32⟩ : BufTy).Contents (Elt F)),
    binary main_v20 main_v119 main_v120 (addi : (⟨S800000, .i32⟩ : BufTy).Contents (Elt F) → (⟨S800000, .i32⟩ : BufTy).Contents (Elt F) → (⟨S800000, .i32⟩ : BufTy).Contents (Elt F)),
    ternary main_v118 main_v120 main_v20 main_v121 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v116 main_v122 (broadcastInDim S800000x1 ![0] bcast_S800000_S800000x1_0 : (⟨S800000, .i32⟩ : BufTy).Contents (Elt F) → (⟨S800000x1, .i32⟩ : BufTy).Contents (Elt F)),
    unary main_v121 main_v123 (broadcastInDim S800000x1 ![0] bcast_S800000_S800000x1_0 : (⟨S800000, .i32⟩ : BufTy).Contents (Elt F) → (⟨S800000x1, .i32⟩ : BufTy).Contents (Elt F)),
    binary main_v122 main_v123 main_v124 ((fun a b => concatenate S800000x2 1 [⟨S800000x1, a⟩, ⟨S800000x1, b⟩] concatenates_S800000x1_S800000x1_S800000x2_d1) : (⟨S800000x1, .i32⟩ : BufTy).Contents (Elt F) → (⟨S800000x1, .i32⟩ : BufTy).Contents (Elt F) → (⟨S800000x2, .i32⟩ : BufTy).Contents (Elt F)),
    binary main_v111 main_v124 main_v125 ((fun x i => Host.gather gather_S50000x16x64_S800000x2_S800000x64_1_01_n_n_01_1_1164 x i) : (⟨S50000x16x64, .f32⟩ : BufTy).Contents (Elt F) → (⟨S800000x2, .i32⟩ : BufTy).Contents (Elt F) → (⟨S800000x64, .f32⟩ : BufTy).Contents (Elt F)),
    nullary main_cst_26 (constant S_ .f32 0x00000000#32),
    unary main_cst_26 main_v126 (broadcastInDim S50000x64 ![] bcast_S_S50000x64 : (⟨S_, .f32⟩ : BufTy).Contents (Elt F) → (⟨S50000x64, .f32⟩ : BufTy).Contents (Elt F)),
    unary main_arg3 main_v127 (broadcastInDim S800000x1 ![0] bcast_S800000_S800000x1_0 : (⟨S800000, .i32⟩ : BufTy).Contents (Elt F) → (⟨S800000x1, .i32⟩ : BufTy).Contents (Elt F)),
    ternary main_v126 main_v127 main_v125 main_v128 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v110 main_v128 main_v129 (addf : (⟨S50000x64, .f32⟩ : BufTy).Contents (Elt F) → (⟨S50000x64, .f32⟩ : BufTy).Contents (Elt F) → (⟨S50000x64, .f32⟩ : BufTy).Contents (Elt F)),
    nullary main_cst_27 (constant S_ .f32 0x00000000#32),
    binary main_v129 main_cst_27 main_v130 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_28 (constant S_ .f32 0x47435000#32),
    unary main_cst_28 main_v131 (broadcastInDim S64 ![] bcast_S_S64 : (⟨S_, .f32⟩ : BufTy).Contents (Elt F) → (⟨S64, .f32⟩ : BufTy).Contents (Elt F)),
    binary main_v130 main_v131 main_v132 (Host.divf : (⟨S64, .f32⟩ : BufTy).Contents (Elt F) → (⟨S64, .f32⟩ : BufTy).Contents (Elt F) → (⟨S64, .f32⟩ : BufTy).Contents (Elt F)) ]

/-- Third layer: the column variances. -/
abbrev c2c : List (HloOp τ sig (Elt F)) :=
  [ nullary main_c_29 (constantI S_ 32 0#32),
    nullary main_call4_cst (constant S_ .f32 0x00000000#32),
    binary main_v129 main_call4_cst main_call4_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call4_v0 main_call4_v1 ((broadcastInDim S1x64 ![1] bcast_S64_S1x64_1) : (⟨S64, .f32⟩ : BufTy).Contents (Elt F) → (⟨S1x64, .f32⟩ : BufTy).Contents (Elt F)),
    nullary main_call4_cst_0 (constant S_ .f32 0x47435000#32),
    unary main_call4_cst_0 main_call4_v2 ((broadcastInDim S1x64 ![] bcast_S_S1x64) : (⟨S_, .f32⟩ : BufTy).Contents (Elt F) → (⟨S1x64, .f32⟩ : BufTy).Contents (Elt F)),
    binary main_call4_v1 main_call4_v2 main_call4_v3 (Host.divf : (⟨S1x64, .f32⟩ : BufTy).Contents (Elt F) → (⟨S1x64, .f32⟩ : BufTy).Contents (Elt F) → (⟨S1x64, .f32⟩ : BufTy).Contents (Elt F)),
    unary main_call4_v3 main_call4_v4 ((broadcastInDim S50000x64 ![0, 1] bcast_S1x64_S50000x64_0_1) : (⟨S1x64, .f32⟩ : BufTy).Contents (Elt F) → (⟨S50000x64, .f32⟩ : BufTy).Contents (Elt F)),
    binary main_v129 main_call4_v4 main_call4_v5 (subf : (⟨S50000x64, .f32⟩ : BufTy).Contents (Elt F) → (⟨S50000x64, .f32⟩ : BufTy).Contents (Elt F) → (⟨S50000x64, .f32⟩ : BufTy).Contents (Elt F)),
    binary main_call4_v5 main_call4_v5 main_call4_v6 (mulf : (⟨S50000x64, .f32⟩ : BufTy).Contents (Elt F) → (⟨S50000x64, .f32⟩ : BufTy).Contents (Elt F) → (⟨S50000x64, .f32⟩ : BufTy).Contents (Elt F)),
    unary main_c_29 main_call4_v7 ((sitofp .f32) : (⟨S_, .i32⟩ : BufTy).Contents (Elt F) → (⟨S_, .f32⟩ : BufTy).Contents (Elt F)),
    nullary main_call4_cst_1 (constant S_ .f32 0x47435000#32),
    binary main_call4_cst_1 main_call4_v7 main_call4_v8 (subf : (⟨S_, .f32⟩ : BufTy).Contents (Elt F) → (⟨S_, .f32⟩ : BufTy).Contents (Elt F) → (⟨S_, .f32⟩ : BufTy).Contents (Elt F)),
    nullary main_call4_cst_2 (constant S_ .f32 0x00000000#32),
    binary main_call4_v6 main_call4_cst_2 main_call4_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call4_v8 main_call4_v10 ((broadcastInDim S64 ![] bcast_S_S64) : (⟨S_, .f32⟩ : BufTy).Contents (Elt F) → (⟨S64, .f32⟩ : BufTy).Contents (Elt F)),
    binary main_call4_v9 main_call4_v10 main_call4_v11 (Host.divf : (⟨S64, .f32⟩ : BufTy).Contents (Elt F) → (⟨S64, .f32⟩ : BufTy).Contents (Elt F) → (⟨S64, .f32⟩ : BufTy).Contents (Elt F)),
    nullary main_call4_cst_3 (constant S_ .f32 0x00000000#32),
    binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    nullary main_call4_cst_4 (constant S_ .f32 0x7FC00000#32),
    unary main_call4_cst_4 main_call4_call0_v0 (id : (⟨S_, .f32⟩ : BufTy).Contents (Elt F) → (⟨S_, .f32⟩ : BufTy).Contents (Elt F)),
    unary main_call4_call0_v0 main_call4_call0_v1 ((broadcastInDim S64 ![] bcast_S_S64) : (⟨S_, .f32⟩ : BufTy).Contents (Elt F) → (⟨S64, .f32⟩ : BufTy).Contents (Elt F)),
    ternary main_call4_v12 main_call4_v11 main_call4_call0_v1 main_v133 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

/-- Third layer: centring, scaling by the inverse square root and by the first parameter row; the second parameter row as a one-row array. -/
abbrev c2d : List (HloOp τ sig (Elt F)) :=
  [ unary main_v132 main_v134 (broadcastInDim S1x64 ![1] bcast_S64_S1x64_1 : (⟨S64, .f32⟩ : BufTy).Contents (Elt F) → (⟨S1x64, .f32⟩ : BufTy).Contents (Elt F)),
    unary main_v134 main_v135 (broadcastInDim S50000x64 ![0, 1] bcast_S1x64_S50000x64_0_1 : (⟨S1x64, .f32⟩ : BufTy).Contents (Elt F) → (⟨S50000x64, .f32⟩ : BufTy).Contents (Elt F)),
    binary main_v129 main_v135 main_v136 (subf : (⟨S50000x64, .f32⟩ : BufTy).Contents (Elt F) → (⟨S50000x64, .f32⟩ : BufTy).Contents (Elt F) → (⟨S50000x64, .f32⟩ : BufTy).Contents (Elt F)),
    nullary main_cst_30 (constant S_ .f32 0x3727C5AC#32),
    unary main_cst_30 main_v137 (broadcastInDim S64 ![] bcast_S_S64 : (⟨S_, .f32⟩ : BufTy).Contents (Elt F) → (⟨S64, .f32⟩ : BufTy).Contents (Elt F)),
    binary main_v133 main_v137 main_v138 (addf : (⟨S64, .f32⟩ : BufTy).Contents (Elt F) → (⟨S64, .f32⟩ : BufTy).Contents (Elt F) → (⟨S64, .f32⟩ : BufTy).Contents (Elt F)),
    unary main_v138 main_v139 (Host.rsqrt : (⟨S64, .f32⟩ : BufTy).Contents (Elt F) → (⟨S64, .f32⟩ : BufTy).Contents (Elt F)),
    unary main_v139 main_v140 (broadcastInDim S1x64 ![1] bcast_S64_S1x64_1 : (⟨S64, .f32⟩ : BufTy).Contents (Elt F) → (⟨S1x64, .f32⟩ : BufTy).Contents (Elt F)),
    unary main_v140 main_v141 (broadcastInDim S50000x64 ![0, 1] bcast_S1x64_S50000x64_0_1 : (⟨S1x64, .f32⟩ : BufTy).Contents (Elt F) → (⟨S50000x64, .f32⟩ : BufTy).Contents (Elt F)),
    binary main_v136 main_v141 main_v142 (mulf : (⟨S50000x64, .f32⟩ : BufTy).Contents (Elt F) → (⟨S50000x64, .f32⟩ : BufTy).Contents (Elt F) → (⟨S50000x64, .f32⟩ : BufTy).Contents (Elt F)),
    unary main_arg16 main_v143 (broadcastInDim S1x64 ![1] bcast_S64_S1x64_1 : (⟨S64, .f32⟩ : BufTy).Contents (Elt F) → (⟨S1x64, .f32⟩ : BufTy).Contents (Elt F)),
    unary main_v143 main_v144 (broadcastInDim S50000x64 ![0, 1] bcast_S1x64_S50000x64_0_1 : (⟨S1x64, .f32⟩ : BufTy).Contents (Elt F) → (⟨S50000x64, .f32⟩ : BufTy).Contents (Elt F)),
    binary main_v142 main_v144 main_v145 (mulf : (⟨S50000x64, .f32⟩ : BufTy).Contents (Elt F) → (⟨S50000x64, .f32⟩ : BufTy).Contents (Elt F) → (⟨S50000x64, .f32⟩ : BufTy).Contents (Elt F)),
    unary main_arg17 main_v146 (broadcastInDim S1x64 ![1] bcast_S64_S1x64_1 : (⟨S64, .f32⟩ : BufTy).Contents (Elt F) → (⟨S1x64, .f32⟩ : BufTy).Contents (Elt F)) ]

/-- The whole stretch: its pieces in order. -/
abbrev ops_part2 : List (HloOp τ sig (Elt F)) :=
  c2a ++ (c2b ++ (c2c ++ (c2d)))

set_option maxRecDepth 8192 in
set_option maxHeartbeats 4000000 in
/-- The stretch is the straight line of its operations: the called functions unfolded at their calls and the sequencing re-associated, the two sides are one chain of steps. -/
theorem main_part2_eq (c : Dev nD) : main_part2 (F := F) c = seq ops_part2 := by
  simp only [main_part2, fn_var.body, fn_where.body, fn_relu.body, ops_part2, c2a, c2b, c2c, c2d, List.cons_append, List.nil_append, seq, bind_assoc, pure_bind]
  rfl

set_option maxRecDepth 8192 in
theorem c2a_sub : (c2a : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers the piece writes. -/
abbrev c2a_W : List (Ref sig .tc) := [main_v96, main_v97, main_v98, main_v99, main_v100, main_v101, main_v102, main_v103, main_v104, main_v105, main_call3_cst, main_call3_v0, main_v106]
set_option maxRecDepth 8192 in
theorem c2a_writes : (c2a : List (HloOp τ sig (Elt F))).Forall fun op => op.writes ⊆ (c2a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c2a_fresh : ∀ op ∈ (c2a : List (HloOp τ sig (Elt F))), op.fresh = ∅ := by
  intro _ h; (repeat (cases h with | head => rfl | tail _ h => ?_)); exact nomatch h

set_option maxRecDepth 8192 in
theorem c2b_sub : (c2b : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub ..⟩

/-- The buffers the piece writes. -/
abbrev c2b_W : List (Ref sig .tc) := [main_v107, main_v108, main_v109, main_v110, main_v111, main_c_22, main_v112, main_v113, main_c_23, main_v114, main_v115, main_v116, main_c_24, main_v117, main_v118, main_c_25, main_v119, main_v120, main_v121, main_v122, main_v123, main_v124, main_v125, main_cst_26, main_v126, main_v127, main_v128, main_v129, main_cst_27, main_v130, main_cst_28, main_v131, main_v132]
set_option maxRecDepth 8192 in
theorem c2b_writes : (c2b : List (HloOp τ sig (Elt F))).Forall fun op => op.writes ⊆ (c2b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c2b_fresh : ∀ op ∈ (c2b : List (HloOp τ sig (Elt F))), op.fresh = ∅ := by
  intro _ h; (repeat (cases h with | head => rfl | tail _ h => ?_)); exact nomatch h

set_option maxRecDepth 8192 in
theorem c2c_sub : (c2c : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers the piece writes. -/
abbrev c2c_W : List (Ref sig .tc) := [main_c_29, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v133]
set_option maxRecDepth 8192 in
theorem c2c_writes : (c2c : List (HloOp τ sig (Elt F))).Forall fun op => op.writes ⊆ (c2c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c2c_fresh : ∀ op ∈ (c2c : List (HloOp τ sig (Elt F))), op.fresh = ∅ := by
  intro _ h; (repeat (cases h with | head => rfl | tail _ h => ?_)); exact nomatch h

set_option maxRecDepth 8192 in
theorem c2d_sub : (c2d : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩

/-- The buffers the piece writes. -/
abbrev c2d_W : List (Ref sig .tc) := [main_v134, main_v135, main_v136, main_cst_30, main_v137, main_v138, main_v139, main_v140, main_v141, main_v142, main_v143, main_v144, main_v145, main_v146]
set_option maxRecDepth 8192 in
theorem c2d_writes : (c2d : List (HloOp τ sig (Elt F))).Forall fun op => op.writes ⊆ (c2d_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c2d_fresh : ∀ op ∈ (c2d : List (HloOp τ sig (Elt F))), op.fresh = ∅ := by
  intro _ h; (repeat (cases h with | head => rfl | tail _ h => ?_)); exact nomatch h

end Cert.ReferenceIdeal.Hand

end
-- ==== Proof.Ref.Win2.lean ====
import proofs.«177069_j18983755448416_1_alg».proof.Proof.Ref.Ops2
import proofs.«177069_j18983755448416_1_alg».proof.Proof.Ref.Stages

/-! What the pieces of the third stretch of the reference program compute, from ANY buffer contents: each buffer a later piece reads is the named stage of the contents the piece itself reads, and a buffer the piece does not write keeps its contents. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer the piece does not write keeps its contents through it. -/
theorem c2a_keep (W : Valuation τ sig (Elt F)) (r : Ref sig .tc) (h : r ∉ c2a_W) :
    after c2a W (Proc.devRef .tc r) = W (Proc.devRef .tc r) :=
  after_of_writes_sub c2a W c2a_writes h

set_option maxRecDepth 8192 in
set_option maxHeartbeats 4000000 in
theorem c2a_main_v106 (W : Valuation τ sig (Elt F)) :
    after c2a W (Proc.devRef .tc main_v106) = (relu (shifted (scaled (W (Proc.devRef .tc main_v93)) (W (Proc.devRef .tc main_v95)) (W (Proc.devRef .tc main_arg12))) (row (W (Proc.devRef .tc main_arg13))))) := by
  simp only [c2a]
  after_results_simp
  all_goals rfl

/-- A buffer the piece does not write keeps its contents through it. -/
theorem c2b_keep (W : Valuation τ sig (Elt F)) (r : Ref sig .tc) (h : r ∉ c2b_W) :
    after c2b W (Proc.devRef .tc r) = W (Proc.devRef .tc r) :=
  after_of_writes_sub c2b W c2b_writes h

set_option maxRecDepth 8192 in
set_option maxHeartbeats 4000000 in
theorem c2b_main_v129 (W : Valuation τ sig (Elt F)) :
    after c2b W (Proc.devRef .tc main_v129) = (pre (lin64 (W (Proc.devRef .tc main_v106)) (W (Proc.devRef .tc main_arg14)) (W (Proc.devRef .tc main_arg15))) (W (Proc.devRef .tc main_v0)) (W (Proc.devRef .tc main_arg2)) (W (Proc.devRef .tc main_v20)) (W (Proc.devRef .tc main_arg3))) := by
  simp only [c2b]
  after_results_simp
  all_goals rfl

set_option maxRecDepth 8192 in
set_option maxHeartbeats 4000000 in
theorem c2b_main_v132 (W : Valuation τ sig (Elt F)) :
    after c2b W (Proc.devRef .tc main_v132) = (colmean (pre (lin64 (W (Proc.devRef .tc main_v106)) (W (Proc.devRef .tc main_arg14)) (W (Proc.devRef .tc main_arg15))) (W (Proc.devRef .tc main_v0)) (W (Proc.devRef .tc main_arg2)) (W (Proc.devRef .tc main_v20)) (W (Proc.devRef .tc main_arg3)))) := by
  simp only [c2b]
  after_results_simp
  all_goals rfl

/-- A buffer the piece does not write keeps its contents through it. -/
theorem c2c_keep (W : Valuation τ sig (Elt F)) (r : Ref sig .tc) (h : r ∉ c2c_W) :
    after c2c W (Proc.devRef .tc r) = W (Proc.devRef .tc r) :=
  after_of_writes_sub c2c W c2c_writes h

set_option maxRecDepth 8192 in
set_option maxHeartbeats 4000000 in
theorem c2c_main_v133 (W : Valuation τ sig (Elt F)) :
    after c2c W (Proc.devRef .tc main_v133) = (colvar (W (Proc.devRef .tc main_v129))) := by
  simp only [c2c]
  after_results_simp
  all_goals rfl

/-- A buffer the piece does not write keeps its contents through it. -/
theorem c2d_keep (W : Valuation τ sig (Elt F)) (r : Ref sig .tc) (h : r ∉ c2d_W) :
    after c2d W (Proc.devRef .tc r) = W (Proc.devRef .tc r) :=
  after_of_writes_sub c2d W c2d_writes h

set_option maxRecDepth 8192 in
set_option maxHeartbeats 4000000 in
theorem c2d_main_v145 (W : Valuation τ sig (Elt F)) :
    after c2d W (Proc.devRef .tc main_v145) = (scaled (centred (W (Proc.devRef .tc main_v129)) (W (Proc.devRef .tc main_v132))) (vareps (W (Proc.devRef .tc main_v133))) (W (Proc.devRef .tc main_arg16))) := by
  simp only [c2d]
  after_results_simp
  all_goals rfl

set_option maxRecDepth 8192 in
set_option maxHeartbeats 4000000 in
theorem c2d_main_v146 (W : Valuation τ sig (Elt F)) :
    after c2d W (Proc.devRef .tc main_v146) = (row (W (Proc.devRef .tc main_arg17))) := by
  simp only [c2d]
  after_results_simp
  all_goals rfl

end Cert.ReferenceIdeal.Hand

end
-- ==== Proof.Ref.Ops3.lean ====
import proofs.«177069_j18983755448416_1_alg».proof.Proof.Gen.ReferenceIdeal
import Idealize.ShloMosaic.Lib.StableHlo.Run

/-! The host operations of the fourth stretch of the reference program, listed in order (a called function's operations stand in its call's place, over that call's buffers), cut into consecutive pieces by what they compute; the stretch is the straight line of its list; every operation touches only TensorCore buffers, writes only the listed buffers and allocates none. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Third layer's shift and maximum with zero, then the final affine map onto two columns. -/
abbrev c3a : List (HloOp τ sig (Elt F)) :=
  [ unary main_v146 main_v147 (broadcastInDim S50000x64 ![0, 1] bcast_S1x64_S50000x64_0_1 : (⟨S1x64, .f32⟩ : BufTy).Contents (Elt F) → (⟨S50000x64, .f32⟩ : BufTy).Contents (Elt F)),
    binary main_v145 main_v147 main_v148 (addf : (⟨S50000x64, .f32⟩ : BufTy).Contents (Elt F) → (⟨S50000x64, .f32⟩ : BufTy).Contents (Elt F) → (⟨S50000x64, .f32⟩ : BufTy).Contents (Elt F)),
    nullary main_call5_cst (constant S_ .f32 0x00000000#32),
    unary main_call5_cst main_call5_v0 ((broadcastInDim S50000x64 ![] bcast_S_S50000x64) : (⟨S_, .f32⟩ : BufTy).Contents (Elt F) → (⟨S50000x64, .f32⟩ : BufTy).Contents (Elt F)),
    binary main_v148 main_call5_v0 main_v149 (maximumf : (⟨S50000x64, .f32⟩ : BufTy).Contents (Elt F) → (⟨S50000x64, .f32⟩ : BufTy).Contents (Elt F) → (⟨S50000x64, .f32⟩ : BufTy).Contents (Elt F)),
    binary main_v149 main_arg18 main_v150 ((fun l r => Host.dotGeneral dot_S50000x64_S64x2_S50000x2_1_0_0_1_n_n none l r) : (⟨S50000x64, .f32⟩ : BufTy).Contents (Elt F) → (⟨S64x2, .f32⟩ : BufTy).Contents (Elt F) → (⟨S50000x2, .f32⟩ : BufTy).Contents (Elt F)),
    unary main_arg19 main_v151 (broadcastInDim S1x2 ![1] bcast_S2_S1x2_1 : (⟨S2, .f32⟩ : BufTy).Contents (Elt F) → (⟨S1x2, .f32⟩ : BufTy).Contents (Elt F)),
    unary main_v151 main_v152 (broadcastInDim S50000x2 ![0, 1] bcast_S1x2_S50000x2_0_1 : (⟨S1x2, .f32⟩ : BufTy).Contents (Elt F) → (⟨S50000x2, .f32⟩ : BufTy).Contents (Elt F)),
    binary main_v150 main_v152 main_v153 (addf : (⟨S50000x2, .f32⟩ : BufTy).Contents (Elt F) → (⟨S50000x2, .f32⟩ : BufTy).Contents (Elt F) → (⟨S50000x2, .f32⟩ : BufTy).Contents (Elt F)) ]

/-- The whole stretch: its pieces in order. -/
abbrev ops_part3 : List (HloOp τ sig (Elt F)) :=
  c3a

set_option maxRecDepth 8192 in
set_option maxHeartbeats 4000000 in
/-- The stretch is the straight line of its operations: the called functions unfolded at their calls and the sequencing re-associated, the two sides are one chain of steps. -/
theorem main_part3_eq (c : Dev nD) : main_part3 (F := F) c = seq ops_part3 := by
  simp only [main_part3, fn_var.body, fn_where.body, fn_relu.body, ops_part3, c3a, List.cons_append, List.nil_append, seq, bind_assoc, pure_bind]
  rfl

set_option maxRecDepth 8192 in
theorem c3a_sub : (c3a : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub ..⟩

/-- The buffers the piece writes. -/
abbrev c3a_W : List (Ref sig .tc) := [main_v147, main_v148, main_call5_cst, main_call5_v0, main_v149, main_v150, main_v151, main_v152, main_v153]
set_option maxRecDepth 8192 in
theorem c3a_writes : (c3a : List (HloOp τ sig (Elt F))).Forall fun op => op.writes ⊆ (c3a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c3a_fresh : ∀ op ∈ (c3a : List (HloOp τ sig (Elt F))), op.fresh = ∅ := by
  intro _ h; (repeat (cases h with | head => rfl | tail _ h => ?_)); exact nomatch h

end Cert.ReferenceIdeal.Hand

end
-- ==== Proof.Ref.Win3.lean ====
import proofs.«177069_j18983755448416_1_alg».proof.Proof.Ref.Ops3
import proofs.«177069_j18983755448416_1_alg».proof.Proof.Ref.Stages

/-! What the pieces of the fourth stretch of the reference program compute, from ANY buffer contents: each buffer a later piece reads is the named stage of the contents the piece itself reads, and a buffer the piece does not write keeps its contents. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer the piece does not write keeps its contents through it. -/
theorem c3a_keep (W : Valuation τ sig (Elt F)) (r : Ref sig .tc) (h : r ∉ c3a_W) :
    after c3a W (Proc.devRef .tc r) = W (Proc.devRef .tc r) :=
  after_of_writes_sub c3a W c3a_writes h

set_option maxRecDepth 8192 in
set_option maxHeartbeats 4000000 in
theorem c3a_main_v153 (W : Valuation τ sig (Elt F)) :
    after c3a W (Proc.devRef .tc main_v153) = (lin2 (relu (shifted (W (Proc.devRef .tc main_v145)) (W (Proc.devRef .tc main_v146)))) (W (Proc.devRef .tc main_arg18)) (W (Proc.devRef .tc main_arg19))) := by
  simp only [c3a]
  after_results_simp
  all_goals rfl

end Cert.ReferenceIdeal.Hand

end
-- ==== Proof.Ref.Run.lean ====
import proofs.«177069_j18983755448416_1_alg».proof.Proof.Ref.Win0
import proofs.«177069_j18983755448416_1_alg».proof.Proof.Ref.Win1
import proofs.«177069_j18983755448416_1_alg».proof.Proof.Ref.Win2
import proofs.«177069_j18983755448416_1_alg».proof.Proof.Ref.Win3

/-! The reference program's run: its host operations as one list (the four stretches in order), the program as that list's straight line, the buffer contents after each piece read back from the launch contents, and the run: every weakly fair execution terminates with the result buffer at the network of the twenty argument arrays and the arguments unchanged. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem forall_append' {α : Type _} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem forall_mem_append' {α : Type _} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

/-- The contents after two lists run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The program's operations, in order. -/
abbrev ops : List (HloOp τ sig (Elt F)) :=
  ops_part0 ++ (ops_part1 ++ (ops_part2 ++ ops_part3))

theorem main_eq (c : Dev nD) : main (F := F) c = seq ops := by
  have e : (seq (ops (F := F)) : Prog (TpuEff nD τ sig (Elt F) (Pipeline.Sig Λ₀ (Fin 0) fun p => (pcfgs (F := F) p).Adm) .tc) PUnit)
      = seq ops_part0 >>= fun _ => seq ops_part1 >>= fun _ => seq ops_part2 >>= fun _ => seq ops_part3 := by
    rw [show (ops (F := F)) = ops_part0 ++ (ops_part1 ++ (ops_part2 ++ ops_part3)) from rfl,
      seq_append ops_part0, seq_append ops_part1, seq_append ops_part2]
  rw [e, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append' (forall_append' c0a_sub c0b_sub)
    (forall_append' (forall_append' c1a_sub (forall_append' c1b_sub (forall_append' c1c_sub (forall_append' c1d_sub c1e_sub))))
      (forall_append' (forall_append' c2a_sub (forall_append' c2b_sub (forall_append' c2c_sub c2d_sub))) c3a_sub))

theorem ops_fresh : ∀ op ∈ (ops : List (HloOp τ sig (Elt F))), op.fresh = ∅ :=
  forall_mem_append' (forall_mem_append' c0a_fresh c0b_fresh)
    (forall_mem_append' (forall_mem_append' c1a_fresh (forall_mem_append' c1b_fresh (forall_mem_append' c1c_fresh (forall_mem_append' c1d_fresh c1e_fresh))))
      (forall_mem_append' (forall_mem_append' c2a_fresh (forall_mem_append' c2b_fresh (forall_mem_append' c2c_fresh c2d_fresh))) c3a_fresh))

/-- The argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- The twenty argument arrays read off buffer contents. -/
def inputsAt (V0 : Valuation τ sig (Elt F)) : Inputs F :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14), V0 (Proc.devRef .tc main_arg15), V0 (Proc.devRef .tc main_arg16), V0 (Proc.devRef .tc main_arg17), V0 (Proc.devRef .tc main_arg18), V0 (Proc.devRef .tc main_arg19)⟩

/-- The twenty argument arrays of a device at launch. -/
def inputsOf (m : (ℓ : Loc nD τ sig) → Buf (Elt F) ℓ) (c : Dev nD) : Inputs F :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19)⟩

theorem inputsAt_launch (m : (ℓ : Loc nD τ sig) → Buf (Elt F) ℓ) (c : Dev nD) : inputsAt (launchContents m c) = inputsOf m c := rfl

/-- The buffer contents after the first 1 piece. -/
def val1 (V0 : Valuation τ sig (Elt F)) : Valuation τ sig (Elt F) := after c0a V0
theorem val1_arg (V0 : Valuation τ sig (Elt F)) (r : Ref sig .tc) (h : r ∈ argRefs) : val1 V0 (Proc.devRef .tc r) = V0 (Proc.devRef .tc r) :=
  (c0a_keep V0 r ((by decide : ∀ r ∈ argRefs, r ∉ c0a_W) r h))
theorem val1_main_v0 (V0 : Valuation τ sig (Elt F)) : val1 V0 (Proc.devRef .tc main_v0) = (basis (inputsAt V0).M) :=
  (c0a_main_v0 V0).trans (by try rfl)
theorem val1_main_v20 (V0 : Valuation τ sig (Elt F)) : val1 V0 (Proc.devRef .tc main_v20) = (combo (inputsAt V0).labels (inputsAt V0).src (inputsAt V0).dst (inputsAt V0).bidx) :=
  (c0a_main_v20 V0).trans (by try rfl)

/-- The buffer contents after the first 2 pieces. -/
def val2 (V0 : Valuation τ sig (Elt F)) : Valuation τ sig (Elt F) := after c0b (val1 V0)
theorem val2_arg (V0 : Valuation τ sig (Elt F)) (r : Ref sig .tc) (h : r ∈ argRefs) : val2 V0 (Proc.devRef .tc r) = V0 (Proc.devRef .tc r) :=
  (c0b_keep (val1 V0) r ((by decide : ∀ r ∈ argRefs, r ∉ c0b_W) r h)).trans (val1_arg V0 r h)
theorem val2_main_v0 (V0 : Valuation τ sig (Elt F)) : val2 V0 (Proc.devRef .tc main_v0) = (basis (inputsAt V0).M) :=
  (c0b_keep (val1 V0) main_v0 (by decide)).trans (val1_main_v0 V0)
theorem val2_main_v20 (V0 : Valuation τ sig (Elt F)) : val2 V0 (Proc.devRef .tc main_v20) = (combo (inputsAt V0).labels (inputsAt V0).src (inputsAt V0).dst (inputsAt V0).bidx) :=
  (c0b_keep (val1 V0) main_v20 (by decide)).trans (val1_main_v20 V0)
theorem val2_main_v43 (V0 : Valuation τ sig (Elt F)) : val2 V0 (Proc.devRef .tc main_v43) = (pre1 (inputsAt V0)) :=
  (c0b_main_v43 (val1 V0)).trans (by rw [val1_arg V0 main_arg0 (by decide), val1_arg V0 main_arg6 (by decide), val1_arg V0 main_arg7 (by decide), val1_main_v0 V0, val1_arg V0 main_arg2 (by decide), val1_main_v20 V0, val1_arg V0 main_arg3 (by decide)]; try rfl)
theorem val2_main_v46 (V0 : Valuation τ sig (Elt F)) : val2 V0 (Proc.devRef .tc main_v46) = (colmean (pre1 (inputsAt V0))) :=
  (c0b_main_v46 (val1 V0)).trans (by rw [val1_arg V0 main_arg0 (by decide), val1_arg V0 main_arg6 (by decide), val1_arg V0 main_arg7 (by decide), val1_main_v0 V0, val1_arg V0 main_arg2 (by decide), val1_main_v20 V0, val1_arg V0 main_arg3 (by decide)]; try rfl)

/-- The buffer contents after the first 3 pieces. -/
def val3 (V0 : Valuation τ sig (Elt F)) : Valuation τ sig (Elt F) := after c1a (val2 V0)
theorem val3_arg (V0 : Valuation τ sig (Elt F)) (r : Ref sig .tc) (h : r ∈ argRefs) : val3 V0 (Proc.devRef .tc r) = V0 (Proc.devRef .tc r) :=
  (c1a_keep (val2 V0) r ((by decide : ∀ r ∈ argRefs, r ∉ c1a_W) r h)).trans (val2_arg V0 r h)
theorem val3_main_v0 (V0 : Valuation τ sig (Elt F)) : val3 V0 (Proc.devRef .tc main_v0) = (basis (inputsAt V0).M) :=
  (c1a_keep (val2 V0) main_v0 (by decide)).trans (val2_main_v0 V0)
theorem val3_main_v20 (V0 : Valuation τ sig (Elt F)) : val3 V0 (Proc.devRef .tc main_v20) = (combo (inputsAt V0).labels (inputsAt V0).src (inputsAt V0).dst (inputsAt V0).bidx) :=
  (c1a_keep (val2 V0) main_v20 (by decide)).trans (val2_main_v20 V0)
theorem val3_main_v43 (V0 : Valuation τ sig (Elt F)) : val3 V0 (Proc.devRef .tc main_v43) = (pre1 (inputsAt V0)) :=
  (c1a_keep (val2 V0) main_v43 (by decide)).trans (val2_main_v43 V0)
theorem val3_main_v46 (V0 : Valuation τ sig (Elt F)) : val3 V0 (Proc.devRef .tc main_v46) = (colmean (pre1 (inputsAt V0))) :=
  (c1a_keep (val2 V0) main_v46 (by decide)).trans (val2_main_v46 V0)
theorem val3_main_v47 (V0 : Valuation τ sig (Elt F)) : val3 V0 (Proc.devRef .tc main_v47) = (colvar (pre1 (inputsAt V0))) :=
  (c1a_main_v47 (val2 V0)).trans (by rw [val2_main_v43 V0]; try rfl)

/-- The buffer contents after the first 4 pieces. -/
def val4 (V0 : Valuation τ sig (Elt F)) : Valuation τ sig (Elt F) := after c1b (val3 V0)
theorem val4_arg (V0 : Valuation τ sig (Elt F)) (r : Ref sig .tc) (h : r ∈ argRefs) : val4 V0 (Proc.devRef .tc r) = V0 (Proc.devRef .tc r) :=
  (c1b_keep (val3 V0) r ((by decide : ∀ r ∈ argRefs, r ∉ c1b_W) r h)).trans (val3_arg V0 r h)
theorem val4_main_v0 (V0 : Valuation τ sig (Elt F)) : val4 V0 (Proc.devRef .tc main_v0) = (basis (inputsAt V0).M) :=
  (c1b_keep (val3 V0) main_v0 (by decide)).trans (val3_main_v0 V0)
theorem val4_main_v20 (V0 : Valuation τ sig (Elt F)) : val4 V0 (Proc.devRef .tc main_v20) = (combo (inputsAt V0).labels (inputsAt V0).src (inputsAt V0).dst (inputsAt V0).bidx) :=
  (c1b_keep (val3 V0) main_v20 (by decide)).trans (val3_main_v20 V0)
theorem val4_main_v63 (V0 : Valuation τ sig (Elt F)) : val4 V0 (Proc.devRef .tc main_v63) = (h1 (inputsAt V0)) :=
  (c1b_main_v63 (val3 V0)).trans (by rw [val3_main_v46 V0, val3_main_v43 V0, val3_main_v47 V0, val3_arg V0 main_arg8 (by decide), val3_arg V0 main_arg9 (by decide)]; try rfl)

/-- The buffer contents after the first 5 pieces. -/
def val5 (V0 : Valuation τ sig (Elt F)) : Valuation τ sig (Elt F) := after c1c (val4 V0)
theorem val5_arg (V0 : Valuation τ sig (Elt F)) (r : Ref sig .tc) (h : r ∈ argRefs) : val5 V0 (Proc.devRef .tc r) = V0 (Proc.devRef .tc r) :=
  (c1c_keep (val4 V0) r ((by decide : ∀ r ∈ argRefs, r ∉ c1c_W) r h)).trans (val4_arg V0 r h)
theorem val5_main_v0 (V0 : Valuation τ sig (Elt F)) : val5 V0 (Proc.devRef .tc main_v0) = (basis (inputsAt V0).M) :=
  (c1c_keep (val4 V0) main_v0 (by decide)).trans (val4_main_v0 V0)
theorem val5_main_v20 (V0 : Valuation τ sig (Elt F)) : val5 V0 (Proc.devRef .tc main_v20) = (combo (inputsAt V0).labels (inputsAt V0).src (inputsAt V0).dst (inputsAt V0).bidx) :=
  (c1c_keep (val4 V0) main_v20 (by decide)).trans (val4_main_v20 V0)
theorem val5_main_v86 (V0 : Valuation τ sig (Elt F)) : val5 V0 (Proc.devRef .tc main_v86) = (pre2 (inputsAt V0)) :=
  (c1c_main_v86 (val4 V0)).trans (by rw [val4_main_v63 V0, val4_arg V0 main_arg10 (by decide), val4_arg V0 main_arg11 (by decide), val4_main_v0 V0, val4_arg V0 main_arg2 (by decide), val4_main_v20 V0, val4_arg V0 main_arg3 (by decide)]; try rfl)
theorem val5_main_v89 (V0 : Valuation τ sig (Elt F)) : val5 V0 (Proc.devRef .tc main_v89) = (colmean (pre2 (inputsAt V0))) :=
  (c1c_main_v89 (val4 V0)).trans (by rw [val4_main_v63 V0, val4_arg V0 main_arg10 (by decide), val4_arg V0 main_arg11 (by decide), val4_main_v0 V0, val4_arg V0 main_arg2 (by decide), val4_main_v20 V0, val4_arg V0 main_arg3 (by decide)]; try rfl)

/-- The buffer contents after the first 6 pieces. -/
def val6 (V0 : Valuation τ sig (Elt F)) : Valuation τ sig (Elt F) := after c1d (val5 V0)
theorem val6_arg (V0 : Valuation τ sig (Elt F)) (r : Ref sig .tc) (h : r ∈ argRefs) : val6 V0 (Proc.devRef .tc r) = V0 (Proc.devRef .tc r) :=
  (c1d_keep (val5 V0) r ((by decide : ∀ r ∈ argRefs, r ∉ c1d_W) r h)).trans (val5_arg V0 r h)
theorem val6_main_v0 (V0 : Valuation τ sig (Elt F)) : val6 V0 (Proc.devRef .tc main_v0) = (basis (inputsAt V0).M) :=
  (c1d_keep (val5 V0) main_v0 (by decide)).trans (val5_main_v0 V0)
theorem val6_main_v20 (V0 : Valuation τ sig (Elt F)) : val6 V0 (Proc.devRef .tc main_v20) = (combo (inputsAt V0).labels (inputsAt V0).src (inputsAt V0).dst (inputsAt V0).bidx) :=
  (c1d_keep (val5 V0) main_v20 (by decide)).trans (val5_main_v20 V0)
theorem val6_main_v86 (V0 : Valuation τ sig (Elt F)) : val6 V0 (Proc.devRef .tc main_v86) = (pre2 (inputsAt V0)) :=
  (c1d_keep (val5 V0) main_v86 (by decide)).trans (val5_main_v86 V0)
theorem val6_main_v89 (V0 : Valuation τ sig (Elt F)) : val6 V0 (Proc.devRef .tc main_v89) = (colmean (pre2 (inputsAt V0))) :=
  (c1d_keep (val5 V0) main_v89 (by decide)).trans (val5_main_v89 V0)
theorem val6_main_v90 (V0 : Valuation τ sig (Elt F)) : val6 V0 (Proc.devRef .tc main_v90) = (colvar (pre2 (inputsAt V0))) :=
  (c1d_main_v90 (val5 V0)).trans (by rw [val5_main_v86 V0]; try rfl)

/-- The buffer contents after the first 7 pieces. -/
def val7 (V0 : Valuation τ sig (Elt F)) : Valuation τ sig (Elt F) := after c1e (val6 V0)
theorem val7_arg (V0 : Valuation τ sig (Elt F)) (r : Ref sig .tc) (h : r ∈ argRefs) : val7 V0 (Proc.devRef .tc r) = V0 (Proc.devRef .tc r) :=
  (c1e_keep (val6 V0) r ((by decide : ∀ r ∈ argRefs, r ∉ c1e_W) r h)).trans (val6_arg V0 r h)
theorem val7_main_v0 (V0 : Valuation τ sig (Elt F)) : val7 V0 (Proc.devRef .tc main_v0) = (basis (inputsAt V0).M) :=
  (c1e_keep (val6 V0) main_v0 (by decide)).trans (val6_main_v0 V0)
theorem val7_main_v20 (V0 : Valuation τ sig (Elt F)) : val7 V0 (Proc.devRef .tc main_v20) = (combo (inputsAt V0).labels (inputsAt V0).src (inputsAt V0).dst (inputsAt V0).bidx) :=
  (c1e_keep (val6 V0) main_v20 (by decide)).trans (val6_main_v20 V0)
theorem val7_main_v93 (V0 : Valuation τ sig (Elt F)) : val7 V0 (Proc.devRef .tc main_v93) = (centred (pre2 (inputsAt V0)) (colmean (pre2 (inputsAt V0)))) :=
  (c1e_main_v93 (val6 V0)).trans (by rw [val6_main_v89 V0, val6_main_v86 V0]; try rfl)
theorem val7_main_v95 (V0 : Valuation τ sig (Elt F)) : val7 V0 (Proc.devRef .tc main_v95) = (vareps (colvar (pre2 (inputsAt V0)))) :=
  (c1e_main_v95 (val6 V0)).trans (by rw [val6_main_v90 V0]; try rfl)

/-- The buffer contents after the first 8 pieces. -/
def val8 (V0 : Valuation τ sig (Elt F)) : Valuation τ sig (Elt F) := after c2a (val7 V0)
theorem val8_arg (V0 : Valuation τ sig (Elt F)) (r : Ref sig .tc) (h : r ∈ argRefs) : val8 V0 (Proc.devRef .tc r) = V0 (Proc.devRef .tc r) :=
  (c2a_keep (val7 V0) r ((by decide : ∀ r ∈ argRefs, r ∉ c2a_W) r h)).trans (val7_arg V0 r h)
theorem val8_main_v0 (V0 : Valuation τ sig (Elt F)) : val8 V0 (Proc.devRef .tc main_v0) = (basis (inputsAt V0).M) :=
  (c2a_keep (val7 V0) main_v0 (by decide)).trans (val7_main_v0 V0)
theorem val8_main_v20 (V0 : Valuation τ sig (Elt F)) : val8 V0 (Proc.devRef .tc main_v20) = (combo (inputsAt V0).labels (inputsAt V0).src (inputsAt V0).dst (inputsAt V0).bidx) :=
  (c2a_keep (val7 V0) main_v20 (by decide)).trans (val7_main_v20 V0)
theorem val8_main_v106 (V0 : Valuation τ sig (Elt F)) : val8 V0 (Proc.devRef .tc main_v106) = (h2 (inputsAt V0)) :=
  (c2a_main_v106 (val7 V0)).trans (by rw [val7_main_v95 V0, val7_main_v93 V0, val7_arg V0 main_arg12 (by decide), val7_arg V0 main_arg13 (by decide)]; try rfl)

/-- The buffer contents after the first 9 pieces. -/
def val9 (V0 : Valuation τ sig (Elt F)) : Valuation τ sig (Elt F) := after c2b (val8 V0)
theorem val9_arg (V0 : Valuation τ sig (Elt F)) (r : Ref sig .tc) (h : r ∈ argRefs) : val9 V0 (Proc.devRef .tc r) = V0 (Proc.devRef .tc r) :=
  (c2b_keep (val8 V0) r ((by decide : ∀ r ∈ argRefs, r ∉ c2b_W) r h)).trans (val8_arg V0 r h)
theorem val9_main_v129 (V0 : Valuation τ sig (Elt F)) : val9 V0 (Proc.devRef .tc main_v129) = (pre3 (inputsAt V0)) :=
  (c2b_main_v129 (val8 V0)).trans (by rw [val8_main_v106 V0, val8_arg V0 main_arg14 (by decide), val8_arg V0 main_arg15 (by decide), val8_main_v0 V0, val8_arg V0 main_arg2 (by decide), val8_main_v20 V0, val8_arg V0 main_arg3 (by decide)]; try rfl)
theorem val9_main_v132 (V0 : Valuation τ sig (Elt F)) : val9 V0 (Proc.devRef .tc main_v132) = (colmean (pre3 (inputsAt V0))) :=
  (c2b_main_v132 (val8 V0)).trans (by rw [val8_main_v106 V0, val8_arg V0 main_arg14 (by decide), val8_arg V0 main_arg15 (by decide), val8_main_v0 V0, val8_arg V0 main_arg2 (by decide), val8_main_v20 V0, val8_arg V0 main_arg3 (by decide)]; try rfl)

/-- The buffer contents after the first 10 pieces. -/
def val10 (V0 : Valuation τ sig (Elt F)) : Valuation τ sig (Elt F) := after c2c (val9 V0)
theorem val10_arg (V0 : Valuation τ sig (Elt F)) (r : Ref sig .tc) (h : r ∈ argRefs) : val10 V0 (Proc.devRef .tc r) = V0 (Proc.devRef .tc r) :=
  (c2c_keep (val9 V0) r ((by decide : ∀ r ∈ argRefs, r ∉ c2c_W) r h)).trans (val9_arg V0 r h)
theorem val10_main_v129 (V0 : Valuation τ sig (Elt F)) : val10 V0 (Proc.devRef .tc main_v129) = (pre3 (inputsAt V0)) :=
  (c2c_keep (val9 V0) main_v129 (by decide)).trans (val9_main_v129 V0)
theorem val10_main_v132 (V0 : Valuation τ sig (Elt F)) : val10 V0 (Proc.devRef .tc main_v132) = (colmean (pre3 (inputsAt V0))) :=
  (c2c_keep (val9 V0) main_v132 (by decide)).trans (val9_main_v132 V0)
theorem val10_main_v133 (V0 : Valuation τ sig (Elt F)) : val10 V0 (Proc.devRef .tc main_v133) = (colvar (pre3 (inputsAt V0))) :=
  (c2c_main_v133 (val9 V0)).trans (by rw [val9_main_v129 V0]; try rfl)

/-- The buffer contents after the first 11 pieces. -/
def val11 (V0 : Valuation τ sig (Elt F)) : Valuation τ sig (Elt F) := after c2d (val10 V0)
theorem val11_arg (V0 : Valuation τ sig (Elt F)) (r : Ref sig .tc) (h : r ∈ argRefs) : val11 V0 (Proc.devRef .tc r) = V0 (Proc.devRef .tc r) :=
  (c2d_keep (val10 V0) r ((by decide : ∀ r ∈ argRefs, r ∉ c2d_W) r h)).trans (val10_arg V0 r h)
theorem val11_main_v145 (V0 : Valuation τ sig (Elt F)) : val11 V0 (Proc.devRef .tc main_v145) = (scaled (centred (pre3 (inputsAt V0)) (colmean (pre3 (inputsAt V0)))) (vareps (colvar (pre3 (inputsAt V0)))) (inputsAt V0).g3) :=
  (c2d_main_v145 (val10 V0)).trans (by rw [val10_main_v132 V0, val10_main_v129 V0, val10_main_v133 V0, val10_arg V0 main_arg16 (by decide)]; try rfl)
theorem val11_main_v146 (V0 : Valuation τ sig (Elt F)) : val11 V0 (Proc.devRef .tc main_v146) = (row (inputsAt V0).be3) :=
  (c2d_main_v146 (val10 V0)).trans (by rw [val10_arg V0 main_arg17 (by decide)]; try rfl)

/-- The buffer contents after the first 12 pieces. -/
def val12 (V0 : Valuation τ sig (Elt F)) : Valuation τ sig (Elt F) := after c3a (val11 V0)
theorem val12_arg (V0 : Valuation τ sig (Elt F)) (r : Ref sig .tc) (h : r ∈ argRefs) : val12 V0 (Proc.devRef .tc r) = V0 (Proc.devRef .tc r) :=
  (c3a_keep (val11 V0) r ((by decide : ∀ r ∈ argRefs, r ∉ c3a_W) r h)).trans (val11_arg V0 r h)
theorem val12_main_v153 (V0 : Valuation τ sig (Elt F)) : val12 V0 (Proc.devRef .tc main_v153) = (result (inputsAt V0)) :=
  (c3a_main_v153 (val11 V0)).trans (by rw [val11_main_v146 V0, val11_main_v145 V0, val11_arg V0 main_arg18 (by decide), val11_arg V0 main_arg19 (by decide)]; try rfl)

theorem after_ops (V0 : Valuation τ sig (Elt F)) : after ops V0 = val12 V0 := by
  simp only [ops, ops_part0, ops_part1, ops_part2, ops_part3, after_app]
  rfl

/-- On every device, for any float values, from any memory with zero counters: every weakly fair execution of the
    program terminates with the result buffer at the network of the argument arrays, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v153) = result (inputsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v153).trans (by simp only [after_ops]; exact val12_main_v153 (launchContents m c)),
      (h c main_arg0).trans (by simp only [after_ops]; exact val12_arg (launchContents m c) main_arg0 (by decide)),
      (h c main_arg1).trans (by simp only [after_ops]; exact val12_arg (launchContents m c) main_arg1 (by decide)),
      (h c main_arg2).trans (by simp only [after_ops]; exact val12_arg (launchContents m c) main_arg2 (by decide)),
      (h c main_arg3).trans (by simp only [after_ops]; exact val12_arg (launchContents m c) main_arg3 (by decide)),
      (h c main_arg4).trans (by simp only [after_ops]; exact val12_arg (launchContents m c) main_arg4 (by decide)),
      (h c main_arg5).trans (by simp only [after_ops]; exact val12_arg (launchContents m c) main_arg5 (by decide)),
      (h c main_arg6).trans (by simp only [after_ops]; exact val12_arg (launchContents m c) main_arg6 (by decide)),
      (h c main_arg7).trans (by simp only [after_ops]; exact val12_arg (launchContents m c) main_arg7 (by decide)),
      (h c main_arg8).trans (by simp only [after_ops]; exact val12_arg (launchContents m c) main_arg8 (by decide)),
      (h c main_arg9).trans (by simp only [after_ops]; exact val12_arg (launchContents m c) main_arg9 (by decide)),
      (h c main_arg10).trans (by simp only [after_ops]; exact val12_arg (launchContents m c) main_arg10 (by decide)),
      (h c main_arg11).trans (by simp only [after_ops]; exact val12_arg (launchContents m c) main_arg11 (by decide)),
      (h c main_arg12).trans (by simp only [after_ops]; exact val12_arg (launchContents m c) main_arg12 (by decide)),
      (h c main_arg13).trans (by simp only [after_ops]; exact val12_arg (launchContents m c) main_arg13 (by decide)),
      (h c main_arg14).trans (by simp only [after_ops]; exact val12_arg (launchContents m c) main_arg14 (by decide)),
      (h c main_arg15).trans (by simp only [after_ops]; exact val12_arg (launchContents m c) main_arg15 (by decide)),
      (h c main_arg16).trans (by simp only [after_ops]; exact val12_arg (launchContents m c) main_arg16 (by decide)),
      (h c main_arg17).trans (by simp only [after_ops]; exact val12_arg (launchContents m c) main_arg17 (by decide)),
      (h c main_arg18).trans (by simp only [after_ops]; exact val12_arg (launchContents m c) main_arg18 (by decide)),
      (h c main_arg19).trans (by simp only [after_ops]; exact val12_arg (launchContents m c) main_arg19 (by decide))⟩)
    (run_seq scopedRefs_eq scopedSems_eq defs main (fun _ => ops) main_eq (fun _ => ops_sub) m ρ (fun _ => ops_fresh))

end Cert.ReferenceIdeal.Hand

end
-- ==== Proof.Ref.Frame.lean ====
import proofs.«177069_j18983755448416_1_alg».proof.Defs
import proofs.«177069_j18983755448416_1_alg».proof.Proof.Ref.Run

/-! The reference program's frame: from the run, every weakly fair execution terminates without a fault and the twenty
    argument arrays end unchanged. -/

noncomputable section

namespace Cert.ReferenceIdeal.Hand

open Idealize.ShloMosaic Idealize.SL.Sem

theorem frame_ri [hPre : Cert.Pre_finite_inputs.Facts] :
    Cert.frame_ReferenceIdeal (hReferenceIdeal := Cert.ReferenceIdeal.Gen.facts) :=
  fun m ρ _ => (θ_run Cert.ReferenceIdeal.defs _ _).mono (fun _ h c => (h c).2) (run (F := Ideal) m ρ)

end Cert.ReferenceIdeal.Hand

end
-- ==== Proof.KI.HostFns.lean ====
/-
  The host operations of the idealized kernel's @main between its regions, as functions of whole arrays:
  the re-laid cross basis, the bias rows, the flat (class of destination, class of source, basis) index of
  an edge, the aggregation of the gathered rows by a scatter-add over the destinations, and the mean and
  the clamped one-pass variance from a column's sum and sum of squares.
-/
import proofs.«177069_j18983755448416_1_alg».proof.Proof.Gen.KernelIdeal.Launch
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.ShloMosaic.StableHlo

/-- The cross basis `[2,2,4,64,64]` flattened to `[1024,64]` and transposed: column `k·64 + e` is row `e` of matrix `k`. -/
def kMt (a1 : S2x2x4x64x64.Idx → EReal) : S64x1024.Idx → EReal :=
  transpose S64x1024 [1, 0]
    (shapeCast S1024x64 (shapeCast S16x64x64 a1 shapeCasts_S2x2x4x64x64_S16x64x64) shapeCasts_S16x64x64_S1024x64)
    transposes_S1024x64_S64x1024_1_0

/-- A length-64 vector as a one-row array. -/
def kRow64 (a : S64.Idx → EReal) : S1x64.Idx → EReal := shapeCast S1x64 a shapeCasts_S64_S1x64
/-- A length-2 vector as a one-row array. -/
def kRow2 (a : S2.Idx → EReal) : S1x2.Idx → EReal := shapeCast S1x2 a shapeCasts_S2_S1x2

/-- A negative index counted from the end: `x + n` where `x < 0`, else `x`. -/
def kWrap (x : IVec S800000 32) (n : BitVec 32) : IVec S800000 32 :=
  select (cmpi CmpIPredicate.slt x (broadcastInDim S800000 ![] bcast_S_S800000 (constantI S_ 32 0#32)))
    (addi x (broadcastInDim S800000 ![] bcast_S_S800000 (constantI S_ 32 n))) x

/-- The label of each edge's end node `e`. -/
def kLabelAt (a4 : IVec S50000 32) (e : IVec S800000 32) : IVec S800000 32 :=
  Host.gather gather_S50000_S800000x1_S800000_n_0_n_n_0_1_1 a4
    (broadcastInDim S800000x1 ![0] bcast_S800000_S800000x1_0 (kWrap e 50000#32))

/-- `(label(dst)·2 + label(src))·4 + basis`. -/
def kCombo (a2 a3 : IVec S800000 32) (a4 : IVec S50000 32) (a5 : IVec S800000 32) : IVec S800000 32 :=
  addi (muli (addi (muli (kLabelAt a4 a3) (broadcastInDim S800000 ![] bcast_S_S800000 (constantI S_ 32 2#32)))
      (kLabelAt a4 a2)) (broadcastInDim S800000 ![] bcast_S_S800000 (constantI S_ 32 4#32))) a5

/-- The two-component start index of each edge's message: its source node and its matrix. -/
def kIdx (a2 combo : IVec S800000 32) : IVec S800000x2 32 :=
  concatenate S800000x2 1
    [⟨S800000x1, broadcastInDim S800000x1 ![0] bcast_S800000_S800000x1_0 (kWrap a2 50000#32)⟩,
     ⟨S800000x1, broadcastInDim S800000x1 ![0] bcast_S800000_S800000x1_0 (kWrap combo 16#32)⟩]
    concatenates_S800000x1_S800000x1_S800000x2_d1

/-- The aggregation: each edge's message, row `(src, combo)` of `T` seen as `[50000,16,64]`, added into its destination's row. -/
def kAgg (T : S50000x1024.Idx → EReal) (a2 a3 combo : IVec S800000 32) : S50000x64.Idx → EReal :=
  Host.scatterAdd (F := Ideal) scatter_S50000x64_S800000x1_S800000x64_1_0_0_1
    (broadcastInDim S50000x64 ![] bcast_S_S50000x64 (constant (F := Ideal) S_ .f32 0#32))
    (broadcastInDim S800000x1 ![0] bcast_S800000_S800000x1_0 a3)
    (Host.gather gather_S50000x16x64_S800000x2_S800000x64_1_01_n_n_01_1_1164
      (shapeCast S50000x16x64 T shapeCasts_S50000x1024_S50000x16x64) (kIdx a2 combo))

/-- A column statistic divided by the number of nodes. -/
def kMean (s : S1x64.Idx → EReal) : S1x64.Idx → EReal :=
  Host.divf (F := Ideal) s (broadcastInDim S1x64 ![] bcast_S_S1x64 (constant (F := Ideal) S_ .f32 1195593728#32))

/-- The one-pass variance, clamped at zero: `max(Q/n − (S/n)², 0)`. -/
def kVar (s q : S1x64.Idx → EReal) : S1x64.Idx → EReal :=
  maximumf (F := Ideal) (subf (F := Ideal) (kMean q) (mulf (F := Ideal) (kMean s) (kMean s)))
    (broadcastInDim S1x64 ![] bcast_S_S1x64 (constant (F := Ideal) S_ .f32 0#32))

/-- Two concatenated pieces are determined by the pieces. -/
theorem concat2_congr {α : Type} (t : Shape) (a : Fin t.rank) (s : Shape) (x x' y y' : s.Idx → α) (h)
    (hx : x = x') (hy : y = y') :
    concatenate t a [⟨s, x⟩, ⟨s, y⟩] h = concatenate t a [⟨s, x'⟩, ⟨s, y'⟩] h := by
  subst hx hy; rfl

variable (W : Valuation τ sig (Elt Ideal))

/-! ## What the host stretches leave, for any contents `W` they start from -/

theorem h0_v2 : (StableHlo.after (hostOps0 (F := Ideal)) W (Proc.devRef .tc main_v2) : S64x1024.Idx → EReal)
    = kMt (W (Proc.devRef .tc main_arg1)) := by
  after_results_simp; rfl
set_option maxHeartbeats 4000000 in
theorem h0_v22 : (StableHlo.after (hostOps0 (F := Ideal)) W (Proc.devRef .tc main_v22) : IVec S800000 32)
    = kCombo (W (Proc.devRef .tc main_arg2)) (W (Proc.devRef .tc main_arg3)) (W (Proc.devRef .tc main_arg4)) (W (Proc.devRef .tc main_arg5)) := by
  after_results_simp; rfl
theorem h0_v23 : (StableHlo.after (hostOps0 (F := Ideal)) W (Proc.devRef .tc main_v23) : S1x64.Idx → EReal) = kRow64 (W (Proc.devRef .tc main_arg7)) := by
  after_results_simp; rfl
theorem h0_v24 : (StableHlo.after (hostOps0 (F := Ideal)) W (Proc.devRef .tc main_v24) : S1x64.Idx → EReal) = kRow64 (W (Proc.devRef .tc main_arg8)) := by
  after_results_simp; rfl
theorem h0_v25 : (StableHlo.after (hostOps0 (F := Ideal)) W (Proc.devRef .tc main_v25) : S1x64.Idx → EReal) = kRow64 (W (Proc.devRef .tc main_arg9)) := by
  after_results_simp; rfl

end Cert.KernelIdeal.Hand

end
-- ==== Proof.KI.HostFlow.lean ====
/-
  What each host stretch between the regions leaves in the buffers the later regions read, for any
  contents `W` the stretch starts from.
-/
import proofs.«177069_j18983755448416_1_alg».proof.Proof.KI.HostFns

noncomputable section

namespace Cert.KernelIdeal.Hand

open Cert.KernelIdeal Cert.KernelIdeal.Gen
open Idealize.ShloMosaic Idealize.ShloMosaic.TcCoe Idealize.ShloMosaic.StableHlo

variable (W : Valuation τ sig (Elt Ideal))

set_option maxHeartbeats 4000000 in
theorem h1_v44 : (StableHlo.after (hostOps1 (F := Ideal)) W (Proc.devRef .tc main_v44) : S50000x64.Idx → EReal)
    = kAgg (W (Proc.devRef .tc main_v26_1)) (W (Proc.devRef .tc main_arg2)) (W (Proc.devRef .tc main_arg3)) (W (Proc.devRef .tc main_v22)) := by
  after_results_simp
  unfold kAgg kIdx
  exact congrArg (fun idx => Host.scatterAdd (F := Ideal) scatter_S50000x64_S800000x1_S800000x64_1_0_0_1 _ _
      (Host.gather gather_S50000x16x64_S800000x2_S800000x64_1_01_n_n_01_1_1164 _ idx))
    (concat2_congr _ _ _ _ _ _ _ _ (by after_results_simp; rfl) (by after_results_simp; rfl))
set_option maxHeartbeats 4000000 in
theorem h4_v76 : (StableHlo.after (hostOps4 (F := Ideal)) W (Proc.devRef .tc main_v76) : S50000x64.Idx → EReal)
    = kAgg (W (Proc.devRef .tc main_v58_1)) (W (Proc.devRef .tc main_arg2)) (W (Proc.devRef .tc main_arg3)) (W (Proc.devRef .tc main_v22)) := by
  after_results_simp
  unfold kAgg kIdx
  exact congrArg (fun idx => Host.scatterAdd (F := Ideal) scatter_S50000x64_S800000x1_S800000x64_1_0_0_1 _ _
      (Host.gather gather_S50000x16x64_S800000x2_S800000x64_1_01_n_n_01_1_1164 _ idx))
    (concat2_congr _ _ _ _ _ _ _ _ (by after_results_simp; rfl) (by after_results_simp; rfl))
set_option maxHeartbeats 4000000 in
theorem h7_v108 : (StableHlo.after (hostOps7 (F := Ideal)) W (Proc.devRef .tc main_v108) : S50000x64.Idx → EReal)
    = kAgg (W (Proc.devRef .tc main_v90_1)) (W (Proc.devRef .tc main_arg2)) (W (Proc.devRef .tc main_arg3)) (W (Proc.devRef .tc main_v22)) := by
  after_results_simp
  unfold kAgg kIdx
  exact congrArg (fun idx => Host.scatterAdd (F := Ideal) scatter_S50000x64_S800000x1_S800000x64_1_0_0_1 _ _
      (Host.gather gather_S50000x16x64_S800000x2_S800000x64_1_01_n_n_01_1_1164 _ idx))
    (concat2_congr _ _ _ _ _ _ _ _ (by after_results_simp; rfl) (by after_results_simp; rfl))
theorem h2_v47 : (StableHlo.after (hostOps2 (F := Ideal)) W (Proc.devRef .tc main_v47) : S1x64.Idx → EReal) = kMean (W (Proc.devRef .tc main_v45_1)) := by
  after_results_simp; rfl
theorem h2_v53 : (StableHlo.after (hostOps2 (F := Ideal)) W (Proc.devRef .tc main_v53) : S1x64.Idx → EReal) = kVar (W (Proc.devRef .tc main_v45_1)) (W (Proc.devRef .tc main_v45_2)) := by
  after_results_simp; rfl
theorem h5_v79 : (StableHlo.after (hostOps5 (F := Ideal)) W (Proc.devRef .tc main_v79) : S1x64.Idx → EReal) = kMean (W (Proc.devRef .tc main_v77_1)) := by
  after_results_simp; rfl
theorem h5_v85 : (StableHlo.after (hostOps5 (F := Ideal)) W (Proc.devRef .tc main_v85) : S1x64.Idx → EReal) = kVar (W (Proc.devRef .tc main_v77_1)) (W (Proc.devRef .tc main_v77_2)) := by
  after_results_simp; rfl
theorem h8_v111 : (StableHlo.after (hostOps8 (F := Ideal)) W (Proc.devRef .tc main_v111) : S1x64.Idx → EReal) = kMean (W (Proc.devRef .tc main_v109_1)) := by
  after_results_simp; rfl
theorem h8_v117 : (StableHlo.after (hostOps8 (F := Ideal)) W (Proc.devRef .tc main_v117) : S1x64.Idx → EReal) = kVar (W (Proc.devRef .tc main_v109_1)) (W (Proc.devRef .tc main_v109_2)) := by
  after_results_simp; rfl
theorem h3_v55 : (StableHlo.after (hostOps3 (F := Ideal)) W (Proc.devRef .tc main_v55) : S1x64.Idx → EReal) = kRow64 (W (Proc.devRef .tc main_arg11)) := by
  after_results_simp; rfl
theorem h3_v56 : (StableHlo.after (hostOps3 (F := Ideal)) W (Proc.devRef .tc main_v56) : S1x64.Idx → EReal) = kRow64 (W (Proc.devRef .tc main_arg12)) := by
  after_results_simp; rfl
theorem h3_v57 : (StableHlo.after (hostOps3 (F := Ideal)) W (Proc.devRef .tc main_v57) : S1x64.Idx → EReal) = kRow64 (W (Proc.devRef .tc main_arg13)) := by
  after_results_simp; rfl
theorem h6_v87 : (StableHlo.after (hostOps6 (F := Ideal)) W (Proc.devRef .tc main_v87) : S1x64.Idx → EReal) = kRow64 (W (Proc.devRef .tc main_arg15)) := by
  after_results_simp; rfl
theorem h6_v88 : (StableHlo.after (hostOps6 (F := Ideal)) W (Proc.devRef .tc main_v88) : S1x64.Idx → EReal) = kRow64 (W (Proc.devRef .tc main_arg16)) := by
  after_results_simp; rfl
theorem h6_v89 : (StableHlo.after (hostOps6 (F := Ideal)) W (Proc.devRef .tc main_v89) : S1x64.Idx → EReal) = kRow64 (W (Proc.devRef .tc main_arg17)) := by
  after_results_simp; rfl
theorem h9_v119 : (StableHlo.after (hostOps9 (F := Ideal)) W (Proc.devRef .tc main_v119) : S1x2.Idx → EReal) = kRow2 (W (Proc.devRef .tc main_arg19)) := by
  after_results_simp; rfl

end Cert.KernelIdeal.Hand

end
-- ==== Proof.Spec.lean ====
/-
  The network's stages as functions of whole arrays over the extended reals, index by index.
  One layer of the message-passing network: a node transform `h = x·W + b`, its image under the
  sixteen cross-basis matrices laid side by side `T = h·Mt`, an aggregation of gathered rows
  (kept abstract: both programs apply the same gather and scatter-add), the residual sum
  `o = h + agg`, the per-feature sum and sum of squares of `o` over all nodes, and the normalised,
  rectified output `max(((o − μ)·rsqrt(v + ε))·g + β, 0)`. After three layers, a last affine map.
  Every function below is stated at literal extents, the coordinates of an index typed as
  `Fin` of those extents.
-/
import Idealize.ShloMosaic.PureOps.Ideal
import Idealize.ShloMosaic.Lib.ValueIdx

noncomputable section

open scoped BigOperators
open Idealize.ShloMosaic Idealize.ShloMosaic.ValueIdx

namespace Cert.Spec

/-- A rank-2 array of extended reals with literal extents. -/
abbrev Arr (a b : Nat) : Type := (⟨2, ![a, b]⟩ : Shape).Idx → EReal

/-- The two coordinates of a rank-2 index, typed by the literal extents. -/
abbrev row {a b : Nat} (i : (⟨2, ![a, b]⟩ : Shape).Idx) : Fin a := i 0
abbrev col {a b : Nat} (i : (⟨2, ![a, b]⟩ : Shape).Idx) : Fin b := i 1

/-- The variance's guard: the binary32 word nearest 1e-5, read exactly. -/
def eps : EReal := Ideal.ofBits .f32 0x3727C5AC#32

/-- Entry `(n, f)` of `x·W + b` for a 128-wide input: the row of `x` against the column of `W`, plus the bias. -/
def lin128At (x : Arr 50000 128) (W : Arr 128 64) (b : Arr 1 64) (n : Fin 50000) (f : Fin 64) : EReal :=
  (∑ k : Fin 128, x (ix2 n k) * W (ix2 k f)) + b (ix2 0 f)
def lin128 (x : Arr 50000 128) (W : Arr 128 64) (b : Arr 1 64) : Arr 50000 64 :=
  fun i => lin128At x W b (row i) (col i)

/-- The same for a 64-wide input. -/
def lin64At (x : Arr 50000 64) (W : Arr 64 64) (b : Arr 1 64) (n : Fin 50000) (f : Fin 64) : EReal :=
  (∑ k : Fin 64, x (ix2 n k) * W (ix2 k f)) + b (ix2 0 f)
def lin64 (x : Arr 50000 64) (W : Arr 64 64) (b : Arr 1 64) : Arr 50000 64 :=
  fun i => lin64At x W b (row i) (col i)

/-- Entry `(n, j)` of `h·Mt`: node `n`'s features against column `j` of the re-laid basis. -/
def projAt (h : Arr 50000 64) (Mt : Arr 64 1024) (n : Fin 50000) (j : Fin 1024) : EReal :=
  ∑ f : Fin 64, h (ix2 n f) * Mt (ix2 f j)
def proj (h : Arr 50000 64) (Mt : Arr 64 1024) : Arr 50000 1024 :=
  fun i => projAt h Mt (row i) (col i)

/-- Entry `(n, o)` of the last affine map `h·W + b` onto two classes. -/
def lin2At (h : Arr 50000 64) (W : Arr 64 2) (b : Arr 1 2) (n : Fin 50000) (o : Fin 2) : EReal :=
  (∑ f : Fin 64, h (ix2 n f) * W (ix2 f o)) + b (ix2 0 o)
def lin2 (h : Arr 50000 64) (W : Arr 64 2) (b : Arr 1 2) : Arr 50000 2 :=
  fun i => lin2At h W b (row i) (col i)

/-- The residual sum, entry by entry. -/
def addv (h a : Arr 50000 64) : Arr 50000 64 := fun i => h i + a i

/-- The sum of feature `f` over all nodes, as a one-row array. -/
def colsumAt (o : Arr 50000 64) (f : Fin 64) : EReal := ∑ n : Fin 50000, o (ix2 n f)
def colsum (o : Arr 50000 64) : Arr 1 64 := fun i => colsumAt o (col i)

/-- The sum of the squares of feature `f` over all nodes, as a one-row array. -/
def colsumsqAt (o : Arr 50000 64) (f : Fin 64) : EReal := ∑ n : Fin 50000, o (ix2 n f) * o (ix2 n f)
def colsumsq (o : Arr 50000 64) : Arr 1 64 := fun i => colsumsqAt o (col i)

/-- Entry `(n, f)` of the normalised, scaled, shifted and rectified output. -/
def bnreluAt (o : Arr 50000 64) (mu var g be : Arr 1 64) (n : Fin 50000) (f : Fin 64) : EReal :=
  max ((((o (ix2 n f) - mu (ix2 0 f)) * Ideal.rsqrt (var (ix2 0 f) + eps)) * g (ix2 0 f)) + be (ix2 0 f)) 0
def bnrelu (o : Arr 50000 64) (mu var g be : Arr 1 64) : Arr 50000 64 :=
  fun i => bnreluAt o mu var g be (row i) (col i)

/-! Each stage at an index given by its coordinates (all by unfolding). -/

theorem lin128_apply (x : Arr 50000 128) (W : Arr 128 64) (b : Arr 1 64) (n : Fin 50000) (f : Fin 64) :
    lin128 x W b (ix2 n f) = lin128At x W b n f := rfl
theorem lin64_apply (x : Arr 50000 64) (W : Arr 64 64) (b : Arr 1 64) (n : Fin 50000) (f : Fin 64) :
    lin64 x W b (ix2 n f) = lin64At x W b n f := rfl
theorem proj_apply (h : Arr 50000 64) (Mt : Arr 64 1024) (n : Fin 50000) (j : Fin 1024) :
    proj h Mt (ix2 n j) = projAt h Mt n j := rfl
theorem lin2_apply (h : Arr 50000 64) (W : Arr 64 2) (b : Arr 1 2) (n : Fin 50000) (o : Fin 2) :
    lin2 h W b (ix2 n o) = lin2At h W b n o := rfl
theorem addv_apply (h a : Arr 50000 64) (i : (⟨2, ![50000, 64]⟩ : Shape).Idx) : addv h a i = h i + a i := rfl
theorem colsum_apply (o : Arr 50000 64) (z : Fin 1) (f : Fin 64) : colsum o (ix2 z f) = colsumAt o f := rfl
theorem colsumsq_apply (o : Arr 50000 64) (z : Fin 1) (f : Fin 64) : colsumsq o (ix2 z f) = colsumsqAt o f := rfl
theorem bnrelu_apply (o : Arr 50000 64) (mu var g be : Arr 1 64) (n : Fin 50000) (f : Fin 64) :
    bnrelu o mu var g be (ix2 n f) = bnreluAt o mu var g be n f := rfl

end Cert.Spec

end
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.KI.Pay0.lean ====
import proofs.«177069_j18983755448416_1_alg».proof.Proof.KI.Reg0
import proofs.«177069_j18983755448416_1_alg».proof.Proof.Spec
import proofs.«177069_j18983755448416_1_alg».proof.Proof.LibPlainDot
import Idealize.ShloMosaic.Lib.Pipeline.Value
import Idealize.ShloMosaic.Lib.ValueLayout
import Idealize.ShloMosaic.Lib.Tactic

/-! # Region 0 of @main (the node transform of layer 1): the stored values entry by entry, and the blocks' cover

Grid point t reads rows 2000·t … 2000·t + 1999 of the layer's input and writes the same rows of the two results.
Entry (p, f) of the first stored block is the row of the input block against column f of the weight, plus the
bias; entry (p, j) of the second is that row of the first block against column j of the cross basis. The 25
blocks tile the 50000 rows, so after the region the first result is x·W + b and the second is (x·W + b)·Mt,
as functions of the arrays the region was entered with. -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The two stored values at an index -/

/-- Entry (p, q) of the first stored value: row p of the input block against column q of the weight (the product is
    taken into a zero accumulator and a change of float format is the identity), plus the bias row at q. -/
theorem pay0_1_apply (x0 : Vec Ideal S2000x128 .f32) (x1 : Vec Ideal S128x64 .f32) (x2 : Vec Ideal S1x64 .f32) (p : Fin 2000) (q : Fin 64) :
    k0_pay1 x0 x1 x2 (ix2 p q) = (∑ k : Fin 128, x0 (ix2 p k) * x1 (ix2 k q)) + x2 (ix2 (0 : Fin 1) q) := by
  unfold k0_pay1
  refine (addf_apply _ _ _).trans ?_
  congr 1
  · refine (Cert.PlainDot.matmul_apply dot_S2000x128_S128x64_S2000x64_1_0_0_1_n_n ⟨rfl, rfl, rfl, rfl, rfl, rfl⟩ none _ _ p q).trans ?_
    refine Finset.sum_congr rfl fun k _ => ?_
    rfl
  · refine (broadcastTo_1b_ab_apply _ _ p q).trans ?_
    exact congrFun (shapeCast_self x2 _) _

/-- Entry (p, j) of the second stored value: row p of the first stored value against column j of the cross basis. -/
theorem pay0_2_apply (x0 : Vec Ideal S2000x128 .f32) (x1 : Vec Ideal S128x64 .f32) (x2 : Vec Ideal S1x64 .f32) (x3 : Vec Ideal S64x1024 .f32)
    (p : Fin 2000) (j : Fin 1024) :
    k0_pay2 x0 x1 x2 x3 (ix2 p j) = ∑ f : Fin 64, k0_pay1 x0 x1 x2 (ix2 p f) * x3 (ix2 f j) := by
  unfold k0_pay2
  refine (Cert.PlainDot.matmul_apply dot_S2000x64_S64x1024_S2000x1024_1_0_0_1_n_n ⟨rfl, rfl, rfl, rfl, rfl, rfl⟩ none _ _ p j).trans ?_
  refine Finset.sum_congr rfl fun f _ => ?_
  exact congrArg (k0_pay1 x0 x1 x2 (ix2 p f) * ·) (congrFun (shapeCast_self x3 _) (ix2 f j))

/-! ## The blocks as rows of the arrays -/

-- the TensorCore's buffer contents when the region is entered
variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the 25 grid points: the input block and the two result blocks move with the
    point along the rows; the weight, the bias and the cross basis are read whole at every point. -/
theorem idx0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- A grid point is one of 25. -/
theorem lt25_0 (t : Fin cfg0.N) : t.val < 25 := lt_of_lt_of_eq t.isLt N_0

/-- The row of the arrays that row p of the blocks at point t is. -/
def rowOf0 (t : Fin cfg0.N) (p : Fin 2000) : Fin 50000 := ⟨t.val * 2000 + p.val, by have := lt25_0 t; have := p.isLt; omega⟩

/-- The input block at point t is rows 2000·t … of the layer's input. -/
theorem iblk0_0_apply (c : Dev nD) (t : Fin cfg0.N) (p : Fin 2000) (k : Fin 128) :
    (iblk0 V c 0 t : Vec Ideal S2000x128 .f32) (ix2 p k) = (V c main_arg0 : S50000x128.Idx → EReal) (ix2 (rowOf0 t p) k) := by
  obtain ⟨⟨e0, e1⟩, -⟩ := idx0 t
  unfold iblk0
  rw [View.read_apply]
  show V c main_arg0 _ = V c main_arg0 _
  congr 1
  funext a
  apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The weight's block at every point is the weight. -/
theorem iblk0_1_apply (c : Dev nD) (t : Fin cfg0.N) (k : Fin 128) (q : Fin 64) :
    (iblk0 V c 1 t : Vec Ideal S128x64 .f32) (ix2 k q) = (V c main_arg6 : S128x64.Idx → EReal) (ix2 k q) := by
  obtain ⟨-, ⟨e0, e1⟩, -⟩ := idx0 t
  unfold iblk0
  rw [View.read_apply]
  show V c main_arg6 _ = V c main_arg6 _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- The bias row's block at every point is the bias row. -/
theorem iblk0_2_apply (c : Dev nD) (t : Fin cfg0.N) (z : Fin 1) (q : Fin 64) :
    (iblk0 V c 2 t : Vec Ideal S1x64 .f32) (ix2 z q) = (V c main_v23 : S1x64.Idx → EReal) (ix2 z q) := by
  obtain ⟨-, -, ⟨e0, e1⟩, -⟩ := idx0 t
  unfold iblk0
  rw [View.read_apply]
  show V c main_v23 _ = V c main_v23 _
  congr 1
  funext a
  apply Fin.ext
  match a with
  | ⟨0, _⟩ => show win0_2.index t (0 : Fin 2) * 1 + 1 * z.val = z.val; rw [e0]; omega
  | ⟨1, _⟩ => show win0_2.index t (1 : Fin 2) * 64 + 1 * q.val = q.val; rw [e1]; omega

/-- The cross basis's block at every point is the cross basis. -/
theorem iblk0_3_apply (c : Dev nD) (t : Fin cfg0.N) (f : Fin 64) (j : Fin 1024) :
    (iblk0 V c 3 t : Vec Ideal S64x1024 .f32) (ix2 f j) = (V c main_v2 : S64x1024.Idx → EReal) (ix2 f j) := by
  obtain ⟨-, -, -, ⟨e0, e1⟩, -⟩ := idx0 t
  unfold iblk0
  rw [View.read_apply]
  show V c main_v2 _ = V c main_v2 _
  congr 1
  funext a
  apply Fin.ext
  match a with
  | ⟨0, _⟩ => show win0_3.index t (0 : Fin 2) * 64 + 1 * f.val = f.val; rw [e0]; omega
  | ⟨1, _⟩ => show win0_3.index t (1 : Fin 2) * 1024 + 1 * j.val = j.val; rw [e1]; omega

/-- Entry (p, f) of the first value stored at point t is entry (2000·t + p, f) of x·W + b. -/
theorem pay0_1_blk (c : Dev nD) (t : Fin cfg0.N) (p : Fin 2000) (f : Fin 64) :
    k0_pay1 (iblk0 V c 0 t) (iblk0 V c 1 t) (iblk0 V c 2 t) (ix2 p f)
      = Cert.Spec.lin128At (V c main_arg0) (V c main_arg6) (V c main_v23) (rowOf0 t p) f := by
  refine (pay0_1_apply (iblk0 V c 0 t) (iblk0 V c 1 t) (iblk0 V c 2 t) p f).trans ?_
  unfold Cert.Spec.lin128At
  congr 1
  · refine Finset.sum_congr rfl fun k _ => ?_
    exact congrArg₂ (· * ·) (iblk0_0_apply V c t p k) (iblk0_1_apply V c t k f)
  · exact iblk0_2_apply V c t 0 f

/-- Entry (p, j) of the second value stored at point t is entry (2000·t + p, j) of (x·W + b)·Mt. -/
theorem pay0_2_blk (c : Dev nD) (t : Fin cfg0.N) (p : Fin 2000) (j : Fin 1024) :
    k0_pay2 (iblk0 V c 0 t) (iblk0 V c 1 t) (iblk0 V c 2 t) (iblk0 V c 3 t) (ix2 p j)
      = Cert.Spec.projAt (Cert.Spec.lin128 (V c main_arg0) (V c main_arg6) (V c main_v23)) (V c main_v2) (rowOf0 t p) j := by
  refine (pay0_2_apply (iblk0 V c 0 t) (iblk0 V c 1 t) (iblk0 V c 2 t) (iblk0 V c 3 t) p j).trans ?_
  unfold Cert.Spec.projAt
  refine Finset.sum_congr rfl fun f _ => ?_
  exact congrArg₂ (· * ·) (pay0_1_blk V c t p f) (iblk0_3_apply V c t f j)

/-! ## The result blocks tile the result arrays -/

/-- An index of the first result is in point t's block iff each coordinate is in the block's range on its axis. -/
theorem mem_blk0_4 (t : Fin cfg0.N) (i : S50000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v26_0).slice (win0_4.rect t)).set ↔ _
  rw [View.set_slice_whole, Rect.mem_set_unit]
  exact Iff.rfl

/-- The same for the second result. -/
theorem mem_blk0_5 (t : Fin cfg0.N) (i : S50000x1024.Idx) :
    i ∈ ((cfg0.win 5).blk t).view.set ↔ ∀ a : Fin 2, win0_5.index t a * S2000x1024.size a ≤ (i a).val ∧ (i a).val < win0_5.index t a * S2000x1024.size a + S2000x1024.size a := by
  show i ∈ ((View.whole main_v26_1).slice (win0_5.rect t)).set ↔ _
  rw [View.set_slice_whole, Rect.mem_set_unit]
  exact Iff.rfl

/-- Row r lies in the block of point r / 2000, which is written back: the blocks cover the first result. -/
theorem covered0_4 (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, ⟨e0, e1⟩, -⟩ := idx0 t
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; rw [e0, ht]; omega
  | ⟨1, _⟩ => show win0_4.index t (1 : Fin 2) * 64 ≤ (i 1).val ∧ (i 1).val < win0_4.index t (1 : Fin 2) * 64 + 64; rw [e1]; omega

/-- The blocks cover the second result. -/
theorem covered0_5 (i : S50000x1024.Idx) : ∃ t : Fin cfg0.N, (cfg0.win 5).flush t = true ∧ i ∈ ((cfg0.win 5).blk t).view.set := by
  have hi0 : (i 0).val < 50000 := (i 0).isLt
  have hi1 : (i 1).val < 1024 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, -, ⟨e0, e1⟩⟩ := idx0 t
  refine ⟨t, flush0_5 t, ?_⟩
  rw [mem_blk0_5]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 1024 ≤ (i 1).val ∧ (i 1).val < win0_5.index t (1 : Fin 2) * 1024 + 1024; rw [e1]; omega

end Cert.KernelIdeal.Hand

end
-- ==== Proof.KI.Val0.lean ====
import proofs.«177069_j18983755448416_1_alg».proof.Proof.KI.Pay0
import Idealize.ShloMosaic.Lib.Pipeline.Value
import Idealize.ShloMosaic.Lib.ValueLayout
import Idealize.ShloMosaic.Lib.Tactic

/-! # Region 0 of @main (the node transform of layer 1): its two result arrays over the extended reals

Grid point t reads rows 2000·t … 2000·t + 1999 of the layer's input and writes the same rows of the two results.
Entry (p, f) of the first stored block is the row of the input block against column f of the weight, plus the
bias; entry (p, j) of the second is that row of the first block against column j of the cross basis. The 25
blocks tile the 50000 rows, so after the region the first result is x·W + b and the second is (x·W + b)·Mt,
as functions of the arrays the region was entered with. -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## What each point writes back, and the arrays after the region -/

/-- The part of a result's staging buffer that a write-back moves is all of it (no block overhangs its array). -/
theorem cut0_4 (t : Fin cfg0.N) (X : Vec Ideal S2000x64 .f32) : (cfg0.win 4).cut (grid0.coords t) X = X := rfl
theorem cut0_5 (t : Fin cfg0.N) (X : Vec Ideal S2000x1024 .f32) : (cfg0.win 5).cut (grid0.coords t) X = X := rfl

/-- What point t writes back into the first result: the first stored value of the blocks at t. -/
theorem flushed0_4_pay (c : Dev nD) (t : Fin cfg0.N) :
    (dat0 V c).flushed 4 t = k0_pay1 (iblk0 V c 0 t) (iblk0 V c 1 t) (iblk0 V c 2 t) := by
  show (cfg0.win 4).cut (grid0.coords t) ((dat0 V c).after 4 t) = _
  rw [after0_4]
  unfold out0_4
  rw [View.canon_unit_zero hz0]
  simp only [View.ld_unit_zero (S := S2000x128) hz0, View.ld_unit_zero (S := S128x64) hz0, View.ld_unit_zero (S := S1x64) hz0]
  exact cut0_4 t _

/-- What point t writes back into the second result: the second stored value of the blocks at t. -/
theorem flushed0_5_pay (c : Dev nD) (t : Fin cfg0.N) :
    (dat0 V c).flushed 5 t = k0_pay2 (iblk0 V c 0 t) (iblk0 V c 1 t) (iblk0 V c 2 t) (iblk0 V c 3 t) := by
  show (cfg0.win 5).cut (grid0.coords t) ((dat0 V c).after 5 t) = _
  rw [after0_5]
  unfold out0_5
  rw [View.canon_unit_zero hz0]
  simp only [View.ld_unit_zero (S := S2000x128) hz0, View.ld_unit_zero (S := S128x64) hz0, View.ld_unit_zero (S := S1x64) hz0, View.ld_unit_zero (S := S64x1024) hz0]
  exact cut0_5 t _

/-- Block t of an array of 50000 rows of 64, at (p, q), is the array at row 2000·t + p. -/
theorem blk0_4_apply (G : Cert.Spec.Arr 50000 64) (t : Fin cfg0.N) (p : Fin 2000) (q : Fin 64) :
    ((cfg0.win 4).blk t).view.read (Elt Ideal) G (ix2 p q : S2000x64.Idx) = G (ix2 (rowOf0 t p) q) := by
  obtain ⟨-, -, -, -, ⟨e0, e1⟩, -⟩ := idx0 t
  rw [View.read_apply]
  show G _ = G _
  congr 1
  funext a
  apply Fin.ext
  match a with
  | ⟨0, _⟩ => show win0_4.index t (0 : Fin 2) * 2000 + 1 * p.val = t.val * 2000 + p.val; rw [e0]; omega
  | ⟨1, _⟩ => show win0_4.index t (1 : Fin 2) * 64 + 1 * q.val = q.val; rw [e1]; omega

/-- Block t of an array of 50000 rows of 1024, at (p, j), is the array at row 2000·t + p. -/
theorem blk0_5_apply (G : Cert.Spec.Arr 50000 1024) (t : Fin cfg0.N) (p : Fin 2000) (j : Fin 1024) :
    ((cfg0.win 5).blk t).view.read (Elt Ideal) G (ix2 p j : S2000x1024.Idx) = G (ix2 (rowOf0 t p) j) := by
  obtain ⟨-, -, -, -, -, ⟨e0, e1⟩⟩ := idx0 t
  rw [View.read_apply]
  show G _ = G _
  congr 1
  funext a
  apply Fin.ext
  match a with
  | ⟨0, _⟩ => show win0_5.index t (0 : Fin 2) * 2000 + 1 * p.val = t.val * 2000 + p.val; rw [e0]; omega
  | ⟨1, _⟩ => show win0_5.index t (1 : Fin 2) * 1024 + 1 * j.val = j.val; rw [e1]; omega

/-- Point t writes back block t of x·W + b. -/
theorem flushed0_4_eq (c : Dev nD) (t : Fin cfg0.N) :
    (dat0 V c).flushed 4 t = ((cfg0.win 4).blk t).view.read (Elt Ideal) (Cert.Spec.lin128 (V c main_arg0) (V c main_arg6) (V c main_v23)) := by
  refine (flushed0_4_pay V c t).trans ?_
  funext (y : S2000x64.Idx)
  obtain ⟨p, q, rfl⟩ : ∃ (p : Fin 2000) (q : Fin 64), y = ix2 p q := ⟨y 0, y 1, eq_ix2 y⟩
  exact (pay0_1_blk V c t p q).trans (blk0_4_apply (Cert.Spec.lin128 (V c main_arg0) (V c main_arg6) (V c main_v23)) t p q).symm

/-- Point t writes back block t of (x·W + b)·Mt. -/
theorem flushed0_5_eq (c : Dev nD) (t : Fin cfg0.N) :
    (dat0 V c).flushed 5 t = ((cfg0.win 5).blk t).view.read (Elt Ideal) (Cert.Spec.proj (Cert.Spec.lin128 (V c main_arg0) (V c main_arg6) (V c main_v23)) (V c main_v2)) := by
  refine (flushed0_5_pay V c t).trans ?_
  funext (y : S2000x1024.Idx)
  obtain ⟨p, j, rfl⟩ : ∃ (p : Fin 2000) (j : Fin 1024), y = ix2 p j := ⟨y 0, y 1, eq_ix2 y⟩
  exact (pay0_2_blk V c t p j).trans (blk0_5_apply (Cert.Spec.proj (Cert.Spec.lin128 (V c main_arg0) (V c main_arg6) (V c main_v23)) (V c main_v2)) t p j).symm

/-- After the region the first result array is x·W + b of the arrays the region was entered with. -/
theorem final0_4 (c : Dev nD) :
    (dat0 (F := Ideal) V c).arrAt 4 cfg0.N = Cert.Spec.lin128 (V c main_arg0) (V c main_arg6) (V c main_v23) :=
  (dat0 V c).arrAt_eq_of_cover 4 (Cert.Spec.lin128 (V c main_arg0) (V c main_arg6) (V c main_v23)) (fun t _ => flushed0_4_eq V c t) (covered0_4)

/-- After the region the second result array is (x·W + b)·Mt. -/
theorem final0_5 (c : Dev nD) :
    (dat0 (F := Ideal) V c).arrAt 5 cfg0.N = Cert.Spec.proj (Cert.Spec.lin128 (V c main_arg0) (V c main_arg6) (V c main_v23)) (V c main_v2) :=
  (dat0 V c).arrAt_eq_of_cover 5 (Cert.Spec.proj (Cert.Spec.lin128 (V c main_arg0) (V c main_arg6) (V c main_v23)) (V c main_v2)) (fun t _ => flushed0_5_eq V c t) (covered0_5)

end Cert.KernelIdeal.Hand

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.LibTileSums.lean ====
/-
  A column of a [50000, 64] array of extended reals summed tile by tile.

  The 50000 rows are 25 consecutive tiles of 2000 rows. A running total that starts at the first tile's column
  sum and adds one tile's column sum per step holds, after the last tile, the sum of the whole column. The same
  holds for any function of the entries summed that way (the squares, for a sum of squares). Only commutativity
  and associativity of addition are used, so nothing is asked of the entries. Depends on no program.
-/
import proofs.«177069_j18983755448416_1_alg».proof.Proof.LibBlockSum
import Idealize.ShloMosaic.PureOps.Ideal
import Idealize.ShloMosaic.Lib.ValueIdx

noncomputable section

open scoped BigOperators
open Idealize.ShloMosaic Idealize.ShloMosaic.ValueIdx

namespace Cert.TileSums

/-- Row `r` of tile `n`: tiles of 2000 consecutive rows, 25 of them. -/
def tileRow (n : ℕ) (hn : n < 25) (r : Fin 2000) : Fin 50000 := ⟨n * 2000 + r.val, by have := r.isLt; omega⟩

/-- A function of the rows as a sequence over all naturals, zero past the end. -/
def seqOf (g : Fin 50000 → EReal) : ℕ → EReal := fun k => if h : k < 50000 then g ⟨k, h⟩ else 0

theorem seqOf_tile (g : Fin 50000 → EReal) (n : ℕ) (hn : n < 25) (r : Fin 2000) :
    seqOf g (n * 2000 + r.val) = g (tileRow n hn r) := by
  have hr := r.isLt
  unfold seqOf tileRow
  rw [dif_pos (by omega)]

/-- The running total after tile `n`: the tiles `0 … n` summed one after the other. -/
def running (g : Fin 50000 → EReal) (n : ℕ) : EReal :=
  ∑ s ∈ Finset.range (n + 1), ∑ r : Fin 2000, seqOf g (s * 2000 + r.val)

theorem running_zero (g : Fin 50000 → EReal) :
    running g 0 = ∑ r : Fin 2000, g (tileRow 0 (by decide) r) := by
  unfold running
  rw [Finset.sum_range_one]
  exact Finset.sum_congr rfl fun r _ => seqOf_tile g 0 (by decide) r

theorem running_succ (g : Fin 50000 → EReal) (n : ℕ) (hn : n + 1 < 25) :
    running g (n + 1) = running g n + ∑ r : Fin 2000, g (tileRow (n + 1) hn r) := by
  unfold running
  rw [Finset.sum_range_succ]
  exact congrArg _ (Finset.sum_congr rfl fun r _ => seqOf_tile g (n + 1) hn r)

/-- After the last tile the running total is the sum over all rows. -/
theorem running_last (g : Fin 50000 → EReal) : running g 24 = ∑ n : Fin 50000, g n := by
  unfold running
  have h := Cert.BlockSum.sum_blocks 25 2000 (seqOf g)
  refine h.trans ?_
  show ∑ n : Fin 50000, seqOf g n.val = _
  refine Finset.sum_congr rfl fun n _ => ?_
  unfold seqOf
  rw [dif_pos n.isLt]

end Cert.TileSums

end
-- ==== Proof.KI.Val1.lean ====
import proofs.«177069_j18983755448416_1_alg».proof.Proof.KI.Reg1
import proofs.«177069_j18983755448416_1_alg».proof.Proof.Spec
import proofs.«177069_j18983755448416_1_alg».proof.Proof.LibColumnSum
import proofs.«177069_j18983755448416_1_alg».proof.Proof.LibBlockSum
import Idealize.ShloMosaic.Lib.Pipeline.Value
import Idealize.ShloMosaic.Lib.ValueIdx
import proofs.«177069_j18983755448416_1_alg».proof.Proof.LibTileSums

/-! Region 1 (the add-and-statistics kernel), its value at the exact instance: after the last grid point the sum
window's array holds the entrywise sum of the two inputs, and the two statistics windows' arrays hold, per feature,
the sum and the sum of squares of that sum over all 50000 rows. The accumulators are followed point by point: after
point `n` each holds the total over the rows of tiles `0 … n`; 25 tiles of 2000 rows make the whole column. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

open Cert.TileSums

section Pieces
variable {F : FTy → Type} [FloatOps F]

theorem val1_hz : (![0, 0] : Fin 2 → Nat) = fun _ => 0 := funext fun a => by fin_cases a <;> rfl

/-! ## What each case's found pieces are: the skeleton's payloads of the buffers' contents -/

theorem out1_A_2_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 x1 : Vec F S2000x64 .f32) :
    out1_A_2 c i arg1 harg1 arg2 harg2 arg3 harg3 arg4 harg4 arg5 harg5 arg6 harg6 arg7 harg7 hc0 hc1 x0 x1 = k1_pay3 x0 x1 := by
  unfold out1_A_2
  rw [View.read_writes_eq_canon _ _ _ (cover1_A_2 c i arg1 harg1 arg2 harg2 arg3 harg3 arg4 harg4 arg5 harg5 arg6 harg6 arg7 harg7 hc0 hc1 x0 x1)]
  unfold kernelRun1_A
  dsimp only
  sl_unfold_words
  rw [View.canon_unit_zero val1_hz]
  simp only [View.readAt_eq_ld, harg1.read_unread, harg2.read_unread, View.ld_unit_zero (S := S2000x64) val1_hz]

theorem sout1_A_0_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 x1 : Vec F S2000x64 .f32) :
    sout1_A_0 c i arg1 harg1 arg2 harg2 arg3 harg3 arg4 harg4 arg5 harg5 arg6 harg6 arg7 harg7 hc0 hc1 x0 x1 = k1_pay4 x0 x1 (k1_pay1 (F := F)) := by
  unfold sout1_A_0
  rw [View.read_writes_eq_canon _ _ _ (scover1_A_0 c i arg1 harg1 arg2 harg2 arg3 harg3 arg4 harg4 arg5 harg5 arg6 harg6 arg7 harg7 hc0 hc1 x0 x1)]
  unfold kernelRun1_A
  dsimp only
  sl_unfold_words
  rw [View.canon_cons_unit_zero (S := S1x64) val1_hz, View.readCov_unit_zero (S := S1x64) _ val1_hz]
  simp only [View.readAt_eq_ld, harg1.read_unread, harg2.read_unread, View.ld_unit_zero (S := S2000x64) val1_hz]

theorem sout1_A_1_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (hc1 : ¬cond1_1 i)
    (x0 x1 : Vec F S2000x64 .f32) :
    sout1_A_1 c i arg1 harg1 arg2 harg2 arg3 harg3 arg4 harg4 arg5 harg5 arg6 harg6 arg7 harg7 hc0 hc1 x0 x1 = k1_pay5 x0 x1 (k1_pay2 (F := F)) := by
  unfold sout1_A_1
  rw [View.read_writes_eq_canon _ _ _ (scover1_A_1 c i arg1 harg1 arg2 harg2 arg3 harg3 arg4 harg4 arg5 harg5 arg6 harg6 arg7 harg7 hc0 hc1 x0 x1)]
  unfold kernelRun1_A
  dsimp only
  sl_unfold_words
  rw [View.canon_cons_unit_zero (S := S1x64) val1_hz, View.readCov_unit_zero (S := S1x64) _ val1_hz]
  simp only [View.readAt_eq_ld, harg1.read_unread, harg2.read_unread, View.ld_unit_zero (S := S2000x64) val1_hz]

theorem out1_B_2_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 x1 : Vec F S2000x64 .f32) (xs0 xs1 : Vec F S1x64 .f32) :
    out1_B_2 c i arg1 harg1 arg2 harg2 arg3 harg3 arg4 harg4 arg5 harg5 arg6 harg6 arg7 harg7 hc0 hc1 x0 x1 xs0 xs1 = k1_pay3 x0 x1 := by
  unfold out1_B_2
  rw [View.read_writes_eq_canon _ _ _ (cover1_B_2 c i arg1 harg1 arg2 harg2 arg3 harg3 arg4 harg4 arg5 harg5 arg6 harg6 arg7 harg7 hc0 hc1 x0 x1 xs0 xs1)]
  unfold kernelRun1_B
  dsimp only
  sl_unfold_words
  rw [View.canon_unit_zero val1_hz]
  simp only [View.readAt_eq_ld, harg1.read_unread, harg2.read_unread, View.ld_unit_zero (S := S2000x64) val1_hz]

theorem sout1_B_0_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 x1 : Vec F S2000x64 .f32) (xs0 xs1 : Vec F S1x64 .f32) :
    sout1_B_0 c i arg1 harg1 arg2 harg2 arg3 harg3 arg4 harg4 arg5 harg5 arg6 harg6 arg7 harg7 hc0 hc1 x0 x1 xs0 xs1 = k1_pay4 x0 x1 xs0 := by
  unfold sout1_B_0
  rw [View.read_writes_eq_canon _ _ _ (scover1_B_0 c i arg1 harg1 arg2 harg2 arg3 harg3 arg4 harg4 arg5 harg5 arg6 harg6 arg7 harg7 hc0 hc1 x0 x1 xs0 xs1)]
  unfold kernelRun1_B
  dsimp only
  sl_unfold_words
  rw [View.canon_unit_zero val1_hz]
  simp only [View.readAt_eq_ld, harg1.read_unread, harg2.read_unread, harg6.read_unread, harg7.read_unread, View.ld_unit_zero (S := S2000x64) val1_hz, View.ld_unit_zero (S := S1x64) val1_hz]

theorem sout1_B_1_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : ¬cond1_1 i)
    (x0 x1 : Vec F S2000x64 .f32) (xs0 xs1 : Vec F S1x64 .f32) :
    sout1_B_1 c i arg1 harg1 arg2 harg2 arg3 harg3 arg4 harg4 arg5 harg5 arg6 harg6 arg7 harg7 hc0 hc1 x0 x1 xs0 xs1 = k1_pay5 x0 x1 xs1 := by
  unfold sout1_B_1
  rw [View.read_writes_eq_canon _ _ _ (scover1_B_1 c i arg1 harg1 arg2 harg2 arg3 harg3 arg4 harg4 arg5 harg5 arg6 harg6 arg7 harg7 hc0 hc1 x0 x1 xs0 xs1)]
  unfold kernelRun1_B
  dsimp only
  sl_unfold_words
  rw [View.canon_unit_zero val1_hz]
  simp only [View.readAt_eq_ld, harg1.read_unread, harg2.read_unread, harg6.read_unread, harg7.read_unread, View.ld_unit_zero (S := S2000x64) val1_hz, View.ld_unit_zero (S := S1x64) val1_hz]

theorem out1_C_2_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 x1 : Vec F S2000x64 .f32) (xs0 xs1 : Vec F S1x64 .f32) :
    out1_C_2 c i arg1 harg1 arg2 harg2 arg3 harg3 arg4 harg4 arg5 harg5 arg6 harg6 arg7 harg7 hc0 hc1 x0 x1 xs0 xs1 = k1_pay3 x0 x1 := by
  unfold out1_C_2
  rw [View.read_writes_eq_canon _ _ _ (cover1_C_2 c i arg1 harg1 arg2 harg2 arg3 harg3 arg4 harg4 arg5 harg5 arg6 harg6 arg7 harg7 hc0 hc1 x0 x1 xs0 xs1)]
  unfold kernelRun1_C
  dsimp only
  sl_unfold_words
  rw [View.canon_unit_zero val1_hz]
  simp only [View.readAt_eq_ld, harg1.read_unread, harg2.read_unread, View.ld_unit_zero (S := S2000x64) val1_hz]

theorem sout1_C_0_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 x1 : Vec F S2000x64 .f32) (xs0 xs1 : Vec F S1x64 .f32) :
    sout1_C_0 c i arg1 harg1 arg2 harg2 arg3 harg3 arg4 harg4 arg5 harg5 arg6 harg6 arg7 harg7 hc0 hc1 x0 x1 xs0 xs1 = k1_pay4 x0 x1 xs0 := by
  unfold sout1_C_0
  rw [View.read_writes_eq_canon _ _ _ (scover1_C_0 c i arg1 harg1 arg2 harg2 arg3 harg3 arg4 harg4 arg5 harg5 arg6 harg6 arg7 harg7 hc0 hc1 x0 x1 xs0 xs1)]
  unfold kernelRun1_C
  dsimp only
  sl_unfold_words
  rw [View.canon_unit_zero val1_hz]
  simp only [View.readAt_eq_ld, harg1.read_unread, harg2.read_unread, harg6.read_unread, harg7.read_unread, View.ld_unit_zero (S := S2000x64) val1_hz, View.ld_unit_zero (S := S1x64) val1_hz]

theorem sout1_C_1_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 x1 : Vec F S2000x64 .f32) (xs0 xs1 : Vec F S1x64 .f32) :
    sout1_C_1 c i arg1 harg1 arg2 harg2 arg3 harg3 arg4 harg4 arg5 harg5 arg6 harg6 arg7 harg7 hc0 hc1 x0 x1 xs0 xs1 = k1_pay5 x0 x1 xs1 := by
  unfold sout1_C_1
  rw [View.read_writes_eq_canon _ _ _ (scover1_C_1 c i arg1 harg1 arg2 harg2 arg3 harg3 arg4 harg4 arg5 harg5 arg6 harg6 arg7 harg7 hc0 hc1 x0 x1 xs0 xs1)]
  unfold kernelRun1_C
  dsimp only
  sl_unfold_words
  rw [View.canon_unit_zero val1_hz]
  simp only [View.readAt_eq_ld, harg1.read_unread, harg2.read_unread, harg6.read_unread, harg7.read_unread, View.ld_unit_zero (S := S2000x64) val1_hz, View.ld_unit_zero (S := S1x64) val1_hz]

theorem out1_C_3_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 x1 : Vec F S2000x64 .f32) (xs0 xs1 : Vec F S1x64 .f32) :
    out1_C_3 c i arg1 harg1 arg2 harg2 arg3 harg3 arg4 harg4 arg5 harg5 arg6 harg6 arg7 harg7 hc0 hc1 x0 x1 xs0 xs1 = k1_pay4 x0 x1 xs0 := by
  unfold out1_C_3
  rw [View.read_writes_eq_canon _ _ _ (cover1_C_3 c i arg1 harg1 arg2 harg2 arg3 harg3 arg4 harg4 arg5 harg5 arg6 harg6 arg7 harg7 hc0 hc1 x0 x1 xs0 xs1)]
  unfold kernelRun1_C
  dsimp only
  sl_unfold_words
  rw [View.canon_unit_zero val1_hz]
  rw [View.readCov_unit_zero (S := S1x64) _ val1_hz]
  simp only [View.readAt_eq_ld, harg1.read_unread, harg2.read_unread, harg6.read_unread, harg7.read_unread, View.ld_unit_zero (S := S2000x64) val1_hz, View.ld_unit_zero (S := S1x64) val1_hz]

theorem out1_C_4_eq (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (hc1 : cond1_1 i)
    (x0 x1 : Vec F S2000x64 .f32) (xs0 xs1 : Vec F S1x64 .f32) :
    out1_C_4 c i arg1 harg1 arg2 harg2 arg3 harg3 arg4 harg4 arg5 harg5 arg6 harg6 arg7 harg7 hc0 hc1 x0 x1 xs0 xs1 = k1_pay5 x0 x1 xs1 := by
  unfold out1_C_4
  rw [View.read_writes_eq_canon _ _ _ (cover1_C_4 c i arg1 harg1 arg2 harg2 arg3 harg3 arg4 harg4 arg5 harg5 arg6 harg6 arg7 harg7 hc0 hc1 x0 x1 xs0 xs1)]
  unfold kernelRun1_C
  dsimp only
  sl_unfold_words
  rw [View.canon_unit_zero val1_hz]
  rw [View.readCov_unit_zero (S := S1x64) _ val1_hz]
  simp only [View.readAt_eq_ld, harg1.read_unread, harg2.read_unread, harg6.read_unread, harg7.read_unread, View.ld_unit_zero (S := S2000x64) val1_hz, View.ld_unit_zero (S := S1x64) val1_hz]

end Pieces

/-! ## The payloads read at an index, over the extended reals -/

section Payloads

theorem k1_pay3_apply (x0 x1 : Vec Ideal S2000x64 .f32) (y : S2000x64.Idx) :
    k1_pay3 x0 x1 y = x0 y + x1 y := by
  unfold k1_pay3
  (try dsimp only)
  rw [shapeCast_self, shapeCast_self]
  rfl

theorem k1_pay1_apply (y : S1x64.Idx) : k1_pay1 (F := Ideal) y = 0 := by
  unfold k1_pay1
  (try dsimp only)
  rw [shapeCast_self]
  exact Ideal.ofBits_zero_f32

theorem k1_pay2_apply (y : S1x64.Idx) : k1_pay2 (F := Ideal) y = 0 := by
  unfold k1_pay2
  (try dsimp only)
  rw [shapeCast_self]
  exact Ideal.ofBits_zero_f32

/-- A column total laid out as a one-row array, read at `(0, f)`. -/
theorem val1_rowOf (w : FVec Ideal S64 .f32) (h : S64.ShapeCasts S1x64) (z : Fin 1) (f : Fin 64) :
    shapeCast S1x64 w h (ix2 z f) = w (ix1 f) :=
  (shapeCast_addUnit_apply ![64] w h (ix2 z f)).trans
    (congrArg w (funext fun a => by match a with | ⟨0, _⟩ => rfl))

theorem k1_pay4_apply (x0 x1 : Vec Ideal S2000x64 .f32) (v : Vec Ideal S1x64 .f32) (z : Fin 1) (f : Fin 64) :
    k1_pay4 x0 x1 v (ix2 z f) = v (ix2 z f) + ∑ r : Fin 2000, (x0 (ix2 r f) + x1 (ix2 r f)) := by
  unfold k1_pay4
  (try dsimp only)
  rw [shapeCast_self]
  refine (addf_apply _ _ _).trans ?_
  refine congrArg (fun e => v (ix2 z f) + e) ?_
  refine (val1_rowOf _ _ z f).trans ?_
  refine (Cert.Lib.column_sum (a := 2000) (b := 64) (k1_pay3 x0 x1) _ _ _ f).trans ?_
  exact Finset.sum_congr rfl fun r _ => k1_pay3_apply x0 x1 (ix2 r f)

theorem k1_pay5_apply (x0 x1 : Vec Ideal S2000x64 .f32) (v : Vec Ideal S1x64 .f32) (z : Fin 1) (f : Fin 64) :
    k1_pay5 x0 x1 v (ix2 z f)
      = v (ix2 z f) + ∑ r : Fin 2000, (x0 (ix2 r f) + x1 (ix2 r f)) * (x0 (ix2 r f) + x1 (ix2 r f)) := by
  unfold k1_pay5
  (try dsimp only)
  rw [shapeCast_self]
  refine (addf_apply _ _ _).trans ?_
  refine congrArg (fun e => v (ix2 z f) + e) ?_
  refine (val1_rowOf _ _ z f).trans ?_
  refine (Cert.Lib.column_sum (a := 2000) (b := 64) (mulf (k1_pay3 x0 x1) (k1_pay3 x0 x1)) _ _ _ f).trans ?_
  refine Finset.sum_congr rfl fun r _ => ?_
  refine (mulf_apply _ _ _).trans ?_
  rw [k1_pay3_apply]

end Payloads

/-! ## The arrays after the region -/

section Value

variable (V : (c : Dev nD) → (b : Ref sig .tc) → Buf (Elt Ideal) ((c : Thread nD τ).loc b))

/-- The residual sum the kernel forms, as a whole array. -/
abbrev o1 (c : Dev nD) : Cert.Spec.Arr 50000 64 := Cert.Spec.addv (V c main_v26_0) (V c main_v44)

/-- The printed index maps over the grid: the three tiled windows are at block `(t, 0)`, the two statistics
    windows at block `(0, 0)`. -/
theorem idx1_facts : ∀ t : Fin cfg1.N, win1_0.index t 0 = t.val ∧ win1_0.index t 1 = 0
    ∧ win1_1.index t 0 = t.val ∧ win1_1.index t 1 = 0
    ∧ win1_2.index t 0 = t.val ∧ win1_2.index t 1 = 0
    ∧ win1_3.index t 0 = 0 ∧ win1_3.index t 1 = 0
    ∧ win1_4.index t 0 = 0 ∧ win1_4.index t 1 = 0 :=
  (by decide +kernel : ∀ t : Fin grid1.N, _)

theorem val1_lt (t : Fin cfg1.N) : t.val < 25 := lt_of_lt_of_eq t.isLt (show cfg1.N = 25 from N_1)

/-- The grid's last point. -/
abbrev val1_last : Fin cfg1.N := ⟨24, by rw [show cfg1.N = 25 from N_1]; omega⟩

theorem iblk1_0_apply (c : Dev nD) (t : Fin cfg1.N) (r : Fin 2000) (f : Fin 64) :
    (iblk1 V c 0 t : Vec Ideal S2000x64 .f32) (ix2 r f) = V c main_v26_0 (ix2 (tileRow t.val (val1_lt t) r) f) := by
  unfold iblk1
  rw [View.read_apply]
  show V c main_v26_0 _ = V c main_v26_0 _
  congr 1; funext a; apply Fin.ext
  match a with
  | ⟨0, _⟩ => show win1_0.index t 0 * 2000 + 1 * r.val = t.val * 2000 + r.val; rw [(idx1_facts t).1]; omega
  | ⟨1, _⟩ => show win1_0.index t 1 * 64 + 1 * f.val = f.val; rw [(idx1_facts t).2.1]; omega

theorem iblk1_1_apply (c : Dev nD) (t : Fin cfg1.N) (r : Fin 2000) (f : Fin 64) :
    (iblk1 V c 1 t : Vec Ideal S2000x64 .f32) (ix2 r f) = V c main_v44 (ix2 (tileRow t.val (val1_lt t) r) f) := by
  unfold iblk1
  rw [View.read_apply]
  show V c main_v44 _ = V c main_v44 _
  congr 1; funext a; apply Fin.ext
  match a with
  | ⟨0, _⟩ => show win1_1.index t 0 * 2000 + 1 * r.val = t.val * 2000 + r.val; rw [(idx1_facts t).2.2.1]; omega
  | ⟨1, _⟩ => show win1_1.index t 1 * 64 + 1 * f.val = f.val; rw [(idx1_facts t).2.2.2.1]; omega

/-- Block `t` of a whole array read through the sum window. -/
theorem blk1_2_read (A : Cert.Spec.Arr 50000 64) (t : Fin cfg1.N) (r : Fin 2000) (f : Fin 64) :
    ((cfg1.win 2).blk t).view.read (Elt Ideal) A (ix2 r f) = A (ix2 (tileRow t.val (val1_lt t) r) f) := by
  rw [View.read_apply]
  show A _ = A _
  congr 1; funext a; apply Fin.ext
  match a with
  | ⟨0, _⟩ => show win1_2.index t 0 * 2000 + 1 * r.val = t.val * 2000 + r.val; rw [(idx1_facts t).2.2.2.2.1]; omega
  | ⟨1, _⟩ => show win1_2.index t 1 * 64 + 1 * f.val = f.val; rw [(idx1_facts t).2.2.2.2.2.1]; omega

theorem mem_blk1_2 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v45_0).slice (win1_2.rect t)).set ↔ _
  rw [View.set_slice_whole, Rect.mem_set_unit]
  exact Iff.rfl

theorem mem_blk1_3 (t : Fin cfg1.N) (i : S1x64.Idx) :
    i ∈ ((cfg1.win 3).blk t).view.set ↔ ∀ a : Fin 2, win1_3.index t a * S1x64.size a ≤ (i a).val ∧ (i a).val < win1_3.index t a * S1x64.size a + S1x64.size a := by
  show i ∈ ((View.whole main_v45_1).slice (win1_3.rect t)).set ↔ _
  rw [View.set_slice_whole, Rect.mem_set_unit]
  exact Iff.rfl

theorem mem_blk1_4 (t : Fin cfg1.N) (i : S1x64.Idx) :
    i ∈ ((cfg1.win 4).blk t).view.set ↔ ∀ a : Fin 2, win1_4.index t a * S1x64.size a ≤ (i a).val ∧ (i a).val < win1_4.index t a * S1x64.size a + S1x64.size a := by
  show i ∈ ((View.whole main_v45_2).slice (win1_4.rect t)).set ↔ _
  rw [View.set_slice_whole, Rect.mem_set_unit]
  exact Iff.rfl

/-- One tile's entries of the residual sum, from the two input blocks. -/
theorem tile1_entry (c : Dev nD) (t : Fin cfg1.N) (r : Fin 2000) (f : Fin 64)
    (x0 x1 : Vec Ideal S2000x64 .f32) (h0 : x0 = iblk1 V c 0 t) (h1 : x1 = iblk1 V c 1 t) :
    x0 (ix2 r f) + x1 (ix2 r f) = o1 V c (ix2 (tileRow t.val (val1_lt t) r) f) := by
  subst h0 h1
  rw [iblk1_0_apply, iblk1_1_apply]
  rfl

/-- One step of an accumulator: the total so far plus this tile's column total. -/
theorem step1_sum (x0 x1 : Vec Ideal S2000x64 .f32) (v : Vec Ideal S1x64 .f32) (g : Fin 50000 → EReal)
    (n : ℕ) (hn : n + 1 < 25) (z : Fin 1) (f : Fin 64)
    (hx : ∀ r : Fin 2000, x0 (ix2 r f) + x1 (ix2 r f) = g (tileRow (n + 1) hn r))
    (hv : v (ix2 z f) = running g n) : k1_pay4 x0 x1 v (ix2 z f) = running g (n + 1) := by
  rw [k1_pay4_apply, running_succ g n hn, hv]
  exact congrArg _ (Finset.sum_congr rfl fun r _ => hx r)

theorem step1_sq (x0 x1 : Vec Ideal S2000x64 .f32) (v : Vec Ideal S1x64 .f32) (g : Fin 50000 → EReal)
    (n : ℕ) (hn : n + 1 < 25) (z : Fin 1) (f : Fin 64)
    (hx : ∀ r : Fin 2000, x0 (ix2 r f) + x1 (ix2 r f) = g (tileRow (n + 1) hn r))
    (hv : v (ix2 z f) = running (fun k => g k * g k) n) : k1_pay5 x0 x1 v (ix2 z f) = running (fun k => g k * g k) (n + 1) := by
  rw [k1_pay5_apply, running_succ (fun k => g k * g k) n hn, hv]
  exact congrArg _ (Finset.sum_congr rfl fun r _ => by rw [hx r])

/-- The first point: the accumulators start from zero. -/
theorem base1_sum (x0 x1 : Vec Ideal S2000x64 .f32) (g : Fin 50000 → EReal) (z : Fin 1) (f : Fin 64)
    (hx : ∀ r : Fin 2000, x0 (ix2 r f) + x1 (ix2 r f) = g (tileRow 0 (by decide) r)) :
    k1_pay4 x0 x1 (k1_pay1 (F := Ideal)) (ix2 z f) = running g 0 := by
  rw [k1_pay4_apply, k1_pay1_apply, zero_add, running_zero]
  exact Finset.sum_congr rfl fun r _ => hx r

theorem base1_sq (x0 x1 : Vec Ideal S2000x64 .f32) (g : Fin 50000 → EReal) (z : Fin 1) (f : Fin 64)
    (hx : ∀ r : Fin 2000, x0 (ix2 r f) + x1 (ix2 r f) = g (tileRow 0 (by decide) r)) :
    k1_pay5 x0 x1 (k1_pay2 (F := Ideal)) (ix2 z f) = running (fun k => g k * g k) 0 := by
  rw [k1_pay5_apply, k1_pay2_apply, zero_add, running_zero]
  exact Finset.sum_congr rfl fun r _ => by rw [hx r]

/-- THE ACCUMULATORS after point `n`: the column totals of the residual sum, and of its squares, over the rows of
    tiles `0 … n` — by induction on the point. -/
theorem acc1_eq (c : Dev nD) : ∀ (n : ℕ) (hn : n < cfg1.N) (z : Fin 1) (f : Fin 64),
    (outsAt1 V c n hn).2.2.2.1 (ix2 z f) = running (fun k => o1 V c (ix2 k f)) n
    ∧ (outsAt1 V c n hn).2.2.2.2 (ix2 z f) = running (fun k => o1 V c (ix2 k f) * o1 V c (ix2 k f)) n
  | 0, hn, z, f => by
    rw [outsAt1_A V c ⟨0, hn⟩ rfl (fun h => by (try dsimp only at h); omega)]
    dsimp only
    rw [sout1_A_0_eq, sout1_A_1_eq]
    exact ⟨base1_sum (iblk1 V c 0 ⟨0, hn⟩) (iblk1 V c 1 ⟨0, hn⟩) (fun k => o1 V c (ix2 k f)) z f (fun r => tile1_entry V c ⟨0, hn⟩ r f _ _ rfl rfl),
      base1_sq (iblk1 V c 0 ⟨0, hn⟩) (iblk1 V c 1 ⟨0, hn⟩) (fun k => o1 V c (ix2 k f)) z f (fun r => tile1_entry V c ⟨0, hn⟩ r f _ _ rfl rfl)⟩
  | n + 1, hn, z, f => by
    have hN : n + 1 < 25 := lt_of_lt_of_eq hn (show cfg1.N = 25 from N_1)
    have ih := acc1_eq c n (Nat.lt_of_succ_lt hn) z f
    have h0 : ¬(⟨n + 1, hn⟩ : Fin cfg1.N).val % 25 = 0 := by dsimp only; omega
    by_cases h1 : (⟨n + 1, hn⟩ : Fin cfg1.N).val % 25 = 24
    · rw [outsAt1_C V c ⟨n + 1, hn⟩ h0 h1]
      dsimp only
      rw [sout1_C_0_eq, sout1_C_1_eq]
      exact ⟨step1_sum (iblk1 V c 0 ⟨n + 1, hn⟩) (iblk1 V c 1 ⟨n + 1, hn⟩) (outsAt1 V c n (Nat.lt_of_succ_lt hn)).2.2.2.1 (fun k => o1 V c (ix2 k f)) n hN z f
          (fun r => tile1_entry V c ⟨n + 1, hn⟩ r f _ _ rfl rfl) ih.1,
        step1_sq (iblk1 V c 0 ⟨n + 1, hn⟩) (iblk1 V c 1 ⟨n + 1, hn⟩) (outsAt1 V c n (Nat.lt_of_succ_lt hn)).2.2.2.2 (fun k => o1 V c (ix2 k f)) n hN z f
          (fun r => tile1_entry V c ⟨n + 1, hn⟩ r f _ _ rfl rfl) ih.2⟩
    · rw [outsAt1_B V c ⟨n + 1, hn⟩ h0 h1]
      dsimp only
      rw [sout1_B_0_eq, sout1_B_1_eq]
      exact ⟨step1_sum (iblk1 V c 0 ⟨n + 1, hn⟩) (iblk1 V c 1 ⟨n + 1, hn⟩) (outsAt1 V c n (Nat.lt_of_succ_lt hn)).2.2.2.1 (fun k => o1 V c (ix2 k f)) n hN z f
          (fun r => tile1_entry V c ⟨n + 1, hn⟩ r f _ _ rfl rfl) ih.1,
        step1_sq (iblk1 V c 0 ⟨n + 1, hn⟩) (iblk1 V c 1 ⟨n + 1, hn⟩) (outsAt1 V c n (Nat.lt_of_succ_lt hn)).2.2.2.2 (fun k => o1 V c (ix2 k f)) n hN z f
          (fun r => tile1_entry V c ⟨n + 1, hn⟩ r f _ _ rfl rfl) ih.2⟩

/-! ### The sum window: every point writes its tile of the residual sum back -/

/-- What any point leaves in the sum window's staging buffer. -/
theorem out1_2_eq (c : Dev nD) (t : Fin cfg1.N) :
    (outsAt1 V c t.val t.isLt).1 = k1_pay3 (iblk1 V c 0 t) (iblk1 V c 1 t) := by
  have hN := val1_lt t
  by_cases h0 : t.val % 25 = 0
  · rw [outsAt1_A V c t h0 (by omega)]
    dsimp only
    rw [out1_A_2_eq]
  · by_cases h1 : t.val % 25 = 24
    · rw [outsAt1_C V c t h0 h1]
      dsimp only
      rw [out1_C_2_eq]
    · rw [outsAt1_B V c t h0 h1]
      dsimp only
      rw [out1_B_2_eq]

theorem flushed1_2 (c : Dev nD) (t : Fin cfg1.N) :
    (dat1 V c).flushed 2 t = ((cfg1.win 2).blk t).view.read (Elt Ideal) (o1 V c) := by
  show (cfg1.win 2).cut (grid1.coords t) ((dat1 V c).after 2 t) = _
  rw [after1_2, out1_2_eq]
  funext j
  obtain ⟨r, f, rfl⟩ : ∃ (r : Fin 2000) (f : Fin 64), j = ix2 r f := ⟨j 0, j 1, eq_ix2 j⟩
  show k1_pay3 (iblk1 V c 0 t) (iblk1 V c 1 t) (ix2 r f) = ((cfg1.win 2).blk t).view.read (Elt Ideal) (o1 V c) (ix2 r f)
  rw [k1_pay3_apply, tile1_entry V c t r f _ _ rfl rfl, blk1_2_read]

theorem final1_2 (c : Dev nD) :
    (dat1 (F := Ideal) V c).arrAt 2 cfg1.N = Cert.Spec.addv (V c main_v26_0) (V c main_v44) :=
  (dat1 V c).arrAt_eq_of_cover 2 (o1 V c) (fun t _ => flushed1_2 V c t) fun i => by
    have hi0 : (i 0).val < 50000 := (i 0).isLt
    have hi1 : (i 1).val < 64 := (i 1).isLt
    have ht : (i 0).val / 2000 < cfg1.N := by rw [show cfg1.N = 25 from N_1]; omega
    refine ⟨⟨(i 0).val / 2000, ht⟩, flush1_2 _, ?_⟩
    rw [mem_blk1_2]
    have e0 : win1_2.index ⟨(i 0).val / 2000, ht⟩ 0 = (i 0).val / 2000 := (idx1_facts ⟨(i 0).val / 2000, ht⟩).2.2.2.2.1
    have e1 : win1_2.index ⟨(i 0).val / 2000, ht⟩ 1 = 0 := (idx1_facts ⟨(i 0).val / 2000, ht⟩).2.2.2.2.2.1
    intro a
    match a with
    | ⟨0, _⟩ => show win1_2.index ⟨(i 0).val / 2000, ht⟩ 0 * 2000 ≤ (i 0).val ∧ (i 0).val < win1_2.index ⟨(i 0).val / 2000, ht⟩ 0 * 2000 + 2000; rw [e0]; omega
    | ⟨1, _⟩ => show win1_2.index ⟨(i 0).val / 2000, ht⟩ 1 * 64 ≤ (i 1).val ∧ (i 1).val < win1_2.index ⟨(i 0).val / 2000, ht⟩ 1 * 64 + 64; rw [e1]; omega

/-! ### The two statistics windows: written back once, after the last point -/

/-- At the last point the copied-out block is the accumulator's. -/
theorem stat1_3_eq (c : Dev nD) (t : Fin cfg1.N) (h24 : t.val % 25 = 24) :
    (outsAt1 V c t.val t.isLt).2.1 = (outsAt1 V c t.val t.isLt).2.2.2.1 := by
  have hN := val1_lt t
  rw [outsAt1_C V c t (by omega) h24]
  dsimp only
  rw [out1_C_3_eq, sout1_C_0_eq]

/-- The one write-back of window 3, at the last point, writes the whole-column total. -/
theorem flushed1_3 (c : Dev nD) (t : Fin cfg1.N) (hf : (cfg1.win 3).flush t = true) :
    (dat1 V c).flushed 3 t = ((cfg1.win 3).blk t).view.read (Elt Ideal) (Cert.Spec.colsum (o1 V c)) := by
  have h24 : t.val % 25 = 24 := (flush1_3 t).mp hf
  have hN := val1_lt t
  have hz' : (fun a => win1_3.index t a * main_v45_1.ty.shape.size a) = fun _ => 0 := funext fun a => by
    match a with
    | ⟨0, _⟩ => show win1_3.index t 0 * _ = 0; rw [(idx1_facts t).2.2.2.2.2.2.1, Nat.zero_mul]
    | ⟨1, _⟩ => show win1_3.index t 1 * _ = 0; rw [(idx1_facts t).2.2.2.2.2.2.2.1, Nat.zero_mul]
  refine Eq.trans ?_ (Memref.read_access_unit_zero (Elt Ideal) main_v45_1 hz' (fun a => by rw [congrFun hz' a]; simp) (Cert.Spec.colsum (o1 V c))).symm
  show (cfg1.win 3).cut (grid1.coords t) ((dat1 V c).after 3 t) = _
  rw [after1_3, stat1_3_eq V c t h24]
  funext j
  obtain ⟨z, f, rfl⟩ : ∃ (z : Fin 1) (f : Fin 64), j = ix2 z f := ⟨j 0, j 1, eq_ix2 j⟩
  show (outsAt1 V c t.val t.isLt).2.2.2.1 (ix2 z f) = Cert.Spec.colsumAt (o1 V c) f
  rw [(acc1_eq V c t.val t.isLt z f).1]
  have ht : t.val = 24 := by omega
  rw [ht, running_last]
  rfl

theorem final1_3 (c : Dev nD) :
    (dat1 (F := Ideal) V c).arrAt 3 cfg1.N = Cert.Spec.colsum (Cert.Spec.addv (V c main_v26_0) (V c main_v44)) :=
  (dat1 V c).arrAt_eq_of_cover 3 (Cert.Spec.colsum (o1 V c)) (flushed1_3 V c) fun i => by
    refine ⟨val1_last, (flush1_3 val1_last).mpr rfl, ?_⟩
    rw [mem_blk1_3]
    have h0 : (i 0).val < 1 := (i 0).isLt
    have h1 : (i 1).val < 64 := (i 1).isLt
    have e0 : win1_3.index val1_last 0 = 0 := (idx1_facts val1_last).2.2.2.2.2.2.1
    have e1 : win1_3.index val1_last 1 = 0 := (idx1_facts val1_last).2.2.2.2.2.2.2.1
    intro a
    match a with
    | ⟨0, _⟩ => show win1_3.index val1_last 0 * 1 ≤ (i 0).val ∧ (i 0).val < win1_3.index val1_last 0 * 1 + 1; rw [e0]; omega
    | ⟨1, _⟩ => show win1_3.index val1_last 1 * 64 ≤ (i 1).val ∧ (i 1).val < win1_3.index val1_last 1 * 64 + 64; rw [e1]; omega

/-- At the last point the copied-out block is the accumulator's. -/
theorem stat1_4_eq (c : Dev nD) (t : Fin cfg1.N) (h24 : t.val % 25 = 24) :
    (outsAt1 V c t.val t.isLt).2.2.1 = (outsAt1 V c t.val t.isLt).2.2.2.2 := by
  have hN := val1_lt t
  rw [outsAt1_C V c t (by omega) h24]
  dsimp only
  rw [out1_C_4_eq, sout1_C_1_eq]

/-- The one write-back of window 4, at the last point, writes the whole-column total. -/
theorem flushed1_4 (c : Dev nD) (t : Fin cfg1.N) (hf : (cfg1.win 4).flush t = true) :
    (dat1 V c).flushed 4 t = ((cfg1.win 4).blk t).view.read (Elt Ideal) (Cert.Spec.colsumsq (o1 V c)) := by
  have h24 : t.val % 25 = 24 := (flush1_4 t).mp hf
  have hN := val1_lt t
  have hz' : (fun a => win1_4.index t a * main_v45_2.ty.shape.size a) = fun _ => 0 := funext fun a => by
    match a with
    | ⟨0, _⟩ => show win1_4.index t 0 * _ = 0; rw [(idx1_facts t).2.2.2.2.2.2.2.2.1, Nat.zero_mul]
    | ⟨1, _⟩ => show win1_4.index t 1 * _ = 0; rw [(idx1_facts t).2.2.2.2.2.2.2.2.2, Nat.zero_mul]
  refine Eq.trans ?_ (Memref.read_access_unit_zero (Elt Ideal) main_v45_2 hz' (fun a => by rw [congrFun hz' a]; simp) (Cert.Spec.colsumsq (o1 V c))).symm
  show (cfg1.win 4).cut (grid1.coords t) ((dat1 V c).after 4 t) = _
  rw [after1_4, stat1_4_eq V c t h24]
  funext j
  obtain ⟨z, f, rfl⟩ : ∃ (z : Fin 1) (f : Fin 64), j = ix2 z f := ⟨j 0, j 1, eq_ix2 j⟩
  show (outsAt1 V c t.val t.isLt).2.2.2.2 (ix2 z f) = Cert.Spec.colsumsqAt (o1 V c) f
  rw [(acc1_eq V c t.val t.isLt z f).2]
  have ht : t.val = 24 := by omega
  rw [ht, running_last]
  rfl

theorem final1_4 (c : Dev nD) :
    (dat1 (F := Ideal) V c).arrAt 4 cfg1.N = Cert.Spec.colsumsq (Cert.Spec.addv (V c main_v26_0) (V c main_v44)) :=
  (dat1 V c).arrAt_eq_of_cover 4 (Cert.Spec.colsumsq (o1 V c)) (flushed1_4 V c) fun i => by
    refine ⟨val1_last, (flush1_4 val1_last).mpr rfl, ?_⟩
    rw [mem_blk1_4]
    have h0 : (i 0).val < 1 := (i 0).isLt
    have h1 : (i 1).val < 64 := (i 1).isLt
    have e0 : win1_4.index val1_last 0 = 0 := (idx1_facts val1_last).2.2.2.2.2.2.2.2.1
    have e1 : win1_4.index val1_last 1 = 0 := (idx1_facts val1_last).2.2.2.2.2.2.2.2.2
    intro a
    match a with
    | ⟨0, _⟩ => show win1_4.index val1_last 0 * 1 ≤ (i 0).val ∧ (i 0).val < win1_4.index val1_last 0 * 1 + 1; rw [e0]; omega
    | ⟨1, _⟩ => show win1_4.index val1_last 1 * 64 ≤ (i 1).val ∧ (i 1).val < win1_4.index val1_last 1 * 64 + 64; rw [e1]; omega

end Value

end Cert.KernelIdeal.Hand

end
-- ==== Proof.KI.Val2.lean ====
import proofs.«177069_j18983755448416_1_alg».proof.Proof.KI.Reg2
import proofs.«177069_j18983755448416_1_alg».proof.Proof.Spec
import Idealize.ShloMosaic.Lib.Pipeline.Value
import Idealize.ShloMosaic.Lib.ValueLayout
import Idealize.ShloMosaic.PureOps.Ideal.Laws

/-! # Region 2 of @main at the extended reals: the array it leaves

The stored value at a row and feature is the entry's distance from the feature's mean, times the
reciprocal square root of the feature's guarded variance, scaled, shifted, and clamped below at zero.
Grid point `t` writes rows `2000·t … 2000·t + 1999` of the result from the same rows of the input and
from the four one-row arrays, which every point sees whole; row `r` lies in the block of point
`r / 2000`, so the twenty-five blocks cover the array and the array after the region is the
normalised, rectified array, entry by entry. -/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The stored value at row `p`, feature `q` of a block, from the loaded values. -/
theorem pay2_apply (v0 v2 : FVec Ideal S1x64 .f32) (v7 : FVec Ideal S2000x64 .f32) (v13 v17 : FVec Ideal S1x64 .f32)
    (p : Fin 2000) (q : Fin 64) :
    k2_pay1 (F := Ideal) v0 v2 v7 v13 v17 (ix2 p q)
      = max ((((v7 (ix2 p q) - v0 (ix2 0 q)) * Ideal.rsqrt (v2 (ix2 0 q) + Cert.Spec.eps)) * v13 (ix2 0 q)) + v17 (ix2 0 q)) 0 := by
  unfold k2_pay1
  simp only [maximumf_apply, addf_apply, mulf_apply, subf_apply, broadcast_apply, shapeCast_self, broadcastTo_1b_ab_apply]
  show max ((v7 (ix2 p q) - v0 (ix2 0 q)) * Ideal.rsqrt (v2 (ix2 0 q) + Ideal.ofBits .f32 0x3727C5AC#32) * v13 (ix2 0 q) + v17 (ix2 0 q)) (Ideal.ofBits .f32 0x00000000#32) = _
  rw [Ideal.ofBits_zero_f32]
  rfl

/-- The zero offsets of a whole-buffer access. -/
theorem zero_off2 : (![0, 0] : Fin 2 → Nat) = fun _ => 0 := funext fun a => by fin_cases a <;> rfl

/-- The normalised array at an index, the one-row arrays read at the index's own feature. -/
theorem bnrelu_at2 (o : Cert.Spec.Arr 50000 64) (mu var g be : Cert.Spec.Arr 1 64) (i : (⟨2, ![50000, 64]⟩ : Shape).Idx) :
    Cert.Spec.bnrelu o mu var g be i
      = max ((((o i - mu (ix2 0 (i 1))) * Ideal.rsqrt (var (ix2 0 (i 1)) + Cert.Spec.eps)) * g (ix2 0 (i 1))) + be (ix2 0 (i 1))) 0 := by
  have e : (ix2 (Cert.Spec.row i) (Cert.Spec.col i) : (⟨2, ![50000, 64]⟩ : Shape).Idx) = i := (eq_ix2 i).symm
  unfold Cert.Spec.bnrelu Cert.Spec.bnreluAt
  rw [e]

/-- The block index maps over the grid: the input and the result move one block of rows per point, the four
    one-row arrays stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

-- the buffer contents when the region is entered
variable (V : (c : Dev nD) → (b : Ref sig .tc) → Buf (Elt Ideal) ((c : Thread nD τ).loc b))

/-- What point `t` writes back is block `t` of the normalised array of the arrays as the region finds them. -/
theorem flushed2_5_eq (c : Dev nD) (t : Fin cfg2.N) :
    (dat2 (F := Ideal) V c).flushed 5 t = ((cfg2.win 5).blk t).view.read (Elt Ideal)
      (Cert.Spec.bnrelu (V c main_v45_0) (V c main_v47) (V c main_v53) (V c main_v24) (V c main_v25)) := by
  show (cfg2.win 5).cut (grid2.coords t) ((dat2 V c).after 5 t) = _
  rw [after2_5]
  unfold out2_5
  rw [View.canon_unit_zero zero_off2]
  simp only [View.ld_unit_zero (S := S2000x64) zero_off2, View.ld_unit_zero (S := S1x64) zero_off2]
  funext j
  obtain ⟨p, q, rfl⟩ : ∃ (p : Fin 2000) (q : Fin 64), j = ix2 p q := ⟨j 0, j 1, eq_ix2 j⟩
  refine (pay2_apply _ _ _ _ _ p q).trans ?_
  refine Eq.trans ?_ (bnrelu_at2 _ _ _ _ _ (((cfg2.win 5).blk t).view.emb (ix2 p q))).symm
  obtain ⟨a0, a1, b0, b1, c0, c1, d0, d1, f0, f1, g0, g1⟩ := idx_facts2 t
  have e0 : (iblk2 V c 0 t : Vec Ideal S2000x64 .f32) (ix2 p q) = (V c main_v45_0 : S50000x64.Idx → EReal) (((cfg2.win 5).blk t).view.emb (ix2 p q)) := by
    show V c main_v45_0 (((cfg2.win 0).blk t).view.emb (ix2 p q)) = V c main_v45_0 (((cfg2.win 5).blk t).view.emb (ix2 p q))
    refine congrArg _ (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 64 + 1 * q.val = win2_5.index t (1 : Fin 2) * 64 + 1 * q.val; omega
  have e1 : (iblk2 V c 1 t : Vec Ideal S1x64 .f32) (ix2 0 q) = (V c main_v47 : S1x64.Idx → EReal) (ix2 (0 : Fin 1) ((((cfg2.win 5).blk t).view.emb (ix2 p q)) 1 : Fin 64)) := by
    show V c main_v47 (((cfg2.win 1).blk t).view.emb (ix2 0 q)) = _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * q.val = win2_5.index t (1 : Fin 2) * 64 + 1 * q.val; omega
  have e2 : (iblk2 V c 2 t : Vec Ideal S1x64 .f32) (ix2 0 q) = (V c main_v53 : S1x64.Idx → EReal) (ix2 (0 : Fin 1) ((((cfg2.win 5).blk t).view.emb (ix2 p q)) 1 : Fin 64)) := by
    show V c main_v53 (((cfg2.win 2).blk t).view.emb (ix2 0 q)) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = win2_5.index t (1 : Fin 2) * 64 + 1 * q.val; omega
  have e3 : (iblk2 V c 3 t : Vec Ideal S1x64 .f32) (ix2 0 q) = (V c main_v24 : S1x64.Idx → EReal) (ix2 (0 : Fin 1) ((((cfg2.win 5).blk t).view.emb (ix2 p q)) 1 : Fin 64)) := by
    show V c main_v24 (((cfg2.win 3).blk t).view.emb (ix2 0 q)) = _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * q.val = win2_5.index t (1 : Fin 2) * 64 + 1 * q.val; omega
  have e4 : (iblk2 V c 4 t : Vec Ideal S1x64 .f32) (ix2 0 q) = (V c main_v25 : S1x64.Idx → EReal) (ix2 (0 : Fin 1) ((((cfg2.win 5).blk t).view.emb (ix2 p q)) 1 : Fin 64)) := by
    show V c main_v25 (((cfg2.win 4).blk t).view.emb (ix2 0 q)) = _
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega
  exact congrArg₂ max (congrArg₂ (· + ·) (congrArg₂ (· * ·) (congrArg₂ (· * ·) (congrArg₂ (· - ·) e0 e1)
    (congrArg Ideal.rsqrt (congrArg (· + Cert.Spec.eps) e2))) e3) e4) rfl

/-- Every row lies in the block of the point its number divided by 2000 names. -/
theorem cover2_5_arr (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 25 := N_2
  let t : Fin cfg2.N := ⟨(i 0).val / 2000, by show (i 0).val / 2000 < grid2.N; rw [hN]; omega⟩
  refine ⟨t, flush2_5 t, ?_⟩
  obtain ⟨a0, a1, b0, b1, c0, c1, d0, d1, f0, f1, g0, g1⟩ := idx_facts2 t
  have ht : t.val = (i 0).val / 2000 := rfl
  show i ∈ ((View.whole main_v54).slice (win2_5.rect t)).set
  rw [View.set_slice_whole, Rect.mem_set_unit]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- The array the region leaves is the normalised, rectified array of the arrays it found. -/
theorem final2_5 (c : Dev nD) :
    (dat2 (F := Ideal) V c).arrAt 5 cfg2.N
      = Cert.Spec.bnrelu (V c main_v45_0) (V c main_v47) (V c main_v53) (V c main_v24) (V c main_v25) :=
  (dat2 (F := Ideal) V c).arrAt_eq_of_cover 5 _ (fun t _ => flushed2_5_eq V c t) (cover2_5_arr)

end Cert.KernelIdeal.Hand

end
-- ==== Proof.KI.Pay3.lean ====
import proofs.«177069_j18983755448416_1_alg».proof.Proof.KI.Reg3
import proofs.«177069_j18983755448416_1_alg».proof.Proof.Spec
import proofs.«177069_j18983755448416_1_alg».proof.Proof.LibPlainDot
import Idealize.ShloMosaic.Lib.Pipeline.Value
import Idealize.ShloMosaic.Lib.ValueLayout
import Idealize.ShloMosaic.Lib.Tactic

/-! # Region 3 of @main (the node transform of layer 2): the stored values entry by entry, and the blocks' cover

Grid point t reads rows 2000·t … 2000·t + 1999 of the layer's input and writes the same rows of the two results.
Entry (p, f) of the first stored block is the row of the input block against column f of the weight, plus the
bias; entry (p, j) of the second is that row of the first block against column j of the cross basis. The 25
blocks tile the 50000 rows, so after the region the first result is x·W + b and the second is (x·W + b)·Mt,
as functions of the arrays the region was entered with. -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The two stored values at an index -/

/-- Entry (p, q) of the first stored value: row p of the input block against column q of the weight (the product is
    taken into a zero accumulator and a change of float format is the identity), plus the bias row at q. -/
theorem pay3_1_apply (x0 : Vec Ideal S2000x64 .f32) (x1 : Vec Ideal S64x64 .f32) (x2 : Vec Ideal S1x64 .f32) (p : Fin 2000) (q : Fin 64) :
    k3_pay1 x0 x1 x2 (ix2 p q) = (∑ k : Fin 64, x0 (ix2 p k) * x1 (ix2 k q)) + x2 (ix2 (0 : Fin 1) q) := by
  unfold k3_pay1
  refine (addf_apply _ _ _).trans ?_
  congr 1
  · refine (Cert.PlainDot.matmul_apply dot_S2000x64_S64x64_S2000x64_1_0_0_1_n_n ⟨rfl, rfl, rfl, rfl, rfl, rfl⟩ none _ _ p q).trans ?_
    refine Finset.sum_congr rfl fun k _ => ?_
    exact congrArg (· * x1 (ix2 k q)) (congrFun (shapeCast_self x0 _) (ix2 p k))
  · refine (broadcastTo_1b_ab_apply _ _ p q).trans ?_
    exact congrFun (shapeCast_self x2 _) _

/-- Entry (p, j) of the second stored value: row p of the first stored value against column j of the cross basis. -/
theorem pay3_2_apply (x0 : Vec Ideal S2000x64 .f32) (x1 : Vec Ideal S64x64 .f32) (x2 : Vec Ideal S1x64 .f32) (x3 : Vec Ideal S64x1024 .f32)
    (p : Fin 2000) (j : Fin 1024) :
    k3_pay2 x0 x1 x2 x3 (ix2 p j) = ∑ f : Fin 64, k3_pay1 x0 x1 x2 (ix2 p f) * x3 (ix2 f j) := by
  unfold k3_pay2
  refine (Cert.PlainDot.matmul_apply dot_S2000x64_S64x1024_S2000x1024_1_0_0_1_n_n ⟨rfl, rfl, rfl, rfl, rfl, rfl⟩ none _ _ p j).trans ?_
  refine Finset.sum_congr rfl fun f _ => ?_
  exact congrArg (k3_pay1 x0 x1 x2 (ix2 p f) * ·) (congrFun (shapeCast_self x3 _) (ix2 f j))

/-! ## The blocks as rows of the arrays -/

-- the TensorCore's buffer contents when the region is entered
variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the 25 grid points: the input block and the two result blocks move with the
    point along the rows; the weight, the bias and the cross basis are read whole at every point. -/
theorem idx3 : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = t.val ∧ win3_4.index t (1 : Fin 2) = 0)
    ∧ (win3_5.index t (0 : Fin 2) = t.val ∧ win3_5.index t (1 : Fin 2) = 0) :=
  (by decide +kernel : ∀ t : Fin grid3.N, _)

/-- A grid point is one of 25. -/
theorem lt25_3 (t : Fin cfg3.N) : t.val < 25 := lt_of_lt_of_eq t.isLt N_3

/-- The row of the arrays that row p of the blocks at point t is. -/
def rowOf3 (t : Fin cfg3.N) (p : Fin 2000) : Fin 50000 := ⟨t.val * 2000 + p.val, by have := lt25_3 t; have := p.isLt; omega⟩

/-- The input block at point t is rows 2000·t … of the layer's input. -/
theorem iblk3_0_apply (c : Dev nD) (t : Fin cfg3.N) (p : Fin 2000) (k : Fin 64) :
    (iblk3 V c 0 t : Vec Ideal S2000x64 .f32) (ix2 p k) = (V c main_v54 : S50000x64.Idx → EReal) (ix2 (rowOf3 t p) k) := by
  obtain ⟨⟨e0, e1⟩, -⟩ := idx3 t
  unfold iblk3
  rw [View.read_apply]
  show V c main_v54 _ = V c main_v54 _
  congr 1
  funext a
  apply Fin.ext
  match a with
  | ⟨0, _⟩ => show win3_0.index t (0 : Fin 2) * 2000 + 1 * p.val = t.val * 2000 + p.val; rw [e0]; omega
  | ⟨1, _⟩ => show win3_0.index t (1 : Fin 2) * 64 + 1 * k.val = k.val; rw [e1]; omega

/-- The weight's block at every point is the weight. -/
theorem iblk3_1_apply (c : Dev nD) (t : Fin cfg3.N) (k : Fin 64) (q : Fin 64) :
    (iblk3 V c 1 t : Vec Ideal S64x64 .f32) (ix2 k q) = (V c main_arg10 : S64x64.Idx → EReal) (ix2 k q) := by
  obtain ⟨-, ⟨e0, e1⟩, -⟩ := idx3 t
  unfold iblk3
  rw [View.read_apply]
  show V c main_arg10 _ = V c main_arg10 _
  congr 1
  funext a
  apply Fin.ext
  match a with
  | ⟨0, _⟩ => show win3_1.index t (0 : Fin 2) * 64 + 1 * k.val = k.val; rw [e0]; omega
  | ⟨1, _⟩ => show win3_1.index t (1 : Fin 2) * 64 + 1 * q.val = q.val; rw [e1]; omega

/-- The bias row's block at every point is the bias row. -/
theorem iblk3_2_apply (c : Dev nD) (t : Fin cfg3.N) (z : Fin 1) (q : Fin 64) :
    (iblk3 V c 2 t : Vec Ideal S1x64 .f32) (ix2 z q) = (V c main_v55 : S1x64.Idx → EReal) (ix2 z q) := by
  obtain ⟨-, -, ⟨e0, e1⟩, -⟩ := idx3 t
  unfold iblk3
  rw [View.read_apply]
  show V c main_v55 _ = V c main_v55 _
  congr 1
  funext a
  apply Fin.ext
  match a with
  | ⟨0, _⟩ => show win3_2.index t (0 : Fin 2) * 1 + 1 * z.val = z.val; rw [e0]; omega
  | ⟨1, _⟩ => show win3_2.index t (1 : Fin 2) * 64 + 1 * q.val = q.val; rw [e1]; omega

/-- The cross basis's block at every point is the cross basis. -/
theorem iblk3_3_apply (c : Dev nD) (t : Fin cfg3.N) (f : Fin 64) (j : Fin 1024) :
    (iblk3 V c 3 t : Vec Ideal S64x1024 .f32) (ix2 f j) = (V c main_v2 : S64x1024.Idx → EReal) (ix2 f j) := by
  obtain ⟨-, -, -, ⟨e0, e1⟩, -⟩ := idx3 t
  unfold iblk3
  rw [View.read_apply]
  show V c main_v2 _ = V c main_v2 _
  congr 1
  funext a
  apply Fin.ext
  match a with
  | ⟨0, _⟩ => show win3_3.index t (0 : Fin 2) * 64 + 1 * f.val = f.val; rw [e0]; omega
  | ⟨1, _⟩ => show win3_3.index t (1 : Fin 2) * 1024 + 1 * j.val = j.val; rw [e1]; omega

/-- Entry (p, f) of the first value stored at point t is entry (2000·t + p, f) of x·W + b. -/
theorem pay3_1_blk (c : Dev nD) (t : Fin cfg3.N) (p : Fin 2000) (f : Fin 64) :
    k3_pay1 (iblk3 V c 0 t) (iblk3 V c 1 t) (iblk3 V c 2 t) (ix2 p f)
      = Cert.Spec.lin64At (V c main_v54) (V c main_arg10) (V c main_v55) (rowOf3 t p) f := by
  refine (pay3_1_apply (iblk3 V c 0 t) (iblk3 V c 1 t) (iblk3 V c 2 t) p f).trans ?_
  unfold Cert.Spec.lin64At
  congr 1
  · refine Finset.sum_congr rfl fun k _ => ?_
    exact congrArg₂ (· * ·) (iblk3_0_apply V c t p k) (iblk3_1_apply V c t k f)
  · exact iblk3_2_apply V c t 0 f

/-- Entry (p, j) of the second value stored at point t is entry (2000·t + p, j) of (x·W + b)·Mt. -/
theorem pay3_2_blk (c : Dev nD) (t : Fin cfg3.N) (p : Fin 2000) (j : Fin 1024) :
    k3_pay2 (iblk3 V c 0 t) (iblk3 V c 1 t) (iblk3 V c 2 t) (iblk3 V c 3 t) (ix2 p j)
      = Cert.Spec.projAt (Cert.Spec.lin64 (V c main_v54) (V c main_arg10) (V c main_v55)) (V c main_v2) (rowOf3 t p) j := by
  refine (pay3_2_apply (iblk3 V c 0 t) (iblk3 V c 1 t) (iblk3 V c 2 t) (iblk3 V c 3 t) p j).trans ?_
  unfold Cert.Spec.projAt
  refine Finset.sum_congr rfl fun f _ => ?_
  exact congrArg₂ (· * ·) (pay3_1_blk V c t p f) (iblk3_3_apply V c t f j)

/-! ## The result blocks tile the result arrays -/

/-- An index of the first result is in point t's block iff each coordinate is in the block's range on its axis. -/
theorem mem_blk3_4 (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v58_0).slice (win3_4.rect t)).set ↔ _
  rw [View.set_slice_whole, Rect.mem_set_unit]
  exact Iff.rfl

/-- The same for the second result. -/
theorem mem_blk3_5 (t : Fin cfg3.N) (i : S50000x1024.Idx) :
    i ∈ ((cfg3.win 5).blk t).view.set ↔ ∀ a : Fin 2, win3_5.index t a * S2000x1024.size a ≤ (i a).val ∧ (i a).val < win3_5.index t a * S2000x1024.size a + S2000x1024.size a := by
  show i ∈ ((View.whole main_v58_1).slice (win3_5.rect t)).set ↔ _
  rw [View.set_slice_whole, Rect.mem_set_unit]
  exact Iff.rfl

/-- Row r lies in the block of point r / 2000, which is written back: the blocks cover the first result. -/
theorem covered3_4 (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ : ∃ t : Fin cfg3.N, t.val = (i 0).val / 2000 :=
    ⟨⟨(i 0).val / 2000, lt_of_lt_of_eq (by omega : (i 0).val / 2000 < 25) N_3.symm⟩, rfl⟩
  obtain ⟨-, -, -, -, ⟨e0, e1⟩, -⟩ := idx3 t
  refine ⟨t, flush3_4 t, ?_⟩
  rw [mem_blk3_4]
  intro a
  match a with
  | ⟨0, _⟩ => show win3_4.index t (0 : Fin 2) * 2000 ≤ (i 0).val ∧ (i 0).val < win3_4.index t (0 : Fin 2) * 2000 + 2000; rw [e0, ht]; omega
  | ⟨1, _⟩ => show win3_4.index t (1 : Fin 2) * 64 ≤ (i 1).val ∧ (i 1).val < win3_4.index t (1 : Fin 2) * 64 + 64; rw [e1]; omega

/-- The blocks cover the second result. -/
theorem covered3_5 (i : S50000x1024.Idx) : ∃ t : Fin cfg3.N, (cfg3.win 5).flush t = true ∧ i ∈ ((cfg3.win 5).blk t).view.set := by
  have hi0 : (i 0).val < 50000 := (i 0).isLt
  have hi1 : (i 1).val < 1024 := (i 1).isLt
  obtain ⟨t, ht⟩ : ∃ t : Fin cfg3.N, t.val = (i 0).val / 2000 :=
    ⟨⟨(i 0).val / 2000, lt_of_lt_of_eq (by omega : (i 0).val / 2000 < 25) N_3.symm⟩, rfl⟩
  obtain ⟨-, -, -, -, -, ⟨e0, e1⟩⟩ := idx3 t
  refine ⟨t, flush3_5 t, ?_⟩
  rw [mem_blk3_5]
  intro a
  match a with
  | ⟨0, _⟩ => show win3_5.index t (0 : Fin 2) * 2000 ≤ (i 0).val ∧ (i 0).val < win3_5.index t (0 : Fin 2) * 2000 + 2000; rw [e0, ht]; omega
  | ⟨1, _⟩ => show win3_5.index t (1 : Fin 2) * 1024 ≤ (i 1).val ∧ (i 1).val < win3_5.index t (1 : Fin 2) * 1024 + 1024; rw [e1]; omega

end Cert.KernelIdeal.Hand

end
-- ==== Proof.KI.Val3.lean ====
import proofs.«177069_j18983755448416_1_alg».proof.Proof.KI.Pay3
import Idealize.ShloMosaic.Lib.Pipeline.Value
import Idealize.ShloMosaic.Lib.ValueLayout
import Idealize.ShloMosaic.Lib.Tactic

/-! # Region 3 of @main (the node transform of layer 2): its two result arrays over the extended reals

Grid point t reads rows 2000·t … 2000·t + 1999 of the layer's input and writes the same rows of the two results.
Entry (p, f) of the first stored block is the row of the input block against column f of the weight, plus the
bias; entry (p, j) of the second is that row of the first block against column j of the cross basis. The 25
blocks tile the 50000 rows, so after the region the first result is x·W + b and the second is (x·W + b)·Mt,
as functions of the arrays the region was entered with. -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## What each point writes back, and the arrays after the region -/

/-- The part of a result's staging buffer that a write-back moves is all of it (no block overhangs its array). -/
theorem cut3_4 (t : Fin cfg3.N) (X : Vec Ideal S2000x64 .f32) : (cfg3.win 4).cut (grid3.coords t) X = X := rfl
theorem cut3_5 (t : Fin cfg3.N) (X : Vec Ideal S2000x1024 .f32) : (cfg3.win 5).cut (grid3.coords t) X = X := rfl

/-- What point t writes back into the first result: the first stored value of the blocks at t. -/
theorem flushed3_4_pay (c : Dev nD) (t : Fin cfg3.N) :
    (dat3 V c).flushed 4 t = k3_pay1 (iblk3 V c 0 t) (iblk3 V c 1 t) (iblk3 V c 2 t) := by
  show (cfg3.win 4).cut (grid3.coords t) ((dat3 V c).after 4 t) = _
  rw [after3_4]
  unfold out3_4
  rw [View.canon_unit_zero hz3]
  simp only [View.ld_unit_zero (S := S2000x64) hz3, View.ld_unit_zero (S := S64x64) hz3, View.ld_unit_zero (S := S1x64) hz3]
  exact cut3_4 t _

/-- What point t writes back into the second result: the second stored value of the blocks at t. -/
theorem flushed3_5_pay (c : Dev nD) (t : Fin cfg3.N) :
    (dat3 V c).flushed 5 t = k3_pay2 (iblk3 V c 0 t) (iblk3 V c 1 t) (iblk3 V c 2 t) (iblk3 V c 3 t) := by
  show (cfg3.win 5).cut (grid3.coords t) ((dat3 V c).after 5 t) = _
  rw [after3_5]
  unfold out3_5
  rw [View.canon_unit_zero hz3]
  simp only [View.ld_unit_zero (S := S2000x64) hz3, View.ld_unit_zero (S := S64x64) hz3, View.ld_unit_zero (S := S1x64) hz3, View.ld_unit_zero (S := S64x1024) hz3]
  exact cut3_5 t _

/-- Block t of an array of 50000 rows of 64, at (p, q), is the array at row 2000·t + p. -/
theorem blk3_4_apply (G : Cert.Spec.Arr 50000 64) (t : Fin cfg3.N) (p : Fin 2000) (q : Fin 64) :
    ((cfg3.win 4).blk t).view.read (Elt Ideal) G (ix2 p q : S2000x64.Idx) = G (ix2 (rowOf3 t p) q) := by
  obtain ⟨-, -, -, -, ⟨e0, e1⟩, -⟩ := idx3 t
  rw [View.read_apply]
  show G _ = G _
  congr 1
  funext a
  apply Fin.ext
  match a with
  | ⟨0, _⟩ => show win3_4.index t (0 : Fin 2) * 2000 + 1 * p.val = t.val * 2000 + p.val; rw [e0]; omega
  | ⟨1, _⟩ => show win3_4.index t (1 : Fin 2) * 64 + 1 * q.val = q.val; rw [e1]; omega

/-- Block t of an array of 50000 rows of 1024, at (p, j), is the array at row 2000·t + p. -/
theorem blk3_5_apply (G : Cert.Spec.Arr 50000 1024) (t : Fin cfg3.N) (p : Fin 2000) (j : Fin 1024) :
    ((cfg3.win 5).blk t).view.read (Elt Ideal) G (ix2 p j : S2000x1024.Idx) = G (ix2 (rowOf3 t p) j) := by
  obtain ⟨-, -, -, -, -, ⟨e0, e1⟩⟩ := idx3 t
  rw [View.read_apply]
  show G _ = G _
  congr 1
  funext a
  apply Fin.ext
  match a with
  | ⟨0, _⟩ => show win3_5.index t (0 : Fin 2) * 2000 + 1 * p.val = t.val * 2000 + p.val; rw [e0]; omega
  | ⟨1, _⟩ => show win3_5.index t (1 : Fin 2) * 1024 + 1 * j.val = j.val; rw [e1]; omega

/-- Point t writes back block t of x·W + b. -/
theorem flushed3_4_eq (c : Dev nD) (t : Fin cfg3.N) :
    (dat3 V c).flushed 4 t = ((cfg3.win 4).blk t).view.read (Elt Ideal) (Cert.Spec.lin64 (V c main_v54) (V c main_arg10) (V c main_v55)) := by
  refine (flushed3_4_pay V c t).trans ?_
  funext (y : S2000x64.Idx)
  obtain ⟨p, q, rfl⟩ : ∃ (p : Fin 2000) (q : Fin 64), y = ix2 p q := ⟨y 0, y 1, eq_ix2 y⟩
  exact (pay3_1_blk V c t p q).trans (blk3_4_apply (Cert.Spec.lin64 (V c main_v54) (V c main_arg10) (V c main_v55)) t p q).symm

/-- Point t writes back block t of (x·W + b)·Mt. -/
theorem flushed3_5_eq (c : Dev nD) (t : Fin cfg3.N) :
    (dat3 V c).flushed 5 t = ((cfg3.win 5).blk t).view.read (Elt Ideal) (Cert.Spec.proj (Cert.Spec.lin64 (V c main_v54) (V c main_arg10) (V c main_v55)) (V c main_v2)) := by
  refine (flushed3_5_pay V c t).trans ?_
  funext (y : S2000x1024.Idx)
  obtain ⟨p, j, rfl⟩ : ∃ (p : Fin 2000) (j : Fin 1024), y = ix2 p j := ⟨y 0, y 1, eq_ix2 y⟩
  exact (pay3_2_blk V c t p j).trans (blk3_5_apply (Cert.Spec.proj (Cert.Spec.lin64 (V c main_v54) (V c main_arg10) (V c main_v55)) (V c main_v2)) t p j).symm

/-- After the region the first result array is x·W + b of the arrays the region was entered with. -/
theorem final3_4 (c : Dev nD) :
    (dat3 (F := Ideal) V c).arrAt 4 cfg3.N = Cert.Spec.lin64 (V c main_v54) (V c main_arg10) (V c main_v55) :=
  (dat3 V c).arrAt_eq_of_cover 4 (Cert.Spec.lin64 (V c main_v54) (V c main_arg10) (V c main_v55)) (fun t _ => flushed3_4_eq V c t) (covered3_4)

/-- After the region the second result array is (x·W + b)·Mt. -/
theorem final3_5 (c : Dev nD) :
    (dat3 (F := Ideal) V c).arrAt 5 cfg3.N = Cert.Spec.proj (Cert.Spec.lin64 (V c main_v54) (V c main_arg10) (V c main_v55)) (V c main_v2) :=
  (dat3 V c).arrAt_eq_of_cover 5 (Cert.Spec.proj (Cert.Spec.lin64 (V c main_v54) (V c main_arg10) (V c main_v55)) (V c main_v2)) (fun t _ => flushed3_5_eq V c t) (covered3_5)

end Cert.KernelIdeal.Hand

end
-- ==== Proof.KI.Val4.lean ====
import proofs.«177069_j18983755448416_1_alg».proof.Proof.KI.Reg4
import proofs.«177069_j18983755448416_1_alg».proof.Proof.Spec
import proofs.«177069_j18983755448416_1_alg».proof.Proof.LibColumnSum
import proofs.«177069_j18983755448416_1_alg».proof.Proof.LibBlockSum
import Idealize.ShloMosaic.Lib.Pipeline.Value
import Idealize.ShloMosaic.Lib.ValueIdx
import proofs.«177069_j18983755448416_1_alg».proof.Proof.LibTileSums

/-! Region 4 (the add-and-statistics kernel), its value at the exact instance: after the last grid point the sum
window's array holds the entrywise sum of the two inputs, and the two statistics windows' arrays hold, per feature,
the sum and the sum of squares of that sum over all 50000 rows. The accumulators are followed point by point: after
point `n` each holds the total over the rows of tiles `0 … n`; 25 tiles of 2000 rows make the whole column. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

open Cert.TileSums

section Pieces
variable {F : FTy → Type} [FloatOps F]

theorem val4_hz : (![0, 0] : Fin 2 → Nat) = fun _ => 0 := funext fun a => by fin_cases a <;> rfl

/-! ## What each case's found pieces are: the skeleton's payloads of the buffers' contents -/

theorem out4_A_2_eq (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 x1 : Vec F S2000x64 .f32) :
    out4_A_2 c i arg1 harg1 arg2 harg2 arg3 harg3 arg4 harg4 arg5 harg5 arg6 harg6 arg7 harg7 hc0 hc1 x0 x1 = k4_pay3 x0 x1 := by
  unfold out4_A_2
  rw [View.read_writes_eq_canon _ _ _ (cover4_A_2 c i arg1 harg1 arg2 harg2 arg3 harg3 arg4 harg4 arg5 harg5 arg6 harg6 arg7 harg7 hc0 hc1 x0 x1)]
  unfold kernelRun4_A
  dsimp only
  sl_unfold_words
  rw [View.canon_unit_zero val4_hz]
  simp only [View.readAt_eq_ld, harg1.read_unread, harg2.read_unread, View.ld_unit_zero (S := S2000x64) val4_hz]

theorem sout4_A_0_eq (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 x1 : Vec F S2000x64 .f32) :
    sout4_A_0 c i arg1 harg1 arg2 harg2 arg3 harg3 arg4 harg4 arg5 harg5 arg6 harg6 arg7 harg7 hc0 hc1 x0 x1 = k4_pay4 x0 x1 (k4_pay1 (F := F)) := by
  unfold sout4_A_0
  rw [View.read_writes_eq_canon _ _ _ (scover4_A_0 c i arg1 harg1 arg2 harg2 arg3 harg3 arg4 harg4 arg5 harg5 arg6 harg6 arg7 harg7 hc0 hc1 x0 x1)]
  unfold kernelRun4_A
  dsimp only
  sl_unfold_words
  rw [View.canon_cons_unit_zero (S := S1x64) val4_hz, View.readCov_unit_zero (S := S1x64) _ val4_hz]
  simp only [View.readAt_eq_ld, harg1.read_unread, harg2.read_unread, View.ld_unit_zero (S := S2000x64) val4_hz]

theorem sout4_A_1_eq (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 x1 : Vec F S2000x64 .f32) :
    sout4_A_1 c i arg1 harg1 arg2 harg2 arg3 harg3 arg4 harg4 arg5 harg5 arg6 harg6 arg7 harg7 hc0 hc1 x0 x1 = k4_pay5 x0 x1 (k4_pay2 (F := F)) := by
  unfold sout4_A_1
  rw [View.read_writes_eq_canon _ _ _ (scover4_A_1 c i arg1 harg1 arg2 harg2 arg3 harg3 arg4 harg4 arg5 harg5 arg6 harg6 arg7 harg7 hc0 hc1 x0 x1)]
  unfold kernelRun4_A
  dsimp only
  sl_unfold_words
  rw [View.canon_cons_unit_zero (S := S1x64) val4_hz, View.readCov_unit_zero (S := S1x64) _ val4_hz]
  simp only [View.readAt_eq_ld, harg1.read_unread, harg2.read_unread, View.ld_unit_zero (S := S2000x64) val4_hz]

theorem out4_B_2_eq (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 x1 : Vec F S2000x64 .f32) (xs0 xs1 : Vec F S1x64 .f32) :
    out4_B_2 c i arg1 harg1 arg2 harg2 arg3 harg3 arg4 harg4 arg5 harg5 arg6 harg6 arg7 harg7 hc0 hc1 x0 x1 xs0 xs1 = k4_pay3 x0 x1 := by
  unfold out4_B_2
  rw [View.read_writes_eq_canon _ _ _ (cover4_B_2 c i arg1 harg1 arg2 harg2 arg3 harg3 arg4 harg4 arg5 harg5 arg6 harg6 arg7 harg7 hc0 hc1 x0 x1 xs0 xs1)]
  unfold kernelRun4_B
  dsimp only
  sl_unfold_words
  rw [View.canon_unit_zero val4_hz]
  simp only [View.readAt_eq_ld, harg1.read_unread, harg2.read_unread, View.ld_unit_zero (S := S2000x64) val4_hz]

theorem sout4_B_0_eq (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 x1 : Vec F S2000x64 .f32) (xs0 xs1 : Vec F S1x64 .f32) :
    sout4_B_0 c i arg1 harg1 arg2 harg2 arg3 harg3 arg4 harg4 arg5 harg5 arg6 harg6 arg7 harg7 hc0 hc1 x0 x1 xs0 xs1 = k4_pay4 x0 x1 xs0 := by
  unfold sout4_B_0
  rw [View.read_writes_eq_canon _ _ _ (scover4_B_0 c i arg1 harg1 arg2 harg2 arg3 harg3 arg4 harg4 arg5 harg5 arg6 harg6 arg7 harg7 hc0 hc1 x0 x1 xs0 xs1)]
  unfold kernelRun4_B
  dsimp only
  sl_unfold_words
  rw [View.canon_unit_zero val4_hz]
  simp only [View.readAt_eq_ld, harg1.read_unread, harg2.read_unread, harg6.read_unread, harg7.read_unread, View.ld_unit_zero (S := S2000x64) val4_hz, View.ld_unit_zero (S := S1x64) val4_hz]

theorem sout4_B_1_eq (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 x1 : Vec F S2000x64 .f32) (xs0 xs1 : Vec F S1x64 .f32) :
    sout4_B_1 c i arg1 harg1 arg2 harg2 arg3 harg3 arg4 harg4 arg5 harg5 arg6 harg6 arg7 harg7 hc0 hc1 x0 x1 xs0 xs1 = k4_pay5 x0 x1 xs1 := by
  unfold sout4_B_1
  rw [View.read_writes_eq_canon _ _ _ (scover4_B_1 c i arg1 harg1 arg2 harg2 arg3 harg3 arg4 harg4 arg5 harg5 arg6 harg6 arg7 harg7 hc0 hc1 x0 x1 xs0 xs1)]
  unfold kernelRun4_B
  dsimp only
  sl_unfold_words
  rw [View.canon_unit_zero val4_hz]
  simp only [View.readAt_eq_ld, harg1.read_unread, harg2.read_unread, harg6.read_unread, harg7.read_unread, View.ld_unit_zero (S := S2000x64) val4_hz, View.ld_unit_zero (S := S1x64) val4_hz]

theorem out4_C_2_eq (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 x1 : Vec F S2000x64 .f32) (xs0 xs1 : Vec F S1x64 .f32) :
    out4_C_2 c i arg1 harg1 arg2 harg2 arg3 harg3 arg4 harg4 arg5 harg5 arg6 harg6 arg7 harg7 hc0 hc1 x0 x1 xs0 xs1 = k4_pay3 x0 x1 := by
  unfold out4_C_2
  rw [View.read_writes_eq_canon _ _ _ (cover4_C_2 c i arg1 harg1 arg2 harg2 arg3 harg3 arg4 harg4 arg5 harg5 arg6 harg6 arg7 harg7 hc0 hc1 x0 x1 xs0 xs1)]
  unfold kernelRun4_C
  dsimp only
  sl_unfold_words
  rw [View.canon_unit_zero val4_hz]
  simp only [View.readAt_eq_ld, harg1.read_unread, harg2.read_unread, View.ld_unit_zero (S := S2000x64) val4_hz]

theorem sout4_C_0_eq (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 x1 : Vec F S2000x64 .f32) (xs0 xs1 : Vec F S1x64 .f32) :
    sout4_C_0 c i arg1 harg1 arg2 harg2 arg3 harg3 arg4 harg4 arg5 harg5 arg6 harg6 arg7 harg7 hc0 hc1 x0 x1 xs0 xs1 = k4_pay4 x0 x1 xs0 := by
  unfold sout4_C_0
  rw [View.read_writes_eq_canon _ _ _ (scover4_C_0 c i arg1 harg1 arg2 harg2 arg3 harg3 arg4 harg4 arg5 harg5 arg6 harg6 arg7 harg7 hc0 hc1 x0 x1 xs0 xs1)]
  unfold kernelRun4_C
  dsimp only
  sl_unfold_words
  rw [View.canon_unit_zero val4_hz]
  simp only [View.readAt_eq_ld, harg1.read_unread, harg2.read_unread, harg6.read_unread, harg7.read_unread, View.ld_unit_zero (S := S2000x64) val4_hz, View.ld_unit_zero (S := S1x64) val4_hz]

theorem sout4_C_1_eq (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 x1 : Vec F S2000x64 .f32) (xs0 xs1 : Vec F S1x64 .f32) :
    sout4_C_1 c i arg1 harg1 arg2 harg2 arg3 harg3 arg4 harg4 arg5 harg5 arg6 harg6 arg7 harg7 hc0 hc1 x0 x1 xs0 xs1 = k4_pay5 x0 x1 xs1 := by
  unfold sout4_C_1
  rw [View.read_writes_eq_canon _ _ _ (scover4_C_1 c i arg1 harg1 arg2 harg2 arg3 harg3 arg4 harg4 arg5 harg5 arg6 harg6 arg7 harg7 hc0 hc1 x0 x1 xs0 xs1)]
  unfold kernelRun4_C
  dsimp only
  sl_unfold_words
  rw [View.canon_unit_zero val4_hz]
  simp only [View.readAt_eq_ld, harg1.read_unread, harg2.read_unread, harg6.read_unread, harg7.read_unread, View.ld_unit_zero (S := S2000x64) val4_hz, View.ld_unit_zero (S := S1x64) val4_hz]

theorem out4_C_3_eq (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 x1 : Vec F S2000x64 .f32) (xs0 xs1 : Vec F S1x64 .f32) :
    out4_C_3 c i arg1 harg1 arg2 harg2 arg3 harg3 arg4 harg4 arg5 harg5 arg6 harg6 arg7 harg7 hc0 hc1 x0 x1 xs0 xs1 = k4_pay4 x0 x1 xs0 := by
  unfold out4_C_3
  rw [View.read_writes_eq_canon _ _ _ (cover4_C_3 c i arg1 harg1 arg2 harg2 arg3 harg3 arg4 harg4 arg5 harg5 arg6 harg6 arg7 harg7 hc0 hc1 x0 x1 xs0 xs1)]
  unfold kernelRun4_C
  dsimp only
  sl_unfold_words
  rw [View.canon_unit_zero val4_hz]
  rw [View.readCov_unit_zero (S := S1x64) _ val4_hz]
  simp only [View.readAt_eq_ld, harg1.read_unread, harg2.read_unread, harg6.read_unread, harg7.read_unread, View.ld_unit_zero (S := S2000x64) val4_hz, View.ld_unit_zero (S := S1x64) val4_hz]

theorem out4_C_4_eq (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 x1 : Vec F S2000x64 .f32) (xs0 xs1 : Vec F S1x64 .f32) :
    out4_C_4 c i arg1 harg1 arg2 harg2 arg3 harg3 arg4 harg4 arg5 harg5 arg6 harg6 arg7 harg7 hc0 hc1 x0 x1 xs0 xs1 = k4_pay5 x0 x1 xs1 := by
  unfold out4_C_4
  rw [View.read_writes_eq_canon _ _ _ (cover4_C_4 c i arg1 harg1 arg2 harg2 arg3 harg3 arg4 harg4 arg5 harg5 arg6 harg6 arg7 harg7 hc0 hc1 x0 x1 xs0 xs1)]
  unfold kernelRun4_C
  dsimp only
  sl_unfold_words
  rw [View.canon_unit_zero val4_hz]
  rw [View.readCov_unit_zero (S := S1x64) _ val4_hz]
  simp only [View.readAt_eq_ld, harg1.read_unread, harg2.read_unread, harg6.read_unread, harg7.read_unread, View.ld_unit_zero (S := S2000x64) val4_hz, View.ld_unit_zero (S := S1x64) val4_hz]

end Pieces

/-! ## The payloads read at an index, over the extended reals -/

section Payloads

theorem k4_pay3_apply (x0 x1 : Vec Ideal S2000x64 .f32) (y : S2000x64.Idx) :
    k4_pay3 x0 x1 y = x0 y + x1 y := by
  unfold k4_pay3
  (try dsimp only)
  rw [shapeCast_self, shapeCast_self]
  rfl

theorem k4_pay1_apply (y : S1x64.Idx) : k4_pay1 (F := Ideal) y = 0 := by
  unfold k4_pay1
  (try dsimp only)
  rw [shapeCast_self]
  exact Ideal.ofBits_zero_f32

theorem k4_pay2_apply (y : S1x64.Idx) : k4_pay2 (F := Ideal) y = 0 := by
  unfold k4_pay2
  (try dsimp only)
  rw [shapeCast_self]
  exact Ideal.ofBits_zero_f32

/-- A column total laid out as a one-row array, read at `(0, f)`. -/
theorem val4_rowOf (w : FVec Ideal S64 .f32) (h : S64.ShapeCasts S1x64) (z : Fin 1) (f : Fin 64) :
    shapeCast S1x64 w h (ix2 z f) = w (ix1 f) :=
  (shapeCast_addUnit_apply ![64] w h (ix2 z f)).trans
    (congrArg w (funext fun a => by match a with | ⟨0, _⟩ => rfl))

theorem k4_pay4_apply (x0 x1 : Vec Ideal S2000x64 .f32) (v : Vec Ideal S1x64 .f32) (z : Fin 1) (f : Fin 64) :
    k4_pay4 x0 x1 v (ix2 z f) = v (ix2 z f) + ∑ r : Fin 2000, (x0 (ix2 r f) + x1 (ix2 r f)) := by
  unfold k4_pay4
  (try dsimp only)
  rw [shapeCast_self]
  refine (addf_apply _ _ _).trans ?_
  refine congrArg (fun e => v (ix2 z f) + e) ?_
  refine (val4_rowOf _ _ z f).trans ?_
  refine (Cert.Lib.column_sum (a := 2000) (b := 64) (k4_pay3 x0 x1) _ _ _ f).trans ?_
  exact Finset.sum_congr rfl fun r _ => k4_pay3_apply x0 x1 (ix2 r f)

theorem k4_pay5_apply (x0 x1 : Vec Ideal S2000x64 .f32) (v : Vec Ideal S1x64 .f32) (z : Fin 1) (f : Fin 64) :
    k4_pay5 x0 x1 v (ix2 z f)
      = v (ix2 z f) + ∑ r : Fin 2000, (x0 (ix2 r f) + x1 (ix2 r f)) * (x0 (ix2 r f) + x1 (ix2 r f)) := by
  unfold k4_pay5
  (try dsimp only)
  rw [shapeCast_self]
  refine (addf_apply _ _ _).trans ?_
  refine congrArg (fun e => v (ix2 z f) + e) ?_
  refine (val4_rowOf _ _ z f).trans ?_
  refine (Cert.Lib.column_sum (a := 2000) (b := 64) (mulf (k4_pay3 x0 x1) (k4_pay3 x0 x1)) _ _ _ f).trans ?_
  refine Finset.sum_congr rfl fun r _ => ?_
  refine (mulf_apply _ _ _).trans ?_
  rw [k4_pay3_apply]

end Payloads

/-! ## The arrays after the region -/

section Value

variable (V : (c : Dev nD) → (b : Ref sig .tc) → Buf (Elt Ideal) ((c : Thread nD τ).loc b))

/-- The residual sum the kernel forms, as a whole array. -/
abbrev o4 (c : Dev nD) : Cert.Spec.Arr 50000 64 := Cert.Spec.addv (V c main_v58_0) (V c main_v76)

/-- The printed index maps over the grid: the three tiled windows are at block `(t, 0)`, the two statistics
    windows at block `(0, 0)`. -/
theorem idx4_facts : ∀ t : Fin cfg4.N, win4_0.index t 0 = t.val ∧ win4_0.index t 1 = 0
    ∧ win4_1.index t 0 = t.val ∧ win4_1.index t 1 = 0
    ∧ win4_2.index t 0 = t.val ∧ win4_2.index t 1 = 0
    ∧ win4_3.index t 0 = 0 ∧ win4_3.index t 1 = 0
    ∧ win4_4.index t 0 = 0 ∧ win4_4.index t 1 = 0 :=
  (by decide +kernel : ∀ t : Fin grid4.N, _)

theorem val4_lt (t : Fin cfg4.N) : t.val < 25 := lt_of_lt_of_eq t.isLt (show cfg4.N = 25 from N_4)

/-- The grid's last point. -/
abbrev val4_last : Fin cfg4.N := ⟨24, by rw [show cfg4.N = 25 from N_4]; omega⟩

theorem iblk4_0_apply (c : Dev nD) (t : Fin cfg4.N) (r : Fin 2000) (f : Fin 64) :
    (iblk4 V c 0 t : Vec Ideal S2000x64 .f32) (ix2 r f) = V c main_v58_0 (ix2 (tileRow t.val (val4_lt t) r) f) := by
  unfold iblk4
  rw [View.read_apply]
  show V c main_v58_0 _ = V c main_v58_0 _
  congr 1; funext a; apply Fin.ext
  match a with
  | ⟨0, _⟩ => show win4_0.index t 0 * 2000 + 1 * r.val = t.val * 2000 + r.val; rw [(idx4_facts t).1]; omega
  | ⟨1, _⟩ => show win4_0.index t 1 * 64 + 1 * f.val = f.val; rw [(idx4_facts t).2.1]; omega

theorem iblk4_1_apply (c : Dev nD) (t : Fin cfg4.N) (r : Fin 2000) (f : Fin 64) :
    (iblk4 V c 1 t : Vec Ideal S2000x64 .f32) (ix2 r f) = V c main_v76 (ix2 (tileRow t.val (val4_lt t) r) f) := by
  unfold iblk4
  rw [View.read_apply]
  show V c main_v76 _ = V c main_v76 _
  congr 1; funext a; apply Fin.ext
  match a with
  | ⟨0, _⟩ => show win4_1.index t 0 * 2000 + 1 * r.val = t.val * 2000 + r.val; rw [(idx4_facts t).2.2.1]; omega
  | ⟨1, _⟩ => show win4_1.index t 1 * 64 + 1 * f.val = f.val; rw [(idx4_facts t).2.2.2.1]; omega

/-- Block `t` of a whole array read through the sum window. -/
theorem blk4_2_read (A : Cert.Spec.Arr 50000 64) (t : Fin cfg4.N) (r : Fin 2000) (f : Fin 64) :
    ((cfg4.win 2).blk t).view.read (Elt Ideal) A (ix2 r f) = A (ix2 (tileRow t.val (val4_lt t) r) f) := by
  rw [View.read_apply]
  show A _ = A _
  congr 1; funext a; apply Fin.ext
  match a with
  | ⟨0, _⟩ => show win4_2.index t 0 * 2000 + 1 * r.val = t.val * 2000 + r.val; rw [(idx4_facts t).2.2.2.2.1]; omega
  | ⟨1, _⟩ => show win4_2.index t 1 * 64 + 1 * f.val = f.val; rw [(idx4_facts t).2.2.2.2.2.1]; omega

theorem mem_blk4_2 (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v77_0).slice (win4_2.rect t)).set ↔ _
  rw [View.set_slice_whole, Rect.mem_set_unit]
  exact Iff.rfl

theorem mem_blk4_3 (t : Fin cfg4.N) (i : S1x64.Idx) :
    i ∈ ((cfg4.win 3).blk t).view.set ↔ ∀ a : Fin 2, win4_3.index t a * S1x64.size a ≤ (i a).val ∧ (i a).val < win4_3.index t a * S1x64.size a + S1x64.size a := by
  show i ∈ ((View.whole main_v77_1).slice (win4_3.rect t)).set ↔ _
  rw [View.set_slice_whole, Rect.mem_set_unit]
  exact Iff.rfl

theorem mem_blk4_4 (t : Fin cfg4.N) (i : S1x64.Idx) :
    i ∈ ((cfg4.win 4).blk t).view.set ↔ ∀ a : Fin 2, win4_4.index t a * S1x64.size a ≤ (i a).val ∧ (i a).val < win4_4.index t a * S1x64.size a + S1x64.size a := by
  show i ∈ ((View.whole main_v77_2).slice (win4_4.rect t)).set ↔ _
  rw [View.set_slice_whole, Rect.mem_set_unit]
  exact Iff.rfl

/-- One tile's entries of the residual sum, from the two input blocks. -/
theorem tile4_entry (c : Dev nD) (t : Fin cfg4.N) (r : Fin 2000) (f : Fin 64)
    (x0 x1 : Vec Ideal S2000x64 .f32) (h0 : x0 = iblk4 V c 0 t) (h1 : x1 = iblk4 V c 1 t) :
    x0 (ix2 r f) + x1 (ix2 r f) = o4 V c (ix2 (tileRow t.val (val4_lt t) r) f) := by
  subst h0 h1
  rw [iblk4_0_apply, iblk4_1_apply]
  rfl

/-- One step of an accumulator: the total so far plus this tile's column total. -/
theorem step4_sum (x0 x1 : Vec Ideal S2000x64 .f32) (v : Vec Ideal S1x64 .f32) (g : Fin 50000 → EReal)
    (n : ℕ) (hn : n + 1 < 25) (z : Fin 1) (f : Fin 64)
    (hx : ∀ r : Fin 2000, x0 (ix2 r f) + x1 (ix2 r f) = g (tileRow (n + 1) hn r))
    (hv : v (ix2 z f) = running g n) : k4_pay4 x0 x1 v (ix2 z f) = running g (n + 1) := by
  rw [k4_pay4_apply, running_succ g n hn, hv]
  exact congrArg _ (Finset.sum_congr rfl fun r _ => hx r)

theorem step4_sq (x0 x1 : Vec Ideal S2000x64 .f32) (v : Vec Ideal S1x64 .f32) (g : Fin 50000 → EReal)
    (n : ℕ) (hn : n + 1 < 25) (z : Fin 1) (f : Fin 64)
    (hx : ∀ r : Fin 2000, x0 (ix2 r f) + x1 (ix2 r f) = g (tileRow (n + 1) hn r))
    (hv : v (ix2 z f) = running (fun k => g k * g k) n) : k4_pay5 x0 x1 v (ix2 z f) = running (fun k => g k * g k) (n + 1) := by
  rw [k4_pay5_apply, running_succ (fun k => g k * g k) n hn, hv]
  exact congrArg _ (Finset.sum_congr rfl fun r _ => by rw [hx r])

/-- The first point: the accumulators start from zero. -/
theorem base4_sum (x0 x1 : Vec Ideal S2000x64 .f32) (g : Fin 50000 → EReal) (z : Fin 1) (f : Fin 64)
    (hx : ∀ r : Fin 2000, x0 (ix2 r f) + x1 (ix2 r f) = g (tileRow 0 (by decide) r)) :
    k4_pay4 x0 x1 (k4_pay1 (F := Ideal)) (ix2 z f) = running g 0 := by
  rw [k4_pay4_apply, k4_pay1_apply, zero_add, running_zero]
  exact Finset.sum_congr rfl fun r _ => hx r

theorem base4_sq (x0 x1 : Vec Ideal S2000x64 .f32) (g : Fin 50000 → EReal) (z : Fin 1) (f : Fin 64)
    (hx : ∀ r : Fin 2000, x0 (ix2 r f) + x1 (ix2 r f) = g (tileRow 0 (by decide) r)) :
    k4_pay5 x0 x1 (k4_pay2 (F := Ideal)) (ix2 z f) = running (fun k => g k * g k) 0 := by
  rw [k4_pay5_apply, k4_pay2_apply, zero_add, running_zero]
  exact Finset.sum_congr rfl fun r _ => by rw [hx r]

/-- THE ACCUMULATORS after point `n`: the column totals of the residual sum, and of its squares, over the rows of
    tiles `0 … n` — by induction on the point. -/
theorem acc4_eq (c : Dev nD) : ∀ (n : ℕ) (hn : n < cfg4.N) (z : Fin 1) (f : Fin 64),
    (outsAt4 V c n hn).2.2.2.1 (ix2 z f) = running (fun k => o4 V c (ix2 k f)) n
    ∧ (outsAt4 V c n hn).2.2.2.2 (ix2 z f) = running (fun k => o4 V c (ix2 k f) * o4 V c (ix2 k f)) n
  | 0, hn, z, f => by
    rw [outsAt4_A V c ⟨0, hn⟩ rfl (fun h => by (try dsimp only at h); omega)]
    dsimp only
    rw [sout4_A_0_eq, sout4_A_1_eq]
    exact ⟨base4_sum (iblk4 V c 0 ⟨0, hn⟩) (iblk4 V c 1 ⟨0, hn⟩) (fun k => o4 V c (ix2 k f)) z f (fun r => tile4_entry V c ⟨0, hn⟩ r f _ _ rfl rfl),
      base4_sq (iblk4 V c 0 ⟨0, hn⟩) (iblk4 V c 1 ⟨0, hn⟩) (fun k => o4 V c (ix2 k f)) z f (fun r => tile4_entry V c ⟨0, hn⟩ r f _ _ rfl rfl)⟩
  | n + 1, hn, z, f => by
    have hN : n + 1 < 25 := lt_of_lt_of_eq hn (show cfg4.N = 25 from N_4)
    have ih := acc4_eq c n (Nat.lt_of_succ_lt hn) z f
    have h0 : ¬(⟨n + 1, hn⟩ : Fin cfg4.N).val % 25 = 0 := by dsimp only; omega
    by_cases h1 : (⟨n + 1, hn⟩ : Fin cfg4.N).val % 25 = 24
    · rw [outsAt4_C V c ⟨n + 1, hn⟩ h0 h1]
      dsimp only
      rw [sout4_C_0_eq, sout4_C_1_eq]
      exact ⟨step4_sum (iblk4 V c 0 ⟨n + 1, hn⟩) (iblk4 V c 1 ⟨n + 1, hn⟩) (outsAt4 V c n (Nat.lt_of_succ_lt hn)).2.2.2.1 (fun k => o4 V c (ix2 k f)) n hN z f
          (fun r => tile4_entry V c ⟨n + 1, hn⟩ r f _ _ rfl rfl) ih.1,
        step4_sq (iblk4 V c 0 ⟨n + 1, hn⟩) (iblk4 V c 1 ⟨n + 1, hn⟩) (outsAt4 V c n (Nat.lt_of_succ_lt hn)).2.2.2.2 (fun k => o4 V c (ix2 k f)) n hN z f
          (fun r => tile4_entry V c ⟨n + 1, hn⟩ r f _ _ rfl rfl) ih.2⟩
    · rw [outsAt4_B V c ⟨n + 1, hn⟩ h0 h1]
      dsimp only
      rw [sout4_B_0_eq, sout4_B_1_eq]
      exact ⟨step4_sum (iblk4 V c 0 ⟨n + 1, hn⟩) (iblk4 V c 1 ⟨n + 1, hn⟩) (outsAt4 V c n (Nat.lt_of_succ_lt hn)).2.2.2.1 (fun k => o4 V c (ix2 k f)) n hN z f
          (fun r => tile4_entry V c ⟨n + 1, hn⟩ r f _ _ rfl rfl) ih.1,
        step4_sq (iblk4 V c 0 ⟨n + 1, hn⟩) (iblk4 V c 1 ⟨n + 1, hn⟩) (outsAt4 V c n (Nat.lt_of_succ_lt hn)).2.2.2.2 (fun k => o4 V c (ix2 k f)) n hN z f
          (fun r => tile4_entry V c ⟨n + 1, hn⟩ r f _ _ rfl rfl) ih.2⟩

/-! ### The sum window: every point writes its tile of the residual sum back -/

/-- What any point leaves in the sum window's staging buffer. -/
theorem out4_2_eq (c : Dev nD) (t : Fin cfg4.N) :
    (outsAt4 V c t.val t.isLt).1 = k4_pay3 (iblk4 V c 0 t) (iblk4 V c 1 t) := by
  have hN := val4_lt t
  by_cases h0 : t.val % 25 = 0
  · rw [outsAt4_A V c t h0 (by omega)]
    dsimp only
    rw [out4_A_2_eq]
  · by_cases h1 : t.val % 25 = 24
    · rw [outsAt4_C V c t h0 h1]
      dsimp only
      rw [out4_C_2_eq]
    · rw [outsAt4_B V c t h0 h1]
      dsimp only
      rw [out4_B_2_eq]

theorem flushed4_2 (c : Dev nD) (t : Fin cfg4.N) :
    (dat4 V c).flushed 2 t = ((cfg4.win 2).blk t).view.read (Elt Ideal) (o4 V c) := by
  show (cfg4.win 2).cut (grid4.coords t) ((dat4 V c).after 2 t) = _
  rw [after4_2, out4_2_eq]
  funext j
  obtain ⟨r, f, rfl⟩ : ∃ (r : Fin 2000) (f : Fin 64), j = ix2 r f := ⟨j 0, j 1, eq_ix2 j⟩
  show k4_pay3 (iblk4 V c 0 t) (iblk4 V c 1 t) (ix2 r f) = ((cfg4.win 2).blk t).view.read (Elt Ideal) (o4 V c) (ix2 r f)
  rw [k4_pay3_apply, tile4_entry V c t r f _ _ rfl rfl, blk4_2_read]

theorem final4_2 (c : Dev nD) :
    (dat4 (F := Ideal) V c).arrAt 2 cfg4.N = Cert.Spec.addv (V c main_v58_0) (V c main_v76) :=
  (dat4 V c).arrAt_eq_of_cover 2 (o4 V c) (fun t _ => flushed4_2 V c t) fun i => by
    have hi0 : (i 0).val < 50000 := (i 0).isLt
    have hi1 : (i 1).val < 64 := (i 1).isLt
    have ht : (i 0).val / 2000 < cfg4.N := by rw [show cfg4.N = 25 from N_4]; omega
    refine ⟨⟨(i 0).val / 2000, ht⟩, flush4_2 _, ?_⟩
    rw [mem_blk4_2]
    have e0 : win4_2.index ⟨(i 0).val / 2000, ht⟩ 0 = (i 0).val / 2000 := (idx4_facts ⟨(i 0).val / 2000, ht⟩).2.2.2.2.1
    have e1 : win4_2.index ⟨(i 0).val / 2000, ht⟩ 1 = 0 := (idx4_facts ⟨(i 0).val / 2000, ht⟩).2.2.2.2.2.1
    intro a
    match a with
    | ⟨0, _⟩ => show win4_2.index ⟨(i 0).val / 2000, ht⟩ 0 * 2000 ≤ (i 0).val ∧ (i 0).val < win4_2.index ⟨(i 0).val / 2000, ht⟩ 0 * 2000 + 2000; rw [e0]; omega
    | ⟨1, _⟩ => show win4_2.index ⟨(i 0).val / 2000, ht⟩ 1 * 64 ≤ (i 1).val ∧ (i 1).val < win4_2.index ⟨(i 0).val / 2000, ht⟩ 1 * 64 + 64; rw [e1]; omega

/-! ### The two statistics windows: written back once, after the last point -/

/-- At the last point the copied-out block is the accumulator's. -/
theorem stat4_3_eq (c : Dev nD) (t : Fin cfg4.N) (h24 : t.val % 25 = 24) :
    (outsAt4 V c t.val t.isLt).2.1 = (outsAt4 V c t.val t.isLt).2.2.2.1 := by
  have hN := val4_lt t
  rw [outsAt4_C V c t (by omega) h24]
  dsimp only
  rw [out4_C_3_eq, sout4_C_0_eq]

/-- The one write-back of window 3, at the last point, writes the whole-column total. -/
theorem flushed4_3 (c : Dev nD) (t : Fin cfg4.N) (hf : (cfg4.win 3).flush t = true) :
    (dat4 V c).flushed 3 t = ((cfg4.win 3).blk t).view.read (Elt Ideal) (Cert.Spec.colsum (o4 V c)) := by
  have h24 : t.val % 25 = 24 := (flush4_3 t).mp hf
  have hN := val4_lt t
  have hz' : (fun a => win4_3.index t a * main_v77_1.ty.shape.size a) = fun _ => 0 := funext fun a => by
    match a with
    | ⟨0, _⟩ => show win4_3.index t 0 * _ = 0; rw [(idx4_facts t).2.2.2.2.2.2.1, Nat.zero_mul]
    | ⟨1, _⟩ => show win4_3.index t 1 * _ = 0; rw [(idx4_facts t).2.2.2.2.2.2.2.1, Nat.zero_mul]
  refine Eq.trans ?_ (Memref.read_access_unit_zero (Elt Ideal) main_v77_1 hz' (fun a => by rw [congrFun hz' a]; simp) (Cert.Spec.colsum (o4 V c))).symm
  show (cfg4.win 3).cut (grid4.coords t) ((dat4 V c).after 3 t) = _
  rw [after4_3, stat4_3_eq V c t h24]
  funext j
  obtain ⟨z, f, rfl⟩ : ∃ (z : Fin 1) (f : Fin 64), j = ix2 z f := ⟨j 0, j 1, eq_ix2 j⟩
  show (outsAt4 V c t.val t.isLt).2.2.2.1 (ix2 z f) = Cert.Spec.colsumAt (o4 V c) f
  rw [(acc4_eq V c t.val t.isLt z f).1]
  have ht : t.val = 24 := by omega
  rw [ht, running_last]
  rfl

theorem final4_3 (c : Dev nD) :
    (dat4 (F := Ideal) V c).arrAt 3 cfg4.N = Cert.Spec.colsum (Cert.Spec.addv (V c main_v58_0) (V c main_v76)) :=
  (dat4 V c).arrAt_eq_of_cover 3 (Cert.Spec.colsum (o4 V c)) (flushed4_3 V c) fun i => by
    refine ⟨val4_last, (flush4_3 val4_last).mpr rfl, ?_⟩
    rw [mem_blk4_3]
    have h0 : (i 0).val < 1 := (i 0).isLt
    have h1 : (i 1).val < 64 := (i 1).isLt
    have e0 : win4_3.index val4_last 0 = 0 := (idx4_facts val4_last).2.2.2.2.2.2.1
    have e1 : win4_3.index val4_last 1 = 0 := (idx4_facts val4_last).2.2.2.2.2.2.2.1
    intro a
    match a with
    | ⟨0, _⟩ => show win4_3.index val4_last 0 * 1 ≤ (i 0).val ∧ (i 0).val < win4_3.index val4_last 0 * 1 + 1; rw [e0]; omega
    | ⟨1, _⟩ => show win4_3.index val4_last 1 * 64 ≤ (i 1).val ∧ (i 1).val < win4_3.index val4_last 1 * 64 + 64; rw [e1]; omega

/-- At the last point the copied-out block is the accumulator's. -/
theorem stat4_4_eq (c : Dev nD) (t : Fin cfg4.N) (h24 : t.val % 25 = 24) :
    (outsAt4 V c t.val t.isLt).2.2.1 = (outsAt4 V c t.val t.isLt).2.2.2.2 := by
  have hN := val4_lt t
  rw [outsAt4_C V c t (by omega) h24]
  dsimp only
  rw [out4_C_4_eq, sout4_C_1_eq]

/-- The one write-back of window 4, at the last point, writes the whole-column total. -/
theorem flushed4_4 (c : Dev nD) (t : Fin cfg4.N) (hf : (cfg4.win 4).flush t = true) :
    (dat4 V c).flushed 4 t = ((cfg4.win 4).blk t).view.read (Elt Ideal) (Cert.Spec.colsumsq (o4 V c)) := by
  have h24 : t.val % 25 = 24 := (flush4_4 t).mp hf
  have hN := val4_lt t
  have hz' : (fun a => win4_4.index t a * main_v77_2.ty.shape.size a) = fun _ => 0 := funext fun a => by
    match a with
    | ⟨0, _⟩ => show win4_4.index t 0 * _ = 0; rw [(idx4_facts t).2.2.2.2.2.2.2.2.1, Nat.zero_mul]
    | ⟨1, _⟩ => show win4_4.index t 1 * _ = 0; rw [(idx4_facts t).2.2.2.2.2.2.2.2.2, Nat.zero_mul]
  refine Eq.trans ?_ (Memref.read_access_unit_zero (Elt Ideal) main_v77_2 hz' (fun a => by rw [congrFun hz' a]; simp) (Cert.Spec.colsumsq (o4 V c))).symm
  show (cfg4.win 4).cut (grid4.coords t) ((dat4 V c).after 4 t) = _
  rw [after4_4, stat4_4_eq V c t h24]
  funext j
  obtain ⟨z, f, rfl⟩ : ∃ (z : Fin 1) (f : Fin 64), j = ix2 z f := ⟨j 0, j 1, eq_ix2 j⟩
  show (outsAt4 V c t.val t.isLt).2.2.2.2 (ix2 z f) = Cert.Spec.colsumsqAt (o4 V c) f
  rw [(acc4_eq V c t.val t.isLt z f).2]
  have ht : t.val = 24 := by omega
  rw [ht, running_last]
  rfl

theorem final4_4 (c : Dev nD) :
    (dat4 (F := Ideal) V c).arrAt 4 cfg4.N = Cert.Spec.colsumsq (Cert.Spec.addv (V c main_v58_0) (V c main_v76)) :=
  (dat4 V c).arrAt_eq_of_cover 4 (Cert.Spec.colsumsq (o4 V c)) (flushed4_4 V c) fun i => by
    refine ⟨val4_last, (flush4_4 val4_last).mpr rfl, ?_⟩
    rw [mem_blk4_4]
    have h0 : (i 0).val < 1 := (i 0).isLt
    have h1 : (i 1).val < 64 := (i 1).isLt
    have e0 : win4_4.index val4_last 0 = 0 := (idx4_facts val4_last).2.2.2.2.2.2.2.2.1
    have e1 : win4_4.index val4_last 1 = 0 := (idx4_facts val4_last).2.2.2.2.2.2.2.2.2
    intro a
    match a with
    | ⟨0, _⟩ => show win4_4.index val4_last 0 * 1 ≤ (i 0).val ∧ (i 0).val < win4_4.index val4_last 0 * 1 + 1; rw [e0]; omega
    | ⟨1, _⟩ => show win4_4.index val4_last 1 * 64 ≤ (i 1).val ∧ (i 1).val < win4_4.index val4_last 1 * 64 + 64; rw [e1]; omega

end Value

end Cert.KernelIdeal.Hand

end
-- ==== Proof.KI.Val5.lean ====
import proofs.«177069_j18983755448416_1_alg».proof.Proof.KI.Reg5
import proofs.«177069_j18983755448416_1_alg».proof.Proof.Spec
import Idealize.ShloMosaic.Lib.Pipeline.Value
import Idealize.ShloMosaic.Lib.ValueLayout
import Idealize.ShloMosaic.PureOps.Ideal.Laws

/-! # Region 5 of @main at the extended reals: the array it leaves

The stored value at a row and feature is the entry's distance from the feature's mean, times the
reciprocal square root of the feature's guarded variance, scaled, shifted, and clamped below at zero.
Grid point `t` writes rows `2000·t … 2000·t + 1999` of the result from the same rows of the input and
from the four one-row arrays, which every point sees whole; row `r` lies in the block of point
`r / 2000`, so the twenty-five blocks cover the array and the array after the region is the
normalised, rectified array, entry by entry. -/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The stored value at row `p`, feature `q` of a block, from the loaded values. -/
theorem pay5_apply (v0 v2 : FVec Ideal S1x64 .f32) (v7 : FVec Ideal S2000x64 .f32) (v13 v17 : FVec Ideal S1x64 .f32)
    (p : Fin 2000) (q : Fin 64) :
    k5_pay1 (F := Ideal) v0 v2 v7 v13 v17 (ix2 p q)
      = max ((((v7 (ix2 p q) - v0 (ix2 0 q)) * Ideal.rsqrt (v2 (ix2 0 q) + Cert.Spec.eps)) * v13 (ix2 0 q)) + v17 (ix2 0 q)) 0 := by
  unfold k5_pay1
  simp only [maximumf_apply, addf_apply, mulf_apply, subf_apply, broadcast_apply, shapeCast_self, broadcastTo_1b_ab_apply]
  show max ((v7 (ix2 p q) - v0 (ix2 0 q)) * Ideal.rsqrt (v2 (ix2 0 q) + Ideal.ofBits .f32 0x3727C5AC#32) * v13 (ix2 0 q) + v17 (ix2 0 q)) (Ideal.ofBits .f32 0x00000000#32) = _
  rw [Ideal.ofBits_zero_f32]
  rfl

/-- The zero offsets of a whole-buffer access. -/
theorem zero_off5 : (![0, 0] : Fin 2 → Nat) = fun _ => 0 := funext fun a => by fin_cases a <;> rfl

/-- The normalised array at an index, the one-row arrays read at the index's own feature. -/
theorem bnrelu_at5 (o : Cert.Spec.Arr 50000 64) (mu var g be : Cert.Spec.Arr 1 64) (i : (⟨2, ![50000, 64]⟩ : Shape).Idx) :
    Cert.Spec.bnrelu o mu var g be i
      = max ((((o i - mu (ix2 0 (i 1))) * Ideal.rsqrt (var (ix2 0 (i 1)) + Cert.Spec.eps)) * g (ix2 0 (i 1))) + be (ix2 0 (i 1))) 0 := by
  have e : (ix2 (Cert.Spec.row i) (Cert.Spec.col i) : (⟨2, ![50000, 64]⟩ : Shape).Idx) = i := (eq_ix2 i).symm
  unfold Cert.Spec.bnrelu Cert.Spec.bnreluAt
  rw [e]

/-- The block index maps over the grid: the input and the result move one block of rows per point, the four
    one-row arrays stay. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

-- the buffer contents when the region is entered
variable (V : (c : Dev nD) → (b : Ref sig .tc) → Buf (Elt Ideal) ((c : Thread nD τ).loc b))

/-- What point `t` writes back is block `t` of the normalised array of the arrays as the region finds them. -/
theorem flushed5_5_eq (c : Dev nD) (t : Fin cfg5.N) :
    (dat5 (F := Ideal) V c).flushed 5 t = ((cfg5.win 5).blk t).view.read (Elt Ideal)
      (Cert.Spec.bnrelu (V c main_v77_0) (V c main_v79) (V c main_v85) (V c main_v56) (V c main_v57)) := by
  show (cfg5.win 5).cut (grid5.coords t) ((dat5 V c).after 5 t) = _
  rw [after5_5]
  unfold out5_5
  rw [View.canon_unit_zero zero_off5]
  simp only [View.ld_unit_zero (S := S2000x64) zero_off5, View.ld_unit_zero (S := S1x64) zero_off5]
  funext j
  obtain ⟨p, q, rfl⟩ : ∃ (p : Fin 2000) (q : Fin 64), j = ix2 p q := ⟨j 0, j 1, eq_ix2 j⟩
  refine (pay5_apply _ _ _ _ _ p q).trans ?_
  refine Eq.trans ?_ (bnrelu_at5 _ _ _ _ _ (((cfg5.win 5).blk t).view.emb (ix2 p q))).symm
  obtain ⟨a0, a1, b0, b1, c0, c1, d0, d1, f0, f1, g0, g1⟩ := idx_facts5 t
  have e0 : (iblk5 V c 0 t : Vec Ideal S2000x64 .f32) (ix2 p q) = (V c main_v77_0 : S50000x64.Idx → EReal) (((cfg5.win 5).blk t).view.emb (ix2 p q)) := by
    show V c main_v77_0 (((cfg5.win 0).blk t).view.emb (ix2 p q)) = V c main_v77_0 (((cfg5.win 5).blk t).view.emb (ix2 p q))
    refine congrArg _ (funext fun a => Fin.ext ?_)
    match a with
    | ⟨0, _⟩ => show win5_0.index t (0 : Fin 2) * 2000 + 1 * p.val = win5_5.index t (0 : Fin 2) * 2000 + 1 * p.val; omega
    | ⟨1, _⟩ => show win5_0.index t (1 : Fin 2) * 64 + 1 * q.val = win5_5.index t (1 : Fin 2) * 64 + 1 * q.val; omega
  have e1 : (iblk5 V c 1 t : Vec Ideal S1x64 .f32) (ix2 0 q) = (V c main_v79 : S1x64.Idx → EReal) (ix2 (0 : Fin 1) ((((cfg5.win 5).blk t).view.emb (ix2 p q)) 1 : Fin 64)) := by
    show V c main_v79 (((cfg5.win 1).blk t).view.emb (ix2 0 q)) = _
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = win5_5.index t (1 : Fin 2) * 64 + 1 * q.val; omega
  have e2 : (iblk5 V c 2 t : Vec Ideal S1x64 .f32) (ix2 0 q) = (V c main_v85 : S1x64.Idx → EReal) (ix2 (0 : Fin 1) ((((cfg5.win 5).blk t).view.emb (ix2 p q)) 1 : Fin 64)) := by
    show V c main_v85 (((cfg5.win 2).blk t).view.emb (ix2 0 q)) = _
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * q.val = win5_5.index t (1 : Fin 2) * 64 + 1 * q.val; omega
  have e3 : (iblk5 V c 3 t : Vec Ideal S1x64 .f32) (ix2 0 q) = (V c main_v56 : S1x64.Idx → EReal) (ix2 (0 : Fin 1) ((((cfg5.win 5).blk t).view.emb (ix2 p q)) 1 : Fin 64)) := by
    show V c main_v56 (((cfg5.win 3).blk t).view.emb (ix2 0 q)) = _
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * q.val = win5_5.index t (1 : Fin 2) * 64 + 1 * q.val; omega
  have e4 : (iblk5 V c 4 t : Vec Ideal S1x64 .f32) (ix2 0 q) = (V c main_v57 : S1x64.Idx → EReal) (ix2 (0 : Fin 1) ((((cfg5.win 5).blk t).view.emb (ix2 p q)) 1 : Fin 64)) := by
    show V c main_v57 (((cfg5.win 4).blk t).view.emb (ix2 0 q)) = _
    refine congrArg _ (funext fun a => Fin.ext ?_)
    match a with
    | ⟨0, _⟩ => show win5_4.index t (0 : Fin 2) * 1 + 1 * 0 = 0; omega
    | ⟨1, _⟩ => show win5_4.index t (1 : Fin 2) * 64 + 1 * q.val = win5_5.index t (1 : Fin 2) * 64 + 1 * q.val; omega
  exact congrArg₂ max (congrArg₂ (· + ·) (congrArg₂ (· * ·) (congrArg₂ (· * ·) (congrArg₂ (· - ·) e0 e1)
    (congrArg Ideal.rsqrt (congrArg (· + Cert.Spec.eps) e2))) e3) e4) rfl

/-- Every row lies in the block of the point its number divided by 2000 names. -/
theorem cover5_5_arr (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : grid5.N = 25 := N_5
  let t : Fin cfg5.N := ⟨(i 0).val / 2000, by show (i 0).val / 2000 < grid5.N; rw [hN]; omega⟩
  refine ⟨t, flush5_5 t, ?_⟩
  obtain ⟨a0, a1, b0, b1, c0, c1, d0, d1, f0, f1, g0, g1⟩ := idx_facts5 t
  have ht : t.val = (i 0).val / 2000 := rfl
  show i ∈ ((View.whole main_v86).slice (win5_5.rect t)).set
  rw [View.set_slice_whole, Rect.mem_set_unit]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 64 ≤ (i 1).val ∧ (i 1).val < win5_5.index t (1 : Fin 2) * 64 + 64; omega

/-- The array the region leaves is the normalised, rectified array of the arrays it found. -/
theorem final5_5 (c : Dev nD) :
    (dat5 (F := Ideal) V c).arrAt 5 cfg5.N
      = Cert.Spec.bnrelu (V c main_v77_0) (V c main_v79) (V c main_v85) (V c main_v56) (V c main_v57) :=
  (dat5 (F := Ideal) V c).arrAt_eq_of_cover 5 _ (fun t _ => flushed5_5_eq V c t) (cover5_5_arr)

end Cert.KernelIdeal.Hand

end
-- ==== Proof.KI.Pay6.lean ====
import proofs.«177069_j18983755448416_1_alg».proof.Proof.KI.Reg6
import proofs.«177069_j18983755448416_1_alg».proof.Proof.Spec
import proofs.«177069_j18983755448416_1_alg».proof.Proof.LibPlainDot
import Idealize.ShloMosaic.Lib.Pipeline.Value
import Idealize.ShloMosaic.Lib.ValueLayout
import Idealize.ShloMosaic.Lib.Tactic

/-! # Region 6 of @main (the node transform of layer 3): the stored values entry by entry, and the blocks' cover

Grid point t reads rows 2000·t … 2000·t + 1999 of the layer's input and writes the same rows of the two results.
Entry (p, f) of the first stored block is the row of the input block against column f of the weight, plus the
bias; entry (p, j) of the second is that row of the first block against column j of the cross basis. The 25
blocks tile the 50000 rows, so after the region the first result is x·W + b and the second is (x·W + b)·Mt,
as functions of the arrays the region was entered with. -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The two stored values at an index -/

/-- Entry (p, q) of the first stored value: row p of the input block against column q of the weight (the product is
    taken into a zero accumulator and a change of float format is the identity), plus the bias row at q. -/
theorem pay6_1_apply (x0 : Vec Ideal S2000x64 .f32) (x1 : Vec Ideal S64x64 .f32) (x2 : Vec Ideal S1x64 .f32) (p : Fin 2000) (q : Fin 64) :
    k6_pay1 x0 x1 x2 (ix2 p q) = (∑ k : Fin 64, x0 (ix2 p k) * x1 (ix2 k q)) + x2 (ix2 (0 : Fin 1) q) := by
  unfold k6_pay1
  refine (addf_apply _ _ _).trans ?_
  congr 1
  · refine (Cert.PlainDot.matmul_apply dot_S2000x64_S64x64_S2000x64_1_0_0_1_n_n ⟨rfl, rfl, rfl, rfl, rfl, rfl⟩ none _ _ p q).trans ?_
    refine Finset.sum_congr rfl fun k _ => ?_
    exact congrArg (· * x1 (ix2 k q)) (congrFun (shapeCast_self x0 _) (ix2 p k))
  · refine (broadcastTo_1b_ab_apply _ _ p q).trans ?_
    exact congrFun (shapeCast_self x2 _) _

/-- Entry (p, j) of the second stored value: row p of the first stored value against column j of the cross basis. -/
theorem pay6_2_apply (x0 : Vec Ideal S2000x64 .f32) (x1 : Vec Ideal S64x64 .f32) (x2 : Vec Ideal S1x64 .f32) (x3 : Vec Ideal S64x1024 .f32)
    (p : Fin 2000) (j : Fin 1024) :
    k6_pay2 x0 x1 x2 x3 (ix2 p j) = ∑ f : Fin 64, k6_pay1 x0 x1 x2 (ix2 p f) * x3 (ix2 f j) := by
  unfold k6_pay2
  refine (Cert.PlainDot.matmul_apply dot_S2000x64_S64x1024_S2000x1024_1_0_0_1_n_n ⟨rfl, rfl, rfl, rfl, rfl, rfl⟩ none _ _ p j).trans ?_
  refine Finset.sum_congr rfl fun f _ => ?_
  exact congrArg (k6_pay1 x0 x1 x2 (ix2 p f) * ·) (congrFun (shapeCast_self x3 _) (ix2 f j))

/-! ## The blocks as rows of the arrays -/

-- the TensorCore's buffer contents when the region is entered
variable (V : (c : Dev nD) → (b : Ref sig .tc) → Buf (Elt Ideal) ((c : Thread nD τ).loc b))

theorem hz6 : (![0, 0] : Fin 2 → Nat) = fun _ => 0 := funext fun a => by fin_cases a <;> rfl

/-- The printed index maps, decided over the 25 grid points: the input block and the two result blocks move with the
    point along the rows; the weight, the bias and the cross basis are read whole at every point. -/
theorem idx6 : ∀ t : Fin cfg6.N,
    (win6_0.index t (0 : Fin 2) = t.val ∧ win6_0.index t (1 : Fin 2) = 0)
    ∧ (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = t.val ∧ win6_4.index t (1 : Fin 2) = 0)
    ∧ (win6_5.index t (0 : Fin 2) = t.val ∧ win6_5.index t (1 : Fin 2) = 0) :=
  (by decide +kernel : ∀ t : Fin grid6.N, _)

/-- A grid point is one of 25. -/
theorem lt25_6 (t : Fin cfg6.N) : t.val < 25 := lt_of_lt_of_eq t.isLt N_6

/-- The row of the arrays that row p of the blocks at point t is. -/
def rowOf6 (t : Fin cfg6.N) (p : Fin 2000) : Fin 50000 := ⟨t.val * 2000 + p.val, by have := lt25_6 t; have := p.isLt; omega⟩

/-- The input block at point t is rows 2000·t … of the layer's input. -/
theorem iblk6_0_apply (c : Dev nD) (t : Fin cfg6.N) (p : Fin 2000) (k : Fin 64) :
    (iblk6 V c 0 t : Vec Ideal S2000x64 .f32) (ix2 p k) = (V c main_v86 : S50000x64.Idx → EReal) (ix2 (rowOf6 t p) k) := by
  obtain ⟨⟨e0, e1⟩, -⟩ := idx6 t
  unfold iblk6
  rw [View.read_apply]
  show V c main_v86 _ = V c main_v86 _
  congr 1
  funext a
  apply Fin.ext
  match a with
  | ⟨0, _⟩ => show win6_0.index t (0 : Fin 2) * 2000 + 1 * p.val = t.val * 2000 + p.val; rw [e0]; omega
  | ⟨1, _⟩ => show win6_0.index t (1 : Fin 2) * 64 + 1 * k.val = k.val; rw [e1]; omega

/-- The weight's block at every point is the weight. -/
theorem iblk6_1_apply (c : Dev nD) (t : Fin cfg6.N) (k : Fin 64) (q : Fin 64) :
    (iblk6 V c 1 t : Vec Ideal S64x64 .f32) (ix2 k q) = (V c main_arg14 : S64x64.Idx → EReal) (ix2 k q) := by
  obtain ⟨-, ⟨e0, e1⟩, -⟩ := idx6 t
  unfold iblk6
  rw [View.read_apply]
  show V c main_arg14 _ = V c main_arg14 _
  congr 1
  funext a
  apply Fin.ext
  match a with
  | ⟨0, _⟩ => show win6_1.index t (0 : Fin 2) * 64 + 1 * k.val = k.val; rw [e0]; omega
  | ⟨1, _⟩ => show win6_1.index t (1 : Fin 2) * 64 + 1 * q.val = q.val; rw [e1]; omega

/-- The bias row's block at every point is the bias row. -/
theorem iblk6_2_apply (c : Dev nD) (t : Fin cfg6.N) (z : Fin 1) (q : Fin 64) :
    (iblk6 V c 2 t : Vec Ideal S1x64 .f32) (ix2 z q) = (V c main_v87 : S1x64.Idx → EReal) (ix2 z q) := by
  obtain ⟨-, -, ⟨e0, e1⟩, -⟩ := idx6 t
  unfold iblk6
  rw [View.read_apply]
  show V c main_v87 _ = V c main_v87 _
  congr 1
  funext a
  apply Fin.ext
  match a with
  | ⟨0, _⟩ => show win6_2.index t (0 : Fin 2) * 1 + 1 * z.val = z.val; rw [e0]; omega
  | ⟨1, _⟩ => show win6_2.index t (1 : Fin 2) * 64 + 1 * q.val = q.val; rw [e1]; omega

/-- The cross basis's block at every point is the cross basis. -/
theorem iblk6_3_apply (c : Dev nD) (t : Fin cfg6.N) (f : Fin 64) (j : Fin 1024) :
    (iblk6 V c 3 t : Vec Ideal S64x1024 .f32) (ix2 f j) = (V c main_v2 : S64x1024.Idx → EReal) (ix2 f j) := by
  obtain ⟨-, -, -, ⟨e0, e1⟩, -⟩ := idx6 t
  unfold iblk6
  rw [View.read_apply]
  show V c main_v2 _ = V c main_v2 _
  congr 1
  funext a
  apply Fin.ext
  match a with
  | ⟨0, _⟩ => show win6_3.index t (0 : Fin 2) * 64 + 1 * f.val = f.val; rw [e0]; omega
  | ⟨1, _⟩ => show win6_3.index t (1 : Fin 2) * 1024 + 1 * j.val = j.val; rw [e1]; omega

/-- Entry (p, f) of the first value stored at point t is entry (2000·t + p, f) of x·W + b. -/
theorem pay6_1_blk (c : Dev nD) (t : Fin cfg6.N) (p : Fin 2000) (f : Fin 64) :
    k6_pay1 (iblk6 V c 0 t) (iblk6 V c 1 t) (iblk6 V c 2 t) (ix2 p f)
      = Cert.Spec.lin64At (V c main_v86) (V c main_arg14) (V c main_v87) (rowOf6 t p) f := by
  refine (pay6_1_apply (iblk6 V c 0 t) (iblk6 V c 1 t) (iblk6 V c 2 t) p f).trans ?_
  unfold Cert.Spec.lin64At
  congr 1
  · refine Finset.sum_congr rfl fun k _ => ?_
    exact congrArg₂ (· * ·) (iblk6_0_apply V c t p k) (iblk6_1_apply V c t k f)
  · exact iblk6_2_apply V c t 0 f

/-- Entry (p, j) of the second value stored at point t is entry (2000·t + p, j) of (x·W + b)·Mt. -/
theorem pay6_2_blk (c : Dev nD) (t : Fin cfg6.N) (p : Fin 2000) (j : Fin 1024) :
    k6_pay2 (iblk6 V c 0 t) (iblk6 V c 1 t) (iblk6 V c 2 t) (iblk6 V c 3 t) (ix2 p j)
      = Cert.Spec.projAt (Cert.Spec.lin64 (V c main_v86) (V c main_arg14) (V c main_v87)) (V c main_v2) (rowOf6 t p) j := by
  refine (pay6_2_apply (iblk6 V c 0 t) (iblk6 V c 1 t) (iblk6 V c 2 t) (iblk6 V c 3 t) p j).trans ?_
  unfold Cert.Spec.projAt
  refine Finset.sum_congr rfl fun f _ => ?_
  exact congrArg₂ (· * ·) (pay6_1_blk V c t p f) (iblk6_3_apply V c t f j)

/-! ## The result blocks tile the result arrays -/

/-- An index of the first result is in point t's block iff each coordinate is in the block's range on its axis. -/
theorem mem_blk6_4 (t : Fin cfg6.N) (i : S50000x64.Idx) :
    i ∈ ((cfg6.win 4).blk t).view.set ↔ ∀ a : Fin 2, win6_4.index t a * S2000x64.size a ≤ (i a).val ∧ (i a).val < win6_4.index t a * S2000x64.size a + S2000x64.size a := by
  show i ∈ ((View.whole main_v90_0).slice (win6_4.rect t)).set ↔ _
  rw [View.set_slice_whole, Rect.mem_set_unit]
  exact Iff.rfl

/-- The same for the second result. -/
theorem mem_blk6_5 (t : Fin cfg6.N) (i : S50000x1024.Idx) :
    i ∈ ((cfg6.win 5).blk t).view.set ↔ ∀ a : Fin 2, win6_5.index t a * S2000x1024.size a ≤ (i a).val ∧ (i a).val < win6_5.index t a * S2000x1024.size a + S2000x1024.size a := by
  show i ∈ ((View.whole main_v90_1).slice (win6_5.rect t)).set ↔ _
  rw [View.set_slice_whole, Rect.mem_set_unit]
  exact Iff.rfl

/-- Row r lies in the block of point r / 2000, which is written back: the blocks cover the first result. -/
theorem covered6_4 (i : S50000x64.Idx) : ∃ t : Fin cfg6.N, (cfg6.win 4).flush t = true ∧ i ∈ ((cfg6.win 4).blk t).view.set := by
  have hi0 : (i 0).val < 50000 := (i 0).isLt
  have hi1 : (i 1).val < 64 := (i 1).isLt
  obtain ⟨t, ht⟩ : ∃ t : Fin cfg6.N, t.val = (i 0).val / 2000 :=
    ⟨⟨(i 0).val / 2000, lt_of_lt_of_eq (by omega : (i 0).val / 2000 < 25) N_6.symm⟩, rfl⟩
  obtain ⟨-, -, -, -, ⟨e0, e1⟩, -⟩ := idx6 t
  refine ⟨t, flush6_4 t, ?_⟩
  rw [mem_blk6_4]
  intro a
  match a with
  | ⟨0, _⟩ => show win6_4.index t (0 : Fin 2) * 2000 ≤ (i 0).val ∧ (i 0).val < win6_4.index t (0 : Fin 2) * 2000 + 2000; rw [e0, ht]; omega
  | ⟨1, _⟩ => show win6_4.index t (1 : Fin 2) * 64 ≤ (i 1).val ∧ (i 1).val < win6_4.index t (1 : Fin 2) * 64 + 64; rw [e1]; omega

/-- The blocks cover the second result. -/
theorem covered6_5 (i : S50000x1024.Idx) : ∃ t : Fin cfg6.N, (cfg6.win 5).flush t = true ∧ i ∈ ((cfg6.win 5).blk t).view.set := by
  have hi0 : (i 0).val < 50000 := (i 0).isLt
  have hi1 : (i 1).val < 1024 := (i 1).isLt
  obtain ⟨t, ht⟩ : ∃ t : Fin cfg6.N, t.val = (i 0).val / 2000 :=
    ⟨⟨(i 0).val / 2000, lt_of_lt_of_eq (by omega : (i 0).val / 2000 < 25) N_6.symm⟩, rfl⟩
  obtain ⟨-, -, -, -, -, ⟨e0, e1⟩⟩ := idx6 t
  refine ⟨t, flush6_5 t, ?_⟩
  rw [mem_blk6_5]
  intro a
  match a with
  | ⟨0, _⟩ => show win6_5.index t (0 : Fin 2) * 2000 ≤ (i 0).val ∧ (i 0).val < win6_5.index t (0 : Fin 2) * 2000 + 2000; rw [e0, ht]; omega
  | ⟨1, _⟩ => show win6_5.index t (1 : Fin 2) * 1024 ≤ (i 1).val ∧ (i 1).val < win6_5.index t (1 : Fin 2) * 1024 + 1024; rw [e1]; omega

end Cert.KernelIdeal.Hand

end
-- ==== Proof.KI.Val6.lean ====
import proofs.«177069_j18983755448416_1_alg».proof.Proof.KI.Pay6
import Idealize.ShloMosaic.Lib.Pipeline.Value
import Idealize.ShloMosaic.Lib.ValueLayout
import Idealize.ShloMosaic.Lib.Tactic

/-! # Region 6 of @main (the node transform of layer 3): its two result arrays over the extended reals

Grid point t reads rows 2000·t … 2000·t + 1999 of the layer's input and writes the same rows of the two results.
Entry (p, f) of the first stored block is the row of the input block against column f of the weight, plus the
bias; entry (p, j) of the second is that row of the first block against column j of the cross basis. The 25
blocks tile the 50000 rows, so after the region the first result is x·W + b and the second is (x·W + b)·Mt,
as functions of the arrays the region was entered with. -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## What each point writes back, and the arrays after the region -/

/-- The part of a result's staging buffer that a write-back moves is all of it (no block overhangs its array). -/
theorem cut6_4 (t : Fin cfg6.N) (X : Vec Ideal S2000x64 .f32) : (cfg6.win 4).cut (grid6.coords t) X = X := rfl
theorem cut6_5 (t : Fin cfg6.N) (X : Vec Ideal S2000x1024 .f32) : (cfg6.win 5).cut (grid6.coords t) X = X := rfl

/-- What point t writes back into the first result: the first stored value of the blocks at t. -/
theorem flushed6_4_pay (c : Dev nD) (t : Fin cfg6.N) :
    (dat6 V c).flushed 4 t = k6_pay1 (iblk6 V c 0 t) (iblk6 V c 1 t) (iblk6 V c 2 t) := by
  show (cfg6.win 4).cut (grid6.coords t) ((dat6 V c).after 4 t) = _
  rw [after6_4]
  unfold out6_4
  rw [View.canon_unit_zero hz6]
  simp only [View.ld_unit_zero (S := S2000x64) hz6, View.ld_unit_zero (S := S64x64) hz6, View.ld_unit_zero (S := S1x64) hz6]
  exact cut6_4 t _

/-- What point t writes back into the second result: the second stored value of the blocks at t. -/
theorem flushed6_5_pay (c : Dev nD) (t : Fin cfg6.N) :
    (dat6 V c).flushed 5 t = k6_pay2 (iblk6 V c 0 t) (iblk6 V c 1 t) (iblk6 V c 2 t) (iblk6 V c 3 t) := by
  show (cfg6.win 5).cut (grid6.coords t) ((dat6 V c).after 5 t) = _
  rw [after6_5]
  unfold out6_5
  rw [View.canon_unit_zero hz6]
  simp only [View.ld_unit_zero (S := S2000x64) hz6, View.ld_unit_zero (S := S64x64) hz6, View.ld_unit_zero (S := S1x64) hz6, View.ld_unit_zero (S := S64x1024) hz6]
  exact cut6_5 t _

/-- Block t of an array of 50000 rows of 64, at (p, q), is the array at row 2000·t + p. -/
theorem blk6_4_apply (G : Cert.Spec.Arr 50000 64) (t : Fin cfg6.N) (p : Fin 2000) (q : Fin 64) :
    ((cfg6.win 4).blk t).view.read (Elt Ideal) G (ix2 p q : S2000x64.Idx) = G (ix2 (rowOf6 t p) q) := by
  obtain ⟨-, -, -, -, ⟨e0, e1⟩, -⟩ := idx6 t
  rw [View.read_apply]
  show G _ = G _
  congr 1
  funext a
  apply Fin.ext
  match a with
  | ⟨0, _⟩ => show win6_4.index t (0 : Fin 2) * 2000 + 1 * p.val = t.val * 2000 + p.val; rw [e0]; omega
  | ⟨1, _⟩ => show win6_4.index t (1 : Fin 2) * 64 + 1 * q.val = q.val; rw [e1]; omega

/-- Block t of an array of 50000 rows of 1024, at (p, j), is the array at row 2000·t + p. -/
theorem blk6_5_apply (G : Cert.Spec.Arr 50000 1024) (t : Fin cfg6.N) (p : Fin 2000) (j : Fin 1024) :
    ((cfg6.win 5).blk t).view.read (Elt Ideal) G (ix2 p j : S2000x1024.Idx) = G (ix2 (rowOf6 t p) j) := by
  obtain ⟨-, -, -, -, -, ⟨e0, e1⟩⟩ := idx6 t
  rw [View.read_apply]
  show G _ = G _
  congr 1
  funext a
  apply Fin.ext
  match a with
  | ⟨0, _⟩ => show win6_5.index t (0 : Fin 2) * 2000 + 1 * p.val = t.val * 2000 + p.val; rw [e0]; omega
  | ⟨1, _⟩ => show win6_5.index t (1 : Fin 2) * 1024 + 1 * j.val = j.val; rw [e1]; omega

/-- Point t writes back block t of x·W + b. -/
theorem flushed6_4_eq (c : Dev nD) (t : Fin cfg6.N) :
    (dat6 V c).flushed 4 t = ((cfg6.win 4).blk t).view.read (Elt Ideal) (Cert.Spec.lin64 (V c main_v86) (V c main_arg14) (V c main_v87)) := by
  refine (flushed6_4_pay V c t).trans ?_
  funext (y : S2000x64.Idx)
  obtain ⟨p, q, rfl⟩ : ∃ (p : Fin 2000) (q : Fin 64), y = ix2 p q := ⟨y 0, y 1, eq_ix2 y⟩
  exact (pay6_1_blk V c t p q).trans (blk6_4_apply (Cert.Spec.lin64 (V c main_v86) (V c main_arg14) (V c main_v87)) t p q).symm

/-- Point t writes back block t of (x·W + b)·Mt. -/
theorem flushed6_5_eq (c : Dev nD) (t : Fin cfg6.N) :
    (dat6 V c).flushed 5 t = ((cfg6.win 5).blk t).view.read (Elt Ideal) (Cert.Spec.proj (Cert.Spec.lin64 (V c main_v86) (V c main_arg14) (V c main_v87)) (V c main_v2)) := by
  refine (flushed6_5_pay V c t).trans ?_
  funext (y : S2000x1024.Idx)
  obtain ⟨p, j, rfl⟩ : ∃ (p : Fin 2000) (j : Fin 1024), y = ix2 p j := ⟨y 0, y 1, eq_ix2 y⟩
  exact (pay6_2_blk V c t p j).trans (blk6_5_apply (Cert.Spec.proj (Cert.Spec.lin64 (V c main_v86) (V c main_arg14) (V c main_v87)) (V c main_v2)) t p j).symm

/-- After the region the first result array is x·W + b of the arrays the region was entered with. -/
theorem final6_4 (c : Dev nD) :
    (dat6 (F := Ideal) V c).arrAt 4 cfg6.N = Cert.Spec.lin64 (V c main_v86) (V c main_arg14) (V c main_v87) :=
  (dat6 V c).arrAt_eq_of_cover 4 (Cert.Spec.lin64 (V c main_v86) (V c main_arg14) (V c main_v87)) (fun t _ => flushed6_4_eq V c t) (covered6_4)

/-- After the region the second result array is (x·W + b)·Mt. -/
theorem final6_5 (c : Dev nD) :
    (dat6 (F := Ideal) V c).arrAt 5 cfg6.N = Cert.Spec.proj (Cert.Spec.lin64 (V c main_v86) (V c main_arg14) (V c main_v87)) (V c main_v2) :=
  (dat6 V c).arrAt_eq_of_cover 5 (Cert.Spec.proj (Cert.Spec.lin64 (V c main_v86) (V c main_arg14) (V c main_v87)) (V c main_v2)) (fun t _ => flushed6_5_eq V c t) (covered6_5)

end Cert.KernelIdeal.Hand

end
-- ==== Proof.KI.Val7.lean ====
import proofs.«177069_j18983755448416_1_alg».proof.Proof.KI.Reg7
import proofs.«177069_j18983755448416_1_alg».proof.Proof.Spec
import proofs.«177069_j18983755448416_1_alg».proof.Proof.LibColumnSum
import proofs.«177069_j18983755448416_1_alg».proof.Proof.LibBlockSum
import Idealize.ShloMosaic.Lib.Pipeline.Value
import Idealize.ShloMosaic.Lib.ValueIdx
import proofs.«177069_j18983755448416_1_alg».proof.Proof.LibTileSums

/-! Region 7 (the add-and-statistics kernel), its value at the exact instance: after the last grid point the sum
window's array holds the entrywise sum of the two inputs, and the two statistics windows' arrays hold, per feature,
the sum and the sum of squares of that sum over all 50000 rows. The accumulators are followed point by point: after
point `n` each holds the total over the rows of tiles `0 … n`; 25 tiles of 2000 rows make the whole column. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

open Cert.TileSums

section Pieces
variable {F : FTy → Type} [FloatOps F]

theorem val7_hz : (![0, 0] : Fin 2 → Nat) = fun _ => 0 := funext fun a => by fin_cases a <;> rfl

/-! ## What each case's found pieces are: the skeleton's payloads of the buffers' contents -/

theorem out7_A_2_eq (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 x1 : Vec F S2000x64 .f32) :
    out7_A_2 c i arg1 harg1 arg2 harg2 arg3 harg3 arg4 harg4 arg5 harg5 arg6 harg6 arg7 harg7 hc0 hc1 x0 x1 = k7_pay3 x0 x1 := by
  unfold out7_A_2
  rw [View.read_writes_eq_canon _ _ _ (cover7_A_2 c i arg1 harg1 arg2 harg2 arg3 harg3 arg4 harg4 arg5 harg5 arg6 harg6 arg7 harg7 hc0 hc1 x0 x1)]
  unfold kernelRun7_A
  dsimp only
  sl_unfold_words
  rw [View.canon_unit_zero val7_hz]
  simp only [View.readAt_eq_ld, harg1.read_unread, harg2.read_unread, View.ld_unit_zero (S := S2000x64) val7_hz]

theorem sout7_A_0_eq (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 x1 : Vec F S2000x64 .f32) :
    sout7_A_0 c i arg1 harg1 arg2 harg2 arg3 harg3 arg4 harg4 arg5 harg5 arg6 harg6 arg7 harg7 hc0 hc1 x0 x1 = k7_pay4 x0 x1 (k7_pay1 (F := F)) := by
  unfold sout7_A_0
  rw [View.read_writes_eq_canon _ _ _ (scover7_A_0 c i arg1 harg1 arg2 harg2 arg3 harg3 arg4 harg4 arg5 harg5 arg6 harg6 arg7 harg7 hc0 hc1 x0 x1)]
  unfold kernelRun7_A
  dsimp only
  sl_unfold_words
  rw [View.canon_cons_unit_zero (S := S1x64) val7_hz, View.readCov_unit_zero (S := S1x64) _ val7_hz]
  simp only [View.readAt_eq_ld, harg1.read_unread, harg2.read_unread, View.ld_unit_zero (S := S2000x64) val7_hz]

theorem sout7_A_1_eq (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (hc1 : ¬cond7_1 i)
    (x0 x1 : Vec F S2000x64 .f32) :
    sout7_A_1 c i arg1 harg1 arg2 harg2 arg3 harg3 arg4 harg4 arg5 harg5 arg6 harg6 arg7 harg7 hc0 hc1 x0 x1 = k7_pay5 x0 x1 (k7_pay2 (F := F)) := by
  unfold sout7_A_1
  rw [View.read_writes_eq_canon _ _ _ (scover7_A_1 c i arg1 harg1 arg2 harg2 arg3 harg3 arg4 harg4 arg5 harg5 arg6 harg6 arg7 harg7 hc0 hc1 x0 x1)]
  unfold kernelRun7_A
  dsimp only
  sl_unfold_words
  rw [View.canon_cons_unit_zero (S := S1x64) val7_hz, View.readCov_unit_zero (S := S1x64) _ val7_hz]
  simp only [View.readAt_eq_ld, harg1.read_unread, harg2.read_unread, View.ld_unit_zero (S := S2000x64) val7_hz]

theorem out7_B_2_eq (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 x1 : Vec F S2000x64 .f32) (xs0 xs1 : Vec F S1x64 .f32) :
    out7_B_2 c i arg1 harg1 arg2 harg2 arg3 harg3 arg4 harg4 arg5 harg5 arg6 harg6 arg7 harg7 hc0 hc1 x0 x1 xs0 xs1 = k7_pay3 x0 x1 := by
  unfold out7_B_2
  rw [View.read_writes_eq_canon _ _ _ (cover7_B_2 c i arg1 harg1 arg2 harg2 arg3 harg3 arg4 harg4 arg5 harg5 arg6 harg6 arg7 harg7 hc0 hc1 x0 x1 xs0 xs1)]
  unfold kernelRun7_B
  dsimp only
  sl_unfold_words
  rw [View.canon_unit_zero val7_hz]
  simp only [View.readAt_eq_ld, harg1.read_unread, harg2.read_unread, View.ld_unit_zero (S := S2000x64) val7_hz]

theorem sout7_B_0_eq (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 x1 : Vec F S2000x64 .f32) (xs0 xs1 : Vec F S1x64 .f32) :
    sout7_B_0 c i arg1 harg1 arg2 harg2 arg3 harg3 arg4 harg4 arg5 harg5 arg6 harg6 arg7 harg7 hc0 hc1 x0 x1 xs0 xs1 = k7_pay4 x0 x1 xs0 := by
  unfold sout7_B_0
  rw [View.read_writes_eq_canon _ _ _ (scover7_B_0 c i arg1 harg1 arg2 harg2 arg3 harg3 arg4 harg4 arg5 harg5 arg6 harg6 arg7 harg7 hc0 hc1 x0 x1 xs0 xs1)]
  unfold kernelRun7_B
  dsimp only
  sl_unfold_words
  rw [View.canon_unit_zero val7_hz]
  simp only [View.readAt_eq_ld, harg1.read_unread, harg2.read_unread, harg6.read_unread, harg7.read_unread, View.ld_unit_zero (S := S2000x64) val7_hz, View.ld_unit_zero (S := S1x64) val7_hz]

theorem sout7_B_1_eq (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : ¬cond7_1 i)
    (x0 x1 : Vec F S2000x64 .f32) (xs0 xs1 : Vec F S1x64 .f32) :
    sout7_B_1 c i arg1 harg1 arg2 harg2 arg3 harg3 arg4 harg4 arg5 harg5 arg6 harg6 arg7 harg7 hc0 hc1 x0 x1 xs0 xs1 = k7_pay5 x0 x1 xs1 := by
  unfold sout7_B_1
  rw [View.read_writes_eq_canon _ _ _ (scover7_B_1 c i arg1 harg1 arg2 harg2 arg3 harg3 arg4 harg4 arg5 harg5 arg6 harg6 arg7 harg7 hc0 hc1 x0 x1 xs0 xs1)]
  unfold kernelRun7_B
  dsimp only
  sl_unfold_words
  rw [View.canon_unit_zero val7_hz]
  simp only [View.readAt_eq_ld, harg1.read_unread, harg2.read_unread, harg6.read_unread, harg7.read_unread, View.ld_unit_zero (S := S2000x64) val7_hz, View.ld_unit_zero (S := S1x64) val7_hz]

theorem out7_C_2_eq (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 x1 : Vec F S2000x64 .f32) (xs0 xs1 : Vec F S1x64 .f32) :
    out7_C_2 c i arg1 harg1 arg2 harg2 arg3 harg3 arg4 harg4 arg5 harg5 arg6 harg6 arg7 harg7 hc0 hc1 x0 x1 xs0 xs1 = k7_pay3 x0 x1 := by
  unfold out7_C_2
  rw [View.read_writes_eq_canon _ _ _ (cover7_C_2 c i arg1 harg1 arg2 harg2 arg3 harg3 arg4 harg4 arg5 harg5 arg6 harg6 arg7 harg7 hc0 hc1 x0 x1 xs0 xs1)]
  unfold kernelRun7_C
  dsimp only
  sl_unfold_words
  rw [View.canon_unit_zero val7_hz]
  simp only [View.readAt_eq_ld, harg1.read_unread, harg2.read_unread, View.ld_unit_zero (S := S2000x64) val7_hz]

theorem sout7_C_0_eq (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 x1 : Vec F S2000x64 .f32) (xs0 xs1 : Vec F S1x64 .f32) :
    sout7_C_0 c i arg1 harg1 arg2 harg2 arg3 harg3 arg4 harg4 arg5 harg5 arg6 harg6 arg7 harg7 hc0 hc1 x0 x1 xs0 xs1 = k7_pay4 x0 x1 xs0 := by
  unfold sout7_C_0
  rw [View.read_writes_eq_canon _ _ _ (scover7_C_0 c i arg1 harg1 arg2 harg2 arg3 harg3 arg4 harg4 arg5 harg5 arg6 harg6 arg7 harg7 hc0 hc1 x0 x1 xs0 xs1)]
  unfold kernelRun7_C
  dsimp only
  sl_unfold_words
  rw [View.canon_unit_zero val7_hz]
  simp only [View.readAt_eq_ld, harg1.read_unread, harg2.read_unread, harg6.read_unread, harg7.read_unread, View.ld_unit_zero (S := S2000x64) val7_hz, View.ld_unit_zero (S := S1x64) val7_hz]

theorem sout7_C_1_eq (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 x1 : Vec F S2000x64 .f32) (xs0 xs1 : Vec F S1x64 .f32) :
    sout7_C_1 c i arg1 harg1 arg2 harg2 arg3 harg3 arg4 harg4 arg5 harg5 arg6 harg6 arg7 harg7 hc0 hc1 x0 x1 xs0 xs1 = k7_pay5 x0 x1 xs1 := by
  unfold sout7_C_1
  rw [View.read_writes_eq_canon _ _ _ (scover7_C_1 c i arg1 harg1 arg2 harg2 arg3 harg3 arg4 harg4 arg5 harg5 arg6 harg6 arg7 harg7 hc0 hc1 x0 x1 xs0 xs1)]
  unfold kernelRun7_C
  dsimp only
  sl_unfold_words
  rw [View.canon_unit_zero val7_hz]
  simp only [View.readAt_eq_ld, harg1.read_unread, harg2.read_unread, harg6.read_unread, harg7.read_unread, View.ld_unit_zero (S := S2000x64) val7_hz, View.ld_unit_zero (S := S1x64) val7_hz]

theorem out7_C_3_eq (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 x1 : Vec F S2000x64 .f32) (xs0 xs1 : Vec F S1x64 .f32) :
    out7_C_3 c i arg1 harg1 arg2 harg2 arg3 harg3 arg4 harg4 arg5 harg5 arg6 harg6 arg7 harg7 hc0 hc1 x0 x1 xs0 xs1 = k7_pay4 x0 x1 xs0 := by
  unfold out7_C_3
  rw [View.read_writes_eq_canon _ _ _ (cover7_C_3 c i arg1 harg1 arg2 harg2 arg3 harg3 arg4 harg4 arg5 harg5 arg6 harg6 arg7 harg7 hc0 hc1 x0 x1 xs0 xs1)]
  unfold kernelRun7_C
  dsimp only
  sl_unfold_words
  rw [View.canon_unit_zero val7_hz]
  rw [View.readCov_unit_zero (S := S1x64) _ val7_hz]
  simp only [View.readAt_eq_ld, harg1.read_unread, harg2.read_unread, harg6.read_unread, harg7.read_unread, View.ld_unit_zero (S := S2000x64) val7_hz, View.ld_unit_zero (S := S1x64) val7_hz]

theorem out7_C_4_eq (c : Dev nD) (i : grid7.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (hc1 : cond7_1 i)
    (x0 x1 : Vec F S2000x64 .f32) (xs0 xs1 : Vec F S1x64 .f32) :
    out7_C_4 c i arg1 harg1 arg2 harg2 arg3 harg3 arg4 harg4 arg5 harg5 arg6 harg6 arg7 harg7 hc0 hc1 x0 x1 xs0 xs1 = k7_pay5 x0 x1 xs1 := by
  unfold out7_C_4
  rw [View.read_writes_eq_canon _ _ _ (cover7_C_4 c i arg1 harg1 arg2 harg2 arg3 harg3 arg4 harg4 arg5 harg5 arg6 harg6 arg7 harg7 hc0 hc1 x0 x1 xs0 xs1)]
  unfold kernelRun7_C
  dsimp only
  sl_unfold_words
  rw [View.canon_unit_zero val7_hz]
  rw [View.readCov_unit_zero (S := S1x64) _ val7_hz]
  simp only [View.readAt_eq_ld, harg1.read_unread, harg2.read_unread, harg6.read_unread, harg7.read_unread, View.ld_unit_zero (S := S2000x64) val7_hz, View.ld_unit_zero (S := S1x64) val7_hz]

end Pieces

/-! ## The payloads read at an index, over the extended reals -/

section Payloads

theorem k7_pay3_apply (x0 x1 : Vec Ideal S2000x64 .f32) (y : S2000x64.Idx) :
    k7_pay3 x0 x1 y = x0 y + x1 y := by
  unfold k7_pay3
  (try dsimp only)
  rw [shapeCast_self, shapeCast_self]
  rfl

theorem k7_pay1_apply (y : S1x64.Idx) : k7_pay1 (F := Ideal) y = 0 := by
  unfold k7_pay1
  (try dsimp only)
  rw [shapeCast_self]
  exact Ideal.ofBits_zero_f32

theorem k7_pay2_apply (y : S1x64.Idx) : k7_pay2 (F := Ideal) y = 0 := by
  unfold k7_pay2
  (try dsimp only)
  rw [shapeCast_self]
  exact Ideal.ofBits_zero_f32

/-- A column total laid out as a one-row array, read at `(0, f)`. -/
theorem val7_rowOf (w : FVec Ideal S64 .f32) (h : S64.ShapeCasts S1x64) (z : Fin 1) (f : Fin 64) :
    shapeCast S1x64 w h (ix2 z f) = w (ix1 f) :=
  (shapeCast_addUnit_apply ![64] w h (ix2 z f)).trans
    (congrArg w (funext fun a => by match a with | ⟨0, _⟩ => rfl))

theorem k7_pay4_apply (x0 x1 : Vec Ideal S2000x64 .f32) (v : Vec Ideal S1x64 .f32) (z : Fin 1) (f : Fin 64) :
    k7_pay4 x0 x1 v (ix2 z f) = v (ix2 z f) + ∑ r : Fin 2000, (x0 (ix2 r f) + x1 (ix2 r f)) := by
  unfold k7_pay4
  (try dsimp only)
  rw [shapeCast_self]
  refine (addf_apply _ _ _).trans ?_
  refine congrArg (fun e => v (ix2 z f) + e) ?_
  refine (val7_rowOf _ _ z f).trans ?_
  refine (Cert.Lib.column_sum (a := 2000) (b := 64) (k7_pay3 x0 x1) _ _ _ f).trans ?_
  exact Finset.sum_congr rfl fun r _ => k7_pay3_apply x0 x1 (ix2 r f)

theorem k7_pay5_apply (x0 x1 : Vec Ideal S2000x64 .f32) (v : Vec Ideal S1x64 .f32) (z : Fin 1) (f : Fin 64) :
    k7_pay5 x0 x1 v (ix2 z f)
      = v (ix2 z f) + ∑ r : Fin 2000, (x0 (ix2 r f) + x1 (ix2 r f)) * (x0 (ix2 r f) + x1 (ix2 r f)) := by
  unfold k7_pay5
  (try dsimp only)
  rw [shapeCast_self]
  refine (addf_apply _ _ _).trans ?_
  refine congrArg (fun e => v (ix2 z f) + e) ?_
  refine (val7_rowOf _ _ z f).trans ?_
  refine (Cert.Lib.column_sum (a := 2000) (b := 64) (mulf (k7_pay3 x0 x1) (k7_pay3 x0 x1)) _ _ _ f).trans ?_
  refine Finset.sum_congr rfl fun r _ => ?_
  refine (mulf_apply _ _ _).trans ?_
  rw [k7_pay3_apply]

end Payloads

/-! ## The arrays after the region -/

section Value

variable (V : (c : Dev nD) → (b : Ref sig .tc) → Buf (Elt Ideal) ((c : Thread nD τ).loc b))

/-- The residual sum the kernel forms, as a whole array. -/
abbrev o7 (c : Dev nD) : Cert.Spec.Arr 50000 64 := Cert.Spec.addv (V c main_v90_0) (V c main_v108)

/-- The printed index maps over the grid: the three tiled windows are at block `(t, 0)`, the two statistics
    windows at block `(0, 0)`. -/
theorem idx7_facts : ∀ t : Fin cfg7.N, win7_0.index t 0 = t.val ∧ win7_0.index t 1 = 0
    ∧ win7_1.index t 0 = t.val ∧ win7_1.index t 1 = 0
    ∧ win7_2.index t 0 = t.val ∧ win7_2.index t 1 = 0
    ∧ win7_3.index t 0 = 0 ∧ win7_3.index t 1 = 0
    ∧ win7_4.index t 0 = 0 ∧ win7_4.index t 1 = 0 :=
  (by decide +kernel : ∀ t : Fin grid7.N, _)

theorem val7_lt (t : Fin cfg7.N) : t.val < 25 := lt_of_lt_of_eq t.isLt (show cfg7.N = 25 from N_7)

/-- The grid's last point. -/
abbrev val7_last : Fin cfg7.N := ⟨24, by rw [show cfg7.N = 25 from N_7]; omega⟩

theorem iblk7_0_apply (c : Dev nD) (t : Fin cfg7.N) (r : Fin 2000) (f : Fin 64) :
    (iblk7 V c 0 t : Vec Ideal S2000x64 .f32) (ix2 r f) = V c main_v90_0 (ix2 (tileRow t.val (val7_lt t) r) f) := by
  unfold iblk7
  rw [View.read_apply]
  show V c main_v90_0 _ = V c main_v90_0 _
  congr 1; funext a; apply Fin.ext
  match a with
  | ⟨0, _⟩ => show win7_0.index t 0 * 2000 + 1 * r.val = t.val * 2000 + r.val; rw [(idx7_facts t).1]; omega
  | ⟨1, _⟩ => show win7_0.index t 1 * 64 + 1 * f.val = f.val; rw [(idx7_facts t).2.1]; omega

theorem iblk7_1_apply (c : Dev nD) (t : Fin cfg7.N) (r : Fin 2000) (f : Fin 64) :
    (iblk7 V c 1 t : Vec Ideal S2000x64 .f32) (ix2 r f) = V c main_v108 (ix2 (tileRow t.val (val7_lt t) r) f) := by
  unfold iblk7
  rw [View.read_apply]
  show V c main_v108 _ = V c main_v108 _
  congr 1; funext a; apply Fin.ext
  match a with
  | ⟨0, _⟩ => show win7_1.index t 0 * 2000 + 1 * r.val = t.val * 2000 + r.val; rw [(idx7_facts t).2.2.1]; omega
  | ⟨1, _⟩ => show win7_1.index t 1 * 64 + 1 * f.val = f.val; rw [(idx7_facts t).2.2.2.1]; omega

/-- Block `t` of a whole array read through the sum window. -/
theorem blk7_2_read (A : Cert.Spec.Arr 50000 64) (t : Fin cfg7.N) (r : Fin 2000) (f : Fin 64) :
    ((cfg7.win 2).blk t).view.read (Elt Ideal) A (ix2 r f) = A (ix2 (tileRow t.val (val7_lt t) r) f) := by
  rw [View.read_apply]
  show A _ = A _
  congr 1; funext a; apply Fin.ext
  match a with
  | ⟨0, _⟩ => show win7_2.index t 0 * 2000 + 1 * r.val = t.val * 2000 + r.val; rw [(idx7_facts t).2.2.2.2.1]; omega
  | ⟨1, _⟩ => show win7_2.index t 1 * 64 + 1 * f.val = f.val; rw [(idx7_facts t).2.2.2.2.2.1]; omega

theorem mem_blk7_2 (t : Fin cfg7.N) (i : S50000x64.Idx) :
    i ∈ ((cfg7.win 2).blk t).view.set ↔ ∀ a : Fin 2, win7_2.index t a * S2000x64.size a ≤ (i a).val ∧ (i a).val < win7_2.index t a * S2000x64.size a + S2000x64.size a := by
  show i ∈ ((View.whole main_v109_0).slice (win7_2.rect t)).set ↔ _
  rw [View.set_slice_whole, Rect.mem_set_unit]
  exact Iff.rfl

theorem mem_blk7_3 (t : Fin cfg7.N) (i : S1x64.Idx) :
    i ∈ ((cfg7.win 3).blk t).view.set ↔ ∀ a : Fin 2, win7_3.index t a * S1x64.size a ≤ (i a).val ∧ (i a).val < win7_3.index t a * S1x64.size a + S1x64.size a := by
  show i ∈ ((View.whole main_v109_1).slice (win7_3.rect t)).set ↔ _
  rw [View.set_slice_whole, Rect.mem_set_unit]
  exact Iff.rfl

theorem mem_blk7_4 (t : Fin cfg7.N) (i : S1x64.Idx) :
    i ∈ ((cfg7.win 4).blk t).view.set ↔ ∀ a : Fin 2, win7_4.index t a * S1x64.size a ≤ (i a).val ∧ (i a).val < win7_4.index t a * S1x64.size a + S1x64.size a := by
  show i ∈ ((View.whole main_v109_2).slice (win7_4.rect t)).set ↔ _
  rw [View.set_slice_whole, Rect.mem_set_unit]
  exact Iff.rfl

/-- One tile's entries of the residual sum, from the two input blocks. -/
theorem tile7_entry (c : Dev nD) (t : Fin cfg7.N) (r : Fin 2000) (f : Fin 64)
    (x0 x1 : Vec Ideal S2000x64 .f32) (h0 : x0 = iblk7 V c 0 t) (h1 : x1 = iblk7 V c 1 t) :
    x0 (ix2 r f) + x1 (ix2 r f) = o7 V c (ix2 (tileRow t.val (val7_lt t) r) f) := by
  subst h0 h1
  rw [iblk7_0_apply, iblk7_1_apply]
  rfl

/-- One step of an accumulator: the total so far plus this tile's column total. -/
theorem step7_sum (x0 x1 : Vec Ideal S2000x64 .f32) (v : Vec Ideal S1x64 .f32) (g : Fin 50000 → EReal)
    (n : ℕ) (hn : n + 1 < 25) (z : Fin 1) (f : Fin 64)
    (hx : ∀ r : Fin 2000, x0 (ix2 r f) + x1 (ix2 r f) = g (tileRow (n + 1) hn r))
    (hv : v (ix2 z f) = running g n) : k7_pay4 x0 x1 v (ix2 z f) = running g (n + 1) := by
  rw [k7_pay4_apply, running_succ g n hn, hv]
  exact congrArg _ (Finset.sum_congr rfl fun r _ => hx r)

theorem step7_sq (x0 x1 : Vec Ideal S2000x64 .f32) (v : Vec Ideal S1x64 .f32) (g : Fin 50000 → EReal)
    (n : ℕ) (hn : n + 1 < 25) (z : Fin 1) (f : Fin 64)
    (hx : ∀ r : Fin 2000, x0 (ix2 r f) + x1 (ix2 r f) = g (tileRow (n + 1) hn r))
    (hv : v (ix2 z f) = running (fun k => g k * g k) n) : k7_pay5 x0 x1 v (ix2 z f) = running (fun k => g k * g k) (n + 1) := by
  rw [k7_pay5_apply, running_succ (fun k => g k * g k) n hn, hv]
  exact congrArg _ (Finset.sum_congr rfl fun r _ => by rw [hx r])

/-- The first point: the accumulators start from zero. -/
theorem base7_sum (x0 x1 : Vec Ideal S2000x64 .f32) (g : Fin 50000 → EReal) (z : Fin 1) (f : Fin 64)
    (hx : ∀ r : Fin 2000, x0 (ix2 r f) + x1 (ix2 r f) = g (tileRow 0 (by decide) r)) :
    k7_pay4 x0 x1 (k7_pay1 (F := Ideal)) (ix2 z f) = running g 0 := by
  rw [k7_pay4_apply, k7_pay1_apply, zero_add, running_zero]
  exact Finset.sum_congr rfl fun r _ => hx r

theorem base7_sq (x0 x1 : Vec Ideal S2000x64 .f32) (g : Fin 50000 → EReal) (z : Fin 1) (f : Fin 64)
    (hx : ∀ r : Fin 2000, x0 (ix2 r f) + x1 (ix2 r f) = g (tileRow 0 (by decide) r)) :
    k7_pay5 x0 x1 (k7_pay2 (F := Ideal)) (ix2 z f) = running (fun k => g k * g k) 0 := by
  rw [k7_pay5_apply, k7_pay2_apply, zero_add, running_zero]
  exact Finset.sum_congr rfl fun r _ => by rw [hx r]

/-- THE ACCUMULATORS after point `n`: the column totals of the residual sum, and of its squares, over the rows of
    tiles `0 … n` — by induction on the point. -/
theorem acc7_eq (c : Dev nD) : ∀ (n : ℕ) (hn : n < cfg7.N) (z : Fin 1) (f : Fin 64),
    (outsAt7 V c n hn).2.2.2.1 (ix2 z f) = running (fun k => o7 V c (ix2 k f)) n
    ∧ (outsAt7 V c n hn).2.2.2.2 (ix2 z f) = running (fun k => o7 V c (ix2 k f) * o7 V c (ix2 k f)) n
  | 0, hn, z, f => by
    rw [outsAt7_A V c ⟨0, hn⟩ rfl (fun h => by (try dsimp only at h); omega)]
    dsimp only
    rw [sout7_A_0_eq, sout7_A_1_eq]
    exact ⟨base7_sum (iblk7 V c 0 ⟨0, hn⟩) (iblk7 V c 1 ⟨0, hn⟩) (fun k => o7 V c (ix2 k f)) z f (fun r => tile7_entry V c ⟨0, hn⟩ r f _ _ rfl rfl),
      base7_sq (iblk7 V c 0 ⟨0, hn⟩) (iblk7 V c 1 ⟨0, hn⟩) (fun k => o7 V c (ix2 k f)) z f (fun r => tile7_entry V c ⟨0, hn⟩ r f _ _ rfl rfl)⟩
  | n + 1, hn, z, f => by
    have hN : n + 1 < 25 := lt_of_lt_of_eq hn (show cfg7.N = 25 from N_7)
    have ih := acc7_eq c n (Nat.lt_of_succ_lt hn) z f
    have h0 : ¬(⟨n + 1, hn⟩ : Fin cfg7.N).val % 25 = 0 := by dsimp only; omega
    by_cases h1 : (⟨n + 1, hn⟩ : Fin cfg7.N).val % 25 = 24
    · rw [outsAt7_C V c ⟨n + 1, hn⟩ h0 h1]
      dsimp only
      rw [sout7_C_0_eq, sout7_C_1_eq]
      exact ⟨step7_sum (iblk7 V c 0 ⟨n + 1, hn⟩) (iblk7 V c 1 ⟨n + 1, hn⟩) (outsAt7 V c n (Nat.lt_of_succ_lt hn)).2.2.2.1 (fun k => o7 V c (ix2 k f)) n hN z f
          (fun r => tile7_entry V c ⟨n + 1, hn⟩ r f _ _ rfl rfl) ih.1,
        step7_sq (iblk7 V c 0 ⟨n + 1, hn⟩) (iblk7 V c 1 ⟨n + 1, hn⟩) (outsAt7 V c n (Nat.lt_of_succ_lt hn)).2.2.2.2 (fun k => o7 V c (ix2 k f)) n hN z f
          (fun r => tile7_entry V c ⟨n + 1, hn⟩ r f _ _ rfl rfl) ih.2⟩
    · rw [outsAt7_B V c ⟨n + 1, hn⟩ h0 h1]
      dsimp only
      rw [sout7_B_0_eq, sout7_B_1_eq]
      exact ⟨step7_sum (iblk7 V c 0 ⟨n + 1, hn⟩) (iblk7 V c 1 ⟨n + 1, hn⟩) (outsAt7 V c n (Nat.lt_of_succ_lt hn)).2.2.2.1 (fun k => o7 V c (ix2 k f)) n hN z f
          (fun r => tile7_entry V c ⟨n + 1, hn⟩ r f _ _ rfl rfl) ih.1,
        step7_sq (iblk7 V c 0 ⟨n + 1, hn⟩) (iblk7 V c 1 ⟨n + 1, hn⟩) (outsAt7 V c n (Nat.lt_of_succ_lt hn)).2.2.2.2 (fun k => o7 V c (ix2 k f)) n hN z f
          (fun r => tile7_entry V c ⟨n + 1, hn⟩ r f _ _ rfl rfl) ih.2⟩

/-! ### The sum window: every point writes its tile of the residual sum back -/

/-- What any point leaves in the sum window's staging buffer. -/
theorem out7_2_eq (c : Dev nD) (t : Fin cfg7.N) :
    (outsAt7 V c t.val t.isLt).1 = k7_pay3 (iblk7 V c 0 t) (iblk7 V c 1 t) := by
  have hN := val7_lt t
  by_cases h0 : t.val % 25 = 0
  · rw [outsAt7_A V c t h0 (by omega)]
    dsimp only
    rw [out7_A_2_eq]
  · by_cases h1 : t.val % 25 = 24
    · rw [outsAt7_C V c t h0 h1]
      dsimp only
      rw [out7_C_2_eq]
    · rw [outsAt7_B V c t h0 h1]
      dsimp only
      rw [out7_B_2_eq]

theorem flushed7_2 (c : Dev nD) (t : Fin cfg7.N) :
    (dat7 V c).flushed 2 t = ((cfg7.win 2).blk t).view.read (Elt Ideal) (o7 V c) := by
  show (cfg7.win 2).cut (grid7.coords t) ((dat7 V c).after 2 t) = _
  rw [after7_2, out7_2_eq]
  funext j
  obtain ⟨r, f, rfl⟩ : ∃ (r : Fin 2000) (f : Fin 64), j = ix2 r f := ⟨j 0, j 1, eq_ix2 j⟩
  show k7_pay3 (iblk7 V c 0 t) (iblk7 V c 1 t) (ix2 r f) = ((cfg7.win 2).blk t).view.read (Elt Ideal) (o7 V c) (ix2 r f)
  rw [k7_pay3_apply, tile7_entry V c t r f _ _ rfl rfl, blk7_2_read]

theorem final7_2 (c : Dev nD) :
    (dat7 (F := Ideal) V c).arrAt 2 cfg7.N = Cert.Spec.addv (V c main_v90_0) (V c main_v108) :=
  (dat7 V c).arrAt_eq_of_cover 2 (o7 V c) (fun t _ => flushed7_2 V c t) fun i => by
    have hi0 : (i 0).val < 50000 := (i 0).isLt
    have hi1 : (i 1).val < 64 := (i 1).isLt
    have ht : (i 0).val / 2000 < cfg7.N := by rw [show cfg7.N = 25 from N_7]; omega
    refine ⟨⟨(i 0).val / 2000, ht⟩, flush7_2 _, ?_⟩
    rw [mem_blk7_2]
    have e0 : win7_2.index ⟨(i 0).val / 2000, ht⟩ 0 = (i 0).val / 2000 := (idx7_facts ⟨(i 0).val / 2000, ht⟩).2.2.2.2.1
    have e1 : win7_2.index ⟨(i 0).val / 2000, ht⟩ 1 = 0 := (idx7_facts ⟨(i 0).val / 2000, ht⟩).2.2.2.2.2.1
    intro a
    match a with
    | ⟨0, _⟩ => show win7_2.index ⟨(i 0).val / 2000, ht⟩ 0 * 2000 ≤ (i 0).val ∧ (i 0).val < win7_2.index ⟨(i 0).val / 2000, ht⟩ 0 * 2000 + 2000; rw [e0]; omega
    | ⟨1, _⟩ => show win7_2.index ⟨(i 0).val / 2000, ht⟩ 1 * 64 ≤ (i 1).val ∧ (i 1).val < win7_2.index ⟨(i 0).val / 2000, ht⟩ 1 * 64 + 64; rw [e1]; omega

/-! ### The two statistics windows: written back once, after the last point -/

/-- At the last point the copied-out block is the accumulator's. -/
theorem stat7_3_eq (c : Dev nD) (t : Fin cfg7.N) (h24 : t.val % 25 = 24) :
    (outsAt7 V c t.val t.isLt).2.1 = (outsAt7 V c t.val t.isLt).2.2.2.1 := by
  have hN := val7_lt t
  rw [outsAt7_C V c t (by omega) h24]
  dsimp only
  rw [out7_C_3_eq, sout7_C_0_eq]

/-- The one write-back of window 3, at the last point, writes the whole-column total. -/
theorem flushed7_3 (c : Dev nD) (t : Fin cfg7.N) (hf : (cfg7.win 3).flush t = true) :
    (dat7 V c).flushed 3 t = ((cfg7.win 3).blk t).view.read (Elt Ideal) (Cert.Spec.colsum (o7 V c)) := by
  have h24 : t.val % 25 = 24 := (flush7_3 t).mp hf
  have hN := val7_lt t
  have hz' : (fun a => win7_3.index t a * main_v109_1.ty.shape.size a) = fun _ => 0 := funext fun a => by
    match a with
    | ⟨0, _⟩ => show win7_3.index t 0 * _ = 0; rw [(idx7_facts t).2.2.2.2.2.2.1, Nat.zero_mul]
    | ⟨1, _⟩ => show win7_3.index t 1 * _ = 0; rw [(idx7_facts t).2.2.2.2.2.2.2.1, Nat.zero_mul]
  refine Eq.trans ?_ (Memref.read_access_unit_zero (Elt Ideal) main_v109_1 hz' (fun a => by rw [congrFun hz' a]; simp) (Cert.Spec.colsum (o7 V c))).symm
  show (cfg7.win 3).cut (grid7.coords t) ((dat7 V c).after 3 t) = _
  rw [after7_3, stat7_3_eq V c t h24]
  funext j
  obtain ⟨z, f, rfl⟩ : ∃ (z : Fin 1) (f : Fin 64), j = ix2 z f := ⟨j 0, j 1, eq_ix2 j⟩
  show (outsAt7 V c t.val t.isLt).2.2.2.1 (ix2 z f) = Cert.Spec.colsumAt (o7 V c) f
  rw [(acc7_eq V c t.val t.isLt z f).1]
  have ht : t.val = 24 := by omega
  rw [ht, running_last]
  rfl

theorem final7_3 (c : Dev nD) :
    (dat7 (F := Ideal) V c).arrAt 3 cfg7.N = Cert.Spec.colsum (Cert.Spec.addv (V c main_v90_0) (V c main_v108)) :=
  (dat7 V c).arrAt_eq_of_cover 3 (Cert.Spec.colsum (o7 V c)) (flushed7_3 V c) fun i => by
    refine ⟨val7_last, (flush7_3 val7_last).mpr rfl, ?_⟩
    rw [mem_blk7_3]
    have h0 : (i 0).val < 1 := (i 0).isLt
    have h1 : (i 1).val < 64 := (i 1).isLt
    have e0 : win7_3.index val7_last 0 = 0 := (idx7_facts val7_last).2.2.2.2.2.2.1
    have e1 : win7_3.index val7_last 1 = 0 := (idx7_facts val7_last).2.2.2.2.2.2.2.1
    intro a
    match a with
    | ⟨0, _⟩ => show win7_3.index val7_last 0 * 1 ≤ (i 0).val ∧ (i 0).val < win7_3.index val7_last 0 * 1 + 1; rw [e0]; omega
    | ⟨1, _⟩ => show win7_3.index val7_last 1 * 64 ≤ (i 1).val ∧ (i 1).val < win7_3.index val7_last 1 * 64 + 64; rw [e1]; omega

/-- At the last point the copied-out block is the accumulator's. -/
theorem stat7_4_eq (c : Dev nD) (t : Fin cfg7.N) (h24 : t.val % 25 = 24) :
    (outsAt7 V c t.val t.isLt).2.2.1 = (outsAt7 V c t.val t.isLt).2.2.2.2 := by
  have hN := val7_lt t
  rw [outsAt7_C V c t (by omega) h24]
  dsimp only
  rw [out7_C_4_eq, sout7_C_1_eq]

/-- The one write-back of window 4, at the last point, writes the whole-column total. -/
theorem flushed7_4 (c : Dev nD) (t : Fin cfg7.N) (hf : (cfg7.win 4).flush t = true) :
    (dat7 V c).flushed 4 t = ((cfg7.win 4).blk t).view.read (Elt Ideal) (Cert.Spec.colsumsq (o7 V c)) := by
  have h24 : t.val % 25 = 24 := (flush7_4 t).mp hf
  have hN := val7_lt t
  have hz' : (fun a => win7_4.index t a * main_v109_2.ty.shape.size a) = fun _ => 0 := funext fun a => by
    match a with
    | ⟨0, _⟩ => show win7_4.index t 0 * _ = 0; rw [(idx7_facts t).2.2.2.2.2.2.2.2.1, Nat.zero_mul]
    | ⟨1, _⟩ => show win7_4.index t 1 * _ = 0; rw [(idx7_facts t).2.2.2.2.2.2.2.2.2, Nat.zero_mul]
  refine Eq.trans ?_ (Memref.read_access_unit_zero (Elt Ideal) main_v109_2 hz' (fun a => by rw [congrFun hz' a]; simp) (Cert.Spec.colsumsq (o7 V c))).symm
  show (cfg7.win 4).cut (grid7.coords t) ((dat7 V c).after 4 t) = _
  rw [after7_4, stat7_4_eq V c t h24]
  funext j
  obtain ⟨z, f, rfl⟩ : ∃ (z : Fin 1) (f : Fin 64), j = ix2 z f := ⟨j 0, j 1, eq_ix2 j⟩
  show (outsAt7 V c t.val t.isLt).2.2.2.2 (ix2 z f) = Cert.Spec.colsumsqAt (o7 V c) f
  rw [(acc7_eq V c t.val t.isLt z f).2]
  have ht : t.val = 24 := by omega
  rw [ht, running_last]
  rfl

theorem final7_4 (c : Dev nD) :
    (dat7 (F := Ideal) V c).arrAt 4 cfg7.N = Cert.Spec.colsumsq (Cert.Spec.addv (V c main_v90_0) (V c main_v108)) :=
  (dat7 V c).arrAt_eq_of_cover 4 (Cert.Spec.colsumsq (o7 V c)) (flushed7_4 V c) fun i => by
    refine ⟨val7_last, (flush7_4 val7_last).mpr rfl, ?_⟩
    rw [mem_blk7_4]
    have h0 : (i 0).val < 1 := (i 0).isLt
    have h1 : (i 1).val < 64 := (i 1).isLt
    have e0 : win7_4.index val7_last 0 = 0 := (idx7_facts val7_last).2.2.2.2.2.2.2.2.1
    have e1 : win7_4.index val7_last 1 = 0 := (idx7_facts val7_last).2.2.2.2.2.2.2.2.2
    intro a
    match a with
    | ⟨0, _⟩ => show win7_4.index val7_last 0 * 1 ≤ (i 0).val ∧ (i 0).val < win7_4.index val7_last 0 * 1 + 1; rw [e0]; omega
    | ⟨1, _⟩ => show win7_4.index val7_last 1 * 64 ≤ (i 1).val ∧ (i 1).val < win7_4.index val7_last 1 * 64 + 64; rw [e1]; omega

end Value

end Cert.KernelIdeal.Hand

end
-- ==== Proof.KI.Val8.lean ====
import proofs.«177069_j18983755448416_1_alg».proof.Proof.KI.Reg8
import proofs.«177069_j18983755448416_1_alg».proof.Proof.Spec
import Idealize.ShloMosaic.Lib.Pipeline.Value
import Idealize.ShloMosaic.Lib.ValueLayout
import Idealize.ShloMosaic.PureOps.Ideal.Laws

/-! # Region 8 of @main at the extended reals: the array it leaves

The stored value at a row and feature is the entry's distance from the feature's mean, times the
reciprocal square root of the feature's guarded variance, scaled, shifted, and clamped below at zero.
Grid point `t` writes rows `2000·t … 2000·t + 1999` of the result from the same rows of the input and
from the four one-row arrays, which every point sees whole; row `r` lies in the block of point
`r / 2000`, so the twenty-five blocks cover the array and the array after the region is the
normalised, rectified array, entry by entry. -/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The stored value at row `p`, feature `q` of a block, from the loaded values. -/
theorem pay8_apply (v0 v2 : FVec Ideal S1x64 .f32) (v7 : FVec Ideal S2000x64 .f32) (v13 v17 : FVec Ideal S1x64 .f32)
    (p : Fin 2000) (q : Fin 64) :
    k8_pay1 (F := Ideal) v0 v2 v7 v13 v17 (ix2 p q)
      = max ((((v7 (ix2 p q) - v0 (ix2 0 q)) * Ideal.rsqrt (v2 (ix2 0 q) + Cert.Spec.eps)) * v13 (ix2 0 q)) + v17 (ix2 0 q)) 0 := by
  unfold k8_pay1
  simp only [maximumf_apply, addf_apply, mulf_apply, subf_apply, broadcast_apply, shapeCast_self, broadcastTo_1b_ab_apply]
  show max ((v7 (ix2 p q) - v0 (ix2 0 q)) * Ideal.rsqrt (v2 (ix2 0 q) + Ideal.ofBits .f32 0x3727C5AC#32) * v13 (ix2 0 q) + v17 (ix2 0 q)) (Ideal.ofBits .f32 0x00000000#32) = _
  rw [Ideal.ofBits_zero_f32]
  rfl

/-- The zero offsets of a whole-buffer access. -/
theorem zero_off8 : (![0, 0] : Fin 2 → Nat) = fun _ => 0 := funext fun a => by fin_cases a <;> rfl

/-- The normalised array at an index, the one-row arrays read at the index's own feature. -/
theorem bnrelu_at8 (o : Cert.Spec.Arr 50000 64) (mu var g be : Cert.Spec.Arr 1 64) (i : (⟨2, ![50000, 64]⟩ : Shape).Idx) :
    Cert.Spec.bnrelu o mu var g be i
      = max ((((o i - mu (ix2 0 (i 1))) * Ideal.rsqrt (var (ix2 0 (i 1)) + Cert.Spec.eps)) * g (ix2 0 (i 1))) + be (ix2 0 (i 1))) 0 := by
  have e : (ix2 (Cert.Spec.row i) (Cert.Spec.col i) : (⟨2, ![50000, 64]⟩ : Shape).Idx) = i := (eq_ix2 i).symm
  unfold Cert.Spec.bnrelu Cert.Spec.bnreluAt
  rw [e]

/-- The block index maps over the grid: the input and the result move one block of rows per point, the four
    one-row arrays stay. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

-- the buffer contents when the region is entered
variable (V : (c : Dev nD) → (b : Ref sig .tc) → Buf (Elt Ideal) ((c : Thread nD τ).loc b))

/-- What point `t` writes back is block `t` of the normalised array of the arrays as the region finds them. -/
theorem flushed8_5_eq (c : Dev nD) (t : Fin cfg8.N) :
    (dat8 (F := Ideal) V c).flushed 5 t = ((cfg8.win 5).blk t).view.read (Elt Ideal)
      (Cert.Spec.bnrelu (V c main_v109_0) (V c main_v111) (V c main_v117) (V c main_v88) (V c main_v89)) := by
  show (cfg8.win 5).cut (grid8.coords t) ((dat8 V c).after 5 t) = _
  rw [after8_5]
  unfold out8_5
  rw [View.canon_unit_zero zero_off8]
  simp only [View.ld_unit_zero (S := S2000x64) zero_off8, View.ld_unit_zero (S := S1x64) zero_off8]
  funext j
  obtain ⟨p, q, rfl⟩ : ∃ (p : Fin 2000) (q : Fin 64), j = ix2 p q := ⟨j 0, j 1, eq_ix2 j⟩
  refine (pay8_apply _ _ _ _ _ p q).trans ?_
  refine Eq.trans ?_ (bnrelu_at8 _ _ _ _ _ (((cfg8.win 5).blk t).view.emb (ix2 p q))).symm
  obtain ⟨a0, a1, b0, b1, c0, c1, d0, d1, f0, f1, g0, g1⟩ := idx_facts8 t
  have e0 : (iblk8 V c 0 t : Vec Ideal S2000x64 .f32) (ix2 p q) = (V c main_v109_0 : S50000x64.Idx → EReal) (((cfg8.win 5).blk t).view.emb (ix2 p q)) := by
    show V c main_v109_0 (((cfg8.win 0).blk t).view.emb (ix2 p q)) = V c main_v109_0 (((cfg8.win 5).blk t).view.emb (ix2 p q))
    refine congrArg _ (funext fun a => Fin.ext ?_)
    match a with
    | ⟨0, _⟩ => show win8_0.index t (0 : Fin 2) * 2000 + 1 * p.val = win8_5.index t (0 : Fin 2) * 2000 + 1 * p.val; omega
    | ⟨1, _⟩ => show win8_0.index t (1 : Fin 2) * 64 + 1 * q.val = win8_5.index t (1 : Fin 2) * 64 + 1 * q.val; omega
  have e1 : (iblk8 V c 1 t : Vec Ideal S1x64 .f32) (ix2 0 q) = (V c main_v111 : S1x64.Idx → EReal) (ix2 (0 : Fin 1) ((((cfg8.win 5).blk t).view.emb (ix2 p q)) 1 : Fin 64)) := by
    show V c main_v111 (((cfg8.win 1).blk t).view.emb (ix2 0 q)) = _
    refine congrArg _ (funext fun a => Fin.ext ?_)
    match a with
    | ⟨0, _⟩ => show win8_1.index t (0 : Fin 2) * 1 + 1 * 0 = 0; omega
    | ⟨1, _⟩ => show win8_1.index t (1 : Fin 2) * 64 + 1 * q.val = win8_5.index t (1 : Fin 2) * 64 + 1 * q.val; omega
  have e2 : (iblk8 V c 2 t : Vec Ideal S1x64 .f32) (ix2 0 q) = (V c main_v117 : S1x64.Idx → EReal) (ix2 (0 : Fin 1) ((((cfg8.win 5).blk t).view.emb (ix2 p q)) 1 : Fin 64)) := by
    show V c main_v117 (((cfg8.win 2).blk t).view.emb (ix2 0 q)) = _
    refine congrArg _ (funext fun a => Fin.ext ?_)
    match a with
    | ⟨0, _⟩ => show win8_2.index t (0 : Fin 2) * 1 + 1 * 0 = 0; omega
    | ⟨1, _⟩ => show win8_2.index t (1 : Fin 2) * 64 + 1 * q.val = win8_5.index t (1 : Fin 2) * 64 + 1 * q.val; omega
  have e3 : (iblk8 V c 3 t : Vec Ideal S1x64 .f32) (ix2 0 q) = (V c main_v88 : S1x64.Idx → EReal) (ix2 (0 : Fin 1) ((((cfg8.win 5).blk t).view.emb (ix2 p q)) 1 : Fin 64)) := by
    show V c main_v88 (((cfg8.win 3).blk t).view.emb (ix2 0 q)) = _
    refine congrArg _ (funext fun a => Fin.ext ?_)
    match a with
    | ⟨0, _⟩ => show win8_3.index t (0 : Fin 2) * 1 + 1 * 0 = 0; omega
    | ⟨1, _⟩ => show win8_3.index t (1 : Fin 2) * 64 + 1 * q.val = win8_5.index t (1 : Fin 2) * 64 + 1 * q.val; omega
  have e4 : (iblk8 V c 4 t : Vec Ideal S1x64 .f32) (ix2 0 q) = (V c main_v89 : S1x64.Idx → EReal) (ix2 (0 : Fin 1) ((((cfg8.win 5).blk t).view.emb (ix2 p q)) 1 : Fin 64)) := by
    show V c main_v89 (((cfg8.win 4).blk t).view.emb (ix2 0 q)) = _
    refine congrArg _ (funext fun a => Fin.ext ?_)
    match a with
    | ⟨0, _⟩ => show win8_4.index t (0 : Fin 2) * 1 + 1 * 0 = 0; omega
    | ⟨1, _⟩ => show win8_4.index t (1 : Fin 2) * 64 + 1 * q.val = win8_5.index t (1 : Fin 2) * 64 + 1 * q.val; omega
  exact congrArg₂ max (congrArg₂ (· + ·) (congrArg₂ (· * ·) (congrArg₂ (· * ·) (congrArg₂ (· - ·) e0 e1)
    (congrArg Ideal.rsqrt (congrArg (· + Cert.Spec.eps) e2))) e3) e4) rfl

/-- Every row lies in the block of the point its number divided by 2000 names. -/
theorem cover8_5_arr (i : S50000x64.Idx) :
    ∃ t : Fin cfg8.N, (cfg8.win 5).flush t = true ∧ i ∈ ((cfg8.win 5).blk t).view.set := by
  have hi0 : (i 0).val < 50000 := (i 0).isLt
  have hi1 : (i 1).val < 64 := (i 1).isLt
  have hN : grid8.N = 25 := N_8
  let t : Fin cfg8.N := ⟨(i 0).val / 2000, by show (i 0).val / 2000 < grid8.N; rw [hN]; omega⟩
  refine ⟨t, flush8_5 t, ?_⟩
  obtain ⟨a0, a1, b0, b1, c0, c1, d0, d1, f0, f1, g0, g1⟩ := idx_facts8 t
  have ht : t.val = (i 0).val / 2000 := rfl
  show i ∈ ((View.whole main_v118).slice (win8_5.rect t)).set
  rw [View.set_slice_whole, Rect.mem_set_unit]
  intro a
  match a with
  | ⟨0, _⟩ => show win8_5.index t (0 : Fin 2) * 2000 ≤ (i 0).val ∧ (i 0).val < win8_5.index t (0 : Fin 2) * 2000 + 2000; omega
  | ⟨1, _⟩ => show win8_5.index t (1 : Fin 2) * 64 ≤ (i 1).val ∧ (i 1).val < win8_5.index t (1 : Fin 2) * 64 + 64; omega

/-- The array the region leaves is the normalised, rectified array of the arrays it found. -/
theorem final8_5 (c : Dev nD) :
    (dat8 (F := Ideal) V c).arrAt 5 cfg8.N
      = Cert.Spec.bnrelu (V c main_v109_0) (V c main_v111) (V c main_v117) (V c main_v88) (V c main_v89) :=
  (dat8 (F := Ideal) V c).arrAt_eq_of_cover 5 _ (fun t _ => flushed8_5_eq V c t) (cover8_5_arr)

end Cert.KernelIdeal.Hand

end
-- ==== Proof.KI.Val9.lean ====
import proofs.«177069_j18983755448416_1_alg».proof.Proof.KI.Reg9
import proofs.«177069_j18983755448416_1_alg».proof.Proof.Spec
import proofs.«177069_j18983755448416_1_alg».proof.Proof.LibPlainDot
import Idealize.ShloMosaic.Lib.Pipeline.Value
import Idealize.ShloMosaic.Lib.ValueLayout
import Idealize.ShloMosaic.PureOps.Ideal.Laws

/-! # Region 9 of @main at the extended reals: the array it leaves

The stored value at a row and an output is the row of the input block against the output's column of the
weights, plus the bias (the narrowing of the operands to a shorter format is the identity on extended
reals, and the product accumulates from zero). Grid point `t` writes rows `2000·t … 2000·t + 1999` of
the result from the same rows of the input; the weights and the bias are seen whole at every point; row
`r` lies in the block of point `r / 2000`, so the twenty-five blocks cover the array and the array after
the region is the affine map of the input, entry by entry. -/

noncomputable section

namespace Cert.KernelIdeal.Hand

open scoped BigOperators
open Cert.KernelIdeal Cert.KernelIdeal.Gen
open Idealize.ShloMosaic Idealize.ShloMosaic.TcCoe Idealize.SL.Sem
open Idealize.ShloMosaic.Pipeline (Dat)
open Idealize.ShloMosaic.ValueIdx

/-- The stored value at row `p`, output `o` of a block, from the loaded values. -/
theorem pay9_apply (v0 : FVec Ideal S2000x64 .f32) (v3 : FVec Ideal S64x2 .f32) (v6 : FVec Ideal S1x2 .f32)
    (p : Fin 2000) (o : Fin 2) :
    k9_pay1 (F := Ideal) v0 v3 v6 (ix2 p o) = (∑ k : Fin 64, v0 (ix2 p k) * v3 (ix2 k o)) + v6 (ix2 0 o) := by
  unfold k9_pay1
  simp only [addf_apply, shapeCast_self, broadcastTo_1b_ab_apply]
  refine congrArg₂ (· + ·) ((Cert.PlainDot.matmul_apply dot_S2000x64_S64x2_S2000x2_1_0_0_1_n_n ⟨rfl, rfl, rfl, rfl, rfl, rfl⟩ none _ _ p o).trans ?_) rfl
  rfl

/-- The zero offsets of a whole-buffer access. -/
theorem zero_off9 : (![0, 0] : Fin 2 → Nat) = fun _ => 0 := funext fun a => by fin_cases a <;> rfl

/-- The affine map at an index. -/
theorem lin2_at9 (h : Cert.Spec.Arr 50000 64) (W : Cert.Spec.Arr 64 2) (b : Cert.Spec.Arr 1 2) (i : (⟨2, ![50000, 2]⟩ : Shape).Idx) :
    Cert.Spec.lin2 h W b i = (∑ f : Fin 64, h (ix2 (i 0) f) * W (ix2 f (i 1))) + b (ix2 0 (i 1)) := rfl

/-- The block index maps over the grid: the input and the result move one block of rows per point, the weights
    and the bias stay. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

-- the buffer contents when the region is entered
variable (V : (c : Dev nD) → (b : Ref sig .tc) → Buf (Elt Ideal) ((c : Thread nD τ).loc b))

/-- What point `t` writes back is block `t` of the affine map of the arrays as the region finds them. -/
theorem flushed9_3_eq (c : Dev nD) (t : Fin cfg9.N) :
    (dat9 (F := Ideal) V c).flushed 3 t = ((cfg9.win 3).blk t).view.read (Elt Ideal)
      (Cert.Spec.lin2 (V c main_v118) (V c main_arg18) (V c main_v119)) := by
  show (cfg9.win 3).cut (grid9.coords t) ((dat9 V c).after 3 t) = _
  rw [after9_3]
  unfold out9_3
  rw [View.canon_unit_zero zero_off9]
  simp only [View.ld_unit_zero (S := S2000x64) zero_off9, View.ld_unit_zero (S := S64x2) zero_off9, View.ld_unit_zero (S := S1x2) zero_off9]
  funext j
  obtain ⟨p, o, rfl⟩ : ∃ (p : Fin 2000) (o : Fin 2), j = ix2 p o := ⟨j 0, j 1, eq_ix2 j⟩
  refine (pay9_apply _ _ _ p o).trans ?_
  refine Eq.trans ?_ (lin2_at9 _ _ _ (((cfg9.win 3).blk t).view.emb (ix2 p o))).symm
  obtain ⟨a0, a1, b0, b1, c0, c1, d0, d1⟩ := idx_facts9 t
  have e0 : ∀ k : Fin 64, (iblk9 V c 0 t : Vec Ideal S2000x64 .f32) (ix2 p k) = (V c main_v118 : S50000x64.Idx → EReal) (ix2 ((((cfg9.win 3).blk t).view.emb (ix2 p o)) 0 : Fin 50000) k) := by
    intro k
    show V c main_v118 (((cfg9.win 0).blk t).view.emb (ix2 p k)) = _
    refine congrArg _ (funext fun a => Fin.ext ?_)
    match a with
    | ⟨0, _⟩ => show win9_0.index t (0 : Fin 2) * 2000 + 1 * p.val = win9_3.index t (0 : Fin 2) * 2000 + 1 * p.val; omega
    | ⟨1, _⟩ => show win9_0.index t (1 : Fin 2) * 64 + 1 * k.val = k.val; omega
  have e1 : ∀ k : Fin 64, (iblk9 V c 1 t : Vec Ideal S64x2 .f32) (ix2 k o) = (V c main_arg18 : S64x2.Idx → EReal) (ix2 k ((((cfg9.win 3).blk t).view.emb (ix2 p o)) 1 : Fin 2)) := by
    intro k
    show V c main_arg18 (((cfg9.win 1).blk t).view.emb (ix2 k o)) = _
    refine congrArg _ (funext fun a => Fin.ext ?_)
    match a with
    | ⟨0, _⟩ => show win9_1.index t (0 : Fin 2) * 64 + 1 * k.val = k.val; omega
    | ⟨1, _⟩ => show win9_1.index t (1 : Fin 2) * 2 + 1 * o.val = win9_3.index t (1 : Fin 2) * 2 + 1 * o.val; omega
  have e2 : (iblk9 V c 2 t : Vec Ideal S1x2 .f32) (ix2 0 o) = (V c main_v119 : S1x2.Idx → EReal) (ix2 (0 : Fin 1) ((((cfg9.win 3).blk t).view.emb (ix2 p o)) 1 : Fin 2)) := by
    show V c main_v119 (((cfg9.win 2).blk t).view.emb (ix2 0 o)) = _
    refine congrArg _ (funext fun a => Fin.ext ?_)
    match a with
    | ⟨0, _⟩ => show win9_2.index t (0 : Fin 2) * 1 + 1 * 0 = 0; omega
    | ⟨1, _⟩ => show win9_2.index t (1 : Fin 2) * 2 + 1 * o.val = win9_3.index t (1 : Fin 2) * 2 + 1 * o.val; omega
  exact congrArg₂ (· + ·) (Finset.sum_congr rfl fun k _ => congrArg₂ (· * ·) (e0 k) (e1 k)) e2

/-- Every row lies in the block of the point its number divided by 2000 names. -/
theorem cover9_3_arr (i : S50000x2.Idx) :
    ∃ t : Fin cfg9.N, (cfg9.win 3).flush t = true ∧ i ∈ ((cfg9.win 3).blk t).view.set := by
  have hi0 : (i 0).val < 50000 := (i 0).isLt
  have hi1 : (i 1).val < 2 := (i 1).isLt
  have hN : grid9.N = 25 := N_9
  let t : Fin cfg9.N := ⟨(i 0).val / 2000, by show (i 0).val / 2000 < grid9.N; rw [hN]; omega⟩
  refine ⟨t, flush9_3 t, ?_⟩
  obtain ⟨a0, a1, b0, b1, c0, c1, d0, d1⟩ := idx_facts9 t
  have ht : t.val = (i 0).val / 2000 := rfl
  show i ∈ ((View.whole main_v120).slice (win9_3.rect t)).set
  rw [View.set_slice_whole, Rect.mem_set_unit]
  intro a
  match a with
  | ⟨0, _⟩ => show win9_3.index t (0 : Fin 2) * 2000 ≤ (i 0).val ∧ (i 0).val < win9_3.index t (0 : Fin 2) * 2000 + 2000; omega
  | ⟨1, _⟩ => show win9_3.index t (1 : Fin 2) * 2 ≤ (i 1).val ∧ (i 1).val < win9_3.index t (1 : Fin 2) * 2 + 2; omega

/-- The array the region leaves is the affine map of the arrays it found. -/
theorem final9_3 (c : Dev nD) :
    (dat9 (F := Ideal) V c).arrAt 3 cfg9.N = Cert.Spec.lin2 (V c main_v118) (V c main_arg18) (V c main_v119) :=
  (dat9 (F := Ideal) V c).arrAt_eq_of_cover 3 _ (fun t _ => flushed9_3_eq V c t) (cover9_3_arr)

end Cert.KernelIdeal.Hand

end
-- ==== Proof.KI.Value.lean ====
/-
  The idealized kernel's result as a function of the argument arrays: the buffer contents at each boundary
  of @main, followed buffer by buffer from the launch memory — a host stretch's operations applied to what
  the boundary before holds, a region's output arrays at the closed forms of their blocks — down to the
  last region's output.
-/
import proofs.«177069_j18983755448416_1_alg».proof.Proof.KI.Chain
import proofs.«177069_j18983755448416_1_alg».proof.Proof.KI.HostFlow
import proofs.«177069_j18983755448416_1_alg».proof.Proof.KI.Val0
import proofs.«177069_j18983755448416_1_alg».proof.Proof.KI.Val1
import proofs.«177069_j18983755448416_1_alg».proof.Proof.KI.Val2
import proofs.«177069_j18983755448416_1_alg».proof.Proof.KI.Val3
import proofs.«177069_j18983755448416_1_alg».proof.Proof.KI.Val4
import proofs.«177069_j18983755448416_1_alg».proof.Proof.KI.Val5
import proofs.«177069_j18983755448416_1_alg».proof.Proof.KI.Val6
import proofs.«177069_j18983755448416_1_alg».proof.Proof.KI.Val7
import proofs.«177069_j18983755448416_1_alg».proof.Proof.KI.Val8
import proofs.«177069_j18983755448416_1_alg».proof.Proof.KI.Val9
import proofs.«177069_j18983755448416_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! ## The stages, from the argument arrays -/

abbrev A0 : S50000x128.Idx → EReal := m ((c.tc : Thread nD τ).loc main_arg0)
abbrev A1 : S2x2x4x64x64.Idx → EReal := m ((c.tc : Thread nD τ).loc main_arg1)
abbrev A2 : IVec S800000 32 := m ((c.tc : Thread nD τ).loc main_arg2)
abbrev A3 : IVec S800000 32 := m ((c.tc : Thread nD τ).loc main_arg3)
abbrev A4 : IVec S50000 32 := m ((c.tc : Thread nD τ).loc main_arg4)
abbrev A5 : IVec S800000 32 := m ((c.tc : Thread nD τ).loc main_arg5)
abbrev A6 : S128x64.Idx → EReal := m ((c.tc : Thread nD τ).loc main_arg6)
abbrev A7 : S64.Idx → EReal := m ((c.tc : Thread nD τ).loc main_arg7)
abbrev A8 : S64.Idx → EReal := m ((c.tc : Thread nD τ).loc main_arg8)
abbrev A9 : S64.Idx → EReal := m ((c.tc : Thread nD τ).loc main_arg9)
abbrev A10 : S64x64.Idx → EReal := m ((c.tc : Thread nD τ).loc main_arg10)
abbrev A11 : S64.Idx → EReal := m ((c.tc : Thread nD τ).loc main_arg11)
abbrev A12 : S64.Idx → EReal := m ((c.tc : Thread nD τ).loc main_arg12)
abbrev A13 : S64.Idx → EReal := m ((c.tc : Thread nD τ).loc main_arg13)
abbrev A14 : S64x64.Idx → EReal := m ((c.tc : Thread nD τ).loc main_arg14)
abbrev A15 : S64.Idx → EReal := m ((c.tc : Thread nD τ).loc main_arg15)
abbrev A16 : S64.Idx → EReal := m ((c.tc : Thread nD τ).loc main_arg16)
abbrev A17 : S64.Idx → EReal := m ((c.tc : Thread nD τ).loc main_arg17)
abbrev A18 : S64x2.Idx → EReal := m ((c.tc : Thread nD τ).loc main_arg18)
abbrev A19 : S2.Idx → EReal := m ((c.tc : Thread nD τ).loc main_arg19)
/-- The re-laid basis and the edges' flat index, from the arguments. -/
def sMt : S64x1024.Idx → EReal := kMt (A1 m c)
def sCombo : IVec S800000 32 := kCombo (A2 m c) (A3 m c) (A4 m c) (A5 m c)
/-- Layer 1: the node transform, its image under the basis, the aggregation, the residual sum, its column statistics, the normalised output. -/
def sH1 : S50000x64.Idx → EReal := Cert.Spec.lin128 (A0 m c) (A6 m c) (kRow64 (A7 m c))
def sT1 : S50000x1024.Idx → EReal := Cert.Spec.proj (sH1 m c) (sMt m c)
def sG1 : S50000x64.Idx → EReal := kAgg (sT1 m c) (A2 m c) (A3 m c) (sCombo m c)
def sO1 : S50000x64.Idx → EReal := Cert.Spec.addv (sH1 m c) (sG1 m c)
def sS1 : S1x64.Idx → EReal := Cert.Spec.colsum (sO1 m c)
def sQ1 : S1x64.Idx → EReal := Cert.Spec.colsumsq (sO1 m c)
def sMu1 : S1x64.Idx → EReal := kMean (sS1 m c)
def sVa1 : S1x64.Idx → EReal := kVar (sS1 m c) (sQ1 m c)
def sY1 : S50000x64.Idx → EReal := Cert.Spec.bnrelu (sO1 m c) (sMu1 m c) (sVa1 m c) (kRow64 (A8 m c)) (kRow64 (A9 m c))
/-- Layer 2: the node transform, its image under the basis, the aggregation, the residual sum, its column statistics, the normalised output. -/
def sH2 : S50000x64.Idx → EReal := Cert.Spec.lin64 (sY1 m c) (A10 m c) (kRow64 (A11 m c))
def sT2 : S50000x1024.Idx → EReal := Cert.Spec.proj (sH2 m c) (sMt m c)
def sG2 : S50000x64.Idx → EReal := kAgg (sT2 m c) (A2 m c) (A3 m c) (sCombo m c)
def sO2 : S50000x64.Idx → EReal := Cert.Spec.addv (sH2 m c) (sG2 m c)
def sS2 : S1x64.Idx → EReal := Cert.Spec.colsum (sO2 m c)
def sQ2 : S1x64.Idx → EReal := Cert.Spec.colsumsq (sO2 m c)
def sMu2 : S1x64.Idx → EReal := kMean (sS2 m c)
def sVa2 : S1x64.Idx → EReal := kVar (sS2 m c) (sQ2 m c)
def sY2 : S50000x64.Idx → EReal := Cert.Spec.bnrelu (sO2 m c) (sMu2 m c) (sVa2 m c) (kRow64 (A12 m c)) (kRow64 (A13 m c))
/-- Layer 3: the node transform, its image under the basis, the aggregation, the residual sum, its column statistics, the normalised output. -/
def sH3 : S50000x64.Idx → EReal := Cert.Spec.lin64 (sY2 m c) (A14 m c) (kRow64 (A15 m c))
def sT3 : S50000x1024.Idx → EReal := Cert.Spec.proj (sH3 m c) (sMt m c)
def sG3 : S50000x64.Idx → EReal := kAgg (sT3 m c) (A2 m c) (A3 m c) (sCombo m c)
def sO3 : S50000x64.Idx → EReal := Cert.Spec.addv (sH3 m c) (sG3 m c)
def sS3 : S1x64.Idx → EReal := Cert.Spec.colsum (sO3 m c)
def sQ3 : S1x64.Idx → EReal := Cert.Spec.colsumsq (sO3 m c)
def sMu3 : S1x64.Idx → EReal := kMean (sS3 m c)
def sVa3 : S1x64.Idx → EReal := kVar (sS3 m c) (sQ3 m c)
def sY3 : S50000x64.Idx → EReal := Cert.Spec.bnrelu (sO3 m c) (sMu3 m c) (sVa3 m c) (kRow64 (A16 m c)) (kRow64 (A17 m c))
/-- The kernel's result. -/
def sRes : S50000x2.Idx → EReal := Cert.Spec.lin2 (sY3 m c) (A18 m c) (kRow2 (A19 m c))

/-! ## The buffers at each boundary -/

theorem w0_arg0 : (W0 m ρ c (Proc.devRef .tc main_arg0) : S50000x128.Idx → EReal) = A0 m c := rfl
theorem w0_arg1 : (W0 m ρ c (Proc.devRef .tc main_arg1) : S2x2x4x64x64.Idx → EReal) = A1 m c := rfl
theorem w0_arg2 : (W0 m ρ c (Proc.devRef .tc main_arg2) : IVec S800000 32) = A2 m c := rfl
theorem w0_arg3 : (W0 m ρ c (Proc.devRef .tc main_arg3) : IVec S800000 32) = A3 m c := rfl
theorem w0_arg4 : (W0 m ρ c (Proc.devRef .tc main_arg4) : IVec S50000 32) = A4 m c := rfl
theorem w0_arg5 : (W0 m ρ c (Proc.devRef .tc main_arg5) : IVec S800000 32) = A5 m c := rfl
theorem w0_arg6 : (W0 m ρ c (Proc.devRef .tc main_arg6) : S128x64.Idx → EReal) = A6 m c := rfl
theorem w0_arg7 : (W0 m ρ c (Proc.devRef .tc main_arg7) : S64.Idx → EReal) = A7 m c := rfl
theorem w0_arg8 : (W0 m ρ c (Proc.devRef .tc main_arg8) : S64.Idx → EReal) = A8 m c := rfl
theorem w0_arg9 : (W0 m ρ c (Proc.devRef .tc main_arg9) : S64.Idx → EReal) = A9 m c := rfl
theorem w0_arg10 : (W0 m ρ c (Proc.devRef .tc main_arg10) : S64x64.Idx → EReal) = A10 m c := rfl
theorem w0_arg11 : (W0 m ρ c (Proc.devRef .tc main_arg11) : S64.Idx → EReal) = A11 m c := rfl
theorem w0_arg12 : (W0 m ρ c (Proc.devRef .tc main_arg12) : S64.Idx → EReal) = A12 m c := rfl
theorem w0_arg13 : (W0 m ρ c (Proc.devRef .tc main_arg13) : S64.Idx → EReal) = A13 m c := rfl
theorem w0_arg14 : (W0 m ρ c (Proc.devRef .tc main_arg14) : S64x64.Idx → EReal) = A14 m c := rfl
theorem w0_arg15 : (W0 m ρ c (Proc.devRef .tc main_arg15) : S64.Idx → EReal) = A15 m c := rfl
theorem w0_arg16 : (W0 m ρ c (Proc.devRef .tc main_arg16) : S64.Idx → EReal) = A16 m c := rfl
theorem w0_arg17 : (W0 m ρ c (Proc.devRef .tc main_arg17) : S64.Idx → EReal) = A17 m c := rfl
theorem w0_arg18 : (W0 m ρ c (Proc.devRef .tc main_arg18) : S64x2.Idx → EReal) = A18 m c := rfl
theorem w0_arg19 : (W0 m ρ c (Proc.devRef .tc main_arg19) : S2.Idx → EReal) = A19 m c := rfl

/-! ### After the host stretch before region 0 -/
theorem w1_arg0 : (W1 m ρ c (Proc.devRef .tc main_arg0) : S50000x128.Idx → EReal) = A0 m c :=
  (StableHlo.after_of_writes_sub hostOps0 _ hostOps0_writes (by decide)).trans (w0_arg0 m ρ c)
theorem w1_arg2 : (W1 m ρ c (Proc.devRef .tc main_arg2) : IVec S800000 32) = A2 m c :=
  (StableHlo.after_of_writes_sub hostOps0 _ hostOps0_writes (by decide)).trans (w0_arg2 m ρ c)
theorem w1_arg3 : (W1 m ρ c (Proc.devRef .tc main_arg3) : IVec S800000 32) = A3 m c :=
  (StableHlo.after_of_writes_sub hostOps0 _ hostOps0_writes (by decide)).trans (w0_arg3 m ρ c)
theorem w1_arg6 : (W1 m ρ c (Proc.devRef .tc main_arg6) : S128x64.Idx → EReal) = A6 m c :=
  (StableHlo.after_of_writes_sub hostOps0 _ hostOps0_writes (by decide)).trans (w0_arg6 m ρ c)
theorem w1_arg10 : (W1 m ρ c (Proc.devRef .tc main_arg10) : S64x64.Idx → EReal) = A10 m c :=
  (StableHlo.after_of_writes_sub hostOps0 _ hostOps0_writes (by decide)).trans (w0_arg10 m ρ c)
theorem w1_arg11 : (W1 m ρ c (Proc.devRef .tc main_arg11) : S64.Idx → EReal) = A11 m c :=
  (StableHlo.after_of_writes_sub hostOps0 _ hostOps0_writes (by decide)).trans (w0_arg11 m ρ c)
theorem w1_arg12 : (W1 m ρ c (Proc.devRef .tc main_arg12) : S64.Idx → EReal) = A12 m c :=
  (StableHlo.after_of_writes_sub hostOps0 _ hostOps0_writes (by decide)).trans (w0_arg12 m ρ c)
theorem w1_arg13 : (W1 m ρ c (Proc.devRef .tc main_arg13) : S64.Idx → EReal) = A13 m c :=
  (StableHlo.after_of_writes_sub hostOps0 _ hostOps0_writes (by decide)).trans (w0_arg13 m ρ c)
theorem w1_arg14 : (W1 m ρ c (Proc.devRef .tc main_arg14) : S64x64.Idx → EReal) = A14 m c :=
  (StableHlo.after_of_writes_sub hostOps0 _ hostOps0_writes (by decide)).trans (w0_arg14 m ρ c)
theorem w1_arg15 : (W1 m ρ c (Proc.devRef .tc main_arg15) : S64.Idx → EReal) = A15 m c :=
  (StableHlo.after_of_writes_sub hostOps0 _ hostOps0_writes (by decide)).trans (w0_arg15 m ρ c)
theorem w1_arg16 : (W1 m ρ c (Proc.devRef .tc main_arg16) : S64.Idx → EReal) = A16 m c :=
  (StableHlo.after_of_writes_sub hostOps0 _ hostOps0_writes (by decide)).trans (w0_arg16 m ρ c)
theorem w1_arg17 : (W1 m ρ c (Proc.devRef .tc main_arg17) : S64.Idx → EReal) = A17 m c :=
  (StableHlo.after_of_writes_sub hostOps0 _ hostOps0_writes (by decide)).trans (w0_arg17 m ρ c)
theorem w1_arg18 : (W1 m ρ c (Proc.devRef .tc main_arg18) : S64x2.Idx → EReal) = A18 m c :=
  (StableHlo.after_of_writes_sub hostOps0 _ hostOps0_writes (by decide)).trans (w0_arg18 m ρ c)
theorem w1_arg19 : (W1 m ρ c (Proc.devRef .tc main_arg19) : S2.Idx → EReal) = A19 m c :=
  (StableHlo.after_of_writes_sub hostOps0 _ hostOps0_writes (by decide)).trans (w0_arg19 m ρ c)
theorem w1_v2 : (W1 m ρ c (Proc.devRef .tc main_v2) : S64x1024.Idx → EReal) = sMt m c := by
  refine (h0_v2 (W0 m ρ c)).trans ?_
  rw [w0_arg1 m ρ c]
  all_goals rfl
theorem w1_v22 : (W1 m ρ c (Proc.devRef .tc main_v22) : IVec S800000 32) = sCombo m c := by
  refine (h0_v22 (W0 m ρ c)).trans ?_
  rw [w0_arg2 m ρ c, w0_arg3 m ρ c, w0_arg4 m ρ c, w0_arg5 m ρ c]
  all_goals rfl
theorem w1_v23 : (W1 m ρ c (Proc.devRef .tc main_v23) : S1x64.Idx → EReal) = kRow64 (A7 m c) := by
  refine (h0_v23 (W0 m ρ c)).trans ?_
  rw [w0_arg7 m ρ c]
  all_goals rfl
theorem w1_v24 : (W1 m ρ c (Proc.devRef .tc main_v24) : S1x64.Idx → EReal) = kRow64 (A8 m c) := by
  refine (h0_v24 (W0 m ρ c)).trans ?_
  rw [w0_arg8 m ρ c]
  all_goals rfl
theorem w1_v25 : (W1 m ρ c (Proc.devRef .tc main_v25) : S1x64.Idx → EReal) = kRow64 (A9 m c) := by
  refine (h0_v25 (W0 m ρ c)).trans ?_
  rw [w0_arg9 m ρ c]
  all_goals rfl

/-! ### After region 0 -/
theorem w2_arg2 : (W2 m ρ c (Proc.devRef .tc main_arg2) : IVec S800000 32) = A2 m c :=
  (W2_of_ne m ρ c main_arg2 (by decide)).trans (w1_arg2 m ρ c)
theorem w2_arg3 : (W2 m ρ c (Proc.devRef .tc main_arg3) : IVec S800000 32) = A3 m c :=
  (W2_of_ne m ρ c main_arg3 (by decide)).trans (w1_arg3 m ρ c)
theorem w2_arg10 : (W2 m ρ c (Proc.devRef .tc main_arg10) : S64x64.Idx → EReal) = A10 m c :=
  (W2_of_ne m ρ c main_arg10 (by decide)).trans (w1_arg10 m ρ c)
theorem w2_arg11 : (W2 m ρ c (Proc.devRef .tc main_arg11) : S64.Idx → EReal) = A11 m c :=
  (W2_of_ne m ρ c main_arg11 (by decide)).trans (w1_arg11 m ρ c)
theorem w2_arg12 : (W2 m ρ c (Proc.devRef .tc main_arg12) : S64.Idx → EReal) = A12 m c :=
  (W2_of_ne m ρ c main_arg12 (by decide)).trans (w1_arg12 m ρ c)
theorem w2_arg13 : (W2 m ρ c (Proc.devRef .tc main_arg13) : S64.Idx → EReal) = A13 m c :=
  (W2_of_ne m ρ c main_arg13 (by decide)).trans (w1_arg13 m ρ c)
theorem w2_arg14 : (W2 m ρ c (Proc.devRef .tc main_arg14) : S64x64.Idx → EReal) = A14 m c :=
  (W2_of_ne m ρ c main_arg14 (by decide)).trans (w1_arg14 m ρ c)
theorem w2_arg15 : (W2 m ρ c (Proc.devRef .tc main_arg15) : S64.Idx → EReal) = A15 m c :=
  (W2_of_ne m ρ c main_arg15 (by decide)).trans (w1_arg15 m ρ c)
theorem w2_arg16 : (W2 m ρ c (Proc.devRef .tc main_arg16) : S64.Idx → EReal) = A16 m c :=
  (W2_of_ne m ρ c main_arg16 (by decide)).trans (w1_arg16 m ρ c)
theorem w2_arg17 : (W2 m ρ c (Proc.devRef .tc main_arg17) : S64.Idx → EReal) = A17 m c :=
  (W2_of_ne m ρ c main_arg17 (by decide)).trans (w1_arg17 m ρ c)
theorem w2_arg18 : (W2 m ρ c (Proc.devRef .tc main_arg18) : S64x2.Idx → EReal) = A18 m c :=
  (W2_of_ne m ρ c main_arg18 (by decide)).trans (w1_arg18 m ρ c)
theorem w2_arg19 : (W2 m ρ c (Proc.devRef .tc main_arg19) : S2.Idx → EReal) = A19 m c :=
  (W2_of_ne m ρ c main_arg19 (by decide)).trans (w1_arg19 m ρ c)
theorem w2_v2 : (W2 m ρ c (Proc.devRef .tc main_v2) : S64x1024.Idx → EReal) = sMt m c :=
  ((W2_arr m ρ c 3).trans (((dat0 (V1 m ρ) c).arrAt_in 3 rfl _).trans (A_eq0 (V1 m ρ) c 3))).trans (w1_v2 m ρ c)
theorem w2_v22 : (W2 m ρ c (Proc.devRef .tc main_v22) : IVec S800000 32) = sCombo m c :=
  (W2_of_ne m ρ c main_v22 (by decide)).trans (w1_v22 m ρ c)
theorem w2_v24 : (W2 m ρ c (Proc.devRef .tc main_v24) : S1x64.Idx → EReal) = kRow64 (A8 m c) :=
  (W2_of_ne m ρ c main_v24 (by decide)).trans (w1_v24 m ρ c)
theorem w2_v25 : (W2 m ρ c (Proc.devRef .tc main_v25) : S1x64.Idx → EReal) = kRow64 (A9 m c) :=
  (W2_of_ne m ρ c main_v25 (by decide)).trans (w1_v25 m ρ c)
theorem w2_v26_0 : (W2 m ρ c (Proc.devRef .tc main_v26_0) : S50000x64.Idx → EReal) = sH1 m c := by
  refine (W2_arr m ρ c 4).trans ?_
  refine (final0_4 (V1 m ρ) c).trans ?_
  dsimp only [V1]
  rw [w1_arg0 m ρ c, w1_arg6 m ρ c, w1_v23 m ρ c]
  all_goals rfl
theorem w2_v26_1 : (W2 m ρ c (Proc.devRef .tc main_v26_1) : S50000x1024.Idx → EReal) = sT1 m c := by
  refine (W2_arr m ρ c 5).trans ?_
  refine (final0_5 (V1 m ρ) c).trans ?_
  dsimp only [V1]
  rw [w1_arg0 m ρ c, w1_arg6 m ρ c, w1_v23 m ρ c, w1_v2 m ρ c]
  all_goals rfl

/-! ### After the host stretch before region 1 -/
theorem w3_arg2 : (W3 m ρ c (Proc.devRef .tc main_arg2) : IVec S800000 32) = A2 m c :=
  (StableHlo.after_of_writes_sub hostOps1 _ hostOps1_writes (by decide)).trans (w2_arg2 m ρ c)
theorem w3_arg3 : (W3 m ρ c (Proc.devRef .tc main_arg3) : IVec S800000 32) = A3 m c :=
  (StableHlo.after_of_writes_sub hostOps1 _ hostOps1_writes (by decide)).trans (w2_arg3 m ρ c)
theorem w3_arg10 : (W3 m ρ c (Proc.devRef .tc main_arg10) : S64x64.Idx → EReal) = A10 m c :=
  (StableHlo.after_of_writes_sub hostOps1 _ hostOps1_writes (by decide)).trans (w2_arg10 m ρ c)
theorem w3_arg11 : (W3 m ρ c (Proc.devRef .tc main_arg11) : S64.Idx → EReal) = A11 m c :=
  (StableHlo.after_of_writes_sub hostOps1 _ hostOps1_writes (by decide)).trans (w2_arg11 m ρ c)
theorem w3_arg12 : (W3 m ρ c (Proc.devRef .tc main_arg12) : S64.Idx → EReal) = A12 m c :=
  (StableHlo.after_of_writes_sub hostOps1 _ hostOps1_writes (by decide)).trans (w2_arg12 m ρ c)
theorem w3_arg13 : (W3 m ρ c (Proc.devRef .tc main_arg13) : S64.Idx → EReal) = A13 m c :=
  (StableHlo.after_of_writes_sub hostOps1 _ hostOps1_writes (by decide)).trans (w2_arg13 m ρ c)
theorem w3_arg14 : (W3 m ρ c (Proc.devRef .tc main_arg14) : S64x64.Idx → EReal) = A14 m c :=
  (StableHlo.after_of_writes_sub hostOps1 _ hostOps1_writes (by decide)).trans (w2_arg14 m ρ c)
theorem w3_arg15 : (W3 m ρ c (Proc.devRef .tc main_arg15) : S64.Idx → EReal) = A15 m c :=
  (StableHlo.after_of_writes_sub hostOps1 _ hostOps1_writes (by decide)).trans (w2_arg15 m ρ c)
theorem w3_arg16 : (W3 m ρ c (Proc.devRef .tc main_arg16) : S64.Idx → EReal) = A16 m c :=
  (StableHlo.after_of_writes_sub hostOps1 _ hostOps1_writes (by decide)).trans (w2_arg16 m ρ c)
theorem w3_arg17 : (W3 m ρ c (Proc.devRef .tc main_arg17) : S64.Idx → EReal) = A17 m c :=
  (StableHlo.after_of_writes_sub hostOps1 _ hostOps1_writes (by decide)).trans (w2_arg17 m ρ c)
theorem w3_arg18 : (W3 m ρ c (Proc.devRef .tc main_arg18) : S64x2.Idx → EReal) = A18 m c :=
  (StableHlo.after_of_writes_sub hostOps1 _ hostOps1_writes (by decide)).trans (w2_arg18 m ρ c)
theorem w3_arg19 : (W3 m ρ c (Proc.devRef .tc main_arg19) : S2.Idx → EReal) = A19 m c :=
  (StableHlo.after_of_writes_sub hostOps1 _ hostOps1_writes (by decide)).trans (w2_arg19 m ρ c)
theorem w3_v2 : (W3 m ρ c (Proc.devRef .tc main_v2) : S64x1024.Idx → EReal) = sMt m c :=
  (StableHlo.after_of_writes_sub hostOps1 _ hostOps1_writes (by decide)).trans (w2_v2 m ρ c)
theorem w3_v22 : (W3 m ρ c (Proc.devRef .tc main_v22) : IVec S800000 32) = sCombo m c :=
  (StableHlo.after_of_writes_sub hostOps1 _ hostOps1_writes (by decide)).trans (w2_v22 m ρ c)
theorem w3_v24 : (W3 m ρ c (Proc.devRef .tc main_v24) : S1x64.Idx → EReal) = kRow64 (A8 m c) :=
  (StableHlo.after_of_writes_sub hostOps1 _ hostOps1_writes (by decide)).trans (w2_v24 m ρ c)
theorem w3_v25 : (W3 m ρ c (Proc.devRef .tc main_v25) : S1x64.Idx → EReal) = kRow64 (A9 m c) :=
  (StableHlo.after_of_writes_sub hostOps1 _ hostOps1_writes (by decide)).trans (w2_v25 m ρ c)
theorem w3_v26_0 : (W3 m ρ c (Proc.devRef .tc main_v26_0) : S50000x64.Idx → EReal) = sH1 m c :=
  (StableHlo.after_of_writes_sub hostOps1 _ hostOps1_writes (by decide)).trans (w2_v26_0 m ρ c)
theorem w3_v44 : (W3 m ρ c (Proc.devRef .tc main_v44) : S50000x64.Idx → EReal) = sG1 m c := by
  refine (h1_v44 (W2 m ρ c)).trans ?_
  rw [w2_v26_1 m ρ c, w2_arg2 m ρ c, w2_arg3 m ρ c, w2_v22 m ρ c]
  all_goals rfl

/-! ### After region 1 -/
theorem w4_arg2 : (W4 m ρ c (Proc.devRef .tc main_arg2) : IVec S800000 32) = A2 m c :=
  (W4_of_ne m ρ c main_arg2 (by decide)).trans (w3_arg2 m ρ c)
theorem w4_arg3 : (W4 m ρ c (Proc.devRef .tc main_arg3) : IVec S800000 32) = A3 m c :=
  (W4_of_ne m ρ c main_arg3 (by decide)).trans (w3_arg3 m ρ c)
theorem w4_arg10 : (W4 m ρ c (Proc.devRef .tc main_arg10) : S64x64.Idx → EReal) = A10 m c :=
  (W4_of_ne m ρ c main_arg10 (by decide)).trans (w3_arg10 m ρ c)
theorem w4_arg11 : (W4 m ρ c (Proc.devRef .tc main_arg11) : S64.Idx → EReal) = A11 m c :=
  (W4_of_ne m ρ c main_arg11 (by decide)).trans (w3_arg11 m ρ c)
theorem w4_arg12 : (W4 m ρ c (Proc.devRef .tc main_arg12) : S64.Idx → EReal) = A12 m c :=
  (W4_of_ne m ρ c main_arg12 (by decide)).trans (w3_arg12 m ρ c)
theorem w4_arg13 : (W4 m ρ c (Proc.devRef .tc main_arg13) : S64.Idx → EReal) = A13 m c :=
  (W4_of_ne m ρ c main_arg13 (by decide)).trans (w3_arg13 m ρ c)
theorem w4_arg14 : (W4 m ρ c (Proc.devRef .tc main_arg14) : S64x64.Idx → EReal) = A14 m c :=
  (W4_of_ne m ρ c main_arg14 (by decide)).trans (w3_arg14 m ρ c)
theorem w4_arg15 : (W4 m ρ c (Proc.devRef .tc main_arg15) : S64.Idx → EReal) = A15 m c :=
  (W4_of_ne m ρ c main_arg15 (by decide)).trans (w3_arg15 m ρ c)
theorem w4_arg16 : (W4 m ρ c (Proc.devRef .tc main_arg16) : S64.Idx → EReal) = A16 m c :=
  (W4_of_ne m ρ c main_arg16 (by decide)).trans (w3_arg16 m ρ c)
theorem w4_arg17 : (W4 m ρ c (Proc.devRef .tc main_arg17) : S64.Idx → EReal) = A17 m c :=
  (W4_of_ne m ρ c main_arg17 (by decide)).trans (w3_arg17 m ρ c)
theorem w4_arg18 : (W4 m ρ c (Proc.devRef .tc main_arg18) : S64x2.Idx → EReal) = A18 m c :=
  (W4_of_ne m ρ c main_arg18 (by decide)).trans (w3_arg18 m ρ c)
theorem w4_arg19 : (W4 m ρ c (Proc.devRef .tc main_arg19) : S2.Idx → EReal) = A19 m c :=
  (W4_of_ne m ρ c main_arg19 (by decide)).trans (w3_arg19 m ρ c)
theorem w4_v2 : (W4 m ρ c (Proc.devRef .tc main_v2) : S64x1024.Idx → EReal) = sMt m c :=
  (W4_of_ne m ρ c main_v2 (by decide)).trans (w3_v2 m ρ c)
theorem w4_v22 : (W4 m ρ c (Proc.devRef .tc main_v22) : IVec S800000 32) = sCombo m c :=
  (W4_of_ne m ρ c main_v22 (by decide)).trans (w3_v22 m ρ c)
theorem w4_v24 : (W4 m ρ c (Proc.devRef .tc main_v24) : S1x64.Idx → EReal) = kRow64 (A8 m c) :=
  (W4_of_ne m ρ c main_v24 (by decide)).trans (w3_v24 m ρ c)
theorem w4_v25 : (W4 m ρ c (Proc.devRef .tc main_v25) : S1x64.Idx → EReal) = kRow64 (A9 m c) :=
  (W4_of_ne m ρ c main_v25 (by decide)).trans (w3_v25 m ρ c)
theorem w4_v45_0 : (W4 m ρ c (Proc.devRef .tc main_v45_0) : S50000x64.Idx → EReal) = sO1 m c := by
  refine (W4_arr m ρ c 2).trans ?_
  refine (final1_2 (V3 m ρ) c).trans ?_
  dsimp only [V3]
  rw [w3_v26_0 m ρ c, w3_v44 m ρ c]
  all_goals rfl
theorem w4_v45_1 : (W4 m ρ c (Proc.devRef .tc main_v45_1) : S1x64.Idx → EReal) = sS1 m c := by
  refine (W4_arr m ρ c 3).trans ?_
  refine (final1_3 (V3 m ρ) c).trans ?_
  dsimp only [V3]
  rw [w3_v26_0 m ρ c, w3_v44 m ρ c]
  all_goals rfl
theorem w4_v45_2 : (W4 m ρ c (Proc.devRef .tc main_v45_2) : S1x64.Idx → EReal) = sQ1 m c := by
  refine (W4_arr m ρ c 4).trans ?_
  refine (final1_4 (V3 m ρ) c).trans ?_
  dsimp only [V3]
  rw [w3_v26_0 m ρ c, w3_v44 m ρ c]
  all_goals rfl

/-! ### After the host stretch before region 2 -/
theorem w5_arg2 : (W5 m ρ c (Proc.devRef .tc main_arg2) : IVec S800000 32) = A2 m c :=
  (StableHlo.after_of_writes_sub hostOps2 _ hostOps2_writes (by decide)).trans (w4_arg2 m ρ c)
theorem w5_arg3 : (W5 m ρ c (Proc.devRef .tc main_arg3) : IVec S800000 32) = A3 m c :=
  (StableHlo.after_of_writes_sub hostOps2 _ hostOps2_writes (by decide)).trans (w4_arg3 m ρ c)
theorem w5_arg10 : (W5 m ρ c (Proc.devRef .tc main_arg10) : S64x64.Idx → EReal) = A10 m c :=
  (StableHlo.after_of_writes_sub hostOps2 _ hostOps2_writes (by decide)).trans (w4_arg10 m ρ c)
theorem w5_arg11 : (W5 m ρ c (Proc.devRef .tc main_arg11) : S64.Idx → EReal) = A11 m c :=
  (StableHlo.after_of_writes_sub hostOps2 _ hostOps2_writes (by decide)).trans (w4_arg11 m ρ c)
theorem w5_arg12 : (W5 m ρ c (Proc.devRef .tc main_arg12) : S64.Idx → EReal) = A12 m c :=
  (StableHlo.after_of_writes_sub hostOps2 _ hostOps2_writes (by decide)).trans (w4_arg12 m ρ c)
theorem w5_arg13 : (W5 m ρ c (Proc.devRef .tc main_arg13) : S64.Idx → EReal) = A13 m c :=
  (StableHlo.after_of_writes_sub hostOps2 _ hostOps2_writes (by decide)).trans (w4_arg13 m ρ c)
theorem w5_arg14 : (W5 m ρ c (Proc.devRef .tc main_arg14) : S64x64.Idx → EReal) = A14 m c :=
  (StableHlo.after_of_writes_sub hostOps2 _ hostOps2_writes (by decide)).trans (w4_arg14 m ρ c)
theorem w5_arg15 : (W5 m ρ c (Proc.devRef .tc main_arg15) : S64.Idx → EReal) = A15 m c :=
  (StableHlo.after_of_writes_sub hostOps2 _ hostOps2_writes (by decide)).trans (w4_arg15 m ρ c)
theorem w5_arg16 : (W5 m ρ c (Proc.devRef .tc main_arg16) : S64.Idx → EReal) = A16 m c :=
  (StableHlo.after_of_writes_sub hostOps2 _ hostOps2_writes (by decide)).trans (w4_arg16 m ρ c)
theorem w5_arg17 : (W5 m ρ c (Proc.devRef .tc main_arg17) : S64.Idx → EReal) = A17 m c :=
  (StableHlo.after_of_writes_sub hostOps2 _ hostOps2_writes (by decide)).trans (w4_arg17 m ρ c)
theorem w5_arg18 : (W5 m ρ c (Proc.devRef .tc main_arg18) : S64x2.Idx → EReal) = A18 m c :=
  (StableHlo.after_of_writes_sub hostOps2 _ hostOps2_writes (by decide)).trans (w4_arg18 m ρ c)
theorem w5_arg19 : (W5 m ρ c (Proc.devRef .tc main_arg19) : S2.Idx → EReal) = A19 m c :=
  (StableHlo.after_of_writes_sub hostOps2 _ hostOps2_writes (by decide)).trans (w4_arg19 m ρ c)
theorem w5_v2 : (W5 m ρ c (Proc.devRef .tc main_v2) : S64x1024.Idx → EReal) = sMt m c :=
  (StableHlo.after_of_writes_sub hostOps2 _ hostOps2_writes (by decide)).trans (w4_v2 m ρ c)
theorem w5_v22 : (W5 m ρ c (Proc.devRef .tc main_v22) : IVec S800000 32) = sCombo m c :=
  (StableHlo.after_of_writes_sub hostOps2 _ hostOps2_writes (by decide)).trans (w4_v22 m ρ c)
theorem w5_v24 : (W5 m ρ c (Proc.devRef .tc main_v24) : S1x64.Idx → EReal) = kRow64 (A8 m c) :=
  (StableHlo.after_of_writes_sub hostOps2 _ hostOps2_writes (by decide)).trans (w4_v24 m ρ c)
theorem w5_v25 : (W5 m ρ c (Proc.devRef .tc main_v25) : S1x64.Idx → EReal) = kRow64 (A9 m c) :=
  (StableHlo.after_of_writes_sub hostOps2 _ hostOps2_writes (by decide)).trans (w4_v25 m ρ c)
theorem w5_v45_0 : (W5 m ρ c (Proc.devRef .tc main_v45_0) : S50000x64.Idx → EReal) = sO1 m c :=
  (StableHlo.after_of_writes_sub hostOps2 _ hostOps2_writes (by decide)).trans (w4_v45_0 m ρ c)
theorem w5_v47 : (W5 m ρ c (Proc.devRef .tc main_v47) : S1x64.Idx → EReal) = sMu1 m c := by
  refine (h2_v47 (W4 m ρ c)).trans ?_
  rw [w4_v45_1 m ρ c]
  all_goals rfl
theorem w5_v53 : (W5 m ρ c (Proc.devRef .tc main_v53) : S1x64.Idx → EReal) = sVa1 m c := by
  refine (h2_v53 (W4 m ρ c)).trans ?_
  rw [w4_v45_1 m ρ c, w4_v45_2 m ρ c]
  all_goals rfl

/-! ### After region 2 -/
theorem w6_arg2 : (W6 m ρ c (Proc.devRef .tc main_arg2) : IVec S800000 32) = A2 m c :=
  (W6_of_ne m ρ c main_arg2 (by decide)).trans (w5_arg2 m ρ c)
theorem w6_arg3 : (W6 m ρ c (Proc.devRef .tc main_arg3) : IVec S800000 32) = A3 m c :=
  (W6_of_ne m ρ c main_arg3 (by decide)).trans (w5_arg3 m ρ c)
theorem w6_arg10 : (W6 m ρ c (Proc.devRef .tc main_arg10) : S64x64.Idx → EReal) = A10 m c :=
  (W6_of_ne m ρ c main_arg10 (by decide)).trans (w5_arg10 m ρ c)
theorem w6_arg11 : (W6 m ρ c (Proc.devRef .tc main_arg11) : S64.Idx → EReal) = A11 m c :=
  (W6_of_ne m ρ c main_arg11 (by decide)).trans (w5_arg11 m ρ c)
theorem w6_arg12 : (W6 m ρ c (Proc.devRef .tc main_arg12) : S64.Idx → EReal) = A12 m c :=
  (W6_of_ne m ρ c main_arg12 (by decide)).trans (w5_arg12 m ρ c)
theorem w6_arg13 : (W6 m ρ c (Proc.devRef .tc main_arg13) : S64.Idx → EReal) = A13 m c :=
  (W6_of_ne m ρ c main_arg13 (by decide)).trans (w5_arg13 m ρ c)
theorem w6_arg14 : (W6 m ρ c (Proc.devRef .tc main_arg14) : S64x64.Idx → EReal) = A14 m c :=
  (W6_of_ne m ρ c main_arg14 (by decide)).trans (w5_arg14 m ρ c)
theorem w6_arg15 : (W6 m ρ c (Proc.devRef .tc main_arg15) : S64.Idx → EReal) = A15 m c :=
  (W6_of_ne m ρ c main_arg15 (by decide)).trans (w5_arg15 m ρ c)
theorem w6_arg16 : (W6 m ρ c (Proc.devRef .tc main_arg16) : S64.Idx → EReal) = A16 m c :=
  (W6_of_ne m ρ c main_arg16 (by decide)).trans (w5_arg16 m ρ c)
theorem w6_arg17 : (W6 m ρ c (Proc.devRef .tc main_arg17) : S64.Idx → EReal) = A17 m c :=
  (W6_of_ne m ρ c main_arg17 (by decide)).trans (w5_arg17 m ρ c)
theorem w6_arg18 : (W6 m ρ c (Proc.devRef .tc main_arg18) : S64x2.Idx → EReal) = A18 m c :=
  (W6_of_ne m ρ c main_arg18 (by decide)).trans (w5_arg18 m ρ c)
theorem w6_arg19 : (W6 m ρ c (Proc.devRef .tc main_arg19) : S2.Idx → EReal) = A19 m c :=
  (W6_of_ne m ρ c main_arg19 (by decide)).trans (w5_arg19 m ρ c)
theorem w6_v2 : (W6 m ρ c (Proc.devRef .tc main_v2) : S64x1024.Idx → EReal) = sMt m c :=
  (W6_of_ne m ρ c main_v2 (by decide)).trans (w5_v2 m ρ c)
theorem w6_v22 : (W6 m ρ c (Proc.devRef .tc main_v22) : IVec S800000 32) = sCombo m c :=
  (W6_of_ne m ρ c main_v22 (by decide)).trans (w5_v22 m ρ c)
theorem w6_v54 : (W6 m ρ c (Proc.devRef .tc main_v54) : S50000x64.Idx → EReal) = sY1 m c := by
  refine (W6_arr m ρ c 5).trans ?_
  refine (final2_5 (V5 m ρ) c).trans ?_
  dsimp only [V5]
  rw [w5_v45_0 m ρ c, w5_v47 m ρ c, w5_v53 m ρ c, w5_v24 m ρ c, w5_v25 m ρ c]
  all_goals rfl

/-! ### After the host stretch before region 3 -/
theorem w7_arg2 : (W7 m ρ c (Proc.devRef .tc main_arg2) : IVec S800000 32) = A2 m c :=
  (StableHlo.after_of_writes_sub hostOps3 _ hostOps3_writes (by decide)).trans (w6_arg2 m ρ c)
theorem w7_arg3 : (W7 m ρ c (Proc.devRef .tc main_arg3) : IVec S800000 32) = A3 m c :=
  (StableHlo.after_of_writes_sub hostOps3 _ hostOps3_writes (by decide)).trans (w6_arg3 m ρ c)
theorem w7_arg10 : (W7 m ρ c (Proc.devRef .tc main_arg10) : S64x64.Idx → EReal) = A10 m c :=
  (StableHlo.after_of_writes_sub hostOps3 _ hostOps3_writes (by decide)).trans (w6_arg10 m ρ c)
theorem w7_arg14 : (W7 m ρ c (Proc.devRef .tc main_arg14) : S64x64.Idx → EReal) = A14 m c :=
  (StableHlo.after_of_writes_sub hostOps3 _ hostOps3_writes (by decide)).trans (w6_arg14 m ρ c)
theorem w7_arg15 : (W7 m ρ c (Proc.devRef .tc main_arg15) : S64.Idx → EReal) = A15 m c :=
  (StableHlo.after_of_writes_sub hostOps3 _ hostOps3_writes (by decide)).trans (w6_arg15 m ρ c)
theorem w7_arg16 : (W7 m ρ c (Proc.devRef .tc main_arg16) : S64.Idx → EReal) = A16 m c :=
  (StableHlo.after_of_writes_sub hostOps3 _ hostOps3_writes (by decide)).trans (w6_arg16 m ρ c)
theorem w7_arg17 : (W7 m ρ c (Proc.devRef .tc main_arg17) : S64.Idx → EReal) = A17 m c :=
  (StableHlo.after_of_writes_sub hostOps3 _ hostOps3_writes (by decide)).trans (w6_arg17 m ρ c)
theorem w7_arg18 : (W7 m ρ c (Proc.devRef .tc main_arg18) : S64x2.Idx → EReal) = A18 m c :=
  (StableHlo.after_of_writes_sub hostOps3 _ hostOps3_writes (by decide)).trans (w6_arg18 m ρ c)
theorem w7_arg19 : (W7 m ρ c (Proc.devRef .tc main_arg19) : S2.Idx → EReal) = A19 m c :=
  (StableHlo.after_of_writes_sub hostOps3 _ hostOps3_writes (by decide)).trans (w6_arg19 m ρ c)
theorem w7_v2 : (W7 m ρ c (Proc.devRef .tc main_v2) : S64x1024.Idx → EReal) = sMt m c :=
  (StableHlo.after_of_writes_sub hostOps3 _ hostOps3_writes (by decide)).trans (w6_v2 m ρ c)
theorem w7_v22 : (W7 m ρ c (Proc.devRef .tc main_v22) : IVec S800000 32) = sCombo m c :=
  (StableHlo.after_of_writes_sub hostOps3 _ hostOps3_writes (by decide)).trans (w6_v22 m ρ c)
theorem w7_v54 : (W7 m ρ c (Proc.devRef .tc main_v54) : S50000x64.Idx → EReal) = sY1 m c :=
  (StableHlo.after_of_writes_sub hostOps3 _ hostOps3_writes (by decide)).trans (w6_v54 m ρ c)
theorem w7_v55 : (W7 m ρ c (Proc.devRef .tc main_v55) : S1x64.Idx → EReal) = kRow64 (A11 m c) := by
  refine (h3_v55 (W6 m ρ c)).trans ?_
  rw [w6_arg11 m ρ c]
  all_goals rfl
theorem w7_v56 : (W7 m ρ c (Proc.devRef .tc main_v56) : S1x64.Idx → EReal) = kRow64 (A12 m c) := by
  refine (h3_v56 (W6 m ρ c)).trans ?_
  rw [w6_arg12 m ρ c]
  all_goals rfl
theorem w7_v57 : (W7 m ρ c (Proc.devRef .tc main_v57) : S1x64.Idx → EReal) = kRow64 (A13 m c) := by
  refine (h3_v57 (W6 m ρ c)).trans ?_
  rw [w6_arg13 m ρ c]
  all_goals rfl

/-! ### After region 3 -/
theorem w8_arg2 : (W8 m ρ c (Proc.devRef .tc main_arg2) : IVec S800000 32) = A2 m c :=
  (W8_of_ne m ρ c main_arg2 (by decide)).trans (w7_arg2 m ρ c)
theorem w8_arg3 : (W8 m ρ c (Proc.devRef .tc main_arg3) : IVec S800000 32) = A3 m c :=
  (W8_of_ne m ρ c main_arg3 (by decide)).trans (w7_arg3 m ρ c)
theorem w8_arg14 : (W8 m ρ c (Proc.devRef .tc main_arg14) : S64x64.Idx → EReal) = A14 m c :=
  (W8_of_ne m ρ c main_arg14 (by decide)).trans (w7_arg14 m ρ c)
theorem w8_arg15 : (W8 m ρ c (Proc.devRef .tc main_arg15) : S64.Idx → EReal) = A15 m c :=
  (W8_of_ne m ρ c main_arg15 (by decide)).trans (w7_arg15 m ρ c)
theorem w8_arg16 : (W8 m ρ c (Proc.devRef .tc main_arg16) : S64.Idx → EReal) = A16 m c :=
  (W8_of_ne m ρ c main_arg16 (by decide)).trans (w7_arg16 m ρ c)
theorem w8_arg17 : (W8 m ρ c (Proc.devRef .tc main_arg17) : S64.Idx → EReal) = A17 m c :=
  (W8_of_ne m ρ c main_arg17 (by decide)).trans (w7_arg17 m ρ c)
theorem w8_arg18 : (W8 m ρ c (Proc.devRef .tc main_arg18) : S64x2.Idx → EReal) = A18 m c :=
  (W8_of_ne m ρ c main_arg18 (by decide)).trans (w7_arg18 m ρ c)
theorem w8_arg19 : (W8 m ρ c (Proc.devRef .tc main_arg19) : S2.Idx → EReal) = A19 m c :=
  (W8_of_ne m ρ c main_arg19 (by decide)).trans (w7_arg19 m ρ c)
theorem w8_v2 : (W8 m ρ c (Proc.devRef .tc main_v2) : S64x1024.Idx → EReal) = sMt m c :=
  ((W8_arr m ρ c 3).trans (((dat3 (V7 m ρ) c).arrAt_in 3 rfl _).trans (A_eq3 (V7 m ρ) c 3))).trans (w7_v2 m ρ c)
theorem w8_v22 : (W8 m ρ c (Proc.devRef .tc main_v22) : IVec S800000 32) = sCombo m c :=
  (W8_of_ne m ρ c main_v22 (by decide)).trans (w7_v22 m ρ c)
theorem w8_v56 : (W8 m ρ c (Proc.devRef .tc main_v56) : S1x64.Idx → EReal) = kRow64 (A12 m c) :=
  (W8_of_ne m ρ c main_v56 (by decide)).trans (w7_v56 m ρ c)
theorem w8_v57 : (W8 m ρ c (Proc.devRef .tc main_v57) : S1x64.Idx → EReal) = kRow64 (A13 m c) :=
  (W8_of_ne m ρ c main_v57 (by decide)).trans (w7_v57 m ρ c)
theorem w8_v58_0 : (W8 m ρ c (Proc.devRef .tc main_v58_0) : S50000x64.Idx → EReal) = sH2 m c := by
  refine (W8_arr m ρ c 4).trans ?_
  refine (final3_4 (V7 m ρ) c).trans ?_
  dsimp only [V7]
  rw [w7_v54 m ρ c, w7_arg10 m ρ c, w7_v55 m ρ c]
  all_goals rfl
theorem w8_v58_1 : (W8 m ρ c (Proc.devRef .tc main_v58_1) : S50000x1024.Idx → EReal) = sT2 m c := by
  refine (W8_arr m ρ c 5).trans ?_
  refine (final3_5 (V7 m ρ) c).trans ?_
  dsimp only [V7]
  rw [w7_v54 m ρ c, w7_arg10 m ρ c, w7_v55 m ρ c, w7_v2 m ρ c]
  all_goals rfl

/-! ### After the host stretch before region 4 -/
theorem w9_arg2 : (W9 m ρ c (Proc.devRef .tc main_arg2) : IVec S800000 32) = A2 m c :=
  (StableHlo.after_of_writes_sub hostOps4 _ hostOps4_writes (by decide)).trans (w8_arg2 m ρ c)
theorem w9_arg3 : (W9 m ρ c (Proc.devRef .tc main_arg3) : IVec S800000 32) = A3 m c :=
  (StableHlo.after_of_writes_sub hostOps4 _ hostOps4_writes (by decide)).trans (w8_arg3 m ρ c)
theorem w9_arg14 : (W9 m ρ c (Proc.devRef .tc main_arg14) : S64x64.Idx → EReal) = A14 m c :=
  (StableHlo.after_of_writes_sub hostOps4 _ hostOps4_writes (by decide)).trans (w8_arg14 m ρ c)
theorem w9_arg15 : (W9 m ρ c (Proc.devRef .tc main_arg15) : S64.Idx → EReal) = A15 m c :=
  (StableHlo.after_of_writes_sub hostOps4 _ hostOps4_writes (by decide)).trans (w8_arg15 m ρ c)
theorem w9_arg16 : (W9 m ρ c (Proc.devRef .tc main_arg16) : S64.Idx → EReal) = A16 m c :=
  (StableHlo.after_of_writes_sub hostOps4 _ hostOps4_writes (by decide)).trans (w8_arg16 m ρ c)
theorem w9_arg17 : (W9 m ρ c (Proc.devRef .tc main_arg17) : S64.Idx → EReal) = A17 m c :=
  (StableHlo.after_of_writes_sub hostOps4 _ hostOps4_writes (by decide)).trans (w8_arg17 m ρ c)
theorem w9_arg18 : (W9 m ρ c (Proc.devRef .tc main_arg18) : S64x2.Idx → EReal) = A18 m c :=
  (StableHlo.after_of_writes_sub hostOps4 _ hostOps4_writes (by decide)).trans (w8_arg18 m ρ c)
theorem w9_arg19 : (W9 m ρ c (Proc.devRef .tc main_arg19) : S2.Idx → EReal) = A19 m c :=
  (StableHlo.after_of_writes_sub hostOps4 _ hostOps4_writes (by decide)).trans (w8_arg19 m ρ c)
theorem w9_v2 : (W9 m ρ c (Proc.devRef .tc main_v2) : S64x1024.Idx → EReal) = sMt m c :=
  (StableHlo.after_of_writes_sub hostOps4 _ hostOps4_writes (by decide)).trans (w8_v2 m ρ c)
theorem w9_v22 : (W9 m ρ c (Proc.devRef .tc main_v22) : IVec S800000 32) = sCombo m c :=
  (StableHlo.after_of_writes_sub hostOps4 _ hostOps4_writes (by decide)).trans (w8_v22 m ρ c)
theorem w9_v56 : (W9 m ρ c (Proc.devRef .tc main_v56) : S1x64.Idx → EReal) = kRow64 (A12 m c) :=
  (StableHlo.after_of_writes_sub hostOps4 _ hostOps4_writes (by decide)).trans (w8_v56 m ρ c)
theorem w9_v57 : (W9 m ρ c (Proc.devRef .tc main_v57) : S1x64.Idx → EReal) = kRow64 (A13 m c) :=
  (StableHlo.after_of_writes_sub hostOps4 _ hostOps4_writes (by decide)).trans (w8_v57 m ρ c)
theorem w9_v58_0 : (W9 m ρ c (Proc.devRef .tc main_v58_0) : S50000x64.Idx → EReal) = sH2 m c :=
  (StableHlo.after_of_writes_sub hostOps4 _ hostOps4_writes (by decide)).trans (w8_v58_0 m ρ c)
theorem w9_v76 : (W9 m ρ c (Proc.devRef .tc main_v76) : S50000x64.Idx → EReal) = sG2 m c := by
  refine (h4_v76 (W8 m ρ c)).trans ?_
  rw [w8_v58_1 m ρ c, w8_arg2 m ρ c, w8_arg3 m ρ c, w8_v22 m ρ c]
  all_goals rfl

/-! ### After region 4 -/
theorem w10_arg2 : (W10 m ρ c (Proc.devRef .tc main_arg2) : IVec S800000 32) = A2 m c :=
  (W10_of_ne m ρ c main_arg2 (by decide)).trans (w9_arg2 m ρ c)
theorem w10_arg3 : (W10 m ρ c (Proc.devRef .tc main_arg3) : IVec S800000 32) = A3 m c :=
  (W10_of_ne m ρ c main_arg3 (by decide)).trans (w9_arg3 m ρ c)
theorem w10_arg14 : (W10 m ρ c (Proc.devRef .tc main_arg14) : S64x64.Idx → EReal) = A14 m c :=
  (W10_of_ne m ρ c main_arg14 (by decide)).trans (w9_arg14 m ρ c)
theorem w10_arg15 : (W10 m ρ c (Proc.devRef .tc main_arg15) : S64.Idx → EReal) = A15 m c :=
  (W10_of_ne m ρ c main_arg15 (by decide)).trans (w9_arg15 m ρ c)
theorem w10_arg16 : (W10 m ρ c (Proc.devRef .tc main_arg16) : S64.Idx → EReal) = A16 m c :=
  (W10_of_ne m ρ c main_arg16 (by decide)).trans (w9_arg16 m ρ c)
theorem w10_arg17 : (W10 m ρ c (Proc.devRef .tc main_arg17) : S64.Idx → EReal) = A17 m c :=
  (W10_of_ne m ρ c main_arg17 (by decide)).trans (w9_arg17 m ρ c)
theorem w10_arg18 : (W10 m ρ c (Proc.devRef .tc main_arg18) : S64x2.Idx → EReal) = A18 m c :=
  (W10_of_ne m ρ c main_arg18 (by decide)).trans (w9_arg18 m ρ c)
theorem w10_arg19 : (W10 m ρ c (Proc.devRef .tc main_arg19) : S2.Idx → EReal) = A19 m c :=
  (W10_of_ne m ρ c main_arg19 (by decide)).trans (w9_arg19 m ρ c)
theorem w10_v2 : (W10 m ρ c (Proc.devRef .tc main_v2) : S64x1024.Idx → EReal) = sMt m c :=
  (W10_of_ne m ρ c main_v2 (by decide)).trans (w9_v2 m ρ c)
theorem w10_v22 : (W10 m ρ c (Proc.devRef .tc main_v22) : IVec S800000 32) = sCombo m c :=
  (W10_of_ne m ρ c main_v22 (by decide)).trans (w9_v22 m ρ c)
theorem w10_v56 : (W10 m ρ c (Proc.devRef .tc main_v56) : S1x64.Idx → EReal) = kRow64 (A12 m c) :=
  (W10_of_ne m ρ c main_v56 (by decide)).trans (w9_v56 m ρ c)
theorem w10_v57 : (W10 m ρ c (Proc.devRef .tc main_v57) : S1x64.Idx → EReal) = kRow64 (A13 m c) :=
  (W10_of_ne m ρ c main_v57 (by decide)).trans (w9_v57 m ρ c)
theorem w10_v77_0 : (W10 m ρ c (Proc.devRef .tc main_v77_0) : S50000x64.Idx → EReal) = sO2 m c := by
  refine (W10_arr m ρ c 2).trans ?_
  refine (final4_2 (V9 m ρ) c).trans ?_
  dsimp only [V9]
  rw [w9_v58_0 m ρ c, w9_v76 m ρ c]
  all_goals rfl
theorem w10_v77_1 : (W10 m ρ c (Proc.devRef .tc main_v77_1) : S1x64.Idx → EReal) = sS2 m c := by
  refine (W10_arr m ρ c 3).trans ?_
  refine (final4_3 (V9 m ρ) c).trans ?_
  dsimp only [V9]
  rw [w9_v58_0 m ρ c, w9_v76 m ρ c]
  all_goals rfl
theorem w10_v77_2 : (W10 m ρ c (Proc.devRef .tc main_v77_2) : S1x64.Idx → EReal) = sQ2 m c := by
  refine (W10_arr m ρ c 4).trans ?_
  refine (final4_4 (V9 m ρ) c).trans ?_
  dsimp only [V9]
  rw [w9_v58_0 m ρ c, w9_v76 m ρ c]
  all_goals rfl

/-! ### After the host stretch before region 5 -/
theorem w11_arg2 : (W11 m ρ c (Proc.devRef .tc main_arg2) : IVec S800000 32) = A2 m c :=
  (StableHlo.after_of_writes_sub hostOps5 _ hostOps5_writes (by decide)).trans (w10_arg2 m ρ c)
theorem w11_arg3 : (W11 m ρ c (Proc.devRef .tc main_arg3) : IVec S800000 32) = A3 m c :=
  (StableHlo.after_of_writes_sub hostOps5 _ hostOps5_writes (by decide)).trans (w10_arg3 m ρ c)
theorem w11_arg14 : (W11 m ρ c (Proc.devRef .tc main_arg14) : S64x64.Idx → EReal) = A14 m c :=
  (StableHlo.after_of_writes_sub hostOps5 _ hostOps5_writes (by decide)).trans (w10_arg14 m ρ c)
theorem w11_arg15 : (W11 m ρ c (Proc.devRef .tc main_arg15) : S64.Idx → EReal) = A15 m c :=
  (StableHlo.after_of_writes_sub hostOps5 _ hostOps5_writes (by decide)).trans (w10_arg15 m ρ c)
theorem w11_arg16 : (W11 m ρ c (Proc.devRef .tc main_arg16) : S64.Idx → EReal) = A16 m c :=
  (StableHlo.after_of_writes_sub hostOps5 _ hostOps5_writes (by decide)).trans (w10_arg16 m ρ c)
theorem w11_arg17 : (W11 m ρ c (Proc.devRef .tc main_arg17) : S64.Idx → EReal) = A17 m c :=
  (StableHlo.after_of_writes_sub hostOps5 _ hostOps5_writes (by decide)).trans (w10_arg17 m ρ c)
theorem w11_arg18 : (W11 m ρ c (Proc.devRef .tc main_arg18) : S64x2.Idx → EReal) = A18 m c :=
  (StableHlo.after_of_writes_sub hostOps5 _ hostOps5_writes (by decide)).trans (w10_arg18 m ρ c)
theorem w11_arg19 : (W11 m ρ c (Proc.devRef .tc main_arg19) : S2.Idx → EReal) = A19 m c :=
  (StableHlo.after_of_writes_sub hostOps5 _ hostOps5_writes (by decide)).trans (w10_arg19 m ρ c)
theorem w11_v2 : (W11 m ρ c (Proc.devRef .tc main_v2) : S64x1024.Idx → EReal) = sMt m c :=
  (StableHlo.after_of_writes_sub hostOps5 _ hostOps5_writes (by decide)).trans (w10_v2 m ρ c)
theorem w11_v22 : (W11 m ρ c (Proc.devRef .tc main_v22) : IVec S800000 32) = sCombo m c :=
  (StableHlo.after_of_writes_sub hostOps5 _ hostOps5_writes (by decide)).trans (w10_v22 m ρ c)
theorem w11_v56 : (W11 m ρ c (Proc.devRef .tc main_v56) : S1x64.Idx → EReal) = kRow64 (A12 m c) :=
  (StableHlo.after_of_writes_sub hostOps5 _ hostOps5_writes (by decide)).trans (w10_v56 m ρ c)
theorem w11_v57 : (W11 m ρ c (Proc.devRef .tc main_v57) : S1x64.Idx → EReal) = kRow64 (A13 m c) :=
  (StableHlo.after_of_writes_sub hostOps5 _ hostOps5_writes (by decide)).trans (w10_v57 m ρ c)
theorem w11_v77_0 : (W11 m ρ c (Proc.devRef .tc main_v77_0) : S50000x64.Idx → EReal) = sO2 m c :=
  (StableHlo.after_of_writes_sub hostOps5 _ hostOps5_writes (by decide)).trans (w10_v77_0 m ρ c)
theorem w11_v79 : (W11 m ρ c (Proc.devRef .tc main_v79) : S1x64.Idx → EReal) = sMu2 m c := by
  refine (h5_v79 (W10 m ρ c)).trans ?_
  rw [w10_v77_1 m ρ c]
  all_goals rfl
theorem w11_v85 : (W11 m ρ c (Proc.devRef .tc main_v85) : S1x64.Idx → EReal) = sVa2 m c := by
  refine (h5_v85 (W10 m ρ c)).trans ?_
  rw [w10_v77_1 m ρ c, w10_v77_2 m ρ c]
  all_goals rfl

/-! ### After region 5 -/
theorem w12_arg2 : (W12 m ρ c (Proc.devRef .tc main_arg2) : IVec S800000 32) = A2 m c :=
  (W12_of_ne m ρ c main_arg2 (by decide)).trans (w11_arg2 m ρ c)
theorem w12_arg3 : (W12 m ρ c (Proc.devRef .tc main_arg3) : IVec S800000 32) = A3 m c :=
  (W12_of_ne m ρ c main_arg3 (by decide)).trans (w11_arg3 m ρ c)
theorem w12_arg14 : (W12 m ρ c (Proc.devRef .tc main_arg14) : S64x64.Idx → EReal) = A14 m c :=
  (W12_of_ne m ρ c main_arg14 (by decide)).trans (w11_arg14 m ρ c)
theorem w12_arg15 : (W12 m ρ c (Proc.devRef .tc main_arg15) : S64.Idx → EReal) = A15 m c :=
  (W12_of_ne m ρ c main_arg15 (by decide)).trans (w11_arg15 m ρ c)
theorem w12_arg16 : (W12 m ρ c (Proc.devRef .tc main_arg16) : S64.Idx → EReal) = A16 m c :=
  (W12_of_ne m ρ c main_arg16 (by decide)).trans (w11_arg16 m ρ c)
theorem w12_arg17 : (W12 m ρ c (Proc.devRef .tc main_arg17) : S64.Idx → EReal) = A17 m c :=
  (W12_of_ne m ρ c main_arg17 (by decide)).trans (w11_arg17 m ρ c)
theorem w12_arg18 : (W12 m ρ c (Proc.devRef .tc main_arg18) : S64x2.Idx → EReal) = A18 m c :=
  (W12_of_ne m ρ c main_arg18 (by decide)).trans (w11_arg18 m ρ c)
theorem w12_arg19 : (W12 m ρ c (Proc.devRef .tc main_arg19) : S2.Idx → EReal) = A19 m c :=
  (W12_of_ne m ρ c main_arg19 (by decide)).trans (w11_arg19 m ρ c)
theorem w12_v2 : (W12 m ρ c (Proc.devRef .tc main_v2) : S64x1024.Idx → EReal) = sMt m c :=
  (W12_of_ne m ρ c main_v2 (by decide)).trans (w11_v2 m ρ c)
theorem w12_v22 : (W12 m ρ c (Proc.devRef .tc main_v22) : IVec S800000 32) = sCombo m c :=
  (W12_of_ne m ρ c main_v22 (by decide)).trans (w11_v22 m ρ c)
theorem w12_v86 : (W12 m ρ c (Proc.devRef .tc main_v86) : S50000x64.Idx → EReal) = sY2 m c := by
  refine (W12_arr m ρ c 5).trans ?_
  refine (final5_5 (V11 m ρ) c).trans ?_
  dsimp only [V11]
  rw [w11_v77_0 m ρ c, w11_v79 m ρ c, w11_v85 m ρ c, w11_v56 m ρ c, w11_v57 m ρ c]
  all_goals rfl

/-! ### After the host stretch before region 6 -/
theorem w13_arg2 : (W13 m ρ c (Proc.devRef .tc main_arg2) : IVec S800000 32) = A2 m c :=
  (StableHlo.after_of_writes_sub hostOps6 _ hostOps6_writes (by decide)).trans (w12_arg2 m ρ c)
theorem w13_arg3 : (W13 m ρ c (Proc.devRef .tc main_arg3) : IVec S800000 32) = A3 m c :=
  (StableHlo.after_of_writes_sub hostOps6 _ hostOps6_writes (by decide)).trans (w12_arg3 m ρ c)
theorem w13_arg14 : (W13 m ρ c (Proc.devRef .tc main_arg14) : S64x64.Idx → EReal) = A14 m c :=
  (StableHlo.after_of_writes_sub hostOps6 _ hostOps6_writes (by decide)).trans (w12_arg14 m ρ c)
theorem w13_arg18 : (W13 m ρ c (Proc.devRef .tc main_arg18) : S64x2.Idx → EReal) = A18 m c :=
  (StableHlo.after_of_writes_sub hostOps6 _ hostOps6_writes (by decide)).trans (w12_arg18 m ρ c)
theorem w13_arg19 : (W13 m ρ c (Proc.devRef .tc main_arg19) : S2.Idx → EReal) = A19 m c :=
  (StableHlo.after_of_writes_sub hostOps6 _ hostOps6_writes (by decide)).trans (w12_arg19 m ρ c)
theorem w13_v2 : (W13 m ρ c (Proc.devRef .tc main_v2) : S64x1024.Idx → EReal) = sMt m c :=
  (StableHlo.after_of_writes_sub hostOps6 _ hostOps6_writes (by decide)).trans (w12_v2 m ρ c)
theorem w13_v22 : (W13 m ρ c (Proc.devRef .tc main_v22) : IVec S800000 32) = sCombo m c :=
  (StableHlo.after_of_writes_sub hostOps6 _ hostOps6_writes (by decide)).trans (w12_v22 m ρ c)
theorem w13_v86 : (W13 m ρ c (Proc.devRef .tc main_v86) : S50000x64.Idx → EReal) = sY2 m c :=
  (StableHlo.after_of_writes_sub hostOps6 _ hostOps6_writes (by decide)).trans (w12_v86 m ρ c)
theorem w13_v87 : (W13 m ρ c (Proc.devRef .tc main_v87) : S1x64.Idx → EReal) = kRow64 (A15 m c) := by
  refine (h6_v87 (W12 m ρ c)).trans ?_
  rw [w12_arg15 m ρ c]
  all_goals rfl
theorem w13_v88 : (W13 m ρ c (Proc.devRef .tc main_v88) : S1x64.Idx → EReal) = kRow64 (A16 m c) := by
  refine (h6_v88 (W12 m ρ c)).trans ?_
  rw [w12_arg16 m ρ c]
  all_goals rfl
theorem w13_v89 : (W13 m ρ c (Proc.devRef .tc main_v89) : S1x64.Idx → EReal) = kRow64 (A17 m c) := by
  refine (h6_v89 (W12 m ρ c)).trans ?_
  rw [w12_arg17 m ρ c]
  all_goals rfl

/-! ### After region 6 -/
theorem w14_arg2 : (W14 m ρ c (Proc.devRef .tc main_arg2) : IVec S800000 32) = A2 m c :=
  (W14_of_ne m ρ c main_arg2 (by decide)).trans (w13_arg2 m ρ c)
theorem w14_arg3 : (W14 m ρ c (Proc.devRef .tc main_arg3) : IVec S800000 32) = A3 m c :=
  (W14_of_ne m ρ c main_arg3 (by decide)).trans (w13_arg3 m ρ c)
theorem w14_arg18 : (W14 m ρ c (Proc.devRef .tc main_arg18) : S64x2.Idx → EReal) = A18 m c :=
  (W14_of_ne m ρ c main_arg18 (by decide)).trans (w13_arg18 m ρ c)
theorem w14_arg19 : (W14 m ρ c (Proc.devRef .tc main_arg19) : S2.Idx → EReal) = A19 m c :=
  (W14_of_ne m ρ c main_arg19 (by decide)).trans (w13_arg19 m ρ c)
theorem w14_v22 : (W14 m ρ c (Proc.devRef .tc main_v22) : IVec S800000 32) = sCombo m c :=
  (W14_of_ne m ρ c main_v22 (by decide)).trans (w13_v22 m ρ c)
theorem w14_v88 : (W14 m ρ c (Proc.devRef .tc main_v88) : S1x64.Idx → EReal) = kRow64 (A16 m c) :=
  (W14_of_ne m ρ c main_v88 (by decide)).trans (w13_v88 m ρ c)
theorem w14_v89 : (W14 m ρ c (Proc.devRef .tc main_v89) : S1x64.Idx → EReal) = kRow64 (A17 m c) :=
  (W14_of_ne m ρ c main_v89 (by decide)).trans (w13_v89 m ρ c)
theorem w14_v90_0 : (W14 m ρ c (Proc.devRef .tc main_v90_0) : S50000x64.Idx → EReal) = sH3 m c := by
  refine (W14_arr m ρ c 4).trans ?_
  refine (final6_4 (V13 m ρ) c).trans ?_
  dsimp only [V13]
  rw [w13_v86 m ρ c, w13_arg14 m ρ c, w13_v87 m ρ c]
  all_goals rfl
theorem w14_v90_1 : (W14 m ρ c (Proc.devRef .tc main_v90_1) : S50000x1024.Idx → EReal) = sT3 m c := by
  refine (W14_arr m ρ c 5).trans ?_
  refine (final6_5 (V13 m ρ) c).trans ?_
  dsimp only [V13]
  rw [w13_v86 m ρ c, w13_arg14 m ρ c, w13_v87 m ρ c, w13_v2 m ρ c]
  all_goals rfl

/-! ### After the host stretch before region 7 -/
theorem w15_arg18 : (W15 m ρ c (Proc.devRef .tc main_arg18) : S64x2.Idx → EReal) = A18 m c :=
  (StableHlo.after_of_writes_sub hostOps7 _ hostOps7_writes (by decide)).trans (w14_arg18 m ρ c)
theorem w15_arg19 : (W15 m ρ c (Proc.devRef .tc main_arg19) : S2.Idx → EReal) = A19 m c :=
  (StableHlo.after_of_writes_sub hostOps7 _ hostOps7_writes (by decide)).trans (w14_arg19 m ρ c)
theorem w15_v88 : (W15 m ρ c (Proc.devRef .tc main_v88) : S1x64.Idx → EReal) = kRow64 (A16 m c) :=
  (StableHlo.after_of_writes_sub hostOps7 _ hostOps7_writes (by decide)).trans (w14_v88 m ρ c)
theorem w15_v89 : (W15 m ρ c (Proc.devRef .tc main_v89) : S1x64.Idx → EReal) = kRow64 (A17 m c) :=
  (StableHlo.after_of_writes_sub hostOps7 _ hostOps7_writes (by decide)).trans (w14_v89 m ρ c)
theorem w15_v90_0 : (W15 m ρ c (Proc.devRef .tc main_v90_0) : S50000x64.Idx → EReal) = sH3 m c :=
  (StableHlo.after_of_writes_sub hostOps7 _ hostOps7_writes (by decide)).trans (w14_v90_0 m ρ c)
theorem w15_v108 : (W15 m ρ c (Proc.devRef .tc main_v108) : S50000x64.Idx → EReal) = sG3 m c := by
  refine (h7_v108 (W14 m ρ c)).trans ?_
  rw [w14_v90_1 m ρ c, w14_arg2 m ρ c, w14_arg3 m ρ c, w14_v22 m ρ c]
  all_goals rfl

/-! ### After region 7 -/
theorem w16_arg18 : (W16 m ρ c (Proc.devRef .tc main_arg18) : S64x2.Idx → EReal) = A18 m c :=
  (W16_of_ne m ρ c main_arg18 (by decide)).trans (w15_arg18 m ρ c)
theorem w16_arg19 : (W16 m ρ c (Proc.devRef .tc main_arg19) : S2.Idx → EReal) = A19 m c :=
  (W16_of_ne m ρ c main_arg19 (by decide)).trans (w15_arg19 m ρ c)
theorem w16_v88 : (W16 m ρ c (Proc.devRef .tc main_v88) : S1x64.Idx → EReal) = kRow64 (A16 m c) :=
  (W16_of_ne m ρ c main_v88 (by decide)).trans (w15_v88 m ρ c)
theorem w16_v89 : (W16 m ρ c (Proc.devRef .tc main_v89) : S1x64.Idx → EReal) = kRow64 (A17 m c) :=
  (W16_of_ne m ρ c main_v89 (by decide)).trans (w15_v89 m ρ c)
theorem w16_v109_0 : (W16 m ρ c (Proc.devRef .tc main_v109_0) : S50000x64.Idx → EReal) = sO3 m c := by
  refine (W16_arr m ρ c 2).trans ?_
  refine (final7_2 (V15 m ρ) c).trans ?_
  dsimp only [V15]
  rw [w15_v90_0 m ρ c, w15_v108 m ρ c]
  all_goals rfl
theorem w16_v109_1 : (W16 m ρ c (Proc.devRef .tc main_v109_1) : S1x64.Idx → EReal) = sS3 m c := by
  refine (W16_arr m ρ c 3).trans ?_
  refine (final7_3 (V15 m ρ) c).trans ?_
  dsimp only [V15]
  rw [w15_v90_0 m ρ c, w15_v108 m ρ c]
  all_goals rfl
theorem w16_v109_2 : (W16 m ρ c (Proc.devRef .tc main_v109_2) : S1x64.Idx → EReal) = sQ3 m c := by
  refine (W16_arr m ρ c 4).trans ?_
  refine (final7_4 (V15 m ρ) c).trans ?_
  dsimp only [V15]
  rw [w15_v90_0 m ρ c, w15_v108 m ρ c]
  all_goals rfl

/-! ### After the host stretch before region 8 -/
theorem w17_arg18 : (W17 m ρ c (Proc.devRef .tc main_arg18) : S64x2.Idx → EReal) = A18 m c :=
  (StableHlo.after_of_writes_sub hostOps8 _ hostOps8_writes (by decide)).trans (w16_arg18 m ρ c)
theorem w17_arg19 : (W17 m ρ c (Proc.devRef .tc main_arg19) : S2.Idx → EReal) = A19 m c :=
  (StableHlo.after_of_writes_sub hostOps8 _ hostOps8_writes (by decide)).trans (w16_arg19 m ρ c)
theorem w17_v88 : (W17 m ρ c (Proc.devRef .tc main_v88) : S1x64.Idx → EReal) = kRow64 (A16 m c) :=
  (StableHlo.after_of_writes_sub hostOps8 _ hostOps8_writes (by decide)).trans (w16_v88 m ρ c)
theorem w17_v89 : (W17 m ρ c (Proc.devRef .tc main_v89) : S1x64.Idx → EReal) = kRow64 (A17 m c) :=
  (StableHlo.after_of_writes_sub hostOps8 _ hostOps8_writes (by decide)).trans (w16_v89 m ρ c)
theorem w17_v109_0 : (W17 m ρ c (Proc.devRef .tc main_v109_0) : S50000x64.Idx → EReal) = sO3 m c :=
  (StableHlo.after_of_writes_sub hostOps8 _ hostOps8_writes (by decide)).trans (w16_v109_0 m ρ c)
theorem w17_v111 : (W17 m ρ c (Proc.devRef .tc main_v111) : S1x64.Idx → EReal) = sMu3 m c := by
  refine (h8_v111 (W16 m ρ c)).trans ?_
  rw [w16_v109_1 m ρ c]
  all_goals rfl
theorem w17_v117 : (W17 m ρ c (Proc.devRef .tc main_v117) : S1x64.Idx → EReal) = sVa3 m c := by
  refine (h8_v117 (W16 m ρ c)).trans ?_
  rw [w16_v109_1 m ρ c, w16_v109_2 m ρ c]
  all_goals rfl

/-! ### After region 8 -/
theorem w18_arg18 : (W18 m ρ c (Proc.devRef .tc main_arg18) : S64x2.Idx → EReal) = A18 m c :=
  (W18_of_ne m ρ c main_arg18 (by decide)).trans (w17_arg18 m ρ c)
theorem w18_arg19 : (W18 m ρ c (Proc.devRef .tc main_arg19) : S2.Idx → EReal) = A19 m c :=
  (W18_of_ne m ρ c main_arg19 (by decide)).trans (w17_arg19 m ρ c)
theorem w18_v118 : (W18 m ρ c (Proc.devRef .tc main_v118) : S50000x64.Idx → EReal) = sY3 m c := by
  refine (W18_arr m ρ c 5).trans ?_
  refine (final8_5 (V17 m ρ) c).trans ?_
  dsimp only [V17]
  rw [w17_v109_0 m ρ c, w17_v111 m ρ c, w17_v117 m ρ c, w17_v88 m ρ c, w17_v89 m ρ c]
  all_goals rfl

/-! ### After the host stretch before region 9 -/
theorem w19_arg18 : (W19 m ρ c (Proc.devRef .tc main_arg18) : S64x2.Idx → EReal) = A18 m c :=
  (StableHlo.after_of_writes_sub hostOps9 _ hostOps9_writes (by decide)).trans (w18_arg18 m ρ c)
theorem w19_v118 : (W19 m ρ c (Proc.devRef .tc main_v118) : S50000x64.Idx → EReal) = sY3 m c :=
  (StableHlo.after_of_writes_sub hostOps9 _ hostOps9_writes (by decide)).trans (w18_v118 m ρ c)
theorem w19_v119 : (W19 m ρ c (Proc.devRef .tc main_v119) : S1x2.Idx → EReal) = kRow2 (A19 m c) := by
  refine (h9_v119 (W18 m ρ c)).trans ?_
  rw [w18_arg19 m ρ c]
  all_goals rfl

/-! ### After region 9 -/
theorem w20_v120 : (W20 m ρ c (Proc.devRef .tc main_v120) : S50000x2.Idx → EReal) = sRes m c := by
  refine (W20_arr m ρ c 3).trans ?_
  refine (final9_3 (V19 m ρ) c).trans ?_
  dsimp only [V19]
  rw [w19_v118 m ρ c, w19_arg18 m ρ c, w19_v119 m ρ c]
  all_goals rfl

/-- The result buffer after the last region is the network's result, as the stages compose it. -/
theorem result_eq : (W20 m ρ c (Proc.devRef .tc main_v120) : S50000x2.Idx → EReal) = sRes m c := w20_v120 m ρ c

end Cert.KernelIdeal.Hand

end
-- ==== Proof.Ref.ReadProj.lean ====
import proofs.«177069_j18983755448416_1_alg».proof.Proof.Ref.Stages
import Idealize.ShloMosaic.Lib.ValueIdx
import Idealize.ShloMosaic.PureOps.Ideal.Laws

/-! # The products against the sixteen blocks, read at one entry

Entry (n, k, e) of the product of h, an array of 50000 rows of 64, against a stack B of sixteen 64 × 64 blocks,
contracting h's columns with the blocks' last axis, is the sum over f of h (n, f) · B (k, e, f): row n of h
against row e of block k. -/

noncomputable section

namespace Cert.ReferenceIdeal.Hand

open Cert.ReferenceIdeal Cert.ReferenceIdeal.Gen Idealize.ShloMosaic Idealize.ShloMosaic.ValueIdx
open scoped BigOperators

/-- The contraction's sum, re-indexed by its one contracted coordinate. -/
theorem proj_apply (h : (⟨S50000x64, .f32⟩ : BufTy).Contents (Elt Ideal)) (B : (⟨S16x64x64, .f32⟩ : BufTy).Contents (Elt Ideal))
    (n : Fin 50000) (k : Fin 16) (e : Fin 64) :
    proj (F := Ideal) h B (ix3 n k e) = ∑ f : Fin 64, h (ix2 n f) * B (ix3 k e f) := by
  unfold proj
  refine (Ideal.dotGeneral_apply (φ₁ := .f32) (φ₂ := .f32) dot_S50000x64_S16x64x64_S50000x16x64_1_2_0_01_n_n none .single h B (ix3 n k e)).trans ?_
  rw [← Equiv.sum_comp (contrEquiv1 dot_S50000x64_S16x64x64_S50000x16x64_1_2_0_01_n_n 64 rfl rfl).symm]
  refine Finset.sum_congr rfl fun f _ => ?_
  have hk := contrEquiv1_symm_val dot_S50000x64_S16x64x64_S50000x16x64_1_2_0_01_n_n 64 rfl rfl f
  have el : dot_S50000x64_S16x64x64_S50000x16x64_1_2_0_01_n_n.lhsIdx (ix3 n k e) ((contrEquiv1 dot_S50000x64_S16x64x64_S50000x16x64_1_2_0_01_n_n 64 rfl rfl).symm f) = ix2 n f := by
    funext ax; apply Fin.ext
    match ax with
    | ⟨0, _⟩ => simp [DotDims.lhsIdx, dot_S50000x64_S16x64x64_S50000x16x64_1_2_0_01_n_n]; rfl
    | ⟨1, _⟩ => exact (DotDims.lhsIdx_val_of_single dot_S50000x64_S16x64x64_S50000x16x64_1_2_0_01_n_n rfl _ _).trans hk
  have er : dot_S50000x64_S16x64x64_S50000x16x64_1_2_0_01_n_n.rhsIdx (ix3 n k e) ((contrEquiv1 dot_S50000x64_S16x64x64_S50000x16x64_1_2_0_01_n_n 64 rfl rfl).symm f) = ix3 k e f := by
    funext ax; apply Fin.ext
    match ax with
    | ⟨0, _⟩ => simp [DotDims.rhsIdx, dot_S50000x64_S16x64x64_S50000x16x64_1_2_0_01_n_n]; rfl
    | ⟨1, _⟩ => simp [DotDims.rhsIdx, dot_S50000x64_S16x64x64_S50000x16x64_1_2_0_01_n_n]; rfl
    | ⟨2, _⟩ => exact (DotDims.rhsIdx_val_of_single dot_S50000x64_S16x64x64_S50000x16x64_1_2_0_01_n_n rfl _ _).trans hk
  rw [el, er]

end Cert.ReferenceIdeal.Hand

end
-- ==== Proof.KI.HostRead.lean ====
import proofs.«177069_j18983755448416_1_alg».proof.Proof.KI.HostFns
import Idealize.ShloMosaic.Lib.ValueLayout

/-! # Two re-layings read at one entry

The cross basis flattened to 1024 rows of 64 and transposed has, in column k·64 + e and row f, entry (k, e, f)
of the basis seen as sixteen 64 × 64 matrices; and an array of 50000 rows of 1024 seen as 50000 × 16 × 64 has at
(n, k, e) its entry (n, k·64 + e). Both are statements about row-major positions. -/

noncomputable section

namespace Cert.KernelIdeal.Hand

open Cert.KernelIdeal Cert.KernelIdeal.Gen
open Idealize.ShloMosaic Idealize.ShloMosaic.ValueIdx

/-- The flat column index of row e of matrix k. -/
abbrev flatCol (k : Fin 16) (e : Fin 64) : Fin 1024 := ⟨k.val * 64 + e.val, by have := k.isLt; have := e.isLt; omega⟩

/-- Row f, column k·64 + e of the re-laid basis is entry (k, e, f) of the sixteen matrices. -/
theorem kMt_apply (a1 : S2x2x4x64x64.Idx → EReal) (f : Fin 64) (k : Fin 16) (e : Fin 64) :
    kMt a1 (ix2 f (flatCol k e)) = (shapeCast S16x64x64 a1 shapeCasts_S2x2x4x64x64_S16x64x64) (ix3 k e f) := by
  unfold kMt
  refine (transpose_ix2_apply _ _ f (flatCol k e)).trans ?_
  refine shapeCast_apply _ _ (ix2 (flatCol k e) f) (ix3 k e f) ?_
  rw [Shape.rowMajor_val_three, Shape.rowMajor_val_two]
  rfl

/-- Entry (n, k, e) of an array of 50000 × 1024 seen as 50000 × 16 × 64 is its entry (n, k·64 + e). -/
theorem reshape3_apply (T : S50000x1024.Idx → EReal) (n : Fin 50000) (k : Fin 16) (e : Fin 64) :
    (shapeCast S50000x16x64 T shapeCasts_S50000x1024_S50000x16x64) (ix3 n k e) = T (ix2 n (flatCol k e)) := by
  refine shapeCast_apply T _ (ix3 n k e) (ix2 n (flatCol k e)) ?_
  rw [Shape.rowMajor_val_three, Shape.rowMajor_val_two]
  show n.val * 1024 + (k.val * 64 + e.val) = (n.val * 16 + k.val) * 64 + e.val
  omega

end Cert.KernelIdeal.Hand

end
-- ==== Proof.BridgeAgg.lean ====
import proofs.«177069_j18983755448416_1_alg».proof.Proof.Ref.ReadProj
import proofs.«177069_j18983755448416_1_alg».proof.Proof.KI.HostRead
import proofs.«177069_j18983755448416_1_alg».proof.Proof.Spec

/-! # The two programs' products against the basis, and their aggregations, are the same arrays

One program multiplies h by the basis re-laid as a 64 × 1024 matrix and views the 50000 × 1024 result as
50000 × 16 × 64; the other contracts h with the last axis of the sixteen 64 × 64 matrices. Entry (n, k, e) of
either is the sum over f of h (n, f) times entry (k, e, f) of the basis. The gather of the edges' rows and the
scatter-add over their destinations are then the same operations on the same operands: the index arithmetic of
the two programs is the same chain of integer operations. -/

noncomputable section

namespace Cert.Bridge

open Idealize.ShloMosaic Idealize.ShloMosaic.ValueIdx
open scoped BigOperators

/-- The product viewed as 50000 × 16 × 64 is the contraction with the sixteen matrices. -/
theorem proj_bridge (h : Cert.Spec.Arr 50000 64) (a1 : Cert.KernelIdeal.S2x2x4x64x64.Idx → EReal) :
    (shapeCast Cert.KernelIdeal.S50000x16x64 (Cert.Spec.proj h (Cert.KernelIdeal.Hand.kMt a1)) Cert.KernelIdeal.Gen.shapeCasts_S50000x1024_S50000x16x64)
      = Cert.ReferenceIdeal.Hand.proj (F := Ideal) h (Cert.ReferenceIdeal.Hand.basis (F := Ideal) a1) := by
  funext i
  obtain ⟨n, k, e, rfl⟩ : ∃ (n : Fin 50000) (k : Fin 16) (e : Fin 64), i = ix3 n k e := ⟨i 0, i 1, i 2, eq_ix3 i⟩
  refine (Cert.KernelIdeal.Hand.reshape3_apply _ n k e).trans ?_
  refine Eq.trans ?_ (Cert.ReferenceIdeal.Hand.proj_apply h (Cert.ReferenceIdeal.Hand.basis (F := Ideal) a1) n k e).symm
  refine (Cert.Spec.proj_apply h (Cert.KernelIdeal.Hand.kMt a1) n (Cert.KernelIdeal.Hand.flatCol k e)).trans ?_
  unfold Cert.Spec.projAt
  refine Finset.sum_congr rfl fun f _ => ?_
  exact congrArg (h (ix2 n f) * ·) (Cert.KernelIdeal.Hand.kMt_apply a1 f k e)

/-! ## The integer index chains of the two programs, operation by operation -/

/-- A negative node index moved up by the node count. -/
theorem nodeIdx_eq (i : IVec Cert.KernelIdeal.S800000 32) : Cert.ReferenceIdeal.Hand.nodeIdx (F := Ideal) i = Cert.KernelIdeal.Hand.kWrap i 50000#32 := rfl

/-- A negative block index moved up by sixteen. -/
theorem blockIdx_eq (c : IVec Cert.KernelIdeal.S800000 32) : Cert.ReferenceIdeal.Hand.blockIdx (F := Ideal) c = Cert.KernelIdeal.Hand.kWrap c 16#32 := rfl

/-- The labels of the nodes an index vector names. -/
theorem labelAt_eq (labels : IVec Cert.KernelIdeal.S50000 32) (e : IVec Cert.KernelIdeal.S800000 32) :
    Cert.ReferenceIdeal.Hand.labelAt (F := Ideal) labels (Cert.ReferenceIdeal.Hand.nodeIdx (F := Ideal) e) = Cert.KernelIdeal.Hand.kLabelAt labels e := rfl

/-- The block index of every edge. -/
theorem combo_eq (a2 a3 : IVec Cert.KernelIdeal.S800000 32) (a4 : IVec Cert.KernelIdeal.S50000 32) (a5 : IVec Cert.KernelIdeal.S800000 32) :
    Cert.ReferenceIdeal.Hand.combo (F := Ideal) a4 a2 a3 a5 = Cert.KernelIdeal.Hand.kCombo a2 a3 a4 a5 := rfl

/-- The pair (source node, block index) of every edge. -/
theorem gidx_eq (a2 c : IVec Cert.KernelIdeal.S800000 32) : Cert.ReferenceIdeal.Hand.gidx (F := Ideal) a2 c = Cert.KernelIdeal.Hand.kIdx a2 c := rfl

/-- The gather of the edges' rows. -/
theorem msg_eq (T : Cert.KernelIdeal.S50000x16x64.Idx → EReal) (gi : IVec Cert.KernelIdeal.S800000x2 32) :
    Cert.ReferenceIdeal.Hand.msg (F := Ideal) T gi = Host.gather Cert.KernelIdeal.gather_S50000x16x64_S800000x2_S800000x64_1_01_n_n_01_1_1164 T gi := rfl

/-- The scatter-add over the destinations into a zero array. -/
theorem agg_eq (a3 : IVec Cert.KernelIdeal.S800000 32) (u : Cert.KernelIdeal.S800000x64.Idx → EReal) :
    Cert.ReferenceIdeal.Hand.agg (F := Ideal) a3 u
      = Host.scatterAdd (F := Ideal) Cert.KernelIdeal.scatter_S50000x64_S800000x1_S800000x64_1_0_0_1
          (broadcastInDim Cert.KernelIdeal.S50000x64 ![] Cert.KernelIdeal.Gen.bcast_S_S50000x64 (constant (F := Ideal) Cert.KernelIdeal.S_ .f32 0#32))
          (broadcastInDim Cert.KernelIdeal.S800000x1 ![0] Cert.KernelIdeal.Gen.bcast_S800000_S800000x1_0 a3) u := rfl

/-- The two programs' aggregations of the products against the basis are the same array. -/
theorem agg_bridge (h : Cert.Spec.Arr 50000 64) (a1 : Cert.KernelIdeal.S2x2x4x64x64.Idx → EReal)
    (a2 a3 : IVec Cert.KernelIdeal.S800000 32) (a4 : IVec Cert.KernelIdeal.S50000 32) (a5 : IVec Cert.KernelIdeal.S800000 32) :
    Cert.KernelIdeal.Hand.kAgg (Cert.Spec.proj h (Cert.KernelIdeal.Hand.kMt a1)) a2 a3 (Cert.KernelIdeal.Hand.kCombo a2 a3 a4 a5)
      = Cert.ReferenceIdeal.Hand.agg (F := Ideal) a3 (Cert.ReferenceIdeal.Hand.msg (F := Ideal) (Cert.ReferenceIdeal.Hand.proj (F := Ideal) h (Cert.ReferenceIdeal.Hand.basis (F := Ideal) a1))
          (Cert.ReferenceIdeal.Hand.gidx (F := Ideal) a2 (Cert.ReferenceIdeal.Hand.combo (F := Ideal) a4 a2 a3 a5))) := by
  rw [agg_eq, msg_eq, gidx_eq, combo_eq, ← proj_bridge]
  rfl

end Cert.Bridge

end
-- ==== Proof.Ref.Read.lean ====
import proofs.«177069_j18983755448416_1_alg».proof.Proof.Ref.Stages
import proofs.«177069_j18983755448416_1_alg».proof.Proof.Spec
import proofs.«177069_j18983755448416_1_alg».proof.Proof.LibPlainDot
import Idealize.ShloMosaic.Lib.Pipeline.Value
import Idealize.ShloMosaic.Lib.ValueIdx

/-! # The reference's affine maps at the extended reals

Each of the reference's three affine maps is a matrix product contracting the left operand's columns with
the right operand's rows, plus a bias vector laid out as one row and repeated down all rows. Read at a
row `n` and a column `f` it is the sum over `k` of `x (n, k) · W (k, f)` plus the bias row's entry at
`f`: the specification's affine map of the same arrays, the bias given as its one-row array. -/

noncomputable section

namespace Cert.ReferenceIdeal.Hand

open scoped BigOperators
open Cert.ReferenceIdeal Cert.ReferenceIdeal.Gen
open Idealize.ShloMosaic Idealize.ShloMosaic.ValueIdx

/-- A one-row array of 64 entries repeated down 50000 rows reads, at row `n` and column `f`, the row's entry at `f`. -/
theorem rows64_apply (r : (⟨S1x64, .f32⟩ : BufTy).Contents (Elt Ideal)) (n : Fin 50000) (f : Fin 64) :
    rows (F := Ideal) r (ix2 n f) = r (ix2 0 f) := by
  unfold rows
  refine broadcastInDim_apply _ _ r (ix2 n f) (ix2 0 f) fun a => ?_
  match a with
  | ⟨0, _⟩ => rfl
  | ⟨1, _⟩ => rfl

/-- A one-row array of 2 entries repeated down 50000 rows reads, at row `n` and column `o`, the row's entry at `o`. -/
theorem rows2_apply (r : (⟨S1x2, .f32⟩ : BufTy).Contents (Elt Ideal)) (n : Fin 50000) (o : Fin 2) :
    (broadcastInDim S50000x2 ![0, 1] bcast_S1x2_S50000x2_0_1 r : (⟨S50000x2, .f32⟩ : BufTy).Contents (Elt Ideal)) (ix2 n o) = r (ix2 0 o) := by
  refine broadcastInDim_apply _ _ r (ix2 n o) (ix2 0 o) fun a => ?_
  match a with
  | ⟨0, _⟩ => rfl
  | ⟨1, _⟩ => rfl

/-- The affine map of the 128 input features is the specification's, the bias as its one-row array. -/
theorem lin128_eq (x : (⟨S50000x128, .f32⟩ : BufTy).Contents (Elt Ideal)) (W : (⟨S128x64, .f32⟩ : BufTy).Contents (Elt Ideal))
    (b : (⟨S64, .f32⟩ : BufTy).Contents (Elt Ideal)) :
    lin128 (F := Ideal) x W b = Cert.Spec.lin128 x W (row (F := Ideal) b) := by
  funext i
  obtain ⟨n, f, rfl⟩ : ∃ (n : Fin 50000) (f : Fin 64), i = ix2 n f := ⟨i 0, i 1, eq_ix2 i⟩
  unfold lin128
  rw [addf_apply, rows64_apply]
  exact congrArg (· + _) (Cert.PlainDot.dotGeneral_apply dot_S50000x128_S128x64_S50000x64_1_0_0_1_n_n ⟨rfl, rfl, rfl, rfl, rfl, rfl⟩ none x W n f)

/-- The affine map of 64 features is the specification's, the bias as its one-row array. -/
theorem lin64_eq (h : (⟨S50000x64, .f32⟩ : BufTy).Contents (Elt Ideal)) (W : (⟨S64x64, .f32⟩ : BufTy).Contents (Elt Ideal))
    (b : (⟨S64, .f32⟩ : BufTy).Contents (Elt Ideal)) :
    lin64 (F := Ideal) h W b = Cert.Spec.lin64 h W (row (F := Ideal) b) := by
  funext i
  obtain ⟨n, f, rfl⟩ : ∃ (n : Fin 50000) (f : Fin 64), i = ix2 n f := ⟨i 0, i 1, eq_ix2 i⟩
  unfold lin64
  rw [addf_apply, rows64_apply]
  exact congrArg (· + _) (Cert.PlainDot.dotGeneral_apply dot_S50000x64_S64x64_S50000x64_1_0_0_1_n_n ⟨rfl, rfl, rfl, rfl, rfl, rfl⟩ none h W n f)

/-- The final affine map onto two columns is the specification's, the bias as its one-row array. -/
theorem lin2_eq (h : (⟨S50000x64, .f32⟩ : BufTy).Contents (Elt Ideal)) (W : (⟨S64x2, .f32⟩ : BufTy).Contents (Elt Ideal))
    (b : (⟨S2, .f32⟩ : BufTy).Contents (Elt Ideal)) :
    lin2 (F := Ideal) h W b = Cert.Spec.lin2 h W (broadcastInDim S1x2 ![1] bcast_S2_S1x2_1 b) := by
  funext i
  obtain ⟨n, o, rfl⟩ : ∃ (n : Fin 50000) (o : Fin 2), i = ix2 n o := ⟨i 0, i 1, eq_ix2 i⟩
  unfold lin2
  rw [addf_apply, rows2_apply]
  exact congrArg (· + _) (Cert.PlainDot.dotGeneral_apply dot_S50000x64_S64x2_S50000x2_1_0_0_1_n_n ⟨rfl, rfl, rfl, rfl, rfl, rfl⟩ none h W n o)

end Cert.ReferenceIdeal.Hand

end
-- ==== Proof.LibRealValued.lean ====
/-
  Extended reals that are real numbers, and the exact float operations that keep them so.

  At the exact instance a float is an extended real.  The algebraic laws that join two arrangements of one
  computation (distributing a product over a sum, cancelling) hold for real numbers and fail at the
  infinities, so a proof that uses one must first know that the values it is applied to are real.  This file
  names that property and shows it is kept by the sum, the difference, the product, the larger of two values,
  a finite sum, the quotient by a nonzero real, and the reciprocal square root of a positive real.
-/
import Idealize.ShloMosaic.PureOps.Ideal

open Idealize.ShloMosaic

namespace Cert.Lib

/-- The extended real `x` is a real number (neither infinity). -/
def IsReal (x : EReal) : Prop := ∃ r : ℝ, x = (r : EReal)

namespace IsReal

theorem coe (r : ℝ) : IsReal (r : EReal) := ⟨r, rfl⟩

theorem zero : IsReal (0 : EReal) := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

/-- The larger of two reals is one of them. -/
theorem max {x y : EReal} (hx : IsReal x) (hy : IsReal y) : IsReal (max x y) := by
  rcases le_total x y with h | h
  · rw [max_eq_right h]; exact hy
  · rw [max_eq_left h]; exact hx

theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- The exact quotient by a nonzero real is the product with its reciprocal, hence real. -/
theorem div_coe {x : EReal} (hx : IsReal x) {y : ℝ} (hy : y ≠ 0) : IsReal (Ideal.div x (y : EReal)) := by
  rw [Ideal.div_coe hy]; exact hx.mul (coe _)

/-- The reciprocal square root of a positive real is real. -/
theorem rsqrt_of_pos {r : ℝ} (hr : 0 < r) : IsReal (Ideal.rsqrt (r : EReal)) := by
  rw [Ideal.rsqrt_coe, if_neg (not_lt.mpr hr.le), if_neg hr.ne']; exact ⟨_, rfl⟩

end IsReal

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of reals is the coercion of a real family. -/
theorem exists_real_family {ι : Type*} {x : ι → EReal} (h : ∀ i, IsReal (x i)) : ∃ r : ι → ℝ, x = fun i => (r i : EReal) := by
  choose r hr using h
  exact ⟨r, funext hr⟩

end Cert.Lib
-- ==== Proof.LibVariance.lean ====
/-
  The variance of a finite family, computed in one pass and in two, at the exact instance.

  One program accumulates the sum `S` and the sum of squares `Q` of a column in a single sweep and forms
  `Q / n - (S / n) · (S / n)`; another first forms the mean `μ = S / n` and then sums the squared deviations,
  `(∑ (x - μ) · (x - μ)) / n`.  Over the real numbers the two are equal — expand the square:
  `∑ (x - μ)² = Q - 2 μ S + n μ²`, and `μ S = n μ²` — and the common value is nonnegative.  Over the extended
  reals the expansion needs every `x` to be real (a product does not distribute over a sum at the
  infinities), which is what the hypothesis asks.
-/
import proofs.«177069_j18983755448416_1_alg».proof.Proof.LibRealValued

open Idealize.ShloMosaic

namespace Cert.Lib

variable {ι : Type*} [Fintype ι]

/-- The real identity: the mean of the squared deviations is the mean of the squares less the squared mean,
    for a family indexed by a type of `n` elements. -/
theorem real_var_two_pass (r : ι → ℝ) {n : ℝ} (hn : n ≠ 0) (hcard : (Fintype.card ι : ℝ) = n) :
    (∑ i, (r i - (∑ j, r j) * (1 / n)) * (r i - (∑ j, r j) * (1 / n))) * (1 / n)
      = (∑ i, r i * r i) * (1 / n) - (∑ j, r j) * (1 / n) * ((∑ j, r j) * (1 / n)) := by
  set S := ∑ j, r j with hS
  set μ := S * (1 / n) with hμ
  have hexp : ∀ i, (r i - μ) * (r i - μ) = r i * r i - 2 * μ * r i + μ * μ := fun i => by ring
  have hsum : ∑ i, (r i - μ) * (r i - μ) = ∑ i, r i * r i - 2 * μ * S + n * (μ * μ) := by
    simp only [hexp, Finset.sum_add_distrib, Finset.sum_sub_distrib, ← Finset.mul_sum, Finset.sum_const,
      Finset.card_univ, nsmul_eq_mul, hcard, ← hS]
    ring
  rw [hsum, hμ]
  field_simp
  ring

/-- The two-pass variance of a real family is a nonnegative real. -/
theorem real_var_nonneg (r : ι → ℝ) {n : ℝ} (hn : 0 < n) :
    0 ≤ (∑ i, (r i - (∑ j, r j) * (1 / n)) * (r i - (∑ j, r j) * (1 / n))) * (1 / n) :=
  mul_nonneg (Finset.sum_nonneg fun i _ => mul_self_nonneg _) (by positivity)

/-- At the exact instance: for a family of real values indexed by a type of `n` elements, the sum of the
    squared deviations from `S / n`, divided by `n`, is `Q / n - (S / n) · (S / n)`; and the common value is a
    nonnegative real `v`. -/
theorem var_two_pass_eq_one_pass (x : ι → EReal) (hx : ∀ i, IsReal (x i)) {n : ℝ} (hn : 0 < n)
    (hcard : (Fintype.card ι : ℝ) = n) :
    ∃ v : ℝ, 0 ≤ v
      ∧ Ideal.div (∑ i, (x i - Ideal.div (∑ j, x j) (n : EReal)) * (x i - Ideal.div (∑ j, x j) (n : EReal))) (n : EReal) = (v : EReal)
      ∧ Ideal.div (∑ i, x i * x i) (n : EReal) - Ideal.div (∑ j, x j) (n : EReal) * Ideal.div (∑ j, x j) (n : EReal) = (v : EReal) := by
  obtain ⟨r, rfl⟩ := exists_real_family hx
  have hn' : n ≠ 0 := hn.ne'
  refine ⟨_, real_var_nonneg r hn, ?_, ?_⟩
  · simp only [Ideal.div_coe hn', ← coe_finset_sum, ← EReal.coe_mul, ← EReal.coe_sub]
  · simp only [Ideal.div_coe hn', ← coe_finset_sum, ← EReal.coe_mul, ← EReal.coe_sub]
    exact congrArg _ (real_var_two_pass r hn' hcard).symm

end Cert.Lib
-- ==== Proof.Real.lean ====
/-
  Real-valued arrays, and the operations that keep them so.

  An array of extended reals is called real when every entry is a real number.  The laws that join the two
  arrangements of the batch statistics hold for real numbers only, so every array the network meets has to be
  shown real; this file does so once, operation by operation.  Every re-indexing operation (a gather, a
  reshape, a transpose, a broadcast) only reads entries of its operand; a scatter with an add body, a
  contraction and a reduction by a sum form finite sums of products of entries; the quotient by the number of
  nodes, a positive real, and the reciprocal square root of a positive real stay real.  Then each stage of the
  specification keeps arrays real.
-/
import Idealize.ShloMosaic.PureOps.Ideal
import Idealize.ShloMosaic.PureOps.Ideal.Laws
import Idealize.ShloMosaic.Lib.ValueIdx
import proofs.«177069_j18983755448416_1_alg».proof.Proof.LibRealValued
import proofs.«177069_j18983755448416_1_alg».proof.Proof.Spec

noncomputable section

open scoped BigOperators
open Idealize.ShloMosaic Idealize.ShloMosaic.ValueIdx Cert.Lib

namespace Cert.Spec

/-- Every entry of the array is a real number. -/
def RealArr {S : Shape} (x : S.Idx → EReal) : Prop := ∀ i, IsReal (x i)

/-! ## The two float words the programs spell, read exactly -/

/-- The word `0x47435000` is the number of nodes, 50000. -/
theorem ofBits_nodes : Ideal.ofBits .f32 0x47435000#32 = ((50000 : ℝ) : EReal) := by
  simp [Ideal.ofBits, Ideal.ieee, -EReal.coe_mul]; norm_num

/-- The variance's guard is the positive real `10995116 · 2⁻⁴⁰`. -/
theorem eps_eq : eps = ((10995116 / 1099511627776 : ℝ) : EReal) := by
  unfold eps
  simp [Ideal.ofBits, Ideal.ieee, -EReal.coe_mul]; norm_num

theorem eps_pos : ∃ e : ℝ, 0 < e ∧ eps = (e : EReal) := ⟨_, by norm_num, eps_eq⟩

variable {S T : Shape}

/-! ## Re-indexing: the result reads entries of the operand -/

/-- Any array that reads each of its entries from a real array is real. -/
theorem real_comp {x : S.Idx → EReal} (hx : RealArr x) (g : T.Idx → S.Idx) : RealArr (fun j => x (g j)) := fun j => hx (g j)

theorem real_gather {si : Shape} {w : Nat} (d : GatherDims S si T) {x : S.Idx → EReal} (idx : IVec si w) (hx : RealArr x) :
    RealArr (Host.gather d x idx) := fun j => hx _

theorem real_shapeCast {x : S.Idx → EReal} (hx : RealArr x) (h : S.ShapeCasts T) : RealArr (shapeCast T x h) := fun j => hx _

theorem real_transpose {x : S.Idx → EReal} (hx : RealArr x) (perm : List (Fin S.rank)) (h : S.Transposes perm T) :
    RealArr (transpose T perm x h) := fun j => hx _

theorem real_broadcastInDim {x : S.Idx → EReal} (hx : RealArr x) (dims : Fin S.rank → Fin T.rank) (h : S.BroadcastsInDim T dims) :
    RealArr (broadcastInDim T dims h x) := fun j => hx _

/-! ## Constants -/

/-- A splat constant whose word denotes a real is real. -/
theorem real_constant (b : BitVec 32) {r : ℝ} (hb : Ideal.ofBits .f32 b = (r : EReal)) :
    RealArr (constant (F := Ideal) S .f32 b) := fun _ => ⟨r, hb⟩

theorem real_constant_zero : RealArr (constant (F := Ideal) S .f32 0x00000000#32) :=
  real_constant _ (r := 0) (by rw [Ideal.ofBits_zero_f32]; rfl)

theorem real_constant_nodes : RealArr (constant (F := Ideal) S .f32 0x47435000#32) := real_constant _ ofBits_nodes

/-! ## Pointwise arithmetic -/

theorem real_addf {x y : FVec Ideal S .f32} (hx : RealArr x) (hy : RealArr y) : RealArr (addf x y) := fun i => (hx i).add (hy i)
theorem real_subf {x y : FVec Ideal S .f32} (hx : RealArr x) (hy : RealArr y) : RealArr (subf x y) := fun i => (hx i).sub (hy i)
theorem real_mulf {x y : FVec Ideal S .f32} (hx : RealArr x) (hy : RealArr y) : RealArr (mulf x y) := fun i => (hx i).mul (hy i)
theorem real_maximumf {x y : FVec Ideal S .f32} (hx : RealArr x) (hy : RealArr y) : RealArr (maximumf x y) :=
  fun i => (hx i).max (hy i)

/-- The host quotient by an array whose every entry is one nonzero real. -/
theorem real_hostDivf {x y : FVec Ideal S .f32} (hx : RealArr x) {c : ℝ} (hc : c ≠ 0) (hy : ∀ i, y i = (c : EReal)) :
    RealArr (Host.divf x y) := fun i => by
  show IsReal (Ideal.div (x i) (y i))
  rw [hy i]; exact (hx i).div_coe hc

/-- The host reciprocal square root of an array of positive reals. -/
theorem real_hostRsqrt {x : FVec Ideal S .f32} (hx : ∀ i, ∃ r : ℝ, 0 < r ∧ x i = (r : EReal)) : RealArr (Host.rsqrt x) := fun i => by
  obtain ⟨r, hr, e⟩ := hx i
  show IsReal (Ideal.rsqrt (x i))
  rw [e]; exact IsReal.rsqrt_of_pos hr

/-! ## Sums -/

/-- A scatter with an add body adds to each entry of the operand a finite sum of entries of the updates. -/
theorem real_scatterAdd {si su : Shape} {w : Nat} (d : ScatterDims S si su) {x : FVec Ideal S .f32} (idx : IVec si w)
    {upd : FVec Ideal su .f32} (hx : RealArr x) (hu : RealArr upd) : RealArr (Host.scatterAdd d x idx upd) := fun i => by
  show IsReal (x i + ∑ j ∈ Finset.univ.filter (fun j => d.resultIdx? j idx = some i), upd j)
  exact (hx i).add (IsReal.sum _ _ fun j _ => hu j)

/-- A host reduction by a sum adds to the initial value a finite sum of entries of the operand. -/
theorem real_hostReduceAdd {u : Shape} {axes : List (Fin S.rank)} {x : FVec Ideal S .f32} {init : FVec Ideal u .f32} (hx : RealArr x)
    (hi : RealArr init) (h : S.ReducesTo axes T) (hu : 0 < u.numel) : RealArr (Host.reduceAdd x init h hu) := fun j => by
  show IsReal (init (Shape.Idx.first hu) + ∑ i ∈ Finset.univ.filter (fun i => h.drop i = j), x i)
  exact (hi _).add (IsReal.sum _ _ fun i _ => hx i)

/-- A contraction onto a real accumulator: the accumulator plus a finite sum of products. -/
theorem real_matmul {sl sr : Shape} (d : DotDims sl sr T) {lhs : sl.Idx → EReal} {rhs : sr.Idx → EReal} {acc : T.Idx → EReal}
    (hl : RealArr lhs) (hr : RealArr rhs) (ha : RealArr acc) : RealArr (Ideal.matmul d lhs rhs acc) := fun j =>
  (ha j).add (IsReal.sum _ _ fun k _ => (hl _).mul (hr _))

/-- The host's contraction is the same sum onto zero. -/
theorem real_dotGeneral {sl sr : Shape} (d : DotDims sl sr T) (prec : Option ContractPrecision) {lhs : FVec Ideal sl .f32}
    {rhs : FVec Ideal sr .f32} (hl : RealArr lhs) (hr : RealArr rhs) :
    RealArr (Host.dotGeneral (F := Ideal) (φ₁ := .f32) (φ₂ := .f32) d prec lhs rhs) :=
  real_matmul d hl hr fun _ => IsReal.zero

/-! ## The stages of the specification keep arrays real -/

theorem lin128_real {x : Arr 50000 128} {W : Arr 128 64} {b : Arr 1 64} (hx : RealArr x) (hW : RealArr W) (hb : RealArr b) :
    RealArr (lin128 x W b) := fun i => by
  unfold lin128 lin128At
  exact (IsReal.sum _ _ fun k _ => (hx _).mul (hW _)).add (hb _)

theorem lin64_real {x : Arr 50000 64} {W : Arr 64 64} {b : Arr 1 64} (hx : RealArr x) (hW : RealArr W) (hb : RealArr b) :
    RealArr (lin64 x W b) := fun i => by
  unfold lin64 lin64At
  exact (IsReal.sum _ _ fun k _ => (hx _).mul (hW _)).add (hb _)

theorem proj_real {h : Arr 50000 64} {Mt : Arr 64 1024} (hh : RealArr h) (hM : RealArr Mt) : RealArr (proj h Mt) := fun i => by
  unfold proj projAt
  exact IsReal.sum _ _ fun k _ => (hh _).mul (hM _)

theorem lin2_real {h : Arr 50000 64} {W : Arr 64 2} {b : Arr 1 2} (hh : RealArr h) (hW : RealArr W) (hb : RealArr b) :
    RealArr (lin2 h W b) := fun i => by
  unfold lin2 lin2At
  exact (IsReal.sum _ _ fun k _ => (hh _).mul (hW _)).add (hb _)

theorem addv_real {h a : Arr 50000 64} (hh : RealArr h) (ha : RealArr a) : RealArr (addv h a) := fun i => (hh i).add (ha i)

theorem colsum_real {o : Arr 50000 64} (ho : RealArr o) : RealArr (colsum o) := fun i => by
  unfold colsum colsumAt
  exact IsReal.sum Finset.univ (fun n : Fin 50000 => o (ix2 n (col i))) fun n _ => ho _

theorem colsumsq_real {o : Arr 50000 64} (ho : RealArr o) : RealArr (colsumsq o) := fun i => by
  unfold colsumsq colsumsqAt
  exact IsReal.sum Finset.univ (fun n : Fin 50000 => o (ix2 n (col i)) * o (ix2 n (col i))) fun n _ => (ho _).mul (ho _)

/-- The normalised, rectified output is real when the variance plus the guard is a positive real in every feature. -/
theorem bnrelu_real {o : Arr 50000 64} {mu var g be : Arr 1 64} (ho : RealArr o) (hm : RealArr mu) (hg : RealArr g) (hb : RealArr be)
    (hv : ∀ f : Fin 64, ∃ r : ℝ, 0 < r ∧ var (ix2 0 f) + eps = (r : EReal)) : RealArr (bnrelu o mu var g be) := fun i => by
  obtain ⟨r, hr, e⟩ := hv (col i)
  unfold bnrelu bnreluAt
  rw [e]
  exact ((((ho _).sub (hm _)).mul (IsReal.rsqrt_of_pos hr)).mul (hg _)).add (hb _) |>.max IsReal.zero

/-- A nonnegative real variance plus the guard is a positive real. -/
theorem var_add_eps_pos {v : EReal} {r : ℝ} (hr : 0 ≤ r) (hv : v = (r : EReal)) : ∃ s : ℝ, 0 < s ∧ v + eps = (s : EReal) := by
  obtain ⟨e, he, ee⟩ := eps_pos
  exact ⟨r + e, by positivity, by rw [hv, ee, EReal.coe_add]⟩

end Cert.Spec

end
-- ==== Proof.Stats.lean ====
/-
  The batch statistics, in one pass and in two.

  One program sums each feature and its square over all nodes in a single sweep, divides both by the number of
  nodes `n`, and forms `max (Q / n - (S / n) · (S / n)) 0`; the other forms the mean `S / n` first and then
  the mean of the squared deviations from it.  For a column of real entries the two variances are the same
  nonnegative real (expand the square), so the clamp at zero is the identity; with the positive guard added,
  the reciprocal square root is taken of a positive real.  The means agree outright.  Also the small facts the
  second program's outlined variance needs: its divisor `n - 0` is `n`, and its test `n - 0 > 0` holds.
-/
import proofs.«177069_j18983755448416_1_alg».proof.Proof.LibVariance
import proofs.«177069_j18983755448416_1_alg».proof.Proof.Real

noncomputable section

open scoped BigOperators
open Idealize.ShloMosaic Idealize.ShloMosaic.ValueIdx Cert.Lib

namespace Cert.Spec

/-- The number of nodes as both programs spell it: the word of 50000.0. -/
def nodes : EReal := Ideal.ofBits .f32 0x47435000#32

theorem nodes_eq : nodes = ((50000 : ℝ) : EReal) := ofBits_nodes

/-- The mean of feature `f`: its sum over all nodes divided by their number. -/
def meanAt (o : Arr 50000 64) (f : Fin 64) : EReal := Ideal.div (colsumAt o f) nodes
def mean (o : Arr 50000 64) : Arr 1 64 := fun i => meanAt o (col i)

/-- The variance of feature `f` from the sum and the sum of squares, clamped at zero. -/
def varOnePassAt (o : Arr 50000 64) (f : Fin 64) : EReal :=
  max (Ideal.div (colsumsqAt o f) nodes - meanAt o f * meanAt o f) 0
def varOnePass (o : Arr 50000 64) : Arr 1 64 := fun i => varOnePassAt o (col i)

/-- The variance of feature `f` as the mean of the squared deviations from the mean. -/
def varTwoPassAt (o : Arr 50000 64) (f : Fin 64) : EReal :=
  Ideal.div (∑ n : Fin 50000, (o (ix2 n f) - meanAt o f) * (o (ix2 n f) - meanAt o f)) nodes
def varTwoPass (o : Arr 50000 64) : Arr 1 64 := fun i => varTwoPassAt o (col i)

theorem mean_apply (o : Arr 50000 64) (z : Fin 1) (f : Fin 64) : mean o (ix2 z f) = meanAt o f := rfl
theorem varOnePass_apply (o : Arr 50000 64) (z : Fin 1) (f : Fin 64) : varOnePass o (ix2 z f) = varOnePassAt o f := rfl
theorem varTwoPass_apply (o : Arr 50000 64) (z : Fin 1) (f : Fin 64) : varTwoPass o (ix2 z f) = varTwoPassAt o f := rfl

/-- The mean as the host forms it from the one-row sum: the quotient, entry by entry. -/
theorem mean_eq_div (o : Arr 50000 64) (i : (⟨2, ![1, 64]⟩ : Shape).Idx) : mean o i = Ideal.div (colsum o i) nodes := rfl

/-- The one-pass variance as the host forms it from the one-row sums. -/
theorem varOnePass_eq (o : Arr 50000 64) (i : (⟨2, ![1, 64]⟩ : Shape).Idx) :
    varOnePass o i = max (Ideal.div (colsumsq o i) nodes - mean o i * mean o i) 0 := rfl

/-- A reduction that starts from the zero word: the mean of the second program. -/
theorem mean_of_zero_init (o : Arr 50000 64) (f : Fin 64) :
    Ideal.div (Ideal.ofBits .f32 0x00000000#32 + colsumAt o f) nodes = meanAt o f := by
  rw [Ideal.ofBits_zero_f32, zero_add]; rfl

/-- The statistics of one column of real entries: the clamped one-pass variance and the two-pass variance are
    one nonnegative real. -/
theorem column_variance (x : Fin 50000 → EReal) (hx : ∀ n, IsReal (x n)) :
    ∃ v : ℝ, 0 ≤ v
      ∧ max (Ideal.div (∑ n, x n * x n) nodes - Ideal.div (∑ n, x n) nodes * Ideal.div (∑ n, x n) nodes) 0 = (v : EReal)
      ∧ Ideal.div (∑ n, (x n - Ideal.div (∑ m, x m) nodes) * (x n - Ideal.div (∑ m, x m) nodes)) nodes = (v : EReal) := by
  obtain ⟨v, hv, h2, h1⟩ := var_two_pass_eq_one_pass x hx (n := 50000) (by norm_num) (by simp)
  rw [nodes_eq]
  refine ⟨v, hv, ?_, h2⟩
  rw [h1]
  exact max_eq_left (EReal.coe_nonneg.2 hv)

/-- For a real array, each feature's two variances are one nonnegative real. -/
theorem var_real_nonneg {o : Arr 50000 64} (ho : RealArr o) (f : Fin 64) :
    ∃ v : ℝ, 0 ≤ v ∧ varOnePassAt o f = (v : EReal) ∧ varTwoPassAt o f = (v : EReal) :=
  column_variance (fun n => o (ix2 n f)) fun n => ho _

/-- The law that needs finiteness: on a real array the one-pass variance, clamped, is the two-pass variance. -/
theorem varOnePassAt_eq_varTwoPassAt {o : Arr 50000 64} (ho : RealArr o) (f : Fin 64) : varOnePassAt o f = varTwoPassAt o f := by
  obtain ⟨v, _, h1, h2⟩ := var_real_nonneg ho f
  rw [h1, h2]

theorem varOnePass_eq_varTwoPass {o : Arr 50000 64} (ho : RealArr o) : varOnePass o = varTwoPass o :=
  funext fun i => varOnePassAt_eq_varTwoPassAt ho (col i)

/-- The mean of a real array is real. -/
theorem mean_real {o : Arr 50000 64} (ho : RealArr o) : RealArr (mean o) := fun i => by
  unfold mean meanAt
  rw [nodes_eq]
  exact (colsum_real ho (ix2 0 (col i))).div_coe (by norm_num)

/-- The variance of a real array is real … -/
theorem varOnePass_real {o : Arr 50000 64} (ho : RealArr o) : RealArr (varOnePass o) := fun i => by
  obtain ⟨v, _, h1, _⟩ := var_real_nonneg ho (col i)
  exact ⟨v, h1⟩

/-- … and with the guard added it is a positive real in every feature: what the normalisation takes the
    reciprocal square root of. -/
theorem varOnePass_add_eps_pos {o : Arr 50000 64} (ho : RealArr o) (f : Fin 64) :
    ∃ r : ℝ, 0 < r ∧ varOnePass o (ix2 0 f) + eps = (r : EReal) := by
  obtain ⟨v, hv, h1, _⟩ := var_real_nonneg ho f
  exact var_add_eps_pos hv h1

theorem varTwoPass_add_eps_pos {o : Arr 50000 64} (ho : RealArr o) (f : Fin 64) :
    ∃ r : ℝ, 0 < r ∧ varTwoPass o (ix2 0 f) + eps = (r : EReal) := by
  rw [← varOnePass_eq_varTwoPass ho]; exact varOnePass_add_eps_pos ho f

/-- So the normalised output of a real array, under its own statistics, is real. -/
theorem bnrelu_stats_real {o : Arr 50000 64} {g be : Arr 1 64} (ho : RealArr o) (hg : RealArr g) (hb : RealArr be) :
    RealArr (bnrelu o (mean o) (varOnePass o) g be) :=
  bnrelu_real ho (mean_real ho) hg hb (varOnePass_add_eps_pos ho)

/-! ## The outlined variance's divisor and test -/

/-- The divisor `n - ddof` with `ddof` the integer zero converted: `n`. -/
theorem nodes_sub_ddof : nodes - (((0#32 : BitVec 32).toInt : ℝ) : EReal) = nodes := by
  rw [show ((0#32 : BitVec 32).toInt : ℝ) = 0 by simp]
  simp

/-- The test `n - ddof > 0` holds. -/
theorem nodes_gt_zero : Ideal.cmp .ogt nodes (Ideal.ofBits .f32 0x00000000#32) = 1#1 := by
  rw [Ideal.ofBits_zero_f32, nodes_eq]
  simp [Ideal.cmp]

end Cert.Spec

end
-- ==== Proof.Ref.StatRead.lean ====
/-
  The second program's column statistics and normalisation, read in the specification's words.

  The column mean is the column sum (a reduction down the rows from the zero word) divided by the number of
  nodes.  The column variance subtracts the mean, laid as a row and repeated down the rows, squares, sums down
  the rows and divides by `n - 0`, keeping the quotient where `n - 0 > 0`: the divisor is `n` and the test
  holds, so this is the mean of the squared deviations.  The normalisation then reads, entry by entry, as the
  specification's, with the mean and the variance laid as one-row arrays.
-/
import proofs.«177069_j18983755448416_1_alg».proof.Proof.Ref.Stages
import proofs.«177069_j18983755448416_1_alg».proof.Proof.Stats
import Idealize.ShloMosaic.Lib.Pipeline.Value

noncomputable section

open scoped BigOperators

namespace Cert.ReferenceIdeal.Hand

open Cert.ReferenceIdeal Cert.ReferenceIdeal.Gen
open Idealize.ShloMosaic Idealize.ShloMosaic.ValueIdx

/-! ## Layout: a vector as a row, a row repeated down the rows -/

/-- A length-64 vector laid as one row reads, at column `f`, the vector's entry `f`. -/
theorem row_apply (v : S64.Idx → EReal) (z : Fin 1) (f : Fin 64) : row (F := Ideal) v (ix2 z f) = v (ix1 f) :=
  broadcastInDim_apply _ _ v _ (ix1 f) fun a => by
    match a with
    | ⟨0, _⟩ => rfl

/-- A one-row array repeated down all rows reads, at `(n, f)`, the row's entry `f`. -/
theorem rows_apply (r : S1x64.Idx → EReal) (n : Fin 50000) (f : Fin 64) : rows (F := Ideal) r (ix2 n f) = r (ix2 0 f) :=
  broadcastInDim_apply _ _ r _ (ix2 0 f) fun a => by
    match a with
    | ⟨0, _⟩ => rfl
    | ⟨1, _⟩ => rfl

/-! ## A sum down the rows, on the host -/

/-- The host's sum of column `l` of an [a, b] array down its `a` rows: the initial value plus the finite sum. -/
theorem host_column_sum {a b : ℕ} (v : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (init : EReal) (l : Fin b) : Ideal.hostReduceAdd h' v init (ix1 l) = init + ∑ k : Fin a, v (ix2 k l) :=
  (Ideal.hostReduceAdd_single h' h v init (ix1 l)).trans
    (congrArg (init + ·) (Finset.sum_congr rfl fun k _ => congrArg v (funext fun c => Fin.ext (by
      match c with
      | ⟨0, _⟩ => rfl
      | ⟨1, _⟩ => rfl))))

/-- The column sum as the program takes it, from the zero word. -/
theorem colsum_read (o : S50000x64.Idx → EReal) (f : Fin 64) :
    Host.reduceAdd (F := Ideal) o (constant S_ .f32 0x00000000#32) reducesTo_S50000x64_S64_d0 h_S_ (ix1 f)
      = Cert.Spec.colsumAt o f := by
  show Ideal.hostReduceAdd reducesTo_S50000x64_S64_d0 o (Ideal.ofBits .f32 0x00000000#32) (ix1 f) = _
  rw [host_column_sum o reducesTo_S50000x64_S64_d0 (by decide) _ f, Ideal.ofBits_zero_f32, zero_add]
  rfl

/-! ## The mean and the variance -/

/-- The column mean at feature `f` is the specification's mean. -/
theorem colmean_apply (o : S50000x64.Idx → EReal) (f : Fin 64) : colmean (F := Ideal) o (ix1 f) = Cert.Spec.meanAt o f := by
  show Ideal.div (Host.reduceAdd (F := Ideal) o (constant S_ .f32 0x00000000#32) reducesTo_S50000x64_S64_d0 h_S_ (ix1 f))
      Cert.Spec.nodes = _
  rw [colsum_read]; rfl

/-- The mean inside the variance, laid as a row, is the same mean. -/
theorem varMean_apply (o : S50000x64.Idx → EReal) (f : Fin 64) : varMean (F := Ideal) o (ix2 0 f) = Cert.Spec.meanAt o f := by
  show Ideal.div (row (F := Ideal) (Host.reduceAdd (F := Ideal) o (constant S_ .f32 0x00000000#32) reducesTo_S50000x64_S64_d0 h_S_)
      (ix2 0 f)) Cert.Spec.nodes = _
  rw [row_apply, colsum_read]; rfl

/-- A squared deviation from the column's mean. -/
theorem devsq_apply (o : S50000x64.Idx → EReal) (n : Fin 50000) (f : Fin 64) :
    devsq (F := Ideal) o (ix2 n f)
      = (o (ix2 n f) - Cert.Spec.meanAt o f) * (o (ix2 n f) - Cert.Spec.meanAt o f) := by
  show (o (ix2 n f) - rows (F := Ideal) (varMean (F := Ideal) o) (ix2 n f))
      * (o (ix2 n f) - rows (F := Ideal) (varMean (F := Ideal) o) (ix2 n f)) = _
  rw [rows_apply, varMean_apply]

/-- The variance's divisor is the number of nodes. -/
theorem nEff_apply (i : S_.Idx) : nEff (F := Ideal) i = Cert.Spec.nodes :=
  Cert.Spec.nodes_sub_ddof

/-- The column variance at feature `f` is the specification's two-pass variance. -/
theorem colvar_apply (o : S50000x64.Idx → EReal) (f : Fin 64) : colvar (F := Ideal) o (ix1 f) = Cert.Spec.varTwoPassAt o f := by
  show Scalar.select (Ideal.cmp .ogt (nEff (F := Ideal) _) (Ideal.ofBits .f32 0x00000000#32))
      (Ideal.div (Host.reduceAdd (F := Ideal) (devsq (F := Ideal) o) (constant S_ .f32 0x00000000#32) reducesTo_S50000x64_S64_d0 h_S_ (ix1 f))
        (nEff (F := Ideal) _)) _ = _
  rw [nEff_apply, Cert.Spec.nodes_gt_zero, select_one, colsum_read]
  unfold Cert.Spec.colsumAt Cert.Spec.varTwoPassAt
  refine congrArg (Ideal.div · Cert.Spec.nodes) (Finset.sum_congr rfl fun n _ => devsq_apply o n f)

/-- As one-row arrays: the mean and the variance of the second program are the specification's mean and two-pass variance. -/
theorem row_colmean (o : S50000x64.Idx → EReal) : row (F := Ideal) (colmean (F := Ideal) o) = Cert.Spec.mean o := by
  funext i
  obtain ⟨z, f, rfl⟩ : ∃ (z : Fin 1) (f : Fin 64), i = ix2 z f := ⟨i 0, i 1, eq_ix2 i⟩
  rw [row_apply, colmean_apply]; rfl

theorem row_colvar (o : S50000x64.Idx → EReal) : row (F := Ideal) (colvar (F := Ideal) o) = Cert.Spec.varTwoPass o := by
  funext i
  obtain ⟨z, f, rfl⟩ : ∃ (z : Fin 1) (f : Fin 64), i = ix2 z f := ⟨i 0, i 1, eq_ix2 i⟩
  rw [row_apply, colvar_apply]; rfl

/-! ## The normalisation -/

/-- The normalisation, the affine map and the maximum with zero, entry by entry, are the specification's, under the
    program's own mean and variance laid as rows. -/
theorem bn_eq (o : S50000x64.Idx → EReal) (g be : S64.Idx → EReal) :
    bn (F := Ideal) o g be
      = Cert.Spec.bnrelu o (row (F := Ideal) (colmean (F := Ideal) o)) (row (F := Ideal) (colvar (F := Ideal) o))
          (row (F := Ideal) g) (row (F := Ideal) be) := by
  funext i
  obtain ⟨n, f, rfl⟩ : ∃ (n : Fin 50000) (f : Fin 64), i = ix2 n f := ⟨i 0, i 1, eq_ix2 i⟩
  show max ((((o (ix2 n f) - rows (F := Ideal) (row (F := Ideal) (colmean (F := Ideal) o)) (ix2 n f))
        * rows (F := Ideal) (row (F := Ideal) (Host.rsqrt (F := Ideal) (vareps (F := Ideal) (colvar (F := Ideal) o)))) (ix2 n f))
        * rows (F := Ideal) (row (F := Ideal) g) (ix2 n f)) + rows (F := Ideal) (row (F := Ideal) be) (ix2 n f))
      (Ideal.ofBits .f32 0x00000000#32) = _
  rw [Cert.Spec.bnrelu_apply]
  unfold Cert.Spec.bnreluAt
  simp only [rows_apply, row_apply, Ideal.ofBits_zero_f32]
  rfl

end Cert.ReferenceIdeal.Hand

end
-- ==== Proof.Layer.lean ====
/-
  One layer's normalisation under the two arrangements of its statistics.

  Both programs normalise the same array `o` by its own column means and variances; one forms the variance in a
  single pass and clamps it at zero, the other as the mean of the squared deviations.  For a real array the two
  variances are equal, hence so are the normalised outputs; and the output is again real, which carries the
  argument to the next layer.
-/
import proofs.«177069_j18983755448416_1_alg».proof.Proof.Stats

noncomputable section

open Idealize.ShloMosaic Idealize.ShloMosaic.ValueIdx Cert.Lib

namespace Cert.Spec

/-- The statistics agree: the same mean, and the clamped one-pass variance is the two-pass variance. -/
theorem stats_agree {o : Arr 50000 64} (ho : RealArr o) : varOnePass o = varTwoPass o := varOnePass_eq_varTwoPass ho

/-- The layer law: the normalised output under the one-pass statistics is the one under the two-pass statistics. -/
theorem layer_law {o : Arr 50000 64} (ho : RealArr o) (g be : Arr 1 64) :
    bnrelu o (mean o) (varOnePass o) g be = bnrelu o (mean o) (varTwoPass o) g be := by
  rw [stats_agree ho]

/-- The same with the statistics given as arrays known to be the mean and the two variances. -/
theorem layer_law_of_eq {o : Arr 50000 64} (ho : RealArr o) {mu mu' var var' : Arr 1 64} (g be : Arr 1 64)
    (hmu : mu = mean o) (hvar : var = varOnePass o) (hmu' : mu' = mean o) (hvar' : var' = varTwoPass o) :
    bnrelu o mu var g be = bnrelu o mu' var' g be := by
  rw [hmu, hvar, hmu', hvar', stats_agree ho]

/-- The layer's output is real, under either arrangement. -/
theorem layer_real {o : Arr 50000 64} {g be : Arr 1 64} (ho : RealArr o) (hg : RealArr g) (hb : RealArr be) :
    RealArr (bnrelu o (mean o) (varOnePass o) g be) := bnrelu_stats_real ho hg hb

theorem layer_real' {o : Arr 50000 64} {g be : Arr 1 64} (ho : RealArr o) (hg : RealArr g) (hb : RealArr be) :
    RealArr (bnrelu o (mean o) (varTwoPass o) g be) := by
  rw [← stats_agree ho]; exact bnrelu_stats_real ho hg hb

end Cert.Spec

end
-- ==== Proof.Ref.StageReal.lean ====
/-
  The stages of the second program keep arrays real.

  Each stage composes operations that keep arrays real: re-indexing (the blocks, a vector as a row, a row
  repeated down the rows, the gathered rows), sums of products (the affine maps, the products against the
  blocks), the scatter with an add body into a zero array, and the entrywise sum.  The normalisation is real by
  its reading in the specification's words.
-/
import proofs.«177069_j18983755448416_1_alg».proof.Proof.Ref.StatRead
import proofs.«177069_j18983755448416_1_alg».proof.Proof.Layer

noncomputable section

namespace Cert.ReferenceIdeal.Hand

open Cert.ReferenceIdeal Cert.ReferenceIdeal.Gen Cert.Spec
open Idealize.ShloMosaic Idealize.ShloMosaic.ValueIdx

theorem basis_real {M : S2x2x4x64x64.Idx → EReal} (h : RealArr M) : RealArr (basis (F := Ideal) M) := real_shapeCast h _

theorem row_real {v : S64.Idx → EReal} (h : RealArr v) : RealArr (row (F := Ideal) v) := real_broadcastInDim h _ _

theorem rows_real {r : S1x64.Idx → EReal} (h : RealArr r) : RealArr (rows (F := Ideal) r) := real_broadcastInDim h _ _

theorem lin128_real' {x : S50000x128.Idx → EReal} {W : S128x64.Idx → EReal} {b : S64.Idx → EReal}
    (hx : RealArr x) (hW : RealArr W) (hb : RealArr b) : RealArr (lin128 (F := Ideal) x W b) :=
  real_addf (real_dotGeneral _ _ hx hW) (rows_real (row_real hb))

theorem lin64_real' {h : S50000x64.Idx → EReal} {W : S64x64.Idx → EReal} {b : S64.Idx → EReal}
    (hh : RealArr h) (hW : RealArr W) (hb : RealArr b) : RealArr (lin64 (F := Ideal) h W b) :=
  real_addf (real_dotGeneral _ _ hh hW) (rows_real (row_real hb))

theorem lin2_real' {h : S50000x64.Idx → EReal} {W : S64x2.Idx → EReal} {b : S2.Idx → EReal}
    (hh : RealArr h) (hW : RealArr W) (hb : RealArr b) : RealArr (lin2 (F := Ideal) h W b) :=
  real_addf (real_dotGeneral _ _ hh hW) (real_broadcastInDim (real_broadcastInDim hb _ _) _ _)

theorem proj_real' {h : S50000x64.Idx → EReal} {B : S16x64x64.Idx → EReal} (hh : RealArr h) (hB : RealArr B) :
    RealArr (proj (F := Ideal) h B) := real_dotGeneral _ _ hh hB

/-- A layer before normalisation is real, whatever the edges. -/
theorem pre_real {h : S50000x64.Idx → EReal} {B : S16x64x64.Idx → EReal} (hh : RealArr h) (hB : RealArr B)
    (src c dst : IVec S800000 32) : RealArr (pre (F := Ideal) h B src c dst) :=
  real_addf hh (real_scatterAdd _ _ (real_broadcastInDim real_constant_zero _ _) (real_gather _ _ (proj_real' hh hB)))

/-- The normalised output of a real array is real. -/
theorem bn_real {o : S50000x64.Idx → EReal} {g be : S64.Idx → EReal} (ho : RealArr o) (hg : RealArr g) (hb : RealArr be) :
    RealArr (bn (F := Ideal) o g be) := by
  rw [bn_eq, row_colmean, row_colvar]
  exact layer_real' ho (row_real hg) (row_real hb)

end Cert.ReferenceIdeal.Hand

end
-- ==== Proof.KI.StatRead.lean ====
/-
  The host's mean and clamped one-pass variance, read in the specification's words.

  Between the statistics region and the normalisation region the host divides the one-row sum and the one-row
  sum of squares by the number of nodes and forms `max (Q / n - (S / n) · (S / n)) 0`.  Applied to the column
  sums and the column sums of squares of an array, these are the specification's mean and one-pass variance
  of that array, entry by entry.  Also: a length-64 vector laid as one row reads, at column `f`, entry `f`.
-/
import proofs.«177069_j18983755448416_1_alg».proof.Proof.KI.HostFns
import proofs.«177069_j18983755448416_1_alg».proof.Proof.Stats
import Idealize.ShloMosaic.Lib.ValueLayout

noncomputable section

namespace Cert.KernelIdeal.Hand

open Cert.KernelIdeal Cert.KernelIdeal.Gen
open Idealize.ShloMosaic Idealize.ShloMosaic.ValueIdx

/-- The host quotient by the number of nodes, at an entry. -/
theorem kMean_apply (s : S1x64.Idx → EReal) (i : S1x64.Idx) : kMean s i = Ideal.div (s i) Cert.Spec.nodes := rfl

/-- The host's clamped difference, at an entry. -/
theorem kVar_apply (s q : S1x64.Idx → EReal) (i : S1x64.Idx) :
    kVar s q i = max (Ideal.div (q i) Cert.Spec.nodes - Ideal.div (s i) Cert.Spec.nodes * Ideal.div (s i) Cert.Spec.nodes) 0 := by
  show max (Ideal.div (q i) Cert.Spec.nodes - Ideal.div (s i) Cert.Spec.nodes * Ideal.div (s i) Cert.Spec.nodes)
      (Ideal.ofBits .f32 0x00000000#32) = _
  rw [Ideal.ofBits_zero_f32]

/-- The host's mean of the column sums is the specification's mean. -/
theorem kMean_colsum (o : Cert.Spec.Arr 50000 64) : kMean (Cert.Spec.colsum o) = Cert.Spec.mean o := rfl

/-- The host's variance from the column sums and the column sums of squares is the specification's one-pass variance. -/
theorem kVar_colsum (o : Cert.Spec.Arr 50000 64) :
    kVar (Cert.Spec.colsum o) (Cert.Spec.colsumsq o) = Cert.Spec.varOnePass o := by
  funext i
  rw [kVar_apply]
  rfl

theorem kMean_colsum_apply (o : Cert.Spec.Arr 50000 64) (f : Fin 64) :
    kMean (Cert.Spec.colsum o) (ix2 0 f) = Cert.Spec.meanAt o f := rfl

theorem kVar_colsum_apply (o : Cert.Spec.Arr 50000 64) (f : Fin 64) :
    kVar (Cert.Spec.colsum o) (Cert.Spec.colsumsq o) (ix2 0 f) = Cert.Spec.varOnePassAt o f := by
  rw [kVar_colsum]; rfl

/-- A length-64 vector as a one-row array reads, at column `f`, the vector's entry `f`. -/
theorem kRow64_apply (a : S64.Idx → EReal) (z : Fin 1) (f : Fin 64) : kRow64 a (ix2 z f) = a (ix1 f) :=
  shapeCast_a_1a_apply a shapeCasts_S64_S1x64 z f

/-- A length-2 vector as a one-row array reads, at column `c`, the vector's entry `c`. -/
theorem kRow2_apply (a : S2.Idx → EReal) (z : Fin 1) (c : Fin 2) : kRow2 a (ix2 z c) = a (ix1 c) :=
  shapeCast_a_1a_apply a shapeCasts_S2_S1x2 z c

end Cert.KernelIdeal.Hand

end
-- ==== Proof.KI.HostReal.lean ====
/-
  The host operations between the regions keep arrays real.

  The re-laid cross basis and the bias rows only read entries of their operands; the aggregation adds, into a
  zero array, rows gathered from a real array; the mean and the clamped one-pass variance divide real sums by
  the number of nodes, multiply, subtract and take a maximum with zero.
-/
import proofs.«177069_j18983755448416_1_alg».proof.Proof.KI.HostFns
import proofs.«177069_j18983755448416_1_alg».proof.Proof.Real

noncomputable section

namespace Cert.KernelIdeal.Hand

open Cert.KernelIdeal Cert.KernelIdeal.Gen Cert.Spec
open Idealize.ShloMosaic Idealize.ShloMosaic.ValueIdx

theorem kMt_real {a1 : S2x2x4x64x64.Idx → EReal} (h : RealArr a1) : RealArr (kMt a1) :=
  real_transpose (real_shapeCast (real_shapeCast h _) _) _ _

theorem kRow64_real {a : S64.Idx → EReal} (h : RealArr a) : RealArr (kRow64 a) := real_shapeCast h _

theorem kRow2_real {a : S2.Idx → EReal} (h : RealArr a) : RealArr (kRow2 a) := real_shapeCast h _

/-- The aggregation of a real array's rows is real, whatever the edges. -/
theorem kAgg_real {T : S50000x1024.Idx → EReal} (h : RealArr T) (a2 a3 combo : IVec S800000 32) : RealArr (kAgg T a2 a3 combo) :=
  real_scatterAdd _ _ (real_broadcastInDim real_constant_zero _ _) (real_gather _ _ (real_shapeCast h _))

/-- A real row of sums divided by the number of nodes is real. -/
theorem kMean_real {s : S1x64.Idx → EReal} (h : RealArr s) : RealArr (kMean s) :=
  real_hostDivf h (c := 50000) (by norm_num) fun _ => ofBits_nodes

theorem kVar_real {s q : S1x64.Idx → EReal} (hs : RealArr s) (hq : RealArr q) : RealArr (kVar s q) :=
  real_maximumf (real_subf (kMean_real hq) (real_mulf (kMean_real hs) (kMean_real hs)))
    (real_broadcastInDim real_constant_zero _ _)

end Cert.KernelIdeal.Hand

end
-- ==== Proof.Bridge.lean ====
import proofs.«177069_j18983755448416_1_alg».proof.Proof.BridgeAgg
import proofs.«177069_j18983755448416_1_alg».proof.Proof.Ref.Read
import proofs.«177069_j18983755448416_1_alg».proof.Proof.Ref.StatRead
import proofs.«177069_j18983755448416_1_alg».proof.Proof.Ref.StageReal
import proofs.«177069_j18983755448416_1_alg».proof.Proof.KI.StatRead
import proofs.«177069_j18983755448416_1_alg».proof.Proof.KI.HostReal
import proofs.«177069_j18983755448416_1_alg».proof.Proof.Layer

/-! # The two programs compute the same function of the twenty argument arrays

Each layer takes a node transform `h`, adds to it the aggregation of its products against the cross basis,
and normalises the sum `o` by `o`'s own column statistics. The two programs differ in three places only:
the bias, the scale and the shift are laid as one-row arrays by a reshape in one and by a broadcast in the
other (both read entry `f` of the vector at column `f`); the product against the basis is taken against a
re-laid basis in one and against the sixteen blocks in the other (the same sums); and the variance is the
clamped `Q/n − (S/n)²` in one and the mean of squared deviations in the other, which agree on a real array.
So, for real arguments, each layer's outputs agree and are real again, and after three layers the final affine
maps agree. -/

noncomputable section

namespace Cert.Bridge

open Idealize.ShloMosaic Idealize.ShloMosaic.ValueIdx
open Cert.Spec
open Cert.KernelIdeal.Hand (kMt kRow64 kRow2 kCombo kAgg kMean kVar)

/-! ## The first program's stages, from the argument arrays -/

/-- The residual sum of a layer: the node transform plus the aggregation of its products against the basis. -/
def kO (h : Arr 50000 64) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) : Arr 50000 64 :=
  addv h (kAgg (proj h (kMt a1)) a2 a3 (kCombo a2 a3 a4 a5))

/-- A layer's output: the residual sum normalised by its own one-pass statistics, scaled, shifted, rectified. -/
def kLayer (h : Arr 50000 64) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (g be : Cert.KernelIdeal.S64.Idx → EReal) : Arr 50000 64 :=
  bnrelu (kO h a1 a2 a3 a4 a5) (kMean (colsum (kO h a1 a2 a3 a4 a5)))
    (kVar (colsum (kO h a1 a2 a3 a4 a5)) (colsumsq (kO h a1 a2 a3 a4 a5))) (kRow64 g) (kRow64 be)

/-- The three layers' outputs and the result. -/
def kY1 (a0 : Arr 50000 128) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (a6 : Arr 128 64) (a7 : Cert.KernelIdeal.S64.Idx → EReal) (a8 : Cert.KernelIdeal.S64.Idx → EReal) (a9 : Cert.KernelIdeal.S64.Idx → EReal) : Arr 50000 64 :=
  kLayer (lin128 a0 a6 (kRow64 a7)) a1 a2 a3 a4 a5 a8 a9
def kY2 (a0 : Arr 50000 128) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (a6 : Arr 128 64) (a7 : Cert.KernelIdeal.S64.Idx → EReal) (a8 : Cert.KernelIdeal.S64.Idx → EReal) (a9 : Cert.KernelIdeal.S64.Idx → EReal) (a10 : Arr 64 64) (a11 : Cert.KernelIdeal.S64.Idx → EReal) (a12 : Cert.KernelIdeal.S64.Idx → EReal) (a13 : Cert.KernelIdeal.S64.Idx → EReal) : Arr 50000 64 :=
  kLayer (lin64 (kY1 a0 a1 a2 a3 a4 a5 a6 a7 a8 a9) a10 (kRow64 a11)) a1 a2 a3 a4 a5 a12 a13
def kY3 (a0 : Arr 50000 128) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (a6 : Arr 128 64) (a7 : Cert.KernelIdeal.S64.Idx → EReal) (a8 : Cert.KernelIdeal.S64.Idx → EReal) (a9 : Cert.KernelIdeal.S64.Idx → EReal) (a10 : Arr 64 64) (a11 : Cert.KernelIdeal.S64.Idx → EReal) (a12 : Cert.KernelIdeal.S64.Idx → EReal) (a13 : Cert.KernelIdeal.S64.Idx → EReal) (a14 : Arr 64 64) (a15 : Cert.KernelIdeal.S64.Idx → EReal) (a16 : Cert.KernelIdeal.S64.Idx → EReal) (a17 : Cert.KernelIdeal.S64.Idx → EReal) : Arr 50000 64 :=
  kLayer (lin64 (kY2 a0 a1 a2 a3 a4 a5 a6 a7 a8 a9 a10 a11 a12 a13) a14 (kRow64 a15)) a1 a2 a3 a4 a5 a16 a17
def kRes (a0 : Arr 50000 128) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (a6 : Arr 128 64) (a7 : Cert.KernelIdeal.S64.Idx → EReal) (a8 : Cert.KernelIdeal.S64.Idx → EReal) (a9 : Cert.KernelIdeal.S64.Idx → EReal) (a10 : Arr 64 64) (a11 : Cert.KernelIdeal.S64.Idx → EReal) (a12 : Cert.KernelIdeal.S64.Idx → EReal) (a13 : Cert.KernelIdeal.S64.Idx → EReal) (a14 : Arr 64 64) (a15 : Cert.KernelIdeal.S64.Idx → EReal) (a16 : Cert.KernelIdeal.S64.Idx → EReal) (a17 : Cert.KernelIdeal.S64.Idx → EReal) (a18 : Arr 64 2) (a19 : Cert.KernelIdeal.S2.Idx → EReal) : Arr 50000 2 :=
  lin2 (kY3 a0 a1 a2 a3 a4 a5 a6 a7 a8 a9 a10 a11 a12 a13 a14 a15 a16 a17) a18 (kRow2 a19)

/-! ## The one-row layouts agree -/

/-- A length-64 vector laid as one row by a reshape or by a broadcast: entry `f` at column `f` either way. -/
theorem kRow64_eq_row (v : Cert.KernelIdeal.S64.Idx → EReal) : kRow64 v = Cert.ReferenceIdeal.Hand.row (F := Ideal) v := by
  funext i
  obtain ⟨z, f, rfl⟩ : ∃ (z : Fin 1) (f : Fin 64), i = ix2 z f := ⟨i 0, i 1, eq_ix2 i⟩
  exact (Cert.KernelIdeal.Hand.kRow64_apply v z f).trans (Cert.ReferenceIdeal.Hand.row_apply v z f).symm

/-- The same for a length-2 vector. -/
theorem kRow2_eq_row (v : Cert.KernelIdeal.S2.Idx → EReal) :
    kRow2 v = broadcastInDim Cert.ReferenceIdeal.S1x2 ![1] Cert.ReferenceIdeal.Gen.bcast_S2_S1x2_1 v := by
  funext i
  obtain ⟨z, o, rfl⟩ : ∃ (z : Fin 1) (o : Fin 2), i = ix2 z o := ⟨i 0, i 1, eq_ix2 i⟩
  refine (Cert.KernelIdeal.Hand.kRow2_apply v z o).trans (Eq.symm ?_)
  refine broadcastInDim_apply _ _ v _ (ix1 o) fun a => ?_
  match a with
  | ⟨0, _⟩ => rfl

/-! ## One layer -/

/-- The second program's layer before normalisation is the first program's residual sum. -/
theorem pre_eq (h : Arr 50000 64) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) :
    Cert.ReferenceIdeal.Hand.pre (F := Ideal) h (Cert.ReferenceIdeal.Hand.basis (F := Ideal) a1) a2 (Cert.ReferenceIdeal.Hand.combo (F := Ideal) a4 a2 a3 a5) a3
      = kO h a1 a2 a3 a4 a5 := by
  unfold Cert.ReferenceIdeal.Hand.pre kO
  rw [agg_bridge]
  rfl

/-- The residual sum of a real node transform is real. -/
theorem kO_real {h : Arr 50000 64} (hh : RealArr h) {a1 : Cert.KernelIdeal.S2x2x4x64x64.Idx → EReal} (h1 : RealArr a1) (a2 : IVec Cert.KernelIdeal.S800000 32) (a3 : IVec Cert.KernelIdeal.S800000 32) (a4 : IVec Cert.KernelIdeal.S50000 32) (a5 : IVec Cert.KernelIdeal.S800000 32) :
    RealArr (kO h a1 a2 a3 a4 a5) :=
  addv_real hh (Cert.KernelIdeal.Hand.kAgg_real (proj_real hh (Cert.KernelIdeal.Hand.kMt_real h1)) _ _ _)

/-- The layer law: on a real node transform the two programs' layers agree, … -/
theorem layer_bridge {h : Arr 50000 64} (hh : RealArr h) {a1 : Cert.KernelIdeal.S2x2x4x64x64.Idx → EReal} (h1 : RealArr a1) (a2 : IVec Cert.KernelIdeal.S800000 32) (a3 : IVec Cert.KernelIdeal.S800000 32) (a4 : IVec Cert.KernelIdeal.S50000 32) (a5 : IVec Cert.KernelIdeal.S800000 32)
    (g be : Cert.KernelIdeal.S64.Idx → EReal) :
    Cert.ReferenceIdeal.Hand.bn (F := Ideal) (Cert.ReferenceIdeal.Hand.pre (F := Ideal) h (Cert.ReferenceIdeal.Hand.basis (F := Ideal) a1) a2 (Cert.ReferenceIdeal.Hand.combo (F := Ideal) a4 a2 a3 a5) a3) g be
      = kLayer h a1 a2 a3 a4 a5 g be := by
  have ho := kO_real hh h1 a2 a3 a4 a5
  rw [pre_eq, Cert.ReferenceIdeal.Hand.bn_eq, Cert.ReferenceIdeal.Hand.row_colmean, Cert.ReferenceIdeal.Hand.row_colvar]
  unfold kLayer
  rw [Cert.KernelIdeal.Hand.kMean_colsum, Cert.KernelIdeal.Hand.kVar_colsum, kRow64_eq_row g, kRow64_eq_row be]
  exact (layer_law ho _ _).symm

/-- … and the output is real again. -/
theorem kLayer_real {h : Arr 50000 64} (hh : RealArr h) {a1 : Cert.KernelIdeal.S2x2x4x64x64.Idx → EReal} (h1 : RealArr a1) (a2 : IVec Cert.KernelIdeal.S800000 32) (a3 : IVec Cert.KernelIdeal.S800000 32) (a4 : IVec Cert.KernelIdeal.S50000 32) (a5 : IVec Cert.KernelIdeal.S800000 32)
    {g be : Cert.KernelIdeal.S64.Idx → EReal} (hg : RealArr g) (hb : RealArr be) : RealArr (kLayer h a1 a2 a3 a4 a5 g be) := by
  unfold kLayer
  rw [Cert.KernelIdeal.Hand.kMean_colsum, Cert.KernelIdeal.Hand.kVar_colsum]
  exact layer_real (kO_real hh h1 a2 a3 a4 a5) (Cert.KernelIdeal.Hand.kRow64_real hg) (Cert.KernelIdeal.Hand.kRow64_real hb)

/-! ## The three layers and the result -/

theorem kY1_real (a0 : Arr 50000 128) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (a6 : Arr 128 64) (a7 : Cert.KernelIdeal.S64.Idx → EReal) (a8 : Cert.KernelIdeal.S64.Idx → EReal) (a9 : Cert.KernelIdeal.S64.Idx → EReal) (h0 : RealArr a0) (h1 : RealArr a1) (h6 : RealArr a6) (h7 : RealArr a7) (h8 : RealArr a8) (h9 : RealArr a9) : RealArr (kY1 a0 a1 a2 a3 a4 a5 a6 a7 a8 a9) :=
  kLayer_real (lin128_real h0 h6 (Cert.KernelIdeal.Hand.kRow64_real h7)) h1 a2 a3 a4 a5 h8 h9

theorem kY2_real (a0 : Arr 50000 128) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (a6 : Arr 128 64) (a7 : Cert.KernelIdeal.S64.Idx → EReal) (a8 : Cert.KernelIdeal.S64.Idx → EReal) (a9 : Cert.KernelIdeal.S64.Idx → EReal) (a10 : Arr 64 64) (a11 : Cert.KernelIdeal.S64.Idx → EReal) (a12 : Cert.KernelIdeal.S64.Idx → EReal) (a13 : Cert.KernelIdeal.S64.Idx → EReal) (h0 : RealArr a0) (h1 : RealArr a1) (h6 : RealArr a6) (h7 : RealArr a7) (h8 : RealArr a8) (h9 : RealArr a9) (h10 : RealArr a10) (h11 : RealArr a11) (h12 : RealArr a12) (h13 : RealArr a13) : RealArr (kY2 a0 a1 a2 a3 a4 a5 a6 a7 a8 a9 a10 a11 a12 a13) :=
  kLayer_real (lin64_real (kY1_real a0 a1 a2 a3 a4 a5 a6 a7 a8 a9 h0 h1 h6 h7 h8 h9) h10 (Cert.KernelIdeal.Hand.kRow64_real h11)) h1 a2 a3 a4 a5 h12 h13

theorem kY3_real (a0 : Arr 50000 128) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (a6 : Arr 128 64) (a7 : Cert.KernelIdeal.S64.Idx → EReal) (a8 : Cert.KernelIdeal.S64.Idx → EReal) (a9 : Cert.KernelIdeal.S64.Idx → EReal) (a10 : Arr 64 64) (a11 : Cert.KernelIdeal.S64.Idx → EReal) (a12 : Cert.KernelIdeal.S64.Idx → EReal) (a13 : Cert.KernelIdeal.S64.Idx → EReal) (a14 : Arr 64 64) (a15 : Cert.KernelIdeal.S64.Idx → EReal) (a16 : Cert.KernelIdeal.S64.Idx → EReal) (a17 : Cert.KernelIdeal.S64.Idx → EReal) (h0 : RealArr a0) (h1 : RealArr a1) (h6 : RealArr a6) (h7 : RealArr a7) (h8 : RealArr a8) (h9 : RealArr a9) (h10 : RealArr a10) (h11 : RealArr a11) (h12 : RealArr a12) (h13 : RealArr a13) (h14 : RealArr a14) (h15 : RealArr a15) (h16 : RealArr a16) (h17 : RealArr a17) : RealArr (kY3 a0 a1 a2 a3 a4 a5 a6 a7 a8 a9 a10 a11 a12 a13 a14 a15 a16 a17) :=
  kLayer_real (lin64_real (kY2_real a0 a1 a2 a3 a4 a5 a6 a7 a8 a9 a10 a11 a12 a13 h0 h1 h6 h7 h8 h9 h10 h11 h12 h13) h14 (Cert.KernelIdeal.Hand.kRow64_real h15)) h1 a2 a3 a4 a5 h16 h17

/-- The first layer's outputs agree. -/
theorem h1_eq (a0 : Arr 50000 128) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (a6 : Arr 128 64) (a7 : Cert.KernelIdeal.S64.Idx → EReal) (a8 : Cert.KernelIdeal.S64.Idx → EReal) (a9 : Cert.KernelIdeal.S64.Idx → EReal) (a10 : Arr 64 64) (a11 : Cert.KernelIdeal.S64.Idx → EReal) (a12 : Cert.KernelIdeal.S64.Idx → EReal) (a13 : Cert.KernelIdeal.S64.Idx → EReal) (a14 : Arr 64 64) (a15 : Cert.KernelIdeal.S64.Idx → EReal) (a16 : Cert.KernelIdeal.S64.Idx → EReal) (a17 : Cert.KernelIdeal.S64.Idx → EReal) (a18 : Arr 64 2) (a19 : Cert.KernelIdeal.S2.Idx → EReal) (h0 : RealArr a0) (h1 : RealArr a1) (h6 : RealArr a6) (h7 : RealArr a7) (h8 : RealArr a8) (h9 : RealArr a9) : Cert.ReferenceIdeal.Hand.h1 (F := Ideal) ⟨a0, a1, a2, a3, a4, a5, a6, a7, a8, a9, a10, a11, a12, a13, a14, a15, a16, a17, a18, a19⟩ = kY1 a0 a1 a2 a3 a4 a5 a6 a7 a8 a9 := by
  show Cert.ReferenceIdeal.Hand.bn (F := Ideal) (Cert.ReferenceIdeal.Hand.pre (F := Ideal) (Cert.ReferenceIdeal.Hand.lin128 (F := Ideal) a0 a6 a7) (Cert.ReferenceIdeal.Hand.basis (F := Ideal) a1) a2 (Cert.ReferenceIdeal.Hand.combo (F := Ideal) a4 a2 a3 a5) a3) a8 a9 = _
  rw [Cert.ReferenceIdeal.Hand.lin128_eq, ← kRow64_eq_row]
  exact layer_bridge (lin128_real h0 h6 (Cert.KernelIdeal.Hand.kRow64_real h7)) h1 a2 a3 a4 a5 a8 a9

/-- The second layer's outputs agree. -/
theorem h2_eq (a0 : Arr 50000 128) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (a6 : Arr 128 64) (a7 : Cert.KernelIdeal.S64.Idx → EReal) (a8 : Cert.KernelIdeal.S64.Idx → EReal) (a9 : Cert.KernelIdeal.S64.Idx → EReal) (a10 : Arr 64 64) (a11 : Cert.KernelIdeal.S64.Idx → EReal) (a12 : Cert.KernelIdeal.S64.Idx → EReal) (a13 : Cert.KernelIdeal.S64.Idx → EReal) (a14 : Arr 64 64) (a15 : Cert.KernelIdeal.S64.Idx → EReal) (a16 : Cert.KernelIdeal.S64.Idx → EReal) (a17 : Cert.KernelIdeal.S64.Idx → EReal) (a18 : Arr 64 2) (a19 : Cert.KernelIdeal.S2.Idx → EReal) (h0 : RealArr a0) (h1 : RealArr a1) (h6 : RealArr a6) (h7 : RealArr a7) (h8 : RealArr a8) (h9 : RealArr a9) (h10 : RealArr a10) (h11 : RealArr a11) : Cert.ReferenceIdeal.Hand.h2 (F := Ideal) ⟨a0, a1, a2, a3, a4, a5, a6, a7, a8, a9, a10, a11, a12, a13, a14, a15, a16, a17, a18, a19⟩ = kY2 a0 a1 a2 a3 a4 a5 a6 a7 a8 a9 a10 a11 a12 a13 := by
  show Cert.ReferenceIdeal.Hand.bn (F := Ideal) (Cert.ReferenceIdeal.Hand.pre (F := Ideal) (Cert.ReferenceIdeal.Hand.lin64 (F := Ideal) (Cert.ReferenceIdeal.Hand.h1 (F := Ideal) ⟨a0, a1, a2, a3, a4, a5, a6, a7, a8, a9, a10, a11, a12, a13, a14, a15, a16, a17, a18, a19⟩) a10 a11) (Cert.ReferenceIdeal.Hand.basis (F := Ideal) a1) a2 (Cert.ReferenceIdeal.Hand.combo (F := Ideal) a4 a2 a3 a5) a3) a12 a13 = _
  rw [h1_eq a0 a1 a2 a3 a4 a5 a6 a7 a8 a9 a10 a11 a12 a13 a14 a15 a16 a17 a18 a19 h0 h1 h6 h7 h8 h9, Cert.ReferenceIdeal.Hand.lin64_eq, ← kRow64_eq_row]
  exact layer_bridge (lin64_real (kY1_real a0 a1 a2 a3 a4 a5 a6 a7 a8 a9 h0 h1 h6 h7 h8 h9) h10 (Cert.KernelIdeal.Hand.kRow64_real h11)) h1 a2 a3 a4 a5 a12 a13

/-- The third layer's outputs agree. -/
theorem h3_eq (a0 : Arr 50000 128) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (a6 : Arr 128 64) (a7 : Cert.KernelIdeal.S64.Idx → EReal) (a8 : Cert.KernelIdeal.S64.Idx → EReal) (a9 : Cert.KernelIdeal.S64.Idx → EReal) (a10 : Arr 64 64) (a11 : Cert.KernelIdeal.S64.Idx → EReal) (a12 : Cert.KernelIdeal.S64.Idx → EReal) (a13 : Cert.KernelIdeal.S64.Idx → EReal) (a14 : Arr 64 64) (a15 : Cert.KernelIdeal.S64.Idx → EReal) (a16 : Cert.KernelIdeal.S64.Idx → EReal) (a17 : Cert.KernelIdeal.S64.Idx → EReal) (a18 : Arr 64 2) (a19 : Cert.KernelIdeal.S2.Idx → EReal) (h0 : RealArr a0) (h1 : RealArr a1) (h6 : RealArr a6) (h7 : RealArr a7) (h8 : RealArr a8) (h9 : RealArr a9) (h10 : RealArr a10) (h11 : RealArr a11) (h12 : RealArr a12) (h13 : RealArr a13) (h14 : RealArr a14) (h15 : RealArr a15) : Cert.ReferenceIdeal.Hand.h3 (F := Ideal) ⟨a0, a1, a2, a3, a4, a5, a6, a7, a8, a9, a10, a11, a12, a13, a14, a15, a16, a17, a18, a19⟩ = kY3 a0 a1 a2 a3 a4 a5 a6 a7 a8 a9 a10 a11 a12 a13 a14 a15 a16 a17 := by
  show Cert.ReferenceIdeal.Hand.bn (F := Ideal) (Cert.ReferenceIdeal.Hand.pre (F := Ideal) (Cert.ReferenceIdeal.Hand.lin64 (F := Ideal) (Cert.ReferenceIdeal.Hand.h2 (F := Ideal) ⟨a0, a1, a2, a3, a4, a5, a6, a7, a8, a9, a10, a11, a12, a13, a14, a15, a16, a17, a18, a19⟩) a14 a15) (Cert.ReferenceIdeal.Hand.basis (F := Ideal) a1) a2 (Cert.ReferenceIdeal.Hand.combo (F := Ideal) a4 a2 a3 a5) a3) a16 a17 = _
  rw [h2_eq a0 a1 a2 a3 a4 a5 a6 a7 a8 a9 a10 a11 a12 a13 a14 a15 a16 a17 a18 a19 h0 h1 h6 h7 h8 h9 h10 h11, Cert.ReferenceIdeal.Hand.lin64_eq, ← kRow64_eq_row]
  exact layer_bridge (lin64_real (kY2_real a0 a1 a2 a3 a4 a5 a6 a7 a8 a9 a10 a11 a12 a13 h0 h1 h6 h7 h8 h9 h10 h11 h12 h13) h14 (Cert.KernelIdeal.Hand.kRow64_real h15)) h1 a2 a3 a4 a5 a16 a17

/-- For real arguments the second program's result is the first program's. -/
theorem result_bridge (a0 : Arr 50000 128) (a1 : Cert.KernelIdeal.S2x2x4x64x64.Idx → EReal) (a2 : IVec Cert.KernelIdeal.S800000 32) (a3 : IVec Cert.KernelIdeal.S800000 32) (a4 : IVec Cert.KernelIdeal.S50000 32) (a5 : IVec Cert.KernelIdeal.S800000 32) (a6 : Arr 128 64) (a7 : Cert.KernelIdeal.S64.Idx → EReal) (a8 : Cert.KernelIdeal.S64.Idx → EReal) (a9 : Cert.KernelIdeal.S64.Idx → EReal) (a10 : Arr 64 64) (a11 : Cert.KernelIdeal.S64.Idx → EReal) (a12 : Cert.KernelIdeal.S64.Idx → EReal) (a13 : Cert.KernelIdeal.S64.Idx → EReal) (a14 : Arr 64 64) (a15 : Cert.KernelIdeal.S64.Idx → EReal) (a16 : Cert.KernelIdeal.S64.Idx → EReal) (a17 : Cert.KernelIdeal.S64.Idx → EReal) (a18 : Arr 64 2) (a19 : Cert.KernelIdeal.S2.Idx → EReal) (h0 : RealArr a0) (h1 : RealArr a1) (h6 : RealArr a6) (h7 : RealArr a7) (h8 : RealArr a8) (h9 : RealArr a9) (h10 : RealArr a10) (h11 : RealArr a11) (h12 : RealArr a12) (h13 : RealArr a13) (h14 : RealArr a14) (h15 : RealArr a15) (h16 : RealArr a16) (h17 : RealArr a17) (h18 : RealArr a18) (h19 : RealArr a19) : Cert.ReferenceIdeal.Hand.result (F := Ideal) ⟨a0, a1, a2, a3, a4, a5, a6, a7, a8, a9, a10, a11, a12, a13, a14, a15, a16, a17, a18, a19⟩ = kRes a0 a1 a2 a3 a4 a5 a6 a7 a8 a9 a10 a11 a12 a13 a14 a15 a16 a17 a18 a19 := by
  show Cert.ReferenceIdeal.Hand.lin2 (F := Ideal) (Cert.ReferenceIdeal.Hand.h3 (F := Ideal) ⟨a0, a1, a2, a3, a4, a5, a6, a7, a8, a9, a10, a11, a12, a13, a14, a15, a16, a17, a18, a19⟩) a18 a19 = _
  rw [h3_eq a0 a1 a2 a3 a4 a5 a6 a7 a8 a9 a10 a11 a12 a13 a14 a15 a16 a17 a18 a19 h0 h1 h6 h7 h8 h9 h10 h11 h12 h13 h14 h15, Cert.ReferenceIdeal.Hand.lin2_eq, ← kRow2_eq_row]
  rfl

end Cert.Bridge

end
-- ==== Proof.Finite.lean ====
/-
  From the precondition to real inputs.

  The precondition states, for every float argument `x`, that `|x| < +inf` holds at every index (the
  conjunction over all indices, and then over all arguments, is the single bit the claim asks to be one).  At
  the exact instance a float is an extended real and `|x| = max x (-x)`; it lies below `+inf` exactly when
  `x` is neither infinity, that is, when `x` is a real number.  This file reads the bit back, argument by
  argument.
-/
import Idealize.ShloMosaic.Lib.ReduceAll
import Idealize.ShloMosaic.Lib.ValueIdx
import proofs.«177069_j18983755448416_1_alg».proof.Pre_finite_inputs
import proofs.«177069_j18983755448416_1_alg».proof.Proof.LibRealValued

noncomputable section

namespace Cert.Spec

open Idealize.ShloMosaic Idealize.ShloMosaic.ValueIdx Cert.Lib

/-- The bit pattern of `+inf` denotes the top element. -/
theorem ofBits_inf : Ideal.ofBits .f32 0x7F800000#32 = (⊤ : EReal) := by
  simp [Ideal.ofBits, Ideal.ieee]

/-- An extended real whose absolute value is below `+inf` is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => exact absurd h (by simp [Ideal.cmp])
  | top => exact absurd h (by simp [Ideal.cmp])
  | coe r => exact ⟨r, rfl⟩

instance subsingleton_scalar_idx : Subsingleton (⟨0, ![]⟩ : Shape).Idx := ⟨fun a b => funext fun d => d.elim0⟩

/-- One argument's conjunct: if the conjunction over all indices of `|x| < +inf` is one, every entry of `x`
    is a real number. -/
theorem real_of_all_finite {s : Shape} {axes : List (Fin s.rank)}
    (hb : (⟨0, ![]⟩ : Shape).BroadcastsInDim s (![] : Fin 0 → Fin s.rank))
    (hr : s.ReducesTo axes (⟨0, ![]⟩ : Shape)) (h0 : 0 < (⟨0, ![]⟩ : Shape).numel) (x : FVec Ideal s .f32)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 ix0 = 1#1) :
    ∀ i, IsReal (x i) := fun i =>
  isReal_of_abs_lt_inf (x i) (Host.reduce_andi_all _ _ hr h0 ix0 e i)

open Cert.Pre_finite_inputs in
/-- The precondition read back: when the predicate is one, each of the sixteen float arguments (the
    features, the cross basis, and per layer the weight, the bias, the scale and the shift, then the final
    weight and bias) has only real entries.  The four integer arguments are unconstrained. -/
theorem real_inputs [Cert.Pre_finite_inputs.Facts]
    (a0 : FVec Ideal S50000x128 .f32) (a1 : FVec Ideal S2x2x4x64x64 .f32) (a2 : IVec S800000 32) (a3 : IVec S800000 32)
    (a4 : IVec S50000 32) (a5 : IVec S800000 32) (a6 : FVec Ideal S128x64 .f32) (a7 : FVec Ideal S64 .f32)
    (a8 : FVec Ideal S64 .f32) (a9 : FVec Ideal S64 .f32) (a10 : FVec Ideal S64x64 .f32) (a11 : FVec Ideal S64 .f32)
    (a12 : FVec Ideal S64 .f32) (a13 : FVec Ideal S64 .f32) (a14 : FVec Ideal S64x64 .f32) (a15 : FVec Ideal S64 .f32)
    (a16 : FVec Ideal S64 .f32) (a17 : FVec Ideal S64 .f32) (a18 : FVec Ideal S64x2 .f32) (a19 : FVec Ideal S2 .f32)
    (h : Cert.Pre_finite_inputs.fn (F := Ideal) a0 a1 a2 a3 a4 a5 a6 a7 a8 a9 a10 a11 a12 a13 a14 a15 a16 a17 a18 a19
          = (fun _ => 1#1)) :
    (∀ i, IsReal (a0 i)) ∧ (∀ i, IsReal (a1 i)) ∧ (∀ i, IsReal (a6 i)) ∧ (∀ i, IsReal (a7 i)) ∧ (∀ i, IsReal (a8 i))
      ∧ (∀ i, IsReal (a9 i)) ∧ (∀ i, IsReal (a10 i)) ∧ (∀ i, IsReal (a11 i)) ∧ (∀ i, IsReal (a12 i))
      ∧ (∀ i, IsReal (a13 i)) ∧ (∀ i, IsReal (a14 i)) ∧ (∀ i, IsReal (a15 i)) ∧ (∀ i, IsReal (a16 i))
      ∧ (∀ i, IsReal (a17 i)) ∧ (∀ i, IsReal (a18 i)) ∧ (∀ i, IsReal (a19 i)) := by
  have h := congrFun h ix0
  dsimp only [Cert.Pre_finite_inputs.fn, fn_part1, fn_part2, fn_part3, fn_part4] at h
  simp only [andi, IntOp.andi_eq_one, and_assoc] at h
  obtain ⟨h0, h1, h6, h7, h8, h9, h10, h11, h12, h13, h14, h15, h16, h17, h18, h19⟩ := h
  exact ⟨real_of_all_finite _ _ _ a0 h0, real_of_all_finite _ _ _ a1 h1, real_of_all_finite _ _ _ a6 h6,
    real_of_all_finite _ _ _ a7 h7, real_of_all_finite _ _ _ a8 h8, real_of_all_finite _ _ _ a9 h9,
    real_of_all_finite _ _ _ a10 h10, real_of_all_finite _ _ _ a11 h11, real_of_all_finite _ _ _ a12 h12,
    real_of_all_finite _ _ _ a13 h13, real_of_all_finite _ _ _ a14 h14, real_of_all_finite _ _ _ a15 h15,
    real_of_all_finite _ _ _ a16 h16, real_of_all_finite _ _ _ a17 h17, real_of_all_finite _ _ _ a18 h18,
    real_of_all_finite _ _ _ a19 h19⟩

end Cert.Spec

end
-- ==== Proof.Alg.lean ====
import proofs.«177069_j18983755448416_1_alg».proof.Defs
import proofs.«177069_j18983755448416_1_alg».proof.Proof.Gen.KernelIdeal
import proofs.«177069_j18983755448416_1_alg».proof.Proof.Gen.ReferenceIdeal
import proofs.«177069_j18983755448416_1_alg».proof.Proof.Gen.Pre_finite_inputs
import proofs.«177069_j18983755448416_1_alg».proof.Proof.KI.Run
import proofs.«177069_j18983755448416_1_alg».proof.Proof.KI.Value
import proofs.«177069_j18983755448416_1_alg».proof.Proof.Ref.Run
import proofs.«177069_j18983755448416_1_alg».proof.Proof.Bridge
import proofs.«177069_j18983755448416_1_alg».proof.Proof.Finite

/-! # The two idealized programs end with equal results

Over the extended reals the first program's result buffer ends at the composition of the network's stages on its
twenty argument arrays, and the second program's at its own composition on its arguments. The precondition makes
every float argument real, the two memories agree on the arguments, and for real arguments the two compositions
are one function: the bias rows are laid out by a reshape or by a broadcast, the product against the basis is taken
against the re-laid basis or against its sixteen blocks, and the clamped one-pass variance of a real column is its
two-pass variance. -/

noncomputable section

namespace Cert.Proof

open Idealize.ShloMosaic Idealize.ShloMosaic.TcCoe Idealize.SL.Sem

section Kernel

open Cert.KernelIdeal Cert.KernelIdeal.Gen Cert.KernelIdeal.Hand

variable (m : (ℓ : Loc nD τ sig) → Buf (Elt Ideal) ℓ) (ρ : Dev nD → PrngReg)

/-- The first program's stages, composed, are the network as a function of the twenty arrays. -/
theorem sRes_eq (c : Dev nD) : sRes m c = Cert.Bridge.kRes (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) := rfl

/-- The first program runs; its result buffer ends at the last boundary's contents and its arguments as launched. -/
theorem kernel_run : θ_run (defs (F := Ideal)) (onTc (τ := τ) (main (F := Ideal))) ⟨m, fun _ => 0, ρ⟩ (fun r => ∀ c : Dev nD,
      r.2.mem ((c.tc : Thread nD τ).loc main_v120) = W20 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨h c _ (mem_uc main_v120 (by decide)),
    (h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c),
    (h c _ (mem_uc main_arg6 (by decide))).trans (W20_main_arg6 m ρ c),
    (h c _ (mem_uc main_arg7 (by decide))).trans (W20_main_arg7 m ρ c),
    (h c _ (mem_uc main_arg8 (by decide))).trans (W20_main_arg8 m ρ c),
    (h c _ (mem_uc main_arg9 (by decide))).trans (W20_main_arg9 m ρ c),
    (h c _ (mem_uc main_arg10 (by decide))).trans (W20_main_arg10 m ρ c),
    (h c _ (mem_uc main_arg11 (by decide))).trans (W20_main_arg11 m ρ c),
    (h c _ (mem_uc main_arg12 (by decide))).trans (W20_main_arg12 m ρ c),
    (h c _ (mem_uc main_arg13 (by decide))).trans (W20_main_arg13 m ρ c),
    (h c _ (mem_uc main_arg14 (by decide))).trans (W20_main_arg14 m ρ c),
    (h c _ (mem_uc main_arg15 (by decide))).trans (W20_main_arg15 m ρ c),
    (h c _ (mem_uc main_arg16 (by decide))).trans (W20_main_arg16 m ρ c),
    (h c _ (mem_uc main_arg17 (by decide))).trans (W20_main_arg17 m ρ c),
    (h c _ (mem_uc main_arg18 (by decide))).trans (W20_main_arg18 m ρ c),
    (h c _ (mem_uc main_arg19 (by decide))).trans (W20_main_arg19 m ρ c)⟩) (run_all m ρ)

/-- The second program's argument arrays are the first's, where the memories agree on the arguments. -/
theorem inputs_eq (m' : (ℓ : Loc Cert.ReferenceIdeal.nD Cert.ReferenceIdeal.τ Cert.ReferenceIdeal.sig) → Buf (Elt Ideal) ℓ) (c : Dev nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.Hand.inputsOf m' c = (⟨A0 m c, A1 m c, A2 m c, A3 m c, A4 m c, A5 m c, A6 m c, A7 m c, A8 m c, A9 m c, A10 m c, A11 m c, A12 m c, A13 m c, A14 m c, A15 m c, A16 m c, A17 m c, A18 m c, A19 m c⟩ : Cert.ReferenceIdeal.Hand.Inputs Ideal) := by
  obtain ⟨e0, e1, e2, e3, e4, e5, e6, e7, e8, e9, e10, e11, e12, e13, e14, e15, e16, e17, e18, e19⟩ := hag
  unfold Cert.ReferenceIdeal.Hand.inputsOf
  rw [e0, e1, e2, e3, e4, e5, e6, e7, e8, e9, e10, e11, e12, e13, e14, e15, e16, e17, e18, e19]

/-- Under the precondition, and from memories agreeing on the arguments, the second program's network of its
    arguments is what the first program's result buffer ends at. -/
theorem ref_eq (m' : (ℓ : Loc Cert.ReferenceIdeal.nD Cert.ReferenceIdeal.τ Cert.ReferenceIdeal.sig) → Buf (Elt Ideal) ℓ) (c : Dev nD)
    (hpre : Cert.Pre_KernelIdeal m)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.Hand.result (F := Ideal) (Cert.ReferenceIdeal.Hand.inputsOf m' c) = W20 m ρ c (Proc.devRef .tc main_v120) := by
  obtain ⟨r0, r1, r6, r7, r8, r9, r10, r11, r12, r13, r14, r15, r16, r17, r18, r19⟩ := Cert.Spec.real_inputs (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (hpre c)
  rw [inputs_eq m m' c hag]
  refine (Cert.Bridge.result_bridge (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) r0 r1 r6 r7 r8 r9 r10 r11 r12 r13 r14 r15 r16 r17 r18 r19).trans ?_
  exact ((result_eq m ρ c).trans (sRes_eq m c)).symm

end Kernel

/-- At the exact instance, from memories agreeing on the arguments and under the precondition, both programs run and
    end with equal results and unchanged arguments. -/
theorem algebraic : Cert.algebraic_KernelIdeal_ReferenceIdeal := by
  intro m ρ m' ρ' hpre hagree
  refine ⟨fun c => Cert.KernelIdeal.Hand.W20 m ρ c (Proc.devRef .tc Cert.KernelIdeal.main_v120), kernel_run m ρ, ?_⟩
  exact (θ_run Cert.ReferenceIdeal.defs _ _).mono
    (fun r h c => ⟨(h c).1.trans (ref_eq m ρ m' c hpre (hagree c)), (h c).2⟩)
    (Cert.ReferenceIdeal.Hand.run (F := Ideal) m' ρ')

end Cert.Proof

end
-- ==== Proof.lean ====
/-
  The certificate of a three-layer message-passing network over 50000 nodes and 800000 edges: a Pallas
  implementation (per layer a node transform with its image under sixteen cross-basis matrices, an
  aggregation of gathered rows by a scatter-add over the destinations, a residual sum with per-feature
  sums and sums of squares accumulated tile by tile, a normalisation with rectification; then a last affine
  map) against its jnp reference.

  The three frames: every weakly fair execution of each program terminates, faults nowhere and leaves the
  argument arrays as launched. For the two kernel programs this is the run of @main's twenty items, a host
  stretch then a kernel region ten times over, each region's body run once per grid point; for the
  reference it is the run of its host operations.

  The idealization rewrote nothing, so it preserves the kernel trivially.

  At the exact extended-real reading both programs end with equal results. Every stage agrees entry by
  entry: a row times a matrix is the same finite sum however it is tiled; the kernel's re-laid basis indexes
  the same entries as the reference's three-axis contraction; both apply the same gather and scatter-add to
  equal operands; and, every input being finite, every intermediate entry is a real number, for which the
  one-pass variance  Q/n − (S/n)²  is nonnegative and equals the mean of squared deviations, so that the
  kernel's clamp at zero changes nothing.
-/
import proofs.«177069_j18983755448416_1_alg».proof.Defs
import proofs.«177069_j18983755448416_1_alg».proof.Proof.Gen.Kernel
import proofs.«177069_j18983755448416_1_alg».proof.Proof.Gen.KernelIdeal
import proofs.«177069_j18983755448416_1_alg».proof.Proof.Gen.ReferenceIdeal
import proofs.«177069_j18983755448416_1_alg».proof.Proof.Gen.Pre_finite_inputs
import proofs.«177069_j18983755448416_1_alg».proof.Proof.KB.Run
import proofs.«177069_j18983755448416_1_alg».proof.Proof.KI.Run
import proofs.«177069_j18983755448416_1_alg».proof.Proof.Ref.Frame
import proofs.«177069_j18983755448416_1_alg».proof.Proof.Alg
import Idealize.ShloMosaic.Adequacy
import Idealize.ShloMosaic.Init

noncomputable section

namespace Cert.Proof

open Idealize.ShloMosaic Idealize.SL.Sem

/-- The word-level kernel's frame: the run of its twenty items. -/
theorem frame_k : Cert.frame_Kernel := fun m ρ _ => Cert.Kernel.Hand.frame m ρ

/-- The idealized kernel's frame: the same run at the exact instance. -/
theorem frame_ki : Cert.frame_KernelIdeal := fun m ρ _ => Cert.KernelIdeal.Hand.frame m ρ

/-- The reference's frame: its run with the result dropped. -/
theorem frame_ri : Cert.frame_ReferenceIdeal := Cert.ReferenceIdeal.Hand.frame_ri

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.algebraic⟩

end Cert.Proof

end
